-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S256x64 : Shape := ⟨2, ![256, 64]⟩
abbrev S1 : Shape := ⟨1, ![1]⟩
abbrev S64x129 : Shape := ⟨2, ![64, 129]⟩
abbrev S129 : Shape := ⟨1, ![129]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S1 : S_.BroadcastsInDim S1 (![] : Fin 0 → Fin S1.rank)
  reducesTo_S1_S_d0 : S1.ReducesTo [0] S_
  bcast_S_S64x129 : S_.BroadcastsInDim S64x129 (![] : Fin 0 → Fin S64x129.rank)
  reducesTo_S64x129_S_d0_1 : S64x129.ReducesTo [0, 1] S_
  bcast_S_S129 : S_.BroadcastsInDim S129 (![] : Fin 0 → Fin S129.rank)
  reducesTo_S129_S_d0 : S129.ReducesTo [0] S_

variable [Facts]

def fn_part6 {F : FTy → Type} [FloatOps F] (main_arg25 : FVec F S64 .f32) (main_arg26 : FVec F S64x129 .f32) (main_arg27 : FVec F S129 .f32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64 .f32 := Host.absf main_arg25
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x129 .f32 := Host.absf main_arg26
  let main_cst_42 : FVec F S_ .f32 := constant S_ .f32 0x7F800000#32
  let main_v110 : FVec F S64x129 .f32 := broadcastInDim S64x129 ![] bcast_S_S64x129 main_cst_42
  let main_v111 : IVec S64x129 1 := cmpf .olt main_v109 main_v110
  let main_c_43 : IVec S_ 1 := constantI S_ 1 1#1
  let main_v112 : IVec S_ 1 := (fun x v => Host.reduce IntOp.andi x v reducesTo_S64x129_S_d0_1 h_S_) main_v111 main_c_43
  let main_v113 : IVec S_ 1 := andi main_v108 main_v112
  let main_v114 : FVec F S129 .f32 := Host.absf main_arg27
  let main_cst_44 : FVec F S_ .f32 := constant S_ .f32 0x7F800000#32
  let main_v115 : FVec F S129 .f32 := broadcastInDim S129 ![] bcast_S_S129 main_cst_44
  let main_v116 : IVec S129 1 := cmpf .olt main_v114 main_v115
  let main_c_45 : IVec S_ 1 := constantI S_ 1 1#1
  let main_v117 : IVec S_ 1 := (fun x v => Host.reduce IntOp.andi x v reducesTo_S129_S_d0 h_S_) main_v116 main_c_45
  let main_v118 : IVec S_ 1 := andi main_v113 main_v117
  main_v118

def fn_part5 {F : FTy → Type} [FloatOps F] (main_arg22 : FVec F S64 .f32) (main_arg23 : FVec F S1 .f32) (main_arg24 : FVec F S64x64 .f32) (main_arg25 : FVec F S64 .f32) (main_arg26 : FVec F S64x129 .f32) (main_arg27 : FVec F S129 .f32) (main_v83 : IVec S_ 1) (main_v84 : FVec F S256x64 .f32) (main_cst_32 : FVec F S_ .f32) : IVec S_ 1 :=
  let main_v85 : FVec F S256x64 .f32 := broadcastInDim S256x64 ![] bcast_S_S256x64 main_cst_32
  let main_v86 : IVec S256x64 1 := cmpf .olt main_v84 main_v85
  let main_c_33 : IVec S_ 1 := constantI S_ 1 1#1
  let main_v87 : IVec S_ 1 := (fun x v => Host.reduce IntOp.andi x v reducesTo_S256x64_S_d0_1 h_S_) main_v86 main_c_33
  let main_v88 : IVec S_ 1 := andi main_v83 main_v87
  let main_v89 : FVec F S64 .f32 := Host.absf main_arg22
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S1 .f32 := Host.absf main_arg23
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S64x64 .f32 := Host.absf main_arg24
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg25 main_arg26 main_arg27 main_v98 main_v101 main_c_39

def fn_part4 {F : FTy → Type} [FloatOps F] (main_arg18 : FVec F S64 .f32) (main_arg19 : FVec F S64 .f32) (main_arg20 : FVec F S64 .f32) (main_arg21 : FVec F S256x64 .f32) (main_arg22 : FVec F S64 .f32) (main_arg23 : FVec F S1 .f32) (main_arg24 : FVec F S64x64 .f32) (main_arg25 : FVec F S64 .f32) (main_arg26 : FVec F S64x129 .f32) (main_arg27 : FVec F S129 .f32) (main_v63 : IVec S_ 1) (main_v67 : IVec S_ 1) : IVec S_ 1 :=
  let main_v68 : IVec S_ 1 := andi main_v63 main_v67
  let main_v69 : FVec F S64 .f32 := Host.absf main_arg18
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg19
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg20
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S256x64 .f32 := Host.absf main_arg21
  let main_cst_32 : FVec F S_ .f32 := constant S_ .f32 0x7F800000#32
  fn_part5 (F := F) main_arg22 main_arg23 main_arg24 main_arg25 main_arg26 main_arg27 main_v83 main_v84 main_cst_32

def fn_part3 {F : FTy → Type} [FloatOps F] (main_arg15 : FVec F S64 .f32) (main_arg16 : FVec F S64 .f32) (main_arg17 : FVec F S64x64 .f32) (main_arg18 : FVec F S64 .f32) (main_arg19 : FVec F S64 .f32) (main_arg20 : FVec F S64 .f32) (main_arg21 : FVec F S256x64 .f32) (main_arg22 : FVec F S64 .f32) (main_arg23 : FVec F S1 .f32) (main_arg24 : FVec F S64x64 .f32) (main_arg25 : FVec F S64 .f32) (main_arg26 : FVec F S64x129 .f32) (main_arg27 : FVec F S129 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg16
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg17
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg18 main_arg19 main_arg20 main_arg21 main_arg22 main_arg23 main_arg24 main_arg25 main_arg26 main_arg27 main_v63 main_v67

def fn_part2 {F : FTy → Type} [FloatOps F] (main_arg11 : FVec F S64 .f32) (main_arg12 : FVec F S64 .f32) (main_arg13 : FVec F S64x64 .f32) (main_arg14 : FVec F S64 .f32) (main_arg15 : FVec F S64 .f32) (main_arg16 : FVec F S64 .f32) (main_arg17 : FVec F S64x64 .f32) (main_arg18 : FVec F S64 .f32) (main_arg19 : FVec F S64 .f32) (main_arg20 : FVec F S64 .f32) (main_arg21 : FVec F S256x64 .f32) (main_arg22 : FVec F S64 .f32) (main_arg23 : FVec F S1 .f32) (main_arg24 : FVec F S64x64 .f32) (main_arg25 : FVec F S64 .f32) (main_arg26 : FVec F S64x129 .f32) (main_arg27 : FVec F S129 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg12
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg13
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg14
  let main_cst_18 : FVec F S_ .f32 := constant S_ .f32 0x7F800000#32
  let main_v50 : FVec F S64 .f32 := broadcastInDim S64 ![] bcast_S_S64 main_cst_18
  fn_part3 (F := F) main_arg15 main_arg16 main_arg17 main_arg18 main_arg19 main_arg20 main_arg21 main_arg22 main_arg23 main_arg24 main_arg25 main_arg26 main_arg27 main_v48 main_v49 main_v50

def fn_part1 {F : FTy → Type} [FloatOps F] (main_arg8 : FVec F S64 .f32) (main_arg9 : FVec F S64x64 .f32) (main_arg10 : FVec F S64 .f32) (main_arg11 : FVec F S64 .f32) (main_arg12 : FVec F S64 .f32) (main_arg13 : FVec F S64x64 .f32) (main_arg14 : FVec F S64 .f32) (main_arg15 : FVec F S64 .f32) (main_arg16 : FVec F S64 .f32) (main_arg17 : FVec F S64x64 .f32) (main_arg18 : FVec F S64 .f32) (main_arg19 : FVec F S64 .f32) (main_arg20 : FVec F S64 .f32) (main_arg21 : FVec F S256x64 .f32) (main_arg22 : FVec F S64 .f32) (main_arg23 : FVec F S1 .f32) (main_arg24 : FVec F S64x64 .f32) (main_arg25 : FVec F S64 .f32) (main_arg26 : FVec F S64x129 .f32) (main_arg27 : FVec F S129 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg9
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S100000x64 .f32) (main_arg1 : IVec S1250000 32) (main_arg2 : IVec S1250000 32) (main_arg3 : IVec S1250000 32) (main_arg4 : IVec S1250000 32) (main_arg5 : FVec F S64x64 .f32) (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64x64 .f32) (main_arg14 : FVec F S64 .f32) (main_arg15 : FVec F S64 .f32) (main_arg16 : FVec F S64 .f32) (main_arg17 : FVec F S64x64 .f32) (main_arg18 : FVec F S64 .f32) (main_arg19 : FVec F S64 .f32) (main_arg20 : FVec F S64 .f32) (main_arg21 : FVec F S256x64 .f32) (main_arg22 : FVec F S64 .f32) (main_arg23 : FVec F S1 .f32) (main_arg24 : FVec F S64x64 .f32) (main_arg25 : FVec F S64 .f32) (main_arg26 : FVec F S64x129 .f32) (main_arg27 : FVec F S129 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg5
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg6
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S256x64 : Shape := ⟨2, ![256, 64]⟩
abbrev S1 : Shape := ⟨1, ![1]⟩
abbrev S64x129 : Shape := ⟨2, ![64, 129]⟩
abbrev S129 : Shape := ⟨1, ![129]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S1x64 : Shape := ⟨2, ![1, 64]⟩
abbrev S2000x64 : Shape := ⟨2, ![2000, 64]⟩
abbrev S2000x1 : Shape := ⟨2, ![2000, 1]⟩
abbrev S1x1 : Shape := ⟨2, ![1, 1]⟩
abbrev S1x129 : Shape := ⟨2, ![1, 129]⟩
abbrev S100000x129 : Shape := ⟨2, ![100000, 129]⟩
abbrev S2000x129 : Shape := ⟨2, ![2000, 129]⟩

abbrev nBuf : Space → Nat
  | .hbm => 285
  | .vmem => 76
  | .smem => 0
  | _ => 0

abbrev hbmTy0_0 (i : Nat) : BufTy := match i % 128 with
  | 0 => ⟨S100000x64, .f32⟩
  | 1 => ⟨S1250000, .i32⟩
  | 2 => ⟨S1250000, .i32⟩
  | 3 => ⟨S1250000, .i32⟩
  | 4 => ⟨S1250000, .i32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64x64, .f32⟩
  | 14 => ⟨S64, .f32⟩
  | 15 => ⟨S64, .f32⟩
  | 16 => ⟨S64, .f32⟩
  | 17 => ⟨S64x64, .f32⟩
  | 18 => ⟨S64, .f32⟩
  | 19 => ⟨S64, .f32⟩
  | 20 => ⟨S64, .f32⟩
  | 21 => ⟨S256x64, .f32⟩
  | 22 => ⟨S64, .f32⟩
  | 23 => ⟨S1, .f32⟩
  | 24 => ⟨S64x64, .f32⟩
  | 25 => ⟨S64, .f32⟩
  | 26 => ⟨S64x129, .f32⟩
  | 27 => ⟨S129, .f32⟩
  | 28 => ⟨S_, .f32⟩
  | 29 => ⟨S1250000, .f32⟩
  | 30 => ⟨S_, .f32⟩
  | 31 => ⟨S100000, .f32⟩
  | 32 => ⟨S1250000x1, .i32⟩
  | 33 => ⟨S100000, .f32⟩
  | 34 => ⟨S_, .f32⟩
  | 35 => ⟨S100000, .f32⟩
  | 36 => ⟨S1250000x1, .i32⟩
  | 37 => ⟨S100000, .f32⟩
  | 38 => ⟨S_, .f32⟩
  | 39 => ⟨S_, .f32⟩
  | 40 => ⟨S100000, .f32⟩
  | 41 => ⟨S100000, .f32⟩
  | 42 => ⟨S100000, .f32⟩
  | 43 => ⟨S_, .f32⟩
  | 44 => ⟨S_, .f32⟩
  | 45 => ⟨S100000, .f32⟩
  | 46 => ⟨S100000, .f32⟩
  | 47 => ⟨S100000, .f32⟩
  | 48 => ⟨S100000x1, .f32⟩
  | 49 => ⟨S100000x64, .f32⟩
  | 50 => ⟨S100000x64, .f32⟩
  | 51 => ⟨S100000x64, .bf16⟩
  | 52 => ⟨S_, .i32⟩
  | 53 => ⟨S1250000, .i32⟩
  | 54 => ⟨S1250000, .i1⟩
  | 55 => ⟨S_, .i32⟩
  | 56 => ⟨S1250000, .i32⟩
  | 57 => ⟨S1250000, .i32⟩
  | 58 => ⟨S1250000, .i32⟩
  | 59 => ⟨S1250000x1, .i32⟩
  | 60 => ⟨S1250000x64, .bf16⟩
  | 61 => ⟨S1250000x64, .f32⟩
  | 62 => ⟨S_, .f32⟩
  | 63 => ⟨S100000x64, .f32⟩
  | 64 => ⟨S1250000x1, .i32⟩
  | 65 => ⟨S100000x64, .f32⟩
  | 66 => ⟨S1x64, .f32⟩
  | 67 => ⟨S100000x1, .f32⟩
  | 68 => ⟨S100000x64, .f32⟩
  | 69 => ⟨S_, .f32⟩
  | 70 => ⟨S64, .f32⟩
  | 71 => ⟨S_, .f32⟩
  | 72 => ⟨S64, .f32⟩
  | 73 => ⟨S64, .f32⟩
  | 74 => ⟨S1x64, .f32⟩
  | 75 => ⟨S_, .i32⟩
  | 76 => ⟨S_, .f32⟩
  | 77 => ⟨S64, .f32⟩
  | 78 => ⟨S1x64, .f32⟩
  | 79 => ⟨S_, .f32⟩
  | 80 => ⟨S1x64, .f32⟩
  | 81 => ⟨S1x64, .f32⟩
  | 82 => ⟨S100000x64, .f32⟩
  | 83 => ⟨S100000x64, .f32⟩
  | 84 => ⟨S100000x64, .f32⟩
  | 85 => ⟨S_, .f32⟩
  | 86 => ⟨S_, .f32⟩
  | 87 => ⟨S_, .f32⟩
  | 88 => ⟨S_, .f32⟩
  | 89 => ⟨S64, .f32⟩
  | 90 => ⟨S64, .f32⟩
  | 91 => ⟨S64, .f32⟩
  | 92 => ⟨S_, .f32⟩
  | 93 => ⟨S_, .i1⟩
  | 94 => ⟨S_, .f32⟩
  | 95 => ⟨S_, .f32⟩
  | 96 => ⟨S64, .f32⟩
  | 97 => ⟨S64, .f32⟩
  | 98 => ⟨S1x64, .f32⟩
  | 99 => ⟨S1x64, .f32⟩
  | 100 => ⟨S1x64, .f32⟩
  | 101 => ⟨S100000x1, .f32⟩
  | 102 => ⟨S100000x64, .bf16⟩
  | 103 => ⟨S_, .i32⟩
  | 104 => ⟨S1250000, .i32⟩
  | 105 => ⟨S1250000, .i1⟩
  | 106 => ⟨S_, .i32⟩
  | 107 => ⟨S1250000, .i32⟩
  | 108 => ⟨S1250000, .i32⟩
  | 109 => ⟨S1250000, .i32⟩
  | 110 => ⟨S1250000x1, .i32⟩
  | 111 => ⟨S1250000x64, .bf16⟩
  | 112 => ⟨S1250000x64, .f32⟩
  | 113 => ⟨S_, .f32⟩
  | 114 => ⟨S100000x64, .f32⟩
  | 115 => ⟨S1250000x1, .i32⟩
  | 116 => ⟨S100000x64, .f32⟩
  | 117 => ⟨S1x64, .f32⟩
  | 118 => ⟨S100000x1, .f32⟩
  | 119 => ⟨S100000x64, .f32⟩
  | 120 => ⟨S_, .f32⟩
  | 121 => ⟨S64, .f32⟩
  | 122 => ⟨S_, .f32⟩
  | 123 => ⟨S64, .f32⟩
  | 124 => ⟨S64, .f32⟩
  | 125 => ⟨S_, .i32⟩
  | 126 => ⟨S_, .f32⟩
  | 127 => ⟨S64, .f32⟩
  | _ => ⟨S100000x64, .f32⟩

abbrev hbmTy0_1 (i : Nat) : BufTy := match i % 128 with
  | 0 => ⟨S1x64, .f32⟩
  | 1 => ⟨S_, .f32⟩
  | 2 => ⟨S1x64, .f32⟩
  | 3 => ⟨S1x64, .f32⟩
  | 4 => ⟨S100000x64, .f32⟩
  | 5 => ⟨S100000x64, .f32⟩
  | 6 => ⟨S100000x64, .f32⟩
  | 7 => ⟨S_, .f32⟩
  | 8 => ⟨S_, .f32⟩
  | 9 => ⟨S_, .f32⟩
  | 10 => ⟨S_, .f32⟩
  | 11 => ⟨S64, .f32⟩
  | 12 => ⟨S64, .f32⟩
  | 13 => ⟨S64, .f32⟩
  | 14 => ⟨S_, .f32⟩
  | 15 => ⟨S_, .i1⟩
  | 16 => ⟨S_, .f32⟩
  | 17 => ⟨S_, .f32⟩
  | 18 => ⟨S64, .f32⟩
  | 19 => ⟨S64, .f32⟩
  | 20 => ⟨S_, .f32⟩
  | 21 => ⟨S1250000, .f32⟩
  | 22 => ⟨S_, .f32⟩
  | 23 => ⟨S100000, .f32⟩
  | 24 => ⟨S1250000x1, .i32⟩
  | 25 => ⟨S100000, .f32⟩
  | 26 => ⟨S_, .f32⟩
  | 27 => ⟨S100000, .f32⟩
  | 28 => ⟨S1250000x1, .i32⟩
  | 29 => ⟨S100000, .f32⟩
  | 30 => ⟨S_, .f32⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S100000, .f32⟩
  | 40 => ⟨S100000x1, .f32⟩
  | 41 => ⟨S100000x64, .f32⟩
  | 42 => ⟨S100000x64, .f32⟩
  | 43 => ⟨S100000x64, .bf16⟩
  | 44 => ⟨S_, .i32⟩
  | 45 => ⟨S1250000, .i32⟩
  | 46 => ⟨S1250000, .i1⟩
  | 47 => ⟨S_, .i32⟩
  | 48 => ⟨S1250000, .i32⟩
  | 49 => ⟨S1250000, .i32⟩
  | 50 => ⟨S1250000, .i32⟩
  | 51 => ⟨S1250000x1, .i32⟩
  | 52 => ⟨S1250000x64, .bf16⟩
  | 53 => ⟨S1250000x64, .f32⟩
  | 54 => ⟨S_, .f32⟩
  | 55 => ⟨S100000x64, .f32⟩
  | 56 => ⟨S1250000x1, .i32⟩
  | 57 => ⟨S100000x64, .f32⟩
  | 58 => ⟨S1x64, .f32⟩
  | 59 => ⟨S100000x1, .f32⟩
  | 60 => ⟨S100000x64, .f32⟩
  | 61 => ⟨S_, .f32⟩
  | 62 => ⟨S64, .f32⟩
  | 63 => ⟨S_, .f32⟩
  | 64 => ⟨S64, .f32⟩
  | 65 => ⟨S64, .f32⟩
  | 66 => ⟨S1x64, .f32⟩
  | 67 => ⟨S_, .i32⟩
  | 68 => ⟨S_, .f32⟩
  | 69 => ⟨S64, .f32⟩
  | 70 => ⟨S1x64, .f32⟩
  | 71 => ⟨S_, .f32⟩
  | 72 => ⟨S1x64, .f32⟩
  | 73 => ⟨S1x64, .f32⟩
  | 74 => ⟨S100000x64, .f32⟩
  | 75 => ⟨S100000x64, .f32⟩
  | 76 => ⟨S100000x64, .f32⟩
  | 77 => ⟨S_, .f32⟩
  | 78 => ⟨S_, .f32⟩
  | 79 => ⟨S_, .f32⟩
  | 80 => ⟨S_, .f32⟩
  | 81 => ⟨S64, .f32⟩
  | 82 => ⟨S64, .f32⟩
  | 83 => ⟨S64, .f32⟩
  | 84 => ⟨S_, .f32⟩
  | 85 => ⟨S_, .i1⟩
  | 86 => ⟨S_, .f32⟩
  | 87 => ⟨S_, .f32⟩
  | 88 => ⟨S64, .f32⟩
  | 89 => ⟨S64, .f32⟩
  | 90 => ⟨S1x64, .f32⟩
  | 91 => ⟨S1x64, .f32⟩
  | 92 => ⟨S1x64, .f32⟩
  | 93 => ⟨S100000x1, .f32⟩
  | 94 => ⟨S100000x64, .bf16⟩
  | 95 => ⟨S_, .i32⟩
  | 96 => ⟨S1250000, .i32⟩
  | 97 => ⟨S1250000, .i1⟩
  | 98 => ⟨S_, .i32⟩
  | 99 => ⟨S1250000, .i32⟩
  | 100 => ⟨S1250000, .i32⟩
  | 101 => ⟨S1250000, .i32⟩
  | 102 => ⟨S1250000x1, .i32⟩
  | 103 => ⟨S1250000x64, .bf16⟩
  | 104 => ⟨S1250000x64, .f32⟩
  | 105 => ⟨S_, .f32⟩
  | 106 => ⟨S100000x64, .f32⟩
  | 107 => ⟨S1250000x1, .i32⟩
  | 108 => ⟨S100000x64, .f32⟩
  | 109 => ⟨S1x64, .f32⟩
  | 110 => ⟨S100000x1, .f32⟩
  | 111 => ⟨S100000x64, .f32⟩
  | 112 => ⟨S_, .f32⟩
  | 113 => ⟨S64, .f32⟩
  | 114 => ⟨S_, .f32⟩
  | 115 => ⟨S64, .f32⟩
  | 116 => ⟨S64, .f32⟩
  | 117 => ⟨S_, .i32⟩
  | 118 => ⟨S_, .f32⟩
  | 119 => ⟨S64, .f32⟩
  | 120 => ⟨S1x64, .f32⟩
  | 121 => ⟨S_, .f32⟩
  | 122 => ⟨S1x64, .f32⟩
  | 123 => ⟨S1x64, .f32⟩
  | 124 => ⟨S100000x64, .f32⟩
  | 125 => ⟨S100000x64, .f32⟩
  | 126 => ⟨S100000x64, .f32⟩
  | 127 => ⟨S_, .f32⟩
  | _ => ⟨S100000x64, .f32⟩

abbrev hbmTy0_2 (i : Nat) : BufTy := match i % 128 with
  | 0 => ⟨S_, .f32⟩
  | 1 => ⟨S_, .f32⟩
  | 2 => ⟨S_, .f32⟩
  | 3 => ⟨S64, .f32⟩
  | 4 => ⟨S64, .f32⟩
  | 5 => ⟨S64, .f32⟩
  | 6 => ⟨S_, .f32⟩
  | 7 => ⟨S_, .i1⟩
  | 8 => ⟨S_, .f32⟩
  | 9 => ⟨S_, .f32⟩
  | 10 => ⟨S64, .f32⟩
  | 11 => ⟨S64, .f32⟩
  | 12 => ⟨S64x64, .f32⟩
  | 13 => ⟨S64x64, .f32⟩
  | 14 => ⟨S64x64, .f32⟩
  | 15 => ⟨S64x64, .f32⟩
  | 16 => ⟨S1x64, .f32⟩
  | 17 => ⟨S1x64, .f32⟩
  | 18 => ⟨S1x64, .f32⟩
  | 19 => ⟨S1x64, .f32⟩
  | 20 => ⟨S1x64, .f32⟩
  | 21 => ⟨S1x64, .f32⟩
  | 22 => ⟨S1x64, .f32⟩
  | 23 => ⟨S1x64, .f32⟩
  | 24 => ⟨S1x64, .f32⟩
  | 25 => ⟨S1x1, .f32⟩
  | 26 => ⟨S1x64, .f32⟩
  | 27 => ⟨S1x129, .f32⟩
  | 28 => ⟨S100000x129, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S64x64, .f32⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S2000x1, .f32⟩
  | .local _ .vmem, ⟨15, _⟩ => ⟨S2000x1, .f32⟩
  | .local _ .vmem, ⟨16, _⟩ => ⟨S2000x64, .bf16⟩
  | .local _ .vmem, ⟨17, _⟩ => ⟨S2000x64, .bf16⟩
  | .local _ .vmem, ⟨18, _⟩ => ⟨S2000x64, .f32⟩
  | .local _ .vmem, ⟨19, _⟩ => ⟨S2000x64, .f32⟩
  | .local _ .vmem, ⟨20, _⟩ => ⟨S2000x1, .f32⟩
  | .local _ .vmem, ⟨21, _⟩ => ⟨S2000x1, .f32⟩
  | .local _ .vmem, ⟨22, _⟩ => ⟨S64x64, .f32⟩
  | .local _ .vmem, ⟨23, _⟩ => ⟨S1x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x1, .f32⟩
  | .local _ .vmem, ⟨29, _⟩ => ⟨S2000x1, .f32⟩
  | .local _ .vmem, ⟨30, _⟩ => ⟨S64x64, .f32⟩
  | .local _ .vmem, ⟨31, _⟩ => ⟨S1x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S2000x1, .f32⟩
  | .local _ .vmem, ⟨41, _⟩ => ⟨S2000x1, .f32⟩
  | .local _ .vmem, ⟨42, _⟩ => ⟨S2000x64, .bf16⟩
  | .local _ .vmem, ⟨43, _⟩ => ⟨S2000x64, .bf16⟩
  | .local _ .vmem, ⟨44, _⟩ => ⟨S2000x64, .f32⟩
  | .local _ .vmem, ⟨45, _⟩ => ⟨S2000x64, .f32⟩
  | .local _ .vmem, ⟨46, _⟩ => ⟨S2000x1, .f32⟩
  | .local _ .vmem, ⟨47, _⟩ => ⟨S2000x1, .f32⟩
  | .local _ .vmem, ⟨48, _⟩ => ⟨S64x64, .f32⟩
  | .local _ .vmem, ⟨49, _⟩ => ⟨S1x64, .f32⟩
  | .local _ .vmem, ⟨50, _⟩ => ⟨S2000x64, .f32⟩
  | .local _ .vmem, ⟨51, _⟩ => ⟨S2000x64, .f32⟩
  | .local _ .vmem, ⟨52, _⟩ => ⟨S2000x64, .f32⟩
  | .local _ .vmem, ⟨53, _⟩ => ⟨S2000x64, .f32⟩
  | .local _ .vmem, ⟨54, _⟩ => ⟨S2000x64, .f32⟩
  | .local _ .vmem, ⟨55, _⟩ => ⟨S2000x64, .f32⟩
  | .local _ .vmem, ⟨56, _⟩ => ⟨S1x64, .f32⟩
  | .local _ .vmem, ⟨57, _⟩ => ⟨S1x64, .f32⟩
  | .local _ .vmem, ⟨58, _⟩ => ⟨S1x64, .f32⟩
  | .local _ .vmem, ⟨59, _⟩ => ⟨S1x64, .f32⟩
  | .local _ .vmem, ⟨60, _⟩ => ⟨S1x64, .f32⟩
  | .local _ .vmem, ⟨61, _⟩ => ⟨S1x64, .f32⟩
  | .local _ .vmem, ⟨62, _⟩ => ⟨S1x64, .f32⟩
  | .local _ .vmem, ⟨63, _⟩ => ⟨S1x64, .f32⟩
  | .local _ .vmem, ⟨64, _⟩ => ⟨S64x64, .f32⟩
  | .local _ .vmem, ⟨65, _⟩ => ⟨S64x64, .f32⟩
  | .local _ .vmem, ⟨66, _⟩ => ⟨S64x64, .f32⟩
  | .local _ .vmem, ⟨67, _⟩ => ⟨S64x64, .f32⟩
  | .local _ .vmem, ⟨68, _⟩ => ⟨S1x64, .f32⟩
  | .local _ .vmem, ⟨69, _⟩ => ⟨S1x1, .f32⟩
  | .local _ .vmem, ⟨70, _⟩ => ⟨S64x64, .f32⟩
  | .local _ .vmem, ⟨71, _⟩ => ⟨S1x64, .f32⟩
  | .local _ .vmem, ⟨72, _⟩ => ⟨S64x129, .f32⟩
  | .local _ .vmem, ⟨73, _⟩ => ⟨S1x129, .f32⟩
  | .local _ .vmem, ⟨74, _⟩ => ⟨S2000x129, .f32⟩
  | .local _ .vmem, ⟨75, _⟩ => ⟨S2000x129, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_cst_0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_v7 : Ref sig .tc := ⟨.hbm, 41, rfl⟩
abbrev main_v8 : Ref sig .tc := ⟨.hbm, 42, rfl⟩
abbrev main_cst_3 : Ref sig .tc := ⟨.hbm, 43, rfl⟩
abbrev main_call1_v0 : Ref sig .tc := ⟨.hbm, 44, rfl⟩
abbrev main_call1_v1 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_c : Ref sig .tc := ⟨.hbm, 52, rfl⟩
abbrev main_v15 : Ref sig .tc := ⟨.hbm, 53, rfl⟩
abbrev main_v16 : Ref sig .tc := ⟨.hbm, 54, rfl⟩
abbrev main_c_4 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_5 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_6 : Ref sig .tc := ⟨.hbm, 69, rfl⟩
abbrev main_v29 : Ref sig .tc := ⟨.hbm, 70, rfl⟩
abbrev main_cst_7 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_c_8 : Ref sig .tc := ⟨.hbm, 75, rfl⟩
abbrev main_call2_cst : Ref sig .tc := ⟨.hbm, 76, rfl⟩
abbrev main_call2_v0 : Ref sig .tc := ⟨.hbm, 77, rfl⟩
abbrev main_call2_v1 : Ref sig .tc := ⟨.hbm, 78, rfl⟩
abbrev main_call2_cst_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_v6 : Ref sig .tc := ⟨.hbm, 84, rfl⟩
abbrev main_call2_v7 : Ref sig .tc := ⟨.hbm, 85, rfl⟩
abbrev main_call2_cst_1 : Ref sig .tc := ⟨.hbm, 86, rfl⟩
abbrev main_call2_v8 : Ref sig .tc := ⟨.hbm, 87, rfl⟩
abbrev main_call2_cst_2 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_cst_3 : Ref sig .tc := ⟨.hbm, 92, rfl⟩
abbrev main_call2_v12 : Ref sig .tc := ⟨.hbm, 93, rfl⟩
abbrev main_call2_cst_4 : Ref sig .tc := ⟨.hbm, 94, rfl⟩
abbrev main_call2_call0_v0 : Ref sig .tc := ⟨.hbm, 95, rfl⟩
abbrev main_call2_call0_v1 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_c_9 : Ref sig .tc := ⟨.hbm, 103, rfl⟩
abbrev main_v39 : Ref sig .tc := ⟨.hbm, 104, rfl⟩
abbrev main_v40 : Ref sig .tc := ⟨.hbm, 105, rfl⟩
abbrev main_c_10 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_cst_11 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_cst_12 : Ref sig .tc := ⟨.hbm, 120, rfl⟩
abbrev main_v53 : Ref sig .tc := ⟨.hbm, 121, rfl⟩
abbrev main_cst_13 : Ref sig .tc := ⟨.hbm, 122, rfl⟩
abbrev main_v54 : Ref sig .tc := ⟨.hbm, 123, rfl⟩
abbrev main_v55 : Ref sig .tc := ⟨.hbm, 124, rfl⟩
abbrev main_c_14 : Ref sig .tc := ⟨.hbm, 125, rfl⟩
abbrev main_call3_cst : Ref sig .tc := ⟨.hbm, 126, rfl⟩
abbrev main_call3_v0 : Ref sig .tc := ⟨.hbm, 127, rfl⟩
abbrev main_call3_v1 : Ref sig .tc := ⟨.hbm, 128, rfl⟩
abbrev main_call3_cst_0 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_call3_v5 : Ref sig .tc := ⟨.hbm, 133, rfl⟩
abbrev main_call3_v6 : Ref sig .tc := ⟨.hbm, 134, rfl⟩
abbrev main_call3_v7 : Ref sig .tc := ⟨.hbm, 135, rfl⟩
abbrev main_call3_cst_1 : Ref sig .tc := ⟨.hbm, 136, rfl⟩
abbrev main_call3_v8 : Ref sig .tc := ⟨.hbm, 137, rfl⟩
abbrev main_call3_cst_2 : Ref sig .tc := ⟨.hbm, 138, rfl⟩
abbrev main_call3_v9 : Ref sig .tc := ⟨.hbm, 139, rfl⟩
abbrev main_call3_v10 : Ref sig .tc := ⟨.hbm, 140, rfl⟩
abbrev main_call3_v11 : Ref sig .tc := ⟨.hbm, 141, rfl⟩
abbrev main_call3_cst_3 : Ref sig .tc := ⟨.hbm, 142, rfl⟩
abbrev main_call3_v12 : Ref sig .tc := ⟨.hbm, 143, rfl⟩
abbrev main_call3_cst_4 : Ref sig .tc := ⟨.hbm, 144, rfl⟩
abbrev main_call3_call0_v0 : Ref sig .tc := ⟨.hbm, 145, rfl⟩
abbrev main_call3_call0_v1 : Ref sig .tc := ⟨.hbm, 146, rfl⟩
abbrev main_v56 : Ref sig .tc := ⟨.hbm, 147, rfl⟩
abbrev main_cst_15 : Ref sig .tc := ⟨.hbm, 148, rfl⟩
abbrev main_v57 : Ref sig .tc := ⟨.hbm, 149, rfl⟩
abbrev main_cst_16 : Ref sig .tc := ⟨.hbm, 150, rfl⟩
abbrev main_v58 : Ref sig .tc := ⟨.hbm, 151, rfl⟩
abbrev main_v59 : Ref sig .tc := ⟨.hbm, 152, rfl⟩
abbrev main_v60 : Ref sig .tc := ⟨.hbm, 153, rfl⟩
abbrev main_cst_17 : Ref sig .tc := ⟨.hbm, 154, rfl⟩
abbrev main_v61 : Ref sig .tc := ⟨.hbm, 155, rfl⟩
abbrev main_v62 : Ref sig .tc := ⟨.hbm, 156, rfl⟩
abbrev main_v63 : Ref sig .tc := ⟨.hbm, 157, rfl⟩
abbrev main_cst_18 : Ref sig .tc := ⟨.hbm, 158, rfl⟩
abbrev main_call4_v0 : Ref sig .tc := ⟨.hbm, 159, rfl⟩
abbrev main_call4_v1 : Ref sig .tc := ⟨.hbm, 160, rfl⟩
abbrev main_v64 : Ref sig .tc := ⟨.hbm, 161, rfl⟩
abbrev main_v65 : Ref sig .tc := ⟨.hbm, 162, rfl⟩
abbrev main_cst_19 : Ref sig .tc := ⟨.hbm, 163, rfl⟩
abbrev main_call5_v0 : Ref sig .tc := ⟨.hbm, 164, rfl⟩
abbrev main_call5_v1 : Ref sig .tc := ⟨.hbm, 165, rfl⟩
abbrev main_v66 : Ref sig .tc := ⟨.hbm, 166, rfl⟩
abbrev main_v67 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_c_20 : Ref sig .tc := ⟨.hbm, 172, rfl⟩
abbrev main_v72 : Ref sig .tc := ⟨.hbm, 173, rfl⟩
abbrev main_v73 : Ref sig .tc := ⟨.hbm, 174, rfl⟩
abbrev main_c_21 : Ref sig .tc := ⟨.hbm, 175, rfl⟩
abbrev main_v74 : Ref sig .tc := ⟨.hbm, 176, rfl⟩
abbrev main_v75 : Ref sig .tc := ⟨.hbm, 177, rfl⟩
abbrev main_v76 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_cst_22 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev main_v85 : Ref sig .tc := ⟨.hbm, 188, rfl⟩
abbrev main_cst_23 : Ref sig .tc := ⟨.hbm, 189, rfl⟩
abbrev main_v86 : Ref sig .tc := ⟨.hbm, 190, rfl⟩
abbrev main_cst_24 : Ref sig .tc := ⟨.hbm, 191, rfl⟩
abbrev main_v87 : Ref sig .tc := ⟨.hbm, 192, rfl⟩
abbrev main_v88 : Ref sig .tc := ⟨.hbm, 193, rfl⟩
abbrev main_v89 : Ref sig .tc := ⟨.hbm, 194, rfl⟩
abbrev main_c_25 : Ref sig .tc := ⟨.hbm, 195, rfl⟩
abbrev main_call6_cst : Ref sig .tc := ⟨.hbm, 196, rfl⟩
abbrev main_call6_v0 : Ref sig .tc := ⟨.hbm, 197, rfl⟩
abbrev main_call6_v1 : Ref sig .tc := ⟨.hbm, 198, rfl⟩
abbrev main_call6_cst_0 : Ref sig .tc := ⟨.hbm, 199, rfl⟩
abbrev main_call6_v2 : Ref sig .tc := ⟨.hbm, 200, rfl⟩
abbrev main_call6_v3 : Ref sig .tc := ⟨.hbm, 201, rfl⟩
abbrev main_call6_v4 : Ref sig .tc := ⟨.hbm, 202, rfl⟩
abbrev main_call6_v5 : Ref sig .tc := ⟨.hbm, 203, rfl⟩
abbrev main_call6_v6 : Ref sig .tc := ⟨.hbm, 204, rfl⟩
abbrev main_call6_v7 : Ref sig .tc := ⟨.hbm, 205, rfl⟩
abbrev main_call6_cst_1 : Ref sig .tc := ⟨.hbm, 206, rfl⟩
abbrev main_call6_v8 : Ref sig .tc := ⟨.hbm, 207, rfl⟩
abbrev main_call6_cst_2 : Ref sig .tc := ⟨.hbm, 208, rfl⟩
abbrev main_call6_v9 : Ref sig .tc := ⟨.hbm, 209, rfl⟩
abbrev main_call6_v10 : Ref sig .tc := ⟨.hbm, 210, rfl⟩
abbrev main_call6_v11 : Ref sig .tc := ⟨.hbm, 211, rfl⟩
abbrev main_call6_cst_3 : Ref sig .tc := ⟨.hbm, 212, rfl⟩
abbrev main_call6_v12 : Ref sig .tc := ⟨.hbm, 213, rfl⟩
abbrev main_call6_cst_4 : Ref sig .tc := ⟨.hbm, 214, rfl⟩
abbrev main_call6_call0_v0 : Ref sig .tc := ⟨.hbm, 215, rfl⟩
abbrev main_call6_call0_v1 : Ref sig .tc := ⟨.hbm, 216, rfl⟩
abbrev main_v90 : Ref sig .tc := ⟨.hbm, 217, rfl⟩
abbrev main_v91 : Ref sig .tc := ⟨.hbm, 218, rfl⟩
abbrev main_v92 : Ref sig .tc := ⟨.hbm, 219, rfl⟩
abbrev main_v93 : Ref sig .tc := ⟨.hbm, 220, rfl⟩
abbrev main_v94 : Ref sig .tc := ⟨.hbm, 221, rfl⟩
abbrev main_v95 : Ref sig .tc := ⟨.hbm, 222, rfl⟩
abbrev main_c_26 : Ref sig .tc := ⟨.hbm, 223, rfl⟩
abbrev main_v96 : Ref sig .tc := ⟨.hbm, 224, rfl⟩
abbrev main_v97 : Ref sig .tc := ⟨.hbm, 225, rfl⟩
abbrev main_c_27 : Ref sig .tc := ⟨.hbm, 226, rfl⟩
abbrev main_v98 : Ref sig .tc := ⟨.hbm, 227, rfl⟩
abbrev main_v99 : Ref sig .tc := ⟨.hbm, 228, rfl⟩
abbrev main_v100 : Ref sig .tc := ⟨.hbm, 229, rfl⟩
abbrev main_v101 : Ref sig .tc := ⟨.hbm, 230, rfl⟩
abbrev main_v102 : Ref sig .tc := ⟨.hbm, 231, rfl⟩
abbrev main_v103 : Ref sig .tc := ⟨.hbm, 232, rfl⟩
abbrev main_cst_28 : Ref sig .tc := ⟨.hbm, 233, rfl⟩
abbrev main_v104 : Ref sig .tc := ⟨.hbm, 234, rfl⟩
abbrev main_v105 : Ref sig .tc := ⟨.hbm, 235, rfl⟩
abbrev main_v106 : Ref sig .tc := ⟨.hbm, 236, rfl⟩
abbrev main_v107 : Ref sig .tc := ⟨.hbm, 237, rfl⟩
abbrev main_v108 : Ref sig .tc := ⟨.hbm, 238, rfl⟩
abbrev main_v109 : Ref sig .tc := ⟨.hbm, 239, rfl⟩
abbrev main_cst_29 : Ref sig .tc := ⟨.hbm, 240, rfl⟩
abbrev main_v110 : Ref sig .tc := ⟨.hbm, 241, rfl⟩
abbrev main_cst_30 : Ref sig .tc := ⟨.hbm, 242, rfl⟩
abbrev main_v111 : Ref sig .tc := ⟨.hbm, 243, rfl⟩
abbrev main_v112 : Ref sig .tc := ⟨.hbm, 244, rfl⟩
abbrev main_c_31 : Ref sig .tc := ⟨.hbm, 245, rfl⟩
abbrev main_call7_cst : Ref sig .tc := ⟨.hbm, 246, rfl⟩
abbrev main_call7_v0 : Ref sig .tc := ⟨.hbm, 247, rfl⟩
abbrev main_call7_v1 : Ref sig .tc := ⟨.hbm, 248, rfl⟩
abbrev main_call7_cst_0 : Ref sig .tc := ⟨.hbm, 249, rfl⟩
abbrev main_call7_v2 : Ref sig .tc := ⟨.hbm, 250, rfl⟩
abbrev main_call7_v3 : Ref sig .tc := ⟨.hbm, 251, rfl⟩
abbrev main_call7_v4 : Ref sig .tc := ⟨.hbm, 252, rfl⟩
abbrev main_call7_v5 : Ref sig .tc := ⟨.hbm, 253, rfl⟩
abbrev main_call7_v6 : Ref sig .tc := ⟨.hbm, 254, rfl⟩
abbrev main_call7_v7 : Ref sig .tc := ⟨.hbm, 255, rfl⟩
abbrev main_call7_cst_1 : Ref sig .tc := ⟨.hbm, 256, rfl⟩
abbrev main_call7_v8 : Ref sig .tc := ⟨.hbm, 257, rfl⟩
abbrev main_call7_cst_2 : Ref sig .tc := ⟨.hbm, 258, rfl⟩
abbrev main_call7_v9 : Ref sig .tc := ⟨.hbm, 259, rfl⟩
abbrev main_call7_v10 : Ref sig .tc := ⟨.hbm, 260, rfl⟩
abbrev main_call7_v11 : Ref sig .tc := ⟨.hbm, 261, rfl⟩
abbrev main_call7_cst_3 : Ref sig .tc := ⟨.hbm, 262, rfl⟩
abbrev main_call7_v12 : Ref sig .tc := ⟨.hbm, 263, rfl⟩
abbrev main_call7_cst_4 : Ref sig .tc := ⟨.hbm, 264, rfl⟩
abbrev main_call7_call0_v0 : Ref sig .tc := ⟨.hbm, 265, rfl⟩
abbrev main_call7_call0_v1 : Ref sig .tc := ⟨.hbm, 266, rfl⟩
abbrev main_v113 : Ref sig .tc := ⟨.hbm, 267, rfl⟩
abbrev main_v114 : Ref sig .tc := ⟨.hbm, 268, rfl⟩
abbrev main_v115 : Ref sig .tc := ⟨.hbm, 269, rfl⟩
abbrev main_v116 : Ref sig .tc := ⟨.hbm, 270, rfl⟩
abbrev main_v117 : Ref sig .tc := ⟨.hbm, 271, rfl⟩
abbrev main_v118 : Ref sig .tc := ⟨.hbm, 272, rfl⟩
abbrev main_v119 : Ref sig .tc := ⟨.hbm, 273, rfl⟩
abbrev main_v120 : Ref sig .tc := ⟨.hbm, 274, rfl⟩
abbrev main_v121 : Ref sig .tc := ⟨.hbm, 275, rfl⟩
abbrev main_v122 : Ref sig .tc := ⟨.hbm, 276, rfl⟩
abbrev main_v123 : Ref sig .tc := ⟨.hbm, 277, rfl⟩
abbrev main_v124 : Ref sig .tc := ⟨.hbm, 278, rfl⟩
abbrev main_v125 : Ref sig .tc := ⟨.hbm, 279, rfl⟩
abbrev main_v126 : Ref sig .tc := ⟨.hbm, 280, rfl⟩
abbrev main_v127 : Ref sig .tc := ⟨.hbm, 281, rfl⟩
abbrev main_v128 : Ref sig .tc := ⟨.hbm, 282, rfl⟩
abbrev main_v129 : Ref sig .tc := ⟨.hbm, 283, rfl⟩
abbrev main_v130 : Ref sig .tc := ⟨.hbm, 284, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc4_stg6_0 : Ref sig .tc := ⟨.vmem, 42, rfl⟩
abbrev cc4_stg6_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg4_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc6_stg6_0 : Ref sig .tc := ⟨.vmem, 60, rfl⟩
abbrev cc6_stg7_0 : Ref sig .tc := ⟨.vmem, 61, rfl⟩
abbrev cc6_stg8_0 : Ref sig .tc := ⟨.vmem, 62, rfl⟩
abbrev cc6_stg9_0 : Ref sig .tc := ⟨.vmem, 63, rfl⟩
abbrev cc6_stg10_0 : Ref sig .tc := ⟨.vmem, 64, rfl⟩
abbrev cc6_stg11_0 : Ref sig .tc := ⟨.vmem, 65, rfl⟩
abbrev cc6_stg12_0 : Ref sig .tc := ⟨.vmem, 66, rfl⟩
abbrev cc6_stg13_0 : Ref sig .tc := ⟨.vmem, 67, rfl⟩
abbrev cc6_stg14_0 : Ref sig .tc := ⟨.vmem, 68, rfl⟩
abbrev cc6_stg15_0 : Ref sig .tc := ⟨.vmem, 69, rfl⟩
abbrev cc6_stg16_0 : Ref sig .tc := ⟨.vmem, 70, rfl⟩
abbrev cc6_stg17_0 : Ref sig .tc := ⟨.vmem, 71, rfl⟩
abbrev cc6_stg18_0 : Ref sig .tc := ⟨.vmem, 72, rfl⟩
abbrev cc6_stg19_0 : Ref sig .tc := ⟨.vmem, 73, rfl⟩
abbrev cc6_stg20_0 : Ref sig .tc := ⟨.vmem, 74, rfl⟩
abbrev cc6_stg20_1 : Ref sig .tc := ⟨.vmem, 75, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc4_sem6_0 : DmaSem sig := 42
abbrev cc4_sem6_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem4_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem3_0 : DmaSem sig := 57
abbrev cc6_sem4_0 : DmaSem sig := 58
abbrev cc6_sem5_0 : DmaSem sig := 59
abbrev cc6_sem6_0 : DmaSem sig := 60
abbrev cc6_sem7_0 : DmaSem sig := 61
abbrev cc6_sem8_0 : DmaSem sig := 62
abbrev cc6_sem9_0 : DmaSem sig := 63
abbrev cc6_sem10_0 : DmaSem sig := 64
abbrev cc6_sem11_0 : DmaSem sig := 65
abbrev cc6_sem12_0 : DmaSem sig := 66
abbrev cc6_sem13_0 : DmaSem sig := 67
abbrev cc6_sem14_0 : DmaSem sig := 68
abbrev cc6_sem15_0 : DmaSem sig := 69
abbrev cc6_sem16_0 : DmaSem sig := 70
abbrev cc6_sem17_0 : DmaSem sig := 71
abbrev cc6_sem18_0 : DmaSem sig := 72
abbrev cc6_sem19_0 : DmaSem sig := 73
abbrev cc6_sem20_0 : DmaSem sig := 74
abbrev cc6_sem20_1 : DmaSem sig := 75

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2000x64 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_13 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_14 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_15 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_16 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_17 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_18 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_19 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_20 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x64 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x64 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S64x64 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S64x64 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S64x64 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 1 → Memref sig .tc .vmem S64x64 .f32 := fun | 0 => Memref.whole cc6_stg13_0 | ⟨_ + 1, h⟩ => absurd h (Nat.not_lt.2 (Nat.le_add_left _ _))
abbrev sem6_13 : Fin 1 → DmaSem sig := fun | 0 => cc6_sem13_0 | ⟨_ + 1, h⟩ => absurd h (Nat.not_lt.2 (Nat.le_add_left _ _))
abbrev reads6_13 : Fin grid6.rank → Bool := ![false]

abbrev stage6_14 : Fin 1 → Memref sig .tc .vmem S1x64 .f32 := fun | 0 => Memref.whole cc6_stg14_0 | ⟨_ + 1, h⟩ => absurd h (Nat.not_lt.2 (Nat.le_add_left _ _))
abbrev sem6_14 : Fin 1 → DmaSem sig := fun | 0 => cc6_sem14_0 | ⟨_ + 1, h⟩ => absurd h (Nat.not_lt.2 (Nat.le_add_left _ _))
abbrev reads6_14 : Fin grid6.rank → Bool := ![false]

abbrev stage6_15 : Fin 1 → Memref sig .tc .vmem S1x1 .f32 := fun | 0 => Memref.whole cc6_stg15_0 | ⟨_ + 1, h⟩ => absurd h (Nat.not_lt.2 (Nat.le_add_left _ _))
abbrev sem6_15 : Fin 1 → DmaSem sig := fun | 0 => cc6_sem15_0 | ⟨_ + 1, h⟩ => absurd h (Nat.not_lt.2 (Nat.le_add_left _ _))
abbrev reads6_15 : Fin grid6.rank → Bool := ![false]

abbrev stage6_16 : Fin 1 → Memref sig .tc .vmem S64x64 .f32 := fun | 0 => Memref.whole cc6_stg16_0 | ⟨_ + 1, h⟩ => absurd h (Nat.not_lt.2 (Nat.le_add_left _ _))
abbrev sem6_16 : Fin 1 → DmaSem sig := fun | 0 => cc6_sem16_0 | ⟨_ + 1, h⟩ => absurd h (Nat.not_lt.2 (Nat.le_add_left _ _))
abbrev reads6_16 : Fin grid6.rank → Bool := ![false]

abbrev stage6_17 : Fin 1 → Memref sig .tc .vmem S1x64 .f32 := fun | 0 => Memref.whole cc6_stg17_0 | ⟨_ + 1, h⟩ => absurd h (Nat.not_lt.2 (Nat.le_add_left _ _))
abbrev sem6_17 : Fin 1 → DmaSem sig := fun | 0 => cc6_sem17_0 | ⟨_ + 1, h⟩ => absurd h (Nat.not_lt.2 (Nat.le_add_left _ _))
abbrev reads6_17 : Fin grid6.rank → Bool := ![false]

abbrev stage6_18 : Fin 1 → Memref sig .tc .vmem S64x129 .f32 := fun | 0 => Memref.whole cc6_stg18_0 | ⟨_ + 1, h⟩ => absurd h (Nat.not_lt.2 (Nat.le_add_left _ _))
abbrev sem6_18 : Fin 1 → DmaSem sig := fun | 0 => cc6_sem18_0 | ⟨_ + 1, h⟩ => absurd h (Nat.not_lt.2 (Nat.le_add_left _ _))
abbrev reads6_18 : Fin grid6.rank → Bool := ![false]

abbrev stage6_19 : Fin 1 → Memref sig .tc .vmem S1x129 .f32 := fun | 0 => Memref.whole cc6_stg19_0 | ⟨_ + 1, h⟩ => absurd h (Nat.not_lt.2 (Nat.le_add_left _ _))
abbrev sem6_19 : Fin 1 → DmaSem sig := fun | 0 => cc6_sem19_0 | ⟨_ + 1, h⟩ => absurd h (Nat.not_lt.2 (Nat.le_add_left _ _))
abbrev reads6_19 : Fin grid6.rank → Bool := ![false]

abbrev stage6_20 : Fin 2 → Memref sig .tc .vmem S2000x129 .f32 := fun | 0 => Memref.whole cc6_stg20_0 | 1 => Memref.whole cc6_stg20_1 | ⟨_ + 2, h⟩ => absurd h (Nat.not_lt.2 (Nat.le_add_left _ _))
abbrev sem6_20 : Fin 2 → DmaSem sig := fun | 0 => cc6_sem20_0 | 1 => cc6_sem20_1 | ⟨_ + 2, h⟩ => absurd h (Nat.not_lt.2 (Nat.le_add_left _ _))
abbrev reads6_20 : Fin grid6.rank → Bool := ![true]

class Facts₀ : Prop where
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bitsLt_bf16_f32 : FTy.bits .bf16 < FTy.bits .f32
  bcast_S_S100000x64 : S_.BroadcastsInDim S100000x64 (![] : Fin 0 → Fin S100000x64.rank)
  shapeCasts_S64_S1x64 : S64.ShapeCasts S1x64
  shapeCasts_S100000_S100000x1 : S100000.ShapeCasts S100000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  packedbf16_S2000x64_S2000x64_0_0 : (Rect.unit (s := S2000x64) ![0, 0] S2000x64.size inb_S2000x64_S2000x64_0_0).PackedRows (EltTy.packing .bf16)
  slices_S256x64_S64x64_0_0 : S256x64.Slices ![0, 0] S64x64
  slices_S256x64_S64x64_64_0 : S256x64.Slices ![64, 0] S64x64
  slices_S256x64_S64x64_128_0 : S256x64.Slices ![128, 0] S64x64
  slices_S256x64_S64x64_192_0 : S256x64.Slices ![192, 0] S64x64
  shapeCasts_S1_S1x1 : S1.ShapeCasts S1x1
  shapeCasts_S129_S1x129 : S129.ShapeCasts S1x129
  shapeCasts_S64x64_S64x64 : S64x64.ShapeCasts S64x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x64 : S1x1.Broadcasts S2000x64
  inb_S64x129_S64x129_0_0 : ∀ a, (![0, 0] : Fin 2 → Nat) a + S64x129.size a ≤ S64x129.size a
  h_S64x129 : 0 < S64x129.numel
  inb_S1x129_S1x129_0_0 : ∀ a, (![0, 0] : Fin 2 → Nat) a + S1x129.size a ≤ S1x129.size a
  h_S1x129 : 0 < S1x129.numel
  shapeCasts_S1x129_S1x129 : S1x129.ShapeCasts S1x129
  broadcasts_S1x129_S2000x129 : S1x129.Broadcasts S2000x129
  inb_S2000x129_S2000x129_0_0 : ∀ a, (![0, 0] : Fin 2 → Nat) a + S2000x129.size a ≤ S2000x129.size a
  h_S2000x129 : 0 < S2000x129.numel
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S2000x64_S64x64_S2000x64_1_0_0_1_n_n_wf : DotDims.WF S2000x64 S64x64 S2000x64 [1] [0] [0] [1] [] []
  dot_S2000x64_S64x129_S2000x129_1_0_0_1_n_n_wf : DotDims.WF S2000x64 S64x129 S2000x129 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S100000x1.size a
  hwx1_5 : ∀ i : grid1.Coords, EltTy.bits .f32 = 32 ∨ (Rect.block (s := S100000x1) S2000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .bf16 = 32 ∨ (Rect.block (s := S100000x64) S2000x64.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S100000x64.size a
  hwx2_4 : ∀ i : grid2.Coords, EltTy.bits .f32 = 32 ∨ (Rect.block (s := S100000x64) S2000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S100000x64.size a
  hwx3_4 : ∀ i : grid3.Coords, EltTy.bits .f32 = 32 ∨ (Rect.block (s := S100000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x1.size a ≤ S100000x1.size a
  hwx4_5 : ∀ i : grid4.Coords, EltTy.bits .f32 = 32 ∨ (Rect.block (s := S100000x1) S2000x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x64.size a ≤ S100000x64.size a
  hwx4_6 : ∀ i : grid4.Coords, EltTy.bits .bf16 = 32 ∨ (Rect.block (s := S100000x64) S2000x64.size (cc4_transform_6 i) (hinb4_6 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S100000x64.size a
  hwx5_4 : ∀ i : grid5.Coords, EltTy.bits .f32 = 32 ∨ (Rect.block (s := S100000x64) S2000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S100000x64.size a
  hwx6_1 : ∀ i : grid6.Coords, EltTy.bits .f32 = 32 ∨ (Rect.block (s := S100000x64) S2000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x64.size a ≤ S1x64.size a
  hwx6_7 : ∀ i : grid6.Coords, EltTy.bits .f32 = 32 ∨ (Rect.block (s := S1x64) S1x64.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x64.size a ≤ S1x64.size a
  hwx6_8 : ∀ i : grid6.Coords, EltTy.bits .f32 = 32 ∨ (Rect.block (s := S1x64) S1x64.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x64.size a ≤ S1x64.size a
  hwx6_9 : ∀ i : grid6.Coords, EltTy.bits .f32 = 32 ∨ (Rect.block (s := S1x64) S1x64.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S64x64.size a ≤ S64x64.size a
  hwx6_10 : ∀ i : grid6.Coords, EltTy.bits .f32 = 32 ∨ (Rect.block (s := S64x64) S64x64.size (cc6_transform_10 i) (hinb6_10 i)).WholeWords (EltTy.packing .f32)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S64x64.size a ≤ S64x64.size a
  hwx6_11 : ∀ i : grid6.Coords, EltTy.bits .f32 = 32 ∨ (Rect.block (s := S64x64) S64x64.size (cc6_transform_11 i) (hinb6_11 i)).WholeWords (EltTy.packing .f32)
  hstage6_12 : ∀ j, (stage6_12 j).IsWhole
  nbuf6_12 : grid6.bufCount reads6_12 true = 1
  hreads6_12 : ∀ i i' : grid6.Coords, (∀ a, reads6_12 a = true → i a = i' a) → cc6_transform_12 i = cc6_transform_12 i'
  hinb6_12 : ∀ (i : grid6.Coords) a, (cc6_transform_12 i a + 1) * S64x64.size a ≤ S64x64.size a
  hwx6_12 : ∀ i : grid6.Coords, EltTy.bits .f32 = 32 ∨ (Rect.block (s := S64x64) S64x64.size (cc6_transform_12 i) (hinb6_12 i)).WholeWords (EltTy.packing .f32)
  hstage6_13 : ∀ j, (stage6_13 j).IsWhole
  nbuf6_13 : grid6.bufCount reads6_13 true = 1
  hreads6_13 : ∀ i i' : grid6.Coords, (∀ a, reads6_13 a = true → i a = i' a) → cc6_transform_13 i = cc6_transform_13 i'
  hinb6_13 : ∀ (i : grid6.Coords) a, (cc6_transform_13 i a + 1) * S64x64.size a ≤ S64x64.size a
  hwx6_13 : ∀ i : grid6.Coords, EltTy.bits .f32 = 32 ∨ (Rect.block (s := S64x64) S64x64.size (cc6_transform_13 i) (hinb6_13 i)).WholeWords (EltTy.packing .f32)
  hstage6_14 : ∀ j, (stage6_14 j).IsWhole
  nbuf6_14 : grid6.bufCount reads6_14 true = 1
  hreads6_14 : ∀ i i' : grid6.Coords, (∀ a, reads6_14 a = true → i a = i' a) → cc6_transform_14 i = cc6_transform_14 i'
  hinb6_14 : ∀ (i : grid6.Coords) a, (cc6_transform_14 i a + 1) * S1x64.size a ≤ S1x64.size a
  hwx6_14 : ∀ i : grid6.Coords, EltTy.bits .f32 = 32 ∨ (Rect.block (s := S1x64) S1x64.size (cc6_transform_14 i) (hinb6_14 i)).WholeWords (EltTy.packing .f32)
  hstage6_15 : ∀ j, (stage6_15 j).IsWhole
  nbuf6_15 : grid6.bufCount reads6_15 true = 1
  hreads6_15 : ∀ i i' : grid6.Coords, (∀ a, reads6_15 a = true → i a = i' a) → cc6_transform_15 i = cc6_transform_15 i'
  hinb6_15 : ∀ (i : grid6.Coords) a, (cc6_transform_15 i a + 1) * S1x1.size a ≤ S1x1.size a
  hwx6_15 : ∀ i : grid6.Coords, EltTy.bits .f32 = 32 ∨ (Rect.block (s := S1x1) S1x1.size (cc6_transform_15 i) (hinb6_15 i)).WholeWords (EltTy.packing .f32)
  hstage6_16 : ∀ j, (stage6_16 j).IsWhole
  nbuf6_16 : grid6.bufCount reads6_16 true = 1
  hreads6_16 : ∀ i i' : grid6.Coords, (∀ a, reads6_16 a = true → i a = i' a) → cc6_transform_16 i = cc6_transform_16 i'
  hinb6_16 : ∀ (i : grid6.Coords) a, (cc6_transform_16 i a + 1) * S64x64.size a ≤ S64x64.size a
  hwx6_16 : ∀ i : grid6.Coords, EltTy.bits .f32 = 32 ∨ (Rect.block (s := S64x64) S64x64.size (cc6_transform_16 i) (hinb6_16 i)).WholeWords (EltTy.packing .f32)
  hstage6_17 : ∀ j, (stage6_17 j).IsWhole
  nbuf6_17 : grid6.bufCount reads6_17 true = 1
  hreads6_17 : ∀ i i' : grid6.Coords, (∀ a, reads6_17 a = true → i a = i' a) → cc6_transform_17 i = cc6_transform_17 i'
  hinb6_17 : ∀ (i : grid6.Coords) a, (cc6_transform_17 i a + 1) * S1x64.size a ≤ S1x64.size a
  hwx6_17 : ∀ i : grid6.Coords, EltTy.bits .f32 = 32 ∨ (Rect.block (s := S1x64) S1x64.size (cc6_transform_17 i) (hinb6_17 i)).WholeWords (EltTy.packing .f32)
  hstage6_18 : ∀ j, (stage6_18 j).IsWhole
  nbuf6_18 : grid6.bufCount reads6_18 true = 1
  hreads6_18 : ∀ i i' : grid6.Coords, (∀ a, reads6_18 a = true → i a = i' a) → cc6_transform_18 i = cc6_transform_18 i'
  hinb6_18 : ∀ (i : grid6.Coords) a, (cc6_transform_18 i a + 1) * S64x129.size a ≤ S64x129.size a
  hwx6_18 : ∀ i : grid6.Coords, EltTy.bits .f32 = 32 ∨ (Rect.block (s := S64x129) S64x129.size (cc6_transform_18 i) (hinb6_18 i)).WholeWords (EltTy.packing .f32)
  hstage6_19 : ∀ j, (stage6_19 j).IsWhole
  nbuf6_19 : grid6.bufCount reads6_19 true = 1
  hreads6_19 : ∀ i i' : grid6.Coords, (∀ a, reads6_19 a = true → i a = i' a) → cc6_transform_19 i = cc6_transform_19 i'
  hinb6_19 : ∀ (i : grid6.Coords) a, (cc6_transform_19 i a + 1) * S1x129.size a ≤ S1x129.size a
  hwx6_19 : ∀ i : grid6.Coords, EltTy.bits .f32 = 32 ∨ (Rect.block (s := S1x129) S1x129.size (cc6_transform_19 i) (hinb6_19 i)).WholeWords (EltTy.packing .f32)
  hstage6_20 : ∀ j, (stage6_20 j).IsWhole
  nbuf6_20 : grid6.bufCount reads6_20 false = 2
  hreads6_20 : ∀ i i' : grid6.Coords, (∀ a, reads6_20 a = true → i a = i' a) → cc6_transform_20 i = cc6_transform_20 i'
  hinb6_20 : ∀ (i : grid6.Coords) a, (cc6_transform_20 i a + 1) * S2000x129.size a ≤ S100000x129.size a
  hwx6_20 : ∀ i : grid6.Coords, EltTy.bits .f32 = 32 ∨ (Rect.block (s := S100000x129) S2000x129.size (cc6_transform_20 i) (hinb6_20 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x129_S2000x129_1_0_0_1_n_n : DotDims S2000x64 S64x129 S2000x129 where
  lhsContracting := [1]
  rhsContracting := [0]
  lhsNonContracting := [0]
  rhsNonContracting := [1]
  lhsBatch := []
  rhsBatch := []
  wf := dot_S2000x64_S64x129_S2000x129_1_0_0_1_n_n_wf

abbrev win0_0 : Pipeline.Window sig grid0 :=
  Pipeline.Window.ofSpec (Memref.whole main_v25) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S2000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v28) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v38) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v82) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v85) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v85) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v89) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v91) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v92) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v93) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v94) S2000x1.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v95) S2000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v106) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v108) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg17) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v107) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v109) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v52) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v109) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v118) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v119) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v120) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v121) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v122) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v123) S1x64.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v124) S1x64.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v125) S1x64.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v114) S64x64.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v115) S64x64.size cc6_transform_11 reads6_11 false true 1 stage6_11 sem6_11
    hrank6 hreads6_11 hinb6_11 nbuf6_11 (Memref.isWhole_whole _) hwx6_11 hstage6_11

abbrev win6_12 : Pipeline.Window sig grid6 :=
  Pipeline.Window.ofSpec (Memref.whole main_v116) S64x64.size cc6_transform_12 reads6_12 false true 1 stage6_12 sem6_12
    hrank6 hreads6_12 hinb6_12 nbuf6_12 (Memref.isWhole_whole _) hwx6_12 hstage6_12

abbrev win6_13 : Pipeline.Window sig grid6 :=
  Pipeline.Window.ofSpec (Memref.whole main_v117) S64x64.size cc6_transform_13 reads6_13 false true 1 stage6_13 sem6_13
    hrank6 hreads6_13 hinb6_13 nbuf6_13 (Memref.isWhole_whole _) hwx6_13 hstage6_13

abbrev win6_14 : Pipeline.Window sig grid6 :=
  Pipeline.Window.ofSpec (Memref.whole main_v126) S1x64.size cc6_transform_14 reads6_14 false true 1 stage6_14 sem6_14
    hrank6 hreads6_14 hinb6_14 nbuf6_14 (Memref.isWhole_whole _) hwx6_14 hstage6_14

abbrev win6_15 : Pipeline.Window sig grid6 :=
  Pipeline.Window.ofSpec (Memref.whole main_v127) S1x1.size cc6_transform_15 reads6_15 false true 1 stage6_15 sem6_15
    hrank6 hreads6_15 hinb6_15 nbuf6_15 (Memref.isWhole_whole _) hwx6_15 hstage6_15

abbrev win6_16 : Pipeline.Window sig grid6 :=
  Pipeline.Window.ofSpec (Memref.whole main_arg24) S64x64.size cc6_transform_16 reads6_16 false true 1 stage6_16 sem6_16
    hrank6 hreads6_16 hinb6_16 nbuf6_16 (Memref.isWhole_whole _) hwx6_16 hstage6_16

abbrev win6_17 : Pipeline.Window sig grid6 :=
  Pipeline.Window.ofSpec (Memref.whole main_v128) S1x64.size cc6_transform_17 reads6_17 false true 1 stage6_17 sem6_17
    hrank6 hreads6_17 hinb6_17 nbuf6_17 (Memref.isWhole_whole _) hwx6_17 hstage6_17

abbrev win6_18 : Pipeline.Window sig grid6 :=
  Pipeline.Window.ofSpec (Memref.whole main_arg26) S64x129.size cc6_transform_18 reads6_18 false true 1 stage6_18 sem6_18
    hrank6 hreads6_18 hinb6_18 nbuf6_18 (Memref.isWhole_whole _) hwx6_18 hstage6_18

abbrev win6_19 : Pipeline.Window sig grid6 :=
  Pipeline.Window.ofSpec (Memref.whole main_v129) S1x129.size cc6_transform_19 reads6_19 false true 1 stage6_19 sem6_19
    hrank6 hreads6_19 hinb6_19 nbuf6_19 (Memref.isWhole_whole _) hwx6_19 hstage6_19

abbrev win6_20 : Pipeline.Window sig grid6 :=
  Pipeline.Window.ofSpec (Memref.whole main_v130) S2000x129.size cc6_transform_20 reads6_20 true false 2 stage6_20 sem6_20
    hrank6 hreads6_20 hinb6_20 nbuf6_20 (Memref.isWhole_whole _) hwx6_20 hstage6_20

abbrev win6 : Fin 21 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | 13 => win6_13 | 14 => win6_14 | 15 => win6_15 | 16 => win6_16 | 17 => win6_17 | 18 => win6_18 | 19 => win6_19 | 20 => win6_20 | ⟨_ + 21, h⟩ => absurd h (Nat.not_lt.2 (Nat.le_add_left _ _))
abbrev spec6 : Fin 21 → Pipeline.WinSpec sig grid6.rank := fun w => (win6 w).toWinSpec

class Facts : Prop extends Facts₀ where

variable [Facts]
-- ==== ReferenceIdeal.lean ====
abbrev S100000x64 : Shape := ⟨2, ![100000, 64]⟩
abbrev S1250000 : Shape := ⟨1, ![1250000]⟩
abbrev S64x64 : Shape := ⟨2, ![64, 64]⟩
abbrev S64 : Shape := ⟨1, ![64]⟩
abbrev S256x64 : Shape := ⟨2, ![256, 64]⟩
abbrev S1 : Shape := ⟨1, ![1]⟩
abbrev S64x129 : Shape := ⟨2, ![64, 129]⟩
abbrev S129 : Shape := ⟨1, ![129]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S1x64 : Shape := ⟨2, ![1, 64]⟩
abbrev S100000x256 : Shape := ⟨2, ![100000, 256]⟩
abbrev S1x1 : Shape := ⟨2, ![1, 1]⟩
abbrev S100000x129 : Shape := ⟨2, ![100000, 129]⟩
abbrev S1x129 : Shape := ⟨2, ![1, 129]⟩

abbrev nBuf : Space → Nat
  | .hbm => 473
  | .vmem => 0
  | .smem => 0
  | _ => 0

abbrev hbmTy0_0 (i : Nat) : BufTy := match i % 128 with
  | 0 => ⟨S100000x64, .f32⟩
  | 1 => ⟨S1250000, .i32⟩
  | 2 => ⟨S1250000, .i32⟩
  | 3 => ⟨S1250000, .i32⟩
  | 4 => ⟨S1250000, .i32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64x64, .f32⟩
  | 14 => ⟨S64, .f32⟩
  | 15 => ⟨S64, .f32⟩
  | 16 => ⟨S64, .f32⟩
  | 17 => ⟨S64x64, .f32⟩
  | 18 => ⟨S64, .f32⟩
  | 19 => ⟨S64, .f32⟩
  | 20 => ⟨S64, .f32⟩
  | 21 => ⟨S256x64, .f32⟩
  | 22 => ⟨S64, .f32⟩
  | 23 => ⟨S1, .f32⟩
  | 24 => ⟨S64x64, .f32⟩
  | 25 => ⟨S64, .f32⟩
  | 26 => ⟨S64x129, .f32⟩
  | 27 => ⟨S129, .f32⟩
  | 28 => ⟨S_, .f32⟩
  | 29 => ⟨S1250000, .f32⟩
  | 30 => ⟨S_, .f32⟩
  | 31 => ⟨S100000, .f32⟩
  | 32 => ⟨S1250000x1, .i32⟩
  | 33 => ⟨S100000, .f32⟩
  | 34 => ⟨S_, .f32⟩
  | 35 => ⟨S100000, .f32⟩
  | 36 => ⟨S1250000x1, .i32⟩
  | 37 => ⟨S100000, .f32⟩
  | 38 => ⟨S_, .f32⟩
  | 39 => ⟨S_, .f32⟩
  | 40 => ⟨S100000, .f32⟩
  | 41 => ⟨S100000, .f32⟩
  | 42 => ⟨S100000, .f32⟩
  | 43 => ⟨S_, .f32⟩
  | 44 => ⟨S_, .f32⟩
  | 45 => ⟨S100000, .f32⟩
  | 46 => ⟨S100000, .f32⟩
  | 47 => ⟨S100000, .f32⟩
  | 48 => ⟨S100000x1, .f32⟩
  | 49 => ⟨S100000x64, .f32⟩
  | 50 => ⟨S100000x64, .f32⟩
  | 51 => ⟨S_, .i32⟩
  | 52 => ⟨S1250000, .i32⟩
  | 53 => ⟨S1250000, .i1⟩
  | 54 => ⟨S_, .i32⟩
  | 55 => ⟨S1250000, .i32⟩
  | 56 => ⟨S1250000, .i32⟩
  | 57 => ⟨S1250000, .i32⟩
  | 58 => ⟨S1250000x1, .i32⟩
  | 59 => ⟨S1250000x64, .f32⟩
  | 60 => ⟨S_, .f32⟩
  | 61 => ⟨S100000x64, .f32⟩
  | 62 => ⟨S1250000x1, .i32⟩
  | 63 => ⟨S100000x64, .f32⟩
  | 64 => ⟨S100000x1, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .i1⟩
  | 74 => ⟨S_, .f32⟩
  | 75 => ⟨S100000x64, .f32⟩
  | 76 => ⟨S100000x64, .i1⟩
  | 77 => ⟨S_, .f32⟩
  | 78 => ⟨S_, .f32⟩
  | 79 => ⟨S100000x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S100000x64, .f32⟩
  | 86 => ⟨S_, .f32⟩
  | 87 => ⟨S64, .f32⟩
  | 88 => ⟨S_, .f32⟩
  | 89 => ⟨S64, .f32⟩
  | 90 => ⟨S64, .f32⟩
  | 91 => ⟨S_, .i32⟩
  | 92 => ⟨S_, .f32⟩
  | 93 => ⟨S64, .f32⟩
  | 94 => ⟨S1x64, .f32⟩
  | 95 => ⟨S_, .f32⟩
  | 96 => ⟨S1x64, .f32⟩
  | 97 => ⟨S1x64, .f32⟩
  | 98 => ⟨S100000x64, .f32⟩
  | 99 => ⟨S100000x64, .f32⟩
  | 100 => ⟨S100000x64, .f32⟩
  | 101 => ⟨S_, .f32⟩
  | 102 => ⟨S_, .f32⟩
  | 103 => ⟨S_, .f32⟩
  | 104 => ⟨S_, .f32⟩
  | 105 => ⟨S64, .f32⟩
  | 106 => ⟨S64, .f32⟩
  | 107 => ⟨S64, .f32⟩
  | 108 => ⟨S_, .f32⟩
  | 109 => ⟨S_, .i1⟩
  | 110 => ⟨S_, .f32⟩
  | 111 => ⟨S_, .f32⟩
  | 112 => ⟨S64, .f32⟩
  | 113 => ⟨S64, .f32⟩
  | 114 => ⟨S1x64, .f32⟩
  | 115 => ⟨S100000x64, .f32⟩
  | 116 => ⟨S100000x64, .f32⟩
  | 117 => ⟨S_, .f32⟩
  | 118 => ⟨S64, .f32⟩
  | 119 => ⟨S64, .f32⟩
  | 120 => ⟨S64, .f32⟩
  | 121 => ⟨S1x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S1x64, .f32⟩
  | _ => ⟨S100000x64, .f32⟩

abbrev hbmTy0_1 (i : Nat) : BufTy := match i % 128 with
  | 0 => ⟨S100000x64, .f32⟩
  | 1 => ⟨S100000x64, .f32⟩
  | 2 => ⟨S_, .f32⟩
  | 3 => ⟨S1250000, .f32⟩
  | 4 => ⟨S_, .f32⟩
  | 5 => ⟨S100000, .f32⟩
  | 6 => ⟨S1250000x1, .i32⟩
  | 7 => ⟨S100000, .f32⟩
  | 8 => ⟨S_, .f32⟩
  | 9 => ⟨S100000, .f32⟩
  | 10 => ⟨S1250000x1, .i32⟩
  | 11 => ⟨S100000, .f32⟩
  | 12 => ⟨S_, .f32⟩
  | 13 => ⟨S_, .f32⟩
  | 14 => ⟨S100000, .f32⟩
  | 15 => ⟨S100000, .f32⟩
  | 16 => ⟨S100000, .f32⟩
  | 17 => ⟨S_, .f32⟩
  | 18 => ⟨S_, .f32⟩
  | 19 => ⟨S100000, .f32⟩
  | 20 => ⟨S100000, .f32⟩
  | 21 => ⟨S100000, .f32⟩
  | 22 => ⟨S100000x1, .f32⟩
  | 23 => ⟨S100000x64, .f32⟩
  | 24 => ⟨S100000x64, .f32⟩
  | 25 => ⟨S_, .i32⟩
  | 26 => ⟨S1250000, .i32⟩
  | 27 => ⟨S1250000, .i1⟩
  | 28 => ⟨S_, .i32⟩
  | 29 => ⟨S1250000, .i32⟩
  | 30 => ⟨S1250000, .i32⟩
  | 31 => ⟨S1250000, .i32⟩
  | 32 => ⟨S1250000x1, .i32⟩
  | 33 => ⟨S1250000x64, .f32⟩
  | 34 => ⟨S_, .f32⟩
  | 35 => ⟨S100000x64, .f32⟩
  | 36 => ⟨S1250000x1, .i32⟩
  | 37 => ⟨S100000x64, .f32⟩
  | 38 => ⟨S100000x1, .f32⟩
  | 39 => ⟨S100000x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S_, .f32⟩
  | 46 => ⟨S100000x64, .f32⟩
  | 47 => ⟨S100000x64, .i1⟩
  | 48 => ⟨S_, .f32⟩
  | 49 => ⟨S100000x64, .f32⟩
  | 50 => ⟨S100000x64, .i1⟩
  | 51 => ⟨S_, .f32⟩
  | 52 => ⟨S_, .f32⟩
  | 53 => ⟨S100000x64, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S100000x64, .f32⟩
  | 60 => ⟨S_, .f32⟩
  | 61 => ⟨S64, .f32⟩
  | 62 => ⟨S_, .f32⟩
  | 63 => ⟨S64, .f32⟩
  | 64 => ⟨S64, .f32⟩
  | 65 => ⟨S_, .i32⟩
  | 66 => ⟨S_, .f32⟩
  | 67 => ⟨S64, .f32⟩
  | 68 => ⟨S1x64, .f32⟩
  | 69 => ⟨S_, .f32⟩
  | 70 => ⟨S1x64, .f32⟩
  | 71 => ⟨S1x64, .f32⟩
  | 72 => ⟨S100000x64, .f32⟩
  | 73 => ⟨S100000x64, .f32⟩
  | 74 => ⟨S100000x64, .f32⟩
  | 75 => ⟨S_, .f32⟩
  | 76 => ⟨S_, .f32⟩
  | 77 => ⟨S_, .f32⟩
  | 78 => ⟨S_, .f32⟩
  | 79 => ⟨S64, .f32⟩
  | 80 => ⟨S64, .f32⟩
  | 81 => ⟨S64, .f32⟩
  | 82 => ⟨S_, .f32⟩
  | 83 => ⟨S_, .i1⟩
  | 84 => ⟨S_, .f32⟩
  | 85 => ⟨S_, .f32⟩
  | 86 => ⟨S64, .f32⟩
  | 87 => ⟨S64, .f32⟩
  | 88 => ⟨S1x64, .f32⟩
  | 89 => ⟨S100000x64, .f32⟩
  | 90 => ⟨S100000x64, .f32⟩
  | 91 => ⟨S_, .f32⟩
  | 92 => ⟨S64, .f32⟩
  | 93 => ⟨S64, .f32⟩
  | 94 => ⟨S64, .f32⟩
  | 95 => ⟨S1x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S_, .f32⟩
  | 105 => ⟨S1250000, .f32⟩
  | 106 => ⟨S_, .f32⟩
  | 107 => ⟨S100000, .f32⟩
  | 108 => ⟨S1250000x1, .i32⟩
  | 109 => ⟨S100000, .f32⟩
  | 110 => ⟨S_, .f32⟩
  | 111 => ⟨S100000, .f32⟩
  | 112 => ⟨S1250000x1, .i32⟩
  | 113 => ⟨S100000, .f32⟩
  | 114 => ⟨S_, .f32⟩
  | 115 => ⟨S_, .f32⟩
  | 116 => ⟨S100000, .f32⟩
  | 117 => ⟨S100000, .f32⟩
  | 118 => ⟨S100000, .f32⟩
  | 119 => ⟨S_, .f32⟩
  | 120 => ⟨S_, .f32⟩
  | 121 => ⟨S100000, .f32⟩
  | 122 => ⟨S100000, .f32⟩
  | 123 => ⟨S100000, .f32⟩
  | 124 => ⟨S100000x1, .f32⟩
  | 125 => ⟨S100000x64, .f32⟩
  | 126 => ⟨S100000x64, .f32⟩
  | 127 => ⟨S_, .i32⟩
  | _ => ⟨S100000x64, .f32⟩

abbrev hbmTy0_2 (i : Nat) : BufTy := match i % 128 with
  | 0 => ⟨S1250000, .i32⟩
  | 1 => ⟨S1250000, .i1⟩
  | 2 => ⟨S_, .i32⟩
  | 3 => ⟨S1250000, .i32⟩
  | 4 => ⟨S1250000, .i32⟩
  | 5 => ⟨S1250000, .i32⟩
  | 6 => ⟨S1250000x1, .i32⟩
  | 7 => ⟨S1250000x64, .f32⟩
  | 8 => ⟨S_, .f32⟩
  | 9 => ⟨S100000x64, .f32⟩
  | 10 => ⟨S1250000x1, .i32⟩
  | 11 => ⟨S100000x64, .f32⟩
  | 12 => ⟨S100000x1, .f32⟩
  | 13 => ⟨S100000x64, .f32⟩
  | 14 => ⟨S100000x64, .f32⟩
  | 15 => ⟨S100000x64, .f32⟩
  | 16 => ⟨S1x64, .f32⟩
  | 17 => ⟨S100000x64, .f32⟩
  | 18 => ⟨S100000x64, .f32⟩
  | 19 => ⟨S_, .f32⟩
  | 20 => ⟨S100000x64, .f32⟩
  | 21 => ⟨S100000x64, .i1⟩
  | 22 => ⟨S_, .f32⟩
  | 23 => ⟨S100000x64, .f32⟩
  | 24 => ⟨S100000x64, .i1⟩
  | 25 => ⟨S_, .f32⟩
  | 26 => ⟨S_, .f32⟩
  | 27 => ⟨S100000x64, .f32⟩
  | 28 => ⟨S100000x64, .f32⟩
  | 29 => ⟨S100000x64, .f32⟩
  | 30 => ⟨S_, .f32⟩
  | 31 => ⟨S100000x64, .f32⟩
  | 32 => ⟨S100000x64, .f32⟩
  | 33 => ⟨S100000x64, .f32⟩
  | 34 => ⟨S_, .f32⟩
  | 35 => ⟨S64, .f32⟩
  | 36 => ⟨S_, .f32⟩
  | 37 => ⟨S64, .f32⟩
  | 38 => ⟨S64, .f32⟩
  | 39 => ⟨S_, .i32⟩
  | 40 => ⟨S_, .f32⟩
  | 41 => ⟨S64, .f32⟩
  | 42 => ⟨S1x64, .f32⟩
  | 43 => ⟨S_, .f32⟩
  | 44 => ⟨S1x64, .f32⟩
  | 45 => ⟨S1x64, .f32⟩
  | 46 => ⟨S100000x64, .f32⟩
  | 47 => ⟨S100000x64, .f32⟩
  | 48 => ⟨S100000x64, .f32⟩
  | 49 => ⟨S_, .f32⟩
  | 50 => ⟨S_, .f32⟩
  | 51 => ⟨S_, .f32⟩
  | 52 => ⟨S_, .f32⟩
  | 53 => ⟨S64, .f32⟩
  | 54 => ⟨S64, .f32⟩
  | 55 => ⟨S64, .f32⟩
  | 56 => ⟨S_, .f32⟩
  | 57 => ⟨S_, .i1⟩
  | 58 => ⟨S_, .f32⟩
  | 59 => ⟨S_, .f32⟩
  | 60 => ⟨S64, .f32⟩
  | 61 => ⟨S64, .f32⟩
  | 62 => ⟨S1x64, .f32⟩
  | 63 => ⟨S100000x64, .f32⟩
  | 64 => ⟨S100000x64, .f32⟩
  | 65 => ⟨S_, .f32⟩
  | 66 => ⟨S64, .f32⟩
  | 67 => ⟨S64, .f32⟩
  | 68 => ⟨S64, .f32⟩
  | 69 => ⟨S1x64, .f32⟩
  | 70 => ⟨S100000x64, .f32⟩
  | 71 => ⟨S100000x64, .f32⟩
  | 72 => ⟨S1x64, .f32⟩
  | 73 => ⟨S100000x64, .f32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S1250000, .f32⟩
  | 80 => ⟨S_, .f32⟩
  | 81 => ⟨S100000, .f32⟩
  | 82 => ⟨S1250000x1, .i32⟩
  | 83 => ⟨S100000, .f32⟩
  | 84 => ⟨S_, .f32⟩
  | 85 => ⟨S100000, .f32⟩
  | 86 => ⟨S1250000x1, .i32⟩
  | 87 => ⟨S100000, .f32⟩
  | 88 => ⟨S_, .f32⟩
  | 89 => ⟨S_, .f32⟩
  | 90 => ⟨S100000, .f32⟩
  | 91 => ⟨S100000, .f32⟩
  | 92 => ⟨S100000, .f32⟩
  | 93 => ⟨S_, .f32⟩
  | 94 => ⟨S_, .f32⟩
  | 95 => ⟨S100000, .f32⟩
  | 96 => ⟨S100000, .f32⟩
  | 97 => ⟨S100000, .f32⟩
  | 98 => ⟨S100000x1, .f32⟩
  | 99 => ⟨S100000x64, .f32⟩
  | 100 => ⟨S100000x64, .f32⟩
  | 101 => ⟨S_, .i32⟩
  | 102 => ⟨S1250000, .i32⟩
  | 103 => ⟨S1250000, .i1⟩
  | 104 => ⟨S_, .i32⟩
  | 105 => ⟨S1250000, .i32⟩
  | 106 => ⟨S1250000, .i32⟩
  | 107 => ⟨S1250000, .i32⟩
  | 108 => ⟨S1250000x1, .i32⟩
  | 109 => ⟨S1250000x64, .f32⟩
  | 110 => ⟨S_, .f32⟩
  | 111 => ⟨S100000x64, .f32⟩
  | 112 => ⟨S1250000x1, .i32⟩
  | 113 => ⟨S100000x64, .f32⟩
  | 114 => ⟨S100000x1, .f32⟩
  | 115 => ⟨S100000x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S_, .f32⟩
  | 122 => ⟨S100000x64, .f32⟩
  | 123 => ⟨S100000x64, .i1⟩
  | 124 => ⟨S_, .f32⟩
  | 125 => ⟨S100000x64, .f32⟩
  | 126 => ⟨S100000x64, .i1⟩
  | 127 => ⟨S_, .f32⟩
  | _ => ⟨S100000x64, .f32⟩

abbrev hbmTy0_3 (i : Nat) : BufTy := match i % 128 with
  | 0 => ⟨S_, .f32⟩
  | 1 => ⟨S100000x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S100000x64, .f32⟩
  | 8 => ⟨S_, .f32⟩
  | 9 => ⟨S64, .f32⟩
  | 10 => ⟨S_, .f32⟩
  | 11 => ⟨S64, .f32⟩
  | 12 => ⟨S64, .f32⟩
  | 13 => ⟨S_, .i32⟩
  | 14 => ⟨S_, .f32⟩
  | 15 => ⟨S64, .f32⟩
  | 16 => ⟨S1x64, .f32⟩
  | 17 => ⟨S_, .f32⟩
  | 18 => ⟨S1x64, .f32⟩
  | 19 => ⟨S1x64, .f32⟩
  | 20 => ⟨S100000x64, .f32⟩
  | 21 => ⟨S100000x64, .f32⟩
  | 22 => ⟨S100000x64, .f32⟩
  | 23 => ⟨S_, .f32⟩
  | 24 => ⟨S_, .f32⟩
  | 25 => ⟨S_, .f32⟩
  | 26 => ⟨S_, .f32⟩
  | 27 => ⟨S64, .f32⟩
  | 28 => ⟨S64, .f32⟩
  | 29 => ⟨S64, .f32⟩
  | 30 => ⟨S_, .f32⟩
  | 31 => ⟨S_, .i1⟩
  | 32 => ⟨S_, .f32⟩
  | 33 => ⟨S_, .f32⟩
  | 34 => ⟨S64, .f32⟩
  | 35 => ⟨S64, .f32⟩
  | 36 => ⟨S1x64, .f32⟩
  | 37 => ⟨S100000x64, .f32⟩
  | 38 => ⟨S100000x64, .f32⟩
  | 39 => ⟨S_, .f32⟩
  | 40 => ⟨S64, .f32⟩
  | 41 => ⟨S64, .f32⟩
  | 42 => ⟨S64, .f32⟩
  | 43 => ⟨S1x64, .f32⟩
  | 44 => ⟨S100000x64, .f32⟩
  | 45 => ⟨S100000x64, .f32⟩
  | 46 => ⟨S1x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S100000x64, .f32⟩
  | 53 => ⟨S100000x64, .f32⟩
  | 54 => ⟨S100000x64, .f32⟩
  | 55 => ⟨S100000x256, .f32⟩
  | 56 => ⟨S100000x64, .f32⟩
  | 57 => ⟨S1x64, .f32⟩
  | 58 => ⟨S100000x64, .f32⟩
  | 59 => ⟨S100000x64, .f32⟩
  | 60 => ⟨S_, .f32⟩
  | 61 => ⟨S100000x64, .f32⟩
  | 62 => ⟨S100000x64, .i1⟩
  | 63 => ⟨S1x1, .f32⟩
  | 64 => ⟨S100000x64, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S100000x64, .f32⟩
  | 85 => ⟨S100000x129, .f32⟩
  | 86 => ⟨S1x129, .f32⟩
  | 87 => ⟨S100000x129, .f32⟩
  | 88 => ⟨S100000x129, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_cst_0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_v7 : Ref sig .tc := ⟨.hbm, 41, rfl⟩
abbrev main_v8 : Ref sig .tc := ⟨.hbm, 42, rfl⟩
abbrev main_cst_3 : Ref sig .tc := ⟨.hbm, 43, rfl⟩
abbrev main_call1_v0 : Ref sig .tc := ⟨.hbm, 44, rfl⟩
abbrev main_call1_v1 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_c : Ref sig .tc := ⟨.hbm, 51, rfl⟩
abbrev main_v14 : Ref sig .tc := ⟨.hbm, 52, rfl⟩
abbrev main_v15 : Ref sig .tc := ⟨.hbm, 53, rfl⟩
abbrev main_c_4 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_5 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_call2_cst : Ref sig .tc := ⟨.hbm, 71, rfl⟩
abbrev main_call2_v0 : Ref sig .tc := ⟨.hbm, 72, rfl⟩
abbrev main_call2_v1 : Ref sig .tc := ⟨.hbm, 73, rfl⟩
abbrev main_call2_cst_0 : Ref sig .tc := ⟨.hbm, 74, rfl⟩
abbrev main_call2_v2 : Ref sig .tc := ⟨.hbm, 75, rfl⟩
abbrev main_call2_v3 : Ref sig .tc := ⟨.hbm, 76, rfl⟩
abbrev main_call2_cst_1 : Ref sig .tc := ⟨.hbm, 77, rfl⟩
abbrev main_call2_call0_v0 : Ref sig .tc := ⟨.hbm, 78, rfl⟩
abbrev main_call2_call0_v1 : Ref sig .tc := ⟨.hbm, 79, rfl⟩
abbrev main_call2_v4 : Ref sig .tc := ⟨.hbm, 80, rfl⟩
abbrev main_call2_v5 : Ref sig .tc := ⟨.hbm, 81, rfl⟩
abbrev main_call2_cst_2 : Ref sig .tc := ⟨.hbm, 82, rfl⟩
abbrev main_call2_v6 : Ref sig .tc := ⟨.hbm, 83, rfl⟩
abbrev main_call2_v7 : Ref sig .tc := ⟨.hbm, 84, rfl⟩
abbrev main_v31 : Ref sig .tc := ⟨.hbm, 85, rfl⟩
abbrev main_cst_6 : Ref sig .tc := ⟨.hbm, 86, rfl⟩
abbrev main_v32 : Ref sig .tc := ⟨.hbm, 87, rfl⟩
abbrev main_cst_7 : Ref sig .tc := ⟨.hbm, 88, rfl⟩
abbrev main_v33 : Ref sig .tc := ⟨.hbm, 89, rfl⟩
abbrev main_v34 : Ref sig .tc := ⟨.hbm, 90, rfl⟩
abbrev main_c_8 : Ref sig .tc := ⟨.hbm, 91, rfl⟩
abbrev main_call3_cst : Ref sig .tc := ⟨.hbm, 92, rfl⟩
abbrev main_call3_v0 : Ref sig .tc := ⟨.hbm, 93, rfl⟩
abbrev main_call3_v1 : Ref sig .tc := ⟨.hbm, 94, rfl⟩
abbrev main_call3_cst_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_v6 : Ref sig .tc := ⟨.hbm, 100, rfl⟩
abbrev main_call3_v7 : Ref sig .tc := ⟨.hbm, 101, rfl⟩
abbrev main_call3_cst_1 : Ref sig .tc := ⟨.hbm, 102, rfl⟩
abbrev main_call3_v8 : Ref sig .tc := ⟨.hbm, 103, rfl⟩
abbrev main_call3_cst_2 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_cst_3 : Ref sig .tc := ⟨.hbm, 108, rfl⟩
abbrev main_call3_v12 : Ref sig .tc := ⟨.hbm, 109, rfl⟩
abbrev main_call3_cst_4 : Ref sig .tc := ⟨.hbm, 110, rfl⟩
abbrev main_call3_call0_v0 : Ref sig .tc := ⟨.hbm, 111, rfl⟩
abbrev main_call3_call0_v1 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_cst_9 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_cst_10 : Ref sig .tc := ⟨.hbm, 130, rfl⟩
abbrev main_v51 : Ref sig .tc := ⟨.hbm, 131, rfl⟩
abbrev main_cst_11 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_cst_12 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_cst_13 : Ref sig .tc := ⟨.hbm, 140, rfl⟩
abbrev main_call4_v0 : Ref sig .tc := ⟨.hbm, 141, rfl⟩
abbrev main_call4_v1 : Ref sig .tc := ⟨.hbm, 142, rfl⟩
abbrev main_v58 : Ref sig .tc := ⟨.hbm, 143, rfl⟩
abbrev main_v59 : Ref sig .tc := ⟨.hbm, 144, rfl⟩
abbrev main_cst_14 : Ref sig .tc := ⟨.hbm, 145, rfl⟩
abbrev main_call5_v0 : Ref sig .tc := ⟨.hbm, 146, rfl⟩
abbrev main_call5_v1 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_c_15 : Ref sig .tc := ⟨.hbm, 153, rfl⟩
abbrev main_v65 : Ref sig .tc := ⟨.hbm, 154, rfl⟩
abbrev main_v66 : Ref sig .tc := ⟨.hbm, 155, rfl⟩
abbrev main_c_16 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_cst_17 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_call6_cst : Ref sig .tc := ⟨.hbm, 173, rfl⟩
abbrev main_call6_v0 : Ref sig .tc := ⟨.hbm, 174, rfl⟩
abbrev main_call6_v1 : Ref sig .tc := ⟨.hbm, 175, rfl⟩
abbrev main_call6_cst_0 : Ref sig .tc := ⟨.hbm, 176, rfl⟩
abbrev main_call6_v2 : Ref sig .tc := ⟨.hbm, 177, rfl⟩
abbrev main_call6_v3 : Ref sig .tc := ⟨.hbm, 178, rfl⟩
abbrev main_call6_cst_1 : Ref sig .tc := ⟨.hbm, 179, rfl⟩
abbrev main_call6_call0_v0 : Ref sig .tc := ⟨.hbm, 180, rfl⟩
abbrev main_call6_call0_v1 : Ref sig .tc := ⟨.hbm, 181, rfl⟩
abbrev main_call6_v4 : Ref sig .tc := ⟨.hbm, 182, rfl⟩
abbrev main_call6_v5 : Ref sig .tc := ⟨.hbm, 183, rfl⟩
abbrev main_call6_cst_2 : Ref sig .tc := ⟨.hbm, 184, rfl⟩
abbrev main_call6_v6 : Ref sig .tc := ⟨.hbm, 185, rfl⟩
abbrev main_call6_v7 : Ref sig .tc := ⟨.hbm, 186, rfl⟩
abbrev main_v82 : Ref sig .tc := ⟨.hbm, 187, rfl⟩
abbrev main_cst_18 : Ref sig .tc := ⟨.hbm, 188, rfl⟩
abbrev main_v83 : Ref sig .tc := ⟨.hbm, 189, rfl⟩
abbrev main_cst_19 : Ref sig .tc := ⟨.hbm, 190, rfl⟩
abbrev main_v84 : Ref sig .tc := ⟨.hbm, 191, rfl⟩
abbrev main_v85 : Ref sig .tc := ⟨.hbm, 192, rfl⟩
abbrev main_c_20 : Ref sig .tc := ⟨.hbm, 193, rfl⟩
abbrev main_call7_cst : Ref sig .tc := ⟨.hbm, 194, rfl⟩
abbrev main_call7_v0 : Ref sig .tc := ⟨.hbm, 195, rfl⟩
abbrev main_call7_v1 : Ref sig .tc := ⟨.hbm, 196, rfl⟩
abbrev main_call7_cst_0 : Ref sig .tc := ⟨.hbm, 197, rfl⟩
abbrev main_call7_v2 : Ref sig .tc := ⟨.hbm, 198, rfl⟩
abbrev main_call7_v3 : Ref sig .tc := ⟨.hbm, 199, rfl⟩
abbrev main_call7_v4 : Ref sig .tc := ⟨.hbm, 200, rfl⟩
abbrev main_call7_v5 : Ref sig .tc := ⟨.hbm, 201, rfl⟩
abbrev main_call7_v6 : Ref sig .tc := ⟨.hbm, 202, rfl⟩
abbrev main_call7_v7 : Ref sig .tc := ⟨.hbm, 203, rfl⟩
abbrev main_call7_cst_1 : Ref sig .tc := ⟨.hbm, 204, rfl⟩
abbrev main_call7_v8 : Ref sig .tc := ⟨.hbm, 205, rfl⟩
abbrev main_call7_cst_2 : Ref sig .tc := ⟨.hbm, 206, rfl⟩
abbrev main_call7_v9 : Ref sig .tc := ⟨.hbm, 207, rfl⟩
abbrev main_call7_v10 : Ref sig .tc := ⟨.hbm, 208, rfl⟩
abbrev main_call7_v11 : Ref sig .tc := ⟨.hbm, 209, rfl⟩
abbrev main_call7_cst_3 : Ref sig .tc := ⟨.hbm, 210, rfl⟩
abbrev main_call7_v12 : Ref sig .tc := ⟨.hbm, 211, rfl⟩
abbrev main_call7_cst_4 : Ref sig .tc := ⟨.hbm, 212, rfl⟩
abbrev main_call7_call0_v0 : Ref sig .tc := ⟨.hbm, 213, rfl⟩
abbrev main_call7_call0_v1 : Ref sig .tc := ⟨.hbm, 214, rfl⟩
abbrev main_v86 : Ref sig .tc := ⟨.hbm, 215, rfl⟩
abbrev main_v87 : Ref sig .tc := ⟨.hbm, 216, rfl⟩
abbrev main_v88 : Ref sig .tc := ⟨.hbm, 217, rfl⟩
abbrev main_v89 : Ref sig .tc := ⟨.hbm, 218, rfl⟩
abbrev main_cst_21 : Ref sig .tc := ⟨.hbm, 219, rfl⟩
abbrev main_v90 : Ref sig .tc := ⟨.hbm, 220, rfl⟩
abbrev main_v91 : Ref sig .tc := ⟨.hbm, 221, rfl⟩
abbrev main_v92 : Ref sig .tc := ⟨.hbm, 222, rfl⟩
abbrev main_v93 : Ref sig .tc := ⟨.hbm, 223, rfl⟩
abbrev main_v94 : Ref sig .tc := ⟨.hbm, 224, rfl⟩
abbrev main_v95 : Ref sig .tc := ⟨.hbm, 225, rfl⟩
abbrev main_v96 : Ref sig .tc := ⟨.hbm, 226, rfl⟩
abbrev main_v97 : Ref sig .tc := ⟨.hbm, 227, rfl⟩
abbrev main_v98 : Ref sig .tc := ⟨.hbm, 228, rfl⟩
abbrev main_v99 : Ref sig .tc := ⟨.hbm, 229, rfl⟩
abbrev main_v100 : Ref sig .tc := ⟨.hbm, 230, rfl⟩
abbrev main_v101 : Ref sig .tc := ⟨.hbm, 231, rfl⟩
abbrev main_cst_22 : Ref sig .tc := ⟨.hbm, 232, rfl⟩
abbrev main_v102 : Ref sig .tc := ⟨.hbm, 233, rfl⟩
abbrev main_cst_23 : Ref sig .tc := ⟨.hbm, 234, rfl⟩
abbrev main_v103 : Ref sig .tc := ⟨.hbm, 235, rfl⟩
abbrev main_v104 : Ref sig .tc := ⟨.hbm, 236, rfl⟩
abbrev main_v105 : Ref sig .tc := ⟨.hbm, 237, rfl⟩
abbrev main_cst_24 : Ref sig .tc := ⟨.hbm, 238, rfl⟩
abbrev main_v106 : Ref sig .tc := ⟨.hbm, 239, rfl⟩
abbrev main_v107 : Ref sig .tc := ⟨.hbm, 240, rfl⟩
abbrev main_v108 : Ref sig .tc := ⟨.hbm, 241, rfl⟩
abbrev main_cst_25 : Ref sig .tc := ⟨.hbm, 242, rfl⟩
abbrev main_call8_v0 : Ref sig .tc := ⟨.hbm, 243, rfl⟩
abbrev main_call8_v1 : Ref sig .tc := ⟨.hbm, 244, rfl⟩
abbrev main_v109 : Ref sig .tc := ⟨.hbm, 245, rfl⟩
abbrev main_v110 : Ref sig .tc := ⟨.hbm, 246, rfl⟩
abbrev main_cst_26 : Ref sig .tc := ⟨.hbm, 247, rfl⟩
abbrev main_call9_v0 : Ref sig .tc := ⟨.hbm, 248, rfl⟩
abbrev main_call9_v1 : Ref sig .tc := ⟨.hbm, 249, rfl⟩
abbrev main_v111 : Ref sig .tc := ⟨.hbm, 250, rfl⟩
abbrev main_v112 : Ref sig .tc := ⟨.hbm, 251, rfl⟩
abbrev main_v113 : Ref sig .tc := ⟨.hbm, 252, rfl⟩
abbrev main_v114 : Ref sig .tc := ⟨.hbm, 253, rfl⟩
abbrev main_v115 : Ref sig .tc := ⟨.hbm, 254, rfl⟩
abbrev main_c_27 : Ref sig .tc := ⟨.hbm, 255, rfl⟩
abbrev main_v116 : Ref sig .tc := ⟨.hbm, 256, rfl⟩
abbrev main_v117 : Ref sig .tc := ⟨.hbm, 257, rfl⟩
abbrev main_c_28 : Ref sig .tc := ⟨.hbm, 258, rfl⟩
abbrev main_v118 : Ref sig .tc := ⟨.hbm, 259, rfl⟩
abbrev main_v119 : Ref sig .tc := ⟨.hbm, 260, rfl⟩
abbrev main_v120 : Ref sig .tc := ⟨.hbm, 261, rfl⟩
abbrev main_v121 : Ref sig .tc := ⟨.hbm, 262, rfl⟩
abbrev main_v122 : Ref sig .tc := ⟨.hbm, 263, rfl⟩
abbrev main_cst_29 : Ref sig .tc := ⟨.hbm, 264, rfl⟩
abbrev main_v123 : Ref sig .tc := ⟨.hbm, 265, rfl⟩
abbrev main_v124 : Ref sig .tc := ⟨.hbm, 266, rfl⟩
abbrev main_v125 : Ref sig .tc := ⟨.hbm, 267, rfl⟩
abbrev main_v126 : Ref sig .tc := ⟨.hbm, 268, rfl⟩
abbrev main_v127 : Ref sig .tc := ⟨.hbm, 269, rfl⟩
abbrev main_v128 : Ref sig .tc := ⟨.hbm, 270, rfl⟩
abbrev main_v129 : Ref sig .tc := ⟨.hbm, 271, rfl⟩
abbrev main_v130 : Ref sig .tc := ⟨.hbm, 272, rfl⟩
abbrev main_v131 : Ref sig .tc := ⟨.hbm, 273, rfl⟩
abbrev main_v132 : Ref sig .tc := ⟨.hbm, 274, rfl⟩
abbrev main_call10_cst : Ref sig .tc := ⟨.hbm, 275, rfl⟩
abbrev main_call10_v0 : Ref sig .tc := ⟨.hbm, 276, rfl⟩
abbrev main_call10_v1 : Ref sig .tc := ⟨.hbm, 277, rfl⟩
abbrev main_call10_cst_0 : Ref sig .tc := ⟨.hbm, 278, rfl⟩
abbrev main_call10_v2 : Ref sig .tc := ⟨.hbm, 279, rfl⟩
abbrev main_call10_v3 : Ref sig .tc := ⟨.hbm, 280, rfl⟩
abbrev main_call10_cst_1 : Ref sig .tc := ⟨.hbm, 281, rfl⟩
abbrev main_call10_call0_v0 : Ref sig .tc := ⟨.hbm, 282, rfl⟩
abbrev main_call10_call0_v1 : Ref sig .tc := ⟨.hbm, 283, rfl⟩
abbrev main_call10_v4 : Ref sig .tc := ⟨.hbm, 284, rfl⟩
abbrev main_call10_v5 : Ref sig .tc := ⟨.hbm, 285, rfl⟩
abbrev main_call10_cst_2 : Ref sig .tc := ⟨.hbm, 286, rfl⟩
abbrev main_call10_v6 : Ref sig .tc := ⟨.hbm, 287, rfl⟩
abbrev main_call10_v7 : Ref sig .tc := ⟨.hbm, 288, rfl⟩
abbrev main_v133 : Ref sig .tc := ⟨.hbm, 289, rfl⟩
abbrev main_cst_30 : Ref sig .tc := ⟨.hbm, 290, rfl⟩
abbrev main_v134 : Ref sig .tc := ⟨.hbm, 291, rfl⟩
abbrev main_cst_31 : Ref sig .tc := ⟨.hbm, 292, rfl⟩
abbrev main_v135 : Ref sig .tc := ⟨.hbm, 293, rfl⟩
abbrev main_v136 : Ref sig .tc := ⟨.hbm, 294, rfl⟩
abbrev main_c_32 : Ref sig .tc := ⟨.hbm, 295, rfl⟩
abbrev main_call11_cst : Ref sig .tc := ⟨.hbm, 296, rfl⟩
abbrev main_call11_v0 : Ref sig .tc := ⟨.hbm, 297, rfl⟩
abbrev main_call11_v1 : Ref sig .tc := ⟨.hbm, 298, rfl⟩
abbrev main_call11_cst_0 : Ref sig .tc := ⟨.hbm, 299, rfl⟩
abbrev main_call11_v2 : Ref sig .tc := ⟨.hbm, 300, rfl⟩
abbrev main_call11_v3 : Ref sig .tc := ⟨.hbm, 301, rfl⟩
abbrev main_call11_v4 : Ref sig .tc := ⟨.hbm, 302, rfl⟩
abbrev main_call11_v5 : Ref sig .tc := ⟨.hbm, 303, rfl⟩
abbrev main_call11_v6 : Ref sig .tc := ⟨.hbm, 304, rfl⟩
abbrev main_call11_v7 : Ref sig .tc := ⟨.hbm, 305, rfl⟩
abbrev main_call11_cst_1 : Ref sig .tc := ⟨.hbm, 306, rfl⟩
abbrev main_call11_v8 : Ref sig .tc := ⟨.hbm, 307, rfl⟩
abbrev main_call11_cst_2 : Ref sig .tc := ⟨.hbm, 308, rfl⟩
abbrev main_call11_v9 : Ref sig .tc := ⟨.hbm, 309, rfl⟩
abbrev main_call11_v10 : Ref sig .tc := ⟨.hbm, 310, rfl⟩
abbrev main_call11_v11 : Ref sig .tc := ⟨.hbm, 311, rfl⟩
abbrev main_call11_cst_3 : Ref sig .tc := ⟨.hbm, 312, rfl⟩
abbrev main_call11_v12 : Ref sig .tc := ⟨.hbm, 313, rfl⟩
abbrev main_call11_cst_4 : Ref sig .tc := ⟨.hbm, 314, rfl⟩
abbrev main_call11_call0_v0 : Ref sig .tc := ⟨.hbm, 315, rfl⟩
abbrev main_call11_call0_v1 : Ref sig .tc := ⟨.hbm, 316, rfl⟩
abbrev main_v137 : Ref sig .tc := ⟨.hbm, 317, rfl⟩
abbrev main_v138 : Ref sig .tc := ⟨.hbm, 318, rfl⟩
abbrev main_v139 : Ref sig .tc := ⟨.hbm, 319, rfl⟩
abbrev main_v140 : Ref sig .tc := ⟨.hbm, 320, rfl⟩
abbrev main_cst_33 : Ref sig .tc := ⟨.hbm, 321, rfl⟩
abbrev main_v141 : Ref sig .tc := ⟨.hbm, 322, rfl⟩
abbrev main_v142 : Ref sig .tc := ⟨.hbm, 323, rfl⟩
abbrev main_v143 : Ref sig .tc := ⟨.hbm, 324, rfl⟩
abbrev main_v144 : Ref sig .tc := ⟨.hbm, 325, rfl⟩
abbrev main_v145 : Ref sig .tc := ⟨.hbm, 326, rfl⟩
abbrev main_v146 : Ref sig .tc := ⟨.hbm, 327, rfl⟩
abbrev main_v147 : Ref sig .tc := ⟨.hbm, 328, rfl⟩
abbrev main_v148 : Ref sig .tc := ⟨.hbm, 329, rfl⟩
abbrev main_v149 : Ref sig .tc := ⟨.hbm, 330, rfl⟩
abbrev main_v150 : Ref sig .tc := ⟨.hbm, 331, rfl⟩
abbrev main_v151 : Ref sig .tc := ⟨.hbm, 332, rfl⟩
abbrev main_v152 : Ref sig .tc := ⟨.hbm, 333, rfl⟩
abbrev main_cst_34 : Ref sig .tc := ⟨.hbm, 334, rfl⟩
abbrev main_v153 : Ref sig .tc := ⟨.hbm, 335, rfl⟩
abbrev main_cst_35 : Ref sig .tc := ⟨.hbm, 336, rfl⟩
abbrev main_v154 : Ref sig .tc := ⟨.hbm, 337, rfl⟩
abbrev main_v155 : Ref sig .tc := ⟨.hbm, 338, rfl⟩
abbrev main_v156 : Ref sig .tc := ⟨.hbm, 339, rfl⟩
abbrev main_cst_36 : Ref sig .tc := ⟨.hbm, 340, rfl⟩
abbrev main_v157 : Ref sig .tc := ⟨.hbm, 341, rfl⟩
abbrev main_v158 : Ref sig .tc := ⟨.hbm, 342, rfl⟩
abbrev main_v159 : Ref sig .tc := ⟨.hbm, 343, rfl⟩
abbrev main_cst_37 : Ref sig .tc := ⟨.hbm, 344, rfl⟩
abbrev main_call12_v0 : Ref sig .tc := ⟨.hbm, 345, rfl⟩
abbrev main_call12_v1 : Ref sig .tc := ⟨.hbm, 346, rfl⟩
abbrev main_v160 : Ref sig .tc := ⟨.hbm, 347, rfl⟩
abbrev main_v161 : Ref sig .tc := ⟨.hbm, 348, rfl⟩
abbrev main_cst_38 : Ref sig .tc := ⟨.hbm, 349, rfl⟩
abbrev main_call13_v0 : Ref sig .tc := ⟨.hbm, 350, rfl⟩
abbrev main_call13_v1 : Ref sig .tc := ⟨.hbm, 351, rfl⟩
abbrev main_v162 : Ref sig .tc := ⟨.hbm, 352, rfl⟩
abbrev main_v163 : Ref sig .tc := ⟨.hbm, 353, rfl⟩
abbrev main_v164 : Ref sig .tc := ⟨.hbm, 354, rfl⟩
abbrev main_v165 : Ref sig .tc := ⟨.hbm, 355, rfl⟩
abbrev main_v166 : Ref sig .tc := ⟨.hbm, 356, rfl⟩
abbrev main_c_39 : Ref sig .tc := ⟨.hbm, 357, rfl⟩
abbrev main_v167 : Ref sig .tc := ⟨.hbm, 358, rfl⟩
abbrev main_v168 : Ref sig .tc := ⟨.hbm, 359, rfl⟩
abbrev main_c_40 : Ref sig .tc := ⟨.hbm, 360, rfl⟩
abbrev main_v169 : Ref sig .tc := ⟨.hbm, 361, rfl⟩
abbrev main_v170 : Ref sig .tc := ⟨.hbm, 362, rfl⟩
abbrev main_v171 : Ref sig .tc := ⟨.hbm, 363, rfl⟩
abbrev main_v172 : Ref sig .tc := ⟨.hbm, 364, rfl⟩
abbrev main_v173 : Ref sig .tc := ⟨.hbm, 365, rfl⟩
abbrev main_cst_41 : Ref sig .tc := ⟨.hbm, 366, rfl⟩
abbrev main_v174 : Ref sig .tc := ⟨.hbm, 367, rfl⟩
abbrev main_v175 : Ref sig .tc := ⟨.hbm, 368, rfl⟩
abbrev main_v176 : Ref sig .tc := ⟨.hbm, 369, rfl⟩
abbrev main_v177 : Ref sig .tc := ⟨.hbm, 370, rfl⟩
abbrev main_v178 : Ref sig .tc := ⟨.hbm, 371, rfl⟩
abbrev main_v179 : Ref sig .tc := ⟨.hbm, 372, rfl⟩
abbrev main_v180 : Ref sig .tc := ⟨.hbm, 373, rfl⟩
abbrev main_v181 : Ref sig .tc := ⟨.hbm, 374, rfl⟩
abbrev main_v182 : Ref sig .tc := ⟨.hbm, 375, rfl⟩
abbrev main_v183 : Ref sig .tc := ⟨.hbm, 376, rfl⟩
abbrev main_call14_cst : Ref sig .tc := ⟨.hbm, 377, rfl⟩
abbrev main_call14_v0 : Ref sig .tc := ⟨.hbm, 378, rfl⟩
abbrev main_call14_v1 : Ref sig .tc := ⟨.hbm, 379, rfl⟩
abbrev main_call14_cst_0 : Ref sig .tc := ⟨.hbm, 380, rfl⟩
abbrev main_call14_v2 : Ref sig .tc := ⟨.hbm, 381, rfl⟩
abbrev main_call14_v3 : Ref sig .tc := ⟨.hbm, 382, rfl⟩
abbrev main_call14_cst_1 : Ref sig .tc := ⟨.hbm, 383, rfl⟩
abbrev main_call14_call0_v0 : Ref sig .tc := ⟨.hbm, 384, rfl⟩
abbrev main_call14_call0_v1 : Ref sig .tc := ⟨.hbm, 385, rfl⟩
abbrev main_call14_v4 : Ref sig .tc := ⟨.hbm, 386, rfl⟩
abbrev main_call14_v5 : Ref sig .tc := ⟨.hbm, 387, rfl⟩
abbrev main_call14_cst_2 : Ref sig .tc := ⟨.hbm, 388, rfl⟩
abbrev main_call14_v6 : Ref sig .tc := ⟨.hbm, 389, rfl⟩
abbrev main_call14_v7 : Ref sig .tc := ⟨.hbm, 390, rfl⟩
abbrev main_v184 : Ref sig .tc := ⟨.hbm, 391, rfl⟩
abbrev main_cst_42 : Ref sig .tc := ⟨.hbm, 392, rfl⟩
abbrev main_v185 : Ref sig .tc := ⟨.hbm, 393, rfl⟩
abbrev main_cst_43 : Ref sig .tc := ⟨.hbm, 394, rfl⟩
abbrev main_v186 : Ref sig .tc := ⟨.hbm, 395, rfl⟩
abbrev main_v187 : Ref sig .tc := ⟨.hbm, 396, rfl⟩
abbrev main_c_44 : Ref sig .tc := ⟨.hbm, 397, rfl⟩
abbrev main_call15_cst : Ref sig .tc := ⟨.hbm, 398, rfl⟩
abbrev main_call15_v0 : Ref sig .tc := ⟨.hbm, 399, rfl⟩
abbrev main_call15_v1 : Ref sig .tc := ⟨.hbm, 400, rfl⟩
abbrev main_call15_cst_0 : Ref sig .tc := ⟨.hbm, 401, rfl⟩
abbrev main_call15_v2 : Ref sig .tc := ⟨.hbm, 402, rfl⟩
abbrev main_call15_v3 : Ref sig .tc := ⟨.hbm, 403, rfl⟩
abbrev main_call15_v4 : Ref sig .tc := ⟨.hbm, 404, rfl⟩
abbrev main_call15_v5 : Ref sig .tc := ⟨.hbm, 405, rfl⟩
abbrev main_call15_v6 : Ref sig .tc := ⟨.hbm, 406, rfl⟩
abbrev main_call15_v7 : Ref sig .tc := ⟨.hbm, 407, rfl⟩
abbrev main_call15_cst_1 : Ref sig .tc := ⟨.hbm, 408, rfl⟩
abbrev main_call15_v8 : Ref sig .tc := ⟨.hbm, 409, rfl⟩
abbrev main_call15_cst_2 : Ref sig .tc := ⟨.hbm, 410, rfl⟩
abbrev main_call15_v9 : Ref sig .tc := ⟨.hbm, 411, rfl⟩
abbrev main_call15_v10 : Ref sig .tc := ⟨.hbm, 412, rfl⟩
abbrev main_call15_v11 : Ref sig .tc := ⟨.hbm, 413, rfl⟩
abbrev main_call15_cst_3 : Ref sig .tc := ⟨.hbm, 414, rfl⟩
abbrev main_call15_v12 : Ref sig .tc := ⟨.hbm, 415, rfl⟩
abbrev main_call15_cst_4 : Ref sig .tc := ⟨.hbm, 416, rfl⟩
abbrev main_call15_call0_v0 : Ref sig .tc := ⟨.hbm, 417, rfl⟩
abbrev main_call15_call0_v1 : Ref sig .tc := ⟨.hbm, 418, rfl⟩
abbrev main_v188 : Ref sig .tc := ⟨.hbm, 419, rfl⟩
abbrev main_v189 : Ref sig .tc := ⟨.hbm, 420, rfl⟩
abbrev main_v190 : Ref sig .tc := ⟨.hbm, 421, rfl⟩
abbrev main_v191 : Ref sig .tc := ⟨.hbm, 422, rfl⟩
abbrev main_cst_45 : Ref sig .tc := ⟨.hbm, 423, rfl⟩
abbrev main_v192 : Ref sig .tc := ⟨.hbm, 424, rfl⟩
abbrev main_v193 : Ref sig .tc := ⟨.hbm, 425, rfl⟩
abbrev main_v194 : Ref sig .tc := ⟨.hbm, 426, rfl⟩
abbrev main_v195 : Ref sig .tc := ⟨.hbm, 427, rfl⟩
abbrev main_v196 : Ref sig .tc := ⟨.hbm, 428, rfl⟩
abbrev main_v197 : Ref sig .tc := ⟨.hbm, 429, rfl⟩
abbrev main_v198 : Ref sig .tc := ⟨.hbm, 430, rfl⟩
abbrev main_v199 : Ref sig .tc := ⟨.hbm, 431, rfl⟩
abbrev main_v200 : Ref sig .tc := ⟨.hbm, 432, rfl⟩
abbrev main_v201 : Ref sig .tc := ⟨.hbm, 433, rfl⟩
abbrev main_v202 : Ref sig .tc := ⟨.hbm, 434, rfl⟩
abbrev main_v203 : Ref sig .tc := ⟨.hbm, 435, rfl⟩
abbrev main_v204 : Ref sig .tc := ⟨.hbm, 436, rfl⟩
abbrev main_v205 : Ref sig .tc := ⟨.hbm, 437, rfl⟩
abbrev main_v206 : Ref sig .tc := ⟨.hbm, 438, rfl⟩
abbrev main_v207 : Ref sig .tc := ⟨.hbm, 439, rfl⟩
abbrev main_v208 : Ref sig .tc := ⟨.hbm, 440, rfl⟩
abbrev main_v209 : Ref sig .tc := ⟨.hbm, 441, rfl⟩
abbrev main_v210 : Ref sig .tc := ⟨.hbm, 442, rfl⟩
abbrev main_v211 : Ref sig .tc := ⟨.hbm, 443, rfl⟩
abbrev main_cst_46 : Ref sig .tc := ⟨.hbm, 444, rfl⟩
abbrev main_v212 : Ref sig .tc := ⟨.hbm, 445, rfl⟩
abbrev main_v213 : Ref sig .tc := ⟨.hbm, 446, rfl⟩
abbrev main_v214 : Ref sig .tc := ⟨.hbm, 447, rfl⟩
abbrev main_v215 : Ref sig .tc := ⟨.hbm, 448, rfl⟩
abbrev main_v216 : Ref sig .tc := ⟨.hbm, 449, rfl⟩
abbrev main_v217 : Ref sig .tc := ⟨.hbm, 450, rfl⟩
abbrev main_v218 : Ref sig .tc := ⟨.hbm, 451, rfl⟩
abbrev main_v219 : Ref sig .tc := ⟨.hbm, 452, rfl⟩
abbrev main_v220 : Ref sig .tc := ⟨.hbm, 453, rfl⟩
abbrev main_v221 : Ref sig .tc := ⟨.hbm, 454, rfl⟩
abbrev main_v222 : Ref sig .tc := ⟨.hbm, 455, rfl⟩
abbrev main_v223 : Ref sig .tc := ⟨.hbm, 456, rfl⟩
abbrev main_cst_47 : Ref sig .tc := ⟨.hbm, 457, rfl⟩
abbrev main_v224 : Ref sig .tc := ⟨.hbm, 458, rfl⟩
abbrev main_v225 : Ref sig .tc := ⟨.hbm, 459, rfl⟩
abbrev main_cst_48 : Ref sig .tc := ⟨.hbm, 460, rfl⟩
abbrev main_v226 : Ref sig .tc := ⟨.hbm, 461, rfl⟩
abbrev main_v227 : Ref sig .tc := ⟨.hbm, 462, rfl⟩
abbrev main_v228 : Ref sig .tc := ⟨.hbm, 463, rfl⟩
abbrev main_cst_49 : Ref sig .tc := ⟨.hbm, 464, rfl⟩
abbrev main_v229 : Ref sig .tc := ⟨.hbm, 465, rfl⟩
abbrev main_v230 : Ref sig .tc := ⟨.hbm, 466, rfl⟩
abbrev main_v231 : Ref sig .tc := ⟨.hbm, 467, rfl⟩
abbrev main_v232 : Ref sig .tc := ⟨.hbm, 468, rfl⟩
abbrev main_v233 : Ref sig .tc := ⟨.hbm, 469, rfl⟩
abbrev main_v234 : Ref sig .tc := ⟨.hbm, 470, rfl⟩
abbrev main_v235 : Ref sig .tc := ⟨.hbm, 471, rfl⟩
abbrev main_v236 : Ref sig .tc := ⟨.hbm, 472, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  concatenates_S100000x64_S100000x64_S100000x64_S100000x64_S100000x256_d1 : Shape.Concatenates [S100000x64, S100000x64, S100000x64, S100000x64] S100000x256 1
  bcast_S1_S1x1_1 : S1.BroadcastsInDim S1x1 (![1] : Fin 1 → Fin S1x1.rank)
  bcast_S1x1_S100000x64_0_1 : S1x1.BroadcastsInDim S100000x64 (![0, 1] : Fin 2 → Fin S100000x64.rank)
  bcast_S129_S1x129_1 : S129.BroadcastsInDim S1x129 (![1] : Fin 1 → Fin S1x129.rank)
  bcast_S1x129_S100000x129_0_1 : S1x129.BroadcastsInDim S100000x129 (![0, 1] : Fin 2 → Fin S100000x129.rank)
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []
  dot_S100000x256_S256x64_S100000x64_1_0_0_1_n_n_wf : DotDims.WF S100000x256 S256x64 S100000x64 [1] [0] [0] [1] [] []
  dot_S100000x64_S64x129_S100000x129_1_0_0_1_n_n_wf : DotDims.WF S100000x64 S64x129 S100000x129 [1] [0] [0] [1] [] []

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x64_S64x129_S100000x129_1_0_0_1_n_n : DotDims S100000x64 S64x129 S100000x129 where
  lhsContracting := [1]
  rhsContracting := [0]
  lhsNonContracting := [0]
  rhsNonContracting := [1]
  lhsBatch := []
  rhsBatch := []
  wf := dot_S100000x64_S64x129_S100000x129_1_0_0_1_n_n_wf

class Facts : Prop extends Facts₀ where

variable [Facts]
-- ==== Proof.KerRun.lean ====
/-
  The idealized kernel's run with its RESULT named. The generated frame run ends with every unscoped buffer of a
  core at the last boundary's contents (the fold of @main's thirty segments from the launch memory) and then keeps only
  the argument arrays; the same launch, with the post read one buffer further, also gives the result array: after the
  run the buffer of the last region's output holds that fold's value at it.
-/
import proofs.«107288_j13769665151544_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting; the result
    buffer ends at the last boundary's contents and every argument array as launched. -/
theorem run_result : θ_run defs (onTc (τ := τ) (main (F := F))) ⟨m, fun _ => 0, ρ⟩ (fun r => ∀ c : Dev nD,
      r.2.mem ((c.tc : Thread nD τ).loc main_v130) = W30 m ρ c (Proc.devRef .tc main_v130)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W30 m ρ c b)
    (hfin := fun c s' => by
      iintro ⟨⟨Hh, -⟩, HSI⟩
      unfold StableHlo.held
      imodintro
      iapply (pointsTo_read_all (Pipeline.ucRefs τ sig) (fun b => (((c : Thread nD τ)).1, b)) (W30 m ρ c) s')
      isplitl [Hh] <;> iassumption)
    (hQ := fun s h c =>
      ⟨h c _ (mem_uc main_v130 (by decide)),
       (h c _ (mem_uc main_arg0 (by decide))).trans (W30_main_arg0 m ρ c),
       (h c _ (mem_uc main_arg1 (by decide))).trans (W30_main_arg1 m ρ c),
       (h c _ (mem_uc main_arg2 (by decide))).trans (W30_main_arg2 m ρ c),
       (h c _ (mem_uc main_arg3 (by decide))).trans (W30_main_arg3 m ρ c),
       (h c _ (mem_uc main_arg4 (by decide))).trans (W30_main_arg4 m ρ c),
       (h c _ (mem_uc main_arg5 (by decide))).trans (W30_main_arg5 m ρ c),
       (h c _ (mem_uc main_arg6 (by decide))).trans (W30_main_arg6 m ρ c),
       (h c _ (mem_uc main_arg7 (by decide))).trans (W30_main_arg7 m ρ c),
       (h c _ (mem_uc main_arg8 (by decide))).trans (W30_main_arg8 m ρ c),
       (h c _ (mem_uc main_arg9 (by decide))).trans (W30_main_arg9 m ρ c),
       (h c _ (mem_uc main_arg10 (by decide))).trans (W30_main_arg10 m ρ c),
       (h c _ (mem_uc main_arg11 (by decide))).trans (W30_main_arg11 m ρ c),
       (h c _ (mem_uc main_arg12 (by decide))).trans (W30_main_arg12 m ρ c),
       (h c _ (mem_uc main_arg13 (by decide))).trans (W30_main_arg13 m ρ c),
       (h c _ (mem_uc main_arg14 (by decide))).trans (W30_main_arg14 m ρ c),
       (h c _ (mem_uc main_arg15 (by decide))).trans (W30_main_arg15 m ρ c),
       (h c _ (mem_uc main_arg16 (by decide))).trans (W30_main_arg16 m ρ c),
       (h c _ (mem_uc main_arg17 (by decide))).trans (W30_main_arg17 m ρ c),
       (h c _ (mem_uc main_arg18 (by decide))).trans (W30_main_arg18 m ρ c),
       (h c _ (mem_uc main_arg19 (by decide))).trans (W30_main_arg19 m ρ c),
       (h c _ (mem_uc main_arg20 (by decide))).trans (W30_main_arg20 m ρ c),
       (h c _ (mem_uc main_arg21 (by decide))).trans (W30_main_arg21 m ρ c),
       (h c _ (mem_uc main_arg22 (by decide))).trans (W30_main_arg22 m ρ c),
       (h c _ (mem_uc main_arg23 (by decide))).trans (W30_main_arg23 m ρ c),
       (h c _ (mem_uc main_arg24 (by decide))).trans (W30_main_arg24 m ρ c),
       (h c _ (mem_uc main_arg25 (by decide))).trans (W30_main_arg25 m ρ c),
       (h c _ (mem_uc main_arg26 (by decide))).trans (W30_main_arg26 m ρ c),
       (h c _ (mem_uc main_arg27 (by decide))).trans (W30_main_arg27 m ρ c)⟩)

end Cert.KernelIdeal.Hand

end
-- ==== Proof.RefOps.lean ====
/- The reference program's straight line, written out.

The reference's entry function calls small functions of its own module (a clip, two selects, an ELU, a variance); running
it is running the flat line in which every call is replaced by the called function's own operations over the buffers of
that call. This module writes that flat line down twice, cut two ways: as the stretches between calls inside
each window of sixty statements (`it0 …`, the form in which the printed entry function is compared with it),
and as seventeen consecutive pieces `opsS1 … opsS17` ending at the values the two branches of the network are
read at. `ops` is the seventeen pieces in order, and `WSk` lists the buffers piece `k` writes. -/
import proofs.«107288_j13769665151544_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stretches between calls, window by window -/

/-- Stretch 0 (window 0): 11 operations. -/
abbrev it0 : List (HloOp τ sig (Elt F)) :=
  [ StableHlo.nullary main_cst (constant S_ .f32 0x3F800000#32),
    StableHlo.unary main_cst main_v0 (broadcastInDim S1250000 ![] bcast_S_S1250000 : (⟨S_, .f32⟩ : BufTy).Contents (Elt F) → (⟨S1250000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg1 main_v2 (broadcastInDim S1250000x1 ![0] bcast_S1250000_S1250000x1_0 : (⟨S1250000, .i32⟩ : BufTy).Contents (Elt F) → (⟨S1250000x1, .i32⟩ : BufTy).Contents (Elt F)),
    StableHlo.ternary main_v1 main_v2 main_v0 main_v3 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_1 (constant S_ .f32 0x00000000#32),
    StableHlo.unary main_cst_1 main_v4 (broadcastInDim S100000 ![] bcast_S_S100000 : (⟨S_, .f32⟩ : BufTy).Contents (Elt F) → (⟨S100000, .f32⟩ : BufTy).Contents (Elt F)),
    StableHlo.unary main_arg2 main_v5 (broadcastInDim S1250000x1 ![0] bcast_S1250000_S1250000x1_0 : (⟨S1250000, .i32⟩ : BufTy).Contents (Elt F) → (⟨S1250000x1, .i32⟩ : BufTy).Contents (Elt F)),
    StableHlo.ternary main_v4 main_v5 main_v0 main_v6 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_2 (constant S_ .f32 0x3F800000#32) ]

/-- Stretch 1 (window 0, the operations of one call): 3 operations. -/
abbrev it1 : List (HloOp τ sig (Elt F)) :=
  [ StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.binary (.of main_call0_v1 : StableHlo.TRef sig ⟨S100000, .f32⟩) (.of main_v3 : StableHlo.TRef sig ⟨S100000, .f32⟩) (.of main_v7 : StableHlo.TRef sig ⟨S100000, .f32⟩) maximumf ]

/-- Stretch 2 (window 0): 2 operations. -/
abbrev it2 : List (HloOp τ sig (Elt F)) :=
  [ StableHlo.unary main_v7 main_v8 (Host.rsqrt : (⟨S100000, .f32⟩ : BufTy).Contents (Elt F) → (⟨S100000, .f32⟩ : BufTy).Contents (Elt F)),
    StableHlo.nullary main_cst_3 (constant S_ .f32 0x3F800000#32) ]

/-- Stretch 3 (window 0, the operations of one call): 3 operations. -/
abbrev it3 : List (HloOp τ sig (Elt F)) :=
  [ StableHlo.TRef.unary (.of main_cst_3 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S100000, .f32⟩) (broadcastInDim S100000 ![] bcast_S_S100000),
    StableHlo.TRef.binary (.of main_call1_v1 : StableHlo.TRef sig ⟨S100000, .f32⟩) (.of main_v6 : StableHlo.TRef sig ⟨S100000, .f32⟩) (.of main_v9 : StableHlo.TRef sig ⟨S100000, .f32⟩) maximumf ]

/-- Stretch 4 (window 0): 24 operations. -/
abbrev it4 : List (HloOp τ sig (Elt F)) :=
  [ StableHlo.unary main_v9 main_v10 (Host.rsqrt : (⟨S100000, .f32⟩ : BufTy).Contents (Elt F) → (⟨S100000, .f32⟩ : BufTy).Contents (Elt F)),
    StableHlo.unary main_v8 main_v11 (broadcastInDim S100000x1 ![0] bcast_S100000_S100000x1_0 : (⟨S100000, .f32⟩ : BufTy).Contents (Elt F) → (⟨S100000x1, .f32⟩ : BufTy).Contents (Elt F)),
    StableHlo.unary main_v11 main_v12 (broadcastInDim S100000x64 ![0, 1] bcast_S100000x1_S100000x64_0_1 : (⟨S100000x1, .f32⟩ : BufTy).Contents (Elt F) → (⟨S100000x64, .f32⟩ : BufTy).Contents (Elt F)),
    StableHlo.binary main_arg0 main_v12 main_v13 (mulf : (⟨S100000x64, .f32⟩ : BufTy).Contents (Elt F) → (⟨S100000x64, .f32⟩ : BufTy).Contents (Elt F) → (⟨S100000x64, .f32⟩ : BufTy).Contents (Elt F)),
    StableHlo.nullary main_c (constantI S_ 32 0#32),
    StableHlo.unary main_c main_v14 (broadcastInDim S1250000 ![] bcast_S_S1250000 : (⟨S_, .i32⟩ : BufTy).Contents (Elt F) → (⟨S1250000, .i32⟩ : BufTy).Contents (Elt F)),
    StableHlo.binary main_arg1 main_v14 main_v15 (cmpi .slt : (⟨S1250000, .i32⟩ : BufTy).Contents (Elt F) → (⟨S1250000, .i32⟩ : BufTy).Contents (Elt F) → (⟨S1250000, .i1⟩ : BufTy).Contents (Elt F)),
    StableHlo.nullary main_c_4 (constantI S_ 32 100000#32),
    StableHlo.unary main_c_4 main_v16 (broadcastInDim S1250000 ![] bcast_S_S1250000 : (⟨S_, .i32⟩ : BufTy).Contents (Elt F) → (⟨S1250000, .i32⟩ : BufTy).Contents (Elt F)),
    StableHlo.binary main_arg1 main_v16 main_v17 (addi : (⟨S1250000, .i32⟩ : BufTy).Contents (Elt F) → (⟨S1250000, .i32⟩ : BufTy).Contents (Elt F) → (⟨S1250000, .i32⟩ : BufTy).Contents (Elt F)),
    StableHlo.ternary main_v15 main_v17 main_arg1 main_v18 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v18 main_v19 (broadcastInDim S1250000x1 ![0] bcast_S1250000_S1250000x1_0 : (⟨S1250000, .i32⟩ : BufTy).Contents (Elt F) → (⟨S1250000x1, .i32⟩ : BufTy).Contents (Elt F)),
    StableHlo.binary main_v13 main_v19 main_v20 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    StableHlo.nullary main_cst_5 (constant S_ .f32 0x00000000#32),
    StableHlo.unary main_cst_5 main_v21 (broadcastInDim S100000x64 ![] bcast_S_S100000x64 : (⟨S_, .f32⟩ : BufTy).Contents (Elt F) → (⟨S100000x64, .f32⟩ : BufTy).Contents (Elt F)),
    StableHlo.unary main_arg2 main_v22 (broadcastInDim S1250000x1 ![0] bcast_S1250000_S1250000x1_0 : (⟨S1250000, .i32⟩ : BufTy).Contents (Elt F) → (⟨S1250000x1, .i32⟩ : BufTy).Contents (Elt F)),
    StableHlo.ternary main_v21 main_v22 main_v20 main_v23 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    StableHlo.unary main_v10 main_v24 (broadcastInDim S100000x1 ![0] bcast_S100000_S100000x1_0 : (⟨S100000, .f32⟩ : BufTy).Contents (Elt F) → (⟨S100000x1, .f32⟩ : BufTy).Contents (Elt F)),
    StableHlo.unary main_v24 main_v25 (broadcastInDim S100000x64 ![0, 1] bcast_S100000x1_S100000x64_0_1 : (⟨S100000x1, .f32⟩ : BufTy).Contents (Elt F) → (⟨S100000x64, .f32⟩ : BufTy).Contents (Elt F)),
    StableHlo.binary main_v23 main_v25 main_v26 (mulf : (⟨S100000x64, .f32⟩ : BufTy).Contents (Elt F) → (⟨S100000x64, .f32⟩ : BufTy).Contents (Elt F) → (⟨S100000x64, .f32⟩ : BufTy).Contents (Elt F)),
    StableHlo.binary main_v26 main_arg5 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S100000x64 ![0, 1] bcast_S1x64_S100000x64_0_1 : (⟨S1x64, .f32⟩ : BufTy).Contents (Elt F) → (⟨S100000x64, .f32⟩ : BufTy).Contents (Elt F)),
    StableHlo.binary main_v27 main_v29 main_v30 (addf : (⟨S100000x64, .f32⟩ : BufTy).Contents (Elt F) → (⟨S100000x64, .f32⟩ : BufTy).Contents (Elt F) → (⟨S100000x64, .f32⟩ : BufTy).Contents (Elt F)) ]

/-- Stretch 5 (window 0, the operations of one call): 15 operations. -/
abbrev it5 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x64, .f32⟩) (broadcastInDim S100000x64 ![] bcast_S_S100000x64),
    StableHlo.TRef.binary (.of main_v30 : StableHlo.TRef sig ⟨S100000x64, .f32⟩) (.of main_call2_v0 : StableHlo.TRef sig ⟨S100000x64, .f32⟩) (.of main_call2_v1 : StableHlo.TRef sig ⟨S100000x64, .i1⟩) (cmpf .ogt),
    StableHlo.TRef.nullary (.of main_call2_cst_0 : StableHlo.TRef sig ⟨S_, .f32⟩) (constant S_ .f32 0x00000000#32),
    StableHlo.TRef.unary (.of main_call2_cst_0 : StableHlo.TRef sig ⟨S_, .f32⟩) (.of main_call2_v2 : StableHlo.TRef sig ⟨S100000x64, .f32⟩) (broadcastInDim S100000x64 ![] bcast_S_S100000x64),
    StableHlo.TRef.binary (.of main_v30 : StableHlo.TRef sig ⟨S100000x64, .f32⟩) (.of main_call2_v2 : StableHlo.TRef sig ⟨S100000x64, .f32⟩) (.of main_call2_v3 : StableHlo.TRef sig ⟨S100000x64, .i1⟩) (cmpf .ogt),
    StableHlo.TRef.nullary (.of main_call2_cst_1 : StableHlo.TRef sig ⟨S_, .f32⟩) (constant S_ .f32 0x00000000#32),
    StableHlo.TRef.unary (.of main_call2_cst_1 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S100000x64, .f32⟩) (broadcastInDim S100000x64 ![] bcast_S_S100000x64),
    StableHlo.TRef.ternary (.of main_call2_v3 : StableHlo.TRef sig ⟨S100000x64, .i1⟩) (.of main_call2_call0_v1 : StableHlo.TRef sig ⟨S100000x64, .f32⟩) (.of main_v30 : StableHlo.TRef sig ⟨S100000x64, .f32⟩) (.of main_call2_v4 : StableHlo.TRef sig ⟨S100000x64, .f32⟩) select,
    StableHlo.TRef.unary (.of main_call2_v4 : StableHlo.TRef sig ⟨S100000x64, .f32⟩) (.of main_call2_v5 : StableHlo.TRef sig ⟨S100000x64, .f32⟩) Host.expm1,
    StableHlo.TRef.nullary (.of main_call2_cst_2 : StableHlo.TRef sig ⟨S_, .f32⟩) (constant S_ .f32 0x3F800000#32),
    StableHlo.TRef.unary (.of main_call2_cst_2 : StableHlo.TRef sig ⟨S_, .f32⟩) (.of main_call2_v6 : StableHlo.TRef sig ⟨S100000x64, .f32⟩) (broadcastInDim S100000x64 ![] bcast_S_S100000x64),
    StableHlo.TRef.binary (.of main_call2_v6 : StableHlo.TRef sig ⟨S100000x64, .f32⟩) (.of main_call2_v5 : StableHlo.TRef sig ⟨S100000x64, .f32⟩) (.of main_call2_v7 : StableHlo.TRef sig ⟨S100000x64, .f32⟩) mulf,
    StableHlo.TRef.ternary (.of main_call2_v1 : StableHlo.TRef sig ⟨S100000x64, .i1⟩) (.of main_v30 : StableHlo.TRef sig ⟨S100000x64, .f32⟩) (.of main_call2_v7 : StableHlo.TRef sig ⟨S100000x64, .f32⟩) (.of main_v31 : StableHlo.TRef sig ⟨S100000x64, .f32⟩) select ]

/-- Stretch 6 (window 0): 6 operations. -/
abbrev it6 : List (HloOp τ sig (Elt F)) :=
  [ StableHlo.nullary main_cst_6 (constant S_ .f32 0x00000000#32),
    StableHlo.binary main_v31 main_cst_6 main_v32 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_7 (constant S_ .f32 0x47C35000#32),
    StableHlo.unary main_cst_7 main_v33 (broadcastInDim S64 ![] bcast_S_S64 : (⟨S_, .f32⟩ : BufTy).Contents (Elt F) → (⟨S64, .f32⟩ : BufTy).Contents (Elt F)),
    StableHlo.binary main_v32 main_v33 main_v34 (Host.divf : (⟨S64, .f32⟩ : BufTy).Contents (Elt F) → (⟨S64, .f32⟩ : BufTy).Contents (Elt F) → (⟨S64, .f32⟩ : BufTy).Contents (Elt F)),
    StableHlo.nullary main_c_8 (constantI S_ 32 0#32) ]

/-- Stretch 7 (window 0, the operations of one call): 22 operations. -/
abbrev it7 : List (HloOp τ sig (Elt F)) :=
  [ StableHlo.TRef.nullary (.of main_call3_cst : StableHlo.TRef sig ⟨S_, .f32⟩) (constant S_ .f32 0x00000000#32),
    StableHlo.TRef.binary (.of main_v31 : StableHlo.TRef sig ⟨S100000x64, .f32⟩) (.of main_call3_cst : StableHlo.TRef sig ⟨S_, .f32⟩) (.of main_call3_v0 : StableHlo.TRef sig ⟨S64, .f32⟩) (fun x v => Host.reduceAdd x v reducesTo_S100000x64_S64_d0 h_S_),
    StableHlo.TRef.unary (.of main_call3_v0 : StableHlo.TRef sig ⟨S64, .f32⟩) (.of main_call3_v1 : StableHlo.TRef sig ⟨S1x64, .f32⟩) (broadcastInDim S1x64 ![1] bcast_S64_S1x64_1),
    StableHlo.TRef.nullary (.of main_call3_cst_0 : StableHlo.TRef sig ⟨S_, .f32⟩) (constant S_ .f32 0x47C35000#32),
    StableHlo.TRef.unary (.of main_call3_cst_0 : StableHlo.TRef sig ⟨S_, .f32⟩) (.of main_call3_v2 : StableHlo.TRef sig ⟨S1x64, .f32⟩) (broadcastInDim S1x64 ![] bcast_S_S1x64),
    StableHlo.TRef.binary (.of main_call3_v1 : StableHlo.TRef sig ⟨S1x64, .f32⟩) (.of main_call3_v2 : StableHlo.TRef sig ⟨S1x64, .f32⟩) (.of main_call3_v3 : StableHlo.TRef sig ⟨S1x64, .f32⟩) Host.divf,
    StableHlo.TRef.unary (.of main_call3_v3 : StableHlo.TRef sig ⟨S1x64, .f32⟩) (.of main_call3_v4 : StableHlo.TRef sig ⟨S100000x64, .f32⟩) (broadcastInDim S100000x64 ![0, 1] bcast_S1x64_S100000x64_0_1),
    StableHlo.TRef.binary (.of main_v31 : StableHlo.TRef sig ⟨S100000x64, .f32⟩) (.of main_call3_v4 : StableHlo.TRef sig ⟨S100000x64, .f32⟩) (.of main_call3_v5 : StableHlo.TRef sig ⟨S100000x64, .f32⟩) subf,
    StableHlo.TRef.binary (.of main_call3_v5 : StableHlo.TRef sig ⟨S100000x64, .f32⟩) (.of main_call3_v5 : StableHlo.TRef sig ⟨S100000x64, .f32⟩) (.of main_call3_v6 : StableHlo.TRef sig ⟨S100000x64, .f32⟩) mulf,
    StableHlo.TRef.unary (.of main_c_8 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x47C35000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S100000x64, .f32⟩) (.of main_call3_cst_2 : StableHlo.TRef sig ⟨S_, .f32⟩) (.of main_call3_v9 : StableHlo.TRef sig ⟨S64, .f32⟩) (fun x v => Host.reduceAdd x v reducesTo_S100000x64_S64_d0 h_S_),
    StableHlo.TRef.unary (.of main_call3_v8 : StableHlo.TRef sig ⟨S_, .f32⟩) (.of main_call3_v10 : StableHlo.TRef sig ⟨S64, .f32⟩) (broadcastInDim S64 ![] bcast_S_S64),
    StableHlo.TRef.binary (.of main_call3_v9 : StableHlo.TRef sig ⟨S64, .f32⟩) (.of main_call3_v10 : StableHlo.TRef sig ⟨S64, .f32⟩) (.of main_call3_v11 : StableHlo.TRef sig ⟨S64, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S64, .f32⟩) (broadcastInDim S64 ![] bcast_S_S64),
    StableHlo.TRef.ternary (.of main_call3_v12 : StableHlo.TRef sig ⟨S_, .i1⟩) (.of main_call3_v11 : StableHlo.TRef sig ⟨S64, .f32⟩) (.of main_call3_call0_v1 : StableHlo.TRef sig ⟨S64, .f32⟩) (.of main_v35 : StableHlo.TRef sig ⟨S64, .f32⟩) (fun p a b => select (broadcastInDim S64 ![] bcast_S_S64 p) a b) ]

/-- Stretch 8 (window 0): 13 operations. -/
abbrev it8 : List (HloOp τ sig (Elt F)) :=
  [ StableHlo.unary main_v34 main_v36 (broadcastInDim S1x64 ![1] bcast_S64_S1x64_1 : (⟨S64, .f32⟩ : BufTy).Contents (Elt F) → (⟨S1x64, .f32⟩ : BufTy).Contents (Elt F)),
    StableHlo.unary main_v36 main_v37 (broadcastInDim S100000x64 ![0, 1] bcast_S1x64_S100000x64_0_1 : (⟨S1x64, .f32⟩ : BufTy).Contents (Elt F) → (⟨S100000x64, .f32⟩ : BufTy).Contents (Elt F)),
    StableHlo.binary main_v31 main_v37 main_v38 (subf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3727C5AC#32),
    StableHlo.unary main_cst_9 main_v39 (broadcastInDim S64 ![] bcast_S_S64 : (⟨S_, .f32⟩ : BufTy).Contents (Elt F) → (⟨S64, .f32⟩ : BufTy).Contents (Elt F)),
    StableHlo.binary main_v35 main_v39 main_v40 (addf : (⟨S64, .f32⟩ : BufTy).Contents (Elt F) → (⟨S64, .f32⟩ : BufTy).Contents (Elt F) → (⟨S64, .f32⟩ : BufTy).Contents (Elt F)),
    StableHlo.unary main_v40 main_v41 (Host.rsqrt : (⟨S64, .f32⟩ : BufTy).Contents (Elt F) → (⟨S64, .f32⟩ : BufTy).Contents (Elt F)),
    StableHlo.unary main_v41 main_v42 (broadcastInDim S1x64 ![1] bcast_S64_S1x64_1 : (⟨S64, .f32⟩ : BufTy).Contents (Elt F) → (⟨S1x64, .f32⟩ : BufTy).Contents (Elt F)),
    StableHlo.unary main_v42 main_v43 (broadcastInDim S100000x64 ![0, 1] bcast_S1x64_S100000x64_0_1 : (⟨S1x64, .f32⟩ : BufTy).Contents (Elt F) → (⟨S100000x64, .f32⟩ : BufTy).Contents (Elt F)),
    StableHlo.binary main_v38 main_v43 main_v44 (mulf : (⟨S100000x64, .f32⟩ : BufTy).Contents (Elt F) → (⟨S100000x64, .f32⟩ : BufTy).Contents (Elt F) → (⟨S100000x64, .f32⟩ : BufTy).Contents (Elt F)),
    StableHlo.unary main_arg7 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v46 main_v47 (mulf : (⟨S100000x64, .f32⟩ : BufTy).Contents (Elt F) → (⟨S100000x64, .f32⟩ : BufTy).Contents (Elt F) → (⟨S100000x64, .f32⟩ : BufTy).Contents (Elt F)) ]

/-- Stretch 9 (window 1): 14 operations. -/
abbrev it9 : List (HloOp τ sig (Elt F)) :=
  [ StableHlo.unary main_arg8 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S100000x64 ![0, 1] bcast_S1x64_S100000x64_0_1 : (⟨S1x64, .f32⟩ : BufTy).Contents (Elt F) → (⟨S100000x64, .f32⟩ : BufTy).Contents (Elt F)),
    StableHlo.binary main_v47 main_v49 main_v50 (addf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x3F800000#32),
    StableHlo.unary main_cst_10 main_v51 (broadcastInDim S1250000 ![] bcast_S_S1250000 : (⟨S_, .f32⟩ : BufTy).Contents (Elt F) → (⟨S1250000, .f32⟩ : BufTy).Contents (Elt F)),
    StableHlo.nullary main_cst_11 (constant S_ .f32 0x00000000#32),
    StableHlo.unary main_cst_11 main_v52 (broadcastInDim S100000 ![] bcast_S_S100000 : (⟨S_, .f32⟩ : BufTy).Contents (Elt F) → (⟨S100000, .f32⟩ : BufTy).Contents (Elt F)),
    StableHlo.unary main_arg1 main_v53 (broadcastInDim S1250000x1 ![0] bcast_S1250000_S1250000x1_0 : (⟨S1250000, .i32⟩ : BufTy).Contents (Elt F) → (⟨S1250000x1, .i32⟩ : BufTy).Contents (Elt F)),
    StableHlo.ternary main_v52 main_v53 main_v51 main_v54 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_12 (constant S_ .f32 0x00000000#32),
    StableHlo.unary main_cst_12 main_v55 (broadcastInDim S100000 ![] bcast_S_S100000 : (⟨S_, .f32⟩ : BufTy).Contents (Elt F) → (⟨S100000, .f32⟩ : BufTy).Contents (Elt F)),
    StableHlo.unary main_arg2 main_v56 (broadcastInDim S1250000x1 ![0] bcast_S1250000_S1250000x1_0 : (⟨S1250000, .i32⟩ : BufTy).Contents (Elt F) → (⟨S1250000x1, .i32⟩ : BufTy).Contents (Elt F)),
    StableHlo.ternary main_v55 main_v56 main_v51 main_v57 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_13 (constant S_ .f32 0x3F800000#32) ]

/-- Stretch 10 (window 1, the operations of one call): 3 operations. -/
abbrev it10 : List (HloOp τ sig (Elt F)) :=
  [ StableHlo.TRef.unary (.of main_cst_13 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S100000, .f32⟩) (broadcastInDim S100000 ![] bcast_S_S100000),
    StableHlo.TRef.binary (.of main_call4_v1 : StableHlo.TRef sig ⟨S100000, .f32⟩) (.of main_v54 : StableHlo.TRef sig ⟨S100000, .f32⟩) (.of main_v58 : StableHlo.TRef sig ⟨S100000, .f32⟩) maximumf ]

/-- Stretch 11 (window 1): 2 operations. -/
abbrev it11 : List (HloOp τ sig (Elt F)) :=
  [ StableHlo.unary main_v58 main_v59 (Host.rsqrt : (⟨S100000, .f32⟩ : BufTy).Contents (Elt F) → (⟨S100000, .f32⟩ : BufTy).Contents (Elt F)),
    StableHlo.nullary main_cst_14 (constant S_ .f32 0x3F800000#32) ]

/-- Stretch 12 (window 1, the operations of one call): 3 operations. -/
abbrev it12 : List (HloOp τ sig (Elt F)) :=
  [ StableHlo.TRef.unary (.of main_cst_14 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S100000, .f32⟩) (broadcastInDim S100000 ![] bcast_S_S100000),
    StableHlo.TRef.binary (.of main_call5_v1 : StableHlo.TRef sig ⟨S100000, .f32⟩) (.of main_v57 : StableHlo.TRef sig ⟨S100000, .f32⟩) (.of main_v60 : StableHlo.TRef sig ⟨S100000, .f32⟩) maximumf ]

/-- Stretch 13 (window 1): 24 operations. -/
abbrev it13 : List (HloOp τ sig (Elt F)) :=
  [ StableHlo.unary main_v60 main_v61 (Host.rsqrt : (⟨S100000, .f32⟩ : BufTy).Contents (Elt F) → (⟨S100000, .f32⟩ : BufTy).Contents (Elt F)),
    StableHlo.unary main_v59 main_v62 (broadcastInDim S100000x1 ![0] bcast_S100000_S100000x1_0 : (⟨S100000, .f32⟩ : BufTy).Contents (Elt F) → (⟨S100000x1, .f32⟩ : BufTy).Contents (Elt F)),
    StableHlo.unary main_v62 main_v63 (broadcastInDim S100000x64 ![0, 1] bcast_S100000x1_S100000x64_0_1 : (⟨S100000x1, .f32⟩ : BufTy).Contents (Elt F) → (⟨S100000x64, .f32⟩ : BufTy).Contents (Elt F)),
    StableHlo.binary main_v50 main_v63 main_v64 (mulf : (⟨S100000x64, .f32⟩ : BufTy).Contents (Elt F) → (⟨S100000x64, .f32⟩ : BufTy).Contents (Elt F) → (⟨S100000x64, .f32⟩ : BufTy).Contents (Elt F)),
    StableHlo.nullary main_c_15 (constantI S_ 32 0#32),
    StableHlo.unary main_c_15 main_v65 (broadcastInDim S1250000 ![] bcast_S_S1250000 : (⟨S_, .i32⟩ : BufTy).Contents (Elt F) → (⟨S1250000, .i32⟩ : BufTy).Contents (Elt F)),
    StableHlo.binary main_arg1 main_v65 main_v66 (cmpi .slt : (⟨S1250000, .i32⟩ : BufTy).Contents (Elt F) → (⟨S1250000, .i32⟩ : BufTy).Contents (Elt F) → (⟨S1250000, .i1⟩ : BufTy).Contents (Elt F)),
    StableHlo.nullary main_c_16 (constantI S_ 32 100000#32),
    StableHlo.unary main_c_16 main_v67 (broadcastInDim S1250000 ![] bcast_S_S1250000 : (⟨S_, .i32⟩ : BufTy).Contents (Elt F) → (⟨S1250000, .i32⟩ : BufTy).Contents (Elt F)),
    StableHlo.binary main_arg1 main_v67 main_v68 (addi : (⟨S1250000, .i32⟩ : BufTy).Contents (Elt F) → (⟨S1250000, .i32⟩ : BufTy).Contents (Elt F) → (⟨S1250000, .i32⟩ : BufTy).Contents (Elt F)),
    StableHlo.ternary main_v66 main_v68 main_arg1 main_v69 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v69 main_v70 (broadcastInDim S1250000x1 ![0] bcast_S1250000_S1250000x1_0 : (⟨S1250000, .i32⟩ : BufTy).Contents (Elt F) → (⟨S1250000x1, .i32⟩ : BufTy).Contents (Elt F)),
    StableHlo.binary main_v64 main_v70 main_v71 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    StableHlo.nullary main_cst_17 (constant S_ .f32 0x00000000#32),
    StableHlo.unary main_cst_17 main_v72 (broadcastInDim S100000x64 ![] bcast_S_S100000x64 : (⟨S_, .f32⟩ : BufTy).Contents (Elt F) → (⟨S100000x64, .f32⟩ : BufTy).Contents (Elt F)),
    StableHlo.unary main_arg2 main_v73 (broadcastInDim S1250000x1 ![0] bcast_S1250000_S1250000x1_0 : (⟨S1250000, .i32⟩ : BufTy).Contents (Elt F) → (⟨S1250000x1, .i32⟩ : BufTy).Contents (Elt F)),
    StableHlo.ternary main_v72 main_v73 main_v71 main_v74 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    StableHlo.unary main_v61 main_v75 (broadcastInDim S100000x1 ![0] bcast_S100000_S100000x1_0 : (⟨S100000, .f32⟩ : BufTy).Contents (Elt F) → (⟨S100000x1, .f32⟩ : BufTy).Contents (Elt F)),
    StableHlo.unary main_v75 main_v76 (broadcastInDim S100000x64 ![0, 1] bcast_S100000x1_S100000x64_0_1 : (⟨S100000x1, .f32⟩ : BufTy).Contents (Elt F) → (⟨S100000x64, .f32⟩ : BufTy).Contents (Elt F)),
    StableHlo.binary main_v74 main_v76 main_v77 (mulf : (⟨S100000x64, .f32⟩ : BufTy).Contents (Elt F) → (⟨S100000x64, .f32⟩ : BufTy).Contents (Elt F) → (⟨S100000x64, .f32⟩ : BufTy).Contents (Elt F)),
    StableHlo.binary main_v77 main_arg9 main_v78 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v79 (broadcastInDim S1x64 ![1] bcast_S64_S1x64_1 : (⟨S64, .f32⟩ : BufTy).Contents (Elt F) → (⟨S1x64, .f32⟩ : BufTy).Contents (Elt F)),
    StableHlo.unary main_v79 main_v80 (broadcastInDim S100000x64 ![0, 1] bcast_S1x64_S100000x64_0_1 : (⟨S1x64, .f32⟩ : BufTy).Contents (Elt F) → (⟨S100000x64, .f32⟩ : BufTy).Contents (Elt F)),
    StableHlo.binary main_v78 main_v80 main_v81 (addf : (⟨S100000x64, .f32⟩ : BufTy).Contents (Elt F) → (⟨S100000x64, .f32⟩ : BufTy).Contents (Elt F) → (⟨S100000x64, .f32⟩ : BufTy).Contents (Elt F)) ]

/-- Stretch 14 (window 1, the operations of one call): 15 operations. -/
abbrev it14 : List (HloOp τ sig (Elt F)) :=
  [ StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S100000x64, .f32⟩) (broadcastInDim S100000x64 ![] bcast_S_S100000x64),
    StableHlo.TRef.binary (.of main_v81 : StableHlo.TRef sig ⟨S100000x64, .f32⟩) (.of main_call6_v0 : StableHlo.TRef sig ⟨S100000x64, .f32⟩) (.of main_call6_v1 : StableHlo.TRef sig ⟨S100000x64, .i1⟩) (cmpf .ogt),
    StableHlo.TRef.nullary (.of main_call6_cst_0 : StableHlo.TRef sig ⟨S_, .f32⟩) (constant S_ .f32 0x00000000#32),
    StableHlo.TRef.unary (.of main_call6_cst_0 : StableHlo.TRef sig ⟨S_, .f32⟩) (.of main_call6_v2 : StableHlo.TRef sig ⟨S100000x64, .f32⟩) (broadcastInDim S100000x64 ![] bcast_S_S100000x64),
    StableHlo.TRef.binary (.of main_v81 : StableHlo.TRef sig ⟨S100000x64, .f32⟩) (.of main_call6_v2 : StableHlo.TRef sig ⟨S100000x64, .f32⟩) (.of main_call6_v3 : StableHlo.TRef sig ⟨S100000x64, .i1⟩) (cmpf .ogt),
    StableHlo.TRef.nullary (.of main_call6_cst_1 : StableHlo.TRef sig ⟨S_, .f32⟩) (constant S_ .f32 0x00000000#32),
    StableHlo.TRef.unary (.of main_call6_cst_1 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S100000x64, .f32⟩) (broadcastInDim S100000x64 ![] bcast_S_S100000x64),
    StableHlo.TRef.ternary (.of main_call6_v3 : StableHlo.TRef sig ⟨S100000x64, .i1⟩) (.of main_call6_call0_v1 : StableHlo.TRef sig ⟨S100000x64, .f32⟩) (.of main_v81 : StableHlo.TRef sig ⟨S100000x64, .f32⟩) (.of main_call6_v4 : StableHlo.TRef sig ⟨S100000x64, .f32⟩) select,
    StableHlo.TRef.unary (.of main_call6_v4 : StableHlo.TRef sig ⟨S100000x64, .f32⟩) (.of main_call6_v5 : StableHlo.TRef sig ⟨S100000x64, .f32⟩) Host.expm1,
    StableHlo.TRef.nullary (.of main_call6_cst_2 : StableHlo.TRef sig ⟨S_, .f32⟩) (constant S_ .f32 0x3F800000#32),
    StableHlo.TRef.unary (.of main_call6_cst_2 : StableHlo.TRef sig ⟨S_, .f32⟩) (.of main_call6_v6 : StableHlo.TRef sig ⟨S100000x64, .f32⟩) (broadcastInDim S100000x64 ![] bcast_S_S100000x64),
    StableHlo.TRef.binary (.of main_call6_v6 : StableHlo.TRef sig ⟨S100000x64, .f32⟩) (.of main_call6_v5 : StableHlo.TRef sig ⟨S100000x64, .f32⟩) (.of main_call6_v7 : StableHlo.TRef sig ⟨S100000x64, .f32⟩) mulf,
    StableHlo.TRef.ternary (.of main_call6_v1 : StableHlo.TRef sig ⟨S100000x64, .i1⟩) (.of main_v81 : StableHlo.TRef sig ⟨S100000x64, .f32⟩) (.of main_call6_v7 : StableHlo.TRef sig ⟨S100000x64, .f32⟩) (.of main_v82 : StableHlo.TRef sig ⟨S100000x64, .f32⟩) select ]

/-- Stretch 15 (window 1): 6 operations. -/
abbrev it15 : List (HloOp τ sig (Elt F)) :=
  [ StableHlo.nullary main_cst_18 (constant S_ .f32 0x00000000#32),
    StableHlo.binary main_v82 main_cst_18 main_v83 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_19 (constant S_ .f32 0x47C35000#32),
    StableHlo.unary main_cst_19 main_v84 (broadcastInDim S64 ![] bcast_S_S64 : (⟨S_, .f32⟩ : BufTy).Contents (Elt F) → (⟨S64, .f32⟩ : BufTy).Contents (Elt F)),
    StableHlo.binary main_v83 main_v84 main_v85 (Host.divf : (⟨S64, .f32⟩ : BufTy).Contents (Elt F) → (⟨S64, .f32⟩ : BufTy).Contents (Elt F) → (⟨S64, .f32⟩ : BufTy).Contents (Elt F)),
    StableHlo.nullary main_c_20 (constantI S_ 32 0#32) ]

/-- Stretch 16 (window 1, the operations of one call): 22 operations. -/
abbrev it16 : List (HloOp τ sig (Elt F)) :=
  [ StableHlo.TRef.nullary (.of main_call7_cst : StableHlo.TRef sig ⟨S_, .f32⟩) (constant S_ .f32 0x00000000#32),
    StableHlo.TRef.binary (.of main_v82 : StableHlo.TRef sig ⟨S100000x64, .f32⟩) (.of main_call7_cst : StableHlo.TRef sig ⟨S_, .f32⟩) (.of main_call7_v0 : StableHlo.TRef sig ⟨S64, .f32⟩) (fun x v => Host.reduceAdd x v reducesTo_S100000x64_S64_d0 h_S_),
    StableHlo.TRef.unary (.of main_call7_v0 : StableHlo.TRef sig ⟨S64, .f32⟩) (.of main_call7_v1 : StableHlo.TRef sig ⟨S1x64, .f32⟩) (broadcastInDim S1x64 ![1] bcast_S64_S1x64_1),
    StableHlo.TRef.nullary (.of main_call7_cst_0 : StableHlo.TRef sig ⟨S_, .f32⟩) (constant S_ .f32 0x47C35000#32),
    StableHlo.TRef.unary (.of main_call7_cst_0 : StableHlo.TRef sig ⟨S_, .f32⟩) (.of main_call7_v2 : StableHlo.TRef sig ⟨S1x64, .f32⟩) (broadcastInDim S1x64 ![] bcast_S_S1x64),
    StableHlo.TRef.binary (.of main_call7_v1 : StableHlo.TRef sig ⟨S1x64, .f32⟩) (.of main_call7_v2 : StableHlo.TRef sig ⟨S1x64, .f32⟩) (.of main_call7_v3 : StableHlo.TRef sig ⟨S1x64, .f32⟩) Host.divf,
    StableHlo.TRef.unary (.of main_call7_v3 : StableHlo.TRef sig ⟨S1x64, .f32⟩) (.of main_call7_v4 : StableHlo.TRef sig ⟨S100000x64, .f32⟩) (broadcastInDim S100000x64 ![0, 1] bcast_S1x64_S100000x64_0_1),
    StableHlo.TRef.binary (.of main_v82 : StableHlo.TRef sig ⟨S100000x64, .f32⟩) (.of main_call7_v4 : StableHlo.TRef sig ⟨S100000x64, .f32⟩) (.of main_call7_v5 : StableHlo.TRef sig ⟨S100000x64, .f32⟩) subf,
    StableHlo.TRef.binary (.of main_call7_v5 : StableHlo.TRef sig ⟨S100000x64, .f32⟩) (.of main_call7_v5 : StableHlo.TRef sig ⟨S100000x64, .f32⟩) (.of main_call7_v6 : StableHlo.TRef sig ⟨S100000x64, .f32⟩) mulf,
    StableHlo.TRef.unary (.of main_c_20 : StableHlo.TRef sig ⟨S_, .i32⟩) (.of main_call7_v7 : StableHlo.TRef sig ⟨S_, .f32⟩) (sitofp .f32),
    StableHlo.TRef.nullary (.of main_call7_cst_1 : StableHlo.TRef sig ⟨S_, .f32⟩) (constant S_ .f32 0x47C35000#32),
    StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf,
    StableHlo.TRef.nullary (.of main_call7_cst_2 : StableHlo.TRef sig ⟨S_, .f32⟩) (constant S_ .f32 0x00000000#32),
    StableHlo.TRef.binary (.of main_call7_v6 : StableHlo.TRef sig ⟨S100000x64, .f32⟩) (.of main_call7_cst_2 : StableHlo.TRef sig ⟨S_, .f32⟩) (.of main_call7_v9 : StableHlo.TRef sig ⟨S64, .f32⟩) (fun x v => Host.reduceAdd x v reducesTo_S100000x64_S64_d0 h_S_),
    StableHlo.TRef.unary (.of main_call7_v8 : StableHlo.TRef sig ⟨S_, .f32⟩) (.of main_call7_v10 : StableHlo.TRef sig ⟨S64, .f32⟩) (broadcastInDim S64 ![] bcast_S_S64),
    StableHlo.TRef.binary (.of main_call7_v9 : StableHlo.TRef sig ⟨S64, .f32⟩) (.of main_call7_v10 : StableHlo.TRef sig ⟨S64, .f32⟩) (.of main_call7_v11 : StableHlo.TRef sig ⟨S64, .f32⟩) Host.divf,
    StableHlo.TRef.nullary (.of main_call7_cst_3 : StableHlo.TRef sig ⟨S_, .f32⟩) (constant S_ .f32 0x00000000#32),
    StableHlo.TRef.binary (.of main_call7_v8 : StableHlo.TRef sig ⟨S_, .f32⟩) (.of main_call7_cst_3 : StableHlo.TRef sig ⟨S_, .f32⟩) (.of main_call7_v12 : StableHlo.TRef sig ⟨S_, .i1⟩) (cmpf .ogt),
    StableHlo.TRef.nullary (.of main_call7_cst_4 : StableHlo.TRef sig ⟨S_, .f32⟩) (constant S_ .f32 0x7FC00000#32),
    StableHlo.TRef.unary (.of main_call7_cst_4 : StableHlo.TRef sig ⟨S_, .f32⟩) (.of main_call7_call0_v0 : StableHlo.TRef sig ⟨S_, .f32⟩) id,
    StableHlo.TRef.unary (.of main_call7_call0_v0 : StableHlo.TRef sig ⟨S_, .f32⟩) (.of main_call7_call0_v1 : StableHlo.TRef sig ⟨S64, .f32⟩) (broadcastInDim S64 ![] bcast_S_S64),
    StableHlo.TRef.ternary (.of main_call7_v12 : StableHlo.TRef sig ⟨S_, .i1⟩) (.of main_call7_v11 : StableHlo.TRef sig ⟨S64, .f32⟩) (.of main_call7_call0_v1 : StableHlo.TRef sig ⟨S64, .f32⟩) (.of main_v86 : StableHlo.TRef sig ⟨S64, .f32⟩) (fun p a b => select (broadcastInDim S64 ![] bcast_S_S64 p) a b) ]

/-- Stretch 17 (window 1): 10 operations. -/
abbrev it17 : List (HloOp τ sig (Elt F)) :=
  [ StableHlo.unary main_v85 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S100000x64 ![0, 1] bcast_S1x64_S100000x64_0_1 : (⟨S1x64, .f32⟩ : BufTy).Contents (Elt F) → (⟨S100000x64, .f32⟩ : BufTy).Contents (Elt F)),
    StableHlo.binary main_v82 main_v88 main_v89 (subf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x3727C5AC#32),
    StableHlo.unary main_cst_21 main_v90 (broadcastInDim S64 ![] bcast_S_S64 : (⟨S_, .f32⟩ : BufTy).Contents (Elt F) → (⟨S64, .f32⟩ : BufTy).Contents (Elt F)),
    StableHlo.binary main_v86 main_v90 main_v91 (addf : (⟨S64, .f32⟩ : BufTy).Contents (Elt F) → (⟨S64, .f32⟩ : BufTy).Contents (Elt F) → (⟨S64, .f32⟩ : BufTy).Contents (Elt F)),
    StableHlo.unary main_v91 main_v92 (Host.rsqrt : (⟨S64, .f32⟩ : BufTy).Contents (Elt F) → (⟨S64, .f32⟩ : BufTy).Contents (Elt F)),
    StableHlo.unary main_v92 main_v93 (broadcastInDim S1x64 ![1] bcast_S64_S1x64_1 : (⟨S64, .f32⟩ : BufTy).Contents (Elt F) → (⟨S1x64, .f32⟩ : BufTy).Contents (Elt F)),
    StableHlo.unary main_v93 main_v94 (broadcastInDim S100000x64 ![0, 1] bcast_S1x64_S100000x64_0_1 : (⟨S1x64, .f32⟩ : BufTy).Contents (Elt F) → (⟨S100000x64, .f32⟩ : BufTy).Contents (Elt F)),
    StableHlo.binary main_v89 main_v94 main_v95 (mulf : (⟨S100000x64, .f32⟩ : BufTy).Contents (Elt F) → (⟨S100000x64, .f32⟩ : BufTy).Contents (Elt F) → (⟨S100000x64, .f32⟩ : BufTy).Contents (Elt F)) ]

/-- Stretch 18 (window 2): 17 operations. -/
abbrev it18 : List (HloOp τ sig (Elt F)) :=
  [ StableHlo.unary main_arg11 main_v96 (broadcastInDim S1x64 ![1] bcast_S64_S1x64_1 : (⟨S64, .f32⟩ : BufTy).Contents (Elt F) → (⟨S1x64, .f32⟩ : BufTy).Contents (Elt F)),
    StableHlo.unary main_v96 main_v97 (broadcastInDim S100000x64 ![0, 1] bcast_S1x64_S100000x64_0_1 : (⟨S1x64, .f32⟩ : BufTy).Contents (Elt F) → (⟨S100000x64, .f32⟩ : BufTy).Contents (Elt F)),
    StableHlo.binary main_v95 main_v97 main_v98 (mulf : (⟨S100000x64, .f32⟩ : BufTy).Contents (Elt F) → (⟨S100000x64, .f32⟩ : BufTy).Contents (Elt F) → (⟨S100000x64, .f32⟩ : BufTy).Contents (Elt F)),
    StableHlo.unary main_arg12 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S100000x64 ![0, 1] bcast_S1x64_S100000x64_0_1 : (⟨S1x64, .f32⟩ : BufTy).Contents (Elt F) → (⟨S100000x64, .f32⟩ : BufTy).Contents (Elt F)),
    StableHlo.binary main_v98 main_v100 main_v101 (addf : (⟨S100000x64, .f32⟩ : BufTy).Contents (Elt F) → (⟨S100000x64, .f32⟩ : BufTy).Contents (Elt F) → (⟨S100000x64, .f32⟩ : BufTy).Contents (Elt F)),
    StableHlo.nullary main_cst_22 (constant S_ .f32 0x3F800000#32),
    StableHlo.unary main_cst_22 main_v102 (broadcastInDim S1250000 ![] bcast_S_S1250000 : (⟨S_, .f32⟩ : BufTy).Contents (Elt F) → (⟨S1250000, .f32⟩ : BufTy).Contents (Elt F)),
    StableHlo.nullary main_cst_23 (constant S_ .f32 0x00000000#32),
    StableHlo.unary main_cst_23 main_v103 (broadcastInDim S100000 ![] bcast_S_S100000 : (⟨S_, .f32⟩ : BufTy).Contents (Elt F) → (⟨S100000, .f32⟩ : BufTy).Contents (Elt F)),
    StableHlo.unary main_arg3 main_v104 (broadcastInDim S1250000x1 ![0] bcast_S1250000_S1250000x1_0 : (⟨S1250000, .i32⟩ : BufTy).Contents (Elt F) → (⟨S1250000x1, .i32⟩ : BufTy).Contents (Elt F)),
    StableHlo.ternary main_v103 main_v104 main_v102 main_v105 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_24 (constant S_ .f32 0x00000000#32),
    StableHlo.unary main_cst_24 main_v106 (broadcastInDim S100000 ![] bcast_S_S100000 : (⟨S_, .f32⟩ : BufTy).Contents (Elt F) → (⟨S100000, .f32⟩ : BufTy).Contents (Elt F)),
    StableHlo.unary main_arg4 main_v107 (broadcastInDim S1250000x1 ![0] bcast_S1250000_S1250000x1_0 : (⟨S1250000, .i32⟩ : BufTy).Contents (Elt F) → (⟨S1250000x1, .i32⟩ : BufTy).Contents (Elt F)),
    StableHlo.ternary main_v106 main_v107 main_v102 main_v108 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_25 (constant S_ .f32 0x3F800000#32) ]

/-- Stretch 19 (window 2, the operations of one call): 3 operations. -/
abbrev it19 : List (HloOp τ sig (Elt F)) :=
  [ StableHlo.TRef.unary (.of main_cst_25 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S100000, .f32⟩) (broadcastInDim S100000 ![] bcast_S_S100000),
    StableHlo.TRef.binary (.of main_call8_v1 : StableHlo.TRef sig ⟨S100000, .f32⟩) (.of main_v105 : StableHlo.TRef sig ⟨S100000, .f32⟩) (.of main_v109 : StableHlo.TRef sig ⟨S100000, .f32⟩) maximumf ]

/-- Stretch 20 (window 2): 2 operations. -/
abbrev it20 : List (HloOp τ sig (Elt F)) :=
  [ StableHlo.unary main_v109 main_v110 (Host.rsqrt : (⟨S100000, .f32⟩ : BufTy).Contents (Elt F) → (⟨S100000, .f32⟩ : BufTy).Contents (Elt F)),
    StableHlo.nullary main_cst_26 (constant S_ .f32 0x3F800000#32) ]

/-- Stretch 21 (window 2, the operations of one call): 3 operations. -/
abbrev it21 : List (HloOp τ sig (Elt F)) :=
  [ StableHlo.TRef.unary (.of main_cst_26 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S100000, .f32⟩) (broadcastInDim S100000 ![] bcast_S_S100000),
    StableHlo.TRef.binary (.of main_call9_v1 : StableHlo.TRef sig ⟨S100000, .f32⟩) (.of main_v108 : StableHlo.TRef sig ⟨S100000, .f32⟩) (.of main_v111 : StableHlo.TRef sig ⟨S100000, .f32⟩) maximumf ]

/-- Stretch 22 (window 2): 24 operations. -/
abbrev it22 : List (HloOp τ sig (Elt F)) :=
  [ StableHlo.unary main_v111 main_v112 (Host.rsqrt : (⟨S100000, .f32⟩ : BufTy).Contents (Elt F) → (⟨S100000, .f32⟩ : BufTy).Contents (Elt F)),
    StableHlo.unary main_v110 main_v113 (broadcastInDim S100000x1 ![0] bcast_S100000_S100000x1_0 : (⟨S100000, .f32⟩ : BufTy).Contents (Elt F) → (⟨S100000x1, .f32⟩ : BufTy).Contents (Elt F)),
    StableHlo.unary main_v113 main_v114 (broadcastInDim S100000x64 ![0, 1] bcast_S100000x1_S100000x64_0_1 : (⟨S100000x1, .f32⟩ : BufTy).Contents (Elt F) → (⟨S100000x64, .f32⟩ : BufTy).Contents (Elt F)),
    StableHlo.binary main_arg0 main_v114 main_v115 (mulf : (⟨S100000x64, .f32⟩ : BufTy).Contents (Elt F) → (⟨S100000x64, .f32⟩ : BufTy).Contents (Elt F) → (⟨S100000x64, .f32⟩ : BufTy).Contents (Elt F)),
    StableHlo.nullary main_c_27 (constantI S_ 32 0#32),
    StableHlo.unary main_c_27 main_v116 (broadcastInDim S1250000 ![] bcast_S_S1250000 : (⟨S_, .i32⟩ : BufTy).Contents (Elt F) → (⟨S1250000, .i32⟩ : BufTy).Contents (Elt F)),
    StableHlo.binary main_arg3 main_v116 main_v117 (cmpi .slt : (⟨S1250000, .i32⟩ : BufTy).Contents (Elt F) → (⟨S1250000, .i32⟩ : BufTy).Contents (Elt F) → (⟨S1250000, .i1⟩ : BufTy).Contents (Elt F)),
    StableHlo.nullary main_c_28 (constantI S_ 32 100000#32),
    StableHlo.unary main_c_28 main_v118 (broadcastInDim S1250000 ![] bcast_S_S1250000 : (⟨S_, .i32⟩ : BufTy).Contents (Elt F) → (⟨S1250000, .i32⟩ : BufTy).Contents (Elt F)),
    StableHlo.binary main_arg3 main_v118 main_v119 (addi : (⟨S1250000, .i32⟩ : BufTy).Contents (Elt F) → (⟨S1250000, .i32⟩ : BufTy).Contents (Elt F) → (⟨S1250000, .i32⟩ : BufTy).Contents (Elt F)),
    StableHlo.ternary main_v117 main_v119 main_arg3 main_v120 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v120 main_v121 (broadcastInDim S1250000x1 ![0] bcast_S1250000_S1250000x1_0 : (⟨S1250000, .i32⟩ : BufTy).Contents (Elt F) → (⟨S1250000x1, .i32⟩ : BufTy).Contents (Elt F)),
    StableHlo.binary main_v115 main_v121 main_v122 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    StableHlo.nullary main_cst_29 (constant S_ .f32 0x00000000#32),
    StableHlo.unary main_cst_29 main_v123 (broadcastInDim S100000x64 ![] bcast_S_S100000x64 : (⟨S_, .f32⟩ : BufTy).Contents (Elt F) → (⟨S100000x64, .f32⟩ : BufTy).Contents (Elt F)),
    StableHlo.unary main_arg4 main_v124 (broadcastInDim S1250000x1 ![0] bcast_S1250000_S1250000x1_0 : (⟨S1250000, .i32⟩ : BufTy).Contents (Elt F) → (⟨S1250000x1, .i32⟩ : BufTy).Contents (Elt F)),
    StableHlo.ternary main_v123 main_v124 main_v122 main_v125 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    StableHlo.unary main_v112 main_v126 (broadcastInDim S100000x1 ![0] bcast_S100000_S100000x1_0 : (⟨S100000, .f32⟩ : BufTy).Contents (Elt F) → (⟨S100000x1, .f32⟩ : BufTy).Contents (Elt F)),
    StableHlo.unary main_v126 main_v127 (broadcastInDim S100000x64 ![0, 1] bcast_S100000x1_S100000x64_0_1 : (⟨S100000x1, .f32⟩ : BufTy).Contents (Elt F) → (⟨S100000x64, .f32⟩ : BufTy).Contents (Elt F)),
    StableHlo.binary main_v125 main_v127 main_v128 (mulf : (⟨S100000x64, .f32⟩ : BufTy).Contents (Elt F) → (⟨S100000x64, .f32⟩ : BufTy).Contents (Elt F) → (⟨S100000x64, .f32⟩ : BufTy).Contents (Elt F)),
    StableHlo.binary main_v128 main_arg13 main_v129 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg14 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S100000x64 ![0, 1] bcast_S1x64_S100000x64_0_1 : (⟨S1x64, .f32⟩ : BufTy).Contents (Elt F) → (⟨S100000x64, .f32⟩ : BufTy).Contents (Elt F)),
    StableHlo.binary main_v129 main_v131 main_v132 (addf : (⟨S100000x64, .f32⟩ : BufTy).Contents (Elt F) → (⟨S100000x64, .f32⟩ : BufTy).Contents (Elt F) → (⟨S100000x64, .f32⟩ : BufTy).Contents (Elt F)) ]

/-- Stretch 23 (window 2, the operations of one call): 15 operations. -/
abbrev it23 : List (HloOp τ sig (Elt F)) :=
  [ StableHlo.TRef.nullary (.of main_call10_cst : StableHlo.TRef sig ⟨S_, .f32⟩) (constant S_ .f32 0x00000000#32),
    StableHlo.TRef.unary (.of main_call10_cst : StableHlo.TRef sig ⟨S_, .f32⟩) (.of main_call10_v0 : StableHlo.TRef sig ⟨S100000x64, .f32⟩) (broadcastInDim S100000x64 ![] bcast_S_S100000x64),
    StableHlo.TRef.binary (.of main_v132 : StableHlo.TRef sig ⟨S100000x64, .f32⟩) (.of main_call10_v0 : StableHlo.TRef sig ⟨S100000x64, .f32⟩) (.of main_call10_v1 : StableHlo.TRef sig ⟨S100000x64, .i1⟩) (cmpf .ogt),
    StableHlo.TRef.nullary (.of main_call10_cst_0 : StableHlo.TRef sig ⟨S_, .f32⟩) (constant S_ .f32 0x00000000#32),
    StableHlo.TRef.unary (.of main_call10_cst_0 : StableHlo.TRef sig ⟨S_, .f32⟩) (.of main_call10_v2 : StableHlo.TRef sig ⟨S100000x64, .f32⟩) (broadcastInDim S100000x64 ![] bcast_S_S100000x64),
    StableHlo.TRef.binary (.of main_v132 : StableHlo.TRef sig ⟨S100000x64, .f32⟩) (.of main_call10_v2 : StableHlo.TRef sig ⟨S100000x64, .f32⟩) (.of main_call10_v3 : StableHlo.TRef sig ⟨S100000x64, .i1⟩) (cmpf .ogt),
    StableHlo.TRef.nullary (.of main_call10_cst_1 : StableHlo.TRef sig ⟨S_, .f32⟩) (constant S_ .f32 0x00000000#32),
    StableHlo.TRef.unary (.of main_call10_cst_1 : StableHlo.TRef sig ⟨S_, .f32⟩) (.of main_call10_call0_v0 : StableHlo.TRef sig ⟨S_, .f32⟩) id,
    StableHlo.TRef.unary (.of main_call10_call0_v0 : StableHlo.TRef sig ⟨S_, .f32⟩) (.of main_call10_call0_v1 : StableHlo.TRef sig ⟨S100000x64, .f32⟩) (broadcastInDim S100000x64 ![] bcast_S_S100000x64),
    StableHlo.TRef.ternary (.of main_call10_v3 : StableHlo.TRef sig ⟨S100000x64, .i1⟩) (.of main_call10_call0_v1 : StableHlo.TRef sig ⟨S100000x64, .f32⟩) (.of main_v132 : StableHlo.TRef sig ⟨S100000x64, .f32⟩) (.of main_call10_v4 : StableHlo.TRef sig ⟨S100000x64, .f32⟩) select,
    StableHlo.TRef.unary (.of main_call10_v4 : StableHlo.TRef sig ⟨S100000x64, .f32⟩) (.of main_call10_v5 : StableHlo.TRef sig ⟨S100000x64, .f32⟩) Host.expm1,
    StableHlo.TRef.nullary (.of main_call10_cst_2 : StableHlo.TRef sig ⟨S_, .f32⟩) (constant S_ .f32 0x3F800000#32),
    StableHlo.TRef.unary (.of main_call10_cst_2 : StableHlo.TRef sig ⟨S_, .f32⟩) (.of main_call10_v6 : StableHlo.TRef sig ⟨S100000x64, .f32⟩) (broadcastInDim S100000x64 ![] bcast_S_S100000x64),
    StableHlo.TRef.binary (.of main_call10_v6 : StableHlo.TRef sig ⟨S100000x64, .f32⟩) (.of main_call10_v5 : StableHlo.TRef sig ⟨S100000x64, .f32⟩) (.of main_call10_v7 : StableHlo.TRef sig ⟨S100000x64, .f32⟩) mulf,
    StableHlo.TRef.ternary (.of main_call10_v1 : StableHlo.TRef sig ⟨S100000x64, .i1⟩) (.of main_v132 : StableHlo.TRef sig ⟨S100000x64, .f32⟩) (.of main_call10_v7 : StableHlo.TRef sig ⟨S100000x64, .f32⟩) (.of main_v133 : StableHlo.TRef sig ⟨S100000x64, .f32⟩) select ]

/-- Stretch 24 (window 2): 6 operations. -/
abbrev it24 : List (HloOp τ sig (Elt F)) :=
  [ StableHlo.nullary main_cst_30 (constant S_ .f32 0x00000000#32),
    StableHlo.binary main_v133 main_cst_30 main_v134 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_31 (constant S_ .f32 0x47C35000#32),
    StableHlo.unary main_cst_31 main_v135 (broadcastInDim S64 ![] bcast_S_S64 : (⟨S_, .f32⟩ : BufTy).Contents (Elt F) → (⟨S64, .f32⟩ : BufTy).Contents (Elt F)),
    StableHlo.binary main_v134 main_v135 main_v136 (Host.divf : (⟨S64, .f32⟩ : BufTy).Contents (Elt F) → (⟨S64, .f32⟩ : BufTy).Contents (Elt F) → (⟨S64, .f32⟩ : BufTy).Contents (Elt F)),
    StableHlo.nullary main_c_32 (constantI S_ 32 0#32) ]

/-- Stretch 25 (window 2, the operations of one call): 22 operations. -/
abbrev it25 : List (HloOp τ sig (Elt F)) :=
  [ StableHlo.TRef.nullary (.of main_call11_cst : StableHlo.TRef sig ⟨S_, .f32⟩) (constant S_ .f32 0x00000000#32),
    StableHlo.TRef.binary (.of main_v133 : StableHlo.TRef sig ⟨S100000x64, .f32⟩) (.of main_call11_cst : StableHlo.TRef sig ⟨S_, .f32⟩) (.of main_call11_v0 : StableHlo.TRef sig ⟨S64, .f32⟩) (fun x v => Host.reduceAdd x v reducesTo_S100000x64_S64_d0 h_S_),
    StableHlo.TRef.unary (.of main_call11_v0 : StableHlo.TRef sig ⟨S64, .f32⟩) (.of main_call11_v1 : StableHlo.TRef sig ⟨S1x64, .f32⟩) (broadcastInDim S1x64 ![1] bcast_S64_S1x64_1),
    StableHlo.TRef.nullary (.of main_call11_cst_0 : StableHlo.TRef sig ⟨S_, .f32⟩) (constant S_ .f32 0x47C35000#32),
    StableHlo.TRef.unary (.of main_call11_cst_0 : StableHlo.TRef sig ⟨S_, .f32⟩) (.of main_call11_v2 : StableHlo.TRef sig ⟨S1x64, .f32⟩) (broadcastInDim S1x64 ![] bcast_S_S1x64),
    StableHlo.TRef.binary (.of main_call11_v1 : StableHlo.TRef sig ⟨S1x64, .f32⟩) (.of main_call11_v2 : StableHlo.TRef sig ⟨S1x64, .f32⟩) (.of main_call11_v3 : StableHlo.TRef sig ⟨S1x64, .f32⟩) Host.divf,
    StableHlo.TRef.unary (.of main_call11_v3 : StableHlo.TRef sig ⟨S1x64, .f32⟩) (.of main_call11_v4 : StableHlo.TRef sig ⟨S100000x64, .f32⟩) (broadcastInDim S100000x64 ![0, 1] bcast_S1x64_S100000x64_0_1),
    StableHlo.TRef.binary (.of main_v133 : StableHlo.TRef sig ⟨S100000x64, .f32⟩) (.of main_call11_v4 : StableHlo.TRef sig ⟨S100000x64, .f32⟩) (.of main_call11_v5 : StableHlo.TRef sig ⟨S100000x64, .f32⟩) subf,
    StableHlo.TRef.binary (.of main_call11_v5 : StableHlo.TRef sig ⟨S100000x64, .f32⟩) (.of main_call11_v5 : StableHlo.TRef sig ⟨S100000x64, .f32⟩) (.of main_call11_v6 : StableHlo.TRef sig ⟨S100000x64, .f32⟩) mulf,
    StableHlo.TRef.unary (.of main_c_32 : StableHlo.TRef sig ⟨S_, .i32⟩) (.of main_call11_v7 : StableHlo.TRef sig ⟨S_, .f32⟩) (sitofp .f32),
    StableHlo.TRef.nullary (.of main_call11_cst_1 : StableHlo.TRef sig ⟨S_, .f32⟩) (constant S_ .f32 0x47C35000#32),
    StableHlo.TRef.binary (.of main_call11_cst_1 : StableHlo.TRef sig ⟨S_, .f32⟩) (.of main_call11_v7 : StableHlo.TRef sig ⟨S_, .f32⟩) (.of main_call11_v8 : StableHlo.TRef sig ⟨S_, .f32⟩) subf,
    StableHlo.TRef.nullary (.of main_call11_cst_2 : StableHlo.TRef sig ⟨S_, .f32⟩) (constant S_ .f32 0x00000000#32),
    StableHlo.TRef.binary (.of main_call11_v6 : StableHlo.TRef sig ⟨S100000x64, .f32⟩) (.of main_call11_cst_2 : StableHlo.TRef sig ⟨S_, .f32⟩) (.of main_call11_v9 : StableHlo.TRef sig ⟨S64, .f32⟩) (fun x v => Host.reduceAdd x v reducesTo_S100000x64_S64_d0 h_S_),
    StableHlo.TRef.unary (.of main_call11_v8 : StableHlo.TRef sig ⟨S_, .f32⟩) (.of main_call11_v10 : StableHlo.TRef sig ⟨S64, .f32⟩) (broadcastInDim S64 ![] bcast_S_S64),
    StableHlo.TRef.binary (.of main_call11_v9 : StableHlo.TRef sig ⟨S64, .f32⟩) (.of main_call11_v10 : StableHlo.TRef sig ⟨S64, .f32⟩) (.of main_call11_v11 : StableHlo.TRef sig ⟨S64, .f32⟩) Host.divf,
    StableHlo.TRef.nullary (.of main_call11_cst_3 : StableHlo.TRef sig ⟨S_, .f32⟩) (constant S_ .f32 0x00000000#32),
    StableHlo.TRef.binary (.of main_call11_v8 : StableHlo.TRef sig ⟨S_, .f32⟩) (.of main_call11_cst_3 : StableHlo.TRef sig ⟨S_, .f32⟩) (.of main_call11_v12 : StableHlo.TRef sig ⟨S_, .i1⟩) (cmpf .ogt),
    StableHlo.TRef.nullary (.of main_call11_cst_4 : StableHlo.TRef sig ⟨S_, .f32⟩) (constant S_ .f32 0x7FC00000#32),
    StableHlo.TRef.unary (.of main_call11_cst_4 : StableHlo.TRef sig ⟨S_, .f32⟩) (.of main_call11_call0_v0 : StableHlo.TRef sig ⟨S_, .f32⟩) id,
    StableHlo.TRef.unary (.of main_call11_call0_v0 : StableHlo.TRef sig ⟨S_, .f32⟩) (.of main_call11_call0_v1 : StableHlo.TRef sig ⟨S64, .f32⟩) (broadcastInDim S64 ![] bcast_S_S64),
    StableHlo.TRef.ternary (.of main_call11_v12 : StableHlo.TRef sig ⟨S_, .i1⟩) (.of main_call11_v11 : StableHlo.TRef sig ⟨S64, .f32⟩) (.of main_call11_call0_v1 : StableHlo.TRef sig ⟨S64, .f32⟩) (.of main_v137 : StableHlo.TRef sig ⟨S64, .f32⟩) (fun p a b => select (broadcastInDim S64 ![] bcast_S_S64 p) a b) ]

/-- Stretch 26 (window 2): 7 operations. -/
abbrev it26 : List (HloOp τ sig (Elt F)) :=
  [ StableHlo.unary main_v136 main_v138 (broadcastInDim S1x64 ![1] bcast_S64_S1x64_1 : (⟨S64, .f32⟩ : BufTy).Contents (Elt F) → (⟨S1x64, .f32⟩ : BufTy).Contents (Elt F)),
    StableHlo.unary main_v138 main_v139 (broadcastInDim S100000x64 ![0, 1] bcast_S1x64_S100000x64_0_1 : (⟨S1x64, .f32⟩ : BufTy).Contents (Elt F) → (⟨S100000x64, .f32⟩ : BufTy).Contents (Elt F)),
    StableHlo.binary main_v133 main_v139 main_v140 (subf : (⟨S100000x64, .f32⟩ : BufTy).Contents (Elt F) → (⟨S100000x64, .f32⟩ : BufTy).Contents (Elt F) → (⟨S100000x64, .f32⟩ : BufTy).Contents (Elt F)),
    StableHlo.nullary main_cst_33 (constant S_ .f32 0x3727C5AC#32),
    StableHlo.unary main_cst_33 main_v141 (broadcastInDim S64 ![] bcast_S_S64 : (⟨S_, .f32⟩ : BufTy).Contents (Elt F) → (⟨S64, .f32⟩ : BufTy).Contents (Elt F)),
    StableHlo.binary main_v137 main_v141 main_v142 (addf : (⟨S64, .f32⟩ : BufTy).Contents (Elt F) → (⟨S64, .f32⟩ : BufTy).Contents (Elt F) → (⟨S64, .f32⟩ : BufTy).Contents (Elt F)),
    StableHlo.unary main_v142 main_v143 (Host.rsqrt : (⟨S64, .f32⟩ : BufTy).Contents (Elt F) → (⟨S64, .f32⟩ : BufTy).Contents (Elt F)) ]

/-- Stretch 27 (window 3): 20 operations. -/
abbrev it27 : List (HloOp τ sig (Elt F)) :=
  [ StableHlo.unary main_v143 main_v144 (broadcastInDim S1x64 ![1] bcast_S64_S1x64_1 : (⟨S64, .f32⟩ : BufTy).Contents (Elt F) → (⟨S1x64, .f32⟩ : BufTy).Contents (Elt F)),
    StableHlo.unary main_v144 main_v145 (broadcastInDim S100000x64 ![0, 1] bcast_S1x64_S100000x64_0_1 : (⟨S1x64, .f32⟩ : BufTy).Contents (Elt F) → (⟨S100000x64, .f32⟩ : BufTy).Contents (Elt F)),
    StableHlo.binary main_v140 main_v145 main_v146 (mulf : (⟨S100000x64, .f32⟩ : BufTy).Contents (Elt F) → (⟨S100000x64, .f32⟩ : BufTy).Contents (Elt F) → (⟨S100000x64, .f32⟩ : BufTy).Contents (Elt F)),
    StableHlo.unary main_arg15 main_v147 (broadcastInDim S1x64 ![1] bcast_S64_S1x64_1 : (⟨S64, .f32⟩ : BufTy).Contents (Elt F) → (⟨S1x64, .f32⟩ : BufTy).Contents (Elt F)),
    StableHlo.unary main_v147 main_v148 (broadcastInDim S100000x64 ![0, 1] bcast_S1x64_S100000x64_0_1 : (⟨S1x64, .f32⟩ : BufTy).Contents (Elt F) → (⟨S100000x64, .f32⟩ : BufTy).Contents (Elt F)),
    StableHlo.binary main_v146 main_v148 main_v149 (mulf : (⟨S100000x64, .f32⟩ : BufTy).Contents (Elt F) → (⟨S100000x64, .f32⟩ : BufTy).Contents (Elt F) → (⟨S100000x64, .f32⟩ : BufTy).Contents (Elt F)),
    StableHlo.unary main_arg16 main_v150 (broadcastInDim S1x64 ![1] bcast_S64_S1x64_1 : (⟨S64, .f32⟩ : BufTy).Contents (Elt F) → (⟨S1x64, .f32⟩ : BufTy).Contents (Elt F)),
    StableHlo.unary main_v150 main_v151 (broadcastInDim S100000x64 ![0, 1] bcast_S1x64_S100000x64_0_1 : (⟨S1x64, .f32⟩ : BufTy).Contents (Elt F) → (⟨S100000x64, .f32⟩ : BufTy).Contents (Elt F)),
    StableHlo.binary main_v149 main_v151 main_v152 (addf : (⟨S100000x64, .f32⟩ : BufTy).Contents (Elt F) → (⟨S100000x64, .f32⟩ : BufTy).Contents (Elt F) → (⟨S100000x64, .f32⟩ : BufTy).Contents (Elt F)),
    StableHlo.nullary main_cst_34 (constant S_ .f32 0x3F800000#32),
    StableHlo.unary main_cst_34 main_v153 (broadcastInDim S1250000 ![] bcast_S_S1250000 : (⟨S_, .f32⟩ : BufTy).Contents (Elt F) → (⟨S1250000, .f32⟩ : BufTy).Contents (Elt F)),
    StableHlo.nullary main_cst_35 (constant S_ .f32 0x00000000#32),
    StableHlo.unary main_cst_35 main_v154 (broadcastInDim S100000 ![] bcast_S_S100000 : (⟨S_, .f32⟩ : BufTy).Contents (Elt F) → (⟨S100000, .f32⟩ : BufTy).Contents (Elt F)),
    StableHlo.unary main_arg3 main_v155 (broadcastInDim S1250000x1 ![0] bcast_S1250000_S1250000x1_0 : (⟨S1250000, .i32⟩ : BufTy).Contents (Elt F) → (⟨S1250000x1, .i32⟩ : BufTy).Contents (Elt F)),
    StableHlo.ternary main_v154 main_v155 main_v153 main_v156 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_36 (constant S_ .f32 0x00000000#32),
    StableHlo.unary main_cst_36 main_v157 (broadcastInDim S100000 ![] bcast_S_S100000 : (⟨S_, .f32⟩ : BufTy).Contents (Elt F) → (⟨S100000, .f32⟩ : BufTy).Contents (Elt F)),
    StableHlo.unary main_arg4 main_v158 (broadcastInDim S1250000x1 ![0] bcast_S1250000_S1250000x1_0 : (⟨S1250000, .i32⟩ : BufTy).Contents (Elt F) → (⟨S1250000x1, .i32⟩ : BufTy).Contents (Elt F)),
    StableHlo.ternary main_v157 main_v158 main_v153 main_v159 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_37 (constant S_ .f32 0x3F800000#32) ]

/-- Stretch 28 (window 3, the operations of one call): 3 operations. -/
abbrev it28 : List (HloOp τ sig (Elt F)) :=
  [ StableHlo.TRef.unary (.of main_cst_37 : StableHlo.TRef sig ⟨S_, .f32⟩) (.of main_call12_v0 : StableHlo.TRef sig ⟨S_, .f32⟩) id,
    StableHlo.TRef.unary (.of main_call12_v0 : StableHlo.TRef sig ⟨S_, .f32⟩) (.of main_call12_v1 : StableHlo.TRef sig ⟨S100000, .f32⟩) (broadcastInDim S100000 ![] bcast_S_S100000),
    StableHlo.TRef.binary (.of main_call12_v1 : StableHlo.TRef sig ⟨S100000, .f32⟩) (.of main_v156 : StableHlo.TRef sig ⟨S100000, .f32⟩) (.of main_v160 : StableHlo.TRef sig ⟨S100000, .f32⟩) maximumf ]

/-- Stretch 29 (window 3): 2 operations. -/
abbrev it29 : List (HloOp τ sig (Elt F)) :=
  [ StableHlo.unary main_v160 main_v161 (Host.rsqrt : (⟨S100000, .f32⟩ : BufTy).Contents (Elt F) → (⟨S100000, .f32⟩ : BufTy).Contents (Elt F)),
    StableHlo.nullary main_cst_38 (constant S_ .f32 0x3F800000#32) ]

/-- Stretch 30 (window 3, the operations of one call): 3 operations. -/
abbrev it30 : List (HloOp τ sig (Elt F)) :=
  [ StableHlo.TRef.unary (.of main_cst_38 : StableHlo.TRef sig ⟨S_, .f32⟩) (.of main_call13_v0 : StableHlo.TRef sig ⟨S_, .f32⟩) id,
    StableHlo.TRef.unary (.of main_call13_v0 : StableHlo.TRef sig ⟨S_, .f32⟩) (.of main_call13_v1 : StableHlo.TRef sig ⟨S100000, .f32⟩) (broadcastInDim S100000 ![] bcast_S_S100000),
    StableHlo.TRef.binary (.of main_call13_v1 : StableHlo.TRef sig ⟨S100000, .f32⟩) (.of main_v159 : StableHlo.TRef sig ⟨S100000, .f32⟩) (.of main_v162 : StableHlo.TRef sig ⟨S100000, .f32⟩) maximumf ]

/-- Stretch 31 (window 3): 24 operations. -/
abbrev it31 : List (HloOp τ sig (Elt F)) :=
  [ StableHlo.unary main_v162 main_v163 (Host.rsqrt : (⟨S100000, .f32⟩ : BufTy).Contents (Elt F) → (⟨S100000, .f32⟩ : BufTy).Contents (Elt F)),
    StableHlo.unary main_v161 main_v164 (broadcastInDim S100000x1 ![0] bcast_S100000_S100000x1_0 : (⟨S100000, .f32⟩ : BufTy).Contents (Elt F) → (⟨S100000x1, .f32⟩ : BufTy).Contents (Elt F)),
    StableHlo.unary main_v164 main_v165 (broadcastInDim S100000x64 ![0, 1] bcast_S100000x1_S100000x64_0_1 : (⟨S100000x1, .f32⟩ : BufTy).Contents (Elt F) → (⟨S100000x64, .f32⟩ : BufTy).Contents (Elt F)),
    StableHlo.binary main_v152 main_v165 main_v166 (mulf : (⟨S100000x64, .f32⟩ : BufTy).Contents (Elt F) → (⟨S100000x64, .f32⟩ : BufTy).Contents (Elt F) → (⟨S100000x64, .f32⟩ : BufTy).Contents (Elt F)),
    StableHlo.nullary main_c_39 (constantI S_ 32 0#32),
    StableHlo.unary main_c_39 main_v167 (broadcastInDim S1250000 ![] bcast_S_S1250000 : (⟨S_, .i32⟩ : BufTy).Contents (Elt F) → (⟨S1250000, .i32⟩ : BufTy).Contents (Elt F)),
    StableHlo.binary main_arg3 main_v167 main_v168 (cmpi .slt : (⟨S1250000, .i32⟩ : BufTy).Contents (Elt F) → (⟨S1250000, .i32⟩ : BufTy).Contents (Elt F) → (⟨S1250000, .i1⟩ : BufTy).Contents (Elt F)),
    StableHlo.nullary main_c_40 (constantI S_ 32 100000#32),
    StableHlo.unary main_c_40 main_v169 (broadcastInDim S1250000 ![] bcast_S_S1250000 : (⟨S_, .i32⟩ : BufTy).Contents (Elt F) → (⟨S1250000, .i32⟩ : BufTy).Contents (Elt F)),
    StableHlo.binary main_arg3 main_v169 main_v170 (addi : (⟨S1250000, .i32⟩ : BufTy).Contents (Elt F) → (⟨S1250000, .i32⟩ : BufTy).Contents (Elt F) → (⟨S1250000, .i32⟩ : BufTy).Contents (Elt F)),
    StableHlo.ternary main_v168 main_v170 main_arg3 main_v171 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v171 main_v172 (broadcastInDim S1250000x1 ![0] bcast_S1250000_S1250000x1_0 : (⟨S1250000, .i32⟩ : BufTy).Contents (Elt F) → (⟨S1250000x1, .i32⟩ : BufTy).Contents (Elt F)),
    StableHlo.binary main_v166 main_v172 main_v173 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    StableHlo.nullary main_cst_41 (constant S_ .f32 0x00000000#32),
    StableHlo.unary main_cst_41 main_v174 (broadcastInDim S100000x64 ![] bcast_S_S100000x64 : (⟨S_, .f32⟩ : BufTy).Contents (Elt F) → (⟨S100000x64, .f32⟩ : BufTy).Contents (Elt F)),
    StableHlo.unary main_arg4 main_v175 (broadcastInDim S1250000x1 ![0] bcast_S1250000_S1250000x1_0 : (⟨S1250000, .i32⟩ : BufTy).Contents (Elt F) → (⟨S1250000x1, .i32⟩ : BufTy).Contents (Elt F)),
    StableHlo.ternary main_v174 main_v175 main_v173 main_v176 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)),
    StableHlo.unary main_v163 main_v177 (broadcastInDim S100000x1 ![0] bcast_S100000_S100000x1_0 : (⟨S100000, .f32⟩ : BufTy).Contents (Elt F) → (⟨S100000x1, .f32⟩ : BufTy).Contents (Elt F)),
    StableHlo.unary main_v177 main_v178 (broadcastInDim S100000x64 ![0, 1] bcast_S100000x1_S100000x64_0_1 : (⟨S100000x1, .f32⟩ : BufTy).Contents (Elt F) → (⟨S100000x64, .f32⟩ : BufTy).Contents (Elt F)),
    StableHlo.binary main_v176 main_v178 main_v179 (mulf : (⟨S100000x64, .f32⟩ : BufTy).Contents (Elt F) → (⟨S100000x64, .f32⟩ : BufTy).Contents (Elt F) → (⟨S100000x64, .f32⟩ : BufTy).Contents (Elt F)),
    StableHlo.binary main_v179 main_arg17 main_v180 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg18 main_v181 (broadcastInDim S1x64 ![1] bcast_S64_S1x64_1 : (⟨S64, .f32⟩ : BufTy).Contents (Elt F) → (⟨S1x64, .f32⟩ : BufTy).Contents (Elt F)),
    StableHlo.unary main_v181 main_v182 (broadcastInDim S100000x64 ![0, 1] bcast_S1x64_S100000x64_0_1 : (⟨S1x64, .f32⟩ : BufTy).Contents (Elt F) → (⟨S100000x64, .f32⟩ : BufTy).Contents (Elt F)),
    StableHlo.binary main_v180 main_v182 main_v183 (addf : (⟨S100000x64, .f32⟩ : BufTy).Contents (Elt F) → (⟨S100000x64, .f32⟩ : BufTy).Contents (Elt F) → (⟨S100000x64, .f32⟩ : BufTy).Contents (Elt F)) ]

/-- Stretch 32 (window 3, the operations of one call): 15 operations. -/
abbrev it32 : List (HloOp τ sig (Elt F)) :=
  [ StableHlo.TRef.nullary (.of main_call14_cst : StableHlo.TRef sig ⟨S_, .f32⟩) (constant S_ .f32 0x00000000#32),
    StableHlo.TRef.unary (.of main_call14_cst : StableHlo.TRef sig ⟨S_, .f32⟩) (.of main_call14_v0 : StableHlo.TRef sig ⟨S100000x64, .f32⟩) (broadcastInDim S100000x64 ![] bcast_S_S100000x64),
    StableHlo.TRef.binary (.of main_v183 : StableHlo.TRef sig ⟨S100000x64, .f32⟩) (.of main_call14_v0 : StableHlo.TRef sig ⟨S100000x64, .f32⟩) (.of main_call14_v1 : StableHlo.TRef sig ⟨S100000x64, .i1⟩) (cmpf .ogt),
    StableHlo.TRef.nullary (.of main_call14_cst_0 : StableHlo.TRef sig ⟨S_, .f32⟩) (constant S_ .f32 0x00000000#32),
    StableHlo.TRef.unary (.of main_call14_cst_0 : StableHlo.TRef sig ⟨S_, .f32⟩) (.of main_call14_v2 : StableHlo.TRef sig ⟨S100000x64, .f32⟩) (broadcastInDim S100000x64 ![] bcast_S_S100000x64),
    StableHlo.TRef.binary (.of main_v183 : StableHlo.TRef sig ⟨S100000x64, .f32⟩) (.of main_call14_v2 : StableHlo.TRef sig ⟨S100000x64, .f32⟩) (.of main_call14_v3 : StableHlo.TRef sig ⟨S100000x64, .i1⟩) (cmpf .ogt),
    StableHlo.TRef.nullary (.of main_call14_cst_1 : StableHlo.TRef sig ⟨S_, .f32⟩) (constant S_ .f32 0x00000000#32),
    StableHlo.TRef.unary (.of main_call14_cst_1 : StableHlo.TRef sig ⟨S_, .f32⟩) (.of main_call14_call0_v0 : StableHlo.TRef sig ⟨S_, .f32⟩) id,
    StableHlo.TRef.unary (.of main_call14_call0_v0 : StableHlo.TRef sig ⟨S_, .f32⟩) (.of main_call14_call0_v1 : StableHlo.TRef sig ⟨S100000x64, .f32⟩) (broadcastInDim S100000x64 ![] bcast_S_S100000x64),
    StableHlo.TRef.ternary (.of main_call14_v3 : StableHlo.TRef sig ⟨S100000x64, .i1⟩) (.of main_call14_call0_v1 : StableHlo.TRef sig ⟨S100000x64, .f32⟩) (.of main_v183 : StableHlo.TRef sig ⟨S100000x64, .f32⟩) (.of main_call14_v4 : StableHlo.TRef sig ⟨S100000x64, .f32⟩) select,
    StableHlo.TRef.unary (.of main_call14_v4 : StableHlo.TRef sig ⟨S100000x64, .f32⟩) (.of main_call14_v5 : StableHlo.TRef sig ⟨S100000x64, .f32⟩) Host.expm1,
    StableHlo.TRef.nullary (.of main_call14_cst_2 : StableHlo.TRef sig ⟨S_, .f32⟩) (constant S_ .f32 0x3F800000#32),
    StableHlo.TRef.unary (.of main_call14_cst_2 : StableHlo.TRef sig ⟨S_, .f32⟩) (.of main_call14_v6 : StableHlo.TRef sig ⟨S100000x64, .f32⟩) (broadcastInDim S100000x64 ![] bcast_S_S100000x64),
    StableHlo.TRef.binary (.of main_call14_v6 : StableHlo.TRef sig ⟨S100000x64, .f32⟩) (.of main_call14_v5 : StableHlo.TRef sig ⟨S100000x64, .f32⟩) (.of main_call14_v7 : StableHlo.TRef sig ⟨S100000x64, .f32⟩) mulf,
    StableHlo.TRef.ternary (.of main_call14_v1 : StableHlo.TRef sig ⟨S100000x64, .i1⟩) (.of main_v183 : StableHlo.TRef sig ⟨S100000x64, .f32⟩) (.of main_call14_v7 : StableHlo.TRef sig ⟨S100000x64, .f32⟩) (.of main_v184 : StableHlo.TRef sig ⟨S100000x64, .f32⟩) select ]

/-- Stretch 33 (window 3): 6 operations. -/
abbrev it33 : List (HloOp τ sig (Elt F)) :=
  [ StableHlo.nullary main_cst_42 (constant S_ .f32 0x00000000#32),
    StableHlo.binary main_v184 main_cst_42 main_v185 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_43 (constant S_ .f32 0x47C35000#32),
    StableHlo.unary main_cst_43 main_v186 (broadcastInDim S64 ![] bcast_S_S64 : (⟨S_, .f32⟩ : BufTy).Contents (Elt F) → (⟨S64, .f32⟩ : BufTy).Contents (Elt F)),
    StableHlo.binary main_v185 main_v186 main_v187 (Host.divf : (⟨S64, .f32⟩ : BufTy).Contents (Elt F) → (⟨S64, .f32⟩ : BufTy).Contents (Elt F) → (⟨S64, .f32⟩ : BufTy).Contents (Elt F)),
    StableHlo.nullary main_c_44 (constantI S_ 32 0#32) ]

/-- Stretch 34 (window 3, the operations of one call): 22 operations. -/
abbrev it34 : List (HloOp τ sig (Elt F)) :=
  [ StableHlo.TRef.nullary (.of main_call15_cst : StableHlo.TRef sig ⟨S_, .f32⟩) (constant S_ .f32 0x00000000#32),
    StableHlo.TRef.binary (.of main_v184 : StableHlo.TRef sig ⟨S100000x64, .f32⟩) (.of main_call15_cst : StableHlo.TRef sig ⟨S_, .f32⟩) (.of main_call15_v0 : StableHlo.TRef sig ⟨S64, .f32⟩) (fun x v => Host.reduceAdd x v reducesTo_S100000x64_S64_d0 h_S_),
    StableHlo.TRef.unary (.of main_call15_v0 : StableHlo.TRef sig ⟨S64, .f32⟩) (.of main_call15_v1 : StableHlo.TRef sig ⟨S1x64, .f32⟩) (broadcastInDim S1x64 ![1] bcast_S64_S1x64_1),
    StableHlo.TRef.nullary (.of main_call15_cst_0 : StableHlo.TRef sig ⟨S_, .f32⟩) (constant S_ .f32 0x47C35000#32),
    StableHlo.TRef.unary (.of main_call15_cst_0 : StableHlo.TRef sig ⟨S_, .f32⟩) (.of main_call15_v2 : StableHlo.TRef sig ⟨S1x64, .f32⟩) (broadcastInDim S1x64 ![] bcast_S_S1x64),
    StableHlo.TRef.binary (.of main_call15_v1 : StableHlo.TRef sig ⟨S1x64, .f32⟩) (.of main_call15_v2 : StableHlo.TRef sig ⟨S1x64, .f32⟩) (.of main_call15_v3 : StableHlo.TRef sig ⟨S1x64, .f32⟩) Host.divf,
    StableHlo.TRef.unary (.of main_call15_v3 : StableHlo.TRef sig ⟨S1x64, .f32⟩) (.of main_call15_v4 : StableHlo.TRef sig ⟨S100000x64, .f32⟩) (broadcastInDim S100000x64 ![0, 1] bcast_S1x64_S100000x64_0_1),
    StableHlo.TRef.binary (.of main_v184 : StableHlo.TRef sig ⟨S100000x64, .f32⟩) (.of main_call15_v4 : StableHlo.TRef sig ⟨S100000x64, .f32⟩) (.of main_call15_v5 : StableHlo.TRef sig ⟨S100000x64, .f32⟩) subf,
    StableHlo.TRef.binary (.of main_call15_v5 : StableHlo.TRef sig ⟨S100000x64, .f32⟩) (.of main_call15_v5 : StableHlo.TRef sig ⟨S100000x64, .f32⟩) (.of main_call15_v6 : StableHlo.TRef sig ⟨S100000x64, .f32⟩) mulf,
    StableHlo.TRef.unary (.of main_c_44 : StableHlo.TRef sig ⟨S_, .i32⟩) (.of main_call15_v7 : StableHlo.TRef sig ⟨S_, .f32⟩) (sitofp .f32),
    StableHlo.TRef.nullary (.of main_call15_cst_1 : StableHlo.TRef sig ⟨S_, .f32⟩) (constant S_ .f32 0x47C35000#32),
    StableHlo.TRef.binary (.of main_call15_cst_1 : StableHlo.TRef sig ⟨S_, .f32⟩) (.of main_call15_v7 : StableHlo.TRef sig ⟨S_, .f32⟩) (.of main_call15_v8 : StableHlo.TRef sig ⟨S_, .f32⟩) subf,
    StableHlo.TRef.nullary (.of main_call15_cst_2 : StableHlo.TRef sig ⟨S_, .f32⟩) (constant S_ .f32 0x00000000#32),
    StableHlo.TRef.binary (.of main_call15_v6 : StableHlo.TRef sig ⟨S100000x64, .f32⟩) (.of main_call15_cst_2 : StableHlo.TRef sig ⟨S_, .f32⟩) (.of main_call15_v9 : StableHlo.TRef sig ⟨S64, .f32⟩) (fun x v => Host.reduceAdd x v reducesTo_S100000x64_S64_d0 h_S_),
    StableHlo.TRef.unary (.of main_call15_v8 : StableHlo.TRef sig ⟨S_, .f32⟩) (.of main_call15_v10 : StableHlo.TRef sig ⟨S64, .f32⟩) (broadcastInDim S64 ![] bcast_S_S64),
    StableHlo.TRef.binary (.of main_call15_v9 : StableHlo.TRef sig ⟨S64, .f32⟩) (.of main_call15_v10 : StableHlo.TRef sig ⟨S64, .f32⟩) (.of main_call15_v11 : StableHlo.TRef sig ⟨S64, .f32⟩) Host.divf,
    StableHlo.TRef.nullary (.of main_call15_cst_3 : StableHlo.TRef sig ⟨S_, .f32⟩) (constant S_ .f32 0x00000000#32),
    StableHlo.TRef.binary (.of main_call15_v8 : StableHlo.TRef sig ⟨S_, .f32⟩) (.of main_call15_cst_3 : StableHlo.TRef sig ⟨S_, .f32⟩) (.of main_call15_v12 : StableHlo.TRef sig ⟨S_, .i1⟩) (cmpf .ogt),
    StableHlo.TRef.nullary (.of main_call15_cst_4 : StableHlo.TRef sig ⟨S_, .f32⟩) (constant S_ .f32 0x7FC00000#32),
    StableHlo.TRef.unary (.of main_call15_cst_4 : StableHlo.TRef sig ⟨S_, .f32⟩) (.of main_call15_call0_v0 : StableHlo.TRef sig ⟨S_, .f32⟩) id,
    StableHlo.TRef.unary (.of main_call15_call0_v0 : StableHlo.TRef sig ⟨S_, .f32⟩) (.of main_call15_call0_v1 : StableHlo.TRef sig ⟨S64, .f32⟩) (broadcastInDim S64 ![] bcast_S_S64),
    StableHlo.TRef.ternary (.of main_call15_v12 : StableHlo.TRef sig ⟨S_, .i1⟩) (.of main_call15_v11 : StableHlo.TRef sig ⟨S64, .f32⟩) (.of main_call15_call0_v1 : StableHlo.TRef sig ⟨S64, .f32⟩) (.of main_v188 : StableHlo.TRef sig ⟨S64, .f32⟩) (fun p a b => select (broadcastInDim S64 ![] bcast_S_S64 p) a b) ]

/-- Stretch 35 (window 3): 4 operations. -/
abbrev it35 : List (HloOp τ sig (Elt F)) :=
  [ StableHlo.unary main_v187 main_v189 (broadcastInDim S1x64 ![1] bcast_S64_S1x64_1 : (⟨S64, .f32⟩ : BufTy).Contents (Elt F) → (⟨S1x64, .f32⟩ : BufTy).Contents (Elt F)),
    StableHlo.unary main_v189 main_v190 (broadcastInDim S100000x64 ![0, 1] bcast_S1x64_S100000x64_0_1 : (⟨S1x64, .f32⟩ : BufTy).Contents (Elt F) → (⟨S100000x64, .f32⟩ : BufTy).Contents (Elt F)),
    StableHlo.binary main_v184 main_v190 main_v191 (subf : (⟨S100000x64, .f32⟩ : BufTy).Contents (Elt F) → (⟨S100000x64, .f32⟩ : BufTy).Contents (Elt F) → (⟨S100000x64, .f32⟩ : BufTy).Contents (Elt F)),
    StableHlo.nullary main_cst_45 (constant S_ .f32 0x3727C5AC#32) ]

/-- Stretch 36 (window 4): 26 operations. -/
abbrev it36 : List (HloOp τ sig (Elt F)) :=
  [ StableHlo.unary main_cst_45 main_v192 (broadcastInDim S64 ![] bcast_S_S64 : (⟨S_, .f32⟩ : BufTy).Contents (Elt F) → (⟨S64, .f32⟩ : BufTy).Contents (Elt F)),
    StableHlo.binary main_v188 main_v192 main_v193 (addf : (⟨S64, .f32⟩ : BufTy).Contents (Elt F) → (⟨S64, .f32⟩ : BufTy).Contents (Elt F) → (⟨S64, .f32⟩ : BufTy).Contents (Elt F)),
    StableHlo.unary main_v193 main_v194 (Host.rsqrt : (⟨S64, .f32⟩ : BufTy).Contents (Elt F) → (⟨S64, .f32⟩ : BufTy).Contents (Elt F)),
    StableHlo.unary main_v194 main_v195 (broadcastInDim S1x64 ![1] bcast_S64_S1x64_1 : (⟨S64, .f32⟩ : BufTy).Contents (Elt F) → (⟨S1x64, .f32⟩ : BufTy).Contents (Elt F)),
    StableHlo.unary main_v195 main_v196 (broadcastInDim S100000x64 ![0, 1] bcast_S1x64_S100000x64_0_1 : (⟨S1x64, .f32⟩ : BufTy).Contents (Elt F) → (⟨S100000x64, .f32⟩ : BufTy).Contents (Elt F)),
    StableHlo.binary main_v191 main_v196 main_v197 (mulf : (⟨S100000x64, .f32⟩ : BufTy).Contents (Elt F) → (⟨S100000x64, .f32⟩ : BufTy).Contents (Elt F) → (⟨S100000x64, .f32⟩ : BufTy).Contents (Elt F)),
    StableHlo.unary main_arg19 main_v198 (broadcastInDim S1x64 ![1] bcast_S64_S1x64_1 : (⟨S64, .f32⟩ : BufTy).Contents (Elt F) → (⟨S1x64, .f32⟩ : BufTy).Contents (Elt F)),
    StableHlo.unary main_v198 main_v199 (broadcastInDim S100000x64 ![0, 1] bcast_S1x64_S100000x64_0_1 : (⟨S1x64, .f32⟩ : BufTy).Contents (Elt F) → (⟨S100000x64, .f32⟩ : BufTy).Contents (Elt F)),
    StableHlo.binary main_v197 main_v199 main_v200 (mulf : (⟨S100000x64, .f32⟩ : BufTy).Contents (Elt F) → (⟨S100000x64, .f32⟩ : BufTy).Contents (Elt F) → (⟨S100000x64, .f32⟩ : BufTy).Contents (Elt F)),
    StableHlo.unary main_arg20 main_v201 (broadcastInDim S1x64 ![1] bcast_S64_S1x64_1 : (⟨S64, .f32⟩ : BufTy).Contents (Elt F) → (⟨S1x64, .f32⟩ : BufTy).Contents (Elt F)),
    StableHlo.unary main_v201 main_v202 (broadcastInDim S100000x64 ![0, 1] bcast_S1x64_S100000x64_0_1 : (⟨S1x64, .f32⟩ : BufTy).Contents (Elt F) → (⟨S100000x64, .f32⟩ : BufTy).Contents (Elt F)),
    StableHlo.binary main_v200 main_v202 main_v203 (addf : (⟨S100000x64, .f32⟩ : BufTy).Contents (Elt F) → (⟨S100000x64, .f32⟩ : BufTy).Contents (Elt F) → (⟨S100000x64, .f32⟩ : BufTy).Contents (Elt F)),
    StableHlo.binary main_v101 main_v203 main_v204 (subf : (⟨S100000x64, .f32⟩ : BufTy).Contents (Elt F) → (⟨S100000x64, .f32⟩ : BufTy).Contents (Elt F) → (⟨S100000x64, .f32⟩ : BufTy).Contents (Elt F)),
    StableHlo.unary main_v204 main_v205 (Host.absf : (⟨S100000x64, .f32⟩ : BufTy).Contents (Elt F) → (⟨S100000x64, .f32⟩ : BufTy).Contents (Elt F)),
    StableHlo.binary main_v101 main_v203 main_v206 (mulf : (⟨S100000x64, .f32⟩ : BufTy).Contents (Elt F) → (⟨S100000x64, .f32⟩ : BufTy).Contents (Elt F) → (⟨S100000x64, .f32⟩ : BufTy).Contents (Elt F)),
    StableHlo.nary ![main_v101, main_v203, main_v205, main_v206] main_v207 (fun u => concatenate S100000x256 1 [⟨S100000x64, u 0⟩, ⟨S100000x64, u 1⟩, ⟨S100000x64, u 2⟩, ⟨S100000x64, u 3⟩] concatenates_S100000x64_S100000x64_S100000x64_S100000x64_S100000x256_d1),
    StableHlo.binary main_v207 main_arg21 main_v208 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    StableHlo.unary main_arg22 main_v209 (broadcastInDim S1x64 ![1] bcast_S64_S1x64_1 : (⟨S64, .f32⟩ : BufTy).Contents (Elt F) → (⟨S1x64, .f32⟩ : BufTy).Contents (Elt F)),
    StableHlo.unary main_v209 main_v210 (broadcastInDim S100000x64 ![0, 1] bcast_S1x64_S100000x64_0_1 : (⟨S1x64, .f32⟩ : BufTy).Contents (Elt F) → (⟨S100000x64, .f32⟩ : BufTy).Contents (Elt F)),
    StableHlo.binary main_v208 main_v210 main_v211 (addf : (⟨S100000x64, .f32⟩ : BufTy).Contents (Elt F) → (⟨S100000x64, .f32⟩ : BufTy).Contents (Elt F) → (⟨S100000x64, .f32⟩ : BufTy).Contents (Elt F)),
    StableHlo.nullary main_cst_46 (constant S_ .f32 0x00000000#32),
    StableHlo.unary main_cst_46 main_v212 (broadcastInDim S100000x64 ![] bcast_S_S100000x64 : (⟨S_, .f32⟩ : BufTy).Contents (Elt F) → (⟨S100000x64, .f32⟩ : BufTy).Contents (Elt F)),
    StableHlo.binary main_v211 main_v212 main_v213 (cmpf .ogt : (⟨S100000x64, .f32⟩ : BufTy).Contents (Elt F) → (⟨S100000x64, .f32⟩ : BufTy).Contents (Elt F) → (⟨S100000x64, .i1⟩ : BufTy).Contents (Elt F)),
    StableHlo.unary main_arg23 main_v214 (broadcastInDim S1x1 ![1] bcast_S1_S1x1_1 : (⟨S1, .f32⟩ : BufTy).Contents (Elt F) → (⟨S1x1, .f32⟩ : BufTy).Contents (Elt F)),
    StableHlo.unary main_v214 main_v215 (broadcastInDim S100000x64 ![0, 1] bcast_S1x1_S100000x64_0_1 : (⟨S1x1, .f32⟩ : BufTy).Contents (Elt F) → (⟨S100000x64, .f32⟩ : BufTy).Contents (Elt F)),
    StableHlo.binary main_v215 main_v211 main_v216 (mulf : (⟨S100000x64, .f32⟩ : BufTy).Contents (Elt F) → (⟨S100000x64, .f32⟩ : BufTy).Contents (Elt F) → (⟨S100000x64, .f32⟩ : BufTy).Contents (Elt F)) ]

/-- Stretch 37 (window 4, the operations of one call): 1 operations. -/
abbrev it37 : List (HloOp τ sig (Elt F)) :=
  [ StableHlo.TRef.ternary (.of main_v213 : StableHlo.TRef sig ⟨S100000x64, .i1⟩) (.of main_v211 : StableHlo.TRef sig ⟨S100000x64, .f32⟩) (.of main_v216 : StableHlo.TRef sig ⟨S100000x64, .f32⟩) (.of main_v217 : StableHlo.TRef sig ⟨S100000x64, .f32⟩) select ]

/-- Stretch 38 (window 4): 22 operations. -/
abbrev it38 : List (HloOp τ sig (Elt F)) :=
  [ StableHlo.binary main_v217 main_arg24 main_v218 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg25 main_v219 (broadcastInDim S1x64 ![1] bcast_S64_S1x64_1 : (⟨S64, .f32⟩ : BufTy).Contents (Elt F) → (⟨S1x64, .f32⟩ : BufTy).Contents (Elt F)),
    StableHlo.unary main_v219 main_v220 (broadcastInDim S100000x64 ![0, 1] bcast_S1x64_S100000x64_0_1 : (⟨S1x64, .f32⟩ : BufTy).Contents (Elt F) → (⟨S100000x64, .f32⟩ : BufTy).Contents (Elt F)),
    StableHlo.binary main_v218 main_v220 main_v221 (addf : (⟨S100000x64, .f32⟩ : BufTy).Contents (Elt F) → (⟨S100000x64, .f32⟩ : BufTy).Contents (Elt F) → (⟨S100000x64, .f32⟩ : BufTy).Contents (Elt F)),
    StableHlo.unary main_v221 main_v222 (Host.negf : (⟨S100000x64, .f32⟩ : BufTy).Contents (Elt F) → (⟨S100000x64, .f32⟩ : BufTy).Contents (Elt F)),
    StableHlo.unary main_v222 main_v223 (Host.exp : (⟨S100000x64, .f32⟩ : BufTy).Contents (Elt F) → (⟨S100000x64, .f32⟩ : BufTy).Contents (Elt F)),
    StableHlo.nullary main_cst_47 (constant S_ .f32 0x3F800000#32),
    StableHlo.unary main_cst_47 main_v224 (broadcastInDim S100000x64 ![] bcast_S_S100000x64 : (⟨S_, .f32⟩ : BufTy).Contents (Elt F) → (⟨S100000x64, .f32⟩ : BufTy).Contents (Elt F)),
    StableHlo.binary main_v224 main_v223 main_v225 (addf : (⟨S100000x64, .f32⟩ : BufTy).Contents (Elt F) → (⟨S100000x64, .f32⟩ : BufTy).Contents (Elt F) → (⟨S100000x64, .f32⟩ : BufTy).Contents (Elt F)),
    StableHlo.nullary main_cst_48 (constant S_ .f32 0x3F800000#32),
    StableHlo.unary main_cst_48 main_v226 (broadcastInDim S100000x64 ![] bcast_S_S100000x64 : (⟨S_, .f32⟩ : BufTy).Contents (Elt F) → (⟨S100000x64, .f32⟩ : BufTy).Contents (Elt F)),
    StableHlo.binary main_v226 main_v225 main_v227 (Host.divf : (⟨S100000x64, .f32⟩ : BufTy).Contents (Elt F) → (⟨S100000x64, .f32⟩ : BufTy).Contents (Elt F) → (⟨S100000x64, .f32⟩ : BufTy).Contents (Elt F)),
    StableHlo.binary main_v227 main_v101 main_v228 (mulf : (⟨S100000x64, .f32⟩ : BufTy).Contents (Elt F) → (⟨S100000x64, .f32⟩ : BufTy).Contents (Elt F) → (⟨S100000x64, .f32⟩ : BufTy).Contents (Elt F)),
    StableHlo.nullary main_cst_49 (constant S_ .f32 0x3F800000#32),
    StableHlo.unary main_cst_49 main_v229 (broadcastInDim S100000x64 ![] bcast_S_S100000x64 : (⟨S_, .f32⟩ : BufTy).Contents (Elt F) → (⟨S100000x64, .f32⟩ : BufTy).Contents (Elt F)),
    StableHlo.binary main_v229 main_v227 main_v230 (subf : (⟨S100000x64, .f32⟩ : BufTy).Contents (Elt F) → (⟨S100000x64, .f32⟩ : BufTy).Contents (Elt F) → (⟨S100000x64, .f32⟩ : BufTy).Contents (Elt F)),
    StableHlo.binary main_v230 main_v203 main_v231 (mulf : (⟨S100000x64, .f32⟩ : BufTy).Contents (Elt F) → (⟨S100000x64, .f32⟩ : BufTy).Contents (Elt F) → (⟨S100000x64, .f32⟩ : BufTy).Contents (Elt F)),
    StableHlo.binary main_v228 main_v231 main_v232 (addf : (⟨S100000x64, .f32⟩ : BufTy).Contents (Elt F) → (⟨S100000x64, .f32⟩ : BufTy).Contents (Elt F) → (⟨S100000x64, .f32⟩ : BufTy).Contents (Elt F)),
    StableHlo.binary main_v232 main_arg26 main_v233 ((fun l r => Host.dotGeneral dot_S100000x64_S64x129_S100000x129_1_0_0_1_n_n none l r) : (⟨S100000x64, .f32⟩ : BufTy).Contents (Elt F) → (⟨S64x129, .f32⟩ : BufTy).Contents (Elt F) → (⟨S100000x129, .f32⟩ : BufTy).Contents (Elt F)),
    StableHlo.unary main_arg27 main_v234 (broadcastInDim S1x129 ![1] bcast_S129_S1x129_1 : (⟨S129, .f32⟩ : BufTy).Contents (Elt F) → (⟨S1x129, .f32⟩ : BufTy).Contents (Elt F)),
    StableHlo.unary main_v234 main_v235 (broadcastInDim S100000x129 ![0, 1] bcast_S1x129_S100000x129_0_1 : (⟨S1x129, .f32⟩ : BufTy).Contents (Elt F) → (⟨S100000x129, .f32⟩ : BufTy).Contents (Elt F)),
    StableHlo.binary main_v233 main_v235 main_v236 (addf : (⟨S100000x129, .f32⟩ : BufTy).Contents (Elt F) → (⟨S100000x129, .f32⟩ : BufTy).Contents (Elt F) → (⟨S100000x129, .f32⟩ : BufTy).Contents (Elt F)) ]

/-! ## The seventeen pieces -/

/-- Piece 1: the 36 operations up to and including the one that produces %23. -/
abbrev opsS1 : List (HloOp τ sig (Elt F)) :=
  [ StableHlo.nullary main_cst (constant S_ .f32 0x3F800000#32),
    StableHlo.unary main_cst main_v0 (broadcastInDim S1250000 ![] bcast_S_S1250000 : (⟨S_, .f32⟩ : BufTy).Contents (Elt F) → (⟨S1250000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg1 main_v2 (broadcastInDim S1250000x1 ![0] bcast_S1250000_S1250000x1_0 : (⟨S1250000, .i32⟩ : BufTy).Contents (Elt F) → (⟨S1250000x1, .i32⟩ : BufTy).Contents (Elt F)),
    StableHlo.ternary main_v1 main_v2 main_v0 main_v3 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_1 (constant S_ .f32 0x00000000#32),
    StableHlo.unary main_cst_1 main_v4 (broadcastInDim S100000 ![] bcast_S_S100000 : (⟨S_, .f32⟩ : BufTy).Contents (Elt F) → (⟨S100000, .f32⟩ : BufTy).Contents (Elt F)),
    StableHlo.unary main_arg2 main_v5 (broadcastInDim S1250000x1 ![0] bcast_S1250000_S1250000x1_0 : (⟨S1250000, .i32⟩ : BufTy).Contents (Elt F) → (⟨S1250000x1, .i32⟩ : BufTy).Contents (Elt F)),
    StableHlo.ternary main_v4 main_v5 main_v0 main_v6 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_2 (constant S_ .f32 0x3F800000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.binary (.of main_call0_v1 : StableHlo.TRef sig ⟨S100000, .f32⟩) (.of main_v3 : StableHlo.TRef sig ⟨S100000, .f32⟩) (.of main_v7 : StableHlo.TRef sig ⟨S100000, .f32⟩) maximumf,
    StableHlo.unary main_v7 main_v8 (Host.rsqrt : (⟨S100000, .f32⟩ : BufTy).Contents (Elt F) → (⟨S100000, .f32⟩ : BufTy).Contents (Elt F)),
    StableHlo.nullary main_cst_3 (constant S_ .f32 0x3F800000#32),
    StableHlo.TRef.unary (.of main_cst_3 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S100000, .f32⟩) (broadcastInDim S100000 ![] bcast_S_S100000),
    StableHlo.TRef.binary (.of main_call1_v1 : StableHlo.TRef sig ⟨S100000, .f32⟩) (.of main_v6 : StableHlo.TRef sig ⟨S100000, .f32⟩) (.of main_v9 : StableHlo.TRef sig ⟨S100000, .f32⟩) maximumf,
    StableHlo.unary main_v9 main_v10 (Host.rsqrt : (⟨S100000, .f32⟩ : BufTy).Contents (Elt F) → (⟨S100000, .f32⟩ : BufTy).Contents (Elt F)),
    StableHlo.unary main_v8 main_v11 (broadcastInDim S100000x1 ![0] bcast_S100000_S100000x1_0 : (⟨S100000, .f32⟩ : BufTy).Contents (Elt F) → (⟨S100000x1, .f32⟩ : BufTy).Contents (Elt F)),
    StableHlo.unary main_v11 main_v12 (broadcastInDim S100000x64 ![0, 1] bcast_S100000x1_S100000x64_0_1 : (⟨S100000x1, .f32⟩ : BufTy).Contents (Elt F) → (⟨S100000x64, .f32⟩ : BufTy).Contents (Elt F)),
    StableHlo.binary main_arg0 main_v12 main_v13 (mulf : (⟨S100000x64, .f32⟩ : BufTy).Contents (Elt F) → (⟨S100000x64, .f32⟩ : BufTy).Contents (Elt F) → (⟨S100000x64, .f32⟩ : BufTy).Contents (Elt F)),
    StableHlo.nullary main_c (constantI S_ 32 0#32),
    StableHlo.unary main_c main_v14 (broadcastInDim S1250000 ![] bcast_S_S1250000 : (⟨S_, .i32⟩ : BufTy).Contents (Elt F) → (⟨S1250000, .i32⟩ : BufTy).Contents (Elt F)),
    StableHlo.binary main_arg1 main_v14 main_v15 (cmpi .slt : (⟨S1250000, .i32⟩ : BufTy).Contents (Elt F) → (⟨S1250000, .i32⟩ : BufTy).Contents (Elt F) → (⟨S1250000, .i1⟩ : BufTy).Contents (Elt F)),
    StableHlo.nullary main_c_4 (constantI S_ 32 100000#32),
    StableHlo.unary main_c_4 main_v16 (broadcastInDim S1250000 ![] bcast_S_S1250000 : (⟨S_, .i32⟩ : BufTy).Contents (Elt F) → (⟨S1250000, .i32⟩ : BufTy).Contents (Elt F)),
    StableHlo.binary main_arg1 main_v16 main_v17 (addi : (⟨S1250000, .i32⟩ : BufTy).Contents (Elt F) → (⟨S1250000, .i32⟩ : BufTy).Contents (Elt F) → (⟨S1250000, .i32⟩ : BufTy).Contents (Elt F)),
    StableHlo.ternary main_v15 main_v17 main_arg1 main_v18 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v18 main_v19 (broadcastInDim S1250000x1 ![0] bcast_S1250000_S1250000x1_0 : (⟨S1250000, .i32⟩ : BufTy).Contents (Elt F) → (⟨S1250000x1, .i32⟩ : BufTy).Contents (Elt F)),
    StableHlo.binary main_v13 main_v19 main_v20 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    StableHlo.nullary main_cst_5 (constant S_ .f32 0x00000000#32),
    StableHlo.unary main_cst_5 main_v21 (broadcastInDim S100000x64 ![] bcast_S_S100000x64 : (⟨S_, .f32⟩ : BufTy).Contents (Elt F) → (⟨S100000x64, .f32⟩ : BufTy).Contents (Elt F)),
    StableHlo.unary main_arg2 main_v22 (broadcastInDim S1250000x1 ![0] bcast_S1250000_S1250000x1_0 : (⟨S1250000, .i32⟩ : BufTy).Contents (Elt F) → (⟨S1250000x1, .i32⟩ : BufTy).Contents (Elt F)),
    StableHlo.ternary main_v21 main_v22 main_v20 main_v23 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)) ]

/-- Piece 2: the 22 operations up to and including the one that produces %31. -/
abbrev opsS2 : List (HloOp τ sig (Elt F)) :=
  [ StableHlo.unary main_v10 main_v24 (broadcastInDim S100000x1 ![0] bcast_S100000_S100000x1_0 : (⟨S100000, .f32⟩ : BufTy).Contents (Elt F) → (⟨S100000x1, .f32⟩ : BufTy).Contents (Elt F)),
    StableHlo.unary main_v24 main_v25 (broadcastInDim S100000x64 ![0, 1] bcast_S100000x1_S100000x64_0_1 : (⟨S100000x1, .f32⟩ : BufTy).Contents (Elt F) → (⟨S100000x64, .f32⟩ : BufTy).Contents (Elt F)),
    StableHlo.binary main_v23 main_v25 main_v26 (mulf : (⟨S100000x64, .f32⟩ : BufTy).Contents (Elt F) → (⟨S100000x64, .f32⟩ : BufTy).Contents (Elt F) → (⟨S100000x64, .f32⟩ : BufTy).Contents (Elt F)),
    StableHlo.binary main_v26 main_arg5 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S100000x64 ![0, 1] bcast_S1x64_S100000x64_0_1 : (⟨S1x64, .f32⟩ : BufTy).Contents (Elt F) → (⟨S100000x64, .f32⟩ : BufTy).Contents (Elt F)),
    StableHlo.binary main_v27 main_v29 main_v30 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x64, .f32⟩) (broadcastInDim S100000x64 ![] bcast_S_S100000x64),
    StableHlo.TRef.binary (.of main_v30 : StableHlo.TRef sig ⟨S100000x64, .f32⟩) (.of main_call2_v0 : StableHlo.TRef sig ⟨S100000x64, .f32⟩) (.of main_call2_v1 : StableHlo.TRef sig ⟨S100000x64, .i1⟩) (cmpf .ogt),
    StableHlo.TRef.nullary (.of main_call2_cst_0 : StableHlo.TRef sig ⟨S_, .f32⟩) (constant S_ .f32 0x00000000#32),
    StableHlo.TRef.unary (.of main_call2_cst_0 : StableHlo.TRef sig ⟨S_, .f32⟩) (.of main_call2_v2 : StableHlo.TRef sig ⟨S100000x64, .f32⟩) (broadcastInDim S100000x64 ![] bcast_S_S100000x64),
    StableHlo.TRef.binary (.of main_v30 : StableHlo.TRef sig ⟨S100000x64, .f32⟩) (.of main_call2_v2 : StableHlo.TRef sig ⟨S100000x64, .f32⟩) (.of main_call2_v3 : StableHlo.TRef sig ⟨S100000x64, .i1⟩) (cmpf .ogt),
    StableHlo.TRef.nullary (.of main_call2_cst_1 : StableHlo.TRef sig ⟨S_, .f32⟩) (constant S_ .f32 0x00000000#32),
    StableHlo.TRef.unary (.of main_call2_cst_1 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S100000x64, .f32⟩) (broadcastInDim S100000x64 ![] bcast_S_S100000x64),
    StableHlo.TRef.ternary (.of main_call2_v3 : StableHlo.TRef sig ⟨S100000x64, .i1⟩) (.of main_call2_call0_v1 : StableHlo.TRef sig ⟨S100000x64, .f32⟩) (.of main_v30 : StableHlo.TRef sig ⟨S100000x64, .f32⟩) (.of main_call2_v4 : StableHlo.TRef sig ⟨S100000x64, .f32⟩) select,
    StableHlo.TRef.unary (.of main_call2_v4 : StableHlo.TRef sig ⟨S100000x64, .f32⟩) (.of main_call2_v5 : StableHlo.TRef sig ⟨S100000x64, .f32⟩) Host.expm1,
    StableHlo.TRef.nullary (.of main_call2_cst_2 : StableHlo.TRef sig ⟨S_, .f32⟩) (constant S_ .f32 0x3F800000#32),
    StableHlo.TRef.unary (.of main_call2_cst_2 : StableHlo.TRef sig ⟨S_, .f32⟩) (.of main_call2_v6 : StableHlo.TRef sig ⟨S100000x64, .f32⟩) (broadcastInDim S100000x64 ![] bcast_S_S100000x64),
    StableHlo.TRef.binary (.of main_call2_v6 : StableHlo.TRef sig ⟨S100000x64, .f32⟩) (.of main_call2_v5 : StableHlo.TRef sig ⟨S100000x64, .f32⟩) (.of main_call2_v7 : StableHlo.TRef sig ⟨S100000x64, .f32⟩) mulf,
    StableHlo.TRef.ternary (.of main_call2_v1 : StableHlo.TRef sig ⟨S100000x64, .i1⟩) (.of main_v30 : StableHlo.TRef sig ⟨S100000x64, .f32⟩) (.of main_call2_v7 : StableHlo.TRef sig ⟨S100000x64, .f32⟩) (.of main_v31 : StableHlo.TRef sig ⟨S100000x64, .f32⟩) select ]

/-- Piece 3: the 28 operations up to and including the one that produces %35. -/
abbrev opsS3 : List (HloOp τ sig (Elt F)) :=
  [ StableHlo.nullary main_cst_6 (constant S_ .f32 0x00000000#32),
    StableHlo.binary main_v31 main_cst_6 main_v32 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_7 (constant S_ .f32 0x47C35000#32),
    StableHlo.unary main_cst_7 main_v33 (broadcastInDim S64 ![] bcast_S_S64 : (⟨S_, .f32⟩ : BufTy).Contents (Elt F) → (⟨S64, .f32⟩ : BufTy).Contents (Elt F)),
    StableHlo.binary main_v32 main_v33 main_v34 (Host.divf : (⟨S64, .f32⟩ : BufTy).Contents (Elt F) → (⟨S64, .f32⟩ : BufTy).Contents (Elt F) → (⟨S64, .f32⟩ : BufTy).Contents (Elt F)),
    StableHlo.nullary main_c_8 (constantI S_ 32 0#32),
    StableHlo.TRef.nullary (.of main_call3_cst : StableHlo.TRef sig ⟨S_, .f32⟩) (constant S_ .f32 0x00000000#32),
    StableHlo.TRef.binary (.of main_v31 : StableHlo.TRef sig ⟨S100000x64, .f32⟩) (.of main_call3_cst : StableHlo.TRef sig ⟨S_, .f32⟩) (.of main_call3_v0 : StableHlo.TRef sig ⟨S64, .f32⟩) (fun x v => Host.reduceAdd x v reducesTo_S100000x64_S64_d0 h_S_),
    StableHlo.TRef.unary (.of main_call3_v0 : StableHlo.TRef sig ⟨S64, .f32⟩) (.of main_call3_v1 : StableHlo.TRef sig ⟨S1x64, .f32⟩) (broadcastInDim S1x64 ![1] bcast_S64_S1x64_1),
    StableHlo.TRef.nullary (.of main_call3_cst_0 : StableHlo.TRef sig ⟨S_, .f32⟩) (constant S_ .f32 0x47C35000#32),
    StableHlo.TRef.unary (.of main_call3_cst_0 : StableHlo.TRef sig ⟨S_, .f32⟩) (.of main_call3_v2 : StableHlo.TRef sig ⟨S1x64, .f32⟩) (broadcastInDim S1x64 ![] bcast_S_S1x64),
    StableHlo.TRef.binary (.of main_call3_v1 : StableHlo.TRef sig ⟨S1x64, .f32⟩) (.of main_call3_v2 : StableHlo.TRef sig ⟨S1x64, .f32⟩) (.of main_call3_v3 : StableHlo.TRef sig ⟨S1x64, .f32⟩) Host.divf,
    StableHlo.TRef.unary (.of main_call3_v3 : StableHlo.TRef sig ⟨S1x64, .f32⟩) (.of main_call3_v4 : StableHlo.TRef sig ⟨S100000x64, .f32⟩) (broadcastInDim S100000x64 ![0, 1] bcast_S1x64_S100000x64_0_1),
    StableHlo.TRef.binary (.of main_v31 : StableHlo.TRef sig ⟨S100000x64, .f32⟩) (.of main_call3_v4 : StableHlo.TRef sig ⟨S100000x64, .f32⟩) (.of main_call3_v5 : StableHlo.TRef sig ⟨S100000x64, .f32⟩) subf,
    StableHlo.TRef.binary (.of main_call3_v5 : StableHlo.TRef sig ⟨S100000x64, .f32⟩) (.of main_call3_v5 : StableHlo.TRef sig ⟨S100000x64, .f32⟩) (.of main_call3_v6 : StableHlo.TRef sig ⟨S100000x64, .f32⟩) mulf,
    StableHlo.TRef.unary (.of main_c_8 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x47C35000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S100000x64, .f32⟩) (.of main_call3_cst_2 : StableHlo.TRef sig ⟨S_, .f32⟩) (.of main_call3_v9 : StableHlo.TRef sig ⟨S64, .f32⟩) (fun x v => Host.reduceAdd x v reducesTo_S100000x64_S64_d0 h_S_),
    StableHlo.TRef.unary (.of main_call3_v8 : StableHlo.TRef sig ⟨S_, .f32⟩) (.of main_call3_v10 : StableHlo.TRef sig ⟨S64, .f32⟩) (broadcastInDim S64 ![] bcast_S_S64),
    StableHlo.TRef.binary (.of main_call3_v9 : StableHlo.TRef sig ⟨S64, .f32⟩) (.of main_call3_v10 : StableHlo.TRef sig ⟨S64, .f32⟩) (.of main_call3_v11 : StableHlo.TRef sig ⟨S64, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S64, .f32⟩) (broadcastInDim S64 ![] bcast_S_S64),
    StableHlo.TRef.ternary (.of main_call3_v12 : StableHlo.TRef sig ⟨S_, .i1⟩) (.of main_call3_v11 : StableHlo.TRef sig ⟨S64, .f32⟩) (.of main_call3_call0_v1 : StableHlo.TRef sig ⟨S64, .f32⟩) (.of main_v35 : StableHlo.TRef sig ⟨S64, .f32⟩) (fun p a b => select (broadcastInDim S64 ![] bcast_S_S64 p) a b) ]

/-- Piece 4: the 39 operations up to and including the one that produces %64. -/
abbrev opsS4 : List (HloOp τ sig (Elt F)) :=
  [ StableHlo.unary main_v34 main_v36 (broadcastInDim S1x64 ![1] bcast_S64_S1x64_1 : (⟨S64, .f32⟩ : BufTy).Contents (Elt F) → (⟨S1x64, .f32⟩ : BufTy).Contents (Elt F)),
    StableHlo.unary main_v36 main_v37 (broadcastInDim S100000x64 ![0, 1] bcast_S1x64_S100000x64_0_1 : (⟨S1x64, .f32⟩ : BufTy).Contents (Elt F) → (⟨S100000x64, .f32⟩ : BufTy).Contents (Elt F)),
    StableHlo.binary main_v31 main_v37 main_v38 (subf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x3727C5AC#32),
    StableHlo.unary main_cst_9 main_v39 (broadcastInDim S64 ![] bcast_S_S64 : (⟨S_, .f32⟩ : BufTy).Contents (Elt F) → (⟨S64, .f32⟩ : BufTy).Contents (Elt F)),
    StableHlo.binary main_v35 main_v39 main_v40 (addf : (⟨S64, .f32⟩ : BufTy).Contents (Elt F) → (⟨S64, .f32⟩ : BufTy).Contents (Elt F) → (⟨S64, .f32⟩ : BufTy).Contents (Elt F)),
    StableHlo.unary main_v40 main_v41 (Host.rsqrt : (⟨S64, .f32⟩ : BufTy).Contents (Elt F) → (⟨S64, .f32⟩ : BufTy).Contents (Elt F)),
    StableHlo.unary main_v41 main_v42 (broadcastInDim S1x64 ![1] bcast_S64_S1x64_1 : (⟨S64, .f32⟩ : BufTy).Contents (Elt F) → (⟨S1x64, .f32⟩ : BufTy).Contents (Elt F)),
    StableHlo.unary main_v42 main_v43 (broadcastInDim S100000x64 ![0, 1] bcast_S1x64_S100000x64_0_1 : (⟨S1x64, .f32⟩ : BufTy).Contents (Elt F) → (⟨S100000x64, .f32⟩ : BufTy).Contents (Elt F)),
    StableHlo.binary main_v38 main_v43 main_v44 (mulf : (⟨S100000x64, .f32⟩ : BufTy).Contents (Elt F) → (⟨S100000x64, .f32⟩ : BufTy).Contents (Elt F) → (⟨S100000x64, .f32⟩ : BufTy).Contents (Elt F)),
    StableHlo.unary main_arg7 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v46 main_v47 (mulf : (⟨S100000x64, .f32⟩ : BufTy).Contents (Elt F) → (⟨S100000x64, .f32⟩ : BufTy).Contents (Elt F) → (⟨S100000x64, .f32⟩ : BufTy).Contents (Elt F)),
    StableHlo.unary main_arg8 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S100000x64 ![0, 1] bcast_S1x64_S100000x64_0_1 : (⟨S1x64, .f32⟩ : BufTy).Contents (Elt F) → (⟨S100000x64, .f32⟩ : BufTy).Contents (Elt F)),
    StableHlo.binary main_v47 main_v49 main_v50 (addf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x3F800000#32),
    StableHlo.unary main_cst_10 main_v51 (broadcastInDim S1250000 ![] bcast_S_S1250000 : (⟨S_, .f32⟩ : BufTy).Contents (Elt F) → (⟨S1250000, .f32⟩ : BufTy).Contents (Elt F)),
    StableHlo.nullary main_cst_11 (constant S_ .f32 0x00000000#32),
    StableHlo.unary main_cst_11 main_v52 (broadcastInDim S100000 ![] bcast_S_S100000 : (⟨S_, .f32⟩ : BufTy).Contents (Elt F) → (⟨S100000, .f32⟩ : BufTy).Contents (Elt F)),
    StableHlo.unary main_arg1 main_v53 (broadcastInDim S1250000x1 ![0] bcast_S1250000_S1250000x1_0 : (⟨S1250000, .i32⟩ : BufTy).Contents (Elt F) → (⟨S1250000x1, .i32⟩ : BufTy).Contents (Elt F)),
    StableHlo.ternary main_v52 main_v53 main_v51 main_v54 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_12 (constant S_ .f32 0x00000000#32),
    StableHlo.unary main_cst_12 main_v55 (broadcastInDim S100000 ![] bcast_S_S100000 : (⟨S_, .f32⟩ : BufTy).Contents (Elt F) → (⟨S100000, .f32⟩ : BufTy).Contents (Elt F)),
    StableHlo.unary main_arg2 main_v56 (broadcastInDim S1250000x1 ![0] bcast_S1250000_S1250000x1_0 : (⟨S1250000, .i32⟩ : BufTy).Contents (Elt F) → (⟨S1250000x1, .i32⟩ : BufTy).Contents (Elt F)),
    StableHlo.ternary main_v55 main_v56 main_v51 main_v57 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_13 (constant S_ .f32 0x3F800000#32),
    StableHlo.TRef.unary (.of main_cst_13 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S100000, .f32⟩) (broadcastInDim S100000 ![] bcast_S_S100000),
    StableHlo.TRef.binary (.of main_call4_v1 : StableHlo.TRef sig ⟨S100000, .f32⟩) (.of main_v54 : StableHlo.TRef sig ⟨S100000, .f32⟩) (.of main_v58 : StableHlo.TRef sig ⟨S100000, .f32⟩) maximumf,
    StableHlo.unary main_v58 main_v59 (Host.rsqrt : (⟨S100000, .f32⟩ : BufTy).Contents (Elt F) → (⟨S100000, .f32⟩ : BufTy).Contents (Elt F)),
    StableHlo.nullary main_cst_14 (constant S_ .f32 0x3F800000#32),
    StableHlo.TRef.unary (.of main_cst_14 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S100000, .f32⟩) (broadcastInDim S100000 ![] bcast_S_S100000),
    StableHlo.TRef.binary (.of main_call5_v1 : StableHlo.TRef sig ⟨S100000, .f32⟩) (.of main_v57 : StableHlo.TRef sig ⟨S100000, .f32⟩) (.of main_v60 : StableHlo.TRef sig ⟨S100000, .f32⟩) maximumf,
    StableHlo.unary main_v60 main_v61 (Host.rsqrt : (⟨S100000, .f32⟩ : BufTy).Contents (Elt F) → (⟨S100000, .f32⟩ : BufTy).Contents (Elt F)),
    StableHlo.unary main_v59 main_v62 (broadcastInDim S100000x1 ![0] bcast_S100000_S100000x1_0 : (⟨S100000, .f32⟩ : BufTy).Contents (Elt F) → (⟨S100000x1, .f32⟩ : BufTy).Contents (Elt F)),
    StableHlo.unary main_v62 main_v63 (broadcastInDim S100000x64 ![0, 1] bcast_S100000x1_S100000x64_0_1 : (⟨S100000x1, .f32⟩ : BufTy).Contents (Elt F) → (⟨S100000x64, .f32⟩ : BufTy).Contents (Elt F)),
    StableHlo.binary main_v50 main_v63 main_v64 (mulf : (⟨S100000x64, .f32⟩ : BufTy).Contents (Elt F) → (⟨S100000x64, .f32⟩ : BufTy).Contents (Elt F) → (⟨S100000x64, .f32⟩ : BufTy).Contents (Elt F)) ]

/-- Piece 5: the 13 operations up to and including the one that produces %74. -/
abbrev opsS5 : List (HloOp τ sig (Elt F)) :=
  [ StableHlo.nullary main_c_15 (constantI S_ 32 0#32),
    StableHlo.unary main_c_15 main_v65 (broadcastInDim S1250000 ![] bcast_S_S1250000 : (⟨S_, .i32⟩ : BufTy).Contents (Elt F) → (⟨S1250000, .i32⟩ : BufTy).Contents (Elt F)),
    StableHlo.binary main_arg1 main_v65 main_v66 (cmpi .slt : (⟨S1250000, .i32⟩ : BufTy).Contents (Elt F) → (⟨S1250000, .i32⟩ : BufTy).Contents (Elt F) → (⟨S1250000, .i1⟩ : BufTy).Contents (Elt F)),
    StableHlo.nullary main_c_16 (constantI S_ 32 100000#32),
    StableHlo.unary main_c_16 main_v67 (broadcastInDim S1250000 ![] bcast_S_S1250000 : (⟨S_, .i32⟩ : BufTy).Contents (Elt F) → (⟨S1250000, .i32⟩ : BufTy).Contents (Elt F)),
    StableHlo.binary main_arg1 main_v67 main_v68 (addi : (⟨S1250000, .i32⟩ : BufTy).Contents (Elt F) → (⟨S1250000, .i32⟩ : BufTy).Contents (Elt F) → (⟨S1250000, .i32⟩ : BufTy).Contents (Elt F)),
    StableHlo.ternary main_v66 main_v68 main_arg1 main_v69 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v69 main_v70 (broadcastInDim S1250000x1 ![0] bcast_S1250000_S1250000x1_0 : (⟨S1250000, .i32⟩ : BufTy).Contents (Elt F) → (⟨S1250000x1, .i32⟩ : BufTy).Contents (Elt F)),
    StableHlo.binary main_v64 main_v70 main_v71 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    StableHlo.nullary main_cst_17 (constant S_ .f32 0x00000000#32),
    StableHlo.unary main_cst_17 main_v72 (broadcastInDim S100000x64 ![] bcast_S_S100000x64 : (⟨S_, .f32⟩ : BufTy).Contents (Elt F) → (⟨S100000x64, .f32⟩ : BufTy).Contents (Elt F)),
    StableHlo.unary main_arg2 main_v73 (broadcastInDim S1250000x1 ![0] bcast_S1250000_S1250000x1_0 : (⟨S1250000, .i32⟩ : BufTy).Contents (Elt F) → (⟨S1250000x1, .i32⟩ : BufTy).Contents (Elt F)),
    StableHlo.ternary main_v72 main_v73 main_v71 main_v74 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)) ]

/-- Piece 6: the 22 operations up to and including the one that produces %82. -/
abbrev opsS6 : List (HloOp τ sig (Elt F)) :=
  [ StableHlo.unary main_v61 main_v75 (broadcastInDim S100000x1 ![0] bcast_S100000_S100000x1_0 : (⟨S100000, .f32⟩ : BufTy).Contents (Elt F) → (⟨S100000x1, .f32⟩ : BufTy).Contents (Elt F)),
    StableHlo.unary main_v75 main_v76 (broadcastInDim S100000x64 ![0, 1] bcast_S100000x1_S100000x64_0_1 : (⟨S100000x1, .f32⟩ : BufTy).Contents (Elt F) → (⟨S100000x64, .f32⟩ : BufTy).Contents (Elt F)),
    StableHlo.binary main_v74 main_v76 main_v77 (mulf : (⟨S100000x64, .f32⟩ : BufTy).Contents (Elt F) → (⟨S100000x64, .f32⟩ : BufTy).Contents (Elt F) → (⟨S100000x64, .f32⟩ : BufTy).Contents (Elt F)),
    StableHlo.binary main_v77 main_arg9 main_v78 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v79 (broadcastInDim S1x64 ![1] bcast_S64_S1x64_1 : (⟨S64, .f32⟩ : BufTy).Contents (Elt F) → (⟨S1x64, .f32⟩ : BufTy).Contents (Elt F)),
    StableHlo.unary main_v79 main_v80 (broadcastInDim S100000x64 ![0, 1] bcast_S1x64_S100000x64_0_1 : (⟨S1x64, .f32⟩ : BufTy).Contents (Elt F) → (⟨S100000x64, .f32⟩ : BufTy).Contents (Elt F)),
    StableHlo.binary main_v78 main_v80 main_v81 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S100000x64, .f32⟩) (broadcastInDim S100000x64 ![] bcast_S_S100000x64),
    StableHlo.TRef.binary (.of main_v81 : StableHlo.TRef sig ⟨S100000x64, .f32⟩) (.of main_call6_v0 : StableHlo.TRef sig ⟨S100000x64, .f32⟩) (.of main_call6_v1 : StableHlo.TRef sig ⟨S100000x64, .i1⟩) (cmpf .ogt),
    StableHlo.TRef.nullary (.of main_call6_cst_0 : StableHlo.TRef sig ⟨S_, .f32⟩) (constant S_ .f32 0x00000000#32),
    StableHlo.TRef.unary (.of main_call6_cst_0 : StableHlo.TRef sig ⟨S_, .f32⟩) (.of main_call6_v2 : StableHlo.TRef sig ⟨S100000x64, .f32⟩) (broadcastInDim S100000x64 ![] bcast_S_S100000x64),
    StableHlo.TRef.binary (.of main_v81 : StableHlo.TRef sig ⟨S100000x64, .f32⟩) (.of main_call6_v2 : StableHlo.TRef sig ⟨S100000x64, .f32⟩) (.of main_call6_v3 : StableHlo.TRef sig ⟨S100000x64, .i1⟩) (cmpf .ogt),
    StableHlo.TRef.nullary (.of main_call6_cst_1 : StableHlo.TRef sig ⟨S_, .f32⟩) (constant S_ .f32 0x00000000#32),
    StableHlo.TRef.unary (.of main_call6_cst_1 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S100000x64, .f32⟩) (broadcastInDim S100000x64 ![] bcast_S_S100000x64),
    StableHlo.TRef.ternary (.of main_call6_v3 : StableHlo.TRef sig ⟨S100000x64, .i1⟩) (.of main_call6_call0_v1 : StableHlo.TRef sig ⟨S100000x64, .f32⟩) (.of main_v81 : StableHlo.TRef sig ⟨S100000x64, .f32⟩) (.of main_call6_v4 : StableHlo.TRef sig ⟨S100000x64, .f32⟩) select,
    StableHlo.TRef.unary (.of main_call6_v4 : StableHlo.TRef sig ⟨S100000x64, .f32⟩) (.of main_call6_v5 : StableHlo.TRef sig ⟨S100000x64, .f32⟩) Host.expm1,
    StableHlo.TRef.nullary (.of main_call6_cst_2 : StableHlo.TRef sig ⟨S_, .f32⟩) (constant S_ .f32 0x3F800000#32),
    StableHlo.TRef.unary (.of main_call6_cst_2 : StableHlo.TRef sig ⟨S_, .f32⟩) (.of main_call6_v6 : StableHlo.TRef sig ⟨S100000x64, .f32⟩) (broadcastInDim S100000x64 ![] bcast_S_S100000x64),
    StableHlo.TRef.binary (.of main_call6_v6 : StableHlo.TRef sig ⟨S100000x64, .f32⟩) (.of main_call6_v5 : StableHlo.TRef sig ⟨S100000x64, .f32⟩) (.of main_call6_v7 : StableHlo.TRef sig ⟨S100000x64, .f32⟩) mulf,
    StableHlo.TRef.ternary (.of main_call6_v1 : StableHlo.TRef sig ⟨S100000x64, .i1⟩) (.of main_v81 : StableHlo.TRef sig ⟨S100000x64, .f32⟩) (.of main_call6_v7 : StableHlo.TRef sig ⟨S100000x64, .f32⟩) (.of main_v82 : StableHlo.TRef sig ⟨S100000x64, .f32⟩) select ]

/-- Piece 7: the 28 operations up to and including the one that produces %86. -/
abbrev opsS7 : List (HloOp τ sig (Elt F)) :=
  [ StableHlo.nullary main_cst_18 (constant S_ .f32 0x00000000#32),
    StableHlo.binary main_v82 main_cst_18 main_v83 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_19 (constant S_ .f32 0x47C35000#32),
    StableHlo.unary main_cst_19 main_v84 (broadcastInDim S64 ![] bcast_S_S64 : (⟨S_, .f32⟩ : BufTy).Contents (Elt F) → (⟨S64, .f32⟩ : BufTy).Contents (Elt F)),
    StableHlo.binary main_v83 main_v84 main_v85 (Host.divf : (⟨S64, .f32⟩ : BufTy).Contents (Elt F) → (⟨S64, .f32⟩ : BufTy).Contents (Elt F) → (⟨S64, .f32⟩ : BufTy).Contents (Elt F)),
    StableHlo.nullary main_c_20 (constantI S_ 32 0#32),
    StableHlo.TRef.nullary (.of main_call7_cst : StableHlo.TRef sig ⟨S_, .f32⟩) (constant S_ .f32 0x00000000#32),
    StableHlo.TRef.binary (.of main_v82 : StableHlo.TRef sig ⟨S100000x64, .f32⟩) (.of main_call7_cst : StableHlo.TRef sig ⟨S_, .f32⟩) (.of main_call7_v0 : StableHlo.TRef sig ⟨S64, .f32⟩) (fun x v => Host.reduceAdd x v reducesTo_S100000x64_S64_d0 h_S_),
    StableHlo.TRef.unary (.of main_call7_v0 : StableHlo.TRef sig ⟨S64, .f32⟩) (.of main_call7_v1 : StableHlo.TRef sig ⟨S1x64, .f32⟩) (broadcastInDim S1x64 ![1] bcast_S64_S1x64_1),
    StableHlo.TRef.nullary (.of main_call7_cst_0 : StableHlo.TRef sig ⟨S_, .f32⟩) (constant S_ .f32 0x47C35000#32),
    StableHlo.TRef.unary (.of main_call7_cst_0 : StableHlo.TRef sig ⟨S_, .f32⟩) (.of main_call7_v2 : StableHlo.TRef sig ⟨S1x64, .f32⟩) (broadcastInDim S1x64 ![] bcast_S_S1x64),
    StableHlo.TRef.binary (.of main_call7_v1 : StableHlo.TRef sig ⟨S1x64, .f32⟩) (.of main_call7_v2 : StableHlo.TRef sig ⟨S1x64, .f32⟩) (.of main_call7_v3 : StableHlo.TRef sig ⟨S1x64, .f32⟩) Host.divf,
    StableHlo.TRef.unary (.of main_call7_v3 : StableHlo.TRef sig ⟨S1x64, .f32⟩) (.of main_call7_v4 : StableHlo.TRef sig ⟨S100000x64, .f32⟩) (broadcastInDim S100000x64 ![0, 1] bcast_S1x64_S100000x64_0_1),
    StableHlo.TRef.binary (.of main_v82 : StableHlo.TRef sig ⟨S100000x64, .f32⟩) (.of main_call7_v4 : StableHlo.TRef sig ⟨S100000x64, .f32⟩) (.of main_call7_v5 : StableHlo.TRef sig ⟨S100000x64, .f32⟩) subf,
    StableHlo.TRef.binary (.of main_call7_v5 : StableHlo.TRef sig ⟨S100000x64, .f32⟩) (.of main_call7_v5 : StableHlo.TRef sig ⟨S100000x64, .f32⟩) (.of main_call7_v6 : StableHlo.TRef sig ⟨S100000x64, .f32⟩) mulf,
    StableHlo.TRef.unary (.of main_c_20 : StableHlo.TRef sig ⟨S_, .i32⟩) (.of main_call7_v7 : StableHlo.TRef sig ⟨S_, .f32⟩) (sitofp .f32),
    StableHlo.TRef.nullary (.of main_call7_cst_1 : StableHlo.TRef sig ⟨S_, .f32⟩) (constant S_ .f32 0x47C35000#32),
    StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf,
    StableHlo.TRef.nullary (.of main_call7_cst_2 : StableHlo.TRef sig ⟨S_, .f32⟩) (constant S_ .f32 0x00000000#32),
    StableHlo.TRef.binary (.of main_call7_v6 : StableHlo.TRef sig ⟨S100000x64, .f32⟩) (.of main_call7_cst_2 : StableHlo.TRef sig ⟨S_, .f32⟩) (.of main_call7_v9 : StableHlo.TRef sig ⟨S64, .f32⟩) (fun x v => Host.reduceAdd x v reducesTo_S100000x64_S64_d0 h_S_),
    StableHlo.TRef.unary (.of main_call7_v8 : StableHlo.TRef sig ⟨S_, .f32⟩) (.of main_call7_v10 : StableHlo.TRef sig ⟨S64, .f32⟩) (broadcastInDim S64 ![] bcast_S_S64),
    StableHlo.TRef.binary (.of main_call7_v9 : StableHlo.TRef sig ⟨S64, .f32⟩) (.of main_call7_v10 : StableHlo.TRef sig ⟨S64, .f32⟩) (.of main_call7_v11 : StableHlo.TRef sig ⟨S64, .f32⟩) Host.divf,
    StableHlo.TRef.nullary (.of main_call7_cst_3 : StableHlo.TRef sig ⟨S_, .f32⟩) (constant S_ .f32 0x00000000#32),
    StableHlo.TRef.binary (.of main_call7_v8 : StableHlo.TRef sig ⟨S_, .f32⟩) (.of main_call7_cst_3 : StableHlo.TRef sig ⟨S_, .f32⟩) (.of main_call7_v12 : StableHlo.TRef sig ⟨S_, .i1⟩) (cmpf .ogt),
    StableHlo.TRef.nullary (.of main_call7_cst_4 : StableHlo.TRef sig ⟨S_, .f32⟩) (constant S_ .f32 0x7FC00000#32),
    StableHlo.TRef.unary (.of main_call7_cst_4 : StableHlo.TRef sig ⟨S_, .f32⟩) (.of main_call7_call0_v0 : StableHlo.TRef sig ⟨S_, .f32⟩) id,
    StableHlo.TRef.unary (.of main_call7_call0_v0 : StableHlo.TRef sig ⟨S_, .f32⟩) (.of main_call7_call0_v1 : StableHlo.TRef sig ⟨S64, .f32⟩) (broadcastInDim S64 ![] bcast_S_S64),
    StableHlo.TRef.ternary (.of main_call7_v12 : StableHlo.TRef sig ⟨S_, .i1⟩) (.of main_call7_v11 : StableHlo.TRef sig ⟨S64, .f32⟩) (.of main_call7_call0_v1 : StableHlo.TRef sig ⟨S64, .f32⟩) (.of main_v86 : StableHlo.TRef sig ⟨S64, .f32⟩) (fun p a b => select (broadcastInDim S64 ![] bcast_S_S64 p) a b) ]

/-- Piece 8: the 16 operations up to and including the one that produces %101. -/
abbrev opsS8 : List (HloOp τ sig (Elt F)) :=
  [ StableHlo.unary main_v85 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S100000x64 ![0, 1] bcast_S1x64_S100000x64_0_1 : (⟨S1x64, .f32⟩ : BufTy).Contents (Elt F) → (⟨S100000x64, .f32⟩ : BufTy).Contents (Elt F)),
    StableHlo.binary main_v82 main_v88 main_v89 (subf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x3727C5AC#32),
    StableHlo.unary main_cst_21 main_v90 (broadcastInDim S64 ![] bcast_S_S64 : (⟨S_, .f32⟩ : BufTy).Contents (Elt F) → (⟨S64, .f32⟩ : BufTy).Contents (Elt F)),
    StableHlo.binary main_v86 main_v90 main_v91 (addf : (⟨S64, .f32⟩ : BufTy).Contents (Elt F) → (⟨S64, .f32⟩ : BufTy).Contents (Elt F) → (⟨S64, .f32⟩ : BufTy).Contents (Elt F)),
    StableHlo.unary main_v91 main_v92 (Host.rsqrt : (⟨S64, .f32⟩ : BufTy).Contents (Elt F) → (⟨S64, .f32⟩ : BufTy).Contents (Elt F)),
    StableHlo.unary main_v92 main_v93 (broadcastInDim S1x64 ![1] bcast_S64_S1x64_1 : (⟨S64, .f32⟩ : BufTy).Contents (Elt F) → (⟨S1x64, .f32⟩ : BufTy).Contents (Elt F)),
    StableHlo.unary main_v93 main_v94 (broadcastInDim S100000x64 ![0, 1] bcast_S1x64_S100000x64_0_1 : (⟨S1x64, .f32⟩ : BufTy).Contents (Elt F) → (⟨S100000x64, .f32⟩ : BufTy).Contents (Elt F)),
    StableHlo.binary main_v89 main_v94 main_v95 (mulf : (⟨S100000x64, .f32⟩ : BufTy).Contents (Elt F) → (⟨S100000x64, .f32⟩ : BufTy).Contents (Elt F) → (⟨S100000x64, .f32⟩ : BufTy).Contents (Elt F)),
    StableHlo.unary main_arg11 main_v96 (broadcastInDim S1x64 ![1] bcast_S64_S1x64_1 : (⟨S64, .f32⟩ : BufTy).Contents (Elt F) → (⟨S1x64, .f32⟩ : BufTy).Contents (Elt F)),
    StableHlo.unary main_v96 main_v97 (broadcastInDim S100000x64 ![0, 1] bcast_S1x64_S100000x64_0_1 : (⟨S1x64, .f32⟩ : BufTy).Contents (Elt F) → (⟨S100000x64, .f32⟩ : BufTy).Contents (Elt F)),
    StableHlo.binary main_v95 main_v97 main_v98 (mulf : (⟨S100000x64, .f32⟩ : BufTy).Contents (Elt F) → (⟨S100000x64, .f32⟩ : BufTy).Contents (Elt F) → (⟨S100000x64, .f32⟩ : BufTy).Contents (Elt F)),
    StableHlo.unary main_arg12 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S100000x64 ![0, 1] bcast_S1x64_S100000x64_0_1 : (⟨S1x64, .f32⟩ : BufTy).Contents (Elt F) → (⟨S100000x64, .f32⟩ : BufTy).Contents (Elt F)),
    StableHlo.binary main_v98 main_v100 main_v101 (addf : (⟨S100000x64, .f32⟩ : BufTy).Contents (Elt F) → (⟨S100000x64, .f32⟩ : BufTy).Contents (Elt F) → (⟨S100000x64, .f32⟩ : BufTy).Contents (Elt F)) ]

/-- Piece 9: the 36 operations up to and including the one that produces %125. -/
abbrev opsS9 : List (HloOp τ sig (Elt F)) :=
  [ StableHlo.nullary main_cst_22 (constant S_ .f32 0x3F800000#32),
    StableHlo.unary main_cst_22 main_v102 (broadcastInDim S1250000 ![] bcast_S_S1250000 : (⟨S_, .f32⟩ : BufTy).Contents (Elt F) → (⟨S1250000, .f32⟩ : BufTy).Contents (Elt F)),
    StableHlo.nullary main_cst_23 (constant S_ .f32 0x00000000#32),
    StableHlo.unary main_cst_23 main_v103 (broadcastInDim S100000 ![] bcast_S_S100000 : (⟨S_, .f32⟩ : BufTy).Contents (Elt F) → (⟨S100000, .f32⟩ : BufTy).Contents (Elt F)),
    StableHlo.unary main_arg3 main_v104 (broadcastInDim S1250000x1 ![0] bcast_S1250000_S1250000x1_0 : (⟨S1250000, .i32⟩ : BufTy).Contents (Elt F) → (⟨S1250000x1, .i32⟩ : BufTy).Contents (Elt F)),
    StableHlo.ternary main_v103 main_v104 main_v102 main_v105 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_24 (constant S_ .f32 0x00000000#32),
    StableHlo.unary main_cst_24 main_v106 (broadcastInDim S100000 ![] bcast_S_S100000 : (⟨S_, .f32⟩ : BufTy).Contents (Elt F) → (⟨S100000, .f32⟩ : BufTy).Contents (Elt F)),
    StableHlo.unary main_arg4 main_v107 (broadcastInDim S1250000x1 ![0] bcast_S1250000_S1250000x1_0 : (⟨S1250000, .i32⟩ : BufTy).Contents (Elt F) → (⟨S1250000x1, .i32⟩ : BufTy).Contents (Elt F)),
    StableHlo.ternary main_v106 main_v107 main_v102 main_v108 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_25 (constant S_ .f32 0x3F800000#32),
    StableHlo.TRef.unary (.of main_cst_25 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S100000, .f32⟩) (broadcastInDim S100000 ![] bcast_S_S100000),
    StableHlo.TRef.binary (.of main_call8_v1 : StableHlo.TRef sig ⟨S100000, .f32⟩) (.of main_v105 : StableHlo.TRef sig ⟨S100000, .f32⟩) (.of main_v109 : StableHlo.TRef sig ⟨S100000, .f32⟩) maximumf,
    StableHlo.unary main_v109 main_v110 (Host.rsqrt : (⟨S100000, .f32⟩ : BufTy).Contents (Elt F) → (⟨S100000, .f32⟩ : BufTy).Contents (Elt F)),
    StableHlo.nullary main_cst_26 (constant S_ .f32 0x3F800000#32),
    StableHlo.TRef.unary (.of main_cst_26 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S100000, .f32⟩) (broadcastInDim S100000 ![] bcast_S_S100000),
    StableHlo.TRef.binary (.of main_call9_v1 : StableHlo.TRef sig ⟨S100000, .f32⟩) (.of main_v108 : StableHlo.TRef sig ⟨S100000, .f32⟩) (.of main_v111 : StableHlo.TRef sig ⟨S100000, .f32⟩) maximumf,
    StableHlo.unary main_v111 main_v112 (Host.rsqrt : (⟨S100000, .f32⟩ : BufTy).Contents (Elt F) → (⟨S100000, .f32⟩ : BufTy).Contents (Elt F)),
    StableHlo.unary main_v110 main_v113 (broadcastInDim S100000x1 ![0] bcast_S100000_S100000x1_0 : (⟨S100000, .f32⟩ : BufTy).Contents (Elt F) → (⟨S100000x1, .f32⟩ : BufTy).Contents (Elt F)),
    StableHlo.unary main_v113 main_v114 (broadcastInDim S100000x64 ![0, 1] bcast_S100000x1_S100000x64_0_1 : (⟨S100000x1, .f32⟩ : BufTy).Contents (Elt F) → (⟨S100000x64, .f32⟩ : BufTy).Contents (Elt F)),
    StableHlo.binary main_arg0 main_v114 main_v115 (mulf : (⟨S100000x64, .f32⟩ : BufTy).Contents (Elt F) → (⟨S100000x64, .f32⟩ : BufTy).Contents (Elt F) → (⟨S100000x64, .f32⟩ : BufTy).Contents (Elt F)),
    StableHlo.nullary main_c_27 (constantI S_ 32 0#32),
    StableHlo.unary main_c_27 main_v116 (broadcastInDim S1250000 ![] bcast_S_S1250000 : (⟨S_, .i32⟩ : BufTy).Contents (Elt F) → (⟨S1250000, .i32⟩ : BufTy).Contents (Elt F)),
    StableHlo.binary main_arg3 main_v116 main_v117 (cmpi .slt : (⟨S1250000, .i32⟩ : BufTy).Contents (Elt F) → (⟨S1250000, .i32⟩ : BufTy).Contents (Elt F) → (⟨S1250000, .i1⟩ : BufTy).Contents (Elt F)),
    StableHlo.nullary main_c_28 (constantI S_ 32 100000#32),
    StableHlo.unary main_c_28 main_v118 (broadcastInDim S1250000 ![] bcast_S_S1250000 : (⟨S_, .i32⟩ : BufTy).Contents (Elt F) → (⟨S1250000, .i32⟩ : BufTy).Contents (Elt F)),
    StableHlo.binary main_arg3 main_v118 main_v119 (addi : (⟨S1250000, .i32⟩ : BufTy).Contents (Elt F) → (⟨S1250000, .i32⟩ : BufTy).Contents (Elt F) → (⟨S1250000, .i32⟩ : BufTy).Contents (Elt F)),
    StableHlo.ternary main_v117 main_v119 main_arg3 main_v120 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v120 main_v121 (broadcastInDim S1250000x1 ![0] bcast_S1250000_S1250000x1_0 : (⟨S1250000, .i32⟩ : BufTy).Contents (Elt F) → (⟨S1250000x1, .i32⟩ : BufTy).Contents (Elt F)),
    StableHlo.binary main_v115 main_v121 main_v122 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    StableHlo.nullary main_cst_29 (constant S_ .f32 0x00000000#32),
    StableHlo.unary main_cst_29 main_v123 (broadcastInDim S100000x64 ![] bcast_S_S100000x64 : (⟨S_, .f32⟩ : BufTy).Contents (Elt F) → (⟨S100000x64, .f32⟩ : BufTy).Contents (Elt F)),
    StableHlo.unary main_arg4 main_v124 (broadcastInDim S1250000x1 ![0] bcast_S1250000_S1250000x1_0 : (⟨S1250000, .i32⟩ : BufTy).Contents (Elt F) → (⟨S1250000x1, .i32⟩ : BufTy).Contents (Elt F)),
    StableHlo.ternary main_v123 main_v124 main_v122 main_v125 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)) ]

/-- Piece 10: the 22 operations up to and including the one that produces %133. -/
abbrev opsS10 : List (HloOp τ sig (Elt F)) :=
  [ StableHlo.unary main_v112 main_v126 (broadcastInDim S100000x1 ![0] bcast_S100000_S100000x1_0 : (⟨S100000, .f32⟩ : BufTy).Contents (Elt F) → (⟨S100000x1, .f32⟩ : BufTy).Contents (Elt F)),
    StableHlo.unary main_v126 main_v127 (broadcastInDim S100000x64 ![0, 1] bcast_S100000x1_S100000x64_0_1 : (⟨S100000x1, .f32⟩ : BufTy).Contents (Elt F) → (⟨S100000x64, .f32⟩ : BufTy).Contents (Elt F)),
    StableHlo.binary main_v125 main_v127 main_v128 (mulf : (⟨S100000x64, .f32⟩ : BufTy).Contents (Elt F) → (⟨S100000x64, .f32⟩ : BufTy).Contents (Elt F) → (⟨S100000x64, .f32⟩ : BufTy).Contents (Elt F)),
    StableHlo.binary main_v128 main_arg13 main_v129 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg14 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S100000x64 ![0, 1] bcast_S1x64_S100000x64_0_1 : (⟨S1x64, .f32⟩ : BufTy).Contents (Elt F) → (⟨S100000x64, .f32⟩ : BufTy).Contents (Elt F)),
    StableHlo.binary main_v129 main_v131 main_v132 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call10_cst : StableHlo.TRef sig ⟨S_, .f32⟩) (constant S_ .f32 0x00000000#32),
    StableHlo.TRef.unary (.of main_call10_cst : StableHlo.TRef sig ⟨S_, .f32⟩) (.of main_call10_v0 : StableHlo.TRef sig ⟨S100000x64, .f32⟩) (broadcastInDim S100000x64 ![] bcast_S_S100000x64),
    StableHlo.TRef.binary (.of main_v132 : StableHlo.TRef sig ⟨S100000x64, .f32⟩) (.of main_call10_v0 : StableHlo.TRef sig ⟨S100000x64, .f32⟩) (.of main_call10_v1 : StableHlo.TRef sig ⟨S100000x64, .i1⟩) (cmpf .ogt),
    StableHlo.TRef.nullary (.of main_call10_cst_0 : StableHlo.TRef sig ⟨S_, .f32⟩) (constant S_ .f32 0x00000000#32),
    StableHlo.TRef.unary (.of main_call10_cst_0 : StableHlo.TRef sig ⟨S_, .f32⟩) (.of main_call10_v2 : StableHlo.TRef sig ⟨S100000x64, .f32⟩) (broadcastInDim S100000x64 ![] bcast_S_S100000x64),
    StableHlo.TRef.binary (.of main_v132 : StableHlo.TRef sig ⟨S100000x64, .f32⟩) (.of main_call10_v2 : StableHlo.TRef sig ⟨S100000x64, .f32⟩) (.of main_call10_v3 : StableHlo.TRef sig ⟨S100000x64, .i1⟩) (cmpf .ogt),
    StableHlo.TRef.nullary (.of main_call10_cst_1 : StableHlo.TRef sig ⟨S_, .f32⟩) (constant S_ .f32 0x00000000#32),
    StableHlo.TRef.unary (.of main_call10_cst_1 : StableHlo.TRef sig ⟨S_, .f32⟩) (.of main_call10_call0_v0 : StableHlo.TRef sig ⟨S_, .f32⟩) id,
    StableHlo.TRef.unary (.of main_call10_call0_v0 : StableHlo.TRef sig ⟨S_, .f32⟩) (.of main_call10_call0_v1 : StableHlo.TRef sig ⟨S100000x64, .f32⟩) (broadcastInDim S100000x64 ![] bcast_S_S100000x64),
    StableHlo.TRef.ternary (.of main_call10_v3 : StableHlo.TRef sig ⟨S100000x64, .i1⟩) (.of main_call10_call0_v1 : StableHlo.TRef sig ⟨S100000x64, .f32⟩) (.of main_v132 : StableHlo.TRef sig ⟨S100000x64, .f32⟩) (.of main_call10_v4 : StableHlo.TRef sig ⟨S100000x64, .f32⟩) select,
    StableHlo.TRef.unary (.of main_call10_v4 : StableHlo.TRef sig ⟨S100000x64, .f32⟩) (.of main_call10_v5 : StableHlo.TRef sig ⟨S100000x64, .f32⟩) Host.expm1,
    StableHlo.TRef.nullary (.of main_call10_cst_2 : StableHlo.TRef sig ⟨S_, .f32⟩) (constant S_ .f32 0x3F800000#32),
    StableHlo.TRef.unary (.of main_call10_cst_2 : StableHlo.TRef sig ⟨S_, .f32⟩) (.of main_call10_v6 : StableHlo.TRef sig ⟨S100000x64, .f32⟩) (broadcastInDim S100000x64 ![] bcast_S_S100000x64),
    StableHlo.TRef.binary (.of main_call10_v6 : StableHlo.TRef sig ⟨S100000x64, .f32⟩) (.of main_call10_v5 : StableHlo.TRef sig ⟨S100000x64, .f32⟩) (.of main_call10_v7 : StableHlo.TRef sig ⟨S100000x64, .f32⟩) mulf,
    StableHlo.TRef.ternary (.of main_call10_v1 : StableHlo.TRef sig ⟨S100000x64, .i1⟩) (.of main_v132 : StableHlo.TRef sig ⟨S100000x64, .f32⟩) (.of main_call10_v7 : StableHlo.TRef sig ⟨S100000x64, .f32⟩) (.of main_v133 : StableHlo.TRef sig ⟨S100000x64, .f32⟩) select ]

/-- Piece 11: the 28 operations up to and including the one that produces %137. -/
abbrev opsS11 : List (HloOp τ sig (Elt F)) :=
  [ StableHlo.nullary main_cst_30 (constant S_ .f32 0x00000000#32),
    StableHlo.binary main_v133 main_cst_30 main_v134 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_31 (constant S_ .f32 0x47C35000#32),
    StableHlo.unary main_cst_31 main_v135 (broadcastInDim S64 ![] bcast_S_S64 : (⟨S_, .f32⟩ : BufTy).Contents (Elt F) → (⟨S64, .f32⟩ : BufTy).Contents (Elt F)),
    StableHlo.binary main_v134 main_v135 main_v136 (Host.divf : (⟨S64, .f32⟩ : BufTy).Contents (Elt F) → (⟨S64, .f32⟩ : BufTy).Contents (Elt F) → (⟨S64, .f32⟩ : BufTy).Contents (Elt F)),
    StableHlo.nullary main_c_32 (constantI S_ 32 0#32),
    StableHlo.TRef.nullary (.of main_call11_cst : StableHlo.TRef sig ⟨S_, .f32⟩) (constant S_ .f32 0x00000000#32),
    StableHlo.TRef.binary (.of main_v133 : StableHlo.TRef sig ⟨S100000x64, .f32⟩) (.of main_call11_cst : StableHlo.TRef sig ⟨S_, .f32⟩) (.of main_call11_v0 : StableHlo.TRef sig ⟨S64, .f32⟩) (fun x v => Host.reduceAdd x v reducesTo_S100000x64_S64_d0 h_S_),
    StableHlo.TRef.unary (.of main_call11_v0 : StableHlo.TRef sig ⟨S64, .f32⟩) (.of main_call11_v1 : StableHlo.TRef sig ⟨S1x64, .f32⟩) (broadcastInDim S1x64 ![1] bcast_S64_S1x64_1),
    StableHlo.TRef.nullary (.of main_call11_cst_0 : StableHlo.TRef sig ⟨S_, .f32⟩) (constant S_ .f32 0x47C35000#32),
    StableHlo.TRef.unary (.of main_call11_cst_0 : StableHlo.TRef sig ⟨S_, .f32⟩) (.of main_call11_v2 : StableHlo.TRef sig ⟨S1x64, .f32⟩) (broadcastInDim S1x64 ![] bcast_S_S1x64),
    StableHlo.TRef.binary (.of main_call11_v1 : StableHlo.TRef sig ⟨S1x64, .f32⟩) (.of main_call11_v2 : StableHlo.TRef sig ⟨S1x64, .f32⟩) (.of main_call11_v3 : StableHlo.TRef sig ⟨S1x64, .f32⟩) Host.divf,
    StableHlo.TRef.unary (.of main_call11_v3 : StableHlo.TRef sig ⟨S1x64, .f32⟩) (.of main_call11_v4 : StableHlo.TRef sig ⟨S100000x64, .f32⟩) (broadcastInDim S100000x64 ![0, 1] bcast_S1x64_S100000x64_0_1),
    StableHlo.TRef.binary (.of main_v133 : StableHlo.TRef sig ⟨S100000x64, .f32⟩) (.of main_call11_v4 : StableHlo.TRef sig ⟨S100000x64, .f32⟩) (.of main_call11_v5 : StableHlo.TRef sig ⟨S100000x64, .f32⟩) subf,
    StableHlo.TRef.binary (.of main_call11_v5 : StableHlo.TRef sig ⟨S100000x64, .f32⟩) (.of main_call11_v5 : StableHlo.TRef sig ⟨S100000x64, .f32⟩) (.of main_call11_v6 : StableHlo.TRef sig ⟨S100000x64, .f32⟩) mulf,
    StableHlo.TRef.unary (.of main_c_32 : StableHlo.TRef sig ⟨S_, .i32⟩) (.of main_call11_v7 : StableHlo.TRef sig ⟨S_, .f32⟩) (sitofp .f32),
    StableHlo.TRef.nullary (.of main_call11_cst_1 : StableHlo.TRef sig ⟨S_, .f32⟩) (constant S_ .f32 0x47C35000#32),
    StableHlo.TRef.binary (.of main_call11_cst_1 : StableHlo.TRef sig ⟨S_, .f32⟩) (.of main_call11_v7 : StableHlo.TRef sig ⟨S_, .f32⟩) (.of main_call11_v8 : StableHlo.TRef sig ⟨S_, .f32⟩) subf,
    StableHlo.TRef.nullary (.of main_call11_cst_2 : StableHlo.TRef sig ⟨S_, .f32⟩) (constant S_ .f32 0x00000000#32),
    StableHlo.TRef.binary (.of main_call11_v6 : StableHlo.TRef sig ⟨S100000x64, .f32⟩) (.of main_call11_cst_2 : StableHlo.TRef sig ⟨S_, .f32⟩) (.of main_call11_v9 : StableHlo.TRef sig ⟨S64, .f32⟩) (fun x v => Host.reduceAdd x v reducesTo_S100000x64_S64_d0 h_S_),
    StableHlo.TRef.unary (.of main_call11_v8 : StableHlo.TRef sig ⟨S_, .f32⟩) (.of main_call11_v10 : StableHlo.TRef sig ⟨S64, .f32⟩) (broadcastInDim S64 ![] bcast_S_S64),
    StableHlo.TRef.binary (.of main_call11_v9 : StableHlo.TRef sig ⟨S64, .f32⟩) (.of main_call11_v10 : StableHlo.TRef sig ⟨S64, .f32⟩) (.of main_call11_v11 : StableHlo.TRef sig ⟨S64, .f32⟩) Host.divf,
    StableHlo.TRef.nullary (.of main_call11_cst_3 : StableHlo.TRef sig ⟨S_, .f32⟩) (constant S_ .f32 0x00000000#32),
    StableHlo.TRef.binary (.of main_call11_v8 : StableHlo.TRef sig ⟨S_, .f32⟩) (.of main_call11_cst_3 : StableHlo.TRef sig ⟨S_, .f32⟩) (.of main_call11_v12 : StableHlo.TRef sig ⟨S_, .i1⟩) (cmpf .ogt),
    StableHlo.TRef.nullary (.of main_call11_cst_4 : StableHlo.TRef sig ⟨S_, .f32⟩) (constant S_ .f32 0x7FC00000#32),
    StableHlo.TRef.unary (.of main_call11_cst_4 : StableHlo.TRef sig ⟨S_, .f32⟩) (.of main_call11_call0_v0 : StableHlo.TRef sig ⟨S_, .f32⟩) id,
    StableHlo.TRef.unary (.of main_call11_call0_v0 : StableHlo.TRef sig ⟨S_, .f32⟩) (.of main_call11_call0_v1 : StableHlo.TRef sig ⟨S64, .f32⟩) (broadcastInDim S64 ![] bcast_S_S64),
    StableHlo.TRef.ternary (.of main_call11_v12 : StableHlo.TRef sig ⟨S_, .i1⟩) (.of main_call11_v11 : StableHlo.TRef sig ⟨S64, .f32⟩) (.of main_call11_call0_v1 : StableHlo.TRef sig ⟨S64, .f32⟩) (.of main_v137 : StableHlo.TRef sig ⟨S64, .f32⟩) (fun p a b => select (broadcastInDim S64 ![] bcast_S_S64 p) a b) ]

/-- Piece 12: the 39 operations up to and including the one that produces %166. -/
abbrev opsS12 : List (HloOp τ sig (Elt F)) :=
  [ StableHlo.unary main_v136 main_v138 (broadcastInDim S1x64 ![1] bcast_S64_S1x64_1 : (⟨S64, .f32⟩ : BufTy).Contents (Elt F) → (⟨S1x64, .f32⟩ : BufTy).Contents (Elt F)),
    StableHlo.unary main_v138 main_v139 (broadcastInDim S100000x64 ![0, 1] bcast_S1x64_S100000x64_0_1 : (⟨S1x64, .f32⟩ : BufTy).Contents (Elt F) → (⟨S100000x64, .f32⟩ : BufTy).Contents (Elt F)),
    StableHlo.binary main_v133 main_v139 main_v140 (subf : (⟨S100000x64, .f32⟩ : BufTy).Contents (Elt F) → (⟨S100000x64, .f32⟩ : BufTy).Contents (Elt F) → (⟨S100000x64, .f32⟩ : BufTy).Contents (Elt F)),
    StableHlo.nullary main_cst_33 (constant S_ .f32 0x3727C5AC#32),
    StableHlo.unary main_cst_33 main_v141 (broadcastInDim S64 ![] bcast_S_S64 : (⟨S_, .f32⟩ : BufTy).Contents (Elt F) → (⟨S64, .f32⟩ : BufTy).Contents (Elt F)),
    StableHlo.binary main_v137 main_v141 main_v142 (addf : (⟨S64, .f32⟩ : BufTy).Contents (Elt F) → (⟨S64, .f32⟩ : BufTy).Contents (Elt F) → (⟨S64, .f32⟩ : BufTy).Contents (Elt F)),
    StableHlo.unary main_v142 main_v143 (Host.rsqrt : (⟨S64, .f32⟩ : BufTy).Contents (Elt F) → (⟨S64, .f32⟩ : BufTy).Contents (Elt F)),
    StableHlo.unary main_v143 main_v144 (broadcastInDim S1x64 ![1] bcast_S64_S1x64_1 : (⟨S64, .f32⟩ : BufTy).Contents (Elt F) → (⟨S1x64, .f32⟩ : BufTy).Contents (Elt F)),
    StableHlo.unary main_v144 main_v145 (broadcastInDim S100000x64 ![0, 1] bcast_S1x64_S100000x64_0_1 : (⟨S1x64, .f32⟩ : BufTy).Contents (Elt F) → (⟨S100000x64, .f32⟩ : BufTy).Contents (Elt F)),
    StableHlo.binary main_v140 main_v145 main_v146 (mulf : (⟨S100000x64, .f32⟩ : BufTy).Contents (Elt F) → (⟨S100000x64, .f32⟩ : BufTy).Contents (Elt F) → (⟨S100000x64, .f32⟩ : BufTy).Contents (Elt F)),
    StableHlo.unary main_arg15 main_v147 (broadcastInDim S1x64 ![1] bcast_S64_S1x64_1 : (⟨S64, .f32⟩ : BufTy).Contents (Elt F) → (⟨S1x64, .f32⟩ : BufTy).Contents (Elt F)),
    StableHlo.unary main_v147 main_v148 (broadcastInDim S100000x64 ![0, 1] bcast_S1x64_S100000x64_0_1 : (⟨S1x64, .f32⟩ : BufTy).Contents (Elt F) → (⟨S100000x64, .f32⟩ : BufTy).Contents (Elt F)),
    StableHlo.binary main_v146 main_v148 main_v149 (mulf : (⟨S100000x64, .f32⟩ : BufTy).Contents (Elt F) → (⟨S100000x64, .f32⟩ : BufTy).Contents (Elt F) → (⟨S100000x64, .f32⟩ : BufTy).Contents (Elt F)),
    StableHlo.unary main_arg16 main_v150 (broadcastInDim S1x64 ![1] bcast_S64_S1x64_1 : (⟨S64, .f32⟩ : BufTy).Contents (Elt F) → (⟨S1x64, .f32⟩ : BufTy).Contents (Elt F)),
    StableHlo.unary main_v150 main_v151 (broadcastInDim S100000x64 ![0, 1] bcast_S1x64_S100000x64_0_1 : (⟨S1x64, .f32⟩ : BufTy).Contents (Elt F) → (⟨S100000x64, .f32⟩ : BufTy).Contents (Elt F)),
    StableHlo.binary main_v149 main_v151 main_v152 (addf : (⟨S100000x64, .f32⟩ : BufTy).Contents (Elt F) → (⟨S100000x64, .f32⟩ : BufTy).Contents (Elt F) → (⟨S100000x64, .f32⟩ : BufTy).Contents (Elt F)),
    StableHlo.nullary main_cst_34 (constant S_ .f32 0x3F800000#32),
    StableHlo.unary main_cst_34 main_v153 (broadcastInDim S1250000 ![] bcast_S_S1250000 : (⟨S_, .f32⟩ : BufTy).Contents (Elt F) → (⟨S1250000, .f32⟩ : BufTy).Contents (Elt F)),
    StableHlo.nullary main_cst_35 (constant S_ .f32 0x00000000#32),
    StableHlo.unary main_cst_35 main_v154 (broadcastInDim S100000 ![] bcast_S_S100000 : (⟨S_, .f32⟩ : BufTy).Contents (Elt F) → (⟨S100000, .f32⟩ : BufTy).Contents (Elt F)),
    StableHlo.unary main_arg3 main_v155 (broadcastInDim S1250000x1 ![0] bcast_S1250000_S1250000x1_0 : (⟨S1250000, .i32⟩ : BufTy).Contents (Elt F) → (⟨S1250000x1, .i32⟩ : BufTy).Contents (Elt F)),
    StableHlo.ternary main_v154 main_v155 main_v153 main_v156 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_36 (constant S_ .f32 0x00000000#32),
    StableHlo.unary main_cst_36 main_v157 (broadcastInDim S100000 ![] bcast_S_S100000 : (⟨S_, .f32⟩ : BufTy).Contents (Elt F) → (⟨S100000, .f32⟩ : BufTy).Contents (Elt F)),
    StableHlo.unary main_arg4 main_v158 (broadcastInDim S1250000x1 ![0] bcast_S1250000_S1250000x1_0 : (⟨S1250000, .i32⟩ : BufTy).Contents (Elt F) → (⟨S1250000x1, .i32⟩ : BufTy).Contents (Elt F)),
    StableHlo.ternary main_v157 main_v158 main_v153 main_v159 ((fun x i u => Host.scatterAdd scatter_S100000_S1250000x1_S1250000_n_0_0_1 x i u) : (⟨S100000, .f32⟩ : BufTy).Contents (Elt F) → (⟨S1250000x1, .i32⟩ : BufTy).Contents (Elt F) → (⟨S1250000, .f32⟩ : BufTy).Contents (Elt F) → (⟨S100000, .f32⟩ : BufTy).Contents (Elt F)),
    StableHlo.nullary main_cst_37 (constant S_ .f32 0x3F800000#32),
    StableHlo.TRef.unary (.of main_cst_37 : StableHlo.TRef sig ⟨S_, .f32⟩) (.of main_call12_v0 : StableHlo.TRef sig ⟨S_, .f32⟩) id,
    StableHlo.TRef.unary (.of main_call12_v0 : StableHlo.TRef sig ⟨S_, .f32⟩) (.of main_call12_v1 : StableHlo.TRef sig ⟨S100000, .f32⟩) (broadcastInDim S100000 ![] bcast_S_S100000),
    StableHlo.TRef.binary (.of main_call12_v1 : StableHlo.TRef sig ⟨S100000, .f32⟩) (.of main_v156 : StableHlo.TRef sig ⟨S100000, .f32⟩) (.of main_v160 : StableHlo.TRef sig ⟨S100000, .f32⟩) maximumf,
    StableHlo.unary main_v160 main_v161 (Host.rsqrt : (⟨S100000, .f32⟩ : BufTy).Contents (Elt F) → (⟨S100000, .f32⟩ : BufTy).Contents (Elt F)),
    StableHlo.nullary main_cst_38 (constant S_ .f32 0x3F800000#32),
    StableHlo.TRef.unary (.of main_cst_38 : StableHlo.TRef sig ⟨S_, .f32⟩) (.of main_call13_v0 : StableHlo.TRef sig ⟨S_, .f32⟩) id,
    StableHlo.TRef.unary (.of main_call13_v0 : StableHlo.TRef sig ⟨S_, .f32⟩) (.of main_call13_v1 : StableHlo.TRef sig ⟨S100000, .f32⟩) (broadcastInDim S100000 ![] bcast_S_S100000),
    StableHlo.TRef.binary (.of main_call13_v1 : StableHlo.TRef sig ⟨S100000, .f32⟩) (.of main_v159 : StableHlo.TRef sig ⟨S100000, .f32⟩) (.of main_v162 : StableHlo.TRef sig ⟨S100000, .f32⟩) maximumf,
    StableHlo.unary main_v162 main_v163 (Host.rsqrt : (⟨S100000, .f32⟩ : BufTy).Contents (Elt F) → (⟨S100000, .f32⟩ : BufTy).Contents (Elt F)),
    StableHlo.unary main_v161 main_v164 (broadcastInDim S100000x1 ![0] bcast_S100000_S100000x1_0 : (⟨S100000, .f32⟩ : BufTy).Contents (Elt F) → (⟨S100000x1, .f32⟩ : BufTy).Contents (Elt F)),
    StableHlo.unary main_v164 main_v165 (broadcastInDim S100000x64 ![0, 1] bcast_S100000x1_S100000x64_0_1 : (⟨S100000x1, .f32⟩ : BufTy).Contents (Elt F) → (⟨S100000x64, .f32⟩ : BufTy).Contents (Elt F)),
    StableHlo.binary main_v152 main_v165 main_v166 (mulf : (⟨S100000x64, .f32⟩ : BufTy).Contents (Elt F) → (⟨S100000x64, .f32⟩ : BufTy).Contents (Elt F) → (⟨S100000x64, .f32⟩ : BufTy).Contents (Elt F)) ]

/-- Piece 13: the 13 operations up to and including the one that produces %176. -/
abbrev opsS13 : List (HloOp τ sig (Elt F)) :=
  [ StableHlo.nullary main_c_39 (constantI S_ 32 0#32),
    StableHlo.unary main_c_39 main_v167 (broadcastInDim S1250000 ![] bcast_S_S1250000 : (⟨S_, .i32⟩ : BufTy).Contents (Elt F) → (⟨S1250000, .i32⟩ : BufTy).Contents (Elt F)),
    StableHlo.binary main_arg3 main_v167 main_v168 (cmpi .slt : (⟨S1250000, .i32⟩ : BufTy).Contents (Elt F) → (⟨S1250000, .i32⟩ : BufTy).Contents (Elt F) → (⟨S1250000, .i1⟩ : BufTy).Contents (Elt F)),
    StableHlo.nullary main_c_40 (constantI S_ 32 100000#32),
    StableHlo.unary main_c_40 main_v169 (broadcastInDim S1250000 ![] bcast_S_S1250000 : (⟨S_, .i32⟩ : BufTy).Contents (Elt F) → (⟨S1250000, .i32⟩ : BufTy).Contents (Elt F)),
    StableHlo.binary main_arg3 main_v169 main_v170 (addi : (⟨S1250000, .i32⟩ : BufTy).Contents (Elt F) → (⟨S1250000, .i32⟩ : BufTy).Contents (Elt F) → (⟨S1250000, .i32⟩ : BufTy).Contents (Elt F)),
    StableHlo.ternary main_v168 main_v170 main_arg3 main_v171 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    StableHlo.unary main_v171 main_v172 (broadcastInDim S1250000x1 ![0] bcast_S1250000_S1250000x1_0 : (⟨S1250000, .i32⟩ : BufTy).Contents (Elt F) → (⟨S1250000x1, .i32⟩ : BufTy).Contents (Elt F)),
    StableHlo.binary main_v166 main_v172 main_v173 ((fun x i => Host.gather gather_S100000x64_S1250000x1_S1250000x64_1_0_n_n_0_1_164 x i) : (⟨S100000x64, .f32⟩ : BufTy).Contents (Elt F) → (⟨S1250000x1, .i32⟩ : BufTy).Contents (Elt F) → (⟨S1250000x64, .f32⟩ : BufTy).Contents (Elt F)),
    StableHlo.nullary main_cst_41 (constant S_ .f32 0x00000000#32),
    StableHlo.unary main_cst_41 main_v174 (broadcastInDim S100000x64 ![] bcast_S_S100000x64 : (⟨S_, .f32⟩ : BufTy).Contents (Elt F) → (⟨S100000x64, .f32⟩ : BufTy).Contents (Elt F)),
    StableHlo.unary main_arg4 main_v175 (broadcastInDim S1250000x1 ![0] bcast_S1250000_S1250000x1_0 : (⟨S1250000, .i32⟩ : BufTy).Contents (Elt F) → (⟨S1250000x1, .i32⟩ : BufTy).Contents (Elt F)),
    StableHlo.ternary main_v174 main_v175 main_v173 main_v176 ((fun x i u => Host.scatterAdd scatter_S100000x64_S1250000x1_S1250000x64_1_0_0_1 x i u) : (⟨S100000x64, .f32⟩ : BufTy).Contents (Elt F) → (⟨S1250000x1, .i32⟩ : BufTy).Contents (Elt F) → (⟨S1250000x64, .f32⟩ : BufTy).Contents (Elt F) → (⟨S100000x64, .f32⟩ : BufTy).Contents (Elt F)) ]

/-- Piece 14: the 22 operations up to and including the one that produces %184. -/
abbrev opsS14 : List (HloOp τ sig (Elt F)) :=
  [ StableHlo.unary main_v163 main_v177 (broadcastInDim S100000x1 ![0] bcast_S100000_S100000x1_0 : (⟨S100000, .f32⟩ : BufTy).Contents (Elt F) → (⟨S100000x1, .f32⟩ : BufTy).Contents (Elt F)),
    StableHlo.unary main_v177 main_v178 (broadcastInDim S100000x64 ![0, 1] bcast_S100000x1_S100000x64_0_1 : (⟨S100000x1, .f32⟩ : BufTy).Contents (Elt F) → (⟨S100000x64, .f32⟩ : BufTy).Contents (Elt F)),
    StableHlo.binary main_v176 main_v178 main_v179 (mulf : (⟨S100000x64, .f32⟩ : BufTy).Contents (Elt F) → (⟨S100000x64, .f32⟩ : BufTy).Contents (Elt F) → (⟨S100000x64, .f32⟩ : BufTy).Contents (Elt F)),
    StableHlo.binary main_v179 main_arg17 main_v180 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg18 main_v181 (broadcastInDim S1x64 ![1] bcast_S64_S1x64_1 : (⟨S64, .f32⟩ : BufTy).Contents (Elt F) → (⟨S1x64, .f32⟩ : BufTy).Contents (Elt F)),
    StableHlo.unary main_v181 main_v182 (broadcastInDim S100000x64 ![0, 1] bcast_S1x64_S100000x64_0_1 : (⟨S1x64, .f32⟩ : BufTy).Contents (Elt F) → (⟨S100000x64, .f32⟩ : BufTy).Contents (Elt F)),
    StableHlo.binary main_v180 main_v182 main_v183 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call14_cst : StableHlo.TRef sig ⟨S_, .f32⟩) (constant S_ .f32 0x00000000#32),
    StableHlo.TRef.unary (.of main_call14_cst : StableHlo.TRef sig ⟨S_, .f32⟩) (.of main_call14_v0 : StableHlo.TRef sig ⟨S100000x64, .f32⟩) (broadcastInDim S100000x64 ![] bcast_S_S100000x64),
    StableHlo.TRef.binary (.of main_v183 : StableHlo.TRef sig ⟨S100000x64, .f32⟩) (.of main_call14_v0 : StableHlo.TRef sig ⟨S100000x64, .f32⟩) (.of main_call14_v1 : StableHlo.TRef sig ⟨S100000x64, .i1⟩) (cmpf .ogt),
    StableHlo.TRef.nullary (.of main_call14_cst_0 : StableHlo.TRef sig ⟨S_, .f32⟩) (constant S_ .f32 0x00000000#32),
    StableHlo.TRef.unary (.of main_call14_cst_0 : StableHlo.TRef sig ⟨S_, .f32⟩) (.of main_call14_v2 : StableHlo.TRef sig ⟨S100000x64, .f32⟩) (broadcastInDim S100000x64 ![] bcast_S_S100000x64),
    StableHlo.TRef.binary (.of main_v183 : StableHlo.TRef sig ⟨S100000x64, .f32⟩) (.of main_call14_v2 : StableHlo.TRef sig ⟨S100000x64, .f32⟩) (.of main_call14_v3 : StableHlo.TRef sig ⟨S100000x64, .i1⟩) (cmpf .ogt),
    StableHlo.TRef.nullary (.of main_call14_cst_1 : StableHlo.TRef sig ⟨S_, .f32⟩) (constant S_ .f32 0x00000000#32),
    StableHlo.TRef.unary (.of main_call14_cst_1 : StableHlo.TRef sig ⟨S_, .f32⟩) (.of main_call14_call0_v0 : StableHlo.TRef sig ⟨S_, .f32⟩) id,
    StableHlo.TRef.unary (.of main_call14_call0_v0 : StableHlo.TRef sig ⟨S_, .f32⟩) (.of main_call14_call0_v1 : StableHlo.TRef sig ⟨S100000x64, .f32⟩) (broadcastInDim S100000x64 ![] bcast_S_S100000x64),
    StableHlo.TRef.ternary (.of main_call14_v3 : StableHlo.TRef sig ⟨S100000x64, .i1⟩) (.of main_call14_call0_v1 : StableHlo.TRef sig ⟨S100000x64, .f32⟩) (.of main_v183 : StableHlo.TRef sig ⟨S100000x64, .f32⟩) (.of main_call14_v4 : StableHlo.TRef sig ⟨S100000x64, .f32⟩) select,
    StableHlo.TRef.unary (.of main_call14_v4 : StableHlo.TRef sig ⟨S100000x64, .f32⟩) (.of main_call14_v5 : StableHlo.TRef sig ⟨S100000x64, .f32⟩) Host.expm1,
    StableHlo.TRef.nullary (.of main_call14_cst_2 : StableHlo.TRef sig ⟨S_, .f32⟩) (constant S_ .f32 0x3F800000#32),
    StableHlo.TRef.unary (.of main_call14_cst_2 : StableHlo.TRef sig ⟨S_, .f32⟩) (.of main_call14_v6 : StableHlo.TRef sig ⟨S100000x64, .f32⟩) (broadcastInDim S100000x64 ![] bcast_S_S100000x64),
    StableHlo.TRef.binary (.of main_call14_v6 : StableHlo.TRef sig ⟨S100000x64, .f32⟩) (.of main_call14_v5 : StableHlo.TRef sig ⟨S100000x64, .f32⟩) (.of main_call14_v7 : StableHlo.TRef sig ⟨S100000x64, .f32⟩) mulf,
    StableHlo.TRef.ternary (.of main_call14_v1 : StableHlo.TRef sig ⟨S100000x64, .i1⟩) (.of main_v183 : StableHlo.TRef sig ⟨S100000x64, .f32⟩) (.of main_call14_v7 : StableHlo.TRef sig ⟨S100000x64, .f32⟩) (.of main_v184 : StableHlo.TRef sig ⟨S100000x64, .f32⟩) select ]

/-- Piece 15: the 28 operations up to and including the one that produces %188. -/
abbrev opsS15 : List (HloOp τ sig (Elt F)) :=
  [ StableHlo.nullary main_cst_42 (constant S_ .f32 0x00000000#32),
    StableHlo.binary main_v184 main_cst_42 main_v185 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_43 (constant S_ .f32 0x47C35000#32),
    StableHlo.unary main_cst_43 main_v186 (broadcastInDim S64 ![] bcast_S_S64 : (⟨S_, .f32⟩ : BufTy).Contents (Elt F) → (⟨S64, .f32⟩ : BufTy).Contents (Elt F)),
    StableHlo.binary main_v185 main_v186 main_v187 (Host.divf : (⟨S64, .f32⟩ : BufTy).Contents (Elt F) → (⟨S64, .f32⟩ : BufTy).Contents (Elt F) → (⟨S64, .f32⟩ : BufTy).Contents (Elt F)),
    StableHlo.nullary main_c_44 (constantI S_ 32 0#32),
    StableHlo.TRef.nullary (.of main_call15_cst : StableHlo.TRef sig ⟨S_, .f32⟩) (constant S_ .f32 0x00000000#32),
    StableHlo.TRef.binary (.of main_v184 : StableHlo.TRef sig ⟨S100000x64, .f32⟩) (.of main_call15_cst : StableHlo.TRef sig ⟨S_, .f32⟩) (.of main_call15_v0 : StableHlo.TRef sig ⟨S64, .f32⟩) (fun x v => Host.reduceAdd x v reducesTo_S100000x64_S64_d0 h_S_),
    StableHlo.TRef.unary (.of main_call15_v0 : StableHlo.TRef sig ⟨S64, .f32⟩) (.of main_call15_v1 : StableHlo.TRef sig ⟨S1x64, .f32⟩) (broadcastInDim S1x64 ![1] bcast_S64_S1x64_1),
    StableHlo.TRef.nullary (.of main_call15_cst_0 : StableHlo.TRef sig ⟨S_, .f32⟩) (constant S_ .f32 0x47C35000#32),
    StableHlo.TRef.unary (.of main_call15_cst_0 : StableHlo.TRef sig ⟨S_, .f32⟩) (.of main_call15_v2 : StableHlo.TRef sig ⟨S1x64, .f32⟩) (broadcastInDim S1x64 ![] bcast_S_S1x64),
    StableHlo.TRef.binary (.of main_call15_v1 : StableHlo.TRef sig ⟨S1x64, .f32⟩) (.of main_call15_v2 : StableHlo.TRef sig ⟨S1x64, .f32⟩) (.of main_call15_v3 : StableHlo.TRef sig ⟨S1x64, .f32⟩) Host.divf,
    StableHlo.TRef.unary (.of main_call15_v3 : StableHlo.TRef sig ⟨S1x64, .f32⟩) (.of main_call15_v4 : StableHlo.TRef sig ⟨S100000x64, .f32⟩) (broadcastInDim S100000x64 ![0, 1] bcast_S1x64_S100000x64_0_1),
    StableHlo.TRef.binary (.of main_v184 : StableHlo.TRef sig ⟨S100000x64, .f32⟩) (.of main_call15_v4 : StableHlo.TRef sig ⟨S100000x64, .f32⟩) (.of main_call15_v5 : StableHlo.TRef sig ⟨S100000x64, .f32⟩) subf,
    StableHlo.TRef.binary (.of main_call15_v5 : StableHlo.TRef sig ⟨S100000x64, .f32⟩) (.of main_call15_v5 : StableHlo.TRef sig ⟨S100000x64, .f32⟩) (.of main_call15_v6 : StableHlo.TRef sig ⟨S100000x64, .f32⟩) mulf,
    StableHlo.TRef.unary (.of main_c_44 : StableHlo.TRef sig ⟨S_, .i32⟩) (.of main_call15_v7 : StableHlo.TRef sig ⟨S_, .f32⟩) (sitofp .f32),
    StableHlo.TRef.nullary (.of main_call15_cst_1 : StableHlo.TRef sig ⟨S_, .f32⟩) (constant S_ .f32 0x47C35000#32),
    StableHlo.TRef.binary (.of main_call15_cst_1 : StableHlo.TRef sig ⟨S_, .f32⟩) (.of main_call15_v7 : StableHlo.TRef sig ⟨S_, .f32⟩) (.of main_call15_v8 : StableHlo.TRef sig ⟨S_, .f32⟩) subf,
    StableHlo.TRef.nullary (.of main_call15_cst_2 : StableHlo.TRef sig ⟨S_, .f32⟩) (constant S_ .f32 0x00000000#32),
    StableHlo.TRef.binary (.of main_call15_v6 : StableHlo.TRef sig ⟨S100000x64, .f32⟩) (.of main_call15_cst_2 : StableHlo.TRef sig ⟨S_, .f32⟩) (.of main_call15_v9 : StableHlo.TRef sig ⟨S64, .f32⟩) (fun x v => Host.reduceAdd x v reducesTo_S100000x64_S64_d0 h_S_),
    StableHlo.TRef.unary (.of main_call15_v8 : StableHlo.TRef sig ⟨S_, .f32⟩) (.of main_call15_v10 : StableHlo.TRef sig ⟨S64, .f32⟩) (broadcastInDim S64 ![] bcast_S_S64),
    StableHlo.TRef.binary (.of main_call15_v9 : StableHlo.TRef sig ⟨S64, .f32⟩) (.of main_call15_v10 : StableHlo.TRef sig ⟨S64, .f32⟩) (.of main_call15_v11 : StableHlo.TRef sig ⟨S64, .f32⟩) Host.divf,
    StableHlo.TRef.nullary (.of main_call15_cst_3 : StableHlo.TRef sig ⟨S_, .f32⟩) (constant S_ .f32 0x00000000#32),
    StableHlo.TRef.binary (.of main_call15_v8 : StableHlo.TRef sig ⟨S_, .f32⟩) (.of main_call15_cst_3 : StableHlo.TRef sig ⟨S_, .f32⟩) (.of main_call15_v12 : StableHlo.TRef sig ⟨S_, .i1⟩) (cmpf .ogt),
    StableHlo.TRef.nullary (.of main_call15_cst_4 : StableHlo.TRef sig ⟨S_, .f32⟩) (constant S_ .f32 0x7FC00000#32),
    StableHlo.TRef.unary (.of main_call15_cst_4 : StableHlo.TRef sig ⟨S_, .f32⟩) (.of main_call15_call0_v0 : StableHlo.TRef sig ⟨S_, .f32⟩) id,
    StableHlo.TRef.unary (.of main_call15_call0_v0 : StableHlo.TRef sig ⟨S_, .f32⟩) (.of main_call15_call0_v1 : StableHlo.TRef sig ⟨S64, .f32⟩) (broadcastInDim S64 ![] bcast_S_S64),
    StableHlo.TRef.ternary (.of main_call15_v12 : StableHlo.TRef sig ⟨S_, .i1⟩) (.of main_call15_v11 : StableHlo.TRef sig ⟨S64, .f32⟩) (.of main_call15_call0_v1 : StableHlo.TRef sig ⟨S64, .f32⟩) (.of main_v188 : StableHlo.TRef sig ⟨S64, .f32⟩) (fun p a b => select (broadcastInDim S64 ![] bcast_S_S64 p) a b) ]

/-- Piece 16: the 16 operations up to and including the one that produces %203. -/
abbrev opsS16 : List (HloOp τ sig (Elt F)) :=
  [ StableHlo.unary main_v187 main_v189 (broadcastInDim S1x64 ![1] bcast_S64_S1x64_1 : (⟨S64, .f32⟩ : BufTy).Contents (Elt F) → (⟨S1x64, .f32⟩ : BufTy).Contents (Elt F)),
    StableHlo.unary main_v189 main_v190 (broadcastInDim S100000x64 ![0, 1] bcast_S1x64_S100000x64_0_1 : (⟨S1x64, .f32⟩ : BufTy).Contents (Elt F) → (⟨S100000x64, .f32⟩ : BufTy).Contents (Elt F)),
    StableHlo.binary main_v184 main_v190 main_v191 (subf : (⟨S100000x64, .f32⟩ : BufTy).Contents (Elt F) → (⟨S100000x64, .f32⟩ : BufTy).Contents (Elt F) → (⟨S100000x64, .f32⟩ : BufTy).Contents (Elt F)),
    StableHlo.nullary main_cst_45 (constant S_ .f32 0x3727C5AC#32),
    StableHlo.unary main_cst_45 main_v192 (broadcastInDim S64 ![] bcast_S_S64 : (⟨S_, .f32⟩ : BufTy).Contents (Elt F) → (⟨S64, .f32⟩ : BufTy).Contents (Elt F)),
    StableHlo.binary main_v188 main_v192 main_v193 (addf : (⟨S64, .f32⟩ : BufTy).Contents (Elt F) → (⟨S64, .f32⟩ : BufTy).Contents (Elt F) → (⟨S64, .f32⟩ : BufTy).Contents (Elt F)),
    StableHlo.unary main_v193 main_v194 (Host.rsqrt : (⟨S64, .f32⟩ : BufTy).Contents (Elt F) → (⟨S64, .f32⟩ : BufTy).Contents (Elt F)),
    StableHlo.unary main_v194 main_v195 (broadcastInDim S1x64 ![1] bcast_S64_S1x64_1 : (⟨S64, .f32⟩ : BufTy).Contents (Elt F) → (⟨S1x64, .f32⟩ : BufTy).Contents (Elt F)),
    StableHlo.unary main_v195 main_v196 (broadcastInDim S100000x64 ![0, 1] bcast_S1x64_S100000x64_0_1 : (⟨S1x64, .f32⟩ : BufTy).Contents (Elt F) → (⟨S100000x64, .f32⟩ : BufTy).Contents (Elt F)),
    StableHlo.binary main_v191 main_v196 main_v197 (mulf : (⟨S100000x64, .f32⟩ : BufTy).Contents (Elt F) → (⟨S100000x64, .f32⟩ : BufTy).Contents (Elt F) → (⟨S100000x64, .f32⟩ : BufTy).Contents (Elt F)),
    StableHlo.unary main_arg19 main_v198 (broadcastInDim S1x64 ![1] bcast_S64_S1x64_1 : (⟨S64, .f32⟩ : BufTy).Contents (Elt F) → (⟨S1x64, .f32⟩ : BufTy).Contents (Elt F)),
    StableHlo.unary main_v198 main_v199 (broadcastInDim S100000x64 ![0, 1] bcast_S1x64_S100000x64_0_1 : (⟨S1x64, .f32⟩ : BufTy).Contents (Elt F) → (⟨S100000x64, .f32⟩ : BufTy).Contents (Elt F)),
    StableHlo.binary main_v197 main_v199 main_v200 (mulf : (⟨S100000x64, .f32⟩ : BufTy).Contents (Elt F) → (⟨S100000x64, .f32⟩ : BufTy).Contents (Elt F) → (⟨S100000x64, .f32⟩ : BufTy).Contents (Elt F)),
    StableHlo.unary main_arg20 main_v201 (broadcastInDim S1x64 ![1] bcast_S64_S1x64_1 : (⟨S64, .f32⟩ : BufTy).Contents (Elt F) → (⟨S1x64, .f32⟩ : BufTy).Contents (Elt F)),
    StableHlo.unary main_v201 main_v202 (broadcastInDim S100000x64 ![0, 1] bcast_S1x64_S100000x64_0_1 : (⟨S1x64, .f32⟩ : BufTy).Contents (Elt F) → (⟨S100000x64, .f32⟩ : BufTy).Contents (Elt F)),
    StableHlo.binary main_v200 main_v202 main_v203 (addf : (⟨S100000x64, .f32⟩ : BufTy).Contents (Elt F) → (⟨S100000x64, .f32⟩ : BufTy).Contents (Elt F) → (⟨S100000x64, .f32⟩ : BufTy).Contents (Elt F)) ]

/-- Piece 17: the 37 operations up to and including the one that produces %236. -/
abbrev opsS17 : List (HloOp τ sig (Elt F)) :=
  [ StableHlo.binary main_v101 main_v203 main_v204 (subf : (⟨S100000x64, .f32⟩ : BufTy).Contents (Elt F) → (⟨S100000x64, .f32⟩ : BufTy).Contents (Elt F) → (⟨S100000x64, .f32⟩ : BufTy).Contents (Elt F)),
    StableHlo.unary main_v204 main_v205 (Host.absf : (⟨S100000x64, .f32⟩ : BufTy).Contents (Elt F) → (⟨S100000x64, .f32⟩ : BufTy).Contents (Elt F)),
    StableHlo.binary main_v101 main_v203 main_v206 (mulf : (⟨S100000x64, .f32⟩ : BufTy).Contents (Elt F) → (⟨S100000x64, .f32⟩ : BufTy).Contents (Elt F) → (⟨S100000x64, .f32⟩ : BufTy).Contents (Elt F)),
    StableHlo.nary ![main_v101, main_v203, main_v205, main_v206] main_v207 (fun u => concatenate S100000x256 1 [⟨S100000x64, u 0⟩, ⟨S100000x64, u 1⟩, ⟨S100000x64, u 2⟩, ⟨S100000x64, u 3⟩] concatenates_S100000x64_S100000x64_S100000x64_S100000x64_S100000x256_d1),
    StableHlo.binary main_v207 main_arg21 main_v208 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    StableHlo.unary main_arg22 main_v209 (broadcastInDim S1x64 ![1] bcast_S64_S1x64_1 : (⟨S64, .f32⟩ : BufTy).Contents (Elt F) → (⟨S1x64, .f32⟩ : BufTy).Contents (Elt F)),
    StableHlo.unary main_v209 main_v210 (broadcastInDim S100000x64 ![0, 1] bcast_S1x64_S100000x64_0_1 : (⟨S1x64, .f32⟩ : BufTy).Contents (Elt F) → (⟨S100000x64, .f32⟩ : BufTy).Contents (Elt F)),
    StableHlo.binary main_v208 main_v210 main_v211 (addf : (⟨S100000x64, .f32⟩ : BufTy).Contents (Elt F) → (⟨S100000x64, .f32⟩ : BufTy).Contents (Elt F) → (⟨S100000x64, .f32⟩ : BufTy).Contents (Elt F)),
    StableHlo.nullary main_cst_46 (constant S_ .f32 0x00000000#32),
    StableHlo.unary main_cst_46 main_v212 (broadcastInDim S100000x64 ![] bcast_S_S100000x64 : (⟨S_, .f32⟩ : BufTy).Contents (Elt F) → (⟨S100000x64, .f32⟩ : BufTy).Contents (Elt F)),
    StableHlo.binary main_v211 main_v212 main_v213 (cmpf .ogt : (⟨S100000x64, .f32⟩ : BufTy).Contents (Elt F) → (⟨S100000x64, .f32⟩ : BufTy).Contents (Elt F) → (⟨S100000x64, .i1⟩ : BufTy).Contents (Elt F)),
    StableHlo.unary main_arg23 main_v214 (broadcastInDim S1x1 ![1] bcast_S1_S1x1_1 : (⟨S1, .f32⟩ : BufTy).Contents (Elt F) → (⟨S1x1, .f32⟩ : BufTy).Contents (Elt F)),
    StableHlo.unary main_v214 main_v215 (broadcastInDim S100000x64 ![0, 1] bcast_S1x1_S100000x64_0_1 : (⟨S1x1, .f32⟩ : BufTy).Contents (Elt F) → (⟨S100000x64, .f32⟩ : BufTy).Contents (Elt F)),
    StableHlo.binary main_v215 main_v211 main_v216 (mulf : (⟨S100000x64, .f32⟩ : BufTy).Contents (Elt F) → (⟨S100000x64, .f32⟩ : BufTy).Contents (Elt F) → (⟨S100000x64, .f32⟩ : BufTy).Contents (Elt F)),
    StableHlo.TRef.ternary (.of main_v213 : StableHlo.TRef sig ⟨S100000x64, .i1⟩) (.of main_v211 : StableHlo.TRef sig ⟨S100000x64, .f32⟩) (.of main_v216 : StableHlo.TRef sig ⟨S100000x64, .f32⟩) (.of main_v217 : StableHlo.TRef sig ⟨S100000x64, .f32⟩) select,
    StableHlo.binary main_v217 main_arg24 main_v218 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg25 main_v219 (broadcastInDim S1x64 ![1] bcast_S64_S1x64_1 : (⟨S64, .f32⟩ : BufTy).Contents (Elt F) → (⟨S1x64, .f32⟩ : BufTy).Contents (Elt F)),
    StableHlo.unary main_v219 main_v220 (broadcastInDim S100000x64 ![0, 1] bcast_S1x64_S100000x64_0_1 : (⟨S1x64, .f32⟩ : BufTy).Contents (Elt F) → (⟨S100000x64, .f32⟩ : BufTy).Contents (Elt F)),
    StableHlo.binary main_v218 main_v220 main_v221 (addf : (⟨S100000x64, .f32⟩ : BufTy).Contents (Elt F) → (⟨S100000x64, .f32⟩ : BufTy).Contents (Elt F) → (⟨S100000x64, .f32⟩ : BufTy).Contents (Elt F)),
    StableHlo.unary main_v221 main_v222 (Host.negf : (⟨S100000x64, .f32⟩ : BufTy).Contents (Elt F) → (⟨S100000x64, .f32⟩ : BufTy).Contents (Elt F)),
    StableHlo.unary main_v222 main_v223 (Host.exp : (⟨S100000x64, .f32⟩ : BufTy).Contents (Elt F) → (⟨S100000x64, .f32⟩ : BufTy).Contents (Elt F)),
    StableHlo.nullary main_cst_47 (constant S_ .f32 0x3F800000#32),
    StableHlo.unary main_cst_47 main_v224 (broadcastInDim S100000x64 ![] bcast_S_S100000x64 : (⟨S_, .f32⟩ : BufTy).Contents (Elt F) → (⟨S100000x64, .f32⟩ : BufTy).Contents (Elt F)),
    StableHlo.binary main_v224 main_v223 main_v225 (addf : (⟨S100000x64, .f32⟩ : BufTy).Contents (Elt F) → (⟨S100000x64, .f32⟩ : BufTy).Contents (Elt F) → (⟨S100000x64, .f32⟩ : BufTy).Contents (Elt F)),
    StableHlo.nullary main_cst_48 (constant S_ .f32 0x3F800000#32),
    StableHlo.unary main_cst_48 main_v226 (broadcastInDim S100000x64 ![] bcast_S_S100000x64 : (⟨S_, .f32⟩ : BufTy).Contents (Elt F) → (⟨S100000x64, .f32⟩ : BufTy).Contents (Elt F)),
    StableHlo.binary main_v226 main_v225 main_v227 (Host.divf : (⟨S100000x64, .f32⟩ : BufTy).Contents (Elt F) → (⟨S100000x64, .f32⟩ : BufTy).Contents (Elt F) → (⟨S100000x64, .f32⟩ : BufTy).Contents (Elt F)),
    StableHlo.binary main_v227 main_v101 main_v228 (mulf : (⟨S100000x64, .f32⟩ : BufTy).Contents (Elt F) → (⟨S100000x64, .f32⟩ : BufTy).Contents (Elt F) → (⟨S100000x64, .f32⟩ : BufTy).Contents (Elt F)),
    StableHlo.nullary main_cst_49 (constant S_ .f32 0x3F800000#32),
    StableHlo.unary main_cst_49 main_v229 (broadcastInDim S100000x64 ![] bcast_S_S100000x64 : (⟨S_, .f32⟩ : BufTy).Contents (Elt F) → (⟨S100000x64, .f32⟩ : BufTy).Contents (Elt F)),
    StableHlo.binary main_v229 main_v227 main_v230 (subf : (⟨S100000x64, .f32⟩ : BufTy).Contents (Elt F) → (⟨S100000x64, .f32⟩ : BufTy).Contents (Elt F) → (⟨S100000x64, .f32⟩ : BufTy).Contents (Elt F)),
    StableHlo.binary main_v230 main_v203 main_v231 (mulf : (⟨S100000x64, .f32⟩ : BufTy).Contents (Elt F) → (⟨S100000x64, .f32⟩ : BufTy).Contents (Elt F) → (⟨S100000x64, .f32⟩ : BufTy).Contents (Elt F)),
    StableHlo.binary main_v228 main_v231 main_v232 (addf : (⟨S100000x64, .f32⟩ : BufTy).Contents (Elt F) → (⟨S100000x64, .f32⟩ : BufTy).Contents (Elt F) → (⟨S100000x64, .f32⟩ : BufTy).Contents (Elt F)),
    StableHlo.binary main_v232 main_arg26 main_v233 ((fun l r => Host.dotGeneral dot_S100000x64_S64x129_S100000x129_1_0_0_1_n_n none l r) : (⟨S100000x64, .f32⟩ : BufTy).Contents (Elt F) → (⟨S64x129, .f32⟩ : BufTy).Contents (Elt F) → (⟨S100000x129, .f32⟩ : BufTy).Contents (Elt F)),
    StableHlo.unary main_arg27 main_v234 (broadcastInDim S1x129 ![1] bcast_S129_S1x129_1 : (⟨S129, .f32⟩ : BufTy).Contents (Elt F) → (⟨S1x129, .f32⟩ : BufTy).Contents (Elt F)),
    StableHlo.unary main_v234 main_v235 (broadcastInDim S100000x129 ![0, 1] bcast_S1x129_S100000x129_0_1 : (⟨S1x129, .f32⟩ : BufTy).Contents (Elt F) → (⟨S100000x129, .f32⟩ : BufTy).Contents (Elt F)),
    StableHlo.binary main_v233 main_v235 main_v236 (addf : (⟨S100000x129, .f32⟩ : BufTy).Contents (Elt F) → (⟨S100000x129, .f32⟩ : BufTy).Contents (Elt F) → (⟨S100000x129, .f32⟩ : BufTy).Contents (Elt F)) ]

/-- The whole line: the seventeen pieces in order. -/
abbrev ops : List (HloOp τ sig (Elt F)) :=
  opsS1 ++ (opsS2 ++ (opsS3 ++ (opsS4 ++ (opsS5 ++ (opsS6 ++ (opsS7 ++ (opsS8 ++ (opsS9 ++ (opsS10 ++ (opsS11 ++ (opsS12 ++ (opsS13 ++ (opsS14 ++ (opsS15 ++ (opsS16 ++ (opsS17))))))))))))))))

/-! ## The buffers each piece writes -/

/-- The buffers piece 1 writes, in order. -/
abbrev WS1 : List (Ref sig .tc) :=
  [main_cst, main_v0, main_cst_0, main_v1, main_v2, main_v3, main_cst_1, main_v4, main_v5, main_v6, main_cst_2, main_call0_v0, main_call0_v1, main_v7, main_v8, main_cst_3, main_call1_v0, main_call1_v1, main_v9, main_v10, main_v11, main_v12, main_v13, main_c, main_v14, main_v15, main_c_4, main_v16, main_v17, main_v18, main_v19, main_v20, main_cst_5, main_v21, main_v22, main_v23]

/-- The buffers piece 2 writes, in order. -/
abbrev WS2 : List (Ref sig .tc) :=
  [main_v24, main_v25, main_v26, main_v27, main_v28, main_v29, main_v30, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v31]

/-- The buffers piece 3 writes, in order. -/
abbrev WS3 : List (Ref sig .tc) :=
  [main_cst_6, main_v32, main_cst_7, main_v33, main_v34, main_c_8, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v35]

/-- The buffers piece 4 writes, in order. -/
abbrev WS4 : List (Ref sig .tc) :=
  [main_v36, main_v37, main_v38, main_cst_9, main_v39, main_v40, main_v41, main_v42, main_v43, main_v44, main_v45, main_v46, main_v47, main_v48, main_v49, main_v50, main_cst_10, main_v51, main_cst_11, main_v52, main_v53, main_v54, main_cst_12, main_v55, main_v56, main_v57, main_cst_13, main_call4_v0, main_call4_v1, main_v58, main_v59, main_cst_14, main_call5_v0, main_call5_v1, main_v60, main_v61, main_v62, main_v63, main_v64]

/-- The buffers piece 5 writes, in order. -/
abbrev WS5 : List (Ref sig .tc) :=
  [main_c_15, main_v65, main_v66, main_c_16, main_v67, main_v68, main_v69, main_v70, main_v71, main_cst_17, main_v72, main_v73, main_v74]

/-- The buffers piece 6 writes, in order. -/
abbrev WS6 : List (Ref sig .tc) :=
  [main_v75, main_v76, main_v77, main_v78, main_v79, main_v80, main_v81, main_call6_cst, main_call6_v0, main_call6_v1, main_call6_cst_0, main_call6_v2, main_call6_v3, main_call6_cst_1, main_call6_call0_v0, main_call6_call0_v1, main_call6_v4, main_call6_v5, main_call6_cst_2, main_call6_v6, main_call6_v7, main_v82]

/-- The buffers piece 7 writes, in order. -/
abbrev WS7 : List (Ref sig .tc) :=
  [main_cst_18, main_v83, main_cst_19, main_v84, main_v85, main_c_20, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v86]

/-- The buffers piece 8 writes, in order. -/
abbrev WS8 : List (Ref sig .tc) :=
  [main_v87, main_v88, main_v89, main_cst_21, main_v90, main_v91, main_v92, main_v93, main_v94, main_v95, main_v96, main_v97, main_v98, main_v99, main_v100, main_v101]

/-- The buffers piece 9 writes, in order. -/
abbrev WS9 : List (Ref sig .tc) :=
  [main_cst_22, main_v102, main_cst_23, main_v103, main_v104, main_v105, main_cst_24, main_v106, main_v107, main_v108, main_cst_25, main_call8_v0, main_call8_v1, main_v109, main_v110, main_cst_26, main_call9_v0, main_call9_v1, main_v111, main_v112, main_v113, main_v114, main_v115, main_c_27, main_v116, main_v117, main_c_28, main_v118, main_v119, main_v120, main_v121, main_v122, main_cst_29, main_v123, main_v124, main_v125]

/-- The buffers piece 10 writes, in order. -/
abbrev WS10 : List (Ref sig .tc) :=
  [main_v126, main_v127, main_v128, main_v129, main_v130, main_v131, main_v132, main_call10_cst, main_call10_v0, main_call10_v1, main_call10_cst_0, main_call10_v2, main_call10_v3, main_call10_cst_1, main_call10_call0_v0, main_call10_call0_v1, main_call10_v4, main_call10_v5, main_call10_cst_2, main_call10_v6, main_call10_v7, main_v133]

/-- The buffers piece 11 writes, in order. -/
abbrev WS11 : List (Ref sig .tc) :=
  [main_cst_30, main_v134, main_cst_31, main_v135, main_v136, main_c_32, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v137]

/-- The buffers piece 12 writes, in order. -/
abbrev WS12 : List (Ref sig .tc) :=
  [main_v138, main_v139, main_v140, main_cst_33, main_v141, main_v142, main_v143, main_v144, main_v145, main_v146, main_v147, main_v148, main_v149, main_v150, main_v151, main_v152, main_cst_34, main_v153, main_cst_35, main_v154, main_v155, main_v156, main_cst_36, main_v157, main_v158, main_v159, main_cst_37, main_call12_v0, main_call12_v1, main_v160, main_v161, main_cst_38, main_call13_v0, main_call13_v1, main_v162, main_v163, main_v164, main_v165, main_v166]

/-- The buffers piece 13 writes, in order. -/
abbrev WS13 : List (Ref sig .tc) :=
  [main_c_39, main_v167, main_v168, main_c_40, main_v169, main_v170, main_v171, main_v172, main_v173, main_cst_41, main_v174, main_v175, main_v176]

/-- The buffers piece 14 writes, in order. -/
abbrev WS14 : List (Ref sig .tc) :=
  [main_v177, main_v178, main_v179, main_v180, main_v181, main_v182, main_v183, main_call14_cst, main_call14_v0, main_call14_v1, main_call14_cst_0, main_call14_v2, main_call14_v3, main_call14_cst_1, main_call14_call0_v0, main_call14_call0_v1, main_call14_v4, main_call14_v5, main_call14_cst_2, main_call14_v6, main_call14_v7, main_v184]

/-- The buffers piece 15 writes, in order. -/
abbrev WS15 : List (Ref sig .tc) :=
  [main_cst_42, main_v185, main_cst_43, main_v186, main_v187, main_c_44, main_call15_cst, main_call15_v0, main_call15_v1, main_call15_cst_0, main_call15_v2, main_call15_v3, main_call15_v4, main_call15_v5, main_call15_v6, main_call15_v7, main_call15_cst_1, main_call15_v8, main_call15_cst_2, main_call15_v9, main_call15_v10, main_call15_v11, main_call15_cst_3, main_call15_v12, main_call15_cst_4, main_call15_call0_v0, main_call15_call0_v1, main_v188]

/-- The buffers piece 16 writes, in order. -/
abbrev WS16 : List (Ref sig .tc) :=
  [main_v189, main_v190, main_v191, main_cst_45, main_v192, main_v193, main_v194, main_v195, main_v196, main_v197, main_v198, main_v199, main_v200, main_v201, main_v202, main_v203]

/-- The buffers piece 17 writes, in order. -/
abbrev WS17 : List (Ref sig .tc) :=
  [main_v204, main_v205, main_v206, main_v207, main_v208, main_v209, main_v210, main_v211, main_cst_46, main_v212, main_v213, main_v214, main_v215, main_v216, main_v217, main_v218, main_v219, main_v220, main_v221, main_v222, main_v223, main_cst_47, main_v224, main_v225, main_cst_48, main_v226, main_v227, main_v228, main_cst_49, main_v229, main_v230, main_v231, main_v232, main_v233, main_v234, main_v235, main_v236]

/-- Every buffer the line writes. -/
abbrev W : List (Ref sig .tc) :=
  WS1 ++ (WS2 ++ (WS3 ++ (WS4 ++ (WS5 ++ (WS6 ++ (WS7 ++ (WS8 ++ (WS9 ++ (WS10 ++ (WS11 ++ (WS12 ++ (WS13 ++ (WS14 ++ (WS15 ++ (WS16 ++ (WS17))))))))))))))))

end Cert.ReferenceIdeal.Hand

end
-- ==== Proof.RefRun.lean ====
/- The reference program's run.

The printed entry function is the flat line `ops` of the operations module: window by window it is the chain of
the stretches between calls (the calls' bodies unfold to their own stretches), a chain of lines is the line of
the concatenation, and the two ways of cutting the line list the same operations. Every operation touches
TensorCore buffers only and determines what it writes, so the library's run of a straight line applies: every
execution terminates with each buffer at the fold of the operations over the launch contents. No operation
writes an argument's buffer, so the arguments end as launched. -/
import proofs.«107288_j13769665151544_2_alg».proof.Proof.RefOps
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Lines and chains -/

/-- A chain of straight lines ending in a straight line is the straight line of the concatenation. -/
theorem chainK_seq {nD : Nat} {τ : Topo} {sig : RefSig} {Val : EltTy → Type} {Λ : Labels}
    (L : List (List (HloOp τ sig Val))) (l : List (HloOp τ sig Val)) :
    (Pipeline.chainK (L.map seq) (seq l) : Prog (TpuEff nD τ sig Val Λ .tc) PUnit) = seq (L.flatten ++ l) := by
  induction L with
  | nil => rfl
  | cons x xs ih => simp only [List.map_cons, Pipeline.chainK, ih, List.flatten_cons, List.append_assoc, seq_append]

/-- The contents after two lines run one after the other: the second's fold over the first's. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons, ih]

/-- An operation that writes the one buffer `y`, a member of the list `W`, writes inside `W`. -/
theorem writes_sub_of_mem {τ : Topo} {sig : RefSig} {Val : EltTy → Type} {op : HloOp τ sig Val} {W : List (Ref sig .tc)}
    (y : Ref sig .tc) (h : op.writes = {Proc.devRef .tc y}) (hy : y ∈ W) :
    op.writes ⊆ (W.map (Proc.devRef (τ := τ) .tc)).toFinset := by
  rw [h, Finset.singleton_subset_iff, List.mem_toFinset]
  exact List.mem_map.2 ⟨y, hy, rfl⟩

/-! ## The entry function is the line -/

/-- Window 0 is the chain of its stretches. -/
theorem main_part0_chain (c : Dev nD) : main_part0 (F := F) c = (Pipeline.chainK
  [ seq it0,
    seq it1,
    seq it2,
    seq it3,
    seq it4,
    seq it5,
    seq it6,
    seq it7 ]
  (seq it8) : Prog (TpuEff nD τ sig (Elt F) (Pipeline.Sig Λ₀ (Fin 0) fun p => (pcfgs (F := F) p).Adm) .tc) PUnit) := by
  chain_rfl

/-- Window 0 is one straight line. -/
theorem main_part0_eq (c : Dev nD) : main_part0 (F := F) c
    = seq (List.flatten [it0, it1, it2, it3, it4, it5, it6, it7] ++ it8) :=
  (main_part0_chain c).trans (chainK_seq [it0, it1, it2, it3, it4, it5, it6, it7] it8)

/-- Window 1 is the chain of its stretches. -/
theorem main_part1_chain (c : Dev nD) : main_part1 (F := F) c = (Pipeline.chainK
  [ seq it9,
    seq it10,
    seq it11,
    seq it12,
    seq it13,
    seq it14,
    seq it15,
    seq it16 ]
  (seq it17) : Prog (TpuEff nD τ sig (Elt F) (Pipeline.Sig Λ₀ (Fin 0) fun p => (pcfgs (F := F) p).Adm) .tc) PUnit) := by
  chain_rfl

/-- Window 1 is one straight line. -/
theorem main_part1_eq (c : Dev nD) : main_part1 (F := F) c
    = seq (List.flatten [it9, it10, it11, it12, it13, it14, it15, it16] ++ it17) :=
  (main_part1_chain c).trans (chainK_seq [it9, it10, it11, it12, it13, it14, it15, it16] it17)

/-- Window 2 is the chain of its stretches. -/
theorem main_part2_chain (c : Dev nD) : main_part2 (F := F) c = (Pipeline.chainK
  [ seq it18,
    seq it19,
    seq it20,
    seq it21,
    seq it22,
    seq it23,
    seq it24,
    seq it25 ]
  (seq it26) : Prog (TpuEff nD τ sig (Elt F) (Pipeline.Sig Λ₀ (Fin 0) fun p => (pcfgs (F := F) p).Adm) .tc) PUnit) := by
  chain_rfl

/-- Window 2 is one straight line. -/
theorem main_part2_eq (c : Dev nD) : main_part2 (F := F) c
    = seq (List.flatten [it18, it19, it20, it21, it22, it23, it24, it25] ++ it26) :=
  (main_part2_chain c).trans (chainK_seq [it18, it19, it20, it21, it22, it23, it24, it25] it26)

/-- Window 3 is the chain of its stretches. -/
theorem main_part3_chain (c : Dev nD) : main_part3 (F := F) c = (Pipeline.chainK
  [ seq it27,
    seq it28,
    seq it29,
    seq it30,
    seq it31,
    seq it32,
    seq it33,
    seq it34 ]
  (seq it35) : Prog (TpuEff nD τ sig (Elt F) (Pipeline.Sig Λ₀ (Fin 0) fun p => (pcfgs (F := F) p).Adm) .tc) PUnit) := by
  chain_rfl

/-- Window 3 is one straight line. -/
theorem main_part3_eq (c : Dev nD) : main_part3 (F := F) c
    = seq (List.flatten [it27, it28, it29, it30, it31, it32, it33, it34] ++ it35) :=
  (main_part3_chain c).trans (chainK_seq [it27, it28, it29, it30, it31, it32, it33, it34] it35)

/-- Window 4 is the chain of its stretches. -/
theorem main_part4_chain (c : Dev nD) : main_part4 (F := F) c = (Pipeline.chainK
  [ seq it36,
    seq it37 ]
  (seq it38) : Prog (TpuEff nD τ sig (Elt F) (Pipeline.Sig Λ₀ (Fin 0) fun p => (pcfgs (F := F) p).Adm) .tc) PUnit) := by
  chain_rfl

/-- Window 4 is one straight line. -/
theorem main_part4_eq (c : Dev nD) : main_part4 (F := F) c
    = seq (List.flatten [it36, it37] ++ it38) :=
  (main_part4_chain c).trans (chainK_seq [it36, it37] it38)

/-- The two cuttings list the same operations: the windows' stretches in order are the seventeen pieces in order. -/
theorem lists_eq : ((List.flatten [it0, it1, it2, it3, it4, it5, it6, it7] ++ it8) ++ ((List.flatten [it9, it10, it11, it12, it13, it14, it15, it16] ++ it17) ++ ((List.flatten [it18, it19, it20, it21, it22, it23, it24, it25] ++ it26) ++ ((List.flatten [it27, it28, it29, it30, it31, it32, it33, it34] ++ it35) ++ ((List.flatten [it36, it37] ++ it38))))) : List (HloOp τ sig (Elt F))) = ops := by
  chain_rfl

/-- The entry function is the straight line `ops`. -/
theorem main_eq (c : Dev nD) : main (F := F) c = seq (ops (F := F)) := by
  have h : main (F := F) c = (main_part0 c >>= fun _ => main_part1 c >>= fun _ => main_part2 c >>= fun _ =>
      main_part3 c >>= fun _ => main_part4 c) := rfl
  rw [h, main_part0_eq, main_part1_eq, main_part2_eq, main_part3_eq, main_part4_eq,
    ← seq_append, ← seq_append, ← seq_append, ← seq_append]
  exact congrArg seq lists_eq

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

theorem sub_S1 : (opsS1 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., nullary_bufs_sub .., unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem fresh_S1 : (opsS1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem writes_S1 : (opsS1 : List (HloOp τ sig (Elt F))).Forall fun op =>
    op.writes ⊆ ((WS1).map (Proc.devRef (τ := τ) .tc)).toFinset :=
  ⟨writes_sub_of_mem main_cst rfl (by decide),
   writes_sub_of_mem main_v0 rfl (by decide),
   writes_sub_of_mem main_cst_0 rfl (by decide),
   writes_sub_of_mem main_v1 rfl (by decide),
   writes_sub_of_mem main_v2 rfl (by decide),
   writes_sub_of_mem main_v3 rfl (by decide),
   writes_sub_of_mem main_cst_1 rfl (by decide),
   writes_sub_of_mem main_v4 rfl (by decide),
   writes_sub_of_mem main_v5 rfl (by decide),
   writes_sub_of_mem main_v6 rfl (by decide),
   writes_sub_of_mem main_cst_2 rfl (by decide),
   writes_sub_of_mem main_call0_v0 rfl (by decide),
   writes_sub_of_mem main_call0_v1 rfl (by decide),
   writes_sub_of_mem main_v7 rfl (by decide),
   writes_sub_of_mem main_v8 rfl (by decide),
   writes_sub_of_mem main_cst_3 rfl (by decide),
   writes_sub_of_mem main_call1_v0 rfl (by decide),
   writes_sub_of_mem main_call1_v1 rfl (by decide),
   writes_sub_of_mem main_v9 rfl (by decide),
   writes_sub_of_mem main_v10 rfl (by decide),
   writes_sub_of_mem main_v11 rfl (by decide),
   writes_sub_of_mem main_v12 rfl (by decide),
   writes_sub_of_mem main_v13 rfl (by decide),
   writes_sub_of_mem main_c rfl (by decide),
   writes_sub_of_mem main_v14 rfl (by decide),
   writes_sub_of_mem main_v15 rfl (by decide),
   writes_sub_of_mem main_c_4 rfl (by decide),
   writes_sub_of_mem main_v16 rfl (by decide),
   writes_sub_of_mem main_v17 rfl (by decide),
   writes_sub_of_mem main_v18 rfl (by decide),
   writes_sub_of_mem main_v19 rfl (by decide),
   writes_sub_of_mem main_v20 rfl (by decide),
   writes_sub_of_mem main_cst_5 rfl (by decide),
   writes_sub_of_mem main_v21 rfl (by decide),
   writes_sub_of_mem main_v22 rfl (by decide),
   writes_sub_of_mem main_v23 rfl (by decide)⟩
/-- Piece 1 leaves every buffer it does not write as it was. -/
theorem kept_S1 (V : Valuation τ sig (Elt F)) {r : Ref sig .tc} (hr : r ∉ WS1) :
    after (opsS1 (F := F)) V (Proc.devRef .tc r) = V (Proc.devRef .tc r) :=
  after_of_writes_sub _ V writes_S1 hr

theorem sub_S2 : (opsS2 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem fresh_S2 : (opsS2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem writes_S2 : (opsS2 : List (HloOp τ sig (Elt F))).Forall fun op =>
    op.writes ⊆ ((WS2).map (Proc.devRef (τ := τ) .tc)).toFinset :=
  ⟨writes_sub_of_mem main_v24 rfl (by decide),
   writes_sub_of_mem main_v25 rfl (by decide),
   writes_sub_of_mem main_v26 rfl (by decide),
   writes_sub_of_mem main_v27 rfl (by decide),
   writes_sub_of_mem main_v28 rfl (by decide),
   writes_sub_of_mem main_v29 rfl (by decide),
   writes_sub_of_mem main_v30 rfl (by decide),
   writes_sub_of_mem main_call2_cst rfl (by decide),
   writes_sub_of_mem main_call2_v0 rfl (by decide),
   writes_sub_of_mem main_call2_v1 rfl (by decide),
   writes_sub_of_mem main_call2_cst_0 rfl (by decide),
   writes_sub_of_mem main_call2_v2 rfl (by decide),
   writes_sub_of_mem main_call2_v3 rfl (by decide),
   writes_sub_of_mem main_call2_cst_1 rfl (by decide),
   writes_sub_of_mem main_call2_call0_v0 rfl (by decide),
   writes_sub_of_mem main_call2_call0_v1 rfl (by decide),
   writes_sub_of_mem main_call2_v4 rfl (by decide),
   writes_sub_of_mem main_call2_v5 rfl (by decide),
   writes_sub_of_mem main_call2_cst_2 rfl (by decide),
   writes_sub_of_mem main_call2_v6 rfl (by decide),
   writes_sub_of_mem main_call2_v7 rfl (by decide),
   writes_sub_of_mem main_v31 rfl (by decide)⟩
/-- Piece 2 leaves every buffer it does not write as it was. -/
theorem kept_S2 (V : Valuation τ sig (Elt F)) {r : Ref sig .tc} (hr : r ∉ WS2) :
    after (opsS2 (F := F)) V (Proc.devRef .tc r) = V (Proc.devRef .tc r) :=
  after_of_writes_sub _ V writes_S2 hr

theorem sub_S3 : (opsS3 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem fresh_S3 : (opsS3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
theorem writes_S3 : (opsS3 : List (HloOp τ sig (Elt F))).Forall fun op =>
    op.writes ⊆ ((WS3).map (Proc.devRef (τ := τ) .tc)).toFinset :=
  ⟨writes_sub_of_mem main_cst_6 rfl (by decide),
   writes_sub_of_mem main_v32 rfl (by decide),
   writes_sub_of_mem main_cst_7 rfl (by decide),
   writes_sub_of_mem main_v33 rfl (by decide),
   writes_sub_of_mem main_v34 rfl (by decide),
   writes_sub_of_mem main_c_8 rfl (by decide),
   writes_sub_of_mem main_call3_cst rfl (by decide),
   writes_sub_of_mem main_call3_v0 rfl (by decide),
   writes_sub_of_mem main_call3_v1 rfl (by decide),
   writes_sub_of_mem main_call3_cst_0 rfl (by decide),
   writes_sub_of_mem main_call3_v2 rfl (by decide),
   writes_sub_of_mem main_call3_v3 rfl (by decide),
   writes_sub_of_mem main_call3_v4 rfl (by decide),
   writes_sub_of_mem main_call3_v5 rfl (by decide),
   writes_sub_of_mem main_call3_v6 rfl (by decide),
   writes_sub_of_mem main_call3_v7 rfl (by decide),
   writes_sub_of_mem main_call3_cst_1 rfl (by decide),
   writes_sub_of_mem main_call3_v8 rfl (by decide),
   writes_sub_of_mem main_call3_cst_2 rfl (by decide),
   writes_sub_of_mem main_call3_v9 rfl (by decide),
   writes_sub_of_mem main_call3_v10 rfl (by decide),
   writes_sub_of_mem main_call3_v11 rfl (by decide),
   writes_sub_of_mem main_call3_cst_3 rfl (by decide),
   writes_sub_of_mem main_call3_v12 rfl (by decide),
   writes_sub_of_mem main_call3_cst_4 rfl (by decide),
   writes_sub_of_mem main_call3_call0_v0 rfl (by decide),
   writes_sub_of_mem main_call3_call0_v1 rfl (by decide),
   writes_sub_of_mem main_v35 rfl (by decide)⟩
/-- Piece 3 leaves every buffer it does not write as it was. -/
theorem kept_S3 (V : Valuation τ sig (Elt F)) {r : Ref sig .tc} (hr : r ∉ WS3) :
    after (opsS3 (F := F)) V (Proc.devRef .tc r) = V (Proc.devRef .tc r) :=
  after_of_writes_sub _ V writes_S3 hr

theorem sub_S4 : (opsS4 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., nullary_bufs_sub .., unary_bufs_sub .., unary_bufs_sub .., binary_bufs_sub .., unary_bufs_sub .., unary_bufs_sub .., unary_bufs_sub .., binary_bufs_sub ..⟩
theorem fresh_S4 : (opsS4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem writes_S4 : (opsS4 : List (HloOp τ sig (Elt F))).Forall fun op =>
    op.writes ⊆ ((WS4).map (Proc.devRef (τ := τ) .tc)).toFinset :=
  ⟨writes_sub_of_mem main_v36 rfl (by decide),
   writes_sub_of_mem main_v37 rfl (by decide),
   writes_sub_of_mem main_v38 rfl (by decide),
   writes_sub_of_mem main_cst_9 rfl (by decide),
   writes_sub_of_mem main_v39 rfl (by decide),
   writes_sub_of_mem main_v40 rfl (by decide),
   writes_sub_of_mem main_v41 rfl (by decide),
   writes_sub_of_mem main_v42 rfl (by decide),
   writes_sub_of_mem main_v43 rfl (by decide),
   writes_sub_of_mem main_v44 rfl (by decide),
   writes_sub_of_mem main_v45 rfl (by decide),
   writes_sub_of_mem main_v46 rfl (by decide),
   writes_sub_of_mem main_v47 rfl (by decide),
   writes_sub_of_mem main_v48 rfl (by decide),
   writes_sub_of_mem main_v49 rfl (by decide),
   writes_sub_of_mem main_v50 rfl (by decide),
   writes_sub_of_mem main_cst_10 rfl (by decide),
   writes_sub_of_mem main_v51 rfl (by decide),
   writes_sub_of_mem main_cst_11 rfl (by decide),
   writes_sub_of_mem main_v52 rfl (by decide),
   writes_sub_of_mem main_v53 rfl (by decide),
   writes_sub_of_mem main_v54 rfl (by decide),
   writes_sub_of_mem main_cst_12 rfl (by decide),
   writes_sub_of_mem main_v55 rfl (by decide),
   writes_sub_of_mem main_v56 rfl (by decide),
   writes_sub_of_mem main_v57 rfl (by decide),
   writes_sub_of_mem main_cst_13 rfl (by decide),
   writes_sub_of_mem main_call4_v0 rfl (by decide),
   writes_sub_of_mem main_call4_v1 rfl (by decide),
   writes_sub_of_mem main_v58 rfl (by decide),
   writes_sub_of_mem main_v59 rfl (by decide),
   writes_sub_of_mem main_cst_14 rfl (by decide),
   writes_sub_of_mem main_call5_v0 rfl (by decide),
   writes_sub_of_mem main_call5_v1 rfl (by decide),
   writes_sub_of_mem main_v60 rfl (by decide),
   writes_sub_of_mem main_v61 rfl (by decide),
   writes_sub_of_mem main_v62 rfl (by decide),
   writes_sub_of_mem main_v63 rfl (by decide),
   writes_sub_of_mem main_v64 rfl (by decide)⟩
/-- Piece 4 leaves every buffer it does not write as it was. -/
theorem kept_S4 (V : Valuation τ sig (Elt F)) {r : Ref sig .tc} (hr : r ∉ WS4) :
    after (opsS4 (F := F)) V (Proc.devRef .tc r) = V (Proc.devRef .tc r) :=
  after_of_writes_sub _ V writes_S4 hr

theorem sub_S5 : (opsS5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem fresh_S5 : (opsS5 : List (HloOp τ sig (Elt F))).Forall fun op => op.fresh = ∅ :=
  ⟨rfl, rfl, rfl, rfl, rfl, rfl, rfl, rfl, rfl, rfl, rfl, rfl, rfl⟩
theorem writes_S5 : (opsS5 : List (HloOp τ sig (Elt F))).Forall fun op =>
    op.writes ⊆ ((WS5).map (Proc.devRef (τ := τ) .tc)).toFinset :=
  ⟨writes_sub_of_mem main_c_15 rfl (by decide),
   writes_sub_of_mem main_v65 rfl (by decide),
   writes_sub_of_mem main_v66 rfl (by decide),
   writes_sub_of_mem main_c_16 rfl (by decide),
   writes_sub_of_mem main_v67 rfl (by decide),
   writes_sub_of_mem main_v68 rfl (by decide),
   writes_sub_of_mem main_v69 rfl (by decide),
   writes_sub_of_mem main_v70 rfl (by decide),
   writes_sub_of_mem main_v71 rfl (by decide),
   writes_sub_of_mem main_cst_17 rfl (by decide),
   writes_sub_of_mem main_v72 rfl (by decide),
   writes_sub_of_mem main_v73 rfl (by decide),
   writes_sub_of_mem main_v74 rfl (by decide)⟩
/-- Piece 5 leaves every buffer it does not write as it was. -/
theorem kept_S5 (V : Valuation τ sig (Elt F)) {r : Ref sig .tc} (hr : r ∉ WS5) :
    after (opsS5 (F := F)) V (Proc.devRef .tc r) = V (Proc.devRef .tc r) :=
  after_of_writes_sub _ V writes_S5 hr

theorem sub_S6 : (opsS6 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem fresh_S6 : (opsS6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem writes_S6 : (opsS6 : List (HloOp τ sig (Elt F))).Forall fun op =>
    op.writes ⊆ ((WS6).map (Proc.devRef (τ := τ) .tc)).toFinset :=
  ⟨writes_sub_of_mem main_v75 rfl (by decide),
   writes_sub_of_mem main_v76 rfl (by decide),
   writes_sub_of_mem main_v77 rfl (by decide),
   writes_sub_of_mem main_v78 rfl (by decide),
   writes_sub_of_mem main_v79 rfl (by decide),
   writes_sub_of_mem main_v80 rfl (by decide),
   writes_sub_of_mem main_v81 rfl (by decide),
   writes_sub_of_mem main_call6_cst rfl (by decide),
   writes_sub_of_mem main_call6_v0 rfl (by decide),
   writes_sub_of_mem main_call6_v1 rfl (by decide),
   writes_sub_of_mem main_call6_cst_0 rfl (by decide),
   writes_sub_of_mem main_call6_v2 rfl (by decide),
   writes_sub_of_mem main_call6_v3 rfl (by decide),
   writes_sub_of_mem main_call6_cst_1 rfl (by decide),
   writes_sub_of_mem main_call6_call0_v0 rfl (by decide),
   writes_sub_of_mem main_call6_call0_v1 rfl (by decide),
   writes_sub_of_mem main_call6_v4 rfl (by decide),
   writes_sub_of_mem main_call6_v5 rfl (by decide),
   writes_sub_of_mem main_call6_cst_2 rfl (by decide),
   writes_sub_of_mem main_call6_v6 rfl (by decide),
   writes_sub_of_mem main_call6_v7 rfl (by decide),
   writes_sub_of_mem main_v82 rfl (by decide)⟩
/-- Piece 6 leaves every buffer it does not write as it was. -/
theorem kept_S6 (V : Valuation τ sig (Elt F)) {r : Ref sig .tc} (hr : r ∉ WS6) :
    after (opsS6 (F := F)) V (Proc.devRef .tc r) = V (Proc.devRef .tc r) :=
  after_of_writes_sub _ V writes_S6 hr

theorem sub_S7 : (opsS7 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem fresh_S7 : (opsS7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
theorem writes_S7 : (opsS7 : List (HloOp τ sig (Elt F))).Forall fun op =>
    op.writes ⊆ ((WS7).map (Proc.devRef (τ := τ) .tc)).toFinset :=
  ⟨writes_sub_of_mem main_cst_18 rfl (by decide),
   writes_sub_of_mem main_v83 rfl (by decide),
   writes_sub_of_mem main_cst_19 rfl (by decide),
   writes_sub_of_mem main_v84 rfl (by decide),
   writes_sub_of_mem main_v85 rfl (by decide),
   writes_sub_of_mem main_c_20 rfl (by decide),
   writes_sub_of_mem main_call7_cst rfl (by decide),
   writes_sub_of_mem main_call7_v0 rfl (by decide),
   writes_sub_of_mem main_call7_v1 rfl (by decide),
   writes_sub_of_mem main_call7_cst_0 rfl (by decide),
   writes_sub_of_mem main_call7_v2 rfl (by decide),
   writes_sub_of_mem main_call7_v3 rfl (by decide),
   writes_sub_of_mem main_call7_v4 rfl (by decide),
   writes_sub_of_mem main_call7_v5 rfl (by decide),
   writes_sub_of_mem main_call7_v6 rfl (by decide),
   writes_sub_of_mem main_call7_v7 rfl (by decide),
   writes_sub_of_mem main_call7_cst_1 rfl (by decide),
   writes_sub_of_mem main_call7_v8 rfl (by decide),
   writes_sub_of_mem main_call7_cst_2 rfl (by decide),
   writes_sub_of_mem main_call7_v9 rfl (by decide),
   writes_sub_of_mem main_call7_v10 rfl (by decide),
   writes_sub_of_mem main_call7_v11 rfl (by decide),
   writes_sub_of_mem main_call7_cst_3 rfl (by decide),
   writes_sub_of_mem main_call7_v12 rfl (by decide),
   writes_sub_of_mem main_call7_cst_4 rfl (by decide),
   writes_sub_of_mem main_call7_call0_v0 rfl (by decide),
   writes_sub_of_mem main_call7_call0_v1 rfl (by decide),
   writes_sub_of_mem main_v86 rfl (by decide)⟩
/-- Piece 7 leaves every buffer it does not write as it was. -/
theorem kept_S7 (V : Valuation τ sig (Elt F)) {r : Ref sig .tc} (hr : r ∉ WS7) :
    after (opsS7 (F := F)) V (Proc.devRef .tc r) = V (Proc.devRef .tc r) :=
  after_of_writes_sub _ V writes_S7 hr

theorem sub_S8 : (opsS8 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem fresh_S8 : (opsS8 : List (HloOp τ sig (Elt F))).Forall fun op => op.fresh = ∅ :=
  ⟨rfl, rfl, rfl, rfl, rfl, rfl, rfl, rfl, rfl, rfl, rfl, rfl, rfl, rfl, rfl, rfl⟩
theorem writes_S8 : (opsS8 : List (HloOp τ sig (Elt F))).Forall fun op =>
    op.writes ⊆ ((WS8).map (Proc.devRef (τ := τ) .tc)).toFinset :=
  ⟨writes_sub_of_mem main_v87 rfl (by decide),
   writes_sub_of_mem main_v88 rfl (by decide),
   writes_sub_of_mem main_v89 rfl (by decide),
   writes_sub_of_mem main_cst_21 rfl (by decide),
   writes_sub_of_mem main_v90 rfl (by decide),
   writes_sub_of_mem main_v91 rfl (by decide),
   writes_sub_of_mem main_v92 rfl (by decide),
   writes_sub_of_mem main_v93 rfl (by decide),
   writes_sub_of_mem main_v94 rfl (by decide),
   writes_sub_of_mem main_v95 rfl (by decide),
   writes_sub_of_mem main_v96 rfl (by decide),
   writes_sub_of_mem main_v97 rfl (by decide),
   writes_sub_of_mem main_v98 rfl (by decide),
   writes_sub_of_mem main_v99 rfl (by decide),
   writes_sub_of_mem main_v100 rfl (by decide),
   writes_sub_of_mem main_v101 rfl (by decide)⟩
/-- Piece 8 leaves every buffer it does not write as it was. -/
theorem kept_S8 (V : Valuation τ sig (Elt F)) {r : Ref sig .tc} (hr : r ∉ WS8) :
    after (opsS8 (F := F)) V (Proc.devRef .tc r) = V (Proc.devRef .tc r) :=
  after_of_writes_sub _ V writes_S8 hr

theorem sub_S9 : (opsS9 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., nullary_bufs_sub .., unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem fresh_S9 : (opsS9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem writes_S9 : (opsS9 : List (HloOp τ sig (Elt F))).Forall fun op =>
    op.writes ⊆ ((WS9).map (Proc.devRef (τ := τ) .tc)).toFinset :=
  ⟨writes_sub_of_mem main_cst_22 rfl (by decide),
   writes_sub_of_mem main_v102 rfl (by decide),
   writes_sub_of_mem main_cst_23 rfl (by decide),
   writes_sub_of_mem main_v103 rfl (by decide),
   writes_sub_of_mem main_v104 rfl (by decide),
   writes_sub_of_mem main_v105 rfl (by decide),
   writes_sub_of_mem main_cst_24 rfl (by decide),
   writes_sub_of_mem main_v106 rfl (by decide),
   writes_sub_of_mem main_v107 rfl (by decide),
   writes_sub_of_mem main_v108 rfl (by decide),
   writes_sub_of_mem main_cst_25 rfl (by decide),
   writes_sub_of_mem main_call8_v0 rfl (by decide),
   writes_sub_of_mem main_call8_v1 rfl (by decide),
   writes_sub_of_mem main_v109 rfl (by decide),
   writes_sub_of_mem main_v110 rfl (by decide),
   writes_sub_of_mem main_cst_26 rfl (by decide),
   writes_sub_of_mem main_call9_v0 rfl (by decide),
   writes_sub_of_mem main_call9_v1 rfl (by decide),
   writes_sub_of_mem main_v111 rfl (by decide),
   writes_sub_of_mem main_v112 rfl (by decide),
   writes_sub_of_mem main_v113 rfl (by decide),
   writes_sub_of_mem main_v114 rfl (by decide),
   writes_sub_of_mem main_v115 rfl (by decide),
   writes_sub_of_mem main_c_27 rfl (by decide),
   writes_sub_of_mem main_v116 rfl (by decide),
   writes_sub_of_mem main_v117 rfl (by decide),
   writes_sub_of_mem main_c_28 rfl (by decide),
   writes_sub_of_mem main_v118 rfl (by decide),
   writes_sub_of_mem main_v119 rfl (by decide),
   writes_sub_of_mem main_v120 rfl (by decide),
   writes_sub_of_mem main_v121 rfl (by decide),
   writes_sub_of_mem main_v122 rfl (by decide),
   writes_sub_of_mem main_cst_29 rfl (by decide),
   writes_sub_of_mem main_v123 rfl (by decide),
   writes_sub_of_mem main_v124 rfl (by decide),
   writes_sub_of_mem main_v125 rfl (by decide)⟩
/-- Piece 9 leaves every buffer it does not write as it was. -/
theorem kept_S9 (V : Valuation τ sig (Elt F)) {r : Ref sig .tc} (hr : r ∉ WS9) :
    after (opsS9 (F := F)) V (Proc.devRef .tc r) = V (Proc.devRef .tc r) :=
  after_of_writes_sub _ V writes_S9 hr

theorem sub_S10 : (opsS10 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem fresh_S10 : (opsS10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem writes_S10 : (opsS10 : List (HloOp τ sig (Elt F))).Forall fun op =>
    op.writes ⊆ ((WS10).map (Proc.devRef (τ := τ) .tc)).toFinset :=
  ⟨writes_sub_of_mem main_v126 rfl (by decide),
   writes_sub_of_mem main_v127 rfl (by decide),
   writes_sub_of_mem main_v128 rfl (by decide),
   writes_sub_of_mem main_v129 rfl (by decide),
   writes_sub_of_mem main_v130 rfl (by decide),
   writes_sub_of_mem main_v131 rfl (by decide),
   writes_sub_of_mem main_v132 rfl (by decide),
   writes_sub_of_mem main_call10_cst rfl (by decide),
   writes_sub_of_mem main_call10_v0 rfl (by decide),
   writes_sub_of_mem main_call10_v1 rfl (by decide),
   writes_sub_of_mem main_call10_cst_0 rfl (by decide),
   writes_sub_of_mem main_call10_v2 rfl (by decide),
   writes_sub_of_mem main_call10_v3 rfl (by decide),
   writes_sub_of_mem main_call10_cst_1 rfl (by decide),
   writes_sub_of_mem main_call10_call0_v0 rfl (by decide),
   writes_sub_of_mem main_call10_call0_v1 rfl (by decide),
   writes_sub_of_mem main_call10_v4 rfl (by decide),
   writes_sub_of_mem main_call10_v5 rfl (by decide),
   writes_sub_of_mem main_call10_cst_2 rfl (by decide),
   writes_sub_of_mem main_call10_v6 rfl (by decide),
   writes_sub_of_mem main_call10_v7 rfl (by decide),
   writes_sub_of_mem main_v133 rfl (by decide)⟩
/-- Piece 10 leaves every buffer it does not write as it was. -/
theorem kept_S10 (V : Valuation τ sig (Elt F)) {r : Ref sig .tc} (hr : r ∉ WS10) :
    after (opsS10 (F := F)) V (Proc.devRef .tc r) = V (Proc.devRef .tc r) :=
  after_of_writes_sub _ V writes_S10 hr

theorem sub_S11 : (opsS11 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem fresh_S11 : (opsS11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
theorem writes_S11 : (opsS11 : List (HloOp τ sig (Elt F))).Forall fun op =>
    op.writes ⊆ ((WS11).map (Proc.devRef (τ := τ) .tc)).toFinset :=
  ⟨writes_sub_of_mem main_cst_30 rfl (by decide),
   writes_sub_of_mem main_v134 rfl (by decide),
   writes_sub_of_mem main_cst_31 rfl (by decide),
   writes_sub_of_mem main_v135 rfl (by decide),
   writes_sub_of_mem main_v136 rfl (by decide),
   writes_sub_of_mem main_c_32 rfl (by decide),
   writes_sub_of_mem main_call11_cst rfl (by decide),
   writes_sub_of_mem main_call11_v0 rfl (by decide),
   writes_sub_of_mem main_call11_v1 rfl (by decide),
   writes_sub_of_mem main_call11_cst_0 rfl (by decide),
   writes_sub_of_mem main_call11_v2 rfl (by decide),
   writes_sub_of_mem main_call11_v3 rfl (by decide),
   writes_sub_of_mem main_call11_v4 rfl (by decide),
   writes_sub_of_mem main_call11_v5 rfl (by decide),
   writes_sub_of_mem main_call11_v6 rfl (by decide),
   writes_sub_of_mem main_call11_v7 rfl (by decide),
   writes_sub_of_mem main_call11_cst_1 rfl (by decide),
   writes_sub_of_mem main_call11_v8 rfl (by decide),
   writes_sub_of_mem main_call11_cst_2 rfl (by decide),
   writes_sub_of_mem main_call11_v9 rfl (by decide),
   writes_sub_of_mem main_call11_v10 rfl (by decide),
   writes_sub_of_mem main_call11_v11 rfl (by decide),
   writes_sub_of_mem main_call11_cst_3 rfl (by decide),
   writes_sub_of_mem main_call11_v12 rfl (by decide),
   writes_sub_of_mem main_call11_cst_4 rfl (by decide),
   writes_sub_of_mem main_call11_call0_v0 rfl (by decide),
   writes_sub_of_mem main_call11_call0_v1 rfl (by decide),
   writes_sub_of_mem main_v137 rfl (by decide)⟩
/-- Piece 11 leaves every buffer it does not write as it was. -/
theorem kept_S11 (V : Valuation τ sig (Elt F)) {r : Ref sig .tc} (hr : r ∉ WS11) :
    after (opsS11 (F := F)) V (Proc.devRef .tc r) = V (Proc.devRef .tc r) :=
  after_of_writes_sub _ V writes_S11 hr

theorem sub_S12 : (opsS12 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., nullary_bufs_sub .., unary_bufs_sub .., unary_bufs_sub .., binary_bufs_sub .., unary_bufs_sub .., unary_bufs_sub .., unary_bufs_sub .., binary_bufs_sub ..⟩
theorem fresh_S12 : (opsS12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem writes_S12 : (opsS12 : List (HloOp τ sig (Elt F))).Forall fun op =>
    op.writes ⊆ ((WS12).map (Proc.devRef (τ := τ) .tc)).toFinset :=
  ⟨writes_sub_of_mem main_v138 rfl (by decide),
   writes_sub_of_mem main_v139 rfl (by decide),
   writes_sub_of_mem main_v140 rfl (by decide),
   writes_sub_of_mem main_cst_33 rfl (by decide),
   writes_sub_of_mem main_v141 rfl (by decide),
   writes_sub_of_mem main_v142 rfl (by decide),
   writes_sub_of_mem main_v143 rfl (by decide),
   writes_sub_of_mem main_v144 rfl (by decide),
   writes_sub_of_mem main_v145 rfl (by decide),
   writes_sub_of_mem main_v146 rfl (by decide),
   writes_sub_of_mem main_v147 rfl (by decide),
   writes_sub_of_mem main_v148 rfl (by decide),
   writes_sub_of_mem main_v149 rfl (by decide),
   writes_sub_of_mem main_v150 rfl (by decide),
   writes_sub_of_mem main_v151 rfl (by decide),
   writes_sub_of_mem main_v152 rfl (by decide),
   writes_sub_of_mem main_cst_34 rfl (by decide),
   writes_sub_of_mem main_v153 rfl (by decide),
   writes_sub_of_mem main_cst_35 rfl (by decide),
   writes_sub_of_mem main_v154 rfl (by decide),
   writes_sub_of_mem main_v155 rfl (by decide),
   writes_sub_of_mem main_v156 rfl (by decide),
   writes_sub_of_mem main_cst_36 rfl (by decide),
   writes_sub_of_mem main_v157 rfl (by decide),
   writes_sub_of_mem main_v158 rfl (by decide),
   writes_sub_of_mem main_v159 rfl (by decide),
   writes_sub_of_mem main_cst_37 rfl (by decide),
   writes_sub_of_mem main_call12_v0 rfl (by decide),
   writes_sub_of_mem main_call12_v1 rfl (by decide),
   writes_sub_of_mem main_v160 rfl (by decide),
   writes_sub_of_mem main_v161 rfl (by decide),
   writes_sub_of_mem main_cst_38 rfl (by decide),
   writes_sub_of_mem main_call13_v0 rfl (by decide),
   writes_sub_of_mem main_call13_v1 rfl (by decide),
   writes_sub_of_mem main_v162 rfl (by decide),
   writes_sub_of_mem main_v163 rfl (by decide),
   writes_sub_of_mem main_v164 rfl (by decide),
   writes_sub_of_mem main_v165 rfl (by decide),
   writes_sub_of_mem main_v166 rfl (by decide)⟩
/-- Piece 12 leaves every buffer it does not write as it was. -/
theorem kept_S12 (V : Valuation τ sig (Elt F)) {r : Ref sig .tc} (hr : r ∉ WS12) :
    after (opsS12 (F := F)) V (Proc.devRef .tc r) = V (Proc.devRef .tc r) :=
  after_of_writes_sub _ V writes_S12 hr

theorem sub_S13 : (opsS13 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem fresh_S13 : (opsS13 : List (HloOp τ sig (Elt F))).Forall fun op => op.fresh = ∅ :=
  ⟨rfl, rfl, rfl, rfl, rfl, rfl, rfl, rfl, rfl, rfl, rfl, rfl, rfl⟩
theorem writes_S13 : (opsS13 : List (HloOp τ sig (Elt F))).Forall fun op =>
    op.writes ⊆ ((WS13).map (Proc.devRef (τ := τ) .tc)).toFinset :=
  ⟨writes_sub_of_mem main_c_39 rfl (by decide),
   writes_sub_of_mem main_v167 rfl (by decide),
   writes_sub_of_mem main_v168 rfl (by decide),
   writes_sub_of_mem main_c_40 rfl (by decide),
   writes_sub_of_mem main_v169 rfl (by decide),
   writes_sub_of_mem main_v170 rfl (by decide),
   writes_sub_of_mem main_v171 rfl (by decide),
   writes_sub_of_mem main_v172 rfl (by decide),
   writes_sub_of_mem main_v173 rfl (by decide),
   writes_sub_of_mem main_cst_41 rfl (by decide),
   writes_sub_of_mem main_v174 rfl (by decide),
   writes_sub_of_mem main_v175 rfl (by decide),
   writes_sub_of_mem main_v176 rfl (by decide)⟩
/-- Piece 13 leaves every buffer it does not write as it was. -/
theorem kept_S13 (V : Valuation τ sig (Elt F)) {r : Ref sig .tc} (hr : r ∉ WS13) :
    after (opsS13 (F := F)) V (Proc.devRef .tc r) = V (Proc.devRef .tc r) :=
  after_of_writes_sub _ V writes_S13 hr

theorem sub_S14 : (opsS14 : List (HloOp τ sig (Elt F))).Forall fun op => op.bufs ⊆ tcRefs τ sig :=
  ⟨unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem fresh_S14 : (opsS14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem writes_S14 : (opsS14 : List (HloOp τ sig (Elt F))).Forall fun op =>
    op.writes ⊆ ((WS14).map (Proc.devRef (τ := τ) .tc)).toFinset :=
  ⟨writes_sub_of_mem main_v177 rfl (by decide),
   writes_sub_of_mem main_v178 rfl (by decide),
   writes_sub_of_mem main_v179 rfl (by decide),
   writes_sub_of_mem main_v180 rfl (by decide),
   writes_sub_of_mem main_v181 rfl (by decide),
   writes_sub_of_mem main_v182 rfl (by decide),
   writes_sub_of_mem main_v183 rfl (by decide),
   writes_sub_of_mem main_call14_cst rfl (by decide),
   writes_sub_of_mem main_call14_v0 rfl (by decide),
   writes_sub_of_mem main_call14_v1 rfl (by decide),
   writes_sub_of_mem main_call14_cst_0 rfl (by decide),
   writes_sub_of_mem main_call14_v2 rfl (by decide),
   writes_sub_of_mem main_call14_v3 rfl (by decide),
   writes_sub_of_mem main_call14_cst_1 rfl (by decide),
   writes_sub_of_mem main_call14_call0_v0 rfl (by decide),
   writes_sub_of_mem main_call14_call0_v1 rfl (by decide),
   writes_sub_of_mem main_call14_v4 rfl (by decide),
   writes_sub_of_mem main_call14_v5 rfl (by decide),
   writes_sub_of_mem main_call14_cst_2 rfl (by decide),
   writes_sub_of_mem main_call14_v6 rfl (by decide),
   writes_sub_of_mem main_call14_v7 rfl (by decide),
   writes_sub_of_mem main_v184 rfl (by decide)⟩
/-- Piece 14 leaves every buffer it does not write as it was. -/
theorem kept_S14 (V : Valuation τ sig (Elt F)) {r : Ref sig .tc} (hr : r ∉ WS14) :
    after (opsS14 (F := F)) V (Proc.devRef .tc r) = V (Proc.devRef .tc r) :=
  after_of_writes_sub _ V writes_S14 hr

theorem sub_S15 : (opsS15 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem fresh_S15 : (opsS15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
theorem writes_S15 : (opsS15 : List (HloOp τ sig (Elt F))).Forall fun op =>
    op.writes ⊆ ((WS15).map (Proc.devRef (τ := τ) .tc)).toFinset :=
  ⟨writes_sub_of_mem main_cst_42 rfl (by decide),
   writes_sub_of_mem main_v185 rfl (by decide),
   writes_sub_of_mem main_cst_43 rfl (by decide),
   writes_sub_of_mem main_v186 rfl (by decide),
   writes_sub_of_mem main_v187 rfl (by decide),
   writes_sub_of_mem main_c_44 rfl (by decide),
   writes_sub_of_mem main_call15_cst rfl (by decide),
   writes_sub_of_mem main_call15_v0 rfl (by decide),
   writes_sub_of_mem main_call15_v1 rfl (by decide),
   writes_sub_of_mem main_call15_cst_0 rfl (by decide),
   writes_sub_of_mem main_call15_v2 rfl (by decide),
   writes_sub_of_mem main_call15_v3 rfl (by decide),
   writes_sub_of_mem main_call15_v4 rfl (by decide),
   writes_sub_of_mem main_call15_v5 rfl (by decide),
   writes_sub_of_mem main_call15_v6 rfl (by decide),
   writes_sub_of_mem main_call15_v7 rfl (by decide),
   writes_sub_of_mem main_call15_cst_1 rfl (by decide),
   writes_sub_of_mem main_call15_v8 rfl (by decide),
   writes_sub_of_mem main_call15_cst_2 rfl (by decide),
   writes_sub_of_mem main_call15_v9 rfl (by decide),
   writes_sub_of_mem main_call15_v10 rfl (by decide),
   writes_sub_of_mem main_call15_v11 rfl (by decide),
   writes_sub_of_mem main_call15_cst_3 rfl (by decide),
   writes_sub_of_mem main_call15_v12 rfl (by decide),
   writes_sub_of_mem main_call15_cst_4 rfl (by decide),
   writes_sub_of_mem main_call15_call0_v0 rfl (by decide),
   writes_sub_of_mem main_call15_call0_v1 rfl (by decide),
   writes_sub_of_mem main_v188 rfl (by decide)⟩
/-- Piece 15 leaves every buffer it does not write as it was. -/
theorem kept_S15 (V : Valuation τ sig (Elt F)) {r : Ref sig .tc} (hr : r ∉ WS15) :
    after (opsS15 (F := F)) V (Proc.devRef .tc r) = V (Proc.devRef .tc r) :=
  after_of_writes_sub _ V writes_S15 hr

theorem sub_S16 : (opsS16 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem fresh_S16 : (opsS16 : List (HloOp τ sig (Elt F))).Forall fun op => op.fresh = ∅ :=
  ⟨rfl, rfl, rfl, rfl, rfl, rfl, rfl, rfl, rfl, rfl, rfl, rfl, rfl, rfl, rfl, rfl⟩
theorem writes_S16 : (opsS16 : List (HloOp τ sig (Elt F))).Forall fun op =>
    op.writes ⊆ ((WS16).map (Proc.devRef (τ := τ) .tc)).toFinset :=
  ⟨writes_sub_of_mem main_v189 rfl (by decide),
   writes_sub_of_mem main_v190 rfl (by decide),
   writes_sub_of_mem main_v191 rfl (by decide),
   writes_sub_of_mem main_cst_45 rfl (by decide),
   writes_sub_of_mem main_v192 rfl (by decide),
   writes_sub_of_mem main_v193 rfl (by decide),
   writes_sub_of_mem main_v194 rfl (by decide),
   writes_sub_of_mem main_v195 rfl (by decide),
   writes_sub_of_mem main_v196 rfl (by decide),
   writes_sub_of_mem main_v197 rfl (by decide),
   writes_sub_of_mem main_v198 rfl (by decide),
   writes_sub_of_mem main_v199 rfl (by decide),
   writes_sub_of_mem main_v200 rfl (by decide),
   writes_sub_of_mem main_v201 rfl (by decide),
   writes_sub_of_mem main_v202 rfl (by decide),
   writes_sub_of_mem main_v203 rfl (by decide)⟩
/-- Piece 16 leaves every buffer it does not write as it was. -/
theorem kept_S16 (V : Valuation τ sig (Elt F)) {r : Ref sig .tc} (hr : r ∉ WS16) :
    after (opsS16 (F := F)) V (Proc.devRef .tc r) = V (Proc.devRef .tc r) :=
  after_of_writes_sub _ V writes_S16 hr

theorem sub_S17 : (opsS17 : List (HloOp τ sig (Elt F))).Forall fun op => op.bufs ⊆ tcRefs τ sig :=
  ⟨binary_bufs_sub .., unary_bufs_sub .., binary_bufs_sub .., nary_bufs_sub .., binary_bufs_sub .., unary_bufs_sub .., unary_bufs_sub .., binary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., unary_bufs_sub .., unary_bufs_sub .., binary_bufs_sub ..⟩
theorem fresh_S17 : (opsS17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem writes_S17 : (opsS17 : List (HloOp τ sig (Elt F))).Forall fun op =>
    op.writes ⊆ ((WS17).map (Proc.devRef (τ := τ) .tc)).toFinset :=
  ⟨writes_sub_of_mem main_v204 rfl (by decide),
   writes_sub_of_mem main_v205 rfl (by decide),
   writes_sub_of_mem main_v206 rfl (by decide),
   writes_sub_of_mem main_v207 rfl (by decide),
   writes_sub_of_mem main_v208 rfl (by decide),
   writes_sub_of_mem main_v209 rfl (by decide),
   writes_sub_of_mem main_v210 rfl (by decide),
   writes_sub_of_mem main_v211 rfl (by decide),
   writes_sub_of_mem main_cst_46 rfl (by decide),
   writes_sub_of_mem main_v212 rfl (by decide),
   writes_sub_of_mem main_v213 rfl (by decide),
   writes_sub_of_mem main_v214 rfl (by decide),
   writes_sub_of_mem main_v215 rfl (by decide),
   writes_sub_of_mem main_v216 rfl (by decide),
   writes_sub_of_mem main_v217 rfl (by decide),
   writes_sub_of_mem main_v218 rfl (by decide),
   writes_sub_of_mem main_v219 rfl (by decide),
   writes_sub_of_mem main_v220 rfl (by decide),
   writes_sub_of_mem main_v221 rfl (by decide),
   writes_sub_of_mem main_v222 rfl (by decide),
   writes_sub_of_mem main_v223 rfl (by decide),
   writes_sub_of_mem main_cst_47 rfl (by decide),
   writes_sub_of_mem main_v224 rfl (by decide),
   writes_sub_of_mem main_v225 rfl (by decide),
   writes_sub_of_mem main_cst_48 rfl (by decide),
   writes_sub_of_mem main_v226 rfl (by decide),
   writes_sub_of_mem main_v227 rfl (by decide),
   writes_sub_of_mem main_v228 rfl (by decide),
   writes_sub_of_mem main_cst_49 rfl (by decide),
   writes_sub_of_mem main_v229 rfl (by decide),
   writes_sub_of_mem main_v230 rfl (by decide),
   writes_sub_of_mem main_v231 rfl (by decide),
   writes_sub_of_mem main_v232 rfl (by decide),
   writes_sub_of_mem main_v233 rfl (by decide),
   writes_sub_of_mem main_v234 rfl (by decide),
   writes_sub_of_mem main_v235 rfl (by decide),
   writes_sub_of_mem main_v236 rfl (by decide)⟩
/-- Piece 17 leaves every buffer it does not write as it was. -/
theorem kept_S17 (V : Valuation τ sig (Elt F)) {r : Ref sig .tc} (hr : r ∉ WS17) :
    after (opsS17 (F := F)) V (Proc.devRef .tc r) = V (Proc.devRef .tc r) :=
  after_of_writes_sub _ V writes_S17 hr

/-- Every operation touches TensorCore buffers only. -/
theorem ops_sub : (ops : List (HloOp τ sig (Elt F))).Forall fun op => op.bufs ⊆ tcRefs τ sig :=
  List.forall_append.2 ⟨sub_S1, List.forall_append.2 ⟨sub_S2, List.forall_append.2 ⟨sub_S3, List.forall_append.2 ⟨sub_S4, List.forall_append.2 ⟨sub_S5, List.forall_append.2 ⟨sub_S6, List.forall_append.2 ⟨sub_S7, List.forall_append.2 ⟨sub_S8, List.forall_append.2 ⟨sub_S9, List.forall_append.2 ⟨sub_S10, List.forall_append.2 ⟨sub_S11, List.forall_append.2 ⟨sub_S12, List.forall_append.2 ⟨sub_S13, List.forall_append.2 ⟨sub_S14, List.forall_append.2 ⟨sub_S15, List.forall_append.2 ⟨sub_S16, sub_S17⟩⟩⟩⟩⟩⟩⟩⟩⟩⟩⟩⟩⟩⟩⟩⟩

/-- Every operation determines what it writes. -/
theorem ops_fresh : ∀ op ∈ (ops : List (HloOp τ sig (Elt F))), op.fresh = ∅ :=
  List.forall_iff_forall_mem.1 (List.forall_append.2 ⟨fresh_S1, List.forall_append.2 ⟨fresh_S2, List.forall_append.2 ⟨fresh_S3, List.forall_append.2 ⟨fresh_S4, List.forall_append.2 ⟨fresh_S5, List.forall_append.2 ⟨fresh_S6, List.forall_append.2 ⟨fresh_S7, List.forall_append.2 ⟨fresh_S8, List.forall_append.2 ⟨fresh_S9, List.forall_append.2 ⟨fresh_S10, List.forall_append.2 ⟨fresh_S11, List.forall_append.2 ⟨fresh_S12, List.forall_append.2 ⟨fresh_S13, List.forall_append.2 ⟨fresh_S14, List.forall_append.2 ⟨fresh_S15, List.forall_append.2 ⟨fresh_S16, fresh_S17⟩⟩⟩⟩⟩⟩⟩⟩⟩⟩⟩⟩⟩⟩⟩⟩)

/-! ## The run -/

/-- On every device, for any float values, from any memory with zero counters: every weakly fair execution of the
    entry function terminates with each TensorCore buffer at the fold of the line's operations over the launch
    contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

/-! ## What the line does not write -/

/-- The line leaves every buffer it does not write as it was. -/
theorem kept (V : Valuation τ sig (Elt F)) {r : Ref sig .tc} (hr : r ∉ W) :
    after (ops (F := F)) V (Proc.devRef .tc r) = V (Proc.devRef .tc r) := by
  simp only [W, List.mem_append, not_or] at hr
  obtain ⟨h1, h2, h3, h4, h5, h6, h7, h8, h9, h10, h11, h12, h13, h14, h15, h16, h17⟩ := hr
  simp only [ops, after_append]
  rw [kept_S17 _ h17, kept_S16 _ h16, kept_S15 _ h15, kept_S14 _ h14, kept_S13 _ h13, kept_S12 _ h12, kept_S11 _ h11, kept_S10 _ h10, kept_S9 _ h9, kept_S8 _ h8, kept_S7 _ h7, kept_S6 _ h6, kept_S5 _ h5, kept_S4 _ h4, kept_S3 _ h3, kept_S2 _ h2, kept_S1 _ h1]

theorem kept_main_arg0 (V : Valuation τ sig (Elt F)) :
    after (ops (F := F)) V (Proc.devRef .tc main_arg0) = V (Proc.devRef .tc main_arg0) := kept V (by decide)
theorem kept_main_arg1 (V : Valuation τ sig (Elt F)) :
    after (ops (F := F)) V (Proc.devRef .tc main_arg1) = V (Proc.devRef .tc main_arg1) := kept V (by decide)
theorem kept_main_arg2 (V : Valuation τ sig (Elt F)) :
    after (ops (F := F)) V (Proc.devRef .tc main_arg2) = V (Proc.devRef .tc main_arg2) := kept V (by decide)
theorem kept_main_arg3 (V : Valuation τ sig (Elt F)) :
    after (ops (F := F)) V (Proc.devRef .tc main_arg3) = V (Proc.devRef .tc main_arg3) := kept V (by decide)
theorem kept_main_arg4 (V : Valuation τ sig (Elt F)) :
    after (ops (F := F)) V (Proc.devRef .tc main_arg4) = V (Proc.devRef .tc main_arg4) := kept V (by decide)
theorem kept_main_arg5 (V : Valuation τ sig (Elt F)) :
    after (ops (F := F)) V (Proc.devRef .tc main_arg5) = V (Proc.devRef .tc main_arg5) := kept V (by decide)
theorem kept_main_arg6 (V : Valuation τ sig (Elt F)) :
    after (ops (F := F)) V (Proc.devRef .tc main_arg6) = V (Proc.devRef .tc main_arg6) := kept V (by decide)
theorem kept_main_arg7 (V : Valuation τ sig (Elt F)) :
    after (ops (F := F)) V (Proc.devRef .tc main_arg7) = V (Proc.devRef .tc main_arg7) := kept V (by decide)
theorem kept_main_arg8 (V : Valuation τ sig (Elt F)) :
    after (ops (F := F)) V (Proc.devRef .tc main_arg8) = V (Proc.devRef .tc main_arg8) := kept V (by decide)
theorem kept_main_arg9 (V : Valuation τ sig (Elt F)) :
    after (ops (F := F)) V (Proc.devRef .tc main_arg9) = V (Proc.devRef .tc main_arg9) := kept V (by decide)
theorem kept_main_arg10 (V : Valuation τ sig (Elt F)) :
    after (ops (F := F)) V (Proc.devRef .tc main_arg10) = V (Proc.devRef .tc main_arg10) := kept V (by decide)
theorem kept_main_arg11 (V : Valuation τ sig (Elt F)) :
    after (ops (F := F)) V (Proc.devRef .tc main_arg11) = V (Proc.devRef .tc main_arg11) := kept V (by decide)
theorem kept_main_arg12 (V : Valuation τ sig (Elt F)) :
    after (ops (F := F)) V (Proc.devRef .tc main_arg12) = V (Proc.devRef .tc main_arg12) := kept V (by decide)
theorem kept_main_arg13 (V : Valuation τ sig (Elt F)) :
    after (ops (F := F)) V (Proc.devRef .tc main_arg13) = V (Proc.devRef .tc main_arg13) := kept V (by decide)
theorem kept_main_arg14 (V : Valuation τ sig (Elt F)) :
    after (ops (F := F)) V (Proc.devRef .tc main_arg14) = V (Proc.devRef .tc main_arg14) := kept V (by decide)
theorem kept_main_arg15 (V : Valuation τ sig (Elt F)) :
    after (ops (F := F)) V (Proc.devRef .tc main_arg15) = V (Proc.devRef .tc main_arg15) := kept V (by decide)
theorem kept_main_arg16 (V : Valuation τ sig (Elt F)) :
    after (ops (F := F)) V (Proc.devRef .tc main_arg16) = V (Proc.devRef .tc main_arg16) := kept V (by decide)
theorem kept_main_arg17 (V : Valuation τ sig (Elt F)) :
    after (ops (F := F)) V (Proc.devRef .tc main_arg17) = V (Proc.devRef .tc main_arg17) := kept V (by decide)
theorem kept_main_arg18 (V : Valuation τ sig (Elt F)) :
    after (ops (F := F)) V (Proc.devRef .tc main_arg18) = V (Proc.devRef .tc main_arg18) := kept V (by decide)
theorem kept_main_arg19 (V : Valuation τ sig (Elt F)) :
    after (ops (F := F)) V (Proc.devRef .tc main_arg19) = V (Proc.devRef .tc main_arg19) := kept V (by decide)
theorem kept_main_arg20 (V : Valuation τ sig (Elt F)) :
    after (ops (F := F)) V (Proc.devRef .tc main_arg20) = V (Proc.devRef .tc main_arg20) := kept V (by decide)
theorem kept_main_arg21 (V : Valuation τ sig (Elt F)) :
    after (ops (F := F)) V (Proc.devRef .tc main_arg21) = V (Proc.devRef .tc main_arg21) := kept V (by decide)
theorem kept_main_arg22 (V : Valuation τ sig (Elt F)) :
    after (ops (F := F)) V (Proc.devRef .tc main_arg22) = V (Proc.devRef .tc main_arg22) := kept V (by decide)
theorem kept_main_arg23 (V : Valuation τ sig (Elt F)) :
    after (ops (F := F)) V (Proc.devRef .tc main_arg23) = V (Proc.devRef .tc main_arg23) := kept V (by decide)
theorem kept_main_arg24 (V : Valuation τ sig (Elt F)) :
    after (ops (F := F)) V (Proc.devRef .tc main_arg24) = V (Proc.devRef .tc main_arg24) := kept V (by decide)
theorem kept_main_arg25 (V : Valuation τ sig (Elt F)) :
    after (ops (F := F)) V (Proc.devRef .tc main_arg25) = V (Proc.devRef .tc main_arg25) := kept V (by decide)
theorem kept_main_arg26 (V : Valuation τ sig (Elt F)) :
    after (ops (F := F)) V (Proc.devRef .tc main_arg26) = V (Proc.devRef .tc main_arg26) := kept V (by decide)
theorem kept_main_arg27 (V : Valuation τ sig (Elt F)) :
    after (ops (F := F)) V (Proc.devRef .tc main_arg27) = V (Proc.devRef .tc main_arg27) := kept V (by decide)

end Cert.ReferenceIdeal.Hand

end
-- ==== Proof.RefFrame.lean ====
/- The reference program runs and leaves its arguments as launched: the run of the flat line, read at the
   arguments' buffers, none of which the line writes. -/
import proofs.«107288_j13769665151544_2_alg».proof.Defs
import proofs.«107288_j13769665151544_2_alg».proof.Proof.Gen.Pre_finite_inputs
import proofs.«107288_j13769665151544_2_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

/-- The reference terminates without fault and every argument array ends unchanged. -/
theorem frame : Cert.frame_ReferenceIdeal := fun m g _ =>
  (θ_run (defs (F := Ideal)) _ _).mono (fun _ h c =>
    ⟨(h c main_arg0).trans (kept_main_arg0 _),
     (h c main_arg1).trans (kept_main_arg1 _),
     (h c main_arg2).trans (kept_main_arg2 _),
     (h c main_arg3).trans (kept_main_arg3 _),
     (h c main_arg4).trans (kept_main_arg4 _),
     (h c main_arg5).trans (kept_main_arg5 _),
     (h c main_arg6).trans (kept_main_arg6 _),
     (h c main_arg7).trans (kept_main_arg7 _),
     (h c main_arg8).trans (kept_main_arg8 _),
     (h c main_arg9).trans (kept_main_arg9 _),
     (h c main_arg10).trans (kept_main_arg10 _),
     (h c main_arg11).trans (kept_main_arg11 _),
     (h c main_arg12).trans (kept_main_arg12 _),
     (h c main_arg13).trans (kept_main_arg13 _),
     (h c main_arg14).trans (kept_main_arg14 _),
     (h c main_arg15).trans (kept_main_arg15 _),
     (h c main_arg16).trans (kept_main_arg16 _),
     (h c main_arg17).trans (kept_main_arg17 _),
     (h c main_arg18).trans (kept_main_arg18 _),
     (h c main_arg19).trans (kept_main_arg19 _),
     (h c main_arg20).trans (kept_main_arg20 _),
     (h c main_arg21).trans (kept_main_arg21 _),
     (h c main_arg22).trans (kept_main_arg22 _),
     (h c main_arg23).trans (kept_main_arg23 _),
     (h c main_arg24).trans (kept_main_arg24 _),
     (h c main_arg25).trans (kept_main_arg25 _),
     (h c main_arg26).trans (kept_main_arg26 _),
     (h c main_arg27).trans (kept_main_arg27 _)⟩)
    (run (F := Ideal) m g)

end Cert.ReferenceIdeal.Hand

end
-- ==== Proof.LibTypedRef.lean ====
/-
  A typed reference to a buffer carries the equation between the buffer's type and the value's type, and a value
  crosses between the two by transport along it.  Carried to the buffer's type and back (or back and forth the other
  way) a value is unchanged.  A host line written over typed references wraps its function in one crossing per operand
  and one per result; when many such lines are read back as one composed term the crossings nest in pairs, result of
  one line against operand of the next, and rewriting with these equations removes every pair, leaving the plain
  composition of the lines' functions.
-/
import Idealize.ShloMosaic.Lib.StableHlo

namespace Cert.LibTypedRef

open Idealize.ShloMosaic Idealize.ShloMosaic.StableHlo

variable {sig : RefSig} {Val : EltTy → Type} {T : BufTy}

/-- A value carried to the buffer's own type and back is the value. -/
theorem ofBuf_toBuf (x : TRef sig T) (v : T.Contents Val) : x.ofBuf (x.toBuf v) = v := by
  obtain ⟨r, rfl, h2, h3⟩ := x
  rfl

/-- Contents of the buffer carried to the value's type and back are the contents. -/
theorem toBuf_ofBuf (x : TRef sig T) (v : x.ref.ty.Contents Val) : x.toBuf (x.ofBuf v) = v := by
  obtain ⟨r, rfl, h2, h3⟩ := x
  rfl

end Cert.LibTypedRef
-- ==== Proof.KerRead.lean ====
/-
  The host stretches of the idealized kernel between its regions, read back one group at a time over a VARIABLE
  valuation: the buffer contents after a group as the composition of the group's operations applied to the contents
  before it. Reshapes of vectors to rows and columns, the four row blocks of the first gate matrix, and the buffers a
  group leaves alone.
-/
import proofs.«107288_j13769665151544_2_alg».proof.Proof.Gen.KernelIdeal.Launch
import proofs.«107288_j13769665151544_2_alg».proof.Proof.LibTypedRef
import Idealize.ShloMosaic.Lib.StableHlo.Run
import Idealize.ShloMosaic.PureOps.Ideal

noncomputable section

namespace Cert.KernelIdeal.Hand

open Cert.KernelIdeal Cert.KernelIdeal.Gen Idealize.ShloMosaic Idealize.ShloMosaic.TcCoe Idealize.SL.Sem Idealize.ShloMosaic.StableHlo

/-- The contents after the stretches of group 0 from contents `U`. -/
abbrev G0 (U : Valuation τ sig (Elt Ideal)) : Valuation τ sig (Elt Ideal) :=
  after (hostOps0_4 (F := Ideal)) (after (hostOps0_3 (F := Ideal)) (after (hostOps0_2 (F := Ideal)) (after (hostOps0_1 (F := Ideal)) (after (hostOps0 (F := Ideal)) (U)))))

/-- The contents after the stretches of group 1 from contents `U`. -/
abbrev G1 (U : Valuation τ sig (Elt Ideal)) : Valuation τ sig (Elt Ideal) :=
  after (hostOps1_2 (F := Ideal)) (after (hostOps1_1 (F := Ideal)) (after (hostOps1 (F := Ideal)) (U)))

/-- The contents after the stretches of group 2 from contents `U`. -/
abbrev G2 (U : Valuation τ sig (Elt Ideal)) : Valuation τ sig (Elt Ideal) :=
  after (hostOps2 (F := Ideal)) (U)

/-- The contents after the stretches of group 3 from contents `U`. -/
abbrev G3 (U : Valuation τ sig (Elt Ideal)) : Valuation τ sig (Elt Ideal) :=
  after (hostOps3_6 (F := Ideal)) (after (hostOps3_5 (F := Ideal)) (after (hostOps3_4 (F := Ideal)) (after (hostOps3_3 (F := Ideal)) (after (hostOps3_2 (F := Ideal)) (after (hostOps3_1 (F := Ideal)) (after (hostOps3 (F := Ideal)) (U)))))))

/-- The contents after the stretches of group 4 from contents `U`. -/
abbrev G4 (U : Valuation τ sig (Elt Ideal)) : Valuation τ sig (Elt Ideal) :=
  after (hostOps4_2 (F := Ideal)) (after (hostOps4_1 (F := Ideal)) (after (hostOps4 (F := Ideal)) (U)))

/-- The contents after the stretches of group 5 from contents `U`. -/
abbrev G5 (U : Valuation τ sig (Elt Ideal)) : Valuation τ sig (Elt Ideal) :=
  after (hostOps5 (F := Ideal)) (U)

/-- The contents after the stretches of group 6 from contents `U`. -/
abbrev G6 (U : Valuation τ sig (Elt Ideal)) : Valuation τ sig (Elt Ideal) :=
  after (hostOps6_2 (F := Ideal)) (after (hostOps6_1 (F := Ideal)) (after (hostOps6 (F := Ideal)) (U)))

/-- Unfold the stretches' operation lists, read every operation's result at its own buffer and every other buffer
    through it, and drop the typed references' paired type crossings. -/
macro "kread" : tactic => `(tactic| (
  simp only [G0, G1, G2, G3, G4, G5, G6, hostOps0, hostOps0_1, hostOps0_2, hostOps0_3, hostOps0_4, hostOps1, hostOps1_1, hostOps1_2, hostOps2, hostOps3, hostOps3_1, hostOps3_2, hostOps3_3, hostOps3_4, hostOps3_5, hostOps3_6, hostOps4, hostOps4_1, hostOps4_2, hostOps5, hostOps6, hostOps6_1, hostOps6_2]
  after_results_simp
  try simp only [Cert.LibTypedRef.ofBuf_toBuf, Cert.LibTypedRef.toBuf_ofBuf]))

variable (U : Valuation τ sig (Elt Ideal))

theorem G0_v27 : G0 U (Proc.devRef .tc main_v27) = (fun i => shapeCast main_v27.ty.shape (G0 U (Proc.devRef .tc main_v10)) shapeCasts_S100000_S100000x1 i) := by
  kread

theorem G0_v26 : G0 U (Proc.devRef .tc main_v26) = (fun i => shapeCast main_v26.ty.shape (U (Proc.devRef .tc main_arg6)) shapeCasts_S64_S1x64 i) := by
  kread

theorem G0_arg5 : G0 U (Proc.devRef .tc main_arg5) = U (Proc.devRef .tc main_arg5) := by
  kread

theorem G1_v28 : G1 U (Proc.devRef .tc main_v28) = U (Proc.devRef .tc main_v28) := by
  kread

theorem G1_v32 : G1 U (Proc.devRef .tc main_v32) = (fun i => shapeCast main_v32.ty.shape (G1 U (Proc.devRef .tc main_v31)) shapeCasts_S64_S1x64 i) := by
  kread

theorem G1_v34 : G1 U (Proc.devRef .tc main_v34) = (fun i => shapeCast main_v34.ty.shape (G1 U (Proc.devRef .tc main_v33)) shapeCasts_S64_S1x64 i) := by
  kread

theorem G1_v35 : G1 U (Proc.devRef .tc main_v35) = (fun i => shapeCast main_v35.ty.shape (U (Proc.devRef .tc main_arg7)) shapeCasts_S64_S1x64 i) := by
  kread

theorem G1_v36 : G1 U (Proc.devRef .tc main_v36) = (fun i => shapeCast main_v36.ty.shape (U (Proc.devRef .tc main_arg8)) shapeCasts_S64_S1x64 i) := by
  kread

theorem G1_v37 : G1 U (Proc.devRef .tc main_v37) = (fun i => shapeCast main_v37.ty.shape (U (Proc.devRef .tc main_v8)) shapeCasts_S100000_S100000x1 i) := by
  kread

theorem G1_v10 : G1 U (Proc.devRef .tc main_v10) = U (Proc.devRef .tc main_v10) := by
  kread

theorem G2_v51 : G2 U (Proc.devRef .tc main_v51) = (fun i => shapeCast main_v51.ty.shape (U (Proc.devRef .tc main_v10)) shapeCasts_S100000_S100000x1 i) := by
  kread

theorem G2_v50 : G2 U (Proc.devRef .tc main_v50) = (fun i => shapeCast main_v50.ty.shape (U (Proc.devRef .tc main_arg10)) shapeCasts_S64_S1x64 i) := by
  kread

theorem G2_arg9 : G2 U (Proc.devRef .tc main_arg9) = U (Proc.devRef .tc main_arg9) := by
  kread

theorem G3_v84 : G3 U (Proc.devRef .tc main_v84) = (fun i => shapeCast main_v84.ty.shape (G3 U (Proc.devRef .tc main_v67)) shapeCasts_S100000_S100000x1 i) := by
  kread

theorem G3_v83 : G3 U (Proc.devRef .tc main_v83) = (fun i => shapeCast main_v83.ty.shape (U (Proc.devRef .tc main_arg14)) shapeCasts_S64_S1x64 i) := by
  kread

theorem G3_arg13 : G3 U (Proc.devRef .tc main_arg13) = U (Proc.devRef .tc main_arg13) := by
  kread

theorem G3_v52 : G3 U (Proc.devRef .tc main_v52) = U (Proc.devRef .tc main_v52) := by
  kread

theorem G4_v85 : G4 U (Proc.devRef .tc main_v85) = U (Proc.devRef .tc main_v85) := by
  kread

theorem G4_v89 : G4 U (Proc.devRef .tc main_v89) = (fun i => shapeCast main_v89.ty.shape (G4 U (Proc.devRef .tc main_v88)) shapeCasts_S64_S1x64 i) := by
  kread

theorem G4_v91 : G4 U (Proc.devRef .tc main_v91) = (fun i => shapeCast main_v91.ty.shape (G4 U (Proc.devRef .tc main_v90)) shapeCasts_S64_S1x64 i) := by
  kread

theorem G4_v92 : G4 U (Proc.devRef .tc main_v92) = (fun i => shapeCast main_v92.ty.shape (U (Proc.devRef .tc main_arg15)) shapeCasts_S64_S1x64 i) := by
  kread

theorem G4_v93 : G4 U (Proc.devRef .tc main_v93) = (fun i => shapeCast main_v93.ty.shape (U (Proc.devRef .tc main_arg16)) shapeCasts_S64_S1x64 i) := by
  kread

theorem G4_v94 : G4 U (Proc.devRef .tc main_v94) = (fun i => shapeCast main_v94.ty.shape (U (Proc.devRef .tc main_v65)) shapeCasts_S100000_S100000x1 i) := by
  kread

theorem G4_v67 : G4 U (Proc.devRef .tc main_v67) = U (Proc.devRef .tc main_v67) := by
  kread

theorem G4_v52 : G4 U (Proc.devRef .tc main_v52) = U (Proc.devRef .tc main_v52) := by
  kread

theorem G4_v55 : G4 U (Proc.devRef .tc main_v55) = U (Proc.devRef .tc main_v55) := by
  kread

theorem G4_v56 : G4 U (Proc.devRef .tc main_v56) = U (Proc.devRef .tc main_v56) := by
  kread

theorem G5_v108 : G5 U (Proc.devRef .tc main_v108) = (fun i => shapeCast main_v108.ty.shape (U (Proc.devRef .tc main_v67)) shapeCasts_S100000_S100000x1 i) := by
  kread

theorem G5_v107 : G5 U (Proc.devRef .tc main_v107) = (fun i => shapeCast main_v107.ty.shape (U (Proc.devRef .tc main_arg18)) shapeCasts_S64_S1x64 i) := by
  kread

theorem G5_arg17 : G5 U (Proc.devRef .tc main_arg17) = U (Proc.devRef .tc main_arg17) := by
  kread

theorem G5_v52 : G5 U (Proc.devRef .tc main_v52) = U (Proc.devRef .tc main_v52) := by
  kread

theorem G5_v55 : G5 U (Proc.devRef .tc main_v55) = U (Proc.devRef .tc main_v55) := by
  kread

theorem G5_v56 : G5 U (Proc.devRef .tc main_v56) = U (Proc.devRef .tc main_v56) := by
  kread

theorem G6_v52 : G6 U (Proc.devRef .tc main_v52) = U (Proc.devRef .tc main_v52) := by
  kread

theorem G6_v109 : G6 U (Proc.devRef .tc main_v109) = U (Proc.devRef .tc main_v109) := by
  kread

theorem G6_v118 : G6 U (Proc.devRef .tc main_v118) = (fun i => shapeCast main_v118.ty.shape (U (Proc.devRef .tc main_v55)) shapeCasts_S64_S1x64 i) := by
  kread

theorem G6_v119 : G6 U (Proc.devRef .tc main_v119) = (fun i => shapeCast main_v119.ty.shape (U (Proc.devRef .tc main_v56)) shapeCasts_S64_S1x64 i) := by
  kread

theorem G6_v120 : G6 U (Proc.devRef .tc main_v120) = (fun i => shapeCast main_v120.ty.shape (U (Proc.devRef .tc main_arg11)) shapeCasts_S64_S1x64 i) := by
  kread

theorem G6_v121 : G6 U (Proc.devRef .tc main_v121) = (fun i => shapeCast main_v121.ty.shape (U (Proc.devRef .tc main_arg12)) shapeCasts_S64_S1x64 i) := by
  kread

theorem G6_v122 : G6 U (Proc.devRef .tc main_v122) = (fun i => shapeCast main_v122.ty.shape (G6 U (Proc.devRef .tc main_v112)) shapeCasts_S64_S1x64 i) := by
  kread

theorem G6_v123 : G6 U (Proc.devRef .tc main_v123) = (fun i => shapeCast main_v123.ty.shape (G6 U (Proc.devRef .tc main_v113)) shapeCasts_S64_S1x64 i) := by
  kread

theorem G6_v124 : G6 U (Proc.devRef .tc main_v124) = (fun i => shapeCast main_v124.ty.shape (U (Proc.devRef .tc main_arg19)) shapeCasts_S64_S1x64 i) := by
  kread

theorem G6_v125 : G6 U (Proc.devRef .tc main_v125) = (fun i => shapeCast main_v125.ty.shape (U (Proc.devRef .tc main_arg20)) shapeCasts_S64_S1x64 i) := by
  kread

theorem G6_v126 : G6 U (Proc.devRef .tc main_v126) = (fun i => shapeCast main_v126.ty.shape (U (Proc.devRef .tc main_arg22)) shapeCasts_S64_S1x64 i) := by
  kread

theorem G6_v128 : G6 U (Proc.devRef .tc main_v128) = (fun i => shapeCast main_v128.ty.shape (U (Proc.devRef .tc main_arg25)) shapeCasts_S64_S1x64 i) := by
  kread

theorem G6_arg24 : G6 U (Proc.devRef .tc main_arg24) = U (Proc.devRef .tc main_arg24) := by
  kread

theorem G6_arg26 : G6 U (Proc.devRef .tc main_arg26) = U (Proc.devRef .tc main_arg26) := by
  kread

theorem G6_v114 : G6 U (Proc.devRef .tc main_v114) = (extractStridedSlice S64x64 ![0, 0] (U (Proc.devRef .tc main_arg21)) slices_S256x64_S64x64_0_0) := by
  kread

theorem G6_v115 : G6 U (Proc.devRef .tc main_v115) = (extractStridedSlice S64x64 ![64, 0] (U (Proc.devRef .tc main_arg21)) slices_S256x64_S64x64_64_0) := by
  kread

theorem G6_v116 : G6 U (Proc.devRef .tc main_v116) = (extractStridedSlice S64x64 ![128, 0] (U (Proc.devRef .tc main_arg21)) slices_S256x64_S64x64_128_0) := by
  kread

theorem G6_v117 : G6 U (Proc.devRef .tc main_v117) = (extractStridedSlice S64x64 ![192, 0] (U (Proc.devRef .tc main_arg21)) slices_S256x64_S64x64_192_0) := by
  kread

theorem G6_v127 : G6 U (Proc.devRef .tc main_v127) = (fun i => shapeCast main_v127.ty.shape (U (Proc.devRef .tc main_arg23)) shapeCasts_S1_S1x1 i) := by
  kread

theorem G6_v129 : G6 U (Proc.devRef .tc main_v129) = (fun i => shapeCast main_v129.ty.shape (U (Proc.devRef .tc main_arg27)) shapeCasts_S129_S1x129 i) := by
  kread

end Cert.KernelIdeal.Hand

end
-- ==== Proof.Agree.lean ====
/-
  The host computations the two programs share, compared as folds. Between its regions the idealized kernel's @main
  runs the same host operations as the reference does between the corresponding values — node degrees clipped at one
  under an inverse square root, a row gather followed by a scatter-add into zeros, column means and variances —,
  differing only in a recast to bf16 and back that is the identity on extended reals. Each lemma takes contents of
  the two programs' buffers that agree on the inputs of such a stretch and concludes that the outputs agree.
-/
import proofs.«107288_j13769665151544_2_alg».proof.Proof.RefOps
import proofs.«107288_j13769665151544_2_alg».proof.Proof.KerRead

noncomputable section

namespace Cert.Agree

open Idealize.ShloMosaic Idealize.ShloMosaic.TcCoe Idealize.SL.Sem Idealize.ShloMosaic.StableHlo
open Cert.KernelIdeal.Gen Cert.KernelIdeal.Hand Cert.ReferenceIdeal.Hand

/-- Read both folds: unfold the operation lists on either side, every operation's result at its own buffer and every
    other buffer through it, and drop the typed references' paired type crossings. -/
macro "bread" : tactic => `(tactic| (
  simp only [G0, G1, G2, G3, G4, G5, G6, hostOps0, hostOps0_1, hostOps0_2, hostOps0_3, hostOps0_4, hostOps1, hostOps1_1, hostOps1_2, hostOps2, hostOps3, hostOps3_1, hostOps3_2, hostOps3_3, hostOps3_4, hostOps3_5, hostOps3_6, hostOps4, hostOps4_1, hostOps4_2, hostOps5, hostOps6, hostOps6_1, hostOps6_2, opsS1, opsS2, opsS3, opsS4, opsS5, opsS6, opsS7, opsS8, opsS9, opsS10, opsS11, opsS12, opsS13, opsS14, opsS15, opsS16, opsS17]
  after_results_simp
  try simp only [Cert.LibTypedRef.ofBuf_toBuf, Cert.LibTypedRef.toBuf_ofBuf]))

variable (U : Valuation Cert.KernelIdeal.τ Cert.KernelIdeal.sig (Elt Ideal))
variable (U' : Valuation Cert.ReferenceIdeal.τ Cert.ReferenceIdeal.sig (Elt Ideal))

theorem ns1A (h0 : U' (Proc.devRef .tc Cert.ReferenceIdeal.main_arg1) = U (Proc.devRef .tc Cert.KernelIdeal.main_arg1)) :
    after (opsS1 (F := Ideal)) U' (Proc.devRef .tc Cert.ReferenceIdeal.main_v8) = G0 U (Proc.devRef .tc Cert.KernelIdeal.main_v8) := by
  bread
  rw [h0]
  rfl

theorem nd1A (h0 : U' (Proc.devRef .tc Cert.ReferenceIdeal.main_arg2) = U (Proc.devRef .tc Cert.KernelIdeal.main_arg2)) :
    after (opsS1 (F := Ideal)) U' (Proc.devRef .tc Cert.ReferenceIdeal.main_v10) = G0 U (Proc.devRef .tc Cert.KernelIdeal.main_v10) := by
  bread
  rw [h0]
  rfl

theorem agg1A (h0 : U' (Proc.devRef .tc Cert.ReferenceIdeal.main_arg0) = U (Proc.devRef .tc Cert.KernelIdeal.main_arg0)) (h1 : U' (Proc.devRef .tc Cert.ReferenceIdeal.main_arg1) = U (Proc.devRef .tc Cert.KernelIdeal.main_arg1)) (h2 : U' (Proc.devRef .tc Cert.ReferenceIdeal.main_arg2) = U (Proc.devRef .tc Cert.KernelIdeal.main_arg2)) :
    after (opsS1 (F := Ideal)) U' (Proc.devRef .tc Cert.ReferenceIdeal.main_v23) = G0 U (Proc.devRef .tc Cert.KernelIdeal.main_v25) := by
  bread
  rw [h0, h1, h2]
  rfl

theorem mean1A (h0 : U' (Proc.devRef .tc Cert.ReferenceIdeal.main_v31) = U (Proc.devRef .tc Cert.KernelIdeal.main_v28)) :
    after (opsS3 (F := Ideal)) U' (Proc.devRef .tc Cert.ReferenceIdeal.main_v34) = G1 U (Proc.devRef .tc Cert.KernelIdeal.main_v31) := by
  bread
  rw [h0]

theorem var1A (h0 : U' (Proc.devRef .tc Cert.ReferenceIdeal.main_v31) = U (Proc.devRef .tc Cert.KernelIdeal.main_v28)) :
    after (opsS3 (F := Ideal)) U' (Proc.devRef .tc Cert.ReferenceIdeal.main_v35) = G1 U (Proc.devRef .tc Cert.KernelIdeal.main_v33) := by
  bread
  rw [h0]

theorem ns2A (h0 : U' (Proc.devRef .tc Cert.ReferenceIdeal.main_arg1) = U (Proc.devRef .tc Cert.KernelIdeal.main_arg1)) :
    after (opsS4 (F := Ideal)) U' (Proc.devRef .tc Cert.ReferenceIdeal.main_v59) = G0 U (Proc.devRef .tc Cert.KernelIdeal.main_v8) := by
  bread
  rw [h0]
  rfl

theorem nd2A (h0 : U' (Proc.devRef .tc Cert.ReferenceIdeal.main_arg2) = U (Proc.devRef .tc Cert.KernelIdeal.main_arg2)) :
    after (opsS4 (F := Ideal)) U' (Proc.devRef .tc Cert.ReferenceIdeal.main_v61) = G0 U (Proc.devRef .tc Cert.KernelIdeal.main_v10) := by
  bread
  rw [h0]
  rfl

theorem agg2A (h0 : U' (Proc.devRef .tc Cert.ReferenceIdeal.main_v64) = U (Proc.devRef .tc Cert.KernelIdeal.main_v38)) (h1 : U' (Proc.devRef .tc Cert.ReferenceIdeal.main_arg1) = U (Proc.devRef .tc Cert.KernelIdeal.main_arg1)) (h2 : U' (Proc.devRef .tc Cert.ReferenceIdeal.main_arg2) = U (Proc.devRef .tc Cert.KernelIdeal.main_arg2)) :
    after (opsS5 (F := Ideal)) U' (Proc.devRef .tc Cert.ReferenceIdeal.main_v74) = G2 U (Proc.devRef .tc Cert.KernelIdeal.main_v49) := by
  bread
  rw [h0, h1, h2]
  rfl

theorem mean2A (h0 : U' (Proc.devRef .tc Cert.ReferenceIdeal.main_v82) = U (Proc.devRef .tc Cert.KernelIdeal.main_v52)) :
    after (opsS7 (F := Ideal)) U' (Proc.devRef .tc Cert.ReferenceIdeal.main_v85) = G3 U (Proc.devRef .tc Cert.KernelIdeal.main_v55) := by
  bread
  rw [h0]

theorem var2A (h0 : U' (Proc.devRef .tc Cert.ReferenceIdeal.main_v82) = U (Proc.devRef .tc Cert.KernelIdeal.main_v52)) :
    after (opsS7 (F := Ideal)) U' (Proc.devRef .tc Cert.ReferenceIdeal.main_v86) = G3 U (Proc.devRef .tc Cert.KernelIdeal.main_v56) := by
  bread
  rw [h0]

theorem ns1B (h0 : U' (Proc.devRef .tc Cert.ReferenceIdeal.main_arg3) = U (Proc.devRef .tc Cert.KernelIdeal.main_arg3)) :
    after (opsS9 (F := Ideal)) U' (Proc.devRef .tc Cert.ReferenceIdeal.main_v110) = G3 U (Proc.devRef .tc Cert.KernelIdeal.main_v65) := by
  bread
  rw [h0]
  rfl

theorem nd1B (h0 : U' (Proc.devRef .tc Cert.ReferenceIdeal.main_arg4) = U (Proc.devRef .tc Cert.KernelIdeal.main_arg4)) :
    after (opsS9 (F := Ideal)) U' (Proc.devRef .tc Cert.ReferenceIdeal.main_v112) = G3 U (Proc.devRef .tc Cert.KernelIdeal.main_v67) := by
  bread
  rw [h0]
  rfl

theorem agg1B (h0 : U' (Proc.devRef .tc Cert.ReferenceIdeal.main_arg0) = U (Proc.devRef .tc Cert.KernelIdeal.main_arg0)) (h1 : U' (Proc.devRef .tc Cert.ReferenceIdeal.main_arg3) = U (Proc.devRef .tc Cert.KernelIdeal.main_arg3)) (h2 : U' (Proc.devRef .tc Cert.ReferenceIdeal.main_arg4) = U (Proc.devRef .tc Cert.KernelIdeal.main_arg4)) :
    after (opsS9 (F := Ideal)) U' (Proc.devRef .tc Cert.ReferenceIdeal.main_v125) = G3 U (Proc.devRef .tc Cert.KernelIdeal.main_v82) := by
  bread
  rw [h0, h1, h2]
  rfl

theorem mean1B (h0 : U' (Proc.devRef .tc Cert.ReferenceIdeal.main_v133) = U (Proc.devRef .tc Cert.KernelIdeal.main_v85)) :
    after (opsS11 (F := Ideal)) U' (Proc.devRef .tc Cert.ReferenceIdeal.main_v136) = G4 U (Proc.devRef .tc Cert.KernelIdeal.main_v88) := by
  bread
  rw [h0]

theorem var1B (h0 : U' (Proc.devRef .tc Cert.ReferenceIdeal.main_v133) = U (Proc.devRef .tc Cert.KernelIdeal.main_v85)) :
    after (opsS11 (F := Ideal)) U' (Proc.devRef .tc Cert.ReferenceIdeal.main_v137) = G4 U (Proc.devRef .tc Cert.KernelIdeal.main_v90) := by
  bread
  rw [h0]

theorem ns2B (h0 : U' (Proc.devRef .tc Cert.ReferenceIdeal.main_arg3) = U (Proc.devRef .tc Cert.KernelIdeal.main_arg3)) :
    after (opsS12 (F := Ideal)) U' (Proc.devRef .tc Cert.ReferenceIdeal.main_v161) = G3 U (Proc.devRef .tc Cert.KernelIdeal.main_v65) := by
  bread
  rw [h0]
  rfl

theorem nd2B (h0 : U' (Proc.devRef .tc Cert.ReferenceIdeal.main_arg4) = U (Proc.devRef .tc Cert.KernelIdeal.main_arg4)) :
    after (opsS12 (F := Ideal)) U' (Proc.devRef .tc Cert.ReferenceIdeal.main_v163) = G3 U (Proc.devRef .tc Cert.KernelIdeal.main_v67) := by
  bread
  rw [h0]
  rfl

theorem agg2B (h0 : U' (Proc.devRef .tc Cert.ReferenceIdeal.main_v166) = U (Proc.devRef .tc Cert.KernelIdeal.main_v95)) (h1 : U' (Proc.devRef .tc Cert.ReferenceIdeal.main_arg3) = U (Proc.devRef .tc Cert.KernelIdeal.main_arg3)) (h2 : U' (Proc.devRef .tc Cert.ReferenceIdeal.main_arg4) = U (Proc.devRef .tc Cert.KernelIdeal.main_arg4)) :
    after (opsS13 (F := Ideal)) U' (Proc.devRef .tc Cert.ReferenceIdeal.main_v176) = G5 U (Proc.devRef .tc Cert.KernelIdeal.main_v106) := by
  bread
  rw [h0, h1, h2]
  rfl

theorem mean2B (h0 : U' (Proc.devRef .tc Cert.ReferenceIdeal.main_v184) = U (Proc.devRef .tc Cert.KernelIdeal.main_v109)) :
    after (opsS15 (F := Ideal)) U' (Proc.devRef .tc Cert.ReferenceIdeal.main_v187) = G6 U (Proc.devRef .tc Cert.KernelIdeal.main_v112) := by
  bread
  rw [h0]

theorem var2B (h0 : U' (Proc.devRef .tc Cert.ReferenceIdeal.main_v184) = U (Proc.devRef .tc Cert.KernelIdeal.main_v109)) :
    after (opsS15 (F := Ideal)) U' (Proc.devRef .tc Cert.ReferenceIdeal.main_v188) = G6 U (Proc.devRef .tc Cert.KernelIdeal.main_v113) := by
  bread
  rw [h0]

end Cert.Agree

end
-- ==== Proof.LibRowTiles.lean ====
/-
  A matrix computed in tiles of rows, read as one function of the whole arrays; and the two ways of laying a bias vector
  along the rows of a matrix before a maximum with zero. Nothing here depends on a program; every extent is a variable.

  * `prod X W` is the product of an M × K matrix and a K × N matrix, entry by entry: (i, j) ↦ Σ_k X(i, k) · W(k, j), an exact
    finite sum of extended reals. The host's `dot_general` with the plain dimension numbers is `prod` (`dotGeneral_eq_prod`).
    A tile of m rows of X times the whole W into the zero accumulator — after the change of float format a kernel makes
    on the way into the product, which is the identity on the ideal values — read at an entry of the tile is `prod X W` at
    the entry of the whole matrix that has the same row of X and the same column of W (`tile_prod_apply`).
  * `biasRelu A r` is (i, j) ↦ max (A(i, j) + r(0, j)) 0 for a one-row matrix r. A tile of rows of A plus the row
    broadcast down the tile, under the maximum with the zero splat, read at an entry of the tile is `biasRelu A r` at the
    matching entry (`tile_biasRelu_apply`); the host's spelling — A plus the vector b broadcast first to one row along axis 1
    and then down the rows, under the maximum with the broadcast zero constant — is `biasRelu A` of b recast as one row
    (`host_biasRelu_eq`). No finiteness is used: each side is the same sum and the same maximum.
-/
import Idealize.ShloMosaic.Lib.StackMember
import Idealize.ShloMosaic.Lib.Pipeline.Value
import Idealize.ShloMosaic.Lib.ValueIdx
import Idealize.ShloMosaic.Lib.KernelVsHost
import Idealize.ShloMosaic.PureOps.Ideal.Laws

noncomputable section

namespace Cert.LibRowTiles

open Idealize.ShloMosaic Idealize.ShloMosaic.ValueIdx

/-- The product of an M × K matrix and a K × N matrix, entry by entry. -/
def prod {M K N : Nat} (X : FVec Ideal ⟨2, ![M, K]⟩ .f32) (W : FVec Ideal ⟨2, ![K, N]⟩ .f32) : FVec Ideal ⟨2, ![M, N]⟩ .f32 :=
  fun i => ∑ k : Fin K, X (ix2 (i 0) k) * W (ix2 k (i 1))

/-- The host's product with the plain dimension numbers is `prod`. -/
theorem dotGeneral_eq_prod {M K N : Nat} (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) : Host.dotGeneral d none X W = prod X W := by
  subst hd
  funext j
  conv_lhs => rw [eq_ix2 j]
  exact StackMember.dotGeneral_plain_apply none X W (j 0) (j 1)

/-- A tile's product into the zero accumulator, at an entry whose row of the tile is row `i 0` of X and whose column of
    the weights is column `i 1` of W, is the whole product at `i`. -/
theorem tile_prod_apply {m M K N : Nat} (d : DotDims ⟨2, ![m, K]⟩ ⟨2, ![K, N]⟩ ⟨2, ![m, N]⟩) (hd : d = DotDims.plain m K N)
    (h1 : FTy.bf16.bits < FTy.f32.bits)
    (xb : FVec Ideal ⟨2, ![m, K]⟩ .f32) (wb : FVec Ideal ⟨2, ![K, N]⟩ .f32)
    (X : FVec Ideal ⟨2, ![M, K]⟩ .f32) (W : FVec Ideal ⟨2, ![K, N]⟩ .f32)
    (y : (⟨2, ![m, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1))) :
    matmul d none (truncf .bf16 xb h1) (truncf .bf16 wb h1) (constant ⟨2, ![m, N]⟩ .f32 0x00000000#32) y = prod X W i := by
  subst hd
  rw [matmul_zero_eq_dotGeneral]
  conv_lhs => rw [eq_ix2 y]
  refine (StackMember.dotGeneral_plain_apply none (truncf .bf16 xb h1) (truncf .bf16 wb h1) (y 0) (y 1)).trans ?_
  exact Finset.sum_congr rfl fun k _ => congrArg₂ (· * ·) (hx k) (hw k)

/-- The same with the tile passed through a cast to its own shape first (how a kernel reads a block it has just loaded). -/
theorem tile_prod_cast_apply {m M K N : Nat} (d : DotDims ⟨2, ![m, K]⟩ ⟨2, ![K, N]⟩ ⟨2, ![m, N]⟩) (hd : d = DotDims.plain m K N)
    (h1 : FTy.bf16.bits < FTy.f32.bits) (hs : (⟨2, ![m, K]⟩ : Shape).ShapeCasts ⟨2, ![m, K]⟩)
    (xb : FVec Ideal ⟨2, ![m, K]⟩ .f32) (wb : FVec Ideal ⟨2, ![K, N]⟩ .f32)
    (X : FVec Ideal ⟨2, ![M, K]⟩ .f32) (W : FVec Ideal ⟨2, ![K, N]⟩ .f32)
    (y : (⟨2, ![m, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1))) :
    matmul d none (truncf .bf16 (shapeCast ⟨2, ![m, K]⟩ xb hs) h1) (truncf .bf16 wb h1) (constant ⟨2, ![m, N]⟩ .f32 0x00000000#32) y = prod X W i := by
  rw [shapeCast_self]
  exact tile_prod_apply d hd h1 xb wb X W y i hx hw

/-- A matrix plus a one-row matrix laid along every row, under the maximum with zero, entry by entry. -/
def biasRelu {M n : Nat} (A : FVec Ideal ⟨2, ![M, n]⟩ .f32) (r : FVec Ideal ⟨2, ![1, n]⟩ .f32) : FVec Ideal ⟨2, ![M, n]⟩ .f32 :=
  fun i => max (A i + r (ix2 (0 : Fin 1) (i 1))) (Ideal.ofBits .f32 0x00000000#32)

/-- A one-row matrix broadcast down m rows in the kernel's spelling, read at an entry, is the row at that column. -/
theorem broadcastTo_oneRow_at {α : Type} {m n : Nat} (b : (⟨2, ![1, n]⟩ : Shape).Idx → α)
    (hb : (⟨2, ![1, n]⟩ : Shape).Broadcasts ⟨2, ![m, n]⟩) (y : (⟨2, ![m, n]⟩ : Shape).Idx) :
    broadcastTo ⟨2, ![m, n]⟩ b hb y = b (ix2 (0 : Fin 1) (y 1)) := by
  refine broadcastTo_apply b hb y (ix2 (0 : Fin 1) (y 1)) ?_
  intro a
  match a with
  | ⟨0, _⟩ => rfl
  | ⟨1, _⟩ =>
    show (y 1).val = if n = 1 then 0 else (y 1).val
    split
    · have := idx2_lt1 y; omega
    · rfl

/-- A tile of rows plus the row broadcast down the tile, under the maximum with the zero splat, at an entry of the tile. -/
theorem tile_biasRelu_apply {m M n : Nat} (hb : (⟨2, ![1, n]⟩ : Shape).Broadcasts ⟨2, ![m, n]⟩)
    (ab : FVec Ideal ⟨2, ![m, n]⟩ .f32) (rb : FVec Ideal ⟨2, ![1, n]⟩ .f32)
    (A : FVec Ideal ⟨2, ![M, n]⟩ .f32) (r : FVec Ideal ⟨2, ![1, n]⟩ .f32)
    (y : (⟨2, ![m, n]⟩ : Shape).Idx) (i : (⟨2, ![M, n]⟩ : Shape).Idx)
    (ha : ab y = A i) (hr : rb (ix2 (0 : Fin 1) (y 1)) = r (ix2 (0 : Fin 1) (i 1))) :
    maximumf (addf ab (broadcastTo ⟨2, ![m, n]⟩ rb hb)) (broadcast ⟨2, ![m, n]⟩ (Scalar.ofBits (F := Ideal) .f32 0x00000000#32)) y
      = biasRelu A r i := by
  show max (ab y + broadcastTo ⟨2, ![m, n]⟩ rb hb y) (Ideal.ofBits .f32 0x00000000#32) = max (A i + r (ix2 (0 : Fin 1) (i 1))) _
  rw [broadcastTo_oneRow_at rb hb y, ha, hr]

/-- The same with the tile and the row each passed through a cast to its own shape first. -/
theorem tile_biasRelu_cast_apply {m M n : Nat} (hs1 : (⟨2, ![m, n]⟩ : Shape).ShapeCasts ⟨2, ![m, n]⟩)
    (hs2 : (⟨2, ![1, n]⟩ : Shape).ShapeCasts ⟨2, ![1, n]⟩) (hb : (⟨2, ![1, n]⟩ : Shape).Broadcasts ⟨2, ![m, n]⟩)
    (ab : FVec Ideal ⟨2, ![m, n]⟩ .f32) (rb : FVec Ideal ⟨2, ![1, n]⟩ .f32)
    (A : FVec Ideal ⟨2, ![M, n]⟩ .f32) (r : FVec Ideal ⟨2, ![1, n]⟩ .f32)
    (y : (⟨2, ![m, n]⟩ : Shape).Idx) (i : (⟨2, ![M, n]⟩ : Shape).Idx)
    (ha : ab y = A i) (hr : rb (ix2 (0 : Fin 1) (y 1)) = r (ix2 (0 : Fin 1) (i 1))) :
    maximumf (addf (shapeCast ⟨2, ![m, n]⟩ ab hs1) (broadcastTo ⟨2, ![m, n]⟩ (shapeCast ⟨2, ![1, n]⟩ rb hs2) hb))
        (broadcast ⟨2, ![m, n]⟩ (Scalar.ofBits (F := Ideal) .f32 0x00000000#32)) y
      = biasRelu A r i := by
  rw [shapeCast_self, shapeCast_self]
  exact tile_biasRelu_apply hb ab rb A r y i ha hr

/-- The host's spelling of the same function of the whole arrays: the bias vector b broadcast to one row along axis 1 and
    then down the rows, added, under the maximum with the broadcast zero constant. -/
theorem host_biasRelu_eq {M n : Nat} (dims0 : Fin 0 → Fin 2)
    (hd1 : (⟨1, ![n]⟩ : Shape).BroadcastsInDim ⟨2, ![1, n]⟩ ![1])
    (hd2 : (⟨2, ![1, n]⟩ : Shape).BroadcastsInDim ⟨2, ![M, n]⟩ ![0, 1])
    (h0 : (⟨0, ![]⟩ : Shape).BroadcastsInDim ⟨2, ![M, n]⟩ dims0)
    (h1 : (⟨1, ![n]⟩ : Shape).ShapeCasts ⟨2, ![1, n]⟩)
    (A : FVec Ideal ⟨2, ![M, n]⟩ .f32) (b : FVec Ideal ⟨1, ![n]⟩ .f32) :
    maximumf (addf A (broadcastInDim ⟨2, ![M, n]⟩ ![0, 1] hd2 (broadcastInDim ⟨2, ![1, n]⟩ ![1] hd1 b)))
        (broadcastInDim ⟨2, ![M, n]⟩ dims0 h0 (constant (F := Ideal) ⟨0, ![]⟩ .f32 0x00000000#32))
      = biasRelu A (shapeCast ⟨2, ![1, n]⟩ b h1) := by
  funext i
  show max (A i + broadcastInDim ⟨2, ![M, n]⟩ ![0, 1] hd2 (broadcastInDim ⟨2, ![1, n]⟩ ![1] hd1 b) i) (Ideal.ofBits .f32 0x00000000#32)
    = max (A i + shapeCast ⟨2, ![1, n]⟩ b h1 (ix2 (0 : Fin 1) (i 1))) _
  have e1 : broadcastInDim ⟨2, ![M, n]⟩ ![0, 1] hd2 (broadcastInDim ⟨2, ![1, n]⟩ ![1] hd1 b) i
      = broadcastInDim ⟨2, ![1, n]⟩ ![1] hd1 b (ix2 (0 : Fin 1) (i 1)) := by
    conv_lhs => rw [eq_ix2 i]
    exact broadcastInDim_oneRow_apply hd2 _ (i 0) (i 1)
  have e2 : broadcastInDim ⟨2, ![1, n]⟩ ![1] hd1 b (ix2 (0 : Fin 1) (i 1)) = b (ix1 (i 1)) := by
    refine broadcastInDim_apply ![1] hd1 b (ix2 (0 : Fin 1) (i 1)) (ix1 (i 1)) ?_
    intro a
    match a with
    | ⟨0, _⟩ =>
      show (i 1).val = if n = 1 then 0 else (i 1).val
      split
      · have := idx2_lt1 i; omega
      · rfl
  have e3 : shapeCast ⟨2, ![1, n]⟩ b h1 (ix2 (0 : Fin 1) (i 1)) = b (ix1 (i 1)) := by
    refine shapeCast_apply b h1 (ix2 (0 : Fin 1) (i 1)) (ix1 (i 1)) ?_
    rw [Shape.rowMajor_val_two, Shape.rowMajor_val_one]
    show (i 1).val = 0 * n + (i 1).val
    omega
  rw [e1, e2, e3]

/-- A vector recast as one row and broadcast down m rows (the kernel's spelling), at an entry, is the vector at the column. -/
theorem kernelRow_apply {α : Type} {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (i : (⟨2, ![m, n]⟩ : Shape).Idx) : broadcastTo ⟨2, ![m, n]⟩ (shapeCast ⟨2, ![1, n]⟩ b h1) hb i = b (ix1 (i 1)) := by
  rw [broadcastTo_oneRow_at]
  refine shapeCast_apply b h1 (ix2 (0 : Fin 1) (i 1)) (ix1 (i 1)) ?_
  rw [Shape.rowMajor_val_two, Shape.rowMajor_val_one]
  show (i 1).val = 0 * n + (i 1).val
  omega

/-- A vector broadcast to one row along axis 1 and then down m rows (the host's spelling), at an entry, is the vector at
    the column. -/
theorem hostRow_apply {α : Type} {m n : Nat} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1])
    (i : (⟨2, ![m, n]⟩ : Shape).Idx) :
    broadcastInDim ⟨2, ![m, n]⟩ ![0, 1] hd2 (broadcastInDim ⟨2, ![1, n]⟩ ![1] hd1 b) i = b (ix1 (i 1)) := by
  have e1 : broadcastInDim ⟨2, ![m, n]⟩ ![0, 1] hd2 (broadcastInDim ⟨2, ![1, n]⟩ ![1] hd1 b) i
      = broadcastInDim ⟨2, ![1, n]⟩ ![1] hd1 b (ix2 (0 : Fin 1) (i 1)) := by
    conv_lhs => rw [eq_ix2 i]
    exact broadcastInDim_oneRow_apply hd2 _ (i 0) (i 1)
  rw [e1]
  refine broadcastInDim_apply ![1] hd1 b (ix2 (0 : Fin 1) (i 1)) (ix1 (i 1)) ?_
  intro a
  match a with
  | ⟨0, _⟩ =>
    show (i 1).val = if n = 1 then 0 else (i 1).val
    split
    · have := idx2_lt1 i; omega
    · rfl

/-- The two spellings of a vector laid along every row are one array. -/
theorem kernelRow_eq_hostRow {α : Type} {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd1 : (⟨1, ![n]⟩ : Shape).BroadcastsInDim ⟨2, ![1, n]⟩ ![1])
    (hd2 : (⟨2, ![1, n]⟩ : Shape).BroadcastsInDim ⟨2, ![m, n]⟩ ![0, 1]) :
    broadcastTo ⟨2, ![m, n]⟩ (shapeCast ⟨2, ![1, n]⟩ b h1) hb
      = broadcastInDim ⟨2, ![m, n]⟩ ![0, 1] hd2 (broadcastInDim ⟨2, ![1, n]⟩ ![1] hd1 b) :=
  funext fun i => (kernelRow_apply b h1 hb i).trans (hostRow_apply b hd1 hd2 i).symm

/-- A whole matrix as its own tile: the kernel's product of the whole arrays into the zero accumulator is `prod`. -/
theorem matmul_eq_prod {M K N : Nat} (d : DotDims ⟨2, ![M, K]⟩ ⟨2, ![K, N]⟩ ⟨2, ![M, N]⟩) (hd : d = DotDims.plain M K N)
    (h1 : FTy.bf16.bits < FTy.f32.bits) (X : FVec Ideal ⟨2, ![M, K]⟩ .f32) (W : FVec Ideal ⟨2, ![K, N]⟩ .f32) :
    matmul d none (truncf .bf16 X h1) (truncf .bf16 W h1) (constant ⟨2, ![M, N]⟩ .f32 0x00000000#32) = prod X W :=
  funext fun y => tile_prod_apply d hd h1 X W X W y y (fun _ => rfl) (fun _ => rfl)

/-- A whole matrix as its own tile: the kernel's bias and relu of the whole arrays is `biasRelu`. -/
theorem kernel_biasRelu_eq {M n : Nat} (hb : (⟨2, ![1, n]⟩ : Shape).Broadcasts ⟨2, ![M, n]⟩)
    (A : FVec Ideal ⟨2, ![M, n]⟩ .f32) (r : FVec Ideal ⟨2, ![1, n]⟩ .f32) :
    maximumf (addf A (broadcastTo ⟨2, ![M, n]⟩ r hb)) (broadcast ⟨2, ![M, n]⟩ (Scalar.ofBits (F := Ideal) .f32 0x00000000#32))
      = biasRelu A r :=
  funext fun y => tile_biasRelu_apply hb A r A r y y rfl rfl

end Cert.LibRowTiles

end
-- ==== Proof.StageSpec.lean ====
/-
  The two row-local stages of the network, each as ONE function of whole arrays, index by index, and each stage's tile
  read at an entry. Nothing here depends on a program: shapes are literal, side conditions are hypotheses.

  * The graph-convolution stage. With v(i, j) = (Σ_k (agg(i, k) · nd(i, 0)) · W(k, j)) + b(0, j), the stage's value at
    (i, j) is v(i, j) where 0 < v(i, j) and exp v(i, j) − 1 elsewhere ("gconvG"). A tile of 2000 rows computes, from its
    rows of agg and nd and the whole W and b, exactly the entries of "gconvG" on those rows ("gconv_tile_apply"): a row of
    the product depends on that row of the left factor only, and a change of float format is the identity on the
    extended reals.
  * The batch-normalisation stage. "bnG" is ((x(i, j) − mu(0, j)) · rsqrt(var(0, j) + eps) · g(0, j) + bt(0, j)); "bnScaleG"
    is that times ns(i, 0). Every operand other than x is a row or a column, so a tile of rows again reads as the whole
    function on those rows ("bn_tile_apply").
-/
import Idealize.ShloMosaic.Lib.Pipeline.Value
import Idealize.ShloMosaic.Lib.ValueIdx
import Idealize.ShloMosaic.Lib.KernelVsHost
import Idealize.ShloMosaic.Lib.IdealHost
import Idealize.ShloMosaic.PureOps.Ideal.Laws
import proofs.«107288_j13769665151544_2_alg».proof.Proof.LibRowTiles

noncomputable section

namespace Cert.Stage

open Idealize.ShloMosaic Idealize.ShloMosaic.ValueIdx Cert.LibRowTiles

/-- The shapes of the stage: nodes × features, nodes × 1, features × features, 1 × features, and a tile of rows. -/
abbrev ShNH : Shape := ⟨2, ![100000, 64]⟩
abbrev ShN1 : Shape := ⟨2, ![100000, 1]⟩
abbrev ShHH : Shape := ⟨2, ![64, 64]⟩
abbrev Sh1H : Shape := ⟨2, ![1, 64]⟩
abbrev ShTH : Shape := ⟨2, ![2000, 64]⟩
abbrev ShT1 : Shape := ⟨2, ![2000, 1]⟩
abbrev ShN : Shape := ⟨1, ![100000]⟩
abbrev ShH : Shape := ⟨1, ![64]⟩

/-! ## Columns laid along the rows -/

/-- A column broadcast along m rows of width n (the kernel's spelling), read at an entry, is the column at the row. -/
theorem broadcastTo_oneCol_at {α : Type} {m n : Nat} (x : (⟨2, ![m, 1]⟩ : Shape).Idx → α)
    (hb : (⟨2, ![m, 1]⟩ : Shape).Broadcasts ⟨2, ![m, n]⟩) (y : (⟨2, ![m, n]⟩ : Shape).Idx) :
    broadcastTo ⟨2, ![m, n]⟩ x hb y = x (ix2 (y 0) (0 : Fin 1)) := by
  refine broadcastTo_apply x hb y (ix2 (y 0) (0 : Fin 1)) ?_
  intro a
  match a with
  | ⟨0, _⟩ =>
    show (y 0).val = if m = 1 then 0 else (y 0).val
    split
    · have := idx2_lt0 y; omega
    · rfl
  | ⟨1, _⟩ => rfl

/-- A vector broadcast into a column along axis 0 and then along the rows (the host's spelling), read at an entry, is the
    vector at the row. -/
theorem hostCol_apply {α : Type} {m n : Nat} (x : (⟨1, ![m]⟩ : Shape).Idx → α)
    (hd1 : (⟨1, ![m]⟩ : Shape).BroadcastsInDim ⟨2, ![m, 1]⟩ ![0])
    (hd2 : (⟨2, ![m, 1]⟩ : Shape).BroadcastsInDim ⟨2, ![m, n]⟩ ![0, 1])
    (i : (⟨2, ![m, n]⟩ : Shape).Idx) :
    broadcastInDim ⟨2, ![m, n]⟩ ![0, 1] hd2 (broadcastInDim ⟨2, ![m, 1]⟩ ![0] hd1 x) i = x (ix1 (i 0)) := by
  have e1 : broadcastInDim ⟨2, ![m, n]⟩ ![0, 1] hd2 (broadcastInDim ⟨2, ![m, 1]⟩ ![0] hd1 x) i
      = broadcastInDim ⟨2, ![m, 1]⟩ ![0] hd1 x (ix2 (i 0) (0 : Fin 1)) := by
    refine broadcastInDim_apply ![0, 1] hd2 _ i (ix2 (i 0) (0 : Fin 1)) ?_
    intro a
    match a with
    | ⟨0, _⟩ =>
      show (i 0).val = if m = 1 then 0 else (i 0).val
      split
      · have := idx2_lt0 i; omega
      · rfl
    | ⟨1, _⟩ => rfl
  rw [e1]
  refine broadcastInDim_apply ![0] hd1 x (ix2 (i 0) (0 : Fin 1)) (ix1 (i 0)) ?_
  intro a
  match a with
  | ⟨0, _⟩ =>
    show (i 0).val = if m = 1 then 0 else (i 0).val
    split
    · have := idx2_lt0 i; omega
    · rfl

/-- A vector recast as a column, read at an entry, is the vector at the row. -/
theorem castCol_apply {α : Type} {m : Nat} (x : (⟨1, ![m]⟩ : Shape).Idx → α)
    (h : (⟨1, ![m]⟩ : Shape).ShapeCasts ⟨2, ![m, 1]⟩) (p : Fin m) :
    shapeCast ⟨2, ![m, 1]⟩ x h (ix2 p (0 : Fin 1)) = x (ix1 p) := by
  refine shapeCast_apply x h (ix2 p (0 : Fin 1)) (ix1 p) ?_
  rw [Shape.rowMajor_val_two, Shape.rowMajor_val_one]
  show p.val = p.val * 1 + 0
  omega

/-- A vector recast as a row, read at an entry, is the vector at the column. -/
theorem castRow_apply {α : Type} {n : Nat} (x : (⟨1, ![n]⟩ : Shape).Idx → α)
    (h : (⟨1, ![n]⟩ : Shape).ShapeCasts ⟨2, ![1, n]⟩) (q : Fin n) :
    shapeCast ⟨2, ![1, n]⟩ x h (ix2 (0 : Fin 1) q) = x (ix1 q) := by
  refine shapeCast_apply x h (ix2 (0 : Fin 1) q) (ix1 q) ?_
  rw [Shape.rowMajor_val_two, Shape.rowMajor_val_one]
  show q.val = 0 * n + q.val
  omega

/-! ## The graph-convolution stage -/

/-- The smooth rectifier at an extended real: v where 0 < v, exp v − 1 elsewhere. -/
def eluAt (v : EReal) : EReal :=
  Scalar.select (Ideal.cmp .ogt v (Ideal.ofBits .f32 0x00000000#32)) v (Ideal.exp v - Ideal.ofBits .f32 0x3F800000#32)

/-- Each row of a matrix scaled by that row's entry of a column. -/
def scaledRows (agg : ShNH.Idx → EReal) (nd : ShN1.Idx → EReal) : FVec Ideal ShNH .f32 :=
  fun j => agg j * nd (ix2 (j 0) (0 : Fin 1))

/-- The stage as one function of the whole arrays: the rectifier of the scaled rows times the weights plus the bias row. -/
def gconvG (agg : ShNH.Idx → EReal) (nd : ShN1.Idx → EReal) (W : ShHH.Idx → EReal) (b : Sh1H.Idx → EReal) : ShNH.Idx → EReal :=
  fun i => eluAt (prod (scaledRows agg nd) W i + b (ix2 (0 : Fin 1) (i 1)))

/-- What a tile of rows computes, in the order the tile's operations are written. -/
def gconvTile (d : DotDims ShTH ShHH ShTH) (hbf : FTy.bf16.bits < FTy.f32.bits)
    (hs0 : ShTH.ShapeCasts ShTH) (hs1 : ShT1.ShapeCasts ShT1) (hb1 : ShT1.Broadcasts ShTH)
    (hs3 : Sh1H.ShapeCasts Sh1H) (hb3 : Sh1H.Broadcasts ShTH)
    (x0 : FVec Ideal ShTH .f32) (x1 : FVec Ideal ShT1 .f32) (x2 : FVec Ideal ShHH .f32) (x3 : FVec Ideal Sh1H .f32) :
    FVec Ideal ShTH .f32 :=
  have v5 : FVec Ideal ShTH .f32 := mulf (shapeCast ShTH x0 hs0) (broadcastTo ShTH (shapeCast ShT1 x1 hs1) hb1)
  have v9 : FVec Ideal ShTH .f32 := matmul d none (truncf .bf16 v5 hbf) (truncf .bf16 x2 hbf) (constant ShTH .f32 0x00000000#32)
  have v13 : FVec Ideal ShTH .f32 := addf v9 (broadcastTo ShTH (shapeCast Sh1H x3 hs3) hb3)
  select (cmpf .ogt v13 (broadcast ShTH (Scalar.ofBits (F := Ideal) .f32 0x00000000#32))) v13
    (subf (exp v13) (broadcast ShTH (Scalar.ofBits (F := Ideal) .f32 0x3F800000#32)))

/-- A tile's entry (p, q) is the stage's value at (r, q) when the tile's row p holds row r of agg and of nd and the tile
    sees the whole weights and bias. -/
theorem gconv_tile_apply (d : DotDims ShTH ShHH ShTH) (hd : d = DotDims.plain 2000 64 64) (hbf : FTy.bf16.bits < FTy.f32.bits)
    (hs0 : ShTH.ShapeCasts ShTH) (hs1 : ShT1.ShapeCasts ShT1) (hb1 : ShT1.Broadcasts ShTH)
    (hs3 : Sh1H.ShapeCasts Sh1H) (hb3 : Sh1H.Broadcasts ShTH)
    (x0 : FVec Ideal ShTH .f32) (x1 : FVec Ideal ShT1 .f32) (x2 : FVec Ideal ShHH .f32) (x3 : FVec Ideal Sh1H .f32)
    (agg : ShNH.Idx → EReal) (nd : ShN1.Idx → EReal) (W : ShHH.Idx → EReal) (b : Sh1H.Idx → EReal)
    (p : Fin 2000) (q : Fin 64) (r : Fin 100000)
    (h0 : ∀ k : Fin 64, x0 (ix2 p k) = agg (ix2 r k)) (h1 : x1 (ix2 p (0 : Fin 1)) = nd (ix2 r (0 : Fin 1)))
    (h2 : ∀ k : Fin 64, x2 (ix2 k q) = W (ix2 k q)) (h3 : x3 (ix2 (0 : Fin 1) q) = b (ix2 (0 : Fin 1) q)) :
    gconvTile d hbf hs0 hs1 hb1 hs3 hb3 x0 x1 x2 x3 (ix2 p q) = gconvG agg nd W b (ix2 r q) := by
  have e1 : matmul d none (truncf .bf16 (mulf (shapeCast ShTH x0 hs0) (broadcastTo ShTH (shapeCast ShT1 x1 hs1) hb1)) hbf)
      (truncf .bf16 x2 hbf) (constant ShTH .f32 0x00000000#32) (ix2 p q) = prod (scaledRows agg nd) W (ix2 r q) := by
    refine tile_prod_apply d hd hbf _ x2 (scaledRows agg nd) W (ix2 p q) (ix2 r q) (fun k => ?_) (fun k => h2 k)
    show shapeCast ShTH x0 hs0 (ix2 p k) * broadcastTo ShTH (shapeCast ShT1 x1 hs1) hb1 (ix2 p k)
      = agg (ix2 r k) * nd (ix2 r (0 : Fin 1))
    rw [shapeCast_self, shapeCast_self, broadcastTo_oneCol_at, h0 k]
    exact congrArg (agg (ix2 r k) * ·) h1
  have e2 : broadcastTo ShTH (shapeCast Sh1H x3 hs3) hb3 (ix2 p q) = b (ix2 (0 : Fin 1) q) := by
    rw [shapeCast_self, broadcastTo_oneRow_at]
    exact h3
  show eluAt (matmul d none (truncf .bf16 (mulf (shapeCast ShTH x0 hs0) (broadcastTo ShTH (shapeCast ShT1 x1 hs1) hb1)) hbf)
      (truncf .bf16 x2 hbf) (constant ShTH .f32 0x00000000#32) (ix2 p q) + broadcastTo ShTH (shapeCast Sh1H x3 hs3) hb3 (ix2 p q))
    = eluAt (prod (scaledRows agg nd) W (ix2 r q) + b (ix2 (0 : Fin 1) q))
  rw [e1, e2]

/-! ## The batch-normalisation stage -/

/-- Batch normalisation with given mean and variance rows, index by index, in the order the operations are written. -/
def bnG (x : ShNH.Idx → EReal) (mu var g bt : Sh1H.Idx → EReal) : ShNH.Idx → EReal :=
  fun i => (x i - mu (ix2 (0 : Fin 1) (i 1))) * Ideal.rsqrt (var (ix2 (0 : Fin 1) (i 1)) + Ideal.ofBits .f32 0x3727C5AC#32)
    * g (ix2 (0 : Fin 1) (i 1)) + bt (ix2 (0 : Fin 1) (i 1))

/-- Batch normalisation followed by the scaling of each row by that row's entry of a column. -/
def bnScaleG (x : ShNH.Idx → EReal) (mu var g bt : Sh1H.Idx → EReal) (ns : ShN1.Idx → EReal) : ShNH.Idx → EReal :=
  fun i => bnG x mu var g bt i * ns (ix2 (i 0) (0 : Fin 1))

/-- What a tile of rows computes, in the order the tile's operations are written (the variance row is read first). -/
def bnTile (hbf : FTy.bf16.bits < FTy.f32.bits)
    (hs0 : ShTH.ShapeCasts ShTH) (hsr : Sh1H.ShapeCasts Sh1H) (hbr : Sh1H.Broadcasts ShTH)
    (hs1 : ShT1.ShapeCasts ShT1) (hb1 : ShT1.Broadcasts ShTH)
    (x : FVec Ideal ShTH .f32) (var mu g bt : FVec Ideal Sh1H .f32) (ns : FVec Ideal ShT1 .f32) : FVec Ideal ShTH .bf16 :=
  have v6 : FVec Ideal Sh1H .f32 := rsqrt (addf (shapeCast Sh1H var hsr) (broadcast Sh1H (Scalar.ofBits (F := Ideal) .f32 0x3727C5AC#32)))
  have v10 : FVec Ideal ShTH .f32 := subf (shapeCast ShTH x hs0) (broadcastTo ShTH (shapeCast Sh1H mu hsr) hbr)
  have v12 : FVec Ideal ShTH .f32 := mulf v10 (broadcastTo ShTH v6 hbr)
  have v16 : FVec Ideal ShTH .f32 := mulf v12 (broadcastTo ShTH (shapeCast Sh1H g hsr) hbr)
  have v20 : FVec Ideal ShTH .f32 := addf v16 (broadcastTo ShTH (shapeCast Sh1H bt hsr) hbr)
  have v24 : FVec Ideal ShTH .f32 := mulf v20 (broadcastTo ShTH (shapeCast ShT1 ns hs1) hb1)
  truncf .bf16 v24 hbf

/-- A tile's entry (p, q) is the stage's value at (r, q) when the tile's row p holds row r of x and of ns and the tile
    sees the whole rows mu, var, g, bt. -/
theorem bn_tile_apply (hbf : FTy.bf16.bits < FTy.f32.bits)
    (hs0 : ShTH.ShapeCasts ShTH) (hsr : Sh1H.ShapeCasts Sh1H) (hbr : Sh1H.Broadcasts ShTH)
    (hs1 : ShT1.ShapeCasts ShT1) (hb1 : ShT1.Broadcasts ShTH)
    (x : FVec Ideal ShTH .f32) (var mu g bt : FVec Ideal Sh1H .f32) (ns : FVec Ideal ShT1 .f32)
    (X : ShNH.Idx → EReal) (Mu Var G Bt : Sh1H.Idx → EReal) (Ns : ShN1.Idx → EReal)
    (p : Fin 2000) (q : Fin 64) (r : Fin 100000)
    (hx : x (ix2 p q) = X (ix2 r q)) (hns : ns (ix2 p (0 : Fin 1)) = Ns (ix2 r (0 : Fin 1)))
    (hmu : mu (ix2 (0 : Fin 1) q) = Mu (ix2 (0 : Fin 1) q)) (hvar : var (ix2 (0 : Fin 1) q) = Var (ix2 (0 : Fin 1) q))
    (hg : g (ix2 (0 : Fin 1) q) = G (ix2 (0 : Fin 1) q)) (hbt : bt (ix2 (0 : Fin 1) q) = Bt (ix2 (0 : Fin 1) q)) :
    bnTile hbf hs0 hsr hbr hs1 hb1 x var mu g bt ns (ix2 p q) = bnScaleG X Mu Var G Bt Ns (ix2 r q) := by
  show ((shapeCast ShTH x hs0 (ix2 p q) - broadcastTo ShTH (shapeCast Sh1H mu hsr) hbr (ix2 p q))
        * broadcastTo ShTH (rsqrt (addf (shapeCast Sh1H var hsr) (broadcast Sh1H (Scalar.ofBits (F := Ideal) .f32 0x3727C5AC#32)))) hbr (ix2 p q)
        * broadcastTo ShTH (shapeCast Sh1H g hsr) hbr (ix2 p q)
      + broadcastTo ShTH (shapeCast Sh1H bt hsr) hbr (ix2 p q))
      * broadcastTo ShTH (shapeCast ShT1 ns hs1) hb1 (ix2 p q)
    = ((X (ix2 r q) - Mu (ix2 (0 : Fin 1) q)) * Ideal.rsqrt (Var (ix2 (0 : Fin 1) q) + Ideal.ofBits .f32 0x3727C5AC#32)
        * G (ix2 (0 : Fin 1) q) + Bt (ix2 (0 : Fin 1) q)) * Ns (ix2 r (0 : Fin 1))
  rw [shapeCast_self, shapeCast_self, shapeCast_self, shapeCast_self, shapeCast_self, shapeCast_self,
    broadcastTo_oneRow_at, broadcastTo_oneRow_at, broadcastTo_oneRow_at, broadcastTo_oneRow_at, broadcastTo_oneCol_at]
  show ((x (ix2 p q) - mu (ix2 (0 : Fin 1) q)) * Ideal.rsqrt (var (ix2 (0 : Fin 1) q) + Ideal.ofBits .f32 0x3727C5AC#32)
        * g (ix2 (0 : Fin 1) q) + bt (ix2 (0 : Fin 1) q)) * ns (ix2 p (0 : Fin 1)) = _
  rw [hx, hmu, hvar, hg, hbt, hns]

end Cert.Stage

end
-- ==== Proof.StageHost.lean ====
/-
  The reference's spelling of the two row-local stages, each as one term over whole arrays, and the proof that the term is
  the stage's function of Proof/StageSpec.lean.

  * "gconvHost": the degree vector broadcast into a column and along the rows, multiplied in; the product with the
    weights; the bias vector broadcast into a row and down the rows, added; the smooth rectifier in the reference's
    spelling — where(v > 0, v, 1 · expm1(where(v > 0, 0, v))). Where v > 0 the outer choice discards the second branch; elsewhere
    the inner choice is v, expm1 v is exp v − 1, and 1 · x = x. So it is "gconvG" of the degree vector recast as a
    column and the bias recast as a row.
  * "bnHost": (x − mean) · rsqrt(var + eps) · g + bt with every vector broadcast into a row and down the rows;
    "bnScaleHost": that times the column of ns. They are "bnG" and "bnScaleG" of the recast vectors.
-/
import proofs.«107288_j13769665151544_2_alg».proof.Proof.Gen.ReferenceIdeal
import proofs.«107288_j13769665151544_2_alg».proof.Proof.StageSpec

noncomputable section

namespace Cert.Stage

open Cert.ReferenceIdeal Cert.ReferenceIdeal.Facts₀ Idealize.ShloMosaic Idealize.ShloMosaic.ValueIdx Cert.LibRowTiles

/-- A vector broadcast into a column and then along the rows. -/
def hostCol (v : FVec Ideal S100000 .f32) : FVec Ideal S100000x64 .f32 :=
  broadcastInDim S100000x64 ![0, 1] bcast_S100000x1_S100000x64_0_1 (broadcastInDim S100000x1 ![0] bcast_S100000_S100000x1_0 v)

/-- A vector broadcast into a row and then down the rows. -/
def hostRow (v : FVec Ideal S64 .f32) : FVec Ideal S100000x64 .f32 :=
  broadcastInDim S100000x64 ![0, 1] bcast_S1x64_S100000x64_0_1 (broadcastInDim S1x64 ![1] bcast_S64_S1x64_1 v)

/-- The reference's smooth rectifier of a whole array. -/
def eluHost (x : FVec Ideal S100000x64 .f32) : FVec Ideal S100000x64 .f32 :=
  select (cmpf .ogt x (broadcastInDim S100000x64 ![] bcast_S_S100000x64 (constant (F := Ideal) S_ .f32 0x00000000#32))) x
    (mulf (broadcastInDim S100000x64 ![] bcast_S_S100000x64 (constant (F := Ideal) S_ .f32 0x3F800000#32))
      (Host.expm1 (select (cmpf .ogt x (broadcastInDim S100000x64 ![] bcast_S_S100000x64 (constant (F := Ideal) S_ .f32 0x00000000#32)))
        (broadcastInDim S100000x64 ![] bcast_S_S100000x64 (id (constant (F := Ideal) S_ .f32 0x00000000#32))) x)))

/-- The reference's graph-convolution stage of whole arrays. -/
def gconvHost (agg : FVec Ideal S100000x64 .f32) (nd : FVec Ideal S100000 .f32) (W : FVec Ideal S64x64 .f32) (b : FVec Ideal S64 .f32) :
    FVec Ideal S100000x64 .f32 :=
  eluHost (addf (Host.dotGeneral dot_S100000x64_S64x64_S100000x64_1_0_0_1_n_n none (mulf agg (hostCol nd)) W) (hostRow b))

/-- The reference's batch normalisation of a whole array with given mean and variance vectors. -/
def bnHost (x : FVec Ideal S100000x64 .f32) (mu var g bt : FVec Ideal S64 .f32) : FVec Ideal S100000x64 .f32 :=
  addf (mulf (mulf (subf x (hostRow mu))
      (hostRow (Host.rsqrt (addf var (broadcastInDim S64 ![] bcast_S_S64 (constant (F := Ideal) S_ .f32 0x3727C5AC#32))))))
    (hostRow g)) (hostRow bt)

/-- The reference's batch normalisation followed by the scaling of each row by the row's entry of a vector. -/
def bnScaleHost (x : FVec Ideal S100000x64 .f32) (mu var g bt : FVec Ideal S64 .f32) (ns : FVec Ideal S100000 .f32) :
    FVec Ideal S100000x64 .f32 :=
  mulf (bnHost x mu var g bt) (hostCol ns)

theorem hostCol_at (v : FVec Ideal S100000 .f32) (r : Fin 100000) (q : Fin 64) : hostCol v (ix2 r q) = v (ix1 r) :=
  hostCol_apply v bcast_S100000_S100000x1_0 bcast_S100000x1_S100000x64_0_1 (ix2 r q)

theorem hostRow_at (v : FVec Ideal S64 .f32) (r : Fin 100000) (q : Fin 64) : hostRow v (ix2 r q) = v (ix1 q) :=
  hostRow_apply v bcast_S64_S1x64_1 bcast_S1x64_S100000x64_0_1 (ix2 r q)

/-- The reference's rectifier at an entry is the rectifier of the entry. -/
theorem eluHost_apply (x : FVec Ideal S100000x64 .f32) (i : S100000x64.Idx) : eluHost x i = eluAt (x i) := by
  show Scalar.select (Ideal.cmp .ogt (x i) (Ideal.ofBits .f32 0x00000000#32)) (x i)
      (Ideal.ofBits .f32 0x3F800000#32 * (Ideal.exp (Scalar.select (Ideal.cmp .ogt (x i) (Ideal.ofBits .f32 0x00000000#32))
        (Ideal.ofBits .f32 0x00000000#32) (x i)) - 1))
    = Scalar.select (Ideal.cmp .ogt (x i) (Ideal.ofBits .f32 0x00000000#32)) (x i) (Ideal.exp (x i) - Ideal.ofBits .f32 0x3F800000#32)
  rcases BitVec.eq_zero_or_eq_one (Ideal.cmp .ogt (x i) (Ideal.ofBits .f32 0x00000000#32)) with h | h
  · rw [h, select_zero, select_zero, select_zero, Ideal.ofBits_one_f32, one_mul]
  · rw [h, select_one, select_one]

/-- The reference's graph-convolution stage is the stage's function of the degree vector as a column and the bias as a row. -/
theorem gconvHost_eq (hN1 : S100000.ShapeCasts S100000x1) (h1H : S64.ShapeCasts S1x64)
    (agg : FVec Ideal S100000x64 .f32) (nd : FVec Ideal S100000 .f32) (W : FVec Ideal S64x64 .f32) (b : FVec Ideal S64 .f32) :
    gconvHost agg nd W b = gconvG agg (shapeCast S100000x1 nd hN1) W (shapeCast S1x64 b h1H) := by
  funext i
  obtain ⟨r, q, rfl⟩ : ∃ (r : Fin 100000) (q : Fin 64), i = ix2 r q := ⟨i 0, i 1, eq_ix2 i⟩
  unfold gconvHost gconvG
  rw [eluHost_apply]
  refine congrArg eluAt ?_
  show Host.dotGeneral dot_S100000x64_S64x64_S100000x64_1_0_0_1_n_n none (mulf agg (hostCol nd)) W (ix2 r q) + hostRow b (ix2 r q)
    = prod (scaledRows agg (shapeCast S100000x1 nd hN1)) W (ix2 r q) + shapeCast S1x64 b h1H (ix2 (0 : Fin 1) q)
  rw [dotGeneral_eq_prod dot_S100000x64_S64x64_S100000x64_1_0_0_1_n_n rfl, hostRow_at, castRow_apply]
  refine congrArg (· + b (ix1 q)) ?_
  refine Finset.sum_congr rfl fun k _ => ?_
  show agg (ix2 r k) * hostCol nd (ix2 r k) * W (ix2 k q) = agg (ix2 r k) * shapeCast S100000x1 nd hN1 (ix2 r (0 : Fin 1)) * W (ix2 k q)
  rw [hostCol_at, castCol_apply]

/-- The reference's batch normalisation is the stage's function of the vectors as rows. -/
theorem bnHost_eq (h1H : S64.ShapeCasts S1x64)
    (x : FVec Ideal S100000x64 .f32) (mu var g bt : FVec Ideal S64 .f32) :
    bnHost x mu var g bt = bnG x (shapeCast S1x64 mu h1H) (shapeCast S1x64 var h1H) (shapeCast S1x64 g h1H) (shapeCast S1x64 bt h1H) := by
  funext i
  obtain ⟨r, q, rfl⟩ : ∃ (r : Fin 100000) (q : Fin 64), i = ix2 r q := ⟨i 0, i 1, eq_ix2 i⟩
  show (x (ix2 r q) - hostRow mu (ix2 r q))
        * hostRow (Host.rsqrt (addf var (broadcastInDim S64 ![] bcast_S_S64 (constant (F := Ideal) S_ .f32 0x3727C5AC#32)))) (ix2 r q)
        * hostRow g (ix2 r q) + hostRow bt (ix2 r q)
    = (x (ix2 r q) - shapeCast S1x64 mu h1H (ix2 (0 : Fin 1) q))
        * Ideal.rsqrt (shapeCast S1x64 var h1H (ix2 (0 : Fin 1) q) + Ideal.ofBits .f32 0x3727C5AC#32)
        * shapeCast S1x64 g h1H (ix2 (0 : Fin 1) q) + shapeCast S1x64 bt h1H (ix2 (0 : Fin 1) q)
  rw [hostRow_at, hostRow_at, hostRow_at, hostRow_at, castRow_apply, castRow_apply, castRow_apply, castRow_apply]
  rfl

/-- The reference's scaled batch normalisation is the stage's function of the vectors as rows and the scale as a column. -/
theorem bnScaleHost_eq (hN1 : S100000.ShapeCasts S100000x1) (h1H : S64.ShapeCasts S1x64)
    (x : FVec Ideal S100000x64 .f32) (mu var g bt : FVec Ideal S64 .f32) (ns : FVec Ideal S100000 .f32) :
    bnScaleHost x mu var g bt ns
      = bnScaleG x (shapeCast S1x64 mu h1H) (shapeCast S1x64 var h1H) (shapeCast S1x64 g h1H) (shapeCast S1x64 bt h1H)
          (shapeCast S100000x1 ns hN1) := by
  funext i
  obtain ⟨r, q, rfl⟩ : ∃ (r : Fin 100000) (q : Fin 64), i = ix2 r q := ⟨i 0, i 1, eq_ix2 i⟩
  show bnHost x mu var g bt (ix2 r q) * hostCol ns (ix2 r q)
    = bnG x (shapeCast S1x64 mu h1H) (shapeCast S1x64 var h1H) (shapeCast S1x64 g h1H) (shapeCast S1x64 bt h1H) (ix2 r q)
        * shapeCast S100000x1 ns hN1 (ix2 r (0 : Fin 1))
  rw [bnHost_eq h1H, hostCol_at, castCol_apply]

end Cert.Stage

end
-- ==== Proof.RefStage.lean ====
/-
  The reference's dense stages, read back. Between the shared host computations the reference applies, on the host,
  what the kernel applies in its regions: a graph-convolution layer's dense half (scale the rows, multiply by the
  weights, add the bias, the smooth rectifier), a batch normalisation (followed, in the first layer, by the scaling of
  the rows for the next layer's gather), and the fusion head. Each piece's result buffer, over a VARIABLE valuation,
  is the named whole-array function of the contents of the piece's input buffers.
-/
import proofs.«107288_j13769665151544_2_alg».proof.Proof.RefOps
import proofs.«107288_j13769665151544_2_alg».proof.Proof.LibTypedRef
import proofs.«107288_j13769665151544_2_alg».proof.Proof.StageHost

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Stage

/-- Unfold the pieces' operation lists, read every operation's result at its own buffer and every other buffer through
    it, and drop the typed references' paired type crossings. -/
macro "rread" : tactic => `(tactic| (
  simp only [opsS1, opsS2, opsS3, opsS4, opsS5, opsS6, opsS7, opsS8, opsS9, opsS10, opsS11, opsS12, opsS13, opsS14, opsS15, opsS16, opsS17]
  after_results_simp
  try simp only [Cert.LibTypedRef.ofBuf_toBuf, Cert.LibTypedRef.toBuf_ofBuf]))

variable (U' : Valuation τ sig (Elt Ideal))

theorem RR2 : after (opsS2 (F := Ideal)) U' (Proc.devRef .tc main_v31) = gconvHost (U' (Proc.devRef .tc main_v23)) (U' (Proc.devRef .tc main_v10)) (U' (Proc.devRef .tc main_arg5)) (U' (Proc.devRef .tc main_arg6)) := by
  rread
  rfl

theorem RR4 : after (opsS4 (F := Ideal)) U' (Proc.devRef .tc main_v64) = bnScaleHost (U' (Proc.devRef .tc main_v31)) (U' (Proc.devRef .tc main_v34)) (U' (Proc.devRef .tc main_v35)) (U' (Proc.devRef .tc main_arg7)) (U' (Proc.devRef .tc main_arg8)) (after (opsS4 (F := Ideal)) U' (Proc.devRef .tc main_v59)) := by
  rread
  rfl

theorem RR6 : after (opsS6 (F := Ideal)) U' (Proc.devRef .tc main_v82) = gconvHost (U' (Proc.devRef .tc main_v74)) (U' (Proc.devRef .tc main_v61)) (U' (Proc.devRef .tc main_arg9)) (U' (Proc.devRef .tc main_arg10)) := by
  rread
  rfl

theorem RR8 : after (opsS8 (F := Ideal)) U' (Proc.devRef .tc main_v101) = bnHost (U' (Proc.devRef .tc main_v82)) (U' (Proc.devRef .tc main_v85)) (U' (Proc.devRef .tc main_v86)) (U' (Proc.devRef .tc main_arg11)) (U' (Proc.devRef .tc main_arg12)) := by
  rread
  rfl

theorem RR10 : after (opsS10 (F := Ideal)) U' (Proc.devRef .tc main_v133) = gconvHost (U' (Proc.devRef .tc main_v125)) (U' (Proc.devRef .tc main_v112)) (U' (Proc.devRef .tc main_arg13)) (U' (Proc.devRef .tc main_arg14)) := by
  rread
  rfl

theorem RR12 : after (opsS12 (F := Ideal)) U' (Proc.devRef .tc main_v166) = bnScaleHost (U' (Proc.devRef .tc main_v133)) (U' (Proc.devRef .tc main_v136)) (U' (Proc.devRef .tc main_v137)) (U' (Proc.devRef .tc main_arg15)) (U' (Proc.devRef .tc main_arg16)) (after (opsS12 (F := Ideal)) U' (Proc.devRef .tc main_v161)) := by
  rread
  rfl

theorem RR14 : after (opsS14 (F := Ideal)) U' (Proc.devRef .tc main_v184) = gconvHost (U' (Proc.devRef .tc main_v176)) (U' (Proc.devRef .tc main_v163)) (U' (Proc.devRef .tc main_arg17)) (U' (Proc.devRef .tc main_arg18)) := by
  rread
  rfl

theorem RR16 : after (opsS16 (F := Ideal)) U' (Proc.devRef .tc main_v203) = bnHost (U' (Proc.devRef .tc main_v184)) (U' (Proc.devRef .tc main_v187)) (U' (Proc.devRef .tc main_v188)) (U' (Proc.devRef .tc main_arg19)) (U' (Proc.devRef .tc main_arg20)) := by
  rread
  rfl

end Cert.ReferenceIdeal.Hand

end
-- ==== Proof.KerKeep.lean ====
/-
  What the idealized kernel's regions and host stretches leave alone. A region writes only its own output array and a
  host stretch only its operations' results, so an argument array, and a value computed once and read again later
  (a degree normalisation, a layer's output, its column means and variances), is found unchanged at every later
  boundary of @main.
-/
import proofs.«107288_j13769665151544_2_alg».proof.Proof.Gen.KernelIdeal.Frame
import proofs.«107288_j13769665151544_2_alg».proof.Proof.KerRead

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem G0_arg7 (U : Valuation τ sig (Elt Ideal)) : G0 U (Proc.devRef .tc main_arg7) = U (Proc.devRef .tc main_arg7) := by
  kread

theorem G0_arg8 (U : Valuation τ sig (Elt Ideal)) : G0 U (Proc.devRef .tc main_arg8) = U (Proc.devRef .tc main_arg8) := by
  kread

theorem G0_arg1 (U : Valuation τ sig (Elt Ideal)) : G0 U (Proc.devRef .tc main_arg1) = U (Proc.devRef .tc main_arg1) := by
  kread

theorem G1_arg1 (U : Valuation τ sig (Elt Ideal)) : G1 U (Proc.devRef .tc main_arg1) = U (Proc.devRef .tc main_arg1) := by
  kread

theorem G0_arg2 (U : Valuation τ sig (Elt Ideal)) : G0 U (Proc.devRef .tc main_arg2) = U (Proc.devRef .tc main_arg2) := by
  kread

theorem G1_arg2 (U : Valuation τ sig (Elt Ideal)) : G1 U (Proc.devRef .tc main_arg2) = U (Proc.devRef .tc main_arg2) := by
  kread

theorem G0_arg9 (U : Valuation τ sig (Elt Ideal)) : G0 U (Proc.devRef .tc main_arg9) = U (Proc.devRef .tc main_arg9) := by
  kread

theorem G1_arg9 (U : Valuation τ sig (Elt Ideal)) : G1 U (Proc.devRef .tc main_arg9) = U (Proc.devRef .tc main_arg9) := by
  kread

theorem G0_arg10 (U : Valuation τ sig (Elt Ideal)) : G0 U (Proc.devRef .tc main_arg10) = U (Proc.devRef .tc main_arg10) := by
  kread

theorem G1_arg10 (U : Valuation τ sig (Elt Ideal)) : G1 U (Proc.devRef .tc main_arg10) = U (Proc.devRef .tc main_arg10) := by
  kread

theorem G0_arg13 (U : Valuation τ sig (Elt Ideal)) : G0 U (Proc.devRef .tc main_arg13) = U (Proc.devRef .tc main_arg13) := by
  kread

theorem G1_arg13 (U : Valuation τ sig (Elt Ideal)) : G1 U (Proc.devRef .tc main_arg13) = U (Proc.devRef .tc main_arg13) := by
  kread

theorem G2_arg13 (U : Valuation τ sig (Elt Ideal)) : G2 U (Proc.devRef .tc main_arg13) = U (Proc.devRef .tc main_arg13) := by
  kread

theorem G0_arg14 (U : Valuation τ sig (Elt Ideal)) : G0 U (Proc.devRef .tc main_arg14) = U (Proc.devRef .tc main_arg14) := by
  kread

theorem G1_arg14 (U : Valuation τ sig (Elt Ideal)) : G1 U (Proc.devRef .tc main_arg14) = U (Proc.devRef .tc main_arg14) := by
  kread

theorem G2_arg14 (U : Valuation τ sig (Elt Ideal)) : G2 U (Proc.devRef .tc main_arg14) = U (Proc.devRef .tc main_arg14) := by
  kread

theorem G0_arg0 (U : Valuation τ sig (Elt Ideal)) : G0 U (Proc.devRef .tc main_arg0) = U (Proc.devRef .tc main_arg0) := by
  kread

theorem G1_arg0 (U : Valuation τ sig (Elt Ideal)) : G1 U (Proc.devRef .tc main_arg0) = U (Proc.devRef .tc main_arg0) := by
  kread

theorem G2_arg0 (U : Valuation τ sig (Elt Ideal)) : G2 U (Proc.devRef .tc main_arg0) = U (Proc.devRef .tc main_arg0) := by
  kread

theorem G0_arg3 (U : Valuation τ sig (Elt Ideal)) : G0 U (Proc.devRef .tc main_arg3) = U (Proc.devRef .tc main_arg3) := by
  kread

theorem G1_arg3 (U : Valuation τ sig (Elt Ideal)) : G1 U (Proc.devRef .tc main_arg3) = U (Proc.devRef .tc main_arg3) := by
  kread

theorem G2_arg3 (U : Valuation τ sig (Elt Ideal)) : G2 U (Proc.devRef .tc main_arg3) = U (Proc.devRef .tc main_arg3) := by
  kread

theorem G0_arg4 (U : Valuation τ sig (Elt Ideal)) : G0 U (Proc.devRef .tc main_arg4) = U (Proc.devRef .tc main_arg4) := by
  kread

theorem G1_arg4 (U : Valuation τ sig (Elt Ideal)) : G1 U (Proc.devRef .tc main_arg4) = U (Proc.devRef .tc main_arg4) := by
  kread

theorem G2_arg4 (U : Valuation τ sig (Elt Ideal)) : G2 U (Proc.devRef .tc main_arg4) = U (Proc.devRef .tc main_arg4) := by
  kread

theorem G0_arg15 (U : Valuation τ sig (Elt Ideal)) : G0 U (Proc.devRef .tc main_arg15) = U (Proc.devRef .tc main_arg15) := by
  kread

theorem G1_arg15 (U : Valuation τ sig (Elt Ideal)) : G1 U (Proc.devRef .tc main_arg15) = U (Proc.devRef .tc main_arg15) := by
  kread

theorem G2_arg15 (U : Valuation τ sig (Elt Ideal)) : G2 U (Proc.devRef .tc main_arg15) = U (Proc.devRef .tc main_arg15) := by
  kread

theorem G3_arg15 (U : Valuation τ sig (Elt Ideal)) : G3 U (Proc.devRef .tc main_arg15) = U (Proc.devRef .tc main_arg15) := by
  kread

theorem G0_arg16 (U : Valuation τ sig (Elt Ideal)) : G0 U (Proc.devRef .tc main_arg16) = U (Proc.devRef .tc main_arg16) := by
  kread

theorem G1_arg16 (U : Valuation τ sig (Elt Ideal)) : G1 U (Proc.devRef .tc main_arg16) = U (Proc.devRef .tc main_arg16) := by
  kread

theorem G2_arg16 (U : Valuation τ sig (Elt Ideal)) : G2 U (Proc.devRef .tc main_arg16) = U (Proc.devRef .tc main_arg16) := by
  kread

theorem G3_arg16 (U : Valuation τ sig (Elt Ideal)) : G3 U (Proc.devRef .tc main_arg16) = U (Proc.devRef .tc main_arg16) := by
  kread

theorem G3_arg3 (U : Valuation τ sig (Elt Ideal)) : G3 U (Proc.devRef .tc main_arg3) = U (Proc.devRef .tc main_arg3) := by
  kread

theorem G4_arg3 (U : Valuation τ sig (Elt Ideal)) : G4 U (Proc.devRef .tc main_arg3) = U (Proc.devRef .tc main_arg3) := by
  kread

theorem G3_arg4 (U : Valuation τ sig (Elt Ideal)) : G3 U (Proc.devRef .tc main_arg4) = U (Proc.devRef .tc main_arg4) := by
  kread

theorem G4_arg4 (U : Valuation τ sig (Elt Ideal)) : G4 U (Proc.devRef .tc main_arg4) = U (Proc.devRef .tc main_arg4) := by
  kread

theorem G0_arg17 (U : Valuation τ sig (Elt Ideal)) : G0 U (Proc.devRef .tc main_arg17) = U (Proc.devRef .tc main_arg17) := by
  kread

theorem G1_arg17 (U : Valuation τ sig (Elt Ideal)) : G1 U (Proc.devRef .tc main_arg17) = U (Proc.devRef .tc main_arg17) := by
  kread

theorem G2_arg17 (U : Valuation τ sig (Elt Ideal)) : G2 U (Proc.devRef .tc main_arg17) = U (Proc.devRef .tc main_arg17) := by
  kread

theorem G3_arg17 (U : Valuation τ sig (Elt Ideal)) : G3 U (Proc.devRef .tc main_arg17) = U (Proc.devRef .tc main_arg17) := by
  kread

theorem G4_arg17 (U : Valuation τ sig (Elt Ideal)) : G4 U (Proc.devRef .tc main_arg17) = U (Proc.devRef .tc main_arg17) := by
  kread

theorem G0_arg18 (U : Valuation τ sig (Elt Ideal)) : G0 U (Proc.devRef .tc main_arg18) = U (Proc.devRef .tc main_arg18) := by
  kread

theorem G1_arg18 (U : Valuation τ sig (Elt Ideal)) : G1 U (Proc.devRef .tc main_arg18) = U (Proc.devRef .tc main_arg18) := by
  kread

theorem G2_arg18 (U : Valuation τ sig (Elt Ideal)) : G2 U (Proc.devRef .tc main_arg18) = U (Proc.devRef .tc main_arg18) := by
  kread

theorem G3_arg18 (U : Valuation τ sig (Elt Ideal)) : G3 U (Proc.devRef .tc main_arg18) = U (Proc.devRef .tc main_arg18) := by
  kread

theorem G4_arg18 (U : Valuation τ sig (Elt Ideal)) : G4 U (Proc.devRef .tc main_arg18) = U (Proc.devRef .tc main_arg18) := by
  kread

theorem G0_arg24 (U : Valuation τ sig (Elt Ideal)) : G0 U (Proc.devRef .tc main_arg24) = U (Proc.devRef .tc main_arg24) := by
  kread

theorem G1_arg24 (U : Valuation τ sig (Elt Ideal)) : G1 U (Proc.devRef .tc main_arg24) = U (Proc.devRef .tc main_arg24) := by
  kread

theorem G2_arg24 (U : Valuation τ sig (Elt Ideal)) : G2 U (Proc.devRef .tc main_arg24) = U (Proc.devRef .tc main_arg24) := by
  kread

theorem G3_arg24 (U : Valuation τ sig (Elt Ideal)) : G3 U (Proc.devRef .tc main_arg24) = U (Proc.devRef .tc main_arg24) := by
  kread

theorem G4_arg24 (U : Valuation τ sig (Elt Ideal)) : G4 U (Proc.devRef .tc main_arg24) = U (Proc.devRef .tc main_arg24) := by
  kread

theorem G5_arg24 (U : Valuation τ sig (Elt Ideal)) : G5 U (Proc.devRef .tc main_arg24) = U (Proc.devRef .tc main_arg24) := by
  kread

theorem G0_arg26 (U : Valuation τ sig (Elt Ideal)) : G0 U (Proc.devRef .tc main_arg26) = U (Proc.devRef .tc main_arg26) := by
  kread

theorem G1_arg26 (U : Valuation τ sig (Elt Ideal)) : G1 U (Proc.devRef .tc main_arg26) = U (Proc.devRef .tc main_arg26) := by
  kread

theorem G2_arg26 (U : Valuation τ sig (Elt Ideal)) : G2 U (Proc.devRef .tc main_arg26) = U (Proc.devRef .tc main_arg26) := by
  kread

theorem G3_arg26 (U : Valuation τ sig (Elt Ideal)) : G3 U (Proc.devRef .tc main_arg26) = U (Proc.devRef .tc main_arg26) := by
  kread

theorem G4_arg26 (U : Valuation τ sig (Elt Ideal)) : G4 U (Proc.devRef .tc main_arg26) = U (Proc.devRef .tc main_arg26) := by
  kread

theorem G5_arg26 (U : Valuation τ sig (Elt Ideal)) : G5 U (Proc.devRef .tc main_arg26) = U (Proc.devRef .tc main_arg26) := by
  kread

theorem G0_arg11 (U : Valuation τ sig (Elt Ideal)) : G0 U (Proc.devRef .tc main_arg11) = U (Proc.devRef .tc main_arg11) := by
  kread

theorem G1_arg11 (U : Valuation τ sig (Elt Ideal)) : G1 U (Proc.devRef .tc main_arg11) = U (Proc.devRef .tc main_arg11) := by
  kread

theorem G2_arg11 (U : Valuation τ sig (Elt Ideal)) : G2 U (Proc.devRef .tc main_arg11) = U (Proc.devRef .tc main_arg11) := by
  kread

theorem G3_arg11 (U : Valuation τ sig (Elt Ideal)) : G3 U (Proc.devRef .tc main_arg11) = U (Proc.devRef .tc main_arg11) := by
  kread

theorem G4_arg11 (U : Valuation τ sig (Elt Ideal)) : G4 U (Proc.devRef .tc main_arg11) = U (Proc.devRef .tc main_arg11) := by
  kread

theorem G5_arg11 (U : Valuation τ sig (Elt Ideal)) : G5 U (Proc.devRef .tc main_arg11) = U (Proc.devRef .tc main_arg11) := by
  kread

theorem G0_arg12 (U : Valuation τ sig (Elt Ideal)) : G0 U (Proc.devRef .tc main_arg12) = U (Proc.devRef .tc main_arg12) := by
  kread

theorem G1_arg12 (U : Valuation τ sig (Elt Ideal)) : G1 U (Proc.devRef .tc main_arg12) = U (Proc.devRef .tc main_arg12) := by
  kread

theorem G2_arg12 (U : Valuation τ sig (Elt Ideal)) : G2 U (Proc.devRef .tc main_arg12) = U (Proc.devRef .tc main_arg12) := by
  kread

theorem G3_arg12 (U : Valuation τ sig (Elt Ideal)) : G3 U (Proc.devRef .tc main_arg12) = U (Proc.devRef .tc main_arg12) := by
  kread

theorem G4_arg12 (U : Valuation τ sig (Elt Ideal)) : G4 U (Proc.devRef .tc main_arg12) = U (Proc.devRef .tc main_arg12) := by
  kread

theorem G5_arg12 (U : Valuation τ sig (Elt Ideal)) : G5 U (Proc.devRef .tc main_arg12) = U (Proc.devRef .tc main_arg12) := by
  kread

theorem G0_arg19 (U : Valuation τ sig (Elt Ideal)) : G0 U (Proc.devRef .tc main_arg19) = U (Proc.devRef .tc main_arg19) := by
  kread

theorem G1_arg19 (U : Valuation τ sig (Elt Ideal)) : G1 U (Proc.devRef .tc main_arg19) = U (Proc.devRef .tc main_arg19) := by
  kread

theorem G2_arg19 (U : Valuation τ sig (Elt Ideal)) : G2 U (Proc.devRef .tc main_arg19) = U (Proc.devRef .tc main_arg19) := by
  kread

theorem G3_arg19 (U : Valuation τ sig (Elt Ideal)) : G3 U (Proc.devRef .tc main_arg19) = U (Proc.devRef .tc main_arg19) := by
  kread

theorem G4_arg19 (U : Valuation τ sig (Elt Ideal)) : G4 U (Proc.devRef .tc main_arg19) = U (Proc.devRef .tc main_arg19) := by
  kread

theorem G5_arg19 (U : Valuation τ sig (Elt Ideal)) : G5 U (Proc.devRef .tc main_arg19) = U (Proc.devRef .tc main_arg19) := by
  kread

theorem G0_arg20 (U : Valuation τ sig (Elt Ideal)) : G0 U (Proc.devRef .tc main_arg20) = U (Proc.devRef .tc main_arg20) := by
  kread

theorem G1_arg20 (U : Valuation τ sig (Elt Ideal)) : G1 U (Proc.devRef .tc main_arg20) = U (Proc.devRef .tc main_arg20) := by
  kread

theorem G2_arg20 (U : Valuation τ sig (Elt Ideal)) : G2 U (Proc.devRef .tc main_arg20) = U (Proc.devRef .tc main_arg20) := by
  kread

theorem G3_arg20 (U : Valuation τ sig (Elt Ideal)) : G3 U (Proc.devRef .tc main_arg20) = U (Proc.devRef .tc main_arg20) := by
  kread

theorem G4_arg20 (U : Valuation τ sig (Elt Ideal)) : G4 U (Proc.devRef .tc main_arg20) = U (Proc.devRef .tc main_arg20) := by
  kread

theorem G5_arg20 (U : Valuation τ sig (Elt Ideal)) : G5 U (Proc.devRef .tc main_arg20) = U (Proc.devRef .tc main_arg20) := by
  kread

theorem G0_arg21 (U : Valuation τ sig (Elt Ideal)) : G0 U (Proc.devRef .tc main_arg21) = U (Proc.devRef .tc main_arg21) := by
  kread

theorem G1_arg21 (U : Valuation τ sig (Elt Ideal)) : G1 U (Proc.devRef .tc main_arg21) = U (Proc.devRef .tc main_arg21) := by
  kread

theorem G2_arg21 (U : Valuation τ sig (Elt Ideal)) : G2 U (Proc.devRef .tc main_arg21) = U (Proc.devRef .tc main_arg21) := by
  kread

theorem G3_arg21 (U : Valuation τ sig (Elt Ideal)) : G3 U (Proc.devRef .tc main_arg21) = U (Proc.devRef .tc main_arg21) := by
  kread

theorem G4_arg21 (U : Valuation τ sig (Elt Ideal)) : G4 U (Proc.devRef .tc main_arg21) = U (Proc.devRef .tc main_arg21) := by
  kread

theorem G5_arg21 (U : Valuation τ sig (Elt Ideal)) : G5 U (Proc.devRef .tc main_arg21) = U (Proc.devRef .tc main_arg21) := by
  kread

theorem G0_arg22 (U : Valuation τ sig (Elt Ideal)) : G0 U (Proc.devRef .tc main_arg22) = U (Proc.devRef .tc main_arg22) := by
  kread

theorem G1_arg22 (U : Valuation τ sig (Elt Ideal)) : G1 U (Proc.devRef .tc main_arg22) = U (Proc.devRef .tc main_arg22) := by
  kread

theorem G2_arg22 (U : Valuation τ sig (Elt Ideal)) : G2 U (Proc.devRef .tc main_arg22) = U (Proc.devRef .tc main_arg22) := by
  kread

theorem G3_arg22 (U : Valuation τ sig (Elt Ideal)) : G3 U (Proc.devRef .tc main_arg22) = U (Proc.devRef .tc main_arg22) := by
  kread

theorem G4_arg22 (U : Valuation τ sig (Elt Ideal)) : G4 U (Proc.devRef .tc main_arg22) = U (Proc.devRef .tc main_arg22) := by
  kread

theorem G5_arg22 (U : Valuation τ sig (Elt Ideal)) : G5 U (Proc.devRef .tc main_arg22) = U (Proc.devRef .tc main_arg22) := by
  kread

theorem G0_arg23 (U : Valuation τ sig (Elt Ideal)) : G0 U (Proc.devRef .tc main_arg23) = U (Proc.devRef .tc main_arg23) := by
  kread

theorem G1_arg23 (U : Valuation τ sig (Elt Ideal)) : G1 U (Proc.devRef .tc main_arg23) = U (Proc.devRef .tc main_arg23) := by
  kread

theorem G2_arg23 (U : Valuation τ sig (Elt Ideal)) : G2 U (Proc.devRef .tc main_arg23) = U (Proc.devRef .tc main_arg23) := by
  kread

theorem G3_arg23 (U : Valuation τ sig (Elt Ideal)) : G3 U (Proc.devRef .tc main_arg23) = U (Proc.devRef .tc main_arg23) := by
  kread

theorem G4_arg23 (U : Valuation τ sig (Elt Ideal)) : G4 U (Proc.devRef .tc main_arg23) = U (Proc.devRef .tc main_arg23) := by
  kread

theorem G5_arg23 (U : Valuation τ sig (Elt Ideal)) : G5 U (Proc.devRef .tc main_arg23) = U (Proc.devRef .tc main_arg23) := by
  kread

theorem G0_arg25 (U : Valuation τ sig (Elt Ideal)) : G0 U (Proc.devRef .tc main_arg25) = U (Proc.devRef .tc main_arg25) := by
  kread

theorem G1_arg25 (U : Valuation τ sig (Elt Ideal)) : G1 U (Proc.devRef .tc main_arg25) = U (Proc.devRef .tc main_arg25) := by
  kread

theorem G2_arg25 (U : Valuation τ sig (Elt Ideal)) : G2 U (Proc.devRef .tc main_arg25) = U (Proc.devRef .tc main_arg25) := by
  kread

theorem G3_arg25 (U : Valuation τ sig (Elt Ideal)) : G3 U (Proc.devRef .tc main_arg25) = U (Proc.devRef .tc main_arg25) := by
  kread

theorem G4_arg25 (U : Valuation τ sig (Elt Ideal)) : G4 U (Proc.devRef .tc main_arg25) = U (Proc.devRef .tc main_arg25) := by
  kread

theorem G5_arg25 (U : Valuation τ sig (Elt Ideal)) : G5 U (Proc.devRef .tc main_arg25) = U (Proc.devRef .tc main_arg25) := by
  kread

theorem G0_arg27 (U : Valuation τ sig (Elt Ideal)) : G0 U (Proc.devRef .tc main_arg27) = U (Proc.devRef .tc main_arg27) := by
  kread

theorem G1_arg27 (U : Valuation τ sig (Elt Ideal)) : G1 U (Proc.devRef .tc main_arg27) = U (Proc.devRef .tc main_arg27) := by
  kread

theorem G2_arg27 (U : Valuation τ sig (Elt Ideal)) : G2 U (Proc.devRef .tc main_arg27) = U (Proc.devRef .tc main_arg27) := by
  kread

theorem G3_arg27 (U : Valuation τ sig (Elt Ideal)) : G3 U (Proc.devRef .tc main_arg27) = U (Proc.devRef .tc main_arg27) := by
  kread

theorem G4_arg27 (U : Valuation τ sig (Elt Ideal)) : G4 U (Proc.devRef .tc main_arg27) = U (Proc.devRef .tc main_arg27) := by
  kread

theorem G5_arg27 (U : Valuation τ sig (Elt Ideal)) : G5 U (Proc.devRef .tc main_arg27) = U (Proc.devRef .tc main_arg27) := by
  kread

theorem W5_arg5 : W5 (F := Ideal) m ρ c (Proc.devRef .tc main_arg5) = W0 (F := Ideal) m ρ c (Proc.devRef .tc main_arg5) :=
  (G0_arg5 (W0 (F := Ideal) m ρ c))

theorem W5_arg7 : W5 (F := Ideal) m ρ c (Proc.devRef .tc main_arg7) = W0 (F := Ideal) m ρ c (Proc.devRef .tc main_arg7) :=
  (G0_arg7 (W0 (F := Ideal) m ρ c))

theorem W6_arg7 : W6 (F := Ideal) m ρ c (Proc.devRef .tc main_arg7) = W0 (F := Ideal) m ρ c (Proc.devRef .tc main_arg7) :=
  (W6_of_ne m ρ c main_arg7 (by decide)).trans (W5_arg7 m ρ c)

theorem W5_arg8 : W5 (F := Ideal) m ρ c (Proc.devRef .tc main_arg8) = W0 (F := Ideal) m ρ c (Proc.devRef .tc main_arg8) :=
  (G0_arg8 (W0 (F := Ideal) m ρ c))

theorem W6_arg8 : W6 (F := Ideal) m ρ c (Proc.devRef .tc main_arg8) = W0 (F := Ideal) m ρ c (Proc.devRef .tc main_arg8) :=
  (W6_of_ne m ρ c main_arg8 (by decide)).trans (W5_arg8 m ρ c)

theorem W5_arg1 : W5 (F := Ideal) m ρ c (Proc.devRef .tc main_arg1) = W0 (F := Ideal) m ρ c (Proc.devRef .tc main_arg1) :=
  (G0_arg1 (W0 (F := Ideal) m ρ c))

theorem W6_arg1 : W6 (F := Ideal) m ρ c (Proc.devRef .tc main_arg1) = W0 (F := Ideal) m ρ c (Proc.devRef .tc main_arg1) :=
  (W6_of_ne m ρ c main_arg1 (by decide)).trans (W5_arg1 m ρ c)

theorem W9_arg1 : W9 (F := Ideal) m ρ c (Proc.devRef .tc main_arg1) = W0 (F := Ideal) m ρ c (Proc.devRef .tc main_arg1) :=
  (G1_arg1 (W6 (F := Ideal) m ρ c)).trans (W6_arg1 m ρ c)

theorem W10_arg1 : W10 (F := Ideal) m ρ c (Proc.devRef .tc main_arg1) = W0 (F := Ideal) m ρ c (Proc.devRef .tc main_arg1) :=
  (W10_of_ne m ρ c main_arg1 (by decide)).trans (W9_arg1 m ρ c)

theorem W5_arg2 : W5 (F := Ideal) m ρ c (Proc.devRef .tc main_arg2) = W0 (F := Ideal) m ρ c (Proc.devRef .tc main_arg2) :=
  (G0_arg2 (W0 (F := Ideal) m ρ c))

theorem W6_arg2 : W6 (F := Ideal) m ρ c (Proc.devRef .tc main_arg2) = W0 (F := Ideal) m ρ c (Proc.devRef .tc main_arg2) :=
  (W6_of_ne m ρ c main_arg2 (by decide)).trans (W5_arg2 m ρ c)

theorem W9_arg2 : W9 (F := Ideal) m ρ c (Proc.devRef .tc main_arg2) = W0 (F := Ideal) m ρ c (Proc.devRef .tc main_arg2) :=
  (G1_arg2 (W6 (F := Ideal) m ρ c)).trans (W6_arg2 m ρ c)

theorem W10_arg2 : W10 (F := Ideal) m ρ c (Proc.devRef .tc main_arg2) = W0 (F := Ideal) m ρ c (Proc.devRef .tc main_arg2) :=
  (W10_of_ne m ρ c main_arg2 (by decide)).trans (W9_arg2 m ρ c)

theorem W5_arg9 : W5 (F := Ideal) m ρ c (Proc.devRef .tc main_arg9) = W0 (F := Ideal) m ρ c (Proc.devRef .tc main_arg9) :=
  (G0_arg9 (W0 (F := Ideal) m ρ c))

theorem W6_arg9 : W6 (F := Ideal) m ρ c (Proc.devRef .tc main_arg9) = W0 (F := Ideal) m ρ c (Proc.devRef .tc main_arg9) :=
  (W6_of_ne m ρ c main_arg9 (by decide)).trans (W5_arg9 m ρ c)

theorem W9_arg9 : W9 (F := Ideal) m ρ c (Proc.devRef .tc main_arg9) = W0 (F := Ideal) m ρ c (Proc.devRef .tc main_arg9) :=
  (G1_arg9 (W6 (F := Ideal) m ρ c)).trans (W6_arg9 m ρ c)

theorem W10_arg9 : W10 (F := Ideal) m ρ c (Proc.devRef .tc main_arg9) = W0 (F := Ideal) m ρ c (Proc.devRef .tc main_arg9) :=
  (W10_of_ne m ρ c main_arg9 (by decide)).trans (W9_arg9 m ρ c)

theorem W11_arg9 : W11 (F := Ideal) m ρ c (Proc.devRef .tc main_arg9) = W0 (F := Ideal) m ρ c (Proc.devRef .tc main_arg9) :=
  (G2_arg9 (W10 (F := Ideal) m ρ c)).trans (W10_arg9 m ρ c)

theorem W5_arg10 : W5 (F := Ideal) m ρ c (Proc.devRef .tc main_arg10) = W0 (F := Ideal) m ρ c (Proc.devRef .tc main_arg10) :=
  (G0_arg10 (W0 (F := Ideal) m ρ c))

theorem W6_arg10 : W6 (F := Ideal) m ρ c (Proc.devRef .tc main_arg10) = W0 (F := Ideal) m ρ c (Proc.devRef .tc main_arg10) :=
  (W6_of_ne m ρ c main_arg10 (by decide)).trans (W5_arg10 m ρ c)

theorem W9_arg10 : W9 (F := Ideal) m ρ c (Proc.devRef .tc main_arg10) = W0 (F := Ideal) m ρ c (Proc.devRef .tc main_arg10) :=
  (G1_arg10 (W6 (F := Ideal) m ρ c)).trans (W6_arg10 m ρ c)

theorem W10_arg10 : W10 (F := Ideal) m ρ c (Proc.devRef .tc main_arg10) = W0 (F := Ideal) m ρ c (Proc.devRef .tc main_arg10) :=
  (W10_of_ne m ρ c main_arg10 (by decide)).trans (W9_arg10 m ρ c)

theorem W5_arg13 : W5 (F := Ideal) m ρ c (Proc.devRef .tc main_arg13) = W0 (F := Ideal) m ρ c (Proc.devRef .tc main_arg13) :=
  (G0_arg13 (W0 (F := Ideal) m ρ c))

theorem W6_arg13 : W6 (F := Ideal) m ρ c (Proc.devRef .tc main_arg13) = W0 (F := Ideal) m ρ c (Proc.devRef .tc main_arg13) :=
  (W6_of_ne m ρ c main_arg13 (by decide)).trans (W5_arg13 m ρ c)

theorem W9_arg13 : W9 (F := Ideal) m ρ c (Proc.devRef .tc main_arg13) = W0 (F := Ideal) m ρ c (Proc.devRef .tc main_arg13) :=
  (G1_arg13 (W6 (F := Ideal) m ρ c)).trans (W6_arg13 m ρ c)

theorem W10_arg13 : W10 (F := Ideal) m ρ c (Proc.devRef .tc main_arg13) = W0 (F := Ideal) m ρ c (Proc.devRef .tc main_arg13) :=
  (W10_of_ne m ρ c main_arg13 (by decide)).trans (W9_arg13 m ρ c)

theorem W11_arg13 : W11 (F := Ideal) m ρ c (Proc.devRef .tc main_arg13) = W0 (F := Ideal) m ρ c (Proc.devRef .tc main_arg13) :=
  (G2_arg13 (W10 (F := Ideal) m ρ c)).trans (W10_arg13 m ρ c)

theorem W12_arg13 : W12 (F := Ideal) m ρ c (Proc.devRef .tc main_arg13) = W0 (F := Ideal) m ρ c (Proc.devRef .tc main_arg13) :=
  (W12_of_ne m ρ c main_arg13 (by decide)).trans (W11_arg13 m ρ c)

theorem W19_arg13 : W19 (F := Ideal) m ρ c (Proc.devRef .tc main_arg13) = W0 (F := Ideal) m ρ c (Proc.devRef .tc main_arg13) :=
  (G3_arg13 (W12 (F := Ideal) m ρ c)).trans (W12_arg13 m ρ c)

theorem W5_arg14 : W5 (F := Ideal) m ρ c (Proc.devRef .tc main_arg14) = W0 (F := Ideal) m ρ c (Proc.devRef .tc main_arg14) :=
  (G0_arg14 (W0 (F := Ideal) m ρ c))

theorem W6_arg14 : W6 (F := Ideal) m ρ c (Proc.devRef .tc main_arg14) = W0 (F := Ideal) m ρ c (Proc.devRef .tc main_arg14) :=
  (W6_of_ne m ρ c main_arg14 (by decide)).trans (W5_arg14 m ρ c)

theorem W9_arg14 : W9 (F := Ideal) m ρ c (Proc.devRef .tc main_arg14) = W0 (F := Ideal) m ρ c (Proc.devRef .tc main_arg14) :=
  (G1_arg14 (W6 (F := Ideal) m ρ c)).trans (W6_arg14 m ρ c)

theorem W10_arg14 : W10 (F := Ideal) m ρ c (Proc.devRef .tc main_arg14) = W0 (F := Ideal) m ρ c (Proc.devRef .tc main_arg14) :=
  (W10_of_ne m ρ c main_arg14 (by decide)).trans (W9_arg14 m ρ c)

theorem W11_arg14 : W11 (F := Ideal) m ρ c (Proc.devRef .tc main_arg14) = W0 (F := Ideal) m ρ c (Proc.devRef .tc main_arg14) :=
  (G2_arg14 (W10 (F := Ideal) m ρ c)).trans (W10_arg14 m ρ c)

theorem W12_arg14 : W12 (F := Ideal) m ρ c (Proc.devRef .tc main_arg14) = W0 (F := Ideal) m ρ c (Proc.devRef .tc main_arg14) :=
  (W12_of_ne m ρ c main_arg14 (by decide)).trans (W11_arg14 m ρ c)

theorem W5_arg0 : W5 (F := Ideal) m ρ c (Proc.devRef .tc main_arg0) = W0 (F := Ideal) m ρ c (Proc.devRef .tc main_arg0) :=
  (G0_arg0 (W0 (F := Ideal) m ρ c))

theorem W6_arg0 : W6 (F := Ideal) m ρ c (Proc.devRef .tc main_arg0) = W0 (F := Ideal) m ρ c (Proc.devRef .tc main_arg0) :=
  (W6_of_ne m ρ c main_arg0 (by decide)).trans (W5_arg0 m ρ c)

theorem W9_arg0 : W9 (F := Ideal) m ρ c (Proc.devRef .tc main_arg0) = W0 (F := Ideal) m ρ c (Proc.devRef .tc main_arg0) :=
  (G1_arg0 (W6 (F := Ideal) m ρ c)).trans (W6_arg0 m ρ c)

theorem W10_arg0 : W10 (F := Ideal) m ρ c (Proc.devRef .tc main_arg0) = W0 (F := Ideal) m ρ c (Proc.devRef .tc main_arg0) :=
  (W10_of_ne m ρ c main_arg0 (by decide)).trans (W9_arg0 m ρ c)

theorem W11_arg0 : W11 (F := Ideal) m ρ c (Proc.devRef .tc main_arg0) = W0 (F := Ideal) m ρ c (Proc.devRef .tc main_arg0) :=
  (G2_arg0 (W10 (F := Ideal) m ρ c)).trans (W10_arg0 m ρ c)

theorem W12_arg0 : W12 (F := Ideal) m ρ c (Proc.devRef .tc main_arg0) = W0 (F := Ideal) m ρ c (Proc.devRef .tc main_arg0) :=
  (W12_of_ne m ρ c main_arg0 (by decide)).trans (W11_arg0 m ρ c)

theorem W5_arg3 : W5 (F := Ideal) m ρ c (Proc.devRef .tc main_arg3) = W0 (F := Ideal) m ρ c (Proc.devRef .tc main_arg3) :=
  (G0_arg3 (W0 (F := Ideal) m ρ c))

theorem W6_arg3 : W6 (F := Ideal) m ρ c (Proc.devRef .tc main_arg3) = W0 (F := Ideal) m ρ c (Proc.devRef .tc main_arg3) :=
  (W6_of_ne m ρ c main_arg3 (by decide)).trans (W5_arg3 m ρ c)

theorem W9_arg3 : W9 (F := Ideal) m ρ c (Proc.devRef .tc main_arg3) = W0 (F := Ideal) m ρ c (Proc.devRef .tc main_arg3) :=
  (G1_arg3 (W6 (F := Ideal) m ρ c)).trans (W6_arg3 m ρ c)

theorem W10_arg3 : W10 (F := Ideal) m ρ c (Proc.devRef .tc main_arg3) = W0 (F := Ideal) m ρ c (Proc.devRef .tc main_arg3) :=
  (W10_of_ne m ρ c main_arg3 (by decide)).trans (W9_arg3 m ρ c)

theorem W11_arg3 : W11 (F := Ideal) m ρ c (Proc.devRef .tc main_arg3) = W0 (F := Ideal) m ρ c (Proc.devRef .tc main_arg3) :=
  (G2_arg3 (W10 (F := Ideal) m ρ c)).trans (W10_arg3 m ρ c)

theorem W12_arg3 : W12 (F := Ideal) m ρ c (Proc.devRef .tc main_arg3) = W0 (F := Ideal) m ρ c (Proc.devRef .tc main_arg3) :=
  (W12_of_ne m ρ c main_arg3 (by decide)).trans (W11_arg3 m ρ c)

theorem W5_arg4 : W5 (F := Ideal) m ρ c (Proc.devRef .tc main_arg4) = W0 (F := Ideal) m ρ c (Proc.devRef .tc main_arg4) :=
  (G0_arg4 (W0 (F := Ideal) m ρ c))

theorem W6_arg4 : W6 (F := Ideal) m ρ c (Proc.devRef .tc main_arg4) = W0 (F := Ideal) m ρ c (Proc.devRef .tc main_arg4) :=
  (W6_of_ne m ρ c main_arg4 (by decide)).trans (W5_arg4 m ρ c)

theorem W9_arg4 : W9 (F := Ideal) m ρ c (Proc.devRef .tc main_arg4) = W0 (F := Ideal) m ρ c (Proc.devRef .tc main_arg4) :=
  (G1_arg4 (W6 (F := Ideal) m ρ c)).trans (W6_arg4 m ρ c)

theorem W10_arg4 : W10 (F := Ideal) m ρ c (Proc.devRef .tc main_arg4) = W0 (F := Ideal) m ρ c (Proc.devRef .tc main_arg4) :=
  (W10_of_ne m ρ c main_arg4 (by decide)).trans (W9_arg4 m ρ c)

theorem W11_arg4 : W11 (F := Ideal) m ρ c (Proc.devRef .tc main_arg4) = W0 (F := Ideal) m ρ c (Proc.devRef .tc main_arg4) :=
  (G2_arg4 (W10 (F := Ideal) m ρ c)).trans (W10_arg4 m ρ c)

theorem W12_arg4 : W12 (F := Ideal) m ρ c (Proc.devRef .tc main_arg4) = W0 (F := Ideal) m ρ c (Proc.devRef .tc main_arg4) :=
  (W12_of_ne m ρ c main_arg4 (by decide)).trans (W11_arg4 m ρ c)

theorem W5_arg15 : W5 (F := Ideal) m ρ c (Proc.devRef .tc main_arg15) = W0 (F := Ideal) m ρ c (Proc.devRef .tc main_arg15) :=
  (G0_arg15 (W0 (F := Ideal) m ρ c))

theorem W6_arg15 : W6 (F := Ideal) m ρ c (Proc.devRef .tc main_arg15) = W0 (F := Ideal) m ρ c (Proc.devRef .tc main_arg15) :=
  (W6_of_ne m ρ c main_arg15 (by decide)).trans (W5_arg15 m ρ c)

theorem W9_arg15 : W9 (F := Ideal) m ρ c (Proc.devRef .tc main_arg15) = W0 (F := Ideal) m ρ c (Proc.devRef .tc main_arg15) :=
  (G1_arg15 (W6 (F := Ideal) m ρ c)).trans (W6_arg15 m ρ c)

theorem W10_arg15 : W10 (F := Ideal) m ρ c (Proc.devRef .tc main_arg15) = W0 (F := Ideal) m ρ c (Proc.devRef .tc main_arg15) :=
  (W10_of_ne m ρ c main_arg15 (by decide)).trans (W9_arg15 m ρ c)

theorem W11_arg15 : W11 (F := Ideal) m ρ c (Proc.devRef .tc main_arg15) = W0 (F := Ideal) m ρ c (Proc.devRef .tc main_arg15) :=
  (G2_arg15 (W10 (F := Ideal) m ρ c)).trans (W10_arg15 m ρ c)

theorem W12_arg15 : W12 (F := Ideal) m ρ c (Proc.devRef .tc main_arg15) = W0 (F := Ideal) m ρ c (Proc.devRef .tc main_arg15) :=
  (W12_of_ne m ρ c main_arg15 (by decide)).trans (W11_arg15 m ρ c)

theorem W19_arg15 : W19 (F := Ideal) m ρ c (Proc.devRef .tc main_arg15) = W0 (F := Ideal) m ρ c (Proc.devRef .tc main_arg15) :=
  (G3_arg15 (W12 (F := Ideal) m ρ c)).trans (W12_arg15 m ρ c)

theorem W20_arg15 : W20 (F := Ideal) m ρ c (Proc.devRef .tc main_arg15) = W0 (F := Ideal) m ρ c (Proc.devRef .tc main_arg15) :=
  (W20_of_ne m ρ c main_arg15 (by decide)).trans (W19_arg15 m ρ c)

theorem W5_arg16 : W5 (F := Ideal) m ρ c (Proc.devRef .tc main_arg16) = W0 (F := Ideal) m ρ c (Proc.devRef .tc main_arg16) :=
  (G0_arg16 (W0 (F := Ideal) m ρ c))

theorem W6_arg16 : W6 (F := Ideal) m ρ c (Proc.devRef .tc main_arg16) = W0 (F := Ideal) m ρ c (Proc.devRef .tc main_arg16) :=
  (W6_of_ne m ρ c main_arg16 (by decide)).trans (W5_arg16 m ρ c)

theorem W9_arg16 : W9 (F := Ideal) m ρ c (Proc.devRef .tc main_arg16) = W0 (F := Ideal) m ρ c (Proc.devRef .tc main_arg16) :=
  (G1_arg16 (W6 (F := Ideal) m ρ c)).trans (W6_arg16 m ρ c)

theorem W10_arg16 : W10 (F := Ideal) m ρ c (Proc.devRef .tc main_arg16) = W0 (F := Ideal) m ρ c (Proc.devRef .tc main_arg16) :=
  (W10_of_ne m ρ c main_arg16 (by decide)).trans (W9_arg16 m ρ c)

theorem W11_arg16 : W11 (F := Ideal) m ρ c (Proc.devRef .tc main_arg16) = W0 (F := Ideal) m ρ c (Proc.devRef .tc main_arg16) :=
  (G2_arg16 (W10 (F := Ideal) m ρ c)).trans (W10_arg16 m ρ c)

theorem W12_arg16 : W12 (F := Ideal) m ρ c (Proc.devRef .tc main_arg16) = W0 (F := Ideal) m ρ c (Proc.devRef .tc main_arg16) :=
  (W12_of_ne m ρ c main_arg16 (by decide)).trans (W11_arg16 m ρ c)

theorem W19_arg16 : W19 (F := Ideal) m ρ c (Proc.devRef .tc main_arg16) = W0 (F := Ideal) m ρ c (Proc.devRef .tc main_arg16) :=
  (G3_arg16 (W12 (F := Ideal) m ρ c)).trans (W12_arg16 m ρ c)

theorem W20_arg16 : W20 (F := Ideal) m ρ c (Proc.devRef .tc main_arg16) = W0 (F := Ideal) m ρ c (Proc.devRef .tc main_arg16) :=
  (W20_of_ne m ρ c main_arg16 (by decide)).trans (W19_arg16 m ρ c)

theorem W19_arg3 : W19 (F := Ideal) m ρ c (Proc.devRef .tc main_arg3) = W0 (F := Ideal) m ρ c (Proc.devRef .tc main_arg3) :=
  (G3_arg3 (W12 (F := Ideal) m ρ c)).trans (W12_arg3 m ρ c)

theorem W20_arg3 : W20 (F := Ideal) m ρ c (Proc.devRef .tc main_arg3) = W0 (F := Ideal) m ρ c (Proc.devRef .tc main_arg3) :=
  (W20_of_ne m ρ c main_arg3 (by decide)).trans (W19_arg3 m ρ c)

theorem W23_arg3 : W23 (F := Ideal) m ρ c (Proc.devRef .tc main_arg3) = W0 (F := Ideal) m ρ c (Proc.devRef .tc main_arg3) :=
  (G4_arg3 (W20 (F := Ideal) m ρ c)).trans (W20_arg3 m ρ c)

theorem W24_arg3 : W24 (F := Ideal) m ρ c (Proc.devRef .tc main_arg3) = W0 (F := Ideal) m ρ c (Proc.devRef .tc main_arg3) :=
  (W24_of_ne m ρ c main_arg3 (by decide)).trans (W23_arg3 m ρ c)

theorem W19_arg4 : W19 (F := Ideal) m ρ c (Proc.devRef .tc main_arg4) = W0 (F := Ideal) m ρ c (Proc.devRef .tc main_arg4) :=
  (G3_arg4 (W12 (F := Ideal) m ρ c)).trans (W12_arg4 m ρ c)

theorem W20_arg4 : W20 (F := Ideal) m ρ c (Proc.devRef .tc main_arg4) = W0 (F := Ideal) m ρ c (Proc.devRef .tc main_arg4) :=
  (W20_of_ne m ρ c main_arg4 (by decide)).trans (W19_arg4 m ρ c)

theorem W23_arg4 : W23 (F := Ideal) m ρ c (Proc.devRef .tc main_arg4) = W0 (F := Ideal) m ρ c (Proc.devRef .tc main_arg4) :=
  (G4_arg4 (W20 (F := Ideal) m ρ c)).trans (W20_arg4 m ρ c)

theorem W24_arg4 : W24 (F := Ideal) m ρ c (Proc.devRef .tc main_arg4) = W0 (F := Ideal) m ρ c (Proc.devRef .tc main_arg4) :=
  (W24_of_ne m ρ c main_arg4 (by decide)).trans (W23_arg4 m ρ c)

theorem W5_arg17 : W5 (F := Ideal) m ρ c (Proc.devRef .tc main_arg17) = W0 (F := Ideal) m ρ c (Proc.devRef .tc main_arg17) :=
  (G0_arg17 (W0 (F := Ideal) m ρ c))

theorem W6_arg17 : W6 (F := Ideal) m ρ c (Proc.devRef .tc main_arg17) = W0 (F := Ideal) m ρ c (Proc.devRef .tc main_arg17) :=
  (W6_of_ne m ρ c main_arg17 (by decide)).trans (W5_arg17 m ρ c)

theorem W9_arg17 : W9 (F := Ideal) m ρ c (Proc.devRef .tc main_arg17) = W0 (F := Ideal) m ρ c (Proc.devRef .tc main_arg17) :=
  (G1_arg17 (W6 (F := Ideal) m ρ c)).trans (W6_arg17 m ρ c)

theorem W10_arg17 : W10 (F := Ideal) m ρ c (Proc.devRef .tc main_arg17) = W0 (F := Ideal) m ρ c (Proc.devRef .tc main_arg17) :=
  (W10_of_ne m ρ c main_arg17 (by decide)).trans (W9_arg17 m ρ c)

theorem W11_arg17 : W11 (F := Ideal) m ρ c (Proc.devRef .tc main_arg17) = W0 (F := Ideal) m ρ c (Proc.devRef .tc main_arg17) :=
  (G2_arg17 (W10 (F := Ideal) m ρ c)).trans (W10_arg17 m ρ c)

theorem W12_arg17 : W12 (F := Ideal) m ρ c (Proc.devRef .tc main_arg17) = W0 (F := Ideal) m ρ c (Proc.devRef .tc main_arg17) :=
  (W12_of_ne m ρ c main_arg17 (by decide)).trans (W11_arg17 m ρ c)

theorem W19_arg17 : W19 (F := Ideal) m ρ c (Proc.devRef .tc main_arg17) = W0 (F := Ideal) m ρ c (Proc.devRef .tc main_arg17) :=
  (G3_arg17 (W12 (F := Ideal) m ρ c)).trans (W12_arg17 m ρ c)

theorem W20_arg17 : W20 (F := Ideal) m ρ c (Proc.devRef .tc main_arg17) = W0 (F := Ideal) m ρ c (Proc.devRef .tc main_arg17) :=
  (W20_of_ne m ρ c main_arg17 (by decide)).trans (W19_arg17 m ρ c)

theorem W23_arg17 : W23 (F := Ideal) m ρ c (Proc.devRef .tc main_arg17) = W0 (F := Ideal) m ρ c (Proc.devRef .tc main_arg17) :=
  (G4_arg17 (W20 (F := Ideal) m ρ c)).trans (W20_arg17 m ρ c)

theorem W24_arg17 : W24 (F := Ideal) m ρ c (Proc.devRef .tc main_arg17) = W0 (F := Ideal) m ρ c (Proc.devRef .tc main_arg17) :=
  (W24_of_ne m ρ c main_arg17 (by decide)).trans (W23_arg17 m ρ c)

theorem W25_arg17 : W25 (F := Ideal) m ρ c (Proc.devRef .tc main_arg17) = W0 (F := Ideal) m ρ c (Proc.devRef .tc main_arg17) :=
  (G5_arg17 (W24 (F := Ideal) m ρ c)).trans (W24_arg17 m ρ c)

theorem W5_arg18 : W5 (F := Ideal) m ρ c (Proc.devRef .tc main_arg18) = W0 (F := Ideal) m ρ c (Proc.devRef .tc main_arg18) :=
  (G0_arg18 (W0 (F := Ideal) m ρ c))

theorem W6_arg18 : W6 (F := Ideal) m ρ c (Proc.devRef .tc main_arg18) = W0 (F := Ideal) m ρ c (Proc.devRef .tc main_arg18) :=
  (W6_of_ne m ρ c main_arg18 (by decide)).trans (W5_arg18 m ρ c)

theorem W9_arg18 : W9 (F := Ideal) m ρ c (Proc.devRef .tc main_arg18) = W0 (F := Ideal) m ρ c (Proc.devRef .tc main_arg18) :=
  (G1_arg18 (W6 (F := Ideal) m ρ c)).trans (W6_arg18 m ρ c)

theorem W10_arg18 : W10 (F := Ideal) m ρ c (Proc.devRef .tc main_arg18) = W0 (F := Ideal) m ρ c (Proc.devRef .tc main_arg18) :=
  (W10_of_ne m ρ c main_arg18 (by decide)).trans (W9_arg18 m ρ c)

theorem W11_arg18 : W11 (F := Ideal) m ρ c (Proc.devRef .tc main_arg18) = W0 (F := Ideal) m ρ c (Proc.devRef .tc main_arg18) :=
  (G2_arg18 (W10 (F := Ideal) m ρ c)).trans (W10_arg18 m ρ c)

theorem W12_arg18 : W12 (F := Ideal) m ρ c (Proc.devRef .tc main_arg18) = W0 (F := Ideal) m ρ c (Proc.devRef .tc main_arg18) :=
  (W12_of_ne m ρ c main_arg18 (by decide)).trans (W11_arg18 m ρ c)

theorem W19_arg18 : W19 (F := Ideal) m ρ c (Proc.devRef .tc main_arg18) = W0 (F := Ideal) m ρ c (Proc.devRef .tc main_arg18) :=
  (G3_arg18 (W12 (F := Ideal) m ρ c)).trans (W12_arg18 m ρ c)

theorem W20_arg18 : W20 (F := Ideal) m ρ c (Proc.devRef .tc main_arg18) = W0 (F := Ideal) m ρ c (Proc.devRef .tc main_arg18) :=
  (W20_of_ne m ρ c main_arg18 (by decide)).trans (W19_arg18 m ρ c)

theorem W23_arg18 : W23 (F := Ideal) m ρ c (Proc.devRef .tc main_arg18) = W0 (F := Ideal) m ρ c (Proc.devRef .tc main_arg18) :=
  (G4_arg18 (W20 (F := Ideal) m ρ c)).trans (W20_arg18 m ρ c)

theorem W24_arg18 : W24 (F := Ideal) m ρ c (Proc.devRef .tc main_arg18) = W0 (F := Ideal) m ρ c (Proc.devRef .tc main_arg18) :=
  (W24_of_ne m ρ c main_arg18 (by decide)).trans (W23_arg18 m ρ c)

theorem W5_arg24 : W5 (F := Ideal) m ρ c (Proc.devRef .tc main_arg24) = W0 (F := Ideal) m ρ c (Proc.devRef .tc main_arg24) :=
  (G0_arg24 (W0 (F := Ideal) m ρ c))

theorem W6_arg24 : W6 (F := Ideal) m ρ c (Proc.devRef .tc main_arg24) = W0 (F := Ideal) m ρ c (Proc.devRef .tc main_arg24) :=
  (W6_of_ne m ρ c main_arg24 (by decide)).trans (W5_arg24 m ρ c)

theorem W9_arg24 : W9 (F := Ideal) m ρ c (Proc.devRef .tc main_arg24) = W0 (F := Ideal) m ρ c (Proc.devRef .tc main_arg24) :=
  (G1_arg24 (W6 (F := Ideal) m ρ c)).trans (W6_arg24 m ρ c)

theorem W10_arg24 : W10 (F := Ideal) m ρ c (Proc.devRef .tc main_arg24) = W0 (F := Ideal) m ρ c (Proc.devRef .tc main_arg24) :=
  (W10_of_ne m ρ c main_arg24 (by decide)).trans (W9_arg24 m ρ c)

theorem W11_arg24 : W11 (F := Ideal) m ρ c (Proc.devRef .tc main_arg24) = W0 (F := Ideal) m ρ c (Proc.devRef .tc main_arg24) :=
  (G2_arg24 (W10 (F := Ideal) m ρ c)).trans (W10_arg24 m ρ c)

theorem W12_arg24 : W12 (F := Ideal) m ρ c (Proc.devRef .tc main_arg24) = W0 (F := Ideal) m ρ c (Proc.devRef .tc main_arg24) :=
  (W12_of_ne m ρ c main_arg24 (by decide)).trans (W11_arg24 m ρ c)

theorem W19_arg24 : W19 (F := Ideal) m ρ c (Proc.devRef .tc main_arg24) = W0 (F := Ideal) m ρ c (Proc.devRef .tc main_arg24) :=
  (G3_arg24 (W12 (F := Ideal) m ρ c)).trans (W12_arg24 m ρ c)

theorem W20_arg24 : W20 (F := Ideal) m ρ c (Proc.devRef .tc main_arg24) = W0 (F := Ideal) m ρ c (Proc.devRef .tc main_arg24) :=
  (W20_of_ne m ρ c main_arg24 (by decide)).trans (W19_arg24 m ρ c)

theorem W23_arg24 : W23 (F := Ideal) m ρ c (Proc.devRef .tc main_arg24) = W0 (F := Ideal) m ρ c (Proc.devRef .tc main_arg24) :=
  (G4_arg24 (W20 (F := Ideal) m ρ c)).trans (W20_arg24 m ρ c)

theorem W24_arg24 : W24 (F := Ideal) m ρ c (Proc.devRef .tc main_arg24) = W0 (F := Ideal) m ρ c (Proc.devRef .tc main_arg24) :=
  (W24_of_ne m ρ c main_arg24 (by decide)).trans (W23_arg24 m ρ c)

theorem W25_arg24 : W25 (F := Ideal) m ρ c (Proc.devRef .tc main_arg24) = W0 (F := Ideal) m ρ c (Proc.devRef .tc main_arg24) :=
  (G5_arg24 (W24 (F := Ideal) m ρ c)).trans (W24_arg24 m ρ c)

theorem W26_arg24 : W26 (F := Ideal) m ρ c (Proc.devRef .tc main_arg24) = W0 (F := Ideal) m ρ c (Proc.devRef .tc main_arg24) :=
  (W26_of_ne m ρ c main_arg24 (by decide)).trans (W25_arg24 m ρ c)

theorem W29_arg24 : W29 (F := Ideal) m ρ c (Proc.devRef .tc main_arg24) = W0 (F := Ideal) m ρ c (Proc.devRef .tc main_arg24) :=
  (G6_arg24 (W26 (F := Ideal) m ρ c)).trans (W26_arg24 m ρ c)

theorem W5_arg26 : W5 (F := Ideal) m ρ c (Proc.devRef .tc main_arg26) = W0 (F := Ideal) m ρ c (Proc.devRef .tc main_arg26) :=
  (G0_arg26 (W0 (F := Ideal) m ρ c))

theorem W6_arg26 : W6 (F := Ideal) m ρ c (Proc.devRef .tc main_arg26) = W0 (F := Ideal) m ρ c (Proc.devRef .tc main_arg26) :=
  (W6_of_ne m ρ c main_arg26 (by decide)).trans (W5_arg26 m ρ c)

theorem W9_arg26 : W9 (F := Ideal) m ρ c (Proc.devRef .tc main_arg26) = W0 (F := Ideal) m ρ c (Proc.devRef .tc main_arg26) :=
  (G1_arg26 (W6 (F := Ideal) m ρ c)).trans (W6_arg26 m ρ c)

theorem W10_arg26 : W10 (F := Ideal) m ρ c (Proc.devRef .tc main_arg26) = W0 (F := Ideal) m ρ c (Proc.devRef .tc main_arg26) :=
  (W10_of_ne m ρ c main_arg26 (by decide)).trans (W9_arg26 m ρ c)

theorem W11_arg26 : W11 (F := Ideal) m ρ c (Proc.devRef .tc main_arg26) = W0 (F := Ideal) m ρ c (Proc.devRef .tc main_arg26) :=
  (G2_arg26 (W10 (F := Ideal) m ρ c)).trans (W10_arg26 m ρ c)

theorem W12_arg26 : W12 (F := Ideal) m ρ c (Proc.devRef .tc main_arg26) = W0 (F := Ideal) m ρ c (Proc.devRef .tc main_arg26) :=
  (W12_of_ne m ρ c main_arg26 (by decide)).trans (W11_arg26 m ρ c)

theorem W19_arg26 : W19 (F := Ideal) m ρ c (Proc.devRef .tc main_arg26) = W0 (F := Ideal) m ρ c (Proc.devRef .tc main_arg26) :=
  (G3_arg26 (W12 (F := Ideal) m ρ c)).trans (W12_arg26 m ρ c)

theorem W20_arg26 : W20 (F := Ideal) m ρ c (Proc.devRef .tc main_arg26) = W0 (F := Ideal) m ρ c (Proc.devRef .tc main_arg26) :=
  (W20_of_ne m ρ c main_arg26 (by decide)).trans (W19_arg26 m ρ c)

theorem W23_arg26 : W23 (F := Ideal) m ρ c (Proc.devRef .tc main_arg26) = W0 (F := Ideal) m ρ c (Proc.devRef .tc main_arg26) :=
  (G4_arg26 (W20 (F := Ideal) m ρ c)).trans (W20_arg26 m ρ c)

theorem W24_arg26 : W24 (F := Ideal) m ρ c (Proc.devRef .tc main_arg26) = W0 (F := Ideal) m ρ c (Proc.devRef .tc main_arg26) :=
  (W24_of_ne m ρ c main_arg26 (by decide)).trans (W23_arg26 m ρ c)

theorem W25_arg26 : W25 (F := Ideal) m ρ c (Proc.devRef .tc main_arg26) = W0 (F := Ideal) m ρ c (Proc.devRef .tc main_arg26) :=
  (G5_arg26 (W24 (F := Ideal) m ρ c)).trans (W24_arg26 m ρ c)

theorem W26_arg26 : W26 (F := Ideal) m ρ c (Proc.devRef .tc main_arg26) = W0 (F := Ideal) m ρ c (Proc.devRef .tc main_arg26) :=
  (W26_of_ne m ρ c main_arg26 (by decide)).trans (W25_arg26 m ρ c)

theorem W29_arg26 : W29 (F := Ideal) m ρ c (Proc.devRef .tc main_arg26) = W0 (F := Ideal) m ρ c (Proc.devRef .tc main_arg26) :=
  (G6_arg26 (W26 (F := Ideal) m ρ c)).trans (W26_arg26 m ρ c)

theorem W5_arg11 : W5 (F := Ideal) m ρ c (Proc.devRef .tc main_arg11) = W0 (F := Ideal) m ρ c (Proc.devRef .tc main_arg11) :=
  (G0_arg11 (W0 (F := Ideal) m ρ c))

theorem W6_arg11 : W6 (F := Ideal) m ρ c (Proc.devRef .tc main_arg11) = W0 (F := Ideal) m ρ c (Proc.devRef .tc main_arg11) :=
  (W6_of_ne m ρ c main_arg11 (by decide)).trans (W5_arg11 m ρ c)

theorem W9_arg11 : W9 (F := Ideal) m ρ c (Proc.devRef .tc main_arg11) = W0 (F := Ideal) m ρ c (Proc.devRef .tc main_arg11) :=
  (G1_arg11 (W6 (F := Ideal) m ρ c)).trans (W6_arg11 m ρ c)

theorem W10_arg11 : W10 (F := Ideal) m ρ c (Proc.devRef .tc main_arg11) = W0 (F := Ideal) m ρ c (Proc.devRef .tc main_arg11) :=
  (W10_of_ne m ρ c main_arg11 (by decide)).trans (W9_arg11 m ρ c)

theorem W11_arg11 : W11 (F := Ideal) m ρ c (Proc.devRef .tc main_arg11) = W0 (F := Ideal) m ρ c (Proc.devRef .tc main_arg11) :=
  (G2_arg11 (W10 (F := Ideal) m ρ c)).trans (W10_arg11 m ρ c)

theorem W12_arg11 : W12 (F := Ideal) m ρ c (Proc.devRef .tc main_arg11) = W0 (F := Ideal) m ρ c (Proc.devRef .tc main_arg11) :=
  (W12_of_ne m ρ c main_arg11 (by decide)).trans (W11_arg11 m ρ c)

theorem W19_arg11 : W19 (F := Ideal) m ρ c (Proc.devRef .tc main_arg11) = W0 (F := Ideal) m ρ c (Proc.devRef .tc main_arg11) :=
  (G3_arg11 (W12 (F := Ideal) m ρ c)).trans (W12_arg11 m ρ c)

theorem W20_arg11 : W20 (F := Ideal) m ρ c (Proc.devRef .tc main_arg11) = W0 (F := Ideal) m ρ c (Proc.devRef .tc main_arg11) :=
  (W20_of_ne m ρ c main_arg11 (by decide)).trans (W19_arg11 m ρ c)

theorem W23_arg11 : W23 (F := Ideal) m ρ c (Proc.devRef .tc main_arg11) = W0 (F := Ideal) m ρ c (Proc.devRef .tc main_arg11) :=
  (G4_arg11 (W20 (F := Ideal) m ρ c)).trans (W20_arg11 m ρ c)

theorem W24_arg11 : W24 (F := Ideal) m ρ c (Proc.devRef .tc main_arg11) = W0 (F := Ideal) m ρ c (Proc.devRef .tc main_arg11) :=
  (W24_of_ne m ρ c main_arg11 (by decide)).trans (W23_arg11 m ρ c)

theorem W25_arg11 : W25 (F := Ideal) m ρ c (Proc.devRef .tc main_arg11) = W0 (F := Ideal) m ρ c (Proc.devRef .tc main_arg11) :=
  (G5_arg11 (W24 (F := Ideal) m ρ c)).trans (W24_arg11 m ρ c)

theorem W26_arg11 : W26 (F := Ideal) m ρ c (Proc.devRef .tc main_arg11) = W0 (F := Ideal) m ρ c (Proc.devRef .tc main_arg11) :=
  (W26_of_ne m ρ c main_arg11 (by decide)).trans (W25_arg11 m ρ c)

theorem W5_arg12 : W5 (F := Ideal) m ρ c (Proc.devRef .tc main_arg12) = W0 (F := Ideal) m ρ c (Proc.devRef .tc main_arg12) :=
  (G0_arg12 (W0 (F := Ideal) m ρ c))

theorem W6_arg12 : W6 (F := Ideal) m ρ c (Proc.devRef .tc main_arg12) = W0 (F := Ideal) m ρ c (Proc.devRef .tc main_arg12) :=
  (W6_of_ne m ρ c main_arg12 (by decide)).trans (W5_arg12 m ρ c)

theorem W9_arg12 : W9 (F := Ideal) m ρ c (Proc.devRef .tc main_arg12) = W0 (F := Ideal) m ρ c (Proc.devRef .tc main_arg12) :=
  (G1_arg12 (W6 (F := Ideal) m ρ c)).trans (W6_arg12 m ρ c)

theorem W10_arg12 : W10 (F := Ideal) m ρ c (Proc.devRef .tc main_arg12) = W0 (F := Ideal) m ρ c (Proc.devRef .tc main_arg12) :=
  (W10_of_ne m ρ c main_arg12 (by decide)).trans (W9_arg12 m ρ c)

theorem W11_arg12 : W11 (F := Ideal) m ρ c (Proc.devRef .tc main_arg12) = W0 (F := Ideal) m ρ c (Proc.devRef .tc main_arg12) :=
  (G2_arg12 (W10 (F := Ideal) m ρ c)).trans (W10_arg12 m ρ c)

theorem W12_arg12 : W12 (F := Ideal) m ρ c (Proc.devRef .tc main_arg12) = W0 (F := Ideal) m ρ c (Proc.devRef .tc main_arg12) :=
  (W12_of_ne m ρ c main_arg12 (by decide)).trans (W11_arg12 m ρ c)

theorem W19_arg12 : W19 (F := Ideal) m ρ c (Proc.devRef .tc main_arg12) = W0 (F := Ideal) m ρ c (Proc.devRef .tc main_arg12) :=
  (G3_arg12 (W12 (F := Ideal) m ρ c)).trans (W12_arg12 m ρ c)

theorem W20_arg12 : W20 (F := Ideal) m ρ c (Proc.devRef .tc main_arg12) = W0 (F := Ideal) m ρ c (Proc.devRef .tc main_arg12) :=
  (W20_of_ne m ρ c main_arg12 (by decide)).trans (W19_arg12 m ρ c)

theorem W23_arg12 : W23 (F := Ideal) m ρ c (Proc.devRef .tc main_arg12) = W0 (F := Ideal) m ρ c (Proc.devRef .tc main_arg12) :=
  (G4_arg12 (W20 (F := Ideal) m ρ c)).trans (W20_arg12 m ρ c)

theorem W24_arg12 : W24 (F := Ideal) m ρ c (Proc.devRef .tc main_arg12) = W0 (F := Ideal) m ρ c (Proc.devRef .tc main_arg12) :=
  (W24_of_ne m ρ c main_arg12 (by decide)).trans (W23_arg12 m ρ c)

theorem W25_arg12 : W25 (F := Ideal) m ρ c (Proc.devRef .tc main_arg12) = W0 (F := Ideal) m ρ c (Proc.devRef .tc main_arg12) :=
  (G5_arg12 (W24 (F := Ideal) m ρ c)).trans (W24_arg12 m ρ c)

theorem W26_arg12 : W26 (F := Ideal) m ρ c (Proc.devRef .tc main_arg12) = W0 (F := Ideal) m ρ c (Proc.devRef .tc main_arg12) :=
  (W26_of_ne m ρ c main_arg12 (by decide)).trans (W25_arg12 m ρ c)

theorem W5_arg19 : W5 (F := Ideal) m ρ c (Proc.devRef .tc main_arg19) = W0 (F := Ideal) m ρ c (Proc.devRef .tc main_arg19) :=
  (G0_arg19 (W0 (F := Ideal) m ρ c))

theorem W6_arg19 : W6 (F := Ideal) m ρ c (Proc.devRef .tc main_arg19) = W0 (F := Ideal) m ρ c (Proc.devRef .tc main_arg19) :=
  (W6_of_ne m ρ c main_arg19 (by decide)).trans (W5_arg19 m ρ c)

theorem W9_arg19 : W9 (F := Ideal) m ρ c (Proc.devRef .tc main_arg19) = W0 (F := Ideal) m ρ c (Proc.devRef .tc main_arg19) :=
  (G1_arg19 (W6 (F := Ideal) m ρ c)).trans (W6_arg19 m ρ c)

theorem W10_arg19 : W10 (F := Ideal) m ρ c (Proc.devRef .tc main_arg19) = W0 (F := Ideal) m ρ c (Proc.devRef .tc main_arg19) :=
  (W10_of_ne m ρ c main_arg19 (by decide)).trans (W9_arg19 m ρ c)

theorem W11_arg19 : W11 (F := Ideal) m ρ c (Proc.devRef .tc main_arg19) = W0 (F := Ideal) m ρ c (Proc.devRef .tc main_arg19) :=
  (G2_arg19 (W10 (F := Ideal) m ρ c)).trans (W10_arg19 m ρ c)

theorem W12_arg19 : W12 (F := Ideal) m ρ c (Proc.devRef .tc main_arg19) = W0 (F := Ideal) m ρ c (Proc.devRef .tc main_arg19) :=
  (W12_of_ne m ρ c main_arg19 (by decide)).trans (W11_arg19 m ρ c)

theorem W19_arg19 : W19 (F := Ideal) m ρ c (Proc.devRef .tc main_arg19) = W0 (F := Ideal) m ρ c (Proc.devRef .tc main_arg19) :=
  (G3_arg19 (W12 (F := Ideal) m ρ c)).trans (W12_arg19 m ρ c)

theorem W20_arg19 : W20 (F := Ideal) m ρ c (Proc.devRef .tc main_arg19) = W0 (F := Ideal) m ρ c (Proc.devRef .tc main_arg19) :=
  (W20_of_ne m ρ c main_arg19 (by decide)).trans (W19_arg19 m ρ c)

theorem W23_arg19 : W23 (F := Ideal) m ρ c (Proc.devRef .tc main_arg19) = W0 (F := Ideal) m ρ c (Proc.devRef .tc main_arg19) :=
  (G4_arg19 (W20 (F := Ideal) m ρ c)).trans (W20_arg19 m ρ c)

theorem W24_arg19 : W24 (F := Ideal) m ρ c (Proc.devRef .tc main_arg19) = W0 (F := Ideal) m ρ c (Proc.devRef .tc main_arg19) :=
  (W24_of_ne m ρ c main_arg19 (by decide)).trans (W23_arg19 m ρ c)

theorem W25_arg19 : W25 (F := Ideal) m ρ c (Proc.devRef .tc main_arg19) = W0 (F := Ideal) m ρ c (Proc.devRef .tc main_arg19) :=
  (G5_arg19 (W24 (F := Ideal) m ρ c)).trans (W24_arg19 m ρ c)

theorem W26_arg19 : W26 (F := Ideal) m ρ c (Proc.devRef .tc main_arg19) = W0 (F := Ideal) m ρ c (Proc.devRef .tc main_arg19) :=
  (W26_of_ne m ρ c main_arg19 (by decide)).trans (W25_arg19 m ρ c)

theorem W5_arg20 : W5 (F := Ideal) m ρ c (Proc.devRef .tc main_arg20) = W0 (F := Ideal) m ρ c (Proc.devRef .tc main_arg20) :=
  (G0_arg20 (W0 (F := Ideal) m ρ c))

theorem W6_arg20 : W6 (F := Ideal) m ρ c (Proc.devRef .tc main_arg20) = W0 (F := Ideal) m ρ c (Proc.devRef .tc main_arg20) :=
  (W6_of_ne m ρ c main_arg20 (by decide)).trans (W5_arg20 m ρ c)

theorem W9_arg20 : W9 (F := Ideal) m ρ c (Proc.devRef .tc main_arg20) = W0 (F := Ideal) m ρ c (Proc.devRef .tc main_arg20) :=
  (G1_arg20 (W6 (F := Ideal) m ρ c)).trans (W6_arg20 m ρ c)

theorem W10_arg20 : W10 (F := Ideal) m ρ c (Proc.devRef .tc main_arg20) = W0 (F := Ideal) m ρ c (Proc.devRef .tc main_arg20) :=
  (W10_of_ne m ρ c main_arg20 (by decide)).trans (W9_arg20 m ρ c)

theorem W11_arg20 : W11 (F := Ideal) m ρ c (Proc.devRef .tc main_arg20) = W0 (F := Ideal) m ρ c (Proc.devRef .tc main_arg20) :=
  (G2_arg20 (W10 (F := Ideal) m ρ c)).trans (W10_arg20 m ρ c)

theorem W12_arg20 : W12 (F := Ideal) m ρ c (Proc.devRef .tc main_arg20) = W0 (F := Ideal) m ρ c (Proc.devRef .tc main_arg20) :=
  (W12_of_ne m ρ c main_arg20 (by decide)).trans (W11_arg20 m ρ c)

theorem W19_arg20 : W19 (F := Ideal) m ρ c (Proc.devRef .tc main_arg20) = W0 (F := Ideal) m ρ c (Proc.devRef .tc main_arg20) :=
  (G3_arg20 (W12 (F := Ideal) m ρ c)).trans (W12_arg20 m ρ c)

theorem W20_arg20 : W20 (F := Ideal) m ρ c (Proc.devRef .tc main_arg20) = W0 (F := Ideal) m ρ c (Proc.devRef .tc main_arg20) :=
  (W20_of_ne m ρ c main_arg20 (by decide)).trans (W19_arg20 m ρ c)

theorem W23_arg20 : W23 (F := Ideal) m ρ c (Proc.devRef .tc main_arg20) = W0 (F := Ideal) m ρ c (Proc.devRef .tc main_arg20) :=
  (G4_arg20 (W20 (F := Ideal) m ρ c)).trans (W20_arg20 m ρ c)

theorem W24_arg20 : W24 (F := Ideal) m ρ c (Proc.devRef .tc main_arg20) = W0 (F := Ideal) m ρ c (Proc.devRef .tc main_arg20) :=
  (W24_of_ne m ρ c main_arg20 (by decide)).trans (W23_arg20 m ρ c)

theorem W25_arg20 : W25 (F := Ideal) m ρ c (Proc.devRef .tc main_arg20) = W0 (F := Ideal) m ρ c (Proc.devRef .tc main_arg20) :=
  (G5_arg20 (W24 (F := Ideal) m ρ c)).trans (W24_arg20 m ρ c)

theorem W26_arg20 : W26 (F := Ideal) m ρ c (Proc.devRef .tc main_arg20) = W0 (F := Ideal) m ρ c (Proc.devRef .tc main_arg20) :=
  (W26_of_ne m ρ c main_arg20 (by decide)).trans (W25_arg20 m ρ c)

theorem W5_arg21 : W5 (F := Ideal) m ρ c (Proc.devRef .tc main_arg21) = W0 (F := Ideal) m ρ c (Proc.devRef .tc main_arg21) :=
  (G0_arg21 (W0 (F := Ideal) m ρ c))

theorem W6_arg21 : W6 (F := Ideal) m ρ c (Proc.devRef .tc main_arg21) = W0 (F := Ideal) m ρ c (Proc.devRef .tc main_arg21) :=
  (W6_of_ne m ρ c main_arg21 (by decide)).trans (W5_arg21 m ρ c)

theorem W9_arg21 : W9 (F := Ideal) m ρ c (Proc.devRef .tc main_arg21) = W0 (F := Ideal) m ρ c (Proc.devRef .tc main_arg21) :=
  (G1_arg21 (W6 (F := Ideal) m ρ c)).trans (W6_arg21 m ρ c)

theorem W10_arg21 : W10 (F := Ideal) m ρ c (Proc.devRef .tc main_arg21) = W0 (F := Ideal) m ρ c (Proc.devRef .tc main_arg21) :=
  (W10_of_ne m ρ c main_arg21 (by decide)).trans (W9_arg21 m ρ c)

theorem W11_arg21 : W11 (F := Ideal) m ρ c (Proc.devRef .tc main_arg21) = W0 (F := Ideal) m ρ c (Proc.devRef .tc main_arg21) :=
  (G2_arg21 (W10 (F := Ideal) m ρ c)).trans (W10_arg21 m ρ c)

theorem W12_arg21 : W12 (F := Ideal) m ρ c (Proc.devRef .tc main_arg21) = W0 (F := Ideal) m ρ c (Proc.devRef .tc main_arg21) :=
  (W12_of_ne m ρ c main_arg21 (by decide)).trans (W11_arg21 m ρ c)

theorem W19_arg21 : W19 (F := Ideal) m ρ c (Proc.devRef .tc main_arg21) = W0 (F := Ideal) m ρ c (Proc.devRef .tc main_arg21) :=
  (G3_arg21 (W12 (F := Ideal) m ρ c)).trans (W12_arg21 m ρ c)

theorem W20_arg21 : W20 (F := Ideal) m ρ c (Proc.devRef .tc main_arg21) = W0 (F := Ideal) m ρ c (Proc.devRef .tc main_arg21) :=
  (W20_of_ne m ρ c main_arg21 (by decide)).trans (W19_arg21 m ρ c)

theorem W23_arg21 : W23 (F := Ideal) m ρ c (Proc.devRef .tc main_arg21) = W0 (F := Ideal) m ρ c (Proc.devRef .tc main_arg21) :=
  (G4_arg21 (W20 (F := Ideal) m ρ c)).trans (W20_arg21 m ρ c)

theorem W24_arg21 : W24 (F := Ideal) m ρ c (Proc.devRef .tc main_arg21) = W0 (F := Ideal) m ρ c (Proc.devRef .tc main_arg21) :=
  (W24_of_ne m ρ c main_arg21 (by decide)).trans (W23_arg21 m ρ c)

theorem W25_arg21 : W25 (F := Ideal) m ρ c (Proc.devRef .tc main_arg21) = W0 (F := Ideal) m ρ c (Proc.devRef .tc main_arg21) :=
  (G5_arg21 (W24 (F := Ideal) m ρ c)).trans (W24_arg21 m ρ c)

theorem W26_arg21 : W26 (F := Ideal) m ρ c (Proc.devRef .tc main_arg21) = W0 (F := Ideal) m ρ c (Proc.devRef .tc main_arg21) :=
  (W26_of_ne m ρ c main_arg21 (by decide)).trans (W25_arg21 m ρ c)

theorem W5_arg22 : W5 (F := Ideal) m ρ c (Proc.devRef .tc main_arg22) = W0 (F := Ideal) m ρ c (Proc.devRef .tc main_arg22) :=
  (G0_arg22 (W0 (F := Ideal) m ρ c))

theorem W6_arg22 : W6 (F := Ideal) m ρ c (Proc.devRef .tc main_arg22) = W0 (F := Ideal) m ρ c (Proc.devRef .tc main_arg22) :=
  (W6_of_ne m ρ c main_arg22 (by decide)).trans (W5_arg22 m ρ c)

theorem W9_arg22 : W9 (F := Ideal) m ρ c (Proc.devRef .tc main_arg22) = W0 (F := Ideal) m ρ c (Proc.devRef .tc main_arg22) :=
  (G1_arg22 (W6 (F := Ideal) m ρ c)).trans (W6_arg22 m ρ c)

theorem W10_arg22 : W10 (F := Ideal) m ρ c (Proc.devRef .tc main_arg22) = W0 (F := Ideal) m ρ c (Proc.devRef .tc main_arg22) :=
  (W10_of_ne m ρ c main_arg22 (by decide)).trans (W9_arg22 m ρ c)

theorem W11_arg22 : W11 (F := Ideal) m ρ c (Proc.devRef .tc main_arg22) = W0 (F := Ideal) m ρ c (Proc.devRef .tc main_arg22) :=
  (G2_arg22 (W10 (F := Ideal) m ρ c)).trans (W10_arg22 m ρ c)

theorem W12_arg22 : W12 (F := Ideal) m ρ c (Proc.devRef .tc main_arg22) = W0 (F := Ideal) m ρ c (Proc.devRef .tc main_arg22) :=
  (W12_of_ne m ρ c main_arg22 (by decide)).trans (W11_arg22 m ρ c)

theorem W19_arg22 : W19 (F := Ideal) m ρ c (Proc.devRef .tc main_arg22) = W0 (F := Ideal) m ρ c (Proc.devRef .tc main_arg22) :=
  (G3_arg22 (W12 (F := Ideal) m ρ c)).trans (W12_arg22 m ρ c)

theorem W20_arg22 : W20 (F := Ideal) m ρ c (Proc.devRef .tc main_arg22) = W0 (F := Ideal) m ρ c (Proc.devRef .tc main_arg22) :=
  (W20_of_ne m ρ c main_arg22 (by decide)).trans (W19_arg22 m ρ c)

theorem W23_arg22 : W23 (F := Ideal) m ρ c (Proc.devRef .tc main_arg22) = W0 (F := Ideal) m ρ c (Proc.devRef .tc main_arg22) :=
  (G4_arg22 (W20 (F := Ideal) m ρ c)).trans (W20_arg22 m ρ c)

theorem W24_arg22 : W24 (F := Ideal) m ρ c (Proc.devRef .tc main_arg22) = W0 (F := Ideal) m ρ c (Proc.devRef .tc main_arg22) :=
  (W24_of_ne m ρ c main_arg22 (by decide)).trans (W23_arg22 m ρ c)

theorem W25_arg22 : W25 (F := Ideal) m ρ c (Proc.devRef .tc main_arg22) = W0 (F := Ideal) m ρ c (Proc.devRef .tc main_arg22) :=
  (G5_arg22 (W24 (F := Ideal) m ρ c)).trans (W24_arg22 m ρ c)

theorem W26_arg22 : W26 (F := Ideal) m ρ c (Proc.devRef .tc main_arg22) = W0 (F := Ideal) m ρ c (Proc.devRef .tc main_arg22) :=
  (W26_of_ne m ρ c main_arg22 (by decide)).trans (W25_arg22 m ρ c)

theorem W5_arg23 : W5 (F := Ideal) m ρ c (Proc.devRef .tc main_arg23) = W0 (F := Ideal) m ρ c (Proc.devRef .tc main_arg23) :=
  (G0_arg23 (W0 (F := Ideal) m ρ c))

theorem W6_arg23 : W6 (F := Ideal) m ρ c (Proc.devRef .tc main_arg23) = W0 (F := Ideal) m ρ c (Proc.devRef .tc main_arg23) :=
  (W6_of_ne m ρ c main_arg23 (by decide)).trans (W5_arg23 m ρ c)

theorem W9_arg23 : W9 (F := Ideal) m ρ c (Proc.devRef .tc main_arg23) = W0 (F := Ideal) m ρ c (Proc.devRef .tc main_arg23) :=
  (G1_arg23 (W6 (F := Ideal) m ρ c)).trans (W6_arg23 m ρ c)

theorem W10_arg23 : W10 (F := Ideal) m ρ c (Proc.devRef .tc main_arg23) = W0 (F := Ideal) m ρ c (Proc.devRef .tc main_arg23) :=
  (W10_of_ne m ρ c main_arg23 (by decide)).trans (W9_arg23 m ρ c)

theorem W11_arg23 : W11 (F := Ideal) m ρ c (Proc.devRef .tc main_arg23) = W0 (F := Ideal) m ρ c (Proc.devRef .tc main_arg23) :=
  (G2_arg23 (W10 (F := Ideal) m ρ c)).trans (W10_arg23 m ρ c)

theorem W12_arg23 : W12 (F := Ideal) m ρ c (Proc.devRef .tc main_arg23) = W0 (F := Ideal) m ρ c (Proc.devRef .tc main_arg23) :=
  (W12_of_ne m ρ c main_arg23 (by decide)).trans (W11_arg23 m ρ c)

theorem W19_arg23 : W19 (F := Ideal) m ρ c (Proc.devRef .tc main_arg23) = W0 (F := Ideal) m ρ c (Proc.devRef .tc main_arg23) :=
  (G3_arg23 (W12 (F := Ideal) m ρ c)).trans (W12_arg23 m ρ c)

theorem W20_arg23 : W20 (F := Ideal) m ρ c (Proc.devRef .tc main_arg23) = W0 (F := Ideal) m ρ c (Proc.devRef .tc main_arg23) :=
  (W20_of_ne m ρ c main_arg23 (by decide)).trans (W19_arg23 m ρ c)

theorem W23_arg23 : W23 (F := Ideal) m ρ c (Proc.devRef .tc main_arg23) = W0 (F := Ideal) m ρ c (Proc.devRef .tc main_arg23) :=
  (G4_arg23 (W20 (F := Ideal) m ρ c)).trans (W20_arg23 m ρ c)

theorem W24_arg23 : W24 (F := Ideal) m ρ c (Proc.devRef .tc main_arg23) = W0 (F := Ideal) m ρ c (Proc.devRef .tc main_arg23) :=
  (W24_of_ne m ρ c main_arg23 (by decide)).trans (W23_arg23 m ρ c)

theorem W25_arg23 : W25 (F := Ideal) m ρ c (Proc.devRef .tc main_arg23) = W0 (F := Ideal) m ρ c (Proc.devRef .tc main_arg23) :=
  (G5_arg23 (W24 (F := Ideal) m ρ c)).trans (W24_arg23 m ρ c)

theorem W26_arg23 : W26 (F := Ideal) m ρ c (Proc.devRef .tc main_arg23) = W0 (F := Ideal) m ρ c (Proc.devRef .tc main_arg23) :=
  (W26_of_ne m ρ c main_arg23 (by decide)).trans (W25_arg23 m ρ c)

theorem W5_arg25 : W5 (F := Ideal) m ρ c (Proc.devRef .tc main_arg25) = W0 (F := Ideal) m ρ c (Proc.devRef .tc main_arg25) :=
  (G0_arg25 (W0 (F := Ideal) m ρ c))

theorem W6_arg25 : W6 (F := Ideal) m ρ c (Proc.devRef .tc main_arg25) = W0 (F := Ideal) m ρ c (Proc.devRef .tc main_arg25) :=
  (W6_of_ne m ρ c main_arg25 (by decide)).trans (W5_arg25 m ρ c)

theorem W9_arg25 : W9 (F := Ideal) m ρ c (Proc.devRef .tc main_arg25) = W0 (F := Ideal) m ρ c (Proc.devRef .tc main_arg25) :=
  (G1_arg25 (W6 (F := Ideal) m ρ c)).trans (W6_arg25 m ρ c)

theorem W10_arg25 : W10 (F := Ideal) m ρ c (Proc.devRef .tc main_arg25) = W0 (F := Ideal) m ρ c (Proc.devRef .tc main_arg25) :=
  (W10_of_ne m ρ c main_arg25 (by decide)).trans (W9_arg25 m ρ c)

theorem W11_arg25 : W11 (F := Ideal) m ρ c (Proc.devRef .tc main_arg25) = W0 (F := Ideal) m ρ c (Proc.devRef .tc main_arg25) :=
  (G2_arg25 (W10 (F := Ideal) m ρ c)).trans (W10_arg25 m ρ c)

theorem W12_arg25 : W12 (F := Ideal) m ρ c (Proc.devRef .tc main_arg25) = W0 (F := Ideal) m ρ c (Proc.devRef .tc main_arg25) :=
  (W12_of_ne m ρ c main_arg25 (by decide)).trans (W11_arg25 m ρ c)

theorem W19_arg25 : W19 (F := Ideal) m ρ c (Proc.devRef .tc main_arg25) = W0 (F := Ideal) m ρ c (Proc.devRef .tc main_arg25) :=
  (G3_arg25 (W12 (F := Ideal) m ρ c)).trans (W12_arg25 m ρ c)

theorem W20_arg25 : W20 (F := Ideal) m ρ c (Proc.devRef .tc main_arg25) = W0 (F := Ideal) m ρ c (Proc.devRef .tc main_arg25) :=
  (W20_of_ne m ρ c main_arg25 (by decide)).trans (W19_arg25 m ρ c)

theorem W23_arg25 : W23 (F := Ideal) m ρ c (Proc.devRef .tc main_arg25) = W0 (F := Ideal) m ρ c (Proc.devRef .tc main_arg25) :=
  (G4_arg25 (W20 (F := Ideal) m ρ c)).trans (W20_arg25 m ρ c)

theorem W24_arg25 : W24 (F := Ideal) m ρ c (Proc.devRef .tc main_arg25) = W0 (F := Ideal) m ρ c (Proc.devRef .tc main_arg25) :=
  (W24_of_ne m ρ c main_arg25 (by decide)).trans (W23_arg25 m ρ c)

theorem W25_arg25 : W25 (F := Ideal) m ρ c (Proc.devRef .tc main_arg25) = W0 (F := Ideal) m ρ c (Proc.devRef .tc main_arg25) :=
  (G5_arg25 (W24 (F := Ideal) m ρ c)).trans (W24_arg25 m ρ c)

theorem W26_arg25 : W26 (F := Ideal) m ρ c (Proc.devRef .tc main_arg25) = W0 (F := Ideal) m ρ c (Proc.devRef .tc main_arg25) :=
  (W26_of_ne m ρ c main_arg25 (by decide)).trans (W25_arg25 m ρ c)

theorem W5_arg27 : W5 (F := Ideal) m ρ c (Proc.devRef .tc main_arg27) = W0 (F := Ideal) m ρ c (Proc.devRef .tc main_arg27) :=
  (G0_arg27 (W0 (F := Ideal) m ρ c))

theorem W6_arg27 : W6 (F := Ideal) m ρ c (Proc.devRef .tc main_arg27) = W0 (F := Ideal) m ρ c (Proc.devRef .tc main_arg27) :=
  (W6_of_ne m ρ c main_arg27 (by decide)).trans (W5_arg27 m ρ c)

theorem W9_arg27 : W9 (F := Ideal) m ρ c (Proc.devRef .tc main_arg27) = W0 (F := Ideal) m ρ c (Proc.devRef .tc main_arg27) :=
  (G1_arg27 (W6 (F := Ideal) m ρ c)).trans (W6_arg27 m ρ c)

theorem W10_arg27 : W10 (F := Ideal) m ρ c (Proc.devRef .tc main_arg27) = W0 (F := Ideal) m ρ c (Proc.devRef .tc main_arg27) :=
  (W10_of_ne m ρ c main_arg27 (by decide)).trans (W9_arg27 m ρ c)

theorem W11_arg27 : W11 (F := Ideal) m ρ c (Proc.devRef .tc main_arg27) = W0 (F := Ideal) m ρ c (Proc.devRef .tc main_arg27) :=
  (G2_arg27 (W10 (F := Ideal) m ρ c)).trans (W10_arg27 m ρ c)

theorem W12_arg27 : W12 (F := Ideal) m ρ c (Proc.devRef .tc main_arg27) = W0 (F := Ideal) m ρ c (Proc.devRef .tc main_arg27) :=
  (W12_of_ne m ρ c main_arg27 (by decide)).trans (W11_arg27 m ρ c)

theorem W19_arg27 : W19 (F := Ideal) m ρ c (Proc.devRef .tc main_arg27) = W0 (F := Ideal) m ρ c (Proc.devRef .tc main_arg27) :=
  (G3_arg27 (W12 (F := Ideal) m ρ c)).trans (W12_arg27 m ρ c)

theorem W20_arg27 : W20 (F := Ideal) m ρ c (Proc.devRef .tc main_arg27) = W0 (F := Ideal) m ρ c (Proc.devRef .tc main_arg27) :=
  (W20_of_ne m ρ c main_arg27 (by decide)).trans (W19_arg27 m ρ c)

theorem W23_arg27 : W23 (F := Ideal) m ρ c (Proc.devRef .tc main_arg27) = W0 (F := Ideal) m ρ c (Proc.devRef .tc main_arg27) :=
  (G4_arg27 (W20 (F := Ideal) m ρ c)).trans (W20_arg27 m ρ c)

theorem W24_arg27 : W24 (F := Ideal) m ρ c (Proc.devRef .tc main_arg27) = W0 (F := Ideal) m ρ c (Proc.devRef .tc main_arg27) :=
  (W24_of_ne m ρ c main_arg27 (by decide)).trans (W23_arg27 m ρ c)

theorem W25_arg27 : W25 (F := Ideal) m ρ c (Proc.devRef .tc main_arg27) = W0 (F := Ideal) m ρ c (Proc.devRef .tc main_arg27) :=
  (G5_arg27 (W24 (F := Ideal) m ρ c)).trans (W24_arg27 m ρ c)

theorem W26_arg27 : W26 (F := Ideal) m ρ c (Proc.devRef .tc main_arg27) = W0 (F := Ideal) m ρ c (Proc.devRef .tc main_arg27) :=
  (W26_of_ne m ρ c main_arg27 (by decide)).trans (W25_arg27 m ρ c)

theorem W6_v8 : W6 (F := Ideal) m ρ c (Proc.devRef .tc main_v8) = W5 (F := Ideal) m ρ c (Proc.devRef .tc main_v8) :=
  W6_of_ne m ρ c main_v8 (by decide)

theorem W6_v10 : W6 (F := Ideal) m ρ c (Proc.devRef .tc main_v10) = W5 (F := Ideal) m ρ c (Proc.devRef .tc main_v10) :=
  W6_of_ne m ρ c main_v10 (by decide)

theorem W10_v10 : W10 (F := Ideal) m ρ c (Proc.devRef .tc main_v10) = W9 (F := Ideal) m ρ c (Proc.devRef .tc main_v10) :=
  W10_of_ne m ρ c main_v10 (by decide)

theorem W20_v52 : W20 (F := Ideal) m ρ c (Proc.devRef .tc main_v52) = W19 (F := Ideal) m ρ c (Proc.devRef .tc main_v52) :=
  W20_of_ne m ρ c main_v52 (by decide)

theorem W20_v55 : W20 (F := Ideal) m ρ c (Proc.devRef .tc main_v55) = W19 (F := Ideal) m ρ c (Proc.devRef .tc main_v55) :=
  W20_of_ne m ρ c main_v55 (by decide)

theorem W20_v56 : W20 (F := Ideal) m ρ c (Proc.devRef .tc main_v56) = W19 (F := Ideal) m ρ c (Proc.devRef .tc main_v56) :=
  W20_of_ne m ρ c main_v56 (by decide)

theorem W20_v65 : W20 (F := Ideal) m ρ c (Proc.devRef .tc main_v65) = W19 (F := Ideal) m ρ c (Proc.devRef .tc main_v65) :=
  W20_of_ne m ρ c main_v65 (by decide)

theorem W20_v67 : W20 (F := Ideal) m ρ c (Proc.devRef .tc main_v67) = W19 (F := Ideal) m ρ c (Proc.devRef .tc main_v67) :=
  W20_of_ne m ρ c main_v67 (by decide)

theorem W24_v52 : W24 (F := Ideal) m ρ c (Proc.devRef .tc main_v52) = W23 (F := Ideal) m ρ c (Proc.devRef .tc main_v52) :=
  W24_of_ne m ρ c main_v52 (by decide)

theorem W24_v55 : W24 (F := Ideal) m ρ c (Proc.devRef .tc main_v55) = W23 (F := Ideal) m ρ c (Proc.devRef .tc main_v55) :=
  W24_of_ne m ρ c main_v55 (by decide)

theorem W24_v56 : W24 (F := Ideal) m ρ c (Proc.devRef .tc main_v56) = W23 (F := Ideal) m ρ c (Proc.devRef .tc main_v56) :=
  W24_of_ne m ρ c main_v56 (by decide)

theorem W24_v67 : W24 (F := Ideal) m ρ c (Proc.devRef .tc main_v67) = W23 (F := Ideal) m ρ c (Proc.devRef .tc main_v67) :=
  W24_of_ne m ρ c main_v67 (by decide)

theorem W26_v52 : W26 (F := Ideal) m ρ c (Proc.devRef .tc main_v52) = W25 (F := Ideal) m ρ c (Proc.devRef .tc main_v52) :=
  W26_of_ne m ρ c main_v52 (by decide)

theorem W26_v55 : W26 (F := Ideal) m ρ c (Proc.devRef .tc main_v55) = W25 (F := Ideal) m ρ c (Proc.devRef .tc main_v55) :=
  W26_of_ne m ρ c main_v55 (by decide)

theorem W26_v56 : W26 (F := Ideal) m ρ c (Proc.devRef .tc main_v56) = W25 (F := Ideal) m ρ c (Proc.devRef .tc main_v56) :=
  W26_of_ne m ρ c main_v56 (by decide)

end Cert.KernelIdeal.Hand

end
-- ==== Proof.KerBack.lean ====
/-
  The contents of the buffers the idealized kernel's regions stage, followed back: at each boundary of @main, what a
  buffer holds in terms of the contents at the previous boundary (the host stretches read back, a region passed
  through), written with the boundaries' own names so that a chain of rewrites carries any such buffer back to the
  value it was computed from.
-/
import proofs.«107288_j13769665151544_2_alg».proof.Proof.KerKeep

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem W5_v27 : W5 (F := Ideal) m ρ c (Proc.devRef .tc main_v27) = (fun i => shapeCast main_v27.ty.shape (W5 (F := Ideal) m ρ c (Proc.devRef .tc main_v10)) shapeCasts_S100000_S100000x1 i) :=
  G0_v27 (W0 (F := Ideal) m ρ c)

theorem W5_v26 : W5 (F := Ideal) m ρ c (Proc.devRef .tc main_v26) = (fun i => shapeCast main_v26.ty.shape (W0 (F := Ideal) m ρ c (Proc.devRef .tc main_arg6)) shapeCasts_S64_S1x64 i) :=
  G0_v26 (W0 (F := Ideal) m ρ c)

theorem W9_v28 : W9 (F := Ideal) m ρ c (Proc.devRef .tc main_v28) = W6 (F := Ideal) m ρ c (Proc.devRef .tc main_v28) :=
  G1_v28 (W6 (F := Ideal) m ρ c)

theorem W9_v32 : W9 (F := Ideal) m ρ c (Proc.devRef .tc main_v32) = (fun i => shapeCast main_v32.ty.shape (W9 (F := Ideal) m ρ c (Proc.devRef .tc main_v31)) shapeCasts_S64_S1x64 i) :=
  G1_v32 (W6 (F := Ideal) m ρ c)

theorem W9_v34 : W9 (F := Ideal) m ρ c (Proc.devRef .tc main_v34) = (fun i => shapeCast main_v34.ty.shape (W9 (F := Ideal) m ρ c (Proc.devRef .tc main_v33)) shapeCasts_S64_S1x64 i) :=
  G1_v34 (W6 (F := Ideal) m ρ c)

theorem W9_v35 : W9 (F := Ideal) m ρ c (Proc.devRef .tc main_v35) = (fun i => shapeCast main_v35.ty.shape (W6 (F := Ideal) m ρ c (Proc.devRef .tc main_arg7)) shapeCasts_S64_S1x64 i) :=
  G1_v35 (W6 (F := Ideal) m ρ c)

theorem W9_v36 : W9 (F := Ideal) m ρ c (Proc.devRef .tc main_v36) = (fun i => shapeCast main_v36.ty.shape (W6 (F := Ideal) m ρ c (Proc.devRef .tc main_arg8)) shapeCasts_S64_S1x64 i) :=
  G1_v36 (W6 (F := Ideal) m ρ c)

theorem W9_v37 : W9 (F := Ideal) m ρ c (Proc.devRef .tc main_v37) = (fun i => shapeCast main_v37.ty.shape (W6 (F := Ideal) m ρ c (Proc.devRef .tc main_v8)) shapeCasts_S100000_S100000x1 i) :=
  G1_v37 (W6 (F := Ideal) m ρ c)

theorem W9_v10 : W9 (F := Ideal) m ρ c (Proc.devRef .tc main_v10) = W6 (F := Ideal) m ρ c (Proc.devRef .tc main_v10) :=
  G1_v10 (W6 (F := Ideal) m ρ c)

theorem W11_v51 : W11 (F := Ideal) m ρ c (Proc.devRef .tc main_v51) = (fun i => shapeCast main_v51.ty.shape (W10 (F := Ideal) m ρ c (Proc.devRef .tc main_v10)) shapeCasts_S100000_S100000x1 i) :=
  G2_v51 (W10 (F := Ideal) m ρ c)

theorem W11_v50 : W11 (F := Ideal) m ρ c (Proc.devRef .tc main_v50) = (fun i => shapeCast main_v50.ty.shape (W10 (F := Ideal) m ρ c (Proc.devRef .tc main_arg10)) shapeCasts_S64_S1x64 i) :=
  G2_v50 (W10 (F := Ideal) m ρ c)

theorem W19_v84 : W19 (F := Ideal) m ρ c (Proc.devRef .tc main_v84) = (fun i => shapeCast main_v84.ty.shape (W19 (F := Ideal) m ρ c (Proc.devRef .tc main_v67)) shapeCasts_S100000_S100000x1 i) :=
  G3_v84 (W12 (F := Ideal) m ρ c)

theorem W19_v83 : W19 (F := Ideal) m ρ c (Proc.devRef .tc main_v83) = (fun i => shapeCast main_v83.ty.shape (W12 (F := Ideal) m ρ c (Proc.devRef .tc main_arg14)) shapeCasts_S64_S1x64 i) :=
  G3_v83 (W12 (F := Ideal) m ρ c)

theorem W19_v52 : W19 (F := Ideal) m ρ c (Proc.devRef .tc main_v52) = W12 (F := Ideal) m ρ c (Proc.devRef .tc main_v52) :=
  G3_v52 (W12 (F := Ideal) m ρ c)

theorem W23_v85 : W23 (F := Ideal) m ρ c (Proc.devRef .tc main_v85) = W20 (F := Ideal) m ρ c (Proc.devRef .tc main_v85) :=
  G4_v85 (W20 (F := Ideal) m ρ c)

theorem W23_v89 : W23 (F := Ideal) m ρ c (Proc.devRef .tc main_v89) = (fun i => shapeCast main_v89.ty.shape (W23 (F := Ideal) m ρ c (Proc.devRef .tc main_v88)) shapeCasts_S64_S1x64 i) :=
  G4_v89 (W20 (F := Ideal) m ρ c)

theorem W23_v91 : W23 (F := Ideal) m ρ c (Proc.devRef .tc main_v91) = (fun i => shapeCast main_v91.ty.shape (W23 (F := Ideal) m ρ c (Proc.devRef .tc main_v90)) shapeCasts_S64_S1x64 i) :=
  G4_v91 (W20 (F := Ideal) m ρ c)

theorem W23_v92 : W23 (F := Ideal) m ρ c (Proc.devRef .tc main_v92) = (fun i => shapeCast main_v92.ty.shape (W20 (F := Ideal) m ρ c (Proc.devRef .tc main_arg15)) shapeCasts_S64_S1x64 i) :=
  G4_v92 (W20 (F := Ideal) m ρ c)

theorem W23_v93 : W23 (F := Ideal) m ρ c (Proc.devRef .tc main_v93) = (fun i => shapeCast main_v93.ty.shape (W20 (F := Ideal) m ρ c (Proc.devRef .tc main_arg16)) shapeCasts_S64_S1x64 i) :=
  G4_v93 (W20 (F := Ideal) m ρ c)

theorem W23_v94 : W23 (F := Ideal) m ρ c (Proc.devRef .tc main_v94) = (fun i => shapeCast main_v94.ty.shape (W20 (F := Ideal) m ρ c (Proc.devRef .tc main_v65)) shapeCasts_S100000_S100000x1 i) :=
  G4_v94 (W20 (F := Ideal) m ρ c)

theorem W23_v67 : W23 (F := Ideal) m ρ c (Proc.devRef .tc main_v67) = W20 (F := Ideal) m ρ c (Proc.devRef .tc main_v67) :=
  G4_v67 (W20 (F := Ideal) m ρ c)

theorem W23_v52 : W23 (F := Ideal) m ρ c (Proc.devRef .tc main_v52) = W20 (F := Ideal) m ρ c (Proc.devRef .tc main_v52) :=
  G4_v52 (W20 (F := Ideal) m ρ c)

theorem W23_v55 : W23 (F := Ideal) m ρ c (Proc.devRef .tc main_v55) = W20 (F := Ideal) m ρ c (Proc.devRef .tc main_v55) :=
  G4_v55 (W20 (F := Ideal) m ρ c)

theorem W23_v56 : W23 (F := Ideal) m ρ c (Proc.devRef .tc main_v56) = W20 (F := Ideal) m ρ c (Proc.devRef .tc main_v56) :=
  G4_v56 (W20 (F := Ideal) m ρ c)

theorem W25_v108 : W25 (F := Ideal) m ρ c (Proc.devRef .tc main_v108) = (fun i => shapeCast main_v108.ty.shape (W24 (F := Ideal) m ρ c (Proc.devRef .tc main_v67)) shapeCasts_S100000_S100000x1 i) :=
  G5_v108 (W24 (F := Ideal) m ρ c)

theorem W25_v107 : W25 (F := Ideal) m ρ c (Proc.devRef .tc main_v107) = (fun i => shapeCast main_v107.ty.shape (W24 (F := Ideal) m ρ c (Proc.devRef .tc main_arg18)) shapeCasts_S64_S1x64 i) :=
  G5_v107 (W24 (F := Ideal) m ρ c)

theorem W25_v52 : W25 (F := Ideal) m ρ c (Proc.devRef .tc main_v52) = W24 (F := Ideal) m ρ c (Proc.devRef .tc main_v52) :=
  G5_v52 (W24 (F := Ideal) m ρ c)

theorem W25_v55 : W25 (F := Ideal) m ρ c (Proc.devRef .tc main_v55) = W24 (F := Ideal) m ρ c (Proc.devRef .tc main_v55) :=
  G5_v55 (W24 (F := Ideal) m ρ c)

theorem W25_v56 : W25 (F := Ideal) m ρ c (Proc.devRef .tc main_v56) = W24 (F := Ideal) m ρ c (Proc.devRef .tc main_v56) :=
  G5_v56 (W24 (F := Ideal) m ρ c)

theorem W29_v52 : W29 (F := Ideal) m ρ c (Proc.devRef .tc main_v52) = W26 (F := Ideal) m ρ c (Proc.devRef .tc main_v52) :=
  G6_v52 (W26 (F := Ideal) m ρ c)

theorem W29_v109 : W29 (F := Ideal) m ρ c (Proc.devRef .tc main_v109) = W26 (F := Ideal) m ρ c (Proc.devRef .tc main_v109) :=
  G6_v109 (W26 (F := Ideal) m ρ c)

theorem W29_v118 : W29 (F := Ideal) m ρ c (Proc.devRef .tc main_v118) = (fun i => shapeCast main_v118.ty.shape (W26 (F := Ideal) m ρ c (Proc.devRef .tc main_v55)) shapeCasts_S64_S1x64 i) :=
  G6_v118 (W26 (F := Ideal) m ρ c)

theorem W29_v119 : W29 (F := Ideal) m ρ c (Proc.devRef .tc main_v119) = (fun i => shapeCast main_v119.ty.shape (W26 (F := Ideal) m ρ c (Proc.devRef .tc main_v56)) shapeCasts_S64_S1x64 i) :=
  G6_v119 (W26 (F := Ideal) m ρ c)

theorem W29_v120 : W29 (F := Ideal) m ρ c (Proc.devRef .tc main_v120) = (fun i => shapeCast main_v120.ty.shape (W26 (F := Ideal) m ρ c (Proc.devRef .tc main_arg11)) shapeCasts_S64_S1x64 i) :=
  G6_v120 (W26 (F := Ideal) m ρ c)

theorem W29_v121 : W29 (F := Ideal) m ρ c (Proc.devRef .tc main_v121) = (fun i => shapeCast main_v121.ty.shape (W26 (F := Ideal) m ρ c (Proc.devRef .tc main_arg12)) shapeCasts_S64_S1x64 i) :=
  G6_v121 (W26 (F := Ideal) m ρ c)

theorem W29_v122 : W29 (F := Ideal) m ρ c (Proc.devRef .tc main_v122) = (fun i => shapeCast main_v122.ty.shape (W29 (F := Ideal) m ρ c (Proc.devRef .tc main_v112)) shapeCasts_S64_S1x64 i) :=
  G6_v122 (W26 (F := Ideal) m ρ c)

theorem W29_v123 : W29 (F := Ideal) m ρ c (Proc.devRef .tc main_v123) = (fun i => shapeCast main_v123.ty.shape (W29 (F := Ideal) m ρ c (Proc.devRef .tc main_v113)) shapeCasts_S64_S1x64 i) :=
  G6_v123 (W26 (F := Ideal) m ρ c)

theorem W29_v124 : W29 (F := Ideal) m ρ c (Proc.devRef .tc main_v124) = (fun i => shapeCast main_v124.ty.shape (W26 (F := Ideal) m ρ c (Proc.devRef .tc main_arg19)) shapeCasts_S64_S1x64 i) :=
  G6_v124 (W26 (F := Ideal) m ρ c)

theorem W29_v125 : W29 (F := Ideal) m ρ c (Proc.devRef .tc main_v125) = (fun i => shapeCast main_v125.ty.shape (W26 (F := Ideal) m ρ c (Proc.devRef .tc main_arg20)) shapeCasts_S64_S1x64 i) :=
  G6_v125 (W26 (F := Ideal) m ρ c)

theorem W29_v126 : W29 (F := Ideal) m ρ c (Proc.devRef .tc main_v126) = (fun i => shapeCast main_v126.ty.shape (W26 (F := Ideal) m ρ c (Proc.devRef .tc main_arg22)) shapeCasts_S64_S1x64 i) :=
  G6_v126 (W26 (F := Ideal) m ρ c)

theorem W29_v128 : W29 (F := Ideal) m ρ c (Proc.devRef .tc main_v128) = (fun i => shapeCast main_v128.ty.shape (W26 (F := Ideal) m ρ c (Proc.devRef .tc main_arg25)) shapeCasts_S64_S1x64 i) :=
  G6_v128 (W26 (F := Ideal) m ρ c)

theorem W29_v114 : W29 (F := Ideal) m ρ c (Proc.devRef .tc main_v114) = (extractStridedSlice S64x64 ![0, 0] (W26 (F := Ideal) m ρ c (Proc.devRef .tc main_arg21)) slices_S256x64_S64x64_0_0) :=
  G6_v114 (W26 (F := Ideal) m ρ c)

theorem W29_v115 : W29 (F := Ideal) m ρ c (Proc.devRef .tc main_v115) = (extractStridedSlice S64x64 ![64, 0] (W26 (F := Ideal) m ρ c (Proc.devRef .tc main_arg21)) slices_S256x64_S64x64_64_0) :=
  G6_v115 (W26 (F := Ideal) m ρ c)

theorem W29_v116 : W29 (F := Ideal) m ρ c (Proc.devRef .tc main_v116) = (extractStridedSlice S64x64 ![128, 0] (W26 (F := Ideal) m ρ c (Proc.devRef .tc main_arg21)) slices_S256x64_S64x64_128_0) :=
  G6_v116 (W26 (F := Ideal) m ρ c)

theorem W29_v117 : W29 (F := Ideal) m ρ c (Proc.devRef .tc main_v117) = (extractStridedSlice S64x64 ![192, 0] (W26 (F := Ideal) m ρ c (Proc.devRef .tc main_arg21)) slices_S256x64_S64x64_192_0) :=
  G6_v117 (W26 (F := Ideal) m ρ c)

theorem W29_v127 : W29 (F := Ideal) m ρ c (Proc.devRef .tc main_v127) = (fun i => shapeCast main_v127.ty.shape (W26 (F := Ideal) m ρ c (Proc.devRef .tc main_arg23)) shapeCasts_S1_S1x1 i) :=
  G6_v127 (W26 (F := Ideal) m ρ c)

theorem W29_v129 : W29 (F := Ideal) m ρ c (Proc.devRef .tc main_v129) = (fun i => shapeCast main_v129.ty.shape (W26 (F := Ideal) m ρ c (Proc.devRef .tc main_arg27)) shapeCasts_S129_S1x129 i) :=
  G6_v129 (W26 (F := Ideal) m ρ c)

end Cert.KernelIdeal.Hand

end
-- ==== Proof.StageGconv.lean ====
/-
  Region 0 of the kernel program (a graph-convolution stage over 50 tiles of 2000 rows): its output array, after the
  region, as ONE function of the arrays the region reads. Point t's tile holds rows 2000 t … 2000 t + 1999 of the
  aggregated features and of the degree column and the whole weight matrix and bias row; what it writes back is rows
  2000 t … 2000 t + 1999 of "gconvG" of the whole arrays; the 50 tiles cover every row.
-/
import proofs.«107288_j13769665151544_2_alg».proof.Proof.Gen.KernelIdeal.Frame
import proofs.«107288_j13769665151544_2_alg».proof.Proof.StageSpec
import Idealize.ShloMosaic.Lib.Pipeline.Value

noncomputable section

namespace Cert.Stage.Region0

open Cert.KernelIdeal Cert.KernelIdeal.Gen Idealize.ShloMosaic Idealize.ShloMosaic.TcCoe Idealize.SL.Sem
open Idealize.ShloMosaic.ValueIdx Cert.Stage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The tile's arithmetic is the stage's tile. -/
theorem pay_eq (x0 : Vec Ideal S2000x64 .f32) (x1 : Vec Ideal S2000x1 .f32) (x2 : Vec Ideal S64x64 .f32) (x3 : Vec Ideal S1x64 .f32) :
    k0_pay1 (F := Ideal) x0 x1 x2 x3
      = gconvTile dot_S2000x64_S64x64_S2000x64_1_0_0_1_n_n bitsLt_bf16_f32 shapeCasts_S2000x64_S2000x64 shapeCasts_S2000x1_S2000x1
          broadcasts_S2000x1_S2000x64 shapeCasts_S1x64_S1x64 broadcasts_S1x64_S2000x64 x0 x1 x2 x3 := rfl

/-- The block indices over the grid: the row windows move with the point, the weights and the bias stay. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of point t's block of the aggregated features is row 2000 t + p of the array. -/
theorem read_0 (c : Dev nD) (t : Fin cfg0.N) (p : Fin 2000) (k : Fin 64) (r : Fin 100000) (hr : r.val = t.val * 2000 + p.val) :
    (iblk0 V c 0 t : Vec Ideal S2000x64 .f32) (ix2 p k) = (V c (Pipeline.arrRef spec0 0) : S100000x64.Idx → EReal) (ix2 r k) := by
  obtain ⟨e0, e1, -⟩ := idx_facts t
  unfold iblk0
  rw [View.read_apply]
  refine congrArg (V c (Pipeline.arrRef spec0 0) : S100000x64.Idx → EReal) (funext fun a => Fin.ext ?_)
  match a with
  | ⟨0, _⟩ => show win0_0.index t (0 : Fin 2) * 2000 + 1 * p.val = r.val; rw [e0, hr]; omega
  | ⟨1, _⟩ => show win0_0.index t (1 : Fin 2) * 64 + 1 * k.val = k.val; rw [e1]; omega

/-- Row p of point t's block of the degree column is row 2000 t + p of the column. -/
theorem read_1 (c : Dev nD) (t : Fin cfg0.N) (p : Fin 2000) (r : Fin 100000) (hr : r.val = t.val * 2000 + p.val) :
    (iblk0 V c 1 t : Vec Ideal S2000x1 .f32) (ix2 p (0 : Fin 1)) = (V c (Pipeline.arrRef spec0 1) : S100000x1.Idx → EReal) (ix2 r (0 : Fin 1)) := by
  obtain ⟨-, -, e0, e1, -⟩ := idx_facts t
  unfold iblk0
  rw [View.read_apply]
  refine congrArg (V c (Pipeline.arrRef spec0 1) : S100000x1.Idx → EReal) (funext fun a => Fin.ext ?_)
  match a with
  | ⟨0, _⟩ => show win0_1.index t (0 : Fin 2) * 2000 + 1 * p.val = r.val; rw [e0, hr]; omega
  | ⟨1, _⟩ => show win0_1.index t (1 : Fin 2) * 1 + 1 * 0 = 0; rw [e1]

/-- Every point's block of the weights is the whole matrix. -/
theorem read_2 (c : Dev nD) (t : Fin cfg0.N) (k q : Fin 64) :
    (iblk0 V c 2 t : Vec Ideal S64x64 .f32) (ix2 k q) = (V c (Pipeline.arrRef spec0 2) : S64x64.Idx → EReal) (ix2 k q) := by
  obtain ⟨-, -, -, -, e0, e1, -⟩ := idx_facts t
  unfold iblk0
  rw [View.read_apply]
  refine congrArg (V c (Pipeline.arrRef spec0 2) : S64x64.Idx → EReal) (funext fun a => Fin.ext ?_)
  match a with
  | ⟨0, _⟩ => show win0_2.index t (0 : Fin 2) * 64 + 1 * k.val = k.val; rw [e0]; omega
  | ⟨1, _⟩ => show win0_2.index t (1 : Fin 2) * 64 + 1 * q.val = q.val; rw [e1]; omega

/-- Every point's block of the bias is the whole row. -/
theorem read_3 (c : Dev nD) (t : Fin cfg0.N) (q : Fin 64) :
    (iblk0 V c 3 t : Vec Ideal S1x64 .f32) (ix2 (0 : Fin 1) q) = (V c (Pipeline.arrRef spec0 3) : S1x64.Idx → EReal) (ix2 (0 : Fin 1) q) := by
  obtain ⟨-, -, -, -, -, -, e0, e1, -⟩ := idx_facts t
  unfold iblk0
  rw [View.read_apply]
  refine congrArg (V c (Pipeline.arrRef spec0 3) : S1x64.Idx → EReal) (funext fun a => Fin.ext ?_)
  match a with
  | ⟨0, _⟩ => show win0_3.index t (0 : Fin 2) * 1 + 1 * 0 = 0; rw [e0]
  | ⟨1, _⟩ => show win0_3.index t (1 : Fin 2) * 64 + 1 * q.val = q.val; rw [e1]; omega

/-- Entry (p, q) of point t's output block sits at (2000 t + p, q) of the output array. -/
theorem emb_4 (t : Fin cfg0.N) (p : Fin 2000) (q : Fin 64) (r : Fin 100000) (hr : r.val = t.val * 2000 + p.val) :
    (((cfg0.win 4).blk t).view.emb (ix2 p q) : S100000x64.Idx) = ix2 r q := by
  obtain ⟨-, -, -, -, -, -, -, -, e0, e1⟩ := idx_facts t
  funext a; apply Fin.ext
  match a with
  | ⟨0, _⟩ => show win0_4.index t (0 : Fin 2) * 2000 + 1 * p.val = r.val; rw [e0, hr]; omega
  | ⟨1, _⟩ => show win0_4.index t (1 : Fin 2) * 64 + 1 * q.val = q.val; rw [e1]; omega

set_option maxHeartbeats 1600000 in
/-- What point t writes back is rows 2000 t … of the stage's function of the arrays as the region finds them. -/
theorem flushed_eq (c : Dev nD) (t : Fin cfg0.N) :
    (dat0 (F := Ideal) V c).flushed 4 t = ((cfg0.win 4).blk t).view.read (Elt Ideal)
      (gconvG (V c (Pipeline.arrRef spec0 0)) (V c (Pipeline.arrRef spec0 1)) (V c (Pipeline.arrRef spec0 2)) (V c (Pipeline.arrRef spec0 3))) := by
  show (cfg0.win 4).cut (grid0.coords t) ((dat0 V c).after 4 t) = _
  rw [after0_4]
  unfold out0_4
  rw [View.canon_unit_zero hz]
  simp only [View.ld_unit_zero (S := S2000x64) hz, View.ld_unit_zero (S := S2000x1) hz, View.ld_unit_zero (S := S64x64) hz,
    View.ld_unit_zero (S := S1x64) hz]
  rw [pay_eq]
  have htN : t.val < 50 := Nat.lt_of_lt_of_eq t.isLt N_0
  refine funext fun (j : S2000x64.Idx) => ?_
  obtain ⟨p, q, rfl⟩ : ∃ (p : Fin 2000) (q : Fin 64), j = ix2 p q := ⟨j 0, j 1, eq_ix2 j⟩
  have hp : p.val < 2000 := p.isLt
  have hr : t.val * 2000 + p.val < 100000 := by omega
  rw [View.read_apply, emb_4 t p q ⟨t.val * 2000 + p.val, hr⟩ rfl]
  exact gconv_tile_apply _ rfl _ _ _ _ _ _ (iblk0 V c 0 t) (iblk0 V c 1 t) (iblk0 V c 2 t) (iblk0 V c 3 t) _ _ _ _
    p q ⟨t.val * 2000 + p.val, hr⟩ (fun k => read_0 V c t p k _ rfl) (read_1 V c t p _ rfl) (fun k => read_2 V c t k q) (read_3 V c t q)

/-- An index of the output array is in point t's block iff each coordinate is in the block's range on its axis. -/
theorem mem_blk (t : Fin cfg0.N) (i : S100000x64.Idx) :
    i ∈ ((cfg0.win 4).blk t).view.set ↔ ∀ a : Fin 2, win0_4.index t a * S2000x64.size a ≤ (i a).val
      ∧ (i a).val < win0_4.index t a * S2000x64.size a + S2000x64.size a := by
  show i ∈ ((View.whole main_v28).slice (win0_4.rect t)).set ↔ _
  rw [View.set_slice_whole, Rect.mem_set_unit]
  exact Iff.rfl

/-- Every row is in the tile of the point its index divided by 2000 names. -/
theorem cover (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ : ∃ t : Fin cfg0.N, t.val = (i 0).val / 2000 :=
    ⟨⟨(i 0).val / 2000, by rw [show cfg0.N = 50 from N_0]; omega⟩, rfl⟩
  obtain ⟨-, -, -, -, -, -, -, -, e40, e41⟩ := idx_facts t
  refine ⟨t, flush0_4 t, ?_⟩
  rw [mem_blk]
  intro a
  match a with
  | ⟨0, _⟩ =>
    show win0_4.index t (0 : Fin 2) * 2000 ≤ (i 0).val ∧ (i 0).val < win0_4.index t (0 : Fin 2) * 2000 + 2000
    rw [e40, ht]; omega
  | ⟨1, _⟩ =>
    show win0_4.index t (1 : Fin 2) * 64 ≤ (i 1).val ∧ (i 1).val < win0_4.index t (1 : Fin 2) * 64 + 64
    rw [e41]; omega

end Cert.Stage.Region0

namespace Cert.Stage

open Cert.KernelIdeal Cert.KernelIdeal.Gen Idealize.ShloMosaic Idealize.ShloMosaic.TcCoe Idealize.SL.Sem
open Idealize.ShloMosaic.Pipeline (Dat)

/-- THE OUTPUT ARRAY of region 0, after the region: the stage's function of the arrays the region finds. -/
theorem region0_final (V : (c : Dev nD) → (b : Ref sig .tc) → Buf (Elt Ideal) ((c : Thread nD τ).loc b)) (c : Dev nD) :
    (dat0 (F := Ideal) V c).arrAt 4 cfg0.N
      = gconvG (V c (Pipeline.arrRef spec0 0)) (V c (Pipeline.arrRef spec0 1)) (V c (Pipeline.arrRef spec0 2)) (V c (Pipeline.arrRef spec0 3)) :=
  (dat0 (F := Ideal) V c).arrAt_eq_of_cover 4 _ (fun t _ => Region0.flushed_eq V c t) Region0.cover

end Cert.Stage

end
-- ==== Proof.StageGconv2.lean ====
/-
  Region 2 of the kernel program (a graph-convolution stage over 50 tiles of 2000 rows): its output array, after the
  region, as ONE function of the arrays the region reads. Point t's tile holds rows 2000 t … 2000 t + 1999 of the
  aggregated features and of the degree column and the whole weight matrix and bias row; what it writes back is rows
  2000 t … 2000 t + 1999 of "gconvG" of the whole arrays; the 50 tiles cover every row.
-/
import proofs.«107288_j13769665151544_2_alg».proof.Proof.Gen.KernelIdeal.Frame
import proofs.«107288_j13769665151544_2_alg».proof.Proof.StageSpec
import Idealize.ShloMosaic.Lib.Pipeline.Value

noncomputable section

namespace Cert.Stage.Region2

open Cert.KernelIdeal Cert.KernelIdeal.Gen Idealize.ShloMosaic Idealize.ShloMosaic.TcCoe Idealize.SL.Sem
open Idealize.ShloMosaic.ValueIdx Cert.Stage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The tile's arithmetic is the stage's tile. -/
theorem pay_eq (x0 : Vec Ideal S2000x64 .f32) (x1 : Vec Ideal S2000x1 .f32) (x2 : Vec Ideal S64x64 .f32) (x3 : Vec Ideal S1x64 .f32) :
    k2_pay1 (F := Ideal) x0 x1 x2 x3
      = gconvTile dot_S2000x64_S64x64_S2000x64_1_0_0_1_n_n bitsLt_bf16_f32 shapeCasts_S2000x64_S2000x64 shapeCasts_S2000x1_S2000x1
          broadcasts_S2000x1_S2000x64 shapeCasts_S1x64_S1x64 broadcasts_S1x64_S2000x64 x0 x1 x2 x3 := rfl

/-- The block indices over the grid: the row windows move with the point, the weights and the bias stay. -/
theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of point t's block of the aggregated features is row 2000 t + p of the array. -/
theorem read_0 (c : Dev nD) (t : Fin cfg2.N) (p : Fin 2000) (k : Fin 64) (r : Fin 100000) (hr : r.val = t.val * 2000 + p.val) :
    (iblk2 V c 0 t : Vec Ideal S2000x64 .f32) (ix2 p k) = (V c (Pipeline.arrRef spec2 0) : S100000x64.Idx → EReal) (ix2 r k) := by
  obtain ⟨e0, e1, -⟩ := idx_facts t
  unfold iblk2
  rw [View.read_apply]
  refine congrArg (V c (Pipeline.arrRef spec2 0) : S100000x64.Idx → EReal) (funext fun a => Fin.ext ?_)
  match a with
  | ⟨0, _⟩ => show win2_0.index t (0 : Fin 2) * 2000 + 1 * p.val = r.val; rw [e0, hr]; omega
  | ⟨1, _⟩ => show win2_0.index t (1 : Fin 2) * 64 + 1 * k.val = k.val; rw [e1]; omega

/-- Row p of point t's block of the degree column is row 2000 t + p of the column. -/
theorem read_1 (c : Dev nD) (t : Fin cfg2.N) (p : Fin 2000) (r : Fin 100000) (hr : r.val = t.val * 2000 + p.val) :
    (iblk2 V c 1 t : Vec Ideal S2000x1 .f32) (ix2 p (0 : Fin 1)) = (V c (Pipeline.arrRef spec2 1) : S100000x1.Idx → EReal) (ix2 r (0 : Fin 1)) := by
  obtain ⟨-, -, e0, e1, -⟩ := idx_facts t
  unfold iblk2
  rw [View.read_apply]
  refine congrArg (V c (Pipeline.arrRef spec2 1) : S100000x1.Idx → EReal) (funext fun a => Fin.ext ?_)
  match a with
  | ⟨0, _⟩ => show win2_1.index t (0 : Fin 2) * 2000 + 1 * p.val = r.val; rw [e0, hr]; omega
  | ⟨1, _⟩ => show win2_1.index t (1 : Fin 2) * 1 + 1 * 0 = 0; rw [e1]

/-- Every point's block of the weights is the whole matrix. -/
theorem read_2 (c : Dev nD) (t : Fin cfg2.N) (k q : Fin 64) :
    (iblk2 V c 2 t : Vec Ideal S64x64 .f32) (ix2 k q) = (V c (Pipeline.arrRef spec2 2) : S64x64.Idx → EReal) (ix2 k q) := by
  obtain ⟨-, -, -, -, e0, e1, -⟩ := idx_facts t
  unfold iblk2
  rw [View.read_apply]
  refine congrArg (V c (Pipeline.arrRef spec2 2) : S64x64.Idx → EReal) (funext fun a => Fin.ext ?_)
  match a with
  | ⟨0, _⟩ => show win2_2.index t (0 : Fin 2) * 64 + 1 * k.val = k.val; rw [e0]; omega
  | ⟨1, _⟩ => show win2_2.index t (1 : Fin 2) * 64 + 1 * q.val = q.val; rw [e1]; omega

/-- Every point's block of the bias is the whole row. -/
theorem read_3 (c : Dev nD) (t : Fin cfg2.N) (q : Fin 64) :
    (iblk2 V c 3 t : Vec Ideal S1x64 .f32) (ix2 (0 : Fin 1) q) = (V c (Pipeline.arrRef spec2 3) : S1x64.Idx → EReal) (ix2 (0 : Fin 1) q) := by
  obtain ⟨-, -, -, -, -, -, e0, e1, -⟩ := idx_facts t
  unfold iblk2
  rw [View.read_apply]
  refine congrArg (V c (Pipeline.arrRef spec2 3) : S1x64.Idx → EReal) (funext fun a => Fin.ext ?_)
  match a with
  | ⟨0, _⟩ => show win2_3.index t (0 : Fin 2) * 1 + 1 * 0 = 0; rw [e0]
  | ⟨1, _⟩ => show win2_3.index t (1 : Fin 2) * 64 + 1 * q.val = q.val; rw [e1]; omega

/-- Entry (p, q) of point t's output block sits at (2000 t + p, q) of the output array. -/
theorem emb_4 (t : Fin cfg2.N) (p : Fin 2000) (q : Fin 64) (r : Fin 100000) (hr : r.val = t.val * 2000 + p.val) :
    (((cfg2.win 4).blk t).view.emb (ix2 p q) : S100000x64.Idx) = ix2 r q := by
  obtain ⟨-, -, -, -, -, -, -, -, e0, e1⟩ := idx_facts t
  funext a; apply Fin.ext
  match a with
  | ⟨0, _⟩ => show win2_4.index t (0 : Fin 2) * 2000 + 1 * p.val = r.val; rw [e0, hr]; omega
  | ⟨1, _⟩ => show win2_4.index t (1 : Fin 2) * 64 + 1 * q.val = q.val; rw [e1]; omega

set_option maxHeartbeats 1600000 in
/-- What point t writes back is rows 2000 t … of the stage's function of the arrays as the region finds them. -/
theorem flushed_eq (c : Dev nD) (t : Fin cfg2.N) :
    (dat2 (F := Ideal) V c).flushed 4 t = ((cfg2.win 4).blk t).view.read (Elt Ideal)
      (gconvG (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero hz]
  simp only [View.ld_unit_zero (S := S2000x64) hz, View.ld_unit_zero (S := S2000x1) hz, View.ld_unit_zero (S := S64x64) hz,
    View.ld_unit_zero (S := S1x64) hz]
  rw [pay_eq]
  have htN : t.val < 50 := Nat.lt_of_lt_of_eq t.isLt N_2
  refine funext fun (j : S2000x64.Idx) => ?_
  obtain ⟨p, q, rfl⟩ : ∃ (p : Fin 2000) (q : Fin 64), j = ix2 p q := ⟨j 0, j 1, eq_ix2 j⟩
  have hp : p.val < 2000 := p.isLt
  have hr : t.val * 2000 + p.val < 100000 := by omega
  rw [View.read_apply, emb_4 t p q ⟨t.val * 2000 + p.val, hr⟩ rfl]
  exact gconv_tile_apply _ rfl _ _ _ _ _ _ (iblk2 V c 0 t) (iblk2 V c 1 t) (iblk2 V c 2 t) (iblk2 V c 3 t) _ _ _ _
    p q ⟨t.val * 2000 + p.val, hr⟩ (fun k => read_0 V c t p k _ rfl) (read_1 V c t p _ rfl) (fun k => read_2 V c t k q) (read_3 V c t q)

/-- An index of the output array is in point t's block iff each coordinate is in the block's range on its axis. -/
theorem mem_blk (t : Fin cfg2.N) (i : S100000x64.Idx) :
    i ∈ ((cfg2.win 4).blk t).view.set ↔ ∀ a : Fin 2, win2_4.index t a * S2000x64.size a ≤ (i a).val
      ∧ (i a).val < win2_4.index t a * S2000x64.size a + S2000x64.size a := by
  show i ∈ ((View.whole main_v52).slice (win2_4.rect t)).set ↔ _
  rw [View.set_slice_whole, Rect.mem_set_unit]
  exact Iff.rfl

/-- Every row is in the tile of the point its index divided by 2000 names. -/
theorem cover (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ : ∃ t : Fin cfg2.N, t.val = (i 0).val / 2000 :=
    ⟨⟨(i 0).val / 2000, by rw [show cfg2.N = 50 from N_2]; omega⟩, rfl⟩
  obtain ⟨-, -, -, -, -, -, -, -, e40, e41⟩ := idx_facts t
  refine ⟨t, flush2_4 t, ?_⟩
  rw [mem_blk]
  intro a
  match a with
  | ⟨0, _⟩ =>
    show win2_4.index t (0 : Fin 2) * 2000 ≤ (i 0).val ∧ (i 0).val < win2_4.index t (0 : Fin 2) * 2000 + 2000
    rw [e40, ht]; omega
  | ⟨1, _⟩ =>
    show win2_4.index t (1 : Fin 2) * 64 ≤ (i 1).val ∧ (i 1).val < win2_4.index t (1 : Fin 2) * 64 + 64
    rw [e41]; omega

end Cert.Stage.Region2

namespace Cert.Stage

open Cert.KernelIdeal Cert.KernelIdeal.Gen Idealize.ShloMosaic Idealize.ShloMosaic.TcCoe Idealize.SL.Sem
open Idealize.ShloMosaic.Pipeline (Dat)

/-- THE OUTPUT ARRAY of region 2, after the region: the stage's function of the arrays the region finds. -/
theorem region2_final (V : (c : Dev nD) → (b : Ref sig .tc) → Buf (Elt Ideal) ((c : Thread nD τ).loc b)) (c : Dev nD) :
    (dat2 (F := Ideal) V c).arrAt 4 cfg2.N
      = gconvG (V c (Pipeline.arrRef spec2 0)) (V c (Pipeline.arrRef spec2 1)) (V c (Pipeline.arrRef spec2 2)) (V c (Pipeline.arrRef spec2 3)) :=
  (dat2 (F := Ideal) V c).arrAt_eq_of_cover 4 _ (fun t _ => Region2.flushed_eq V c t) Region2.cover

end Cert.Stage

end
-- ==== Proof.StageGconv3.lean ====
/-
  Region 3 of the kernel program (a graph-convolution stage over 50 tiles of 2000 rows): its output array, after the
  region, as ONE function of the arrays the region reads. Point t's tile holds rows 2000 t … 2000 t + 1999 of the
  aggregated features and of the degree column and the whole weight matrix and bias row; what it writes back is rows
  2000 t … 2000 t + 1999 of "gconvG" of the whole arrays; the 50 tiles cover every row.
-/
import proofs.«107288_j13769665151544_2_alg».proof.Proof.Gen.KernelIdeal.Frame
import proofs.«107288_j13769665151544_2_alg».proof.Proof.StageSpec
import Idealize.ShloMosaic.Lib.Pipeline.Value

noncomputable section

namespace Cert.Stage.Region3

open Cert.KernelIdeal Cert.KernelIdeal.Gen Idealize.ShloMosaic Idealize.ShloMosaic.TcCoe Idealize.SL.Sem
open Idealize.ShloMosaic.ValueIdx Cert.Stage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The tile's arithmetic is the stage's tile. -/
theorem pay_eq (x0 : Vec Ideal S2000x64 .f32) (x1 : Vec Ideal S2000x1 .f32) (x2 : Vec Ideal S64x64 .f32) (x3 : Vec Ideal S1x64 .f32) :
    k3_pay1 (F := Ideal) x0 x1 x2 x3
      = gconvTile dot_S2000x64_S64x64_S2000x64_1_0_0_1_n_n bitsLt_bf16_f32 shapeCasts_S2000x64_S2000x64 shapeCasts_S2000x1_S2000x1
          broadcasts_S2000x1_S2000x64 shapeCasts_S1x64_S1x64 broadcasts_S1x64_S2000x64 x0 x1 x2 x3 := rfl

/-- The block indices over the grid: the row windows move with the point, the weights and the bias stay. -/
theorem idx_facts : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of point t's block of the aggregated features is row 2000 t + p of the array. -/
theorem read_0 (c : Dev nD) (t : Fin cfg3.N) (p : Fin 2000) (k : Fin 64) (r : Fin 100000) (hr : r.val = t.val * 2000 + p.val) :
    (iblk3 V c 0 t : Vec Ideal S2000x64 .f32) (ix2 p k) = (V c (Pipeline.arrRef spec3 0) : S100000x64.Idx → EReal) (ix2 r k) := by
  obtain ⟨e0, e1, -⟩ := idx_facts t
  unfold iblk3
  rw [View.read_apply]
  refine congrArg (V c (Pipeline.arrRef spec3 0) : S100000x64.Idx → EReal) (funext fun a => Fin.ext ?_)
  match a with
  | ⟨0, _⟩ => show win3_0.index t (0 : Fin 2) * 2000 + 1 * p.val = r.val; rw [e0, hr]; omega
  | ⟨1, _⟩ => show win3_0.index t (1 : Fin 2) * 64 + 1 * k.val = k.val; rw [e1]; omega

/-- Row p of point t's block of the degree column is row 2000 t + p of the column. -/
theorem read_1 (c : Dev nD) (t : Fin cfg3.N) (p : Fin 2000) (r : Fin 100000) (hr : r.val = t.val * 2000 + p.val) :
    (iblk3 V c 1 t : Vec Ideal S2000x1 .f32) (ix2 p (0 : Fin 1)) = (V c (Pipeline.arrRef spec3 1) : S100000x1.Idx → EReal) (ix2 r (0 : Fin 1)) := by
  obtain ⟨-, -, e0, e1, -⟩ := idx_facts t
  unfold iblk3
  rw [View.read_apply]
  refine congrArg (V c (Pipeline.arrRef spec3 1) : S100000x1.Idx → EReal) (funext fun a => Fin.ext ?_)
  match a with
  | ⟨0, _⟩ => show win3_1.index t (0 : Fin 2) * 2000 + 1 * p.val = r.val; rw [e0, hr]; omega
  | ⟨1, _⟩ => show win3_1.index t (1 : Fin 2) * 1 + 1 * 0 = 0; rw [e1]

/-- Every point's block of the weights is the whole matrix. -/
theorem read_2 (c : Dev nD) (t : Fin cfg3.N) (k q : Fin 64) :
    (iblk3 V c 2 t : Vec Ideal S64x64 .f32) (ix2 k q) = (V c (Pipeline.arrRef spec3 2) : S64x64.Idx → EReal) (ix2 k q) := by
  obtain ⟨-, -, -, -, e0, e1, -⟩ := idx_facts t
  unfold iblk3
  rw [View.read_apply]
  refine congrArg (V c (Pipeline.arrRef spec3 2) : S64x64.Idx → EReal) (funext fun a => Fin.ext ?_)
  match a with
  | ⟨0, _⟩ => show win3_2.index t (0 : Fin 2) * 64 + 1 * k.val = k.val; rw [e0]; omega
  | ⟨1, _⟩ => show win3_2.index t (1 : Fin 2) * 64 + 1 * q.val = q.val; rw [e1]; omega

/-- Every point's block of the bias is the whole row. -/
theorem read_3 (c : Dev nD) (t : Fin cfg3.N) (q : Fin 64) :
    (iblk3 V c 3 t : Vec Ideal S1x64 .f32) (ix2 (0 : Fin 1) q) = (V c (Pipeline.arrRef spec3 3) : S1x64.Idx → EReal) (ix2 (0 : Fin 1) q) := by
  obtain ⟨-, -, -, -, -, -, e0, e1, -⟩ := idx_facts t
  unfold iblk3
  rw [View.read_apply]
  refine congrArg (V c (Pipeline.arrRef spec3 3) : S1x64.Idx → EReal) (funext fun a => Fin.ext ?_)
  match a with
  | ⟨0, _⟩ => show win3_3.index t (0 : Fin 2) * 1 + 1 * 0 = 0; rw [e0]
  | ⟨1, _⟩ => show win3_3.index t (1 : Fin 2) * 64 + 1 * q.val = q.val; rw [e1]; omega

/-- Entry (p, q) of point t's output block sits at (2000 t + p, q) of the output array. -/
theorem emb_4 (t : Fin cfg3.N) (p : Fin 2000) (q : Fin 64) (r : Fin 100000) (hr : r.val = t.val * 2000 + p.val) :
    (((cfg3.win 4).blk t).view.emb (ix2 p q) : S100000x64.Idx) = ix2 r q := by
  obtain ⟨-, -, -, -, -, -, -, -, e0, e1⟩ := idx_facts t
  funext a; apply Fin.ext
  match a with
  | ⟨0, _⟩ => show win3_4.index t (0 : Fin 2) * 2000 + 1 * p.val = r.val; rw [e0, hr]; omega
  | ⟨1, _⟩ => show win3_4.index t (1 : Fin 2) * 64 + 1 * q.val = q.val; rw [e1]; omega

set_option maxHeartbeats 1600000 in
/-- What point t writes back is rows 2000 t … of the stage's function of the arrays as the region finds them. -/
theorem flushed_eq (c : Dev nD) (t : Fin cfg3.N) :
    (dat3 (F := Ideal) V c).flushed 4 t = ((cfg3.win 4).blk t).view.read (Elt Ideal)
      (gconvG (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero hz]
  simp only [View.ld_unit_zero (S := S2000x64) hz, View.ld_unit_zero (S := S2000x1) hz, View.ld_unit_zero (S := S64x64) hz,
    View.ld_unit_zero (S := S1x64) hz]
  rw [pay_eq]
  have htN : t.val < 50 := Nat.lt_of_lt_of_eq t.isLt N_3
  refine funext fun (j : S2000x64.Idx) => ?_
  obtain ⟨p, q, rfl⟩ : ∃ (p : Fin 2000) (q : Fin 64), j = ix2 p q := ⟨j 0, j 1, eq_ix2 j⟩
  have hp : p.val < 2000 := p.isLt
  have hr : t.val * 2000 + p.val < 100000 := by omega
  rw [View.read_apply, emb_4 t p q ⟨t.val * 2000 + p.val, hr⟩ rfl]
  exact gconv_tile_apply _ rfl _ _ _ _ _ _ (iblk3 V c 0 t) (iblk3 V c 1 t) (iblk3 V c 2 t) (iblk3 V c 3 t) _ _ _ _
    p q ⟨t.val * 2000 + p.val, hr⟩ (fun k => read_0 V c t p k _ rfl) (read_1 V c t p _ rfl) (fun k => read_2 V c t k q) (read_3 V c t q)

/-- An index of the output array is in point t's block iff each coordinate is in the block's range on its axis. -/
theorem mem_blk (t : Fin cfg3.N) (i : S100000x64.Idx) :
    i ∈ ((cfg3.win 4).blk t).view.set ↔ ∀ a : Fin 2, win3_4.index t a * S2000x64.size a ≤ (i a).val
      ∧ (i a).val < win3_4.index t a * S2000x64.size a + S2000x64.size a := by
  show i ∈ ((View.whole main_v85).slice (win3_4.rect t)).set ↔ _
  rw [View.set_slice_whole, Rect.mem_set_unit]
  exact Iff.rfl

/-- Every row is in the tile of the point its index divided by 2000 names. -/
theorem cover (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ : ∃ t : Fin cfg3.N, t.val = (i 0).val / 2000 :=
    ⟨⟨(i 0).val / 2000, by rw [show cfg3.N = 50 from N_3]; omega⟩, rfl⟩
  obtain ⟨-, -, -, -, -, -, -, -, e40, e41⟩ := idx_facts t
  refine ⟨t, flush3_4 t, ?_⟩
  rw [mem_blk]
  intro a
  match a with
  | ⟨0, _⟩ =>
    show win3_4.index t (0 : Fin 2) * 2000 ≤ (i 0).val ∧ (i 0).val < win3_4.index t (0 : Fin 2) * 2000 + 2000
    rw [e40, ht]; omega
  | ⟨1, _⟩ =>
    show win3_4.index t (1 : Fin 2) * 64 ≤ (i 1).val ∧ (i 1).val < win3_4.index t (1 : Fin 2) * 64 + 64
    rw [e41]; omega

end Cert.Stage.Region3

namespace Cert.Stage

open Cert.KernelIdeal Cert.KernelIdeal.Gen Idealize.ShloMosaic Idealize.ShloMosaic.TcCoe Idealize.SL.Sem
open Idealize.ShloMosaic.Pipeline (Dat)

/-- THE OUTPUT ARRAY of region 3, after the region: the stage's function of the arrays the region finds. -/
theorem region3_final (V : (c : Dev nD) → (b : Ref sig .tc) → Buf (Elt Ideal) ((c : Thread nD τ).loc b)) (c : Dev nD) :
    (dat3 (F := Ideal) V c).arrAt 4 cfg3.N
      = gconvG (V c (Pipeline.arrRef spec3 0)) (V c (Pipeline.arrRef spec3 1)) (V c (Pipeline.arrRef spec3 2)) (V c (Pipeline.arrRef spec3 3)) :=
  (dat3 (F := Ideal) V c).arrAt_eq_of_cover 4 _ (fun t _ => Region3.flushed_eq V c t) Region3.cover

end Cert.Stage

end
-- ==== Proof.StageGconv5.lean ====
/-
  Region 5 of the kernel program (a graph-convolution stage over 50 tiles of 2000 rows): its output array, after the
  region, as ONE function of the arrays the region reads. Point t's tile holds rows 2000 t … 2000 t + 1999 of the
  aggregated features and of the degree column and the whole weight matrix and bias row; what it writes back is rows
  2000 t … 2000 t + 1999 of "gconvG" of the whole arrays; the 50 tiles cover every row.
-/
import proofs.«107288_j13769665151544_2_alg».proof.Proof.Gen.KernelIdeal.Frame
import proofs.«107288_j13769665151544_2_alg».proof.Proof.StageSpec
import Idealize.ShloMosaic.Lib.Pipeline.Value

noncomputable section

namespace Cert.Stage.Region5

open Cert.KernelIdeal Cert.KernelIdeal.Gen Idealize.ShloMosaic Idealize.ShloMosaic.TcCoe Idealize.SL.Sem
open Idealize.ShloMosaic.ValueIdx Cert.Stage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The tile's arithmetic is the stage's tile. -/
theorem pay_eq (x0 : Vec Ideal S2000x64 .f32) (x1 : Vec Ideal S2000x1 .f32) (x2 : Vec Ideal S64x64 .f32) (x3 : Vec Ideal S1x64 .f32) :
    k5_pay1 (F := Ideal) x0 x1 x2 x3
      = gconvTile dot_S2000x64_S64x64_S2000x64_1_0_0_1_n_n bitsLt_bf16_f32 shapeCasts_S2000x64_S2000x64 shapeCasts_S2000x1_S2000x1
          broadcasts_S2000x1_S2000x64 shapeCasts_S1x64_S1x64 broadcasts_S1x64_S2000x64 x0 x1 x2 x3 := rfl

/-- The block indices over the grid: the row windows move with the point, the weights and the bias stay. -/
theorem idx_facts : ∀ t : Fin cfg5.N,
      win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Row p of point t's block of the aggregated features is row 2000 t + p of the array. -/
theorem read_0 (c : Dev nD) (t : Fin cfg5.N) (p : Fin 2000) (k : Fin 64) (r : Fin 100000) (hr : r.val = t.val * 2000 + p.val) :
    (iblk5 V c 0 t : Vec Ideal S2000x64 .f32) (ix2 p k) = (V c (Pipeline.arrRef spec5 0) : S100000x64.Idx → EReal) (ix2 r k) := by
  obtain ⟨e0, e1, -⟩ := idx_facts t
  unfold iblk5
  rw [View.read_apply]
  refine congrArg (V c (Pipeline.arrRef spec5 0) : S100000x64.Idx → EReal) (funext fun a => Fin.ext ?_)
  match a with
  | ⟨0, _⟩ => show win5_0.index t (0 : Fin 2) * 2000 + 1 * p.val = r.val; rw [e0, hr]; omega
  | ⟨1, _⟩ => show win5_0.index t (1 : Fin 2) * 64 + 1 * k.val = k.val; rw [e1]; omega

/-- Row p of point t's block of the degree column is row 2000 t + p of the column. -/
theorem read_1 (c : Dev nD) (t : Fin cfg5.N) (p : Fin 2000) (r : Fin 100000) (hr : r.val = t.val * 2000 + p.val) :
    (iblk5 V c 1 t : Vec Ideal S2000x1 .f32) (ix2 p (0 : Fin 1)) = (V c (Pipeline.arrRef spec5 1) : S100000x1.Idx → EReal) (ix2 r (0 : Fin 1)) := by
  obtain ⟨-, -, e0, e1, -⟩ := idx_facts t
  unfold iblk5
  rw [View.read_apply]
  refine congrArg (V c (Pipeline.arrRef spec5 1) : S100000x1.Idx → EReal) (funext fun a => Fin.ext ?_)
  match a with
  | ⟨0, _⟩ => show win5_1.index t (0 : Fin 2) * 2000 + 1 * p.val = r.val; rw [e0, hr]; omega
  | ⟨1, _⟩ => show win5_1.index t (1 : Fin 2) * 1 + 1 * 0 = 0; rw [e1]

/-- Every point's block of the weights is the whole matrix. -/
theorem read_2 (c : Dev nD) (t : Fin cfg5.N) (k q : Fin 64) :
    (iblk5 V c 2 t : Vec Ideal S64x64 .f32) (ix2 k q) = (V c (Pipeline.arrRef spec5 2) : S64x64.Idx → EReal) (ix2 k q) := by
  obtain ⟨-, -, -, -, e0, e1, -⟩ := idx_facts t
  unfold iblk5
  rw [View.read_apply]
  refine congrArg (V c (Pipeline.arrRef spec5 2) : S64x64.Idx → EReal) (funext fun a => Fin.ext ?_)
  match a with
  | ⟨0, _⟩ => show win5_2.index t (0 : Fin 2) * 64 + 1 * k.val = k.val; rw [e0]; omega
  | ⟨1, _⟩ => show win5_2.index t (1 : Fin 2) * 64 + 1 * q.val = q.val; rw [e1]; omega

/-- Every point's block of the bias is the whole row. -/
theorem read_3 (c : Dev nD) (t : Fin cfg5.N) (q : Fin 64) :
    (iblk5 V c 3 t : Vec Ideal S1x64 .f32) (ix2 (0 : Fin 1) q) = (V c (Pipeline.arrRef spec5 3) : S1x64.Idx → EReal) (ix2 (0 : Fin 1) q) := by
  obtain ⟨-, -, -, -, -, -, e0, e1, -⟩ := idx_facts t
  unfold iblk5
  rw [View.read_apply]
  refine congrArg (V c (Pipeline.arrRef spec5 3) : S1x64.Idx → EReal) (funext fun a => Fin.ext ?_)
  match a with
  | ⟨0, _⟩ => show win5_3.index t (0 : Fin 2) * 1 + 1 * 0 = 0; rw [e0]
  | ⟨1, _⟩ => show win5_3.index t (1 : Fin 2) * 64 + 1 * q.val = q.val; rw [e1]; omega

/-- Entry (p, q) of point t's output block sits at (2000 t + p, q) of the output array. -/
theorem emb_4 (t : Fin cfg5.N) (p : Fin 2000) (q : Fin 64) (r : Fin 100000) (hr : r.val = t.val * 2000 + p.val) :
    (((cfg5.win 4).blk t).view.emb (ix2 p q) : S100000x64.Idx) = ix2 r q := by
  obtain ⟨-, -, -, -, -, -, -, -, e0, e1⟩ := idx_facts t
  funext a; apply Fin.ext
  match a with
  | ⟨0, _⟩ => show win5_4.index t (0 : Fin 2) * 2000 + 1 * p.val = r.val; rw [e0, hr]; omega
  | ⟨1, _⟩ => show win5_4.index t (1 : Fin 2) * 64 + 1 * q.val = q.val; rw [e1]; omega

set_option maxHeartbeats 1600000 in
/-- What point t writes back is rows 2000 t … of the stage's function of the arrays as the region finds them. -/
theorem flushed_eq (c : Dev nD) (t : Fin cfg5.N) :
    (dat5 (F := Ideal) V c).flushed 4 t = ((cfg5.win 4).blk t).view.read (Elt Ideal)
      (gconvG (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  unfold out5_4
  rw [View.canon_unit_zero hz]
  simp only [View.ld_unit_zero (S := S2000x64) hz, View.ld_unit_zero (S := S2000x1) hz, View.ld_unit_zero (S := S64x64) hz,
    View.ld_unit_zero (S := S1x64) hz]
  rw [pay_eq]
  have htN : t.val < 50 := Nat.lt_of_lt_of_eq t.isLt N_5
  refine funext fun (j : S2000x64.Idx) => ?_
  obtain ⟨p, q, rfl⟩ : ∃ (p : Fin 2000) (q : Fin 64), j = ix2 p q := ⟨j 0, j 1, eq_ix2 j⟩
  have hp : p.val < 2000 := p.isLt
  have hr : t.val * 2000 + p.val < 100000 := by omega
  rw [View.read_apply, emb_4 t p q ⟨t.val * 2000 + p.val, hr⟩ rfl]
  exact gconv_tile_apply _ rfl _ _ _ _ _ _ (iblk5 V c 0 t) (iblk5 V c 1 t) (iblk5 V c 2 t) (iblk5 V c 3 t) _ _ _ _
    p q ⟨t.val * 2000 + p.val, hr⟩ (fun k => read_0 V c t p k _ rfl) (read_1 V c t p _ rfl) (fun k => read_2 V c t k q) (read_3 V c t q)

/-- An index of the output array is in point t's block iff each coordinate is in the block's range on its axis. -/
theorem mem_blk (t : Fin cfg5.N) (i : S100000x64.Idx) :
    i ∈ ((cfg5.win 4).blk t).view.set ↔ ∀ a : Fin 2, win5_4.index t a * S2000x64.size a ≤ (i a).val
      ∧ (i a).val < win5_4.index t a * S2000x64.size a + S2000x64.size a := by
  show i ∈ ((View.whole main_v109).slice (win5_4.rect t)).set ↔ _
  rw [View.set_slice_whole, Rect.mem_set_unit]
  exact Iff.rfl

/-- Every row is in the tile of the point its index divided by 2000 names. -/
theorem cover (i : S100000x64.Idx) : ∃ t : Fin cfg5.N, (cfg5.win 4).flush t = true ∧ i ∈ ((cfg5.win 4).blk t).view.set := by
  have hi0 : (i 0).val < 100000 := (i 0).isLt
  have hi1 : (i 1).val < 64 := (i 1).isLt
  obtain ⟨t, ht⟩ : ∃ t : Fin cfg5.N, t.val = (i 0).val / 2000 :=
    ⟨⟨(i 0).val / 2000, by rw [show cfg5.N = 50 from N_5]; omega⟩, rfl⟩
  obtain ⟨-, -, -, -, -, -, -, -, e40, e41⟩ := idx_facts t
  refine ⟨t, flush5_4 t, ?_⟩
  rw [mem_blk]
  intro a
  match a with
  | ⟨0, _⟩ =>
    show win5_4.index t (0 : Fin 2) * 2000 ≤ (i 0).val ∧ (i 0).val < win5_4.index t (0 : Fin 2) * 2000 + 2000
    rw [e40, ht]; omega
  | ⟨1, _⟩ =>
    show win5_4.index t (1 : Fin 2) * 64 ≤ (i 1).val ∧ (i 1).val < win5_4.index t (1 : Fin 2) * 64 + 64
    rw [e41]; omega

end Cert.Stage.Region5

namespace Cert.Stage

open Cert.KernelIdeal Cert.KernelIdeal.Gen Idealize.ShloMosaic Idealize.ShloMosaic.TcCoe Idealize.SL.Sem
open Idealize.ShloMosaic.Pipeline (Dat)

/-- THE OUTPUT ARRAY of region 5, after the region: the stage's function of the arrays the region finds. -/
theorem region5_final (V : (c : Dev nD) → (b : Ref sig .tc) → Buf (Elt Ideal) ((c : Thread nD τ).loc b)) (c : Dev nD) :
    (dat5 (F := Ideal) V c).arrAt 4 cfg5.N
      = gconvG (V c (Pipeline.arrRef spec5 0)) (V c (Pipeline.arrRef spec5 1)) (V c (Pipeline.arrRef spec5 2)) (V c (Pipeline.arrRef spec5 3)) :=
  (dat5 (F := Ideal) V c).arrAt_eq_of_cover 4 _ (fun t _ => Region5.flushed_eq V c t) Region5.cover

end Cert.Stage

end
-- ==== Proof.StageBn.lean ====
/-
  Region 1 of the kernel program (a batch-normalisation stage with the scaling for the next layer, over 50 tiles of 2000
  rows): its output array, after the region, as ONE function of the arrays the region reads. Point t's tile holds rows
  2000 t … 2000 t + 1999 of the features and of the scale column and the whole mean, variance, gain and offset rows; what it
  writes back is rows 2000 t … 2000 t + 1999 of "bnScaleG" of the whole arrays; the 50 tiles cover every row. The tile's
  body reads the variance row (its window 2) before the mean row (its window 1).
-/
import proofs.«107288_j13769665151544_2_alg».proof.Proof.Gen.KernelIdeal.Frame
import proofs.«107288_j13769665151544_2_alg».proof.Proof.StageSpec
import Idealize.ShloMosaic.Lib.Pipeline.Value

noncomputable section

namespace Cert.Stage.Region1

open Cert.KernelIdeal Cert.KernelIdeal.Gen Idealize.ShloMosaic Idealize.ShloMosaic.TcCoe Idealize.SL.Sem
open Idealize.ShloMosaic.ValueIdx Cert.Stage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The tile's arithmetic is the stage's tile (variance row first, then the mean row). -/
theorem pay_eq (x : Vec Ideal S2000x64 .f32) (var mu g bt : Vec Ideal S1x64 .f32) (ns : Vec Ideal S2000x1 .f32) :
    k1_pay1 (F := Ideal) x var mu g bt ns
      = bnTile bitsLt_bf16_f32 shapeCasts_S2000x64_S2000x64 shapeCasts_S1x64_S1x64 broadcasts_S1x64_S2000x64
          shapeCasts_S2000x1_S2000x1 broadcasts_S2000x1_S2000x64 x var mu g bt ns := rfl

/-- The block indices over the grid: the row windows move with the point, the four parameter rows stay. -/
theorem idx_facts : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Row p of point t's block of the features is row 2000 t + p of the array. -/
theorem read_0 (c : Dev nD) (t : Fin cfg1.N) (p : Fin 2000) (q : Fin 64) (r : Fin 100000) (hr : r.val = t.val * 2000 + p.val) :
    (iblk1 V c 0 t : Vec Ideal S2000x64 .f32) (ix2 p q) = (V c (Pipeline.arrRef spec1 0) : S100000x64.Idx → EReal) (ix2 r q) := by
  obtain ⟨e0, e1, -⟩ := idx_facts t
  unfold iblk1
  rw [View.read_apply]
  refine congrArg (V c (Pipeline.arrRef spec1 0) : S100000x64.Idx → EReal) (funext fun a => Fin.ext ?_)
  match a with
  | ⟨0, _⟩ => show win1_0.index t (0 : Fin 2) * 2000 + 1 * p.val = r.val; rw [e0, hr]; omega
  | ⟨1, _⟩ => show win1_0.index t (1 : Fin 2) * 64 + 1 * q.val = q.val; rw [e1]; omega

/-- Every point's block of the mean row is the whole row. -/
theorem read_1 (c : Dev nD) (t : Fin cfg1.N) (q : Fin 64) :
    (iblk1 V c 1 t : Vec Ideal S1x64 .f32) (ix2 (0 : Fin 1) q) = (V c (Pipeline.arrRef spec1 1) : S1x64.Idx → EReal) (ix2 (0 : Fin 1) q) := by
  obtain ⟨-, -, e0, e1, -⟩ := idx_facts t
  unfold iblk1
  rw [View.read_apply]
  refine congrArg (V c (Pipeline.arrRef spec1 1) : S1x64.Idx → EReal) (funext fun a => Fin.ext ?_)
  match a with
  | ⟨0, _⟩ => show win1_1.index t (0 : Fin 2) * 1 + 1 * 0 = 0; rw [e0]
  | ⟨1, _⟩ => show win1_1.index t (1 : Fin 2) * 64 + 1 * q.val = q.val; rw [e1]; omega

/-- Every point's block of the variance row is the whole row. -/
theorem read_2 (c : Dev nD) (t : Fin cfg1.N) (q : Fin 64) :
    (iblk1 V c 2 t : Vec Ideal S1x64 .f32) (ix2 (0 : Fin 1) q) = (V c (Pipeline.arrRef spec1 2) : S1x64.Idx → EReal) (ix2 (0 : Fin 1) q) := by
  obtain ⟨-, -, -, -, e0, e1, -⟩ := idx_facts t
  unfold iblk1
  rw [View.read_apply]
  refine congrArg (V c (Pipeline.arrRef spec1 2) : S1x64.Idx → EReal) (funext fun a => Fin.ext ?_)
  match a with
  | ⟨0, _⟩ => show win1_2.index t (0 : Fin 2) * 1 + 1 * 0 = 0; rw [e0]
  | ⟨1, _⟩ => show win1_2.index t (1 : Fin 2) * 64 + 1 * q.val = q.val; rw [e1]; omega

/-- Every point's block of the gain row is the whole row. -/
theorem read_3 (c : Dev nD) (t : Fin cfg1.N) (q : Fin 64) :
    (iblk1 V c 3 t : Vec Ideal S1x64 .f32) (ix2 (0 : Fin 1) q) = (V c (Pipeline.arrRef spec1 3) : S1x64.Idx → EReal) (ix2 (0 : Fin 1) q) := by
  obtain ⟨-, -, -, -, -, -, e0, e1, -⟩ := idx_facts t
  unfold iblk1
  rw [View.read_apply]
  refine congrArg (V c (Pipeline.arrRef spec1 3) : S1x64.Idx → EReal) (funext fun a => Fin.ext ?_)
  match a with
  | ⟨0, _⟩ => show win1_3.index t (0 : Fin 2) * 1 + 1 * 0 = 0; rw [e0]
  | ⟨1, _⟩ => show win1_3.index t (1 : Fin 2) * 64 + 1 * q.val = q.val; rw [e1]; omega

/-- Every point's block of the offset row is the whole row. -/
theorem read_4 (c : Dev nD) (t : Fin cfg1.N) (q : Fin 64) :
    (iblk1 V c 4 t : Vec Ideal S1x64 .f32) (ix2 (0 : Fin 1) q) = (V c (Pipeline.arrRef spec1 4) : S1x64.Idx → EReal) (ix2 (0 : Fin 1) q) := by
  obtain ⟨-, -, -, -, -, -, -, -, e0, e1, -⟩ := idx_facts t
  unfold iblk1
  rw [View.read_apply]
  refine congrArg (V c (Pipeline.arrRef spec1 4) : S1x64.Idx → EReal) (funext fun a => Fin.ext ?_)
  match a with
  | ⟨0, _⟩ => show win1_4.index t (0 : Fin 2) * 1 + 1 * 0 = 0; rw [e0]
  | ⟨1, _⟩ => show win1_4.index t (1 : Fin 2) * 64 + 1 * q.val = q.val; rw [e1]; omega

/-- Row p of point t's block of the scale column is row 2000 t + p of the column. -/
theorem read_5 (c : Dev nD) (t : Fin cfg1.N) (p : Fin 2000) (r : Fin 100000) (hr : r.val = t.val * 2000 + p.val) :
    (iblk1 V c 5 t : Vec Ideal S2000x1 .f32) (ix2 p (0 : Fin 1)) = (V c (Pipeline.arrRef spec1 5) : S100000x1.Idx → EReal) (ix2 r (0 : Fin 1)) := by
  obtain ⟨-, -, -, -, -, -, -, -, -, -, e0, e1, -⟩ := idx_facts t
  unfold iblk1
  rw [View.read_apply]
  refine congrArg (V c (Pipeline.arrRef spec1 5) : S100000x1.Idx → EReal) (funext fun a => Fin.ext ?_)
  match a with
  | ⟨0, _⟩ => show win1_5.index t (0 : Fin 2) * 2000 + 1 * p.val = r.val; rw [e0, hr]; omega
  | ⟨1, _⟩ => show win1_5.index t (1 : Fin 2) * 1 + 1 * 0 = 0; rw [e1]

/-- Entry (p, q) of point t's output block sits at (2000 t + p, q) of the output array. -/
theorem emb_6 (t : Fin cfg1.N) (p : Fin 2000) (q : Fin 64) (r : Fin 100000) (hr : r.val = t.val * 2000 + p.val) :
    (((cfg1.win 6).blk t).view.emb (ix2 p q) : S100000x64.Idx) = ix2 r q := by
  obtain ⟨-, -, -, -, -, -, -, -, -, -, -, -, e0, e1⟩ := idx_facts t
  funext a; apply Fin.ext
  match a with
  | ⟨0, _⟩ => show win1_6.index t (0 : Fin 2) * 2000 + 1 * p.val = r.val; rw [e0, hr]; omega
  | ⟨1, _⟩ => show win1_6.index t (1 : Fin 2) * 64 + 1 * q.val = q.val; rw [e1]; omega

set_option maxHeartbeats 1600000 in
/-- What point t writes back is rows 2000 t … of the stage's function of the arrays as the region finds them. -/
theorem flushed_eq (c : Dev nD) (t : Fin cfg1.N) :
    (dat1 (F := Ideal) V c).flushed 6 t = ((cfg1.win 6).blk t).view.read (Elt Ideal)
      (bnScaleG (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz]
  simp only [View.ld_unit_zero (S := S2000x64) hz, View.ld_unit_zero (S := S2000x1) hz, View.ld_unit_zero (S := S1x64) hz]
  rw [pay_eq]
  have htN : t.val < 50 := Nat.lt_of_lt_of_eq t.isLt N_1
  refine funext fun (j : S2000x64.Idx) => ?_
  obtain ⟨p, q, rfl⟩ : ∃ (p : Fin 2000) (q : Fin 64), j = ix2 p q := ⟨j 0, j 1, eq_ix2 j⟩
  have hp : p.val < 2000 := p.isLt
  have hr : t.val * 2000 + p.val < 100000 := by omega
  rw [View.read_apply, emb_6 t p q ⟨t.val * 2000 + p.val, hr⟩ rfl]
  exact bn_tile_apply _ _ _ _ _ _ (iblk1 V c 0 t) (iblk1 V c 2 t) (iblk1 V c 1 t) (iblk1 V c 3 t) (iblk1 V c 4 t) (iblk1 V c 5 t)
    _ _ _ _ _ _ p q ⟨t.val * 2000 + p.val, hr⟩ (read_0 V c t p q _ rfl) (read_5 V c t p _ rfl) (read_1 V c t q) (read_2 V c t q)
    (read_3 V c t q) (read_4 V c t q)

/-- An index of the output array is in point t's block iff each coordinate is in the block's range on its axis. -/
theorem mem_blk (t : Fin cfg1.N) (i : S100000x64.Idx) :
    i ∈ ((cfg1.win 6).blk t).view.set ↔ ∀ a : Fin 2, win1_6.index t a * S2000x64.size a ≤ (i a).val
      ∧ (i a).val < win1_6.index t a * S2000x64.size a + S2000x64.size a := by
  show i ∈ ((View.whole main_v38).slice (win1_6.rect t)).set ↔ _
  rw [View.set_slice_whole, Rect.mem_set_unit]
  exact Iff.rfl

/-- Every row is in the tile of the point its index divided by 2000 names. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ : ∃ t : Fin cfg1.N, t.val = (i 0).val / 2000 :=
    ⟨⟨(i 0).val / 2000, by rw [show cfg1.N = 50 from N_1]; omega⟩, rfl⟩
  obtain ⟨-, -, -, -, -, -, -, -, -, -, -, -, e60, e61⟩ := idx_facts t
  refine ⟨t, flush1_6 t, ?_⟩
  rw [mem_blk]
  intro a
  match a with
  | ⟨0, _⟩ =>
    show win1_6.index t (0 : Fin 2) * 2000 ≤ (i 0).val ∧ (i 0).val < win1_6.index t (0 : Fin 2) * 2000 + 2000
    rw [e60, ht]; omega
  | ⟨1, _⟩ =>
    show win1_6.index t (1 : Fin 2) * 64 ≤ (i 1).val ∧ (i 1).val < win1_6.index t (1 : Fin 2) * 64 + 64
    rw [e61]; omega

end Cert.Stage.Region1

namespace Cert.Stage

open Cert.KernelIdeal Cert.KernelIdeal.Gen Idealize.ShloMosaic Idealize.ShloMosaic.TcCoe Idealize.SL.Sem
open Idealize.ShloMosaic.Pipeline (Dat)

/-- THE OUTPUT ARRAY of region 1, after the region: the stage's function of the arrays the region finds — the features
    (window 0), the mean, variance, gain and offset rows (windows 1 to 4) and the scale column (window 5). -/
theorem region1_final (V : (c : Dev nD) → (b : Ref sig .tc) → Buf (Elt Ideal) ((c : Thread nD τ).loc b)) (c : Dev nD) :
    (dat1 (F := Ideal) V c).arrAt 6 cfg1.N
      = bnScaleG (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (dat1 (F := Ideal) V c).arrAt_eq_of_cover 6 _ (fun t _ => Region1.flushed_eq V c t) Region1.cover

end Cert.Stage

end
-- ==== Proof.StageBn4.lean ====
/-
  Region 4 of the kernel program (a batch-normalisation stage with the scaling for the next layer, over 50 tiles of 2000
  rows): its output array, after the region, as ONE function of the arrays the region reads. Point t's tile holds rows
  2000 t … 2000 t + 1999 of the features and of the scale column and the whole mean, variance, gain and offset rows; what it
  writes back is rows 2000 t … 2000 t + 1999 of "bnScaleG" of the whole arrays; the 50 tiles cover every row. The tile's
  body reads the variance row (its window 2) before the mean row (its window 1).
-/
import proofs.«107288_j13769665151544_2_alg».proof.Proof.Gen.KernelIdeal.Frame
import proofs.«107288_j13769665151544_2_alg».proof.Proof.StageSpec
import Idealize.ShloMosaic.Lib.Pipeline.Value

noncomputable section

namespace Cert.Stage.Region4

open Cert.KernelIdeal Cert.KernelIdeal.Gen Idealize.ShloMosaic Idealize.ShloMosaic.TcCoe Idealize.SL.Sem
open Idealize.ShloMosaic.ValueIdx Cert.Stage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The tile's arithmetic is the stage's tile (variance row first, then the mean row). -/
theorem pay_eq (x : Vec Ideal S2000x64 .f32) (var mu g bt : Vec Ideal S1x64 .f32) (ns : Vec Ideal S2000x1 .f32) :
    k4_pay1 (F := Ideal) x var mu g bt ns
      = bnTile bitsLt_bf16_f32 shapeCasts_S2000x64_S2000x64 shapeCasts_S1x64_S1x64 broadcasts_S1x64_S2000x64
          shapeCasts_S2000x1_S2000x1 broadcasts_S2000x1_S2000x64 x var mu g bt ns := rfl

/-- The block indices over the grid: the row windows move with the point, the four parameter rows stay. -/
theorem idx_facts : ∀ t : Fin cfg4.N,
      win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-- Row p of point t's block of the features is row 2000 t + p of the array. -/
theorem read_0 (c : Dev nD) (t : Fin cfg4.N) (p : Fin 2000) (q : Fin 64) (r : Fin 100000) (hr : r.val = t.val * 2000 + p.val) :
    (iblk4 V c 0 t : Vec Ideal S2000x64 .f32) (ix2 p q) = (V c (Pipeline.arrRef spec4 0) : S100000x64.Idx → EReal) (ix2 r q) := by
  obtain ⟨e0, e1, -⟩ := idx_facts t
  unfold iblk4
  rw [View.read_apply]
  refine congrArg (V c (Pipeline.arrRef spec4 0) : S100000x64.Idx → EReal) (funext fun a => Fin.ext ?_)
  match a with
  | ⟨0, _⟩ => show win4_0.index t (0 : Fin 2) * 2000 + 1 * p.val = r.val; rw [e0, hr]; omega
  | ⟨1, _⟩ => show win4_0.index t (1 : Fin 2) * 64 + 1 * q.val = q.val; rw [e1]; omega

/-- Every point's block of the mean row is the whole row. -/
theorem read_1 (c : Dev nD) (t : Fin cfg4.N) (q : Fin 64) :
    (iblk4 V c 1 t : Vec Ideal S1x64 .f32) (ix2 (0 : Fin 1) q) = (V c (Pipeline.arrRef spec4 1) : S1x64.Idx → EReal) (ix2 (0 : Fin 1) q) := by
  obtain ⟨-, -, e0, e1, -⟩ := idx_facts t
  unfold iblk4
  rw [View.read_apply]
  refine congrArg (V c (Pipeline.arrRef spec4 1) : S1x64.Idx → EReal) (funext fun a => Fin.ext ?_)
  match a with
  | ⟨0, _⟩ => show win4_1.index t (0 : Fin 2) * 1 + 1 * 0 = 0; rw [e0]
  | ⟨1, _⟩ => show win4_1.index t (1 : Fin 2) * 64 + 1 * q.val = q.val; rw [e1]; omega

/-- Every point's block of the variance row is the whole row. -/
theorem read_2 (c : Dev nD) (t : Fin cfg4.N) (q : Fin 64) :
    (iblk4 V c 2 t : Vec Ideal S1x64 .f32) (ix2 (0 : Fin 1) q) = (V c (Pipeline.arrRef spec4 2) : S1x64.Idx → EReal) (ix2 (0 : Fin 1) q) := by
  obtain ⟨-, -, -, -, e0, e1, -⟩ := idx_facts t
  unfold iblk4
  rw [View.read_apply]
  refine congrArg (V c (Pipeline.arrRef spec4 2) : S1x64.Idx → EReal) (funext fun a => Fin.ext ?_)
  match a with
  | ⟨0, _⟩ => show win4_2.index t (0 : Fin 2) * 1 + 1 * 0 = 0; rw [e0]
  | ⟨1, _⟩ => show win4_2.index t (1 : Fin 2) * 64 + 1 * q.val = q.val; rw [e1]; omega

/-- Every point's block of the gain row is the whole row. -/
theorem read_3 (c : Dev nD) (t : Fin cfg4.N) (q : Fin 64) :
    (iblk4 V c 3 t : Vec Ideal S1x64 .f32) (ix2 (0 : Fin 1) q) = (V c (Pipeline.arrRef spec4 3) : S1x64.Idx → EReal) (ix2 (0 : Fin 1) q) := by
  obtain ⟨-, -, -, -, -, -, e0, e1, -⟩ := idx_facts t
  unfold iblk4
  rw [View.read_apply]
  refine congrArg (V c (Pipeline.arrRef spec4 3) : S1x64.Idx → EReal) (funext fun a => Fin.ext ?_)
  match a with
  | ⟨0, _⟩ => show win4_3.index t (0 : Fin 2) * 1 + 1 * 0 = 0; rw [e0]
  | ⟨1, _⟩ => show win4_3.index t (1 : Fin 2) * 64 + 1 * q.val = q.val; rw [e1]; omega

/-- Every point's block of the offset row is the whole row. -/
theorem read_4 (c : Dev nD) (t : Fin cfg4.N) (q : Fin 64) :
    (iblk4 V c 4 t : Vec Ideal S1x64 .f32) (ix2 (0 : Fin 1) q) = (V c (Pipeline.arrRef spec4 4) : S1x64.Idx → EReal) (ix2 (0 : Fin 1) q) := by
  obtain ⟨-, -, -, -, -, -, -, -, e0, e1, -⟩ := idx_facts t
  unfold iblk4
  rw [View.read_apply]
  refine congrArg (V c (Pipeline.arrRef spec4 4) : S1x64.Idx → EReal) (funext fun a => Fin.ext ?_)
  match a with
  | ⟨0, _⟩ => show win4_4.index t (0 : Fin 2) * 1 + 1 * 0 = 0; rw [e0]
  | ⟨1, _⟩ => show win4_4.index t (1 : Fin 2) * 64 + 1 * q.val = q.val; rw [e1]; omega

/-- Row p of point t's block of the scale column is row 2000 t + p of the column. -/
theorem read_5 (c : Dev nD) (t : Fin cfg4.N) (p : Fin 2000) (r : Fin 100000) (hr : r.val = t.val * 2000 + p.val) :
    (iblk4 V c 5 t : Vec Ideal S2000x1 .f32) (ix2 p (0 : Fin 1)) = (V c (Pipeline.arrRef spec4 5) : S100000x1.Idx → EReal) (ix2 r (0 : Fin 1)) := by
  obtain ⟨-, -, -, -, -, -, -, -, -, -, e0, e1, -⟩ := idx_facts t
  unfold iblk4
  rw [View.read_apply]
  refine congrArg (V c (Pipeline.arrRef spec4 5) : S100000x1.Idx → EReal) (funext fun a => Fin.ext ?_)
  match a with
  | ⟨0, _⟩ => show win4_5.index t (0 : Fin 2) * 2000 + 1 * p.val = r.val; rw [e0, hr]; omega
  | ⟨1, _⟩ => show win4_5.index t (1 : Fin 2) * 1 + 1 * 0 = 0; rw [e1]

/-- Entry (p, q) of point t's output block sits at (2000 t + p, q) of the output array. -/
theorem emb_6 (t : Fin cfg4.N) (p : Fin 2000) (q : Fin 64) (r : Fin 100000) (hr : r.val = t.val * 2000 + p.val) :
    (((cfg4.win 6).blk t).view.emb (ix2 p q) : S100000x64.Idx) = ix2 r q := by
  obtain ⟨-, -, -, -, -, -, -, -, -, -, -, -, e0, e1⟩ := idx_facts t
  funext a; apply Fin.ext
  match a with
  | ⟨0, _⟩ => show win4_6.index t (0 : Fin 2) * 2000 + 1 * p.val = r.val; rw [e0, hr]; omega
  | ⟨1, _⟩ => show win4_6.index t (1 : Fin 2) * 64 + 1 * q.val = q.val; rw [e1]; omega

set_option maxHeartbeats 1600000 in
/-- What point t writes back is rows 2000 t … of the stage's function of the arrays as the region finds them. -/
theorem flushed_eq (c : Dev nD) (t : Fin cfg4.N) :
    (dat4 (F := Ideal) V c).flushed 6 t = ((cfg4.win 6).blk t).view.read (Elt Ideal)
      (bnScaleG (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))) := by
  show (cfg4.win 6).cut (grid4.coords t) ((dat4 V c).after 6 t) = _
  rw [after4_6]
  unfold out4_6
  rw [View.canon_unit_zero hz]
  simp only [View.ld_unit_zero (S := S2000x64) hz, View.ld_unit_zero (S := S2000x1) hz, View.ld_unit_zero (S := S1x64) hz]
  rw [pay_eq]
  have htN : t.val < 50 := Nat.lt_of_lt_of_eq t.isLt N_4
  refine funext fun (j : S2000x64.Idx) => ?_
  obtain ⟨p, q, rfl⟩ : ∃ (p : Fin 2000) (q : Fin 64), j = ix2 p q := ⟨j 0, j 1, eq_ix2 j⟩
  have hp : p.val < 2000 := p.isLt
  have hr : t.val * 2000 + p.val < 100000 := by omega
  rw [View.read_apply, emb_6 t p q ⟨t.val * 2000 + p.val, hr⟩ rfl]
  exact bn_tile_apply _ _ _ _ _ _ (iblk4 V c 0 t) (iblk4 V c 2 t) (iblk4 V c 1 t) (iblk4 V c 3 t) (iblk4 V c 4 t) (iblk4 V c 5 t)
    _ _ _ _ _ _ p q ⟨t.val * 2000 + p.val, hr⟩ (read_0 V c t p q _ rfl) (read_5 V c t p _ rfl) (read_1 V c t q) (read_2 V c t q)
    (read_3 V c t q) (read_4 V c t q)

/-- An index of the output array is in point t's block iff each coordinate is in the block's range on its axis. -/
theorem mem_blk (t : Fin cfg4.N) (i : S100000x64.Idx) :
    i ∈ ((cfg4.win 6).blk t).view.set ↔ ∀ a : Fin 2, win4_6.index t a * S2000x64.size a ≤ (i a).val
      ∧ (i a).val < win4_6.index t a * S2000x64.size a + S2000x64.size a := by
  show i ∈ ((View.whole main_v95).slice (win4_6.rect t)).set ↔ _
  rw [View.set_slice_whole, Rect.mem_set_unit]
  exact Iff.rfl

/-- Every row is in the tile of the point its index divided by 2000 names. -/
theorem cover (i : S100000x64.Idx) : ∃ t : Fin cfg4.N, (cfg4.win 6).flush t = true ∧ i ∈ ((cfg4.win 6).blk t).view.set := by
  have hi0 : (i 0).val < 100000 := (i 0).isLt
  have hi1 : (i 1).val < 64 := (i 1).isLt
  obtain ⟨t, ht⟩ : ∃ t : Fin cfg4.N, t.val = (i 0).val / 2000 :=
    ⟨⟨(i 0).val / 2000, by rw [show cfg4.N = 50 from N_4]; omega⟩, rfl⟩
  obtain ⟨-, -, -, -, -, -, -, -, -, -, -, -, e60, e61⟩ := idx_facts t
  refine ⟨t, flush4_6 t, ?_⟩
  rw [mem_blk]
  intro a
  match a with
  | ⟨0, _⟩ =>
    show win4_6.index t (0 : Fin 2) * 2000 ≤ (i 0).val ∧ (i 0).val < win4_6.index t (0 : Fin 2) * 2000 + 2000
    rw [e60, ht]; omega
  | ⟨1, _⟩ =>
    show win4_6.index t (1 : Fin 2) * 64 ≤ (i 1).val ∧ (i 1).val < win4_6.index t (1 : Fin 2) * 64 + 64
    rw [e61]; omega

end Cert.Stage.Region4

namespace Cert.Stage

open Cert.KernelIdeal Cert.KernelIdeal.Gen Idealize.ShloMosaic Idealize.ShloMosaic.TcCoe Idealize.SL.Sem
open Idealize.ShloMosaic.Pipeline (Dat)

/-- THE OUTPUT ARRAY of region 4, after the region: the stage's function of the arrays the region finds — the features
    (window 0), the mean, variance, gain and offset rows (windows 1 to 4) and the scale column (window 5). -/
theorem region4_final (V : (c : Dev nD) → (b : Ref sig .tc) → Buf (Elt Ideal) ((c : Thread nD τ).loc b)) (c : Dev nD) :
    (dat4 (F := Ideal) V c).arrAt 6 cfg4.N
      = bnScaleG (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5)) :=
  (dat4 (F := Ideal) V c).arrAt_eq_of_cover 6 _ (fun t _ => Region4.flushed_eq V c t) Region4.cover

end Cert.Stage

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.LibAffineAt.lean ====
/-
  An affine map x · W + b read at one entry, in the two spellings a tiled kernel and a host program give it, and a bias
  vector recast as a one-row matrix. Nothing here depends on a program.

  A kernel that tiles the rows multiplies its block of M rows by the whole K × N weight matrix into a zero accumulator,
  after a change of float format (the identity at the ideal values), and adds the bias, a one-row matrix broadcast down
  the M rows. A host program takes the matrix product of the whole matrices and adds the same row broadcast down the rows.
  At the ideal values both read at row p and column q as
      Σ_k x(p, k) · w(k, q) + b(0, q),
  one exact sum and one addition, so the two sides meet with no finiteness hypothesis (`block_at`, `host_at`). A vector of
  n entries recast as a one-row matrix is the vector broadcast along axis 1 into one row (`rowCast_eq`): how a kernel's
  wrapper and a jnp reference each lay a bias vector out before adding it.
-/
import proofs.«107288_j13769665151544_2_alg».proof.Proof.LibMatmulAt
import Idealize.ShloMosaic.Lib.Pipeline.Value
import Idealize.ShloMosaic.Lib.ValueIdx
import Idealize.ShloMosaic.Lib.KernelVsHost
import Idealize.ShloMosaic.PureOps.Ideal.Laws

noncomputable section

namespace Cert.LibAffineAt

open Idealize.ShloMosaic Idealize.ShloMosaic.ValueIdx

/-- A one-row matrix broadcast down M rows in the kernel's spelling, read at (p, q), is the row at (0, q). -/
theorem broadcastTo_oneRow_apply {α : Type} {M N : Nat} (b : (⟨2, ![1, N]⟩ : Shape).Idx → α)
    (hb : (⟨2, ![1, N]⟩ : Shape).Broadcasts ⟨2, ![M, N]⟩) (p : Fin M) (q : Fin N) :
    broadcastTo ⟨2, ![M, N]⟩ b hb (ix2 p q) = b (ix2 (0 : Fin 1) q) := by
  refine broadcastTo_apply b hb (ix2 p q) (ix2 (0 : Fin 1) q) ?_
  intro a
  match a with
  | ⟨0, _⟩ => rfl
  | ⟨1, _⟩ =>
    show q.val = if N = 1 then 0 else q.val
    split
    · have := q.isLt; omega
    · rfl

/-- The kernel's arithmetic on a block: the block times the weights into the zero accumulator, plus the bias row laid along
    every row, at (p, q). -/
theorem block_at {M K N : Nat} (d : DotDims ⟨2, ![M, K]⟩ ⟨2, ![K, N]⟩ ⟨2, ![M, N]⟩) (hd : d = DotDims.plain M K N)
    (hb : (⟨2, ![1, N]⟩ : Shape).Broadcasts ⟨2, ![M, N]⟩)
    (x : FVec Ideal ⟨2, ![M, K]⟩ .f32) (w : FVec Ideal ⟨2, ![K, N]⟩ .f32) (b : FVec Ideal ⟨2, ![1, N]⟩ .f32)
    (h1 : FTy.bf16.bits < FTy.f32.bits) (p : Fin M) (q : Fin N) :
    addf (matmul d none (truncf .bf16 x h1) (truncf .bf16 w h1) (constant ⟨2, ![M, N]⟩ .f32 0x00000000#32)) (broadcastTo ⟨2, ![M, N]⟩ b hb) (ix2 p q)
      = (∑ k : Fin K, x (ix2 p k) * w (ix2 k q)) + b (ix2 (0 : Fin 1) q) := by
  refine (addf_apply _ _ _).trans ?_
  refine congrArg₂ (· + ·) ?_ (broadcastTo_oneRow_apply b hb p q)
  exact Cert.KernelIdeal.Hand.matmul_zero_plain_apply d hd none (truncf .bf16 x h1) (truncf .bf16 w h1) (ix2 p q)

/-- The host's affine map at (r, q): the product's exact sum plus the bias row's entry. -/
theorem host_at {M K N : Nat} (d : DotDims ⟨2, ![M, K]⟩ ⟨2, ![K, N]⟩ ⟨2, ![M, N]⟩) (hd : d = DotDims.plain M K N)
    (hbc : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨2, ![1, N]⟩ .f32) (r : Fin M) (q : Fin N) :
    addf (Host.dotGeneral d none x w) (broadcastInDim ⟨2, ![M, N]⟩ ![0, 1] hbc b) (ix2 r q)
      = (∑ k : Fin K, x (ix2 r k) * w (ix2 k q)) + b (ix2 (0 : Fin 1) q) := by
  refine (addf_apply _ _ _).trans ?_
  refine congrArg₂ (· + ·) ?_ (broadcastInDim_oneRow_apply hbc b r q)
  exact Cert.KernelIdeal.Hand.dotGeneral_plain_apply' d hd none x w (ix2 r q)

/-- A vector of n entries recast as a one-row matrix is the vector broadcast along axis 1 into one row: both read the
    vector's entry k at (0, k). Any element type. -/
theorem rowCast_eq {α : Type} {n : Nat} (b : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ b h1 = broadcastInDim ⟨2, ![1, n]⟩ ![1] hd b := by
  funext j
  have hj0 : (j 0).val = 0 := by have := (j 0).isLt; have e : (j 0).val < 1 := this; omega
  have e1 := shapeCast_apply b h1 j (ix1 (j 1)) (by
    rw [Shape.rowMajor_val_two, Shape.rowMajor_val_one]; show (j 1).val = (j 0).val * n + (j 1).val; rw [hj0]; omega)
  have e2 := broadcastInDim_apply ![1] hd b j (ix1 (j 1)) (by
    intro a
    match a with
    | ⟨0, _⟩ =>
      show (j 1).val = if n = 1 then 0 else (j 1).val
      split
      · have := (j 1).isLt; have e : (j 1).val < n := this; omega
      · rfl)
  exact e1.trans e2.symm

end Cert.LibAffineAt

end
-- ==== Proof.FuseSpec.lean ====
/-
  The gated fusion head of the two-branch network, as one function of its twenty input arrays, row by row.

  Each branch output row x (64 entries) is first batch-normalised with that branch's per-column statistics and affine
  parameters: (x − μ) · rsqrt(σ² + ε) · γ + β. From the two normalised rows h₁, h₂ the head forms the mixed row
      z = h₁·W₀ + h₂·W₁ + |h₁ − h₂|·W₂ + (h₁ ∘ h₂)·W₃ + b₁
  (four 64 × 64 products, each an exact sum over the 64 contracted entries), passes it through the leaky rectifier
  z ↦ z if z > 0 else a·z, and takes the gate g = logistic(z'·G + b₂). The fused row is g ∘ h₁ + (1 − g) ∘ h₂, and the
  output row (129 entries) is fused·F + b₃. A row of the result depends on the same row of the two branch arrays only,
  which is why a tiling of the rows computes the whole array tile by tile.

  Everything is on the extended reals; the float words ε, 0 and 1 are kept as the words the programs write.
-/
import Idealize.ShloMosaic.PureOps.Ideal
import Idealize.ShloMosaic.Lib.ValueIdx

noncomputable section

open scoped BigOperators

namespace Cert.Stage

open Idealize.ShloMosaic Idealize.ShloMosaic.ValueIdx

/-- An m × n array of extended reals, indexed by a rank-2 index. -/
abbrev Mat (m n : Nat) : Type := (⟨2, ![m, n]⟩ : Shape).Idx → EReal

/-- The batch norm's ε, as the single-precision word the programs write. -/
abbrev epsW : EReal := Ideal.ofBits .f32 0x3727C5AC#32
/-- The single-precision word of 0. -/
abbrev zeroW : EReal := Ideal.ofBits .f32 0x00000000#32
/-- The single-precision word of 1. -/
abbrev oneW : EReal := Ideal.ofBits .f32 0x3F800000#32

/-- Batch norm of one entry: (x − μ) · rsqrt(σ² + ε) · γ + β. -/
def bnAt (x mu var g bt : EReal) : EReal := (x - mu) * Ideal.rsqrt (var + epsW) * g + bt

/-- Batch norm of a row of 64 entries with one-row statistics and parameters. -/
def bnRow (x : Fin 64 → EReal) (mu var g bt : Mat 1 64) : Fin 64 → EReal :=
  fun k => bnAt (x k) (mu (ix2 (0 : Fin 1) k)) (var (ix2 (0 : Fin 1) k)) (g (ix2 (0 : Fin 1) k)) (bt (ix2 (0 : Fin 1) k))

/-- A row times a K × N matrix: entry q is the exact sum over the contracted entries. -/
def rowMul {K N : Nat} (x : Fin K → EReal) (W : Mat K N) : Fin N → EReal :=
  fun q => ∑ k : Fin K, x k * W (ix2 k q)

/-- The mixed row: h₁·W₀ + h₂·W₁ + |h₁ − h₂|·W₂ + (h₁ ∘ h₂)·W₃ + b₁, added in this order. -/
def mixRow (h1 h2 : Fin 64 → EReal) (W0 W1 W2 W3 : Mat 64 64) (gb1 : Mat 1 64) : Fin 64 → EReal :=
  fun q => rowMul h1 W0 q + rowMul h2 W1 q + rowMul (fun k => max (h1 k - h2 k) (-(h1 k - h2 k))) W2 q
    + rowMul (fun k => h1 k * h2 k) W3 q + gb1 (ix2 (0 : Fin 1) q)

/-- The leaky rectifier with slope a on the negative side. -/
def leakAt (a z : EReal) : EReal := Scalar.select (Ideal.cmp .ogt z zeroW) z (a * z)

/-- The gate row: the logistic function of z·G + b₂. -/
def gateRow (z : Fin 64 → EReal) (gW2 : Mat 64 64) (gb2 : Mat 1 64) : Fin 64 → EReal :=
  fun q => Ideal.logistic (rowMul z gW2 q + gb2 (ix2 (0 : Fin 1) q))

/-- The gated blend of two entries: g·x + (1 − g)·y. -/
def blendAt (g x y : EReal) : EReal := g * x + (oneW - g) * y

/-- The output row: f·F + b₃. -/
def headRow (f : Fin 64 → EReal) (fcW : Mat 64 129) (fcb : Mat 1 129) : Fin 129 → EReal :=
  fun q => rowMul f fcW q + fcb (ix2 (0 : Fin 1) q)

/-- The leaky-rectified mixed row of two normalised rows. -/
def actRow (h1 h2 : Fin 64 → EReal) (W0 W1 W2 W3 : Mat 64 64) (gb1 : Mat 1 64) (a : Mat 1 1) : Fin 64 → EReal :=
  fun q => leakAt (a (ix2 (0 : Fin 1) (0 : Fin 1))) (mixRow h1 h2 W0 W1 W2 W3 gb1 q)

/-- The head on two NORMALISED rows: mix, rectify, gate, blend, project. -/
def headOfRows (h1 h2 : Fin 64 → EReal) (W0 W1 W2 W3 : Mat 64 64) (gb1 : Mat 1 64) (a : Mat 1 1)
    (gW2 : Mat 64 64) (gb2 : Mat 1 64) (fcW : Mat 64 129) (fcb : Mat 1 129) : Fin 129 → EReal :=
  headRow (fun k => blendAt (gateRow (actRow h1 h2 W0 W1 W2 W3 gb1 a) gW2 gb2 k) (h1 k) (h2 k)) fcW fcb

/-- The whole head on one row of each branch: normalise both, then `headOfRows`. -/
def fuseRow (x1 x2 : Fin 64 → EReal) (mu1 var1 g1 bt1 mu2 var2 g2 bt2 : Mat 1 64) (W0 W1 W2 W3 : Mat 64 64)
    (gb1 : Mat 1 64) (a : Mat 1 1) (gW2 : Mat 64 64) (gb2 : Mat 1 64) (fcW : Mat 64 129) (fcb : Mat 1 129) : Fin 129 → EReal :=
  headOfRows (bnRow x1 mu1 var1 g1 bt1) (bnRow x2 mu2 var2 g2 bt2) W0 W1 W2 W3 gb1 a gW2 gb2 fcW fcb

/-- Row r of an m × n array. -/
abbrev rowOf {m n : Nat} (x : Mat m n) (r : Fin m) : Fin n → EReal := fun k => x (ix2 r k)

/-- The fusion head's output array: entry (r, q) is entry q of the head applied to row r of the two branch arrays. -/
def fuseG (h1r h2r : Mat 100000 64) (mu1 var1 g1 bt1 mu2 var2 g2 bt2 : Mat 1 64) (W0 W1 W2 W3 : Mat 64 64)
    (gb1 : Mat 1 64) (a : Mat 1 1) (gW2 : Mat 64 64) (gb2 : Mat 1 64) (fcW : Mat 64 129) (fcb : Mat 1 129) : Mat 100000 129 :=
  fun i => fuseRow (rowOf h1r (i 0 : Fin 100000)) (rowOf h2r (i 0 : Fin 100000)) mu1 var1 g1 bt1 mu2 var2 g2 bt2
    W0 W1 W2 W3 gb1 a gW2 gb2 fcW fcb (i 1 : Fin 129)

/-- The array at an index given by coordinates. -/
theorem fuseG_apply (h1r h2r : Mat 100000 64) (mu1 var1 g1 bt1 mu2 var2 g2 bt2 : Mat 1 64) (W0 W1 W2 W3 : Mat 64 64)
    (gb1 : Mat 1 64) (a : Mat 1 1) (gW2 : Mat 64 64) (gb2 : Mat 1 64) (fcW : Mat 64 129) (fcb : Mat 1 129)
    (r : Fin 100000) (q : Fin 129) :
    fuseG h1r h2r mu1 var1 g1 bt1 mu2 var2 g2 bt2 W0 W1 W2 W3 gb1 a gW2 gb2 fcW fcb (ix2 r q)
      = fuseRow (rowOf h1r r) (rowOf h2r r) mu1 var1 g1 bt1 mu2 var2 g2 bt2 W0 W1 W2 W3 gb1 a gW2 gb2 fcW fcb q := rfl

end Cert.Stage

end
-- ==== Proof.FusePay.lean ====
/-
  The fusion region's body, read at one entry of its output tile. The body's arithmetic on a tile of 2000 rows is the
  head of the specification applied to each row of the tile: the normalisations are pointwise with the one-row statistics
  broadcast down the rows, each matrix product into the zero accumulator reads at (p, q) as row p times the weights, and
  the changes of float format are the identity on the extended reals.
-/
import proofs.«107288_j13769665151544_2_alg».proof.Proof.Gen.KernelIdeal.Skeleton
import proofs.«107288_j13769665151544_2_alg».proof.Proof.LibAffineAt
import proofs.«107288_j13769665151544_2_alg».proof.Proof.FuseSpec

noncomputable section

open scoped BigOperators

namespace Cert.Stage

open Cert.KernelIdeal Cert.KernelIdeal.Gen
open Idealize.ShloMosaic Idealize.ShloMosaic.ValueIdx
open Cert.LibAffineAt (broadcastTo_oneRow_apply)

/-- A one-entry matrix broadcast to M × N, read at (p, q), is its entry. -/
theorem broadcastTo_oneEntry_apply {α : Type} {M N : Nat} (b : (⟨2, ![1, 1]⟩ : Shape).Idx → α)
    (hb : (⟨2, ![1, 1]⟩ : Shape).Broadcasts ⟨2, ![M, N]⟩) (p : Fin M) (q : Fin N) :
    broadcastTo ⟨2, ![M, N]⟩ b hb (ix2 p q) = b (ix2 (0 : Fin 1) (0 : Fin 1)) := by
  refine broadcastTo_apply b hb (ix2 p q) (ix2 (0 : Fin 1) (0 : Fin 1)) ?_
  intro a
  match a with
  | ⟨0, _⟩ => rfl
  | ⟨1, _⟩ => rfl

/-- A tile of 2000 rows times a 64 × N matrix into the zero accumulator, at (p, q): row p of the tile times the matrix. -/
theorem tileMul_apply {N : Nat} {φ₁ φ₂ : FTy} (d : DotDims ⟨2, ![2000, 64]⟩ ⟨2, ![64, N]⟩ ⟨2, ![2000, N]⟩)
    (hd : d = DotDims.plain 2000 64 N) (A : FVec Ideal ⟨2, ![2000, 64]⟩ φ₁) (B : FVec Ideal ⟨2, ![64, N]⟩ φ₂)
    (p : Fin 2000) (q : Fin N) :
    matmul d none A B (constant ⟨2, ![2000, N]⟩ .f32 0x00000000#32) (ix2 p q) = rowMul (fun k => A (ix2 p k)) B q :=
  Cert.KernelIdeal.Hand.matmul_zero_plain_apply d hd none A B (ix2 p q)

/-- Two rows that agree entry by entry have the same product with a matrix. -/
theorem rowMul_congr {K N : Nat} {x x' : Fin K → EReal} (h : ∀ k, x k = x' k) (W : Mat K N) (q : Fin N) :
    rowMul x W q = rowMul x' W q := by
  rw [show x = x' from funext h]

/-- The first branch's normalised tile at (p, k). -/
theorem pay2_apply (v0 : Vec Ideal S2000x64 .f32) (v4 v9 v15 v19 : Vec Ideal S1x64 .f32) (p : Fin 2000) (k : Fin 64) :
    k6_pay2 v0 v4 v9 v15 v19 (ix2 p k) = bnRow (fun k => v0 (ix2 p k)) v9 v4 v15 v19 k := by
  unfold k6_pay2
  simp only [shapeCast_self]
  unfold bnRow bnAt
  refine (addf_apply _ _ _).trans ?_
  refine congrArg₂ (· + ·) ?_ (broadcastTo_oneRow_apply v19 _ p k)
  refine (mulf_apply _ _ _).trans ?_
  refine congrArg₂ (· * ·) ?_ (broadcastTo_oneRow_apply v15 _ p k)
  refine (mulf_apply _ _ _).trans ?_
  refine congrArg₂ (· * ·) ?_ (broadcastTo_oneRow_apply _ _ p k)
  refine (subf_apply _ _ _).trans ?_
  exact congrArg₂ (· - ·) rfl (broadcastTo_oneRow_apply v9 _ p k)

/-- The second branch's normalised tile at (p, k): the scaled difference, then the shift. -/
theorem pay34_apply (v2 : Vec Ideal S2000x64 .f32) (v23 v28 v34 v38 : Vec Ideal S1x64 .f32) (p : Fin 2000) (k : Fin 64) :
    k6_pay4 (k6_pay3 v2 v23 v28 v34) v38 (ix2 p k) = bnRow (fun k => v2 (ix2 p k)) v28 v23 v34 v38 k := by
  unfold k6_pay4 k6_pay3
  simp only [shapeCast_self]
  unfold bnRow bnAt
  refine (addf_apply _ _ _).trans ?_
  refine congrArg₂ (· + ·) ?_ (broadcastTo_oneRow_apply v38 _ p k)
  refine (mulf_apply _ _ _).trans ?_
  refine congrArg₂ (· * ·) ?_ (broadcastTo_oneRow_apply v34 _ p k)
  refine (mulf_apply _ _ _).trans ?_
  refine congrArg₂ (· * ·) ?_ (broadcastTo_oneRow_apply _ _ p k)
  refine (subf_apply _ _ _).trans ?_
  exact congrArg₂ (· - ·) rfl (broadcastTo_oneRow_apply v28 _ p k)

/-- The leaky rectifier on a tile, after the change of format, at (p, q). -/
theorem leak_apply (z : FVec Ideal S2000x64 .f32) (a : Vec Ideal S1x1 .f32) (hb : S1x1.Broadcasts S2000x64)
    (h : FTy.bf16.bits < FTy.f32.bits) (p : Fin 2000) (q : Fin 64) :
    (truncf .bf16 (select (cmpf .ogt z (broadcast S2000x64 (Scalar.ofBits .f32 0x00000000#32))) z (mulf (broadcastTo S2000x64 a hb) z)) h) (ix2 p q)
      = leakAt (a (ix2 (0 : Fin 1) (0 : Fin 1))) (z (ix2 p q)) := by
  unfold leakAt
  show Scalar.select (Ideal.cmp .ogt (z (ix2 p q)) zeroW) (z (ix2 p q)) (broadcastTo S2000x64 a hb (ix2 p q) * z (ix2 p q)) = _
  rw [broadcastTo_oneEntry_apply a hb p q]

/-- The rectified mixed tile at (p, q), from the rows p of the two normalised tiles. -/
theorem pay5_apply (v22 v37 : FVec Ideal S2000x64 .f32) (v38 : Vec Ideal S1x64 .f32) (v49 v52 v55 v58 : Vec Ideal S64x64 .f32)
    (v68 : Vec Ideal S1x64 .f32) (v72 : Vec Ideal S1x1 .f32) (p : Fin 2000) (q : Fin 64) (h1 h2 : Fin 64 → EReal)
    (hh1 : ∀ k, v22 (ix2 p k) = h1 k) (hh2 : ∀ k, k6_pay4 v37 v38 (ix2 p k) = h2 k) :
    k6_pay5 v22 v37 v38 v49 v52 v55 v58 v68 v72 (ix2 p q) = actRow h1 h2 v49 v52 v55 v58 v68 v72 q := by
  obtain rfl : (fun k => v22 (ix2 p k)) = h1 := funext hh1
  obtain rfl : (fun k => k6_pay4 v37 v38 (ix2 p k)) = h2 := funext hh2
  unfold k6_pay5
  simp only [shapeCast_self]
  refine (leak_apply _ v72 _ _ p q).trans ?_
  unfold actRow
  refine congrArg (leakAt _) ?_
  unfold mixRow
  refine (addf_apply _ _ _).trans ?_
  refine congrArg₂ (· + ·) ?_ (broadcastTo_oneRow_apply v68 _ p q)
  refine (addf_apply _ _ _).trans ?_
  refine congrArg₂ (· + ·) ?_ (tileMul_apply _ rfl _ _ p q)
  refine (addf_apply _ _ _).trans ?_
  refine congrArg₂ (· + ·) ?_ (tileMul_apply _ rfl _ _ p q)
  refine (addf_apply _ _ _).trans ?_
  exact congrArg₂ (· + ·) (tileMul_apply _ rfl _ _ p q) (tileMul_apply _ rfl _ _ p q)

/-- The gated blend of two tiles, after the change of format, at an index. -/
theorem blend_apply (G x y : FVec Ideal S2000x64 .f32) (h : FTy.bf16.bits < FTy.f32.bits) (i : S2000x64.Idx) :
    truncf .bf16 (addf (mulf G x) (mulf (subf (broadcast S2000x64 (Scalar.ofBits .f32 0x3F800000#32)) G) y)) h i
      = blendAt (G i) (x i) (y i) := rfl

/-- The logistic function of a tile at an index. -/
theorem logistic_apply (X : FVec Ideal S2000x64 .f32) (i : S2000x64.Idx) : logistic X i = Ideal.logistic (X i) := rfl

/-- The output tile at (p, q), from the rows p of the two normalised tiles and of the rectified mixed tile. -/
theorem pay1_apply (v22 v41 : FVec Ideal S2000x64 .f32) (v79 : FVec Ideal S2000x64 .bf16) (v80 : Vec Ideal S64x64 .f32)
    (v83 : Vec Ideal S1x64 .f32) (v94 : Vec Ideal S64x129 .f32) (v97 : Vec Ideal S1x129 .f32) (p : Fin 2000) (q : Fin 129)
    (h1 h2 z : Fin 64 → EReal) (hh1 : ∀ k, v22 (ix2 p k) = h1 k) (hh2 : ∀ k, v41 (ix2 p k) = h2 k)
    (hz : ∀ k, v79 (ix2 p k) = z k) :
    k6_pay1 v22 v41 v79 v80 v83 v94 v97 (ix2 p q)
      = headRow (fun k => blendAt (gateRow z v80 v83 k) (h1 k) (h2 k)) v94 v97 q := by
  obtain rfl : (fun k => v22 (ix2 p k)) = h1 := funext hh1
  obtain rfl : (fun k => v41 (ix2 p k)) = h2 := funext hh2
  obtain rfl : (fun k => v79 (ix2 p k)) = z := funext hz
  unfold k6_pay1
  simp only [shapeCast_self]
  unfold headRow
  refine (addf_apply _ _ _).trans ?_
  refine congrArg₂ (· + ·) ?_ (broadcastTo_oneRow_apply v97 _ p q)
  refine (tileMul_apply _ rfl _ _ p q).trans ?_
  refine rowMul_congr (fun k => ?_) _ q
  refine (blend_apply _ v22 v41 _ (ix2 p k)).trans ?_
  refine congrArg (fun g => blendAt g _ _) ?_
  refine (logistic_apply _ _).trans (congrArg Ideal.logistic ?_)
  refine (addf_apply _ _ _).trans ?_
  exact congrArg₂ (· + ·) (tileMul_apply _ rfl _ _ p k) (broadcastTo_oneRow_apply v83 _ p k)

/-- THE BODY'S ARITHMETIC AT ONE ENTRY: the composed payloads of the region's one store, at (p, q) of the tile, are the
    specification's head on rows p of the two branch tiles. -/
theorem payAll_apply (x0 x1 : Vec Ideal S2000x64 .f32) (x2 x3 x4 x5 x6 x7 x8 x9 : Vec Ideal S1x64 .f32)
    (x10 x11 x12 x13 : Vec Ideal S64x64 .f32) (x14 : Vec Ideal S1x64 .f32) (x15 : Vec Ideal S1x1 .f32)
    (x16 : Vec Ideal S64x64 .f32) (x17 : Vec Ideal S1x64 .f32) (x18 : Vec Ideal S64x129 .f32) (x19 : Vec Ideal S1x129 .f32)
    (p : Fin 2000) (q : Fin 129) :
    k6_pay1 (k6_pay2 x0 x3 x2 x4 x5) (k6_pay4 (k6_pay3 x1 x7 x6 x8) x9)
        (k6_pay5 (k6_pay2 x0 x3 x2 x4 x5) (k6_pay3 x1 x7 x6 x8) x9 x10 x11 x12 x13 x14 x15) x16 x17 x18 x19 (ix2 p q)
      = fuseRow (fun k => x0 (ix2 p k)) (fun k => x1 (ix2 p k)) x2 x3 x4 x5 x6 x7 x8 x9 x10 x11 x12 x13 x14 x15 x16 x17 x18 x19 q :=
  pay1_apply _ _ _ x16 x17 x18 x19 p q _ _ _ (pay2_apply x0 x3 x2 x4 x5 p) (pay34_apply x1 x7 x6 x8 x9 p)
    (fun k => pay5_apply _ _ x9 x10 x11 x12 x13 x14 x15 p k _ _ (pay2_apply x0 x3 x2 x4 x5 p) (pay34_apply x1 x7 x6 x8 x9 p))

end Cert.Stage

end
-- ==== Proof.StageFuseBlocks.lean ====
/-
  The fusion region's tiles. What the region's body leaves in the output window's buffer is, entry by entry, the
  specification's head on the matching row of the two input tiles; the printed index maps put tile t of the two
  row-tiled inputs at rows 2000·t … 2000·t + 1999 of their arrays and give every other input window its whole array.
-/
import proofs.«107288_j13769665151544_2_alg».proof.Proof.Gen.KernelIdeal.Frame
import proofs.«107288_j13769665151544_2_alg».proof.Proof.FusePay
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.Stage

open Cert.KernelIdeal Cert.KernelIdeal.Gen

variable (V : (c : Dev nD) → (b : Ref sig .tc) → Buf (Elt Ideal) ((c : Thread nD τ).loc b))

theorem hz6 : (![0, 0] : Fin 2 → Nat) = fun _ => 0 := funext fun a => by fin_cases a <;> rfl

/-- What the body leaves in the output window's buffer, at entry (p, q) of the tile: the head on rows p of the input tiles. -/
theorem out6_20_apply (x0 x1 : Vec Ideal S2000x64 .f32) (x2 x3 x4 x5 x6 x7 x8 x9 : Vec Ideal S1x64 .f32)
    (x10 x11 x12 x13 : Vec Ideal S64x64 .f32) (x14 : Vec Ideal S1x64 .f32) (x15 : Vec Ideal S1x1 .f32)
    (x16 : Vec Ideal S64x64 .f32) (x17 : Vec Ideal S1x64 .f32) (x18 : Vec Ideal S64x129 .f32) (x19 : Vec Ideal S1x129 .f32)
    (p : Fin 2000) (q : Fin 129) :
    out6_20 x0 x1 x2 x3 x4 x5 x6 x7 x8 x9 x10 x11 x12 x13 x14 x15 x16 x17 x18 x19 (ix2 p q)
      = fuseRow (fun k => x0 (ix2 p k)) (fun k => x1 (ix2 p k)) x2 x3 x4 x5 x6 x7 x8 x9 x10 x11 x12 x13 x14 x15 x16 x17 x18 x19 q := by
  unfold out6_20
  rw [View.canon_unit_zero hz6]
  simp only [View.ld_unit_zero (S := S2000x64) hz6, View.ld_unit_zero (S := S1x64) hz6, View.ld_unit_zero (S := S64x64) hz6,
    View.ld_unit_zero (S := S1x1) hz6, View.ld_unit_zero (S := S64x129) hz6, View.ld_unit_zero (S := S1x129) hz6]
  exact payAll_apply x0 x1 x2 x3 x4 x5 x6 x7 x8 x9 x10 x11 x12 x13 x14 x15 x16 x17 x18 x19 p q

/-! ## The printed index maps, decided over the grid -/

/-- The two row-tiled inputs and the output take block t of the rows at point t. -/
theorem idx6_rows : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_20.index t (0 : Fin 2) = t.val ∧ win6_20.index t (1 : Fin 2) = 0) :=
  (by decide +kernel : ∀ t : Fin grid6.N, _)

/-- Window 2 takes its whole array at every point. -/
theorem idx6_2 : ∀ t : Fin cfg6.N, win6_2.index t (0 : Fin 2) = 0 ∧ win6_2.index t (1 : Fin 2) = 0 :=
  (by decide +kernel : ∀ t : Fin grid6.N, _)
/-- Window 3 takes its whole array at every point. -/
theorem idx6_3 : ∀ t : Fin cfg6.N, win6_3.index t (0 : Fin 2) = 0 ∧ win6_3.index t (1 : Fin 2) = 0 :=
  (by decide +kernel : ∀ t : Fin grid6.N, _)
/-- Window 4 takes its whole array at every point. -/
theorem idx6_4 : ∀ t : Fin cfg6.N, win6_4.index t (0 : Fin 2) = 0 ∧ win6_4.index t (1 : Fin 2) = 0 :=
  (by decide +kernel : ∀ t : Fin grid6.N, _)
/-- Window 5 takes its whole array at every point. -/
theorem idx6_5 : ∀ t : Fin cfg6.N, win6_5.index t (0 : Fin 2) = 0 ∧ win6_5.index t (1 : Fin 2) = 0 :=
  (by decide +kernel : ∀ t : Fin grid6.N, _)
/-- Window 6 takes its whole array at every point. -/
theorem idx6_6 : ∀ t : Fin cfg6.N, win6_6.index t (0 : Fin 2) = 0 ∧ win6_6.index t (1 : Fin 2) = 0 :=
  (by decide +kernel : ∀ t : Fin grid6.N, _)
/-- Window 7 takes its whole array at every point. -/
theorem idx6_7 : ∀ t : Fin cfg6.N, win6_7.index t (0 : Fin 2) = 0 ∧ win6_7.index t (1 : Fin 2) = 0 :=
  (by decide +kernel : ∀ t : Fin grid6.N, _)
/-- Window 8 takes its whole array at every point. -/
theorem idx6_8 : ∀ t : Fin cfg6.N, win6_8.index t (0 : Fin 2) = 0 ∧ win6_8.index t (1 : Fin 2) = 0 :=
  (by decide +kernel : ∀ t : Fin grid6.N, _)
/-- Window 9 takes its whole array at every point. -/
theorem idx6_9 : ∀ t : Fin cfg6.N, win6_9.index t (0 : Fin 2) = 0 ∧ win6_9.index t (1 : Fin 2) = 0 :=
  (by decide +kernel : ∀ t : Fin grid6.N, _)
/-- Window 10 takes its whole array at every point. -/
theorem idx6_10 : ∀ t : Fin cfg6.N, win6_10.index t (0 : Fin 2) = 0 ∧ win6_10.index t (1 : Fin 2) = 0 :=
  (by decide +kernel : ∀ t : Fin grid6.N, _)
/-- Window 11 takes its whole array at every point. -/
theorem idx6_11 : ∀ t : Fin cfg6.N, win6_11.index t (0 : Fin 2) = 0 ∧ win6_11.index t (1 : Fin 2) = 0 :=
  (by decide +kernel : ∀ t : Fin grid6.N, _)
/-- Window 12 takes its whole array at every point. -/
theorem idx6_12 : ∀ t : Fin cfg6.N, win6_12.index t (0 : Fin 2) = 0 ∧ win6_12.index t (1 : Fin 2) = 0 :=
  (by decide +kernel : ∀ t : Fin grid6.N, _)
/-- Window 13 takes its whole array at every point. -/
theorem idx6_13 : ∀ t : Fin cfg6.N, win6_13.index t (0 : Fin 2) = 0 ∧ win6_13.index t (1 : Fin 2) = 0 :=
  (by decide +kernel : ∀ t : Fin grid6.N, _)
/-- Window 14 takes its whole array at every point. -/
theorem idx6_14 : ∀ t : Fin cfg6.N, win6_14.index t (0 : Fin 2) = 0 ∧ win6_14.index t (1 : Fin 2) = 0 :=
  (by decide +kernel : ∀ t : Fin grid6.N, _)
/-- Window 15 takes its whole array at every point. -/
theorem idx6_15 : ∀ t : Fin cfg6.N, win6_15.index t (0 : Fin 2) = 0 ∧ win6_15.index t (1 : Fin 2) = 0 :=
  (by decide +kernel : ∀ t : Fin grid6.N, _)
/-- Window 16 takes its whole array at every point. -/
theorem idx6_16 : ∀ t : Fin cfg6.N, win6_16.index t (0 : Fin 2) = 0 ∧ win6_16.index t (1 : Fin 2) = 0 :=
  (by decide +kernel : ∀ t : Fin grid6.N, _)
/-- Window 17 takes its whole array at every point. -/
theorem idx6_17 : ∀ t : Fin cfg6.N, win6_17.index t (0 : Fin 2) = 0 ∧ win6_17.index t (1 : Fin 2) = 0 :=
  (by decide +kernel : ∀ t : Fin grid6.N, _)
/-- Window 18 takes its whole array at every point. -/
theorem idx6_18 : ∀ t : Fin cfg6.N, win6_18.index t (0 : Fin 2) = 0 ∧ win6_18.index t (1 : Fin 2) = 0 :=
  (by decide +kernel : ∀ t : Fin grid6.N, _)
/-- Window 19 takes its whole array at every point. -/
theorem idx6_19 : ∀ t : Fin cfg6.N, win6_19.index t (0 : Fin 2) = 0 ∧ win6_19.index t (1 : Fin 2) = 0 :=
  (by decide +kernel : ∀ t : Fin grid6.N, _)

/-! ## The input windows' blocks, read off the arrays -/

/-- Row p of the first branch's tile at point t is row 2000·t + p of the array. -/
theorem iblk6_0_apply (c : Dev nD) (t : Fin cfg6.N) (p : Fin 2000) (k : Fin 64) (r : Fin 100000) (hr : r.val = t.val * 2000 + p.val) :
    (iblk6 V c 0 t : S2000x64.Idx → EReal) (ix2 p k) = (V c (Pipeline.arrRef spec6 0) : S100000x64.Idx → EReal) (ix2 r k) := by
  obtain ⟨⟨e0, e1⟩, -, -⟩ := idx6_rows t
  unfold iblk6
  rw [View.read_apply]
  refine congrArg (V c (Pipeline.arrRef spec6 0) : S100000x64.Idx → EReal) ?_
  funext a
  apply Fin.ext
  match a with
  | ⟨0, _⟩ => show win6_0.index t (0 : Fin 2) * 2000 + 1 * p.val = r.val; rw [e0, hr]; omega
  | ⟨1, _⟩ => show win6_0.index t (1 : Fin 2) * 64 + 1 * k.val = k.val; rw [e1]; omega

/-- Row p of the second branch's tile at point t is row 2000·t + p of the array. -/
theorem iblk6_1_apply (c : Dev nD) (t : Fin cfg6.N) (p : Fin 2000) (k : Fin 64) (r : Fin 100000) (hr : r.val = t.val * 2000 + p.val) :
    (iblk6 V c 1 t : S2000x64.Idx → EReal) (ix2 p k) = (V c (Pipeline.arrRef spec6 1) : S100000x64.Idx → EReal) (ix2 r k) := by
  obtain ⟨-, ⟨e0, e1⟩, -⟩ := idx6_rows t
  unfold iblk6
  rw [View.read_apply]
  refine congrArg (V c (Pipeline.arrRef spec6 1) : S100000x64.Idx → EReal) ?_
  funext a
  apply Fin.ext
  match a with
  | ⟨0, _⟩ => show win6_1.index t (0 : Fin 2) * 2000 + 1 * p.val = r.val; rw [e0, hr]; omega
  | ⟨1, _⟩ => show win6_1.index t (1 : Fin 2) * 64 + 1 * k.val = k.val; rw [e1]; omega

/-- Window 2's block is its whole array. -/
theorem iblk6_2 (c : Dev nD) (t : Fin cfg6.N) :
    (iblk6 V c 2 t : S1x64.Idx → EReal) = (V c (Pipeline.arrRef spec6 2) : S1x64.Idx → EReal) := by
  obtain ⟨e0, e1⟩ := idx6_2 t
  funext y
  unfold iblk6
  rw [View.read_apply]
  refine congrArg (V c (Pipeline.arrRef spec6 2) : S1x64.Idx → EReal) ?_
  funext a
  apply Fin.ext
  match a with
  | ⟨0, _⟩ => show win6_2.index t (0 : Fin 2) * 1 + 1 * (y 0).val = (y 0).val; rw [e0]; omega
  | ⟨1, _⟩ => show win6_2.index t (1 : Fin 2) * 64 + 1 * (y 1).val = (y 1).val; rw [e1]; omega

/-- Window 3's block is its whole array. -/
theorem iblk6_3 (c : Dev nD) (t : Fin cfg6.N) :
    (iblk6 V c 3 t : S1x64.Idx → EReal) = (V c (Pipeline.arrRef spec6 3) : S1x64.Idx → EReal) := by
  obtain ⟨e0, e1⟩ := idx6_3 t
  funext y
  unfold iblk6
  rw [View.read_apply]
  refine congrArg (V c (Pipeline.arrRef spec6 3) : S1x64.Idx → EReal) ?_
  funext a
  apply Fin.ext
  match a with
  | ⟨0, _⟩ => show win6_3.index t (0 : Fin 2) * 1 + 1 * (y 0).val = (y 0).val; rw [e0]; omega
  | ⟨1, _⟩ => show win6_3.index t (1 : Fin 2) * 64 + 1 * (y 1).val = (y 1).val; rw [e1]; omega

/-- Window 4's block is its whole array. -/
theorem iblk6_4 (c : Dev nD) (t : Fin cfg6.N) :
    (iblk6 V c 4 t : S1x64.Idx → EReal) = (V c (Pipeline.arrRef spec6 4) : S1x64.Idx → EReal) := by
  obtain ⟨e0, e1⟩ := idx6_4 t
  funext y
  unfold iblk6
  rw [View.read_apply]
  refine congrArg (V c (Pipeline.arrRef spec6 4) : S1x64.Idx → EReal) ?_
  funext a
  apply Fin.ext
  match a with
  | ⟨0, _⟩ => show win6_4.index t (0 : Fin 2) * 1 + 1 * (y 0).val = (y 0).val; rw [e0]; omega
  | ⟨1, _⟩ => show win6_4.index t (1 : Fin 2) * 64 + 1 * (y 1).val = (y 1).val; rw [e1]; omega

/-- Window 5's block is its whole array. -/
theorem iblk6_5 (c : Dev nD) (t : Fin cfg6.N) :
    (iblk6 V c 5 t : S1x64.Idx → EReal) = (V c (Pipeline.arrRef spec6 5) : S1x64.Idx → EReal) := by
  obtain ⟨e0, e1⟩ := idx6_5 t
  funext y
  unfold iblk6
  rw [View.read_apply]
  refine congrArg (V c (Pipeline.arrRef spec6 5) : S1x64.Idx → EReal) ?_
  funext a
  apply Fin.ext
  match a with
  | ⟨0, _⟩ => show win6_5.index t (0 : Fin 2) * 1 + 1 * (y 0).val = (y 0).val; rw [e0]; omega
  | ⟨1, _⟩ => show win6_5.index t (1 : Fin 2) * 64 + 1 * (y 1).val = (y 1).val; rw [e1]; omega

/-- Window 6's block is its whole array. -/
theorem iblk6_6 (c : Dev nD) (t : Fin cfg6.N) :
    (iblk6 V c 6 t : S1x64.Idx → EReal) = (V c (Pipeline.arrRef spec6 6) : S1x64.Idx → EReal) := by
  obtain ⟨e0, e1⟩ := idx6_6 t
  funext y
  unfold iblk6
  rw [View.read_apply]
  refine congrArg (V c (Pipeline.arrRef spec6 6) : S1x64.Idx → EReal) ?_
  funext a
  apply Fin.ext
  match a with
  | ⟨0, _⟩ => show win6_6.index t (0 : Fin 2) * 1 + 1 * (y 0).val = (y 0).val; rw [e0]; omega
  | ⟨1, _⟩ => show win6_6.index t (1 : Fin 2) * 64 + 1 * (y 1).val = (y 1).val; rw [e1]; omega

/-- Window 7's block is its whole array. -/
theorem iblk6_7 (c : Dev nD) (t : Fin cfg6.N) :
    (iblk6 V c 7 t : S1x64.Idx → EReal) = (V c (Pipeline.arrRef spec6 7) : S1x64.Idx → EReal) := by
  obtain ⟨e0, e1⟩ := idx6_7 t
  funext y
  unfold iblk6
  rw [View.read_apply]
  refine congrArg (V c (Pipeline.arrRef spec6 7) : S1x64.Idx → EReal) ?_
  funext a
  apply Fin.ext
  match a with
  | ⟨0, _⟩ => show win6_7.index t (0 : Fin 2) * 1 + 1 * (y 0).val = (y 0).val; rw [e0]; omega
  | ⟨1, _⟩ => show win6_7.index t (1 : Fin 2) * 64 + 1 * (y 1).val = (y 1).val; rw [e1]; omega

/-- Window 8's block is its whole array. -/
theorem iblk6_8 (c : Dev nD) (t : Fin cfg6.N) :
    (iblk6 V c 8 t : S1x64.Idx → EReal) = (V c (Pipeline.arrRef spec6 8) : S1x64.Idx → EReal) := by
  obtain ⟨e0, e1⟩ := idx6_8 t
  funext y
  unfold iblk6
  rw [View.read_apply]
  refine congrArg (V c (Pipeline.arrRef spec6 8) : S1x64.Idx → EReal) ?_
  funext a
  apply Fin.ext
  match a with
  | ⟨0, _⟩ => show win6_8.index t (0 : Fin 2) * 1 + 1 * (y 0).val = (y 0).val; rw [e0]; omega
  | ⟨1, _⟩ => show win6_8.index t (1 : Fin 2) * 64 + 1 * (y 1).val = (y 1).val; rw [e1]; omega

/-- Window 9's block is its whole array. -/
theorem iblk6_9 (c : Dev nD) (t : Fin cfg6.N) :
    (iblk6 V c 9 t : S1x64.Idx → EReal) = (V c (Pipeline.arrRef spec6 9) : S1x64.Idx → EReal) := by
  obtain ⟨e0, e1⟩ := idx6_9 t
  funext y
  unfold iblk6
  rw [View.read_apply]
  refine congrArg (V c (Pipeline.arrRef spec6 9) : S1x64.Idx → EReal) ?_
  funext a
  apply Fin.ext
  match a with
  | ⟨0, _⟩ => show win6_9.index t (0 : Fin 2) * 1 + 1 * (y 0).val = (y 0).val; rw [e0]; omega
  | ⟨1, _⟩ => show win6_9.index t (1 : Fin 2) * 64 + 1 * (y 1).val = (y 1).val; rw [e1]; omega

/-- Window 10's block is its whole array. -/
theorem iblk6_10 (c : Dev nD) (t : Fin cfg6.N) :
    (iblk6 V c 10 t : S64x64.Idx → EReal) = (V c (Pipeline.arrRef spec6 10) : S64x64.Idx → EReal) := by
  obtain ⟨e0, e1⟩ := idx6_10 t
  funext y
  unfold iblk6
  rw [View.read_apply]
  refine congrArg (V c (Pipeline.arrRef spec6 10) : S64x64.Idx → EReal) ?_
  funext a
  apply Fin.ext
  match a with
  | ⟨0, _⟩ => show win6_10.index t (0 : Fin 2) * 64 + 1 * (y 0).val = (y 0).val; rw [e0]; omega
  | ⟨1, _⟩ => show win6_10.index t (1 : Fin 2) * 64 + 1 * (y 1).val = (y 1).val; rw [e1]; omega

/-- Window 11's block is its whole array. -/
theorem iblk6_11 (c : Dev nD) (t : Fin cfg6.N) :
    (iblk6 V c 11 t : S64x64.Idx → EReal) = (V c (Pipeline.arrRef spec6 11) : S64x64.Idx → EReal) := by
  obtain ⟨e0, e1⟩ := idx6_11 t
  funext y
  unfold iblk6
  rw [View.read_apply]
  refine congrArg (V c (Pipeline.arrRef spec6 11) : S64x64.Idx → EReal) ?_
  funext a
  apply Fin.ext
  match a with
  | ⟨0, _⟩ => show win6_11.index t (0 : Fin 2) * 64 + 1 * (y 0).val = (y 0).val; rw [e0]; omega
  | ⟨1, _⟩ => show win6_11.index t (1 : Fin 2) * 64 + 1 * (y 1).val = (y 1).val; rw [e1]; omega

/-- Window 12's block is its whole array. -/
theorem iblk6_12 (c : Dev nD) (t : Fin cfg6.N) :
    (iblk6 V c 12 t : S64x64.Idx → EReal) = (V c (Pipeline.arrRef spec6 12) : S64x64.Idx → EReal) := by
  obtain ⟨e0, e1⟩ := idx6_12 t
  funext y
  unfold iblk6
  rw [View.read_apply]
  refine congrArg (V c (Pipeline.arrRef spec6 12) : S64x64.Idx → EReal) ?_
  funext a
  apply Fin.ext
  match a with
  | ⟨0, _⟩ => show win6_12.index t (0 : Fin 2) * 64 + 1 * (y 0).val = (y 0).val; rw [e0]; omega
  | ⟨1, _⟩ => show win6_12.index t (1 : Fin 2) * 64 + 1 * (y 1).val = (y 1).val; rw [e1]; omega

/-- Window 13's block is its whole array. -/
theorem iblk6_13 (c : Dev nD) (t : Fin cfg6.N) :
    (iblk6 V c 13 t : S64x64.Idx → EReal) = (V c (Pipeline.arrRef spec6 13) : S64x64.Idx → EReal) := by
  obtain ⟨e0, e1⟩ := idx6_13 t
  funext y
  unfold iblk6
  rw [View.read_apply]
  refine congrArg (V c (Pipeline.arrRef spec6 13) : S64x64.Idx → EReal) ?_
  funext a
  apply Fin.ext
  match a with
  | ⟨0, _⟩ => show win6_13.index t (0 : Fin 2) * 64 + 1 * (y 0).val = (y 0).val; rw [e0]; omega
  | ⟨1, _⟩ => show win6_13.index t (1 : Fin 2) * 64 + 1 * (y 1).val = (y 1).val; rw [e1]; omega

/-- Window 14's block is its whole array. -/
theorem iblk6_14 (c : Dev nD) (t : Fin cfg6.N) :
    (iblk6 V c 14 t : S1x64.Idx → EReal) = (V c (Pipeline.arrRef spec6 14) : S1x64.Idx → EReal) := by
  obtain ⟨e0, e1⟩ := idx6_14 t
  funext y
  unfold iblk6
  rw [View.read_apply]
  refine congrArg (V c (Pipeline.arrRef spec6 14) : S1x64.Idx → EReal) ?_
  funext a
  apply Fin.ext
  match a with
  | ⟨0, _⟩ => show win6_14.index t (0 : Fin 2) * 1 + 1 * (y 0).val = (y 0).val; rw [e0]; omega
  | ⟨1, _⟩ => show win6_14.index t (1 : Fin 2) * 64 + 1 * (y 1).val = (y 1).val; rw [e1]; omega

/-- Window 15's block is its whole array. -/
theorem iblk6_15 (c : Dev nD) (t : Fin cfg6.N) :
    (iblk6 V c 15 t : S1x1.Idx → EReal) = (V c (Pipeline.arrRef spec6 15) : S1x1.Idx → EReal) := by
  obtain ⟨e0, e1⟩ := idx6_15 t
  funext y
  unfold iblk6
  rw [View.read_apply]
  refine congrArg (V c (Pipeline.arrRef spec6 15) : S1x1.Idx → EReal) ?_
  funext a
  apply Fin.ext
  match a with
  | ⟨0, _⟩ => show win6_15.index t (0 : Fin 2) * 1 + 1 * (y 0).val = (y 0).val; rw [e0]; omega
  | ⟨1, _⟩ => show win6_15.index t (1 : Fin 2) * 1 + 1 * (y 1).val = (y 1).val; rw [e1]; omega

/-- Window 16's block is its whole array. -/
theorem iblk6_16 (c : Dev nD) (t : Fin cfg6.N) :
    (iblk6 V c 16 t : S64x64.Idx → EReal) = (V c (Pipeline.arrRef spec6 16) : S64x64.Idx → EReal) := by
  obtain ⟨e0, e1⟩ := idx6_16 t
  funext y
  unfold iblk6
  rw [View.read_apply]
  refine congrArg (V c (Pipeline.arrRef spec6 16) : S64x64.Idx → EReal) ?_
  funext a
  apply Fin.ext
  match a with
  | ⟨0, _⟩ => show win6_16.index t (0 : Fin 2) * 64 + 1 * (y 0).val = (y 0).val; rw [e0]; omega
  | ⟨1, _⟩ => show win6_16.index t (1 : Fin 2) * 64 + 1 * (y 1).val = (y 1).val; rw [e1]; omega

/-- Window 17's block is its whole array. -/
theorem iblk6_17 (c : Dev nD) (t : Fin cfg6.N) :
    (iblk6 V c 17 t : S1x64.Idx → EReal) = (V c (Pipeline.arrRef spec6 17) : S1x64.Idx → EReal) := by
  obtain ⟨e0, e1⟩ := idx6_17 t
  funext y
  unfold iblk6
  rw [View.read_apply]
  refine congrArg (V c (Pipeline.arrRef spec6 17) : S1x64.Idx → EReal) ?_
  funext a
  apply Fin.ext
  match a with
  | ⟨0, _⟩ => show win6_17.index t (0 : Fin 2) * 1 + 1 * (y 0).val = (y 0).val; rw [e0]; omega
  | ⟨1, _⟩ => show win6_17.index t (1 : Fin 2) * 64 + 1 * (y 1).val = (y 1).val; rw [e1]; omega

/-- Window 18's block is its whole array. -/
theorem iblk6_18 (c : Dev nD) (t : Fin cfg6.N) :
    (iblk6 V c 18 t : S64x129.Idx → EReal) = (V c (Pipeline.arrRef spec6 18) : S64x129.Idx → EReal) := by
  obtain ⟨e0, e1⟩ := idx6_18 t
  funext y
  unfold iblk6
  rw [View.read_apply]
  refine congrArg (V c (Pipeline.arrRef spec6 18) : S64x129.Idx → EReal) ?_
  funext a
  apply Fin.ext
  match a with
  | ⟨0, _⟩ => show win6_18.index t (0 : Fin 2) * 64 + 1 * (y 0).val = (y 0).val; rw [e0]; omega
  | ⟨1, _⟩ => show win6_18.index t (1 : Fin 2) * 129 + 1 * (y 1).val = (y 1).val; rw [e1]; omega

/-- Window 19's block is its whole array. -/
theorem iblk6_19 (c : Dev nD) (t : Fin cfg6.N) :
    (iblk6 V c 19 t : S1x129.Idx → EReal) = (V c (Pipeline.arrRef spec6 19) : S1x129.Idx → EReal) := by
  obtain ⟨e0, e1⟩ := idx6_19 t
  funext y
  unfold iblk6
  rw [View.read_apply]
  refine congrArg (V c (Pipeline.arrRef spec6 19) : S1x129.Idx → EReal) ?_
  funext a
  apply Fin.ext
  match a with
  | ⟨0, _⟩ => show win6_19.index t (0 : Fin 2) * 1 + 1 * (y 0).val = (y 0).val; rw [e0]; omega
  | ⟨1, _⟩ => show win6_19.index t (1 : Fin 2) * 129 + 1 * (y 1).val = (y 1).val; rw [e1]; omega

end Cert.Stage

end
-- ==== Proof.StageFuse.lean ====
/-
  The fusion region's output array as one function of the twenty arrays the region finds.

  The region runs over 50 grid points; point t works on rows 2000·t … 2000·t + 1999 of the two branch arrays and of the
  output, and reads the eighteen small parameter arrays whole. What the body stores into the output window's buffer at
  point t is, entry by entry, the specification's head on the matching row of the two input tiles; a tile's row p is row
  2000·t + p of the array, so what point t writes back is block t of the specification's array. The fifty blocks cover
  every row, so the array ends holding the specification's array.
-/
import proofs.«107288_j13769665151544_2_alg».proof.Proof.StageFuseBlocks

set_option maxRecDepth 16384

noncomputable section

open Idealize.ShloMosaic Idealize.ShloMosaic.TcCoe Idealize.SL.Sem
open Idealize.ShloMosaic.Pipeline (Dat)
open Idealize.ShloMosaic.ValueIdx

namespace Cert.Stage

open Cert.KernelIdeal Cert.KernelIdeal.Gen

variable (V : (c : Dev nD) → (b : Ref sig .tc) → Buf (Elt Ideal) ((c : Thread nD τ).loc b))

/-! ## From blocks to the array -/

/-- The specification's array of the twenty arrays the region finds. -/
abbrev fuseOf6 (c : Dev nD) : Mat 100000 129 :=
  fuseG (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10)) (V c (Pipeline.arrRef spec6 11)) (V c (Pipeline.arrRef spec6 12)) (V c (Pipeline.arrRef spec6 13)) (V c (Pipeline.arrRef spec6 14)) (V c (Pipeline.arrRef spec6 15)) (V c (Pipeline.arrRef spec6 16)) (V c (Pipeline.arrRef spec6 17)) (V c (Pipeline.arrRef spec6 18)) (V c (Pipeline.arrRef spec6 19))

/-- An entry of the output tile against an entry of the specification's array, over variables: rows p of the two input
    tiles are rows r of two arrays, and the other inputs are the other arrays. -/
theorem tile_eq_spec (x0 x1 : Vec Ideal S2000x64 .f32) (x2 x3 x4 x5 x6 x7 x8 x9 : Vec Ideal S1x64 .f32)
    (x10 x11 x12 x13 : Vec Ideal S64x64 .f32) (x14 : Vec Ideal S1x64 .f32) (x15 : Vec Ideal S1x1 .f32)
    (x16 : Vec Ideal S64x64 .f32) (x17 : Vec Ideal S1x64 .f32) (x18 : Vec Ideal S64x129 .f32) (x19 : Vec Ideal S1x129 .f32)
    (A0 A1 : Vec Ideal S100000x64 .f32) (A2 A3 A4 A5 A6 A7 A8 A9 : Vec Ideal S1x64 .f32)
    (A10 A11 A12 A13 : Vec Ideal S64x64 .f32) (A14 : Vec Ideal S1x64 .f32) (A15 : Vec Ideal S1x1 .f32)
    (A16 : Vec Ideal S64x64 .f32) (A17 : Vec Ideal S1x64 .f32) (A18 : Vec Ideal S64x129 .f32) (A19 : Vec Ideal S1x129 .f32)
    (p : Fin 2000) (q : Fin 129) (r : Fin 100000)
    (h0 : ∀ k : Fin 64, x0 (ix2 p k) = A0 (ix2 r k)) (h1 : ∀ k : Fin 64, x1 (ix2 p k) = A1 (ix2 r k))
    (e2 : x2 = A2) (e3 : x3 = A3) (e4 : x4 = A4) (e5 : x5 = A5) (e6 : x6 = A6) (e7 : x7 = A7) (e8 : x8 = A8) (e9 : x9 = A9) (e10 : x10 = A10) (e11 : x11 = A11) (e12 : x12 = A12) (e13 : x13 = A13) (e14 : x14 = A14) (e15 : x15 = A15) (e16 : x16 = A16) (e17 : x17 = A17) (e18 : x18 = A18) (e19 : x19 = A19) :
    out6_20 x0 x1 x2 x3 x4 x5 x6 x7 x8 x9 x10 x11 x12 x13 x14 x15 x16 x17 x18 x19 (ix2 p q) = fuseG A0 A1 A2 A3 A4 A5 A6 A7 A8 A9 A10 A11 A12 A13 A14 A15 A16 A17 A18 A19 (ix2 r q) := by
  subst e2 e3 e4 e5 e6 e7 e8 e9 e10 e11 e12 e13 e14 e15 e16 e17 e18 e19
  refine (out6_20_apply x0 x1 x2 x3 x4 x5 x6 x7 x8 x9 x10 x11 x12 x13 x14 x15 x16 x17 x18 x19 p q).trans ?_
  rw [fuseG_apply, show (fun k => x0 (ix2 p k)) = rowOf A0 r from funext h0,
    show (fun k => x1 (ix2 p k)) = rowOf A1 r from funext h1]

/-- WHAT POINT t WRITES BACK is block t of the specification's array. -/
theorem flushed6_eq (c : Dev nD) (t : Fin cfg6.N) :
    (dat6 (F := Ideal) V c).flushed 20 t = ((cfg6.win 20).blk t).view.read (Elt Ideal) (fuseOf6 V c) := by
  show (cfg6.win 20).cut (grid6.coords t) ((dat6 V c).after 20 t) = _
  rw [after6_20]
  funext j
  obtain ⟨p, q, rfl⟩ : ∃ (p : Fin 2000) (q : Fin 129), j = ix2 p q := ⟨j 0, j 1, eq_ix2 j⟩
  have ht : t.val < 50 := by have h := t.isLt; have hN : grid6.N = 50 := N_6; exact hN ▸ h
  obtain ⟨r, hr⟩ : ∃ r : Fin 100000, r.val = t.val * 2000 + p.val := ⟨⟨t.val * 2000 + p.val, by have := p.isLt; omega⟩, rfl⟩
  obtain ⟨-, -, ⟨e0, e1⟩⟩ := idx6_rows t
  have hemb : ((cfg6.win 20).blk t).view.emb (ix2 p q) = (ix2 r q : S100000x129.Idx) := by
    funext a
    apply Fin.ext
    match a with
    | ⟨0, _⟩ => show win6_20.index t (0 : Fin 2) * 2000 + 1 * p.val = r.val; rw [e0, hr]; omega
    | ⟨1, _⟩ => show win6_20.index t (1 : Fin 2) * 129 + 1 * q.val = q.val; rw [e1]; omega
  refine Eq.trans ?_ (congrArg (fuseOf6 V c) hemb.symm)
  exact tile_eq_spec (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (iblk6 V c 14 t) (iblk6 V c 15 t) (iblk6 V c 16 t) (iblk6 V c 17 t) (iblk6 V c 18 t) (iblk6 V c 19 t)
    (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10)) (V c (Pipeline.arrRef spec6 11)) (V c (Pipeline.arrRef spec6 12)) (V c (Pipeline.arrRef spec6 13)) (V c (Pipeline.arrRef spec6 14)) (V c (Pipeline.arrRef spec6 15)) (V c (Pipeline.arrRef spec6 16)) (V c (Pipeline.arrRef spec6 17)) (V c (Pipeline.arrRef spec6 18)) (V c (Pipeline.arrRef spec6 19))
    p q r (fun k => iblk6_0_apply V c t p k r hr) (fun k => iblk6_1_apply V c t p k r hr)
    (iblk6_2 V c t) (iblk6_3 V c t) (iblk6_4 V c t) (iblk6_5 V c t) (iblk6_6 V c t) (iblk6_7 V c t) (iblk6_8 V c t) (iblk6_9 V c t) (iblk6_10 V c t) (iblk6_11 V c t) (iblk6_12 V c t) (iblk6_13 V c t) (iblk6_14 V c t) (iblk6_15 V c t) (iblk6_16 V c t) (iblk6_17 V c t) (iblk6_18 V c t) (iblk6_19 V c t)

/-- An index of the output array is in point t's block iff each coordinate is in the block's range on its axis. -/
theorem mem_blk6 (t : Fin cfg6.N) (i : S100000x129.Idx) :
    i ∈ ((cfg6.win 20).blk t).view.set ↔ ∀ a : Fin 2, win6_20.index t a * S2000x129.size a ≤ (i a).val ∧ (i a).val < win6_20.index t a * S2000x129.size a + S2000x129.size a := by
  show i ∈ ((View.whole main_v130).slice (win6_20.rect t)).set ↔ _
  rw [View.set_slice_whole, Rect.mem_set_unit]
  exact Iff.rfl

/-- Every index of the output array is in the block of the point that holds its row: point (row / 2000). -/
theorem cover6 (i : S100000x129.Idx) :
    ∃ t : Fin cfg6.N, (cfg6.win 20).flush t = true ∧ i ∈ ((cfg6.win 20).blk t).view.set := by
  have hi0 : (i 0).val < 100000 := (i 0).isLt
  have hi1 : (i 1).val < 129 := (i 1).isLt
  have hN : grid6.N = 50 := N_6
  obtain ⟨t, htv⟩ : ∃ t : Fin cfg6.N, t.val = (i 0).val / 2000 := ⟨⟨(i 0).val / 2000, by show _ < grid6.N; omega⟩, rfl⟩
  obtain ⟨-, -, ⟨e0, e1⟩⟩ := idx6_rows t
  refine ⟨t, flush6_20 t, ?_⟩
  rw [mem_blk6]
  intro a
  match a with
  | ⟨0, _⟩ => show win6_20.index t (0 : Fin 2) * 2000 ≤ (i 0).val ∧ (i 0).val < win6_20.index t (0 : Fin 2) * 2000 + 2000; rw [e0, htv]; omega
  | ⟨1, _⟩ => show win6_20.index t (1 : Fin 2) * 129 ≤ (i 1).val ∧ (i 1).val < win6_20.index t (1 : Fin 2) * 129 + 129; rw [e1]; omega

/-- THE OUTPUT ARRAY after the region: the specification's array of the twenty arrays the region finds. -/
theorem region6_final (c : Dev nD) :
    (dat6 (F := Ideal) V c).arrAt 20 cfg6.N
      = fuseG (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10)) (V c (Pipeline.arrRef spec6 11)) (V c (Pipeline.arrRef spec6 12)) (V c (Pipeline.arrRef spec6 13)) (V c (Pipeline.arrRef spec6 14)) (V c (Pipeline.arrRef spec6 15)) (V c (Pipeline.arrRef spec6 16)) (V c (Pipeline.arrRef spec6 17)) (V c (Pipeline.arrRef spec6 18)) (V c (Pipeline.arrRef spec6 19)) :=
  (dat6 (F := Ideal) V c).arrAt_eq_of_cover 20 (fuseOf6 V c) (fun t _ => flushed6_eq V c t) cover6

end Cert.Stage

end
-- ==== Proof.KerVal.lean ====
/-
  The idealized kernel's seven regions, each read as one function of the arrays it finds: the output array of a region
  after it is the stage's function (a graph-convolution layer's dense half, a batch normalisation with the next
  layer's row scaling, the fusion head) of the contents, at the region's entry, of the buffers its windows stage — and
  those contents are followed back through the host stretches to the values they were computed from.
-/
import proofs.«107288_j13769665151544_2_alg».proof.Proof.KerBack
import proofs.«107288_j13769665151544_2_alg».proof.Proof.StageGconv
import proofs.«107288_j13769665151544_2_alg».proof.Proof.StageGconv2
import proofs.«107288_j13769665151544_2_alg».proof.Proof.StageGconv3
import proofs.«107288_j13769665151544_2_alg».proof.Proof.StageGconv5
import proofs.«107288_j13769665151544_2_alg».proof.Proof.StageBn
import proofs.«107288_j13769665151544_2_alg».proof.Proof.StageBn4
import proofs.«107288_j13769665151544_2_alg».proof.Proof.StageFuse

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Cert.Stage

variable (m : (ℓ : Loc nD τ sig) → Buf (Elt Ideal) ℓ) (ρ : Dev nD → PrngReg) (c : Dev nD)

/-- Region 0's output array after the region, from the contents it finds. -/
theorem K6_v28 : W6 (F := Ideal) m ρ c (Proc.devRef .tc main_v28)
    = gconvG (W5 (F := Ideal) m ρ c (Proc.devRef .tc main_v25)) (W5 (F := Ideal) m ρ c (Proc.devRef .tc main_v27)) (W5 (F := Ideal) m ρ c (Proc.devRef .tc main_arg5)) (W5 (F := Ideal) m ρ c (Proc.devRef .tc main_v26)) :=
  (W6_arr m ρ c 4).trans (region0_final (V5 m ρ) c)

/-- Region 1's output array after the region, from the contents it finds. -/
theorem K10_v38 : W10 (F := Ideal) m ρ c (Proc.devRef .tc main_v38)
    = bnScaleG (W9 (F := Ideal) m ρ c (Proc.devRef .tc main_v28)) (W9 (F := Ideal) m ρ c (Proc.devRef .tc main_v32)) (W9 (F := Ideal) m ρ c (Proc.devRef .tc main_v34)) (W9 (F := Ideal) m ρ c (Proc.devRef .tc main_v35)) (W9 (F := Ideal) m ρ c (Proc.devRef .tc main_v36)) (W9 (F := Ideal) m ρ c (Proc.devRef .tc main_v37)) :=
  (W10_arr m ρ c 6).trans (region1_final (V9 m ρ) c)

/-- Region 2's output array after the region, from the contents it finds. -/
theorem K12_v52 : W12 (F := Ideal) m ρ c (Proc.devRef .tc main_v52)
    = gconvG (W11 (F := Ideal) m ρ c (Proc.devRef .tc main_v49)) (W11 (F := Ideal) m ρ c (Proc.devRef .tc main_v51)) (W11 (F := Ideal) m ρ c (Proc.devRef .tc main_arg9)) (W11 (F := Ideal) m ρ c (Proc.devRef .tc main_v50)) :=
  (W12_arr m ρ c 4).trans (region2_final (V11 m ρ) c)

/-- Region 3's output array after the region, from the contents it finds. -/
theorem K20_v85 : W20 (F := Ideal) m ρ c (Proc.devRef .tc main_v85)
    = gconvG (W19 (F := Ideal) m ρ c (Proc.devRef .tc main_v82)) (W19 (F := Ideal) m ρ c (Proc.devRef .tc main_v84)) (W19 (F := Ideal) m ρ c (Proc.devRef .tc main_arg13)) (W19 (F := Ideal) m ρ c (Proc.devRef .tc main_v83)) :=
  (W20_arr m ρ c 4).trans (region3_final (V19 m ρ) c)

/-- Region 4's output array after the region, from the contents it finds. -/
theorem K24_v95 : W24 (F := Ideal) m ρ c (Proc.devRef .tc main_v95)
    = bnScaleG (W23 (F := Ideal) m ρ c (Proc.devRef .tc main_v85)) (W23 (F := Ideal) m ρ c (Proc.devRef .tc main_v89)) (W23 (F := Ideal) m ρ c (Proc.devRef .tc main_v91)) (W23 (F := Ideal) m ρ c (Proc.devRef .tc main_v92)) (W23 (F := Ideal) m ρ c (Proc.devRef .tc main_v93)) (W23 (F := Ideal) m ρ c (Proc.devRef .tc main_v94)) :=
  (W24_arr m ρ c 6).trans (region4_final (V23 m ρ) c)

/-- Region 5's output array after the region, from the contents it finds. -/
theorem K26_v109 : W26 (F := Ideal) m ρ c (Proc.devRef .tc main_v109)
    = gconvG (W25 (F := Ideal) m ρ c (Proc.devRef .tc main_v106)) (W25 (F := Ideal) m ρ c (Proc.devRef .tc main_v108)) (W25 (F := Ideal) m ρ c (Proc.devRef .tc main_arg17)) (W25 (F := Ideal) m ρ c (Proc.devRef .tc main_v107)) :=
  (W26_arr m ρ c 4).trans (region5_final (V25 m ρ) c)

/-- Region 6's output array after the region, from the contents it finds. -/
theorem K30_v130 : W30 (F := Ideal) m ρ c (Proc.devRef .tc main_v130)
    = fuseG (W29 (F := Ideal) m ρ c (Proc.devRef .tc main_v52)) (W29 (F := Ideal) m ρ c (Proc.devRef .tc main_v109)) (W29 (F := Ideal) m ρ c (Proc.devRef .tc main_v118)) (W29 (F := Ideal) m ρ c (Proc.devRef .tc main_v119)) (W29 (F := Ideal) m ρ c (Proc.devRef .tc main_v120)) (W29 (F := Ideal) m ρ c (Proc.devRef .tc main_v121)) (W29 (F := Ideal) m ρ c (Proc.devRef .tc main_v122)) (W29 (F := Ideal) m ρ c (Proc.devRef .tc main_v123)) (W29 (F := Ideal) m ρ c (Proc.devRef .tc main_v124)) (W29 (F := Ideal) m ρ c (Proc.devRef .tc main_v125)) (W29 (F := Ideal) m ρ c (Proc.devRef .tc main_v114)) (W29 (F := Ideal) m ρ c (Proc.devRef .tc main_v115)) (W29 (F := Ideal) m ρ c (Proc.devRef .tc main_v116)) (W29 (F := Ideal) m ρ c (Proc.devRef .tc main_v117)) (W29 (F := Ideal) m ρ c (Proc.devRef .tc main_v126)) (W29 (F := Ideal) m ρ c (Proc.devRef .tc main_v127)) (W29 (F := Ideal) m ρ c (Proc.devRef .tc main_arg24)) (W29 (F := Ideal) m ρ c (Proc.devRef .tc main_v128)) (W29 (F := Ideal) m ρ c (Proc.devRef .tc main_arg26)) (W29 (F := Ideal) m ρ c (Proc.devRef .tc main_v129)) :=
  (W30_arr m ρ c 20).trans (region6_final (V29 m ρ) c)

end Cert.KernelIdeal.Hand

end
-- ==== Proof.LibLogisticForm.lean ====
/-
  The logistic function spelt out. A program that expands the logistic function into a negation, an exponential, an
  addition and a division, with the ones written as the float word of 1.0, computes `1 / (1 + exp(−v))`; on the extended
  reals that is the logistic function (0 at −∞, 1 at +∞). Nothing here depends on a program.
-/
import Idealize.ShloMosaic.PureOps.Ideal
import Idealize.ShloMosaic.PureOps.Ideal.Laws

noncomputable section

namespace Cert.LogisticForm

open Idealize.ShloMosaic

/-- The single-precision float word of 1.0 is the real number one. -/
theorem ofBits_one_f32 : Ideal.ofBits .f32 0x3F800000#32 = 1 := by
  simp [Ideal.ofBits, Ideal.ieee, -EReal.coe_mul]; norm_num

/-- One over one plus the exponential of the negated argument, the ones written as the float word of 1.0, is the
    logistic function of the argument, for every extended real. -/
theorem logistic_spelt (v : EReal) :
    Ideal.div (Ideal.ofBits .f32 0x3F800000#32) (Ideal.ofBits .f32 0x3F800000#32 + Ideal.exp (-v)) = Ideal.logistic v := by
  rw [ofBits_one_f32]; rfl

/-- The same with the ones already read as the number one. -/
theorem logistic_spelt_one (v : EReal) : Ideal.div 1 (1 + Ideal.exp (-v)) = Ideal.logistic v := rfl

end Cert.LogisticForm

end
-- ==== Proof.LibSplitSum.lean ====
/-
  A finite sum over `a + b` consecutive positions is the sum over the first `a` of them plus the sum over the
  last `b`, in any commutative monoid. On the extended reals this is the law by which a contraction against two
  matrices laid side by side (one joined row of `a + b` entries) is the sum of the two separate contractions: it
  uses only that addition is commutative and associative, so it holds at the infinities too, with no finiteness
  hypothesis. Nothing here depends on a program.
-/
import Mathlib.Algebra.BigOperators.Fin

namespace Cert.SplitSum

/-- The sum over `Fin n`, `n = a + b`, splits at position `a`: the first `a` positions keep their numbers, the
    last `b` are numbered from `a` on. -/
theorem sum_fin_split {M : Type*} [AddCommMonoid M] {a b n : ℕ} (hn : a + b = n) (f : Fin n → M) :
    ∑ k : Fin n, f k
      = ∑ k : Fin a, f ⟨k.val, by have := k.isLt; omega⟩ + ∑ k : Fin b, f ⟨a + k.val, by have := k.isLt; omega⟩ := by
  subst hn
  exact Fin.sum_univ_add f

/-- The same with each half's summand named: whatever the summand is known to be on the first `a` positions
    (`h₁`) and on the last `b` (`h₂`), the whole sum is the two named sums added. -/
theorem sum_fin_split_of_eq {M : Type*} [AddCommMonoid M] {a b n : ℕ} (hn : a + b = n) (f : Fin n → M)
    (g₁ : Fin a → M) (g₂ : Fin b → M)
    (h₁ : ∀ k : Fin a, f ⟨k.val, by have := k.isLt; omega⟩ = g₁ k)
    (h₂ : ∀ k : Fin b, f ⟨a + k.val, by have := k.isLt; omega⟩ = g₂ k) :
    ∑ k : Fin n, f k = ∑ k : Fin a, g₁ k + ∑ k : Fin b, g₂ k := by
  rw [sum_fin_split hn f]
  exact congrArg₂ (· + ·) (Finset.sum_congr rfl fun k _ => h₁ k) (Finset.sum_congr rfl fun k _ => h₂ k)

end Cert.SplitSum
-- ==== Proof.StageFuseHost.lean ====
/-
  The reference's spelling of the fusion head, as one term over whole arrays, and the proof that the term is the
  specification's array.

  The reference lays the two normalised branch arrays, the absolute value of their difference and their product side
  by side (four blocks of 64 columns, 256 in all) and multiplies by one 256 × 64 weight matrix. A contraction over 256
  positions is the sum of the four contractions over 64 positions each, the k-th against rows 64·k … 64·k + 63 of the
  weights: addition of extended reals is commutative and associative, so the regrouping needs no finiteness. The bias
  vectors are laid along every row, the leaky rectifier is a comparison against the zero splat and a choice, and the
  logistic function is written out as 1 / (1 + exp(−v)) with the ones as the float word of 1.0, which is the logistic
  function on every extended real.
-/
import proofs.«107288_j13769665151544_2_alg».proof.Proof.StageHost
import proofs.«107288_j13769665151544_2_alg».proof.Proof.FuseSpec
import proofs.«107288_j13769665151544_2_alg».proof.Proof.LibMatmulAt
import proofs.«107288_j13769665151544_2_alg».proof.Proof.LibLogisticForm
import proofs.«107288_j13769665151544_2_alg».proof.Proof.LibSplitSum

noncomputable section

open scoped BigOperators

namespace Cert.Stage

open Cert.ReferenceIdeal Cert.ReferenceIdeal.Facts₀ Idealize.ShloMosaic Idealize.ShloMosaic.ValueIdx Cert.LibRowTiles

/-! ## The reference's term -/

/-- A vector of 129 entries broadcast into a row and then down the rows. -/
def hostRow129 (v : FVec Ideal S129 .f32) : FVec Ideal S100000x129 .f32 :=
  broadcastInDim S100000x129 ![0, 1] bcast_S1x129_S100000x129_0_1 (broadcastInDim S1x129 ![1] bcast_S129_S1x129_1 v)

/-- A one-entry vector broadcast into a one-entry matrix and then to every entry. -/
def hostOne (a : FVec Ideal S1 .f32) : FVec Ideal S100000x64 .f32 :=
  broadcastInDim S100000x64 ![0, 1] bcast_S1x1_S100000x64_0_1 (broadcastInDim S1x1 ![1] bcast_S1_S1x1_1 a)

/-- A float word splat over the whole array. -/
def hostSplat (w : BitVec 32) : FVec Ideal S100000x64 .f32 :=
  broadcastInDim S100000x64 ![] bcast_S_S100000x64 (constant (F := Ideal) S_ .f32 w)

/-- The two arrays, the absolute value of their difference and their product, side by side. -/
def catHost (h1 h2 : FVec Ideal S100000x64 .f32) : FVec Ideal S100000x256 .f32 :=
  concatenate S100000x256 1 [⟨S100000x64, h1⟩, ⟨S100000x64, h2⟩, ⟨S100000x64, Host.absf (subf h1 h2)⟩, ⟨S100000x64, mulf h1 h2⟩]
    concatenates_S100000x64_S100000x64_S100000x64_S100000x64_S100000x256_d1

/-- The mixed array: the side-by-side array times the 256 × 64 weights, plus the bias row. -/
def mixHost (h1 h2 : FVec Ideal S100000x64 .f32) (gW1 : FVec Ideal S256x64 .f32) (gb1 : FVec Ideal S64 .f32) :
    FVec Ideal S100000x64 .f32 :=
  addf (Host.dotGeneral dot_S100000x256_S256x64_S100000x64_1_0_0_1_n_n none (catHost h1 h2) gW1) (hostRow gb1)

/-- The leaky rectifier of a whole array. -/
def actHost (z : FVec Ideal S100000x64 .f32) (a : FVec Ideal S1 .f32) : FVec Ideal S100000x64 .f32 :=
  select (cmpf .ogt z (hostSplat 0x00000000#32)) z (mulf (hostOne a) z)

/-- The gate: the logistic function, written out, of the affine map of the rectified array. -/
def gateHost (z : FVec Ideal S100000x64 .f32) (gW2 : FVec Ideal S64x64 .f32) (gb2 : FVec Ideal S64 .f32) :
    FVec Ideal S100000x64 .f32 :=
  Host.divf (hostSplat 0x3F800000#32) (addf (hostSplat 0x3F800000#32)
    (Host.exp (Host.negf (addf (Host.dotGeneral dot_S100000x64_S64x64_S100000x64_1_0_0_1_n_n none z gW2) (hostRow gb2)))))

/-- The reference's fusion head of the two normalised branch arrays. -/
def fuseHost (h1 h2 : FVec Ideal S100000x64 .f32) (gW1 : FVec Ideal S256x64 .f32) (gb1 : FVec Ideal S64 .f32)
    (a : FVec Ideal S1 .f32) (gW2 : FVec Ideal S64x64 .f32) (gb2 : FVec Ideal S64 .f32) (fcW : FVec Ideal S64x129 .f32)
    (fcb : FVec Ideal S129 .f32) : FVec Ideal S100000x129 .f32 :=
  addf (Host.dotGeneral dot_S100000x64_S64x129_S100000x129_1_0_0_1_n_n none
      (addf (mulf (gateHost (actHost (mixHost h1 h2 gW1 gb1) a) gW2 gb2) h1)
        (mulf (subf (hostSplat 0x3F800000#32) (gateHost (actHost (mixHost h1 h2 gW1 gb1) a) gW2 gb2)) h2)) fcW)
    (hostRow129 fcb)

/-! ## Layout operations at an entry -/

theorem hostRow129_at (v : FVec Ideal S129 .f32) (r : Fin 100000) (q : Fin 129) : hostRow129 v (ix2 r q) = v (ix1 q) :=
  hostRow_apply v bcast_S129_S1x129_1 bcast_S1x129_S100000x129_0_1 (ix2 r q)

theorem hostOne_at (a : FVec Ideal S1 .f32) (r : Fin 100000) (q : Fin 64) : hostOne a (ix2 r q) = a (ix1 (0 : Fin 1)) := by
  unfold hostOne
  refine (broadcastInDim_apply ![0, 1] bcast_S1x1_S100000x64_0_1 _ (ix2 r q) (ix2 (0 : Fin 1) (0 : Fin 1)) ?_).trans ?_
  · intro b
    match b with
    | ⟨0, _⟩ => rfl
    | ⟨1, _⟩ => rfl
  · refine broadcastInDim_apply ![1] bcast_S1_S1x1_1 a (ix2 (0 : Fin 1) (0 : Fin 1)) (ix1 (0 : Fin 1)) ?_
    intro b
    match b with
    | ⟨0, _⟩ => rfl

theorem hostSplat_at (w : BitVec 32) (i : S100000x64.Idx) : hostSplat w i = Ideal.ofBits .f32 w := rfl

/-- A sum over 256 positions is the sum of the four sums over 64 consecutive positions each. -/
theorem sum_fin_four {M : Type*} [AddCommMonoid M] (f : Fin 256 → M) :
    ∑ k : Fin 256, f k
      = (∑ k : Fin 64, f ⟨k.val, by have := k.isLt; omega⟩) + (∑ k : Fin 64, f ⟨64 + k.val, by have := k.isLt; omega⟩)
        + (∑ k : Fin 64, f ⟨128 + k.val, by have := k.isLt; omega⟩) + (∑ k : Fin 64, f ⟨192 + k.val, by have := k.isLt; omega⟩) := by
  rw [Cert.SplitSum.sum_fin_split (a := 128) (b := 128) rfl f,
    Cert.SplitSum.sum_fin_split (a := 64) (b := 64) rfl (fun k : Fin 128 => f ⟨k.val, by have := k.isLt; omega⟩),
    Cert.SplitSum.sum_fin_split (a := 64) (b := 64) rfl (fun k : Fin 128 => f ⟨128 + k.val, by have := k.isLt; omega⟩),
    ← add_assoc]
  refine congrArg₂ (· + ·) rfl (Finset.sum_congr rfl fun k _ => congrArg f (Fin.ext ?_))
  show 128 + (64 + k.val) = 192 + k.val
  omega

/-- The side-by-side array at row r and column 64·n + k is the n-th piece at (r, k). -/
theorem catHost_at (h1 h2 : FVec Ideal S100000x64 .f32) (r : Fin 100000) (k : Fin 64) :
    catHost h1 h2 (ix2 r (⟨k.val, by have := k.isLt; omega⟩ : Fin 256)) = h1 (ix2 r k)
    ∧ catHost h1 h2 (ix2 r (⟨64 + k.val, by have := k.isLt; omega⟩ : Fin 256)) = h2 (ix2 r k)
    ∧ catHost h1 h2 (ix2 r (⟨128 + k.val, by have := k.isLt; omega⟩ : Fin 256))
        = max (h1 (ix2 r k) - h2 (ix2 r k)) (-(h1 (ix2 r k) - h2 (ix2 r k)))
    ∧ catHost h1 h2 (ix2 r (⟨192 + k.val, by have := k.isLt; omega⟩ : Fin 256)) = h1 (ix2 r k) * h2 (ix2 r k) := by
  have hi : ∀ (j : S100000x256.Idx), (j 0).val = r.val →
      ∀ b : Fin S100000x64.rank, b.cast (rfl : S100000x64.rank = S100000x256.rank) ≠ (1 : Fin S100000x256.rank) →
        ((ix2 r k : S100000x64.Idx) b).val = (j (b.cast rfl)).val := by
    intro j hj b hb
    match b with
    | ⟨0, _⟩ => exact hj.symm
    | ⟨1, _⟩ => exact absurd rfl hb
  refine ⟨?_, ?_, ?_, ?_⟩
  · exact concatenate_apply_piece (1 : Fin S100000x256.rank) _ _ _ 0 (by show (0 : ℕ) < 4; omega) S100000x64 h1 rfl rfl 0 rfl (ix2 r k)
      (hi _ rfl) (by show 0 + k.val = k.val; omega)
  · exact concatenate_apply_piece (1 : Fin S100000x256.rank) _ _ _ 1 (by show (1 : ℕ) < 4; omega) S100000x64 h2 rfl rfl 64 rfl (ix2 r k)
      (hi _ rfl) rfl
  · exact concatenate_apply_piece (1 : Fin S100000x256.rank) _ _ _ 2 (by show (2 : ℕ) < 4; omega) S100000x64 (Host.absf (subf h1 h2)) rfl rfl 128 rfl
      (ix2 r k) (hi _ rfl) rfl
  · exact concatenate_apply_piece (1 : Fin S100000x256.rank) _ _ _ 3 (by show (3 : ℕ) < 4; omega) S100000x64 (mulf h1 h2) rfl rfl 192 rfl
      (ix2 r k) (hi _ rfl) rfl

/-- Block n of the 256 × 64 weights, cut out as a 64 × 64 matrix, at (k, q), is the weights at (off + k, q). -/
theorem sliceRows_at (off : Nat) (gW1 : FVec Ideal S256x64 .f32) (hs : S256x64.Slices ![off, 0] S64x64) (k : Fin 64) (q : Fin 64)
    (k' : Fin 256) (hk : k'.val = off + k.val) :
    extractStridedSlice S64x64 ![off, 0] gW1 hs (ix2 k q) = gW1 (ix2 k' q) := by
  refine extractStridedSlice_apply ![off, 0] gW1 hs (ix2 k q) (ix2 k' q) ?_
  intro b
  match b with
  | ⟨0, _⟩ => exact hk
  | ⟨1, _⟩ => show q.val = 0 + q.val; omega

/-! ## The stages at an entry -/

/-- The mixed array at (r, q) is the specification's mixed row of rows r, with the four blocks of the weights and the bias
    recast as a row. -/
theorem mixHost_at (hs0 : S256x64.Slices ![0, 0] S64x64) (hs1 : S256x64.Slices ![64, 0] S64x64)
    (hs2 : S256x64.Slices ![128, 0] S64x64) (hs3 : S256x64.Slices ![192, 0] S64x64) (h1H : S64.ShapeCasts S1x64)
    (h1 h2 : FVec Ideal S100000x64 .f32) (gW1 : FVec Ideal S256x64 .f32) (gb1 : FVec Ideal S64 .f32) (r : Fin 100000) (q : Fin 64) :
    mixHost h1 h2 gW1 gb1 (ix2 r q)
      = mixRow (rowOf h1 r) (rowOf h2 r) (extractStridedSlice S64x64 ![0, 0] gW1 hs0) (extractStridedSlice S64x64 ![64, 0] gW1 hs1)
          (extractStridedSlice S64x64 ![128, 0] gW1 hs2) (extractStridedSlice S64x64 ![192, 0] gW1 hs3) (shapeCast S1x64 gb1 h1H) q := by
  unfold mixHost mixRow rowMul
  refine (addf_apply _ _ _).trans ?_
  refine congrArg₂ (· + ·) ?_ ((hostRow_at gb1 r q).trans (castRow_apply gb1 h1H q).symm)
  refine (Cert.KernelIdeal.Hand.dotGeneral_plain_apply' _ rfl none (catHost h1 h2) gW1 (ix2 r q)).trans ?_
  refine (sum_fin_four _).trans ?_
  refine congrArg₂ (· + ·) (congrArg₂ (· + ·) (congrArg₂ (· + ·) ?_ ?_) ?_) ?_
  · refine Finset.sum_congr rfl fun k _ => ?_
    exact congrArg₂ (· * ·) (catHost_at h1 h2 r k).1 (sliceRows_at 0 gW1 hs0 k q _ (by show k.val = 0 + k.val; omega)).symm
  · refine Finset.sum_congr rfl fun k _ => ?_
    exact congrArg₂ (· * ·) (catHost_at h1 h2 r k).2.1 (sliceRows_at 64 gW1 hs1 k q _ rfl).symm
  · refine Finset.sum_congr rfl fun k _ => ?_
    exact congrArg₂ (· * ·) (catHost_at h1 h2 r k).2.2.1 (sliceRows_at 128 gW1 hs2 k q _ rfl).symm
  · refine Finset.sum_congr rfl fun k _ => ?_
    exact congrArg₂ (· * ·) (catHost_at h1 h2 r k).2.2.2 (sliceRows_at 192 gW1 hs3 k q _ rfl).symm

/-- The rectified array at (r, q). -/
theorem actHost_at (h11 : S1.ShapeCasts S1x1) (z : FVec Ideal S100000x64 .f32) (a : FVec Ideal S1 .f32) (r : Fin 100000) (q : Fin 64) :
    actHost z a (ix2 r q) = leakAt (shapeCast S1x1 a h11 (ix2 (0 : Fin 1) (0 : Fin 1))) (z (ix2 r q)) := by
  unfold actHost leakAt
  show Scalar.select (Ideal.cmp .ogt (z (ix2 r q)) zeroW) (z (ix2 r q)) (hostOne a (ix2 r q) * z (ix2 r q)) = _
  rw [hostOne_at, castRow_apply a h11 (0 : Fin 1)]

/-- The gate at (r, q): the logistic function of row r of the rectified array times the weights plus the bias. -/
theorem gateHost_at (h1H : S64.ShapeCasts S1x64) (z : FVec Ideal S100000x64 .f32) (gW2 : FVec Ideal S64x64 .f32)
    (gb2 : FVec Ideal S64 .f32) (r : Fin 100000) (q : Fin 64) :
    gateHost z gW2 gb2 (ix2 r q) = gateRow (rowOf z r) gW2 (shapeCast S1x64 gb2 h1H) q := by
  unfold gateHost gateRow rowMul
  show Ideal.div (Ideal.ofBits .f32 0x3F800000#32) (Ideal.ofBits .f32 0x3F800000#32
      + Ideal.exp (-(Host.dotGeneral dot_S100000x64_S64x64_S100000x64_1_0_0_1_n_n none z gW2 (ix2 r q) + hostRow gb2 (ix2 r q)))) = _
  rw [Cert.LogisticForm.logistic_spelt,
    Cert.KernelIdeal.Hand.dotGeneral_plain_apply' dot_S100000x64_S64x64_S100000x64_1_0_0_1_n_n rfl none z gW2 (ix2 r q), hostRow_at,
    castRow_apply gb2 h1H q]

/-! ## The head -/

/-- THE REFERENCE'S FUSION HEAD of the two batch-normalised branch arrays is the specification's array of the raw branch
    arrays, the statistics and parameters recast as rows, the four 64-row blocks of the first weights, the slope as a
    one-entry matrix and the last bias as a row. -/
theorem fuseHost_eq (h1H : S64.ShapeCasts S1x64) (h11 : S1.ShapeCasts S1x1) (h129 : S129.ShapeCasts S1x129)
    (hs0 : S256x64.Slices ![0, 0] S64x64) (hs1 : S256x64.Slices ![64, 0] S64x64)
    (hs2 : S256x64.Slices ![128, 0] S64x64) (hs3 : S256x64.Slices ![192, 0] S64x64)
    (y1 y2 : FVec Ideal S100000x64 .f32) (mu1 var1 g1 bt1 mu2 var2 g2 bt2 : FVec Ideal S64 .f32)
    (gW1 : FVec Ideal S256x64 .f32) (gb1 : FVec Ideal S64 .f32) (a : FVec Ideal S1 .f32) (gW2 : FVec Ideal S64x64 .f32)
    (gb2 : FVec Ideal S64 .f32) (fcW : FVec Ideal S64x129 .f32) (fcb : FVec Ideal S129 .f32) :
    fuseHost (bnHost y1 mu1 var1 g1 bt1) (bnHost y2 mu2 var2 g2 bt2) gW1 gb1 a gW2 gb2 fcW fcb
      = fuseG y1 y2 (shapeCast S1x64 mu1 h1H) (shapeCast S1x64 var1 h1H) (shapeCast S1x64 g1 h1H) (shapeCast S1x64 bt1 h1H)
          (shapeCast S1x64 mu2 h1H) (shapeCast S1x64 var2 h1H) (shapeCast S1x64 g2 h1H) (shapeCast S1x64 bt2 h1H)
          (extractStridedSlice S64x64 ![0, 0] gW1 hs0) (extractStridedSlice S64x64 ![64, 0] gW1 hs1)
          (extractStridedSlice S64x64 ![128, 0] gW1 hs2) (extractStridedSlice S64x64 ![192, 0] gW1 hs3)
          (shapeCast S1x64 gb1 h1H) (shapeCast S1x1 a h11) gW2 (shapeCast S1x64 gb2 h1H) fcW (shapeCast S1x129 fcb h129) := by
  funext i
  obtain ⟨r, q, rfl⟩ : ∃ (r : Fin 100000) (q : Fin 129), i = ix2 r q := ⟨i 0, i 1, eq_ix2 i⟩
  rw [fuseG_apply]
  -- the normalised rows
  have e1 : rowOf (bnHost y1 mu1 var1 g1 bt1) r
      = bnRow (rowOf y1 r) (shapeCast S1x64 mu1 h1H) (shapeCast S1x64 var1 h1H) (shapeCast S1x64 g1 h1H) (shapeCast S1x64 bt1 h1H) := by
    funext k; show bnHost y1 mu1 var1 g1 bt1 (ix2 r k) = _; rw [bnHost_eq h1H]; rfl
  have e2 : rowOf (bnHost y2 mu2 var2 g2 bt2) r
      = bnRow (rowOf y2 r) (shapeCast S1x64 mu2 h1H) (shapeCast S1x64 var2 h1H) (shapeCast S1x64 g2 h1H) (shapeCast S1x64 bt2 h1H) := by
    funext k; show bnHost y2 mu2 var2 g2 bt2 (ix2 r k) = _; rw [bnHost_eq h1H]; rfl
  unfold fuseRow headOfRows
  rw [← e1, ← e2]
  generalize bnHost y1 mu1 var1 g1 bt1 = h1
  generalize bnHost y2 mu2 var2 g2 bt2 = h2
  unfold fuseHost headRow rowMul
  refine (addf_apply _ _ _).trans ?_
  refine congrArg₂ (· + ·) ?_ ((hostRow129_at fcb r q).trans (castRow_apply fcb h129 q).symm)
  refine (Cert.KernelIdeal.Hand.dotGeneral_plain_apply' _ rfl none _ fcW (ix2 r q)).trans ?_
  refine Finset.sum_congr rfl fun k _ => congrArg (· * fcW (ix2 k q)) ?_
  show gateHost (actHost (mixHost h1 h2 gW1 gb1) a) gW2 gb2 (ix2 r k) * h1 (ix2 r k)
      + (Ideal.ofBits .f32 0x3F800000#32 - gateHost (actHost (mixHost h1 h2 gW1 gb1) a) gW2 gb2 (ix2 r k)) * h2 (ix2 r k)
    = blendAt _ (h1 (ix2 r k)) (h2 (ix2 r k))
  rw [gateHost_at h1H]
  have e3 : rowOf (actHost (mixHost h1 h2 gW1 gb1) a) r
      = actRow (rowOf h1 r) (rowOf h2 r) (extractStridedSlice S64x64 ![0, 0] gW1 hs0) (extractStridedSlice S64x64 ![64, 0] gW1 hs1)
          (extractStridedSlice S64x64 ![128, 0] gW1 hs2) (extractStridedSlice S64x64 ![192, 0] gW1 hs3) (shapeCast S1x64 gb1 h1H)
          (shapeCast S1x1 a h11) := by
    funext k'
    show actHost (mixHost h1 h2 gW1 gb1) a (ix2 r k') = _
    rw [actHost_at h11, mixHost_at hs0 hs1 hs2 hs3 h1H]
    rfl
  rw [e3]
  rfl

end Cert.Stage

end
-- ==== Proof.RefStage17.lean ====
/-
  The reference's last piece, read back: from the two normalised branch arrays and the head's parameters, its result
  array is the fusion head's whole-array function.
-/
import proofs.«107288_j13769665151544_2_alg».proof.Proof.RefOps
import proofs.«107288_j13769665151544_2_alg».proof.Proof.LibTypedRef
import proofs.«107288_j13769665151544_2_alg».proof.Proof.RefStage
import proofs.«107288_j13769665151544_2_alg».proof.Proof.StageFuseHost

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Stage

variable (U' : Valuation τ sig (Elt Ideal))

theorem RR17 : after (opsS17 (F := Ideal)) U' (Proc.devRef .tc main_v236) = fuseHost (U' (Proc.devRef .tc main_v101)) (U' (Proc.devRef .tc main_v203)) (U' (Proc.devRef .tc main_arg21)) (U' (Proc.devRef .tc main_arg22)) (U' (Proc.devRef .tc main_arg23)) (U' (Proc.devRef .tc main_arg24)) (U' (Proc.devRef .tc main_arg25)) (U' (Proc.devRef .tc main_arg26)) (U' (Proc.devRef .tc main_arg27)) := by
  rread
  rfl

end Cert.ReferenceIdeal.Hand

end
-- ==== Proof.Bridge.lean ====
/-
  The two idealized programs compute one function. The reference's straight line is cut into seventeen pieces ending
  at the values of the two branches (aggregated features, a layer's output, its column statistics, the normalised and
  rescaled features, …) and the kernel's @main into its seven regions and the host stretches between them. Piece by
  piece, from launch contents that agree on the arguments, the reference's value and the kernel's are shown equal: the
  shared host computations as folds of the same operations, a region against the reference's dense stage by the
  stage's own law, the last region's output against the reference's result.
-/
import proofs.«107288_j13769665151544_2_alg».proof.Proof.Agree
import proofs.«107288_j13769665151544_2_alg».proof.Proof.RefStage
import proofs.«107288_j13769665151544_2_alg».proof.Proof.RefRun
import proofs.«107288_j13769665151544_2_alg».proof.Proof.KerVal
import proofs.«107288_j13769665151544_2_alg».proof.Proof.RefStage17

set_option maxRecDepth 16384

noncomputable section

namespace Cert.Bridge

open Idealize.ShloMosaic Idealize.ShloMosaic.TcCoe Idealize.SL.Sem Idealize.ShloMosaic.StableHlo
open Cert.KernelIdeal.Gen Cert.KernelIdeal.Hand Cert.ReferenceIdeal.Hand Cert.Agree Cert.Stage

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

/-- The reference's buffers at launch. -/
abbrev R0 : Valuation Cert.ReferenceIdeal.τ Cert.ReferenceIdeal.sig (Elt Ideal) := launchContents m' c
/-- The reference's buffers after piece 1. -/
abbrev R1 : Valuation Cert.ReferenceIdeal.τ Cert.ReferenceIdeal.sig (Elt Ideal) := after (opsS1 (F := Ideal)) (R0 m' c)
/-- The reference's buffers after piece 2. -/
abbrev R2 : Valuation Cert.ReferenceIdeal.τ Cert.ReferenceIdeal.sig (Elt Ideal) := after (opsS2 (F := Ideal)) (R1 m' c)
/-- The reference's buffers after piece 3. -/
abbrev R3 : Valuation Cert.ReferenceIdeal.τ Cert.ReferenceIdeal.sig (Elt Ideal) := after (opsS3 (F := Ideal)) (R2 m' c)
/-- The reference's buffers after piece 4. -/
abbrev R4 : Valuation Cert.ReferenceIdeal.τ Cert.ReferenceIdeal.sig (Elt Ideal) := after (opsS4 (F := Ideal)) (R3 m' c)
/-- The reference's buffers after piece 5. -/
abbrev R5 : Valuation Cert.ReferenceIdeal.τ Cert.ReferenceIdeal.sig (Elt Ideal) := after (opsS5 (F := Ideal)) (R4 m' c)
/-- The reference's buffers after piece 6. -/
abbrev R6 : Valuation Cert.ReferenceIdeal.τ Cert.ReferenceIdeal.sig (Elt Ideal) := after (opsS6 (F := Ideal)) (R5 m' c)
/-- The reference's buffers after piece 7. -/
abbrev R7 : Valuation Cert.ReferenceIdeal.τ Cert.ReferenceIdeal.sig (Elt Ideal) := after (opsS7 (F := Ideal)) (R6 m' c)
/-- The reference's buffers after piece 8. -/
abbrev R8 : Valuation Cert.ReferenceIdeal.τ Cert.ReferenceIdeal.sig (Elt Ideal) := after (opsS8 (F := Ideal)) (R7 m' c)
/-- The reference's buffers after piece 9. -/
abbrev R9 : Valuation Cert.ReferenceIdeal.τ Cert.ReferenceIdeal.sig (Elt Ideal) := after (opsS9 (F := Ideal)) (R8 m' c)
/-- The reference's buffers after piece 10. -/
abbrev R10 : Valuation Cert.ReferenceIdeal.τ Cert.ReferenceIdeal.sig (Elt Ideal) := after (opsS10 (F := Ideal)) (R9 m' c)
/-- The reference's buffers after piece 11. -/
abbrev R11 : Valuation Cert.ReferenceIdeal.τ Cert.ReferenceIdeal.sig (Elt Ideal) := after (opsS11 (F := Ideal)) (R10 m' c)
/-- The reference's buffers after piece 12. -/
abbrev R12 : Valuation Cert.ReferenceIdeal.τ Cert.ReferenceIdeal.sig (Elt Ideal) := after (opsS12 (F := Ideal)) (R11 m' c)
/-- The reference's buffers after piece 13. -/
abbrev R13 : Valuation Cert.ReferenceIdeal.τ Cert.ReferenceIdeal.sig (Elt Ideal) := after (opsS13 (F := Ideal)) (R12 m' c)
/-- The reference's buffers after piece 14. -/
abbrev R14 : Valuation Cert.ReferenceIdeal.τ Cert.ReferenceIdeal.sig (Elt Ideal) := after (opsS14 (F := Ideal)) (R13 m' c)
/-- The reference's buffers after piece 15. -/
abbrev R15 : Valuation Cert.ReferenceIdeal.τ Cert.ReferenceIdeal.sig (Elt Ideal) := after (opsS15 (F := Ideal)) (R14 m' c)
/-- The reference's buffers after piece 16. -/
abbrev R16 : Valuation Cert.ReferenceIdeal.τ Cert.ReferenceIdeal.sig (Elt Ideal) := after (opsS16 (F := Ideal)) (R15 m' c)
/-- The reference's buffers after piece 17. -/
abbrev R17 : Valuation Cert.ReferenceIdeal.τ Cert.ReferenceIdeal.sig (Elt Ideal) := after (opsS17 (F := Ideal)) (R16 m' c)

/-- The whole line's fold is the pieces' folds in order. -/
theorem R17_eq : after (Cert.ReferenceIdeal.Hand.ops (F := Ideal)) (R0 m' c) = R17 m' c := by
  simp only [Cert.ReferenceIdeal.Hand.ops, Cert.ReferenceIdeal.Hand.after_append]

set_option maxHeartbeats 4000000 in
/-- The two launch memories agree on the twenty-eight argument arrays. -/
structure Ag : Prop where
  h0 : R0 m' c (Proc.devRef .tc Cert.ReferenceIdeal.main_arg0) = W0 (F := Ideal) m ρ c (Proc.devRef .tc Cert.KernelIdeal.main_arg0)
  h1 : R0 m' c (Proc.devRef .tc Cert.ReferenceIdeal.main_arg1) = W0 (F := Ideal) m ρ c (Proc.devRef .tc Cert.KernelIdeal.main_arg1)
  h2 : R0 m' c (Proc.devRef .tc Cert.ReferenceIdeal.main_arg2) = W0 (F := Ideal) m ρ c (Proc.devRef .tc Cert.KernelIdeal.main_arg2)
  h3 : R0 m' c (Proc.devRef .tc Cert.ReferenceIdeal.main_arg3) = W0 (F := Ideal) m ρ c (Proc.devRef .tc Cert.KernelIdeal.main_arg3)
  h4 : R0 m' c (Proc.devRef .tc Cert.ReferenceIdeal.main_arg4) = W0 (F := Ideal) m ρ c (Proc.devRef .tc Cert.KernelIdeal.main_arg4)
  h5 : R0 m' c (Proc.devRef .tc Cert.ReferenceIdeal.main_arg5) = W0 (F := Ideal) m ρ c (Proc.devRef .tc Cert.KernelIdeal.main_arg5)
  h6 : R0 m' c (Proc.devRef .tc Cert.ReferenceIdeal.main_arg6) = W0 (F := Ideal) m ρ c (Proc.devRef .tc Cert.KernelIdeal.main_arg6)
  h7 : R0 m' c (Proc.devRef .tc Cert.ReferenceIdeal.main_arg7) = W0 (F := Ideal) m ρ c (Proc.devRef .tc Cert.KernelIdeal.main_arg7)
  h8 : R0 m' c (Proc.devRef .tc Cert.ReferenceIdeal.main_arg8) = W0 (F := Ideal) m ρ c (Proc.devRef .tc Cert.KernelIdeal.main_arg8)
  h9 : R0 m' c (Proc.devRef .tc Cert.ReferenceIdeal.main_arg9) = W0 (F := Ideal) m ρ c (Proc.devRef .tc Cert.KernelIdeal.main_arg9)
  h10 : R0 m' c (Proc.devRef .tc Cert.ReferenceIdeal.main_arg10) = W0 (F := Ideal) m ρ c (Proc.devRef .tc Cert.KernelIdeal.main_arg10)
  h11 : R0 m' c (Proc.devRef .tc Cert.ReferenceIdeal.main_arg11) = W0 (F := Ideal) m ρ c (Proc.devRef .tc Cert.KernelIdeal.main_arg11)
  h12 : R0 m' c (Proc.devRef .tc Cert.ReferenceIdeal.main_arg12) = W0 (F := Ideal) m ρ c (Proc.devRef .tc Cert.KernelIdeal.main_arg12)
  h13 : R0 m' c (Proc.devRef .tc Cert.ReferenceIdeal.main_arg13) = W0 (F := Ideal) m ρ c (Proc.devRef .tc Cert.KernelIdeal.main_arg13)
  h14 : R0 m' c (Proc.devRef .tc Cert.ReferenceIdeal.main_arg14) = W0 (F := Ideal) m ρ c (Proc.devRef .tc Cert.KernelIdeal.main_arg14)
  h15 : R0 m' c (Proc.devRef .tc Cert.ReferenceIdeal.main_arg15) = W0 (F := Ideal) m ρ c (Proc.devRef .tc Cert.KernelIdeal.main_arg15)
  h16 : R0 m' c (Proc.devRef .tc Cert.ReferenceIdeal.main_arg16) = W0 (F := Ideal) m ρ c (Proc.devRef .tc Cert.KernelIdeal.main_arg16)
  h17 : R0 m' c (Proc.devRef .tc Cert.ReferenceIdeal.main_arg17) = W0 (F := Ideal) m ρ c (Proc.devRef .tc Cert.KernelIdeal.main_arg17)
  h18 : R0 m' c (Proc.devRef .tc Cert.ReferenceIdeal.main_arg18) = W0 (F := Ideal) m ρ c (Proc.devRef .tc Cert.KernelIdeal.main_arg18)
  h19 : R0 m' c (Proc.devRef .tc Cert.ReferenceIdeal.main_arg19) = W0 (F := Ideal) m ρ c (Proc.devRef .tc Cert.KernelIdeal.main_arg19)
  h20 : R0 m' c (Proc.devRef .tc Cert.ReferenceIdeal.main_arg20) = W0 (F := Ideal) m ρ c (Proc.devRef .tc Cert.KernelIdeal.main_arg20)
  h21 : R0 m' c (Proc.devRef .tc Cert.ReferenceIdeal.main_arg21) = W0 (F := Ideal) m ρ c (Proc.devRef .tc Cert.KernelIdeal.main_arg21)
  h22 : R0 m' c (Proc.devRef .tc Cert.ReferenceIdeal.main_arg22) = W0 (F := Ideal) m ρ c (Proc.devRef .tc Cert.KernelIdeal.main_arg22)
  h23 : R0 m' c (Proc.devRef .tc Cert.ReferenceIdeal.main_arg23) = W0 (F := Ideal) m ρ c (Proc.devRef .tc Cert.KernelIdeal.main_arg23)
  h24 : R0 m' c (Proc.devRef .tc Cert.ReferenceIdeal.main_arg24) = W0 (F := Ideal) m ρ c (Proc.devRef .tc Cert.KernelIdeal.main_arg24)
  h25 : R0 m' c (Proc.devRef .tc Cert.ReferenceIdeal.main_arg25) = W0 (F := Ideal) m ρ c (Proc.devRef .tc Cert.KernelIdeal.main_arg25)
  h26 : R0 m' c (Proc.devRef .tc Cert.ReferenceIdeal.main_arg26) = W0 (F := Ideal) m ρ c (Proc.devRef .tc Cert.KernelIdeal.main_arg26)
  h27 : R0 m' c (Proc.devRef .tc Cert.ReferenceIdeal.main_arg27) = W0 (F := Ideal) m ρ c (Proc.devRef .tc Cert.KernelIdeal.main_arg27)

variable {m ρ m' c}

theorem R1_arg5 : R1 m' c (Proc.devRef .tc Cert.ReferenceIdeal.main_arg5) = R0 m' c (Proc.devRef .tc Cert.ReferenceIdeal.main_arg5) :=
  (kept_S1 _ (by decide))

theorem R1_arg6 : R1 m' c (Proc.devRef .tc Cert.ReferenceIdeal.main_arg6) = R0 m' c (Proc.devRef .tc Cert.ReferenceIdeal.main_arg6) :=
  (kept_S1 _ (by decide))

theorem R1_arg7 : R1 m' c (Proc.devRef .tc Cert.ReferenceIdeal.main_arg7) = R0 m' c (Proc.devRef .tc Cert.ReferenceIdeal.main_arg7) :=
  (kept_S1 _ (by decide))

theorem R2_arg7 : R2 m' c (Proc.devRef .tc Cert.ReferenceIdeal.main_arg7) = R0 m' c (Proc.devRef .tc Cert.ReferenceIdeal.main_arg7) :=
  (kept_S2 _ (by decide)).trans R1_arg7

theorem R3_arg7 : R3 m' c (Proc.devRef .tc Cert.ReferenceIdeal.main_arg7) = R0 m' c (Proc.devRef .tc Cert.ReferenceIdeal.main_arg7) :=
  (kept_S3 _ (by decide)).trans R2_arg7

theorem R1_arg8 : R1 m' c (Proc.devRef .tc Cert.ReferenceIdeal.main_arg8) = R0 m' c (Proc.devRef .tc Cert.ReferenceIdeal.main_arg8) :=
  (kept_S1 _ (by decide))

theorem R2_arg8 : R2 m' c (Proc.devRef .tc Cert.ReferenceIdeal.main_arg8) = R0 m' c (Proc.devRef .tc Cert.ReferenceIdeal.main_arg8) :=
  (kept_S2 _ (by decide)).trans R1_arg8

theorem R3_arg8 : R3 m' c (Proc.devRef .tc Cert.ReferenceIdeal.main_arg8) = R0 m' c (Proc.devRef .tc Cert.ReferenceIdeal.main_arg8) :=
  (kept_S3 _ (by decide)).trans R2_arg8

theorem R1_arg1 : R1 m' c (Proc.devRef .tc Cert.ReferenceIdeal.main_arg1) = R0 m' c (Proc.devRef .tc Cert.ReferenceIdeal.main_arg1) :=
  (kept_S1 _ (by decide))

theorem R2_arg1 : R2 m' c (Proc.devRef .tc Cert.ReferenceIdeal.main_arg1) = R0 m' c (Proc.devRef .tc Cert.ReferenceIdeal.main_arg1) :=
  (kept_S2 _ (by decide)).trans R1_arg1

theorem R3_arg1 : R3 m' c (Proc.devRef .tc Cert.ReferenceIdeal.main_arg1) = R0 m' c (Proc.devRef .tc Cert.ReferenceIdeal.main_arg1) :=
  (kept_S3 _ (by decide)).trans R2_arg1

theorem R1_arg2 : R1 m' c (Proc.devRef .tc Cert.ReferenceIdeal.main_arg2) = R0 m' c (Proc.devRef .tc Cert.ReferenceIdeal.main_arg2) :=
  (kept_S1 _ (by decide))

theorem R2_arg2 : R2 m' c (Proc.devRef .tc Cert.ReferenceIdeal.main_arg2) = R0 m' c (Proc.devRef .tc Cert.ReferenceIdeal.main_arg2) :=
  (kept_S2 _ (by decide)).trans R1_arg2

theorem R3_arg2 : R3 m' c (Proc.devRef .tc Cert.ReferenceIdeal.main_arg2) = R0 m' c (Proc.devRef .tc Cert.ReferenceIdeal.main_arg2) :=
  (kept_S3 _ (by decide)).trans R2_arg2

theorem R4_arg1 : R4 m' c (Proc.devRef .tc Cert.ReferenceIdeal.main_arg1) = R0 m' c (Proc.devRef .tc Cert.ReferenceIdeal.main_arg1) :=
  (kept_S4 _ (by decide)).trans R3_arg1

theorem R4_arg2 : R4 m' c (Proc.devRef .tc Cert.ReferenceIdeal.main_arg2) = R0 m' c (Proc.devRef .tc Cert.ReferenceIdeal.main_arg2) :=
  (kept_S4 _ (by decide)).trans R3_arg2

theorem R1_arg9 : R1 m' c (Proc.devRef .tc Cert.ReferenceIdeal.main_arg9) = R0 m' c (Proc.devRef .tc Cert.ReferenceIdeal.main_arg9) :=
  (kept_S1 _ (by decide))

theorem R2_arg9 : R2 m' c (Proc.devRef .tc Cert.ReferenceIdeal.main_arg9) = R0 m' c (Proc.devRef .tc Cert.ReferenceIdeal.main_arg9) :=
  (kept_S2 _ (by decide)).trans R1_arg9

theorem R3_arg9 : R3 m' c (Proc.devRef .tc Cert.ReferenceIdeal.main_arg9) = R0 m' c (Proc.devRef .tc Cert.ReferenceIdeal.main_arg9) :=
  (kept_S3 _ (by decide)).trans R2_arg9

theorem R4_arg9 : R4 m' c (Proc.devRef .tc Cert.ReferenceIdeal.main_arg9) = R0 m' c (Proc.devRef .tc Cert.ReferenceIdeal.main_arg9) :=
  (kept_S4 _ (by decide)).trans R3_arg9

theorem R5_arg9 : R5 m' c (Proc.devRef .tc Cert.ReferenceIdeal.main_arg9) = R0 m' c (Proc.devRef .tc Cert.ReferenceIdeal.main_arg9) :=
  (kept_S5 _ (by decide)).trans R4_arg9

theorem R1_arg10 : R1 m' c (Proc.devRef .tc Cert.ReferenceIdeal.main_arg10) = R0 m' c (Proc.devRef .tc Cert.ReferenceIdeal.main_arg10) :=
  (kept_S1 _ (by decide))

theorem R2_arg10 : R2 m' c (Proc.devRef .tc Cert.ReferenceIdeal.main_arg10) = R0 m' c (Proc.devRef .tc Cert.ReferenceIdeal.main_arg10) :=
  (kept_S2 _ (by decide)).trans R1_arg10

theorem R3_arg10 : R3 m' c (Proc.devRef .tc Cert.ReferenceIdeal.main_arg10) = R0 m' c (Proc.devRef .tc Cert.ReferenceIdeal.main_arg10) :=
  (kept_S3 _ (by decide)).trans R2_arg10

theorem R4_arg10 : R4 m' c (Proc.devRef .tc Cert.ReferenceIdeal.main_arg10) = R0 m' c (Proc.devRef .tc Cert.ReferenceIdeal.main_arg10) :=
  (kept_S4 _ (by decide)).trans R3_arg10

theorem R5_arg10 : R5 m' c (Proc.devRef .tc Cert.ReferenceIdeal.main_arg10) = R0 m' c (Proc.devRef .tc Cert.ReferenceIdeal.main_arg10) :=
  (kept_S5 _ (by decide)).trans R4_arg10

theorem R1_arg11 : R1 m' c (Proc.devRef .tc Cert.ReferenceIdeal.main_arg11) = R0 m' c (Proc.devRef .tc Cert.ReferenceIdeal.main_arg11) :=
  (kept_S1 _ (by decide))

theorem R2_arg11 : R2 m' c (Proc.devRef .tc Cert.ReferenceIdeal.main_arg11) = R0 m' c (Proc.devRef .tc Cert.ReferenceIdeal.main_arg11) :=
  (kept_S2 _ (by decide)).trans R1_arg11

theorem R3_arg11 : R3 m' c (Proc.devRef .tc Cert.ReferenceIdeal.main_arg11) = R0 m' c (Proc.devRef .tc Cert.ReferenceIdeal.main_arg11) :=
  (kept_S3 _ (by decide)).trans R2_arg11

theorem R4_arg11 : R4 m' c (Proc.devRef .tc Cert.ReferenceIdeal.main_arg11) = R0 m' c (Proc.devRef .tc Cert.ReferenceIdeal.main_arg11) :=
  (kept_S4 _ (by decide)).trans R3_arg11

theorem R5_arg11 : R5 m' c (Proc.devRef .tc Cert.ReferenceIdeal.main_arg11) = R0 m' c (Proc.devRef .tc Cert.ReferenceIdeal.main_arg11) :=
  (kept_S5 _ (by decide)).trans R4_arg11

theorem R6_arg11 : R6 m' c (Proc.devRef .tc Cert.ReferenceIdeal.main_arg11) = R0 m' c (Proc.devRef .tc Cert.ReferenceIdeal.main_arg11) :=
  (kept_S6 _ (by decide)).trans R5_arg11

theorem R7_arg11 : R7 m' c (Proc.devRef .tc Cert.ReferenceIdeal.main_arg11) = R0 m' c (Proc.devRef .tc Cert.ReferenceIdeal.main_arg11) :=
  (kept_S7 _ (by decide)).trans R6_arg11

theorem R1_arg12 : R1 m' c (Proc.devRef .tc Cert.ReferenceIdeal.main_arg12) = R0 m' c (Proc.devRef .tc Cert.ReferenceIdeal.main_arg12) :=
  (kept_S1 _ (by decide))

theorem R2_arg12 : R2 m' c (Proc.devRef .tc Cert.ReferenceIdeal.main_arg12) = R0 m' c (Proc.devRef .tc Cert.ReferenceIdeal.main_arg12) :=
  (kept_S2 _ (by decide)).trans R1_arg12

theorem R3_arg12 : R3 m' c (Proc.devRef .tc Cert.ReferenceIdeal.main_arg12) = R0 m' c (Proc.devRef .tc Cert.ReferenceIdeal.main_arg12) :=
  (kept_S3 _ (by decide)).trans R2_arg12

theorem R4_arg12 : R4 m' c (Proc.devRef .tc Cert.ReferenceIdeal.main_arg12) = R0 m' c (Proc.devRef .tc Cert.ReferenceIdeal.main_arg12) :=
  (kept_S4 _ (by decide)).trans R3_arg12

theorem R5_arg12 : R5 m' c (Proc.devRef .tc Cert.ReferenceIdeal.main_arg12) = R0 m' c (Proc.devRef .tc Cert.ReferenceIdeal.main_arg12) :=
  (kept_S5 _ (by decide)).trans R4_arg12

theorem R6_arg12 : R6 m' c (Proc.devRef .tc Cert.ReferenceIdeal.main_arg12) = R0 m' c (Proc.devRef .tc Cert.ReferenceIdeal.main_arg12) :=
  (kept_S6 _ (by decide)).trans R5_arg12

theorem R7_arg12 : R7 m' c (Proc.devRef .tc Cert.ReferenceIdeal.main_arg12) = R0 m' c (Proc.devRef .tc Cert.ReferenceIdeal.main_arg12) :=
  (kept_S7 _ (by decide)).trans R6_arg12

theorem R1_arg0 : R1 m' c (Proc.devRef .tc Cert.ReferenceIdeal.main_arg0) = R0 m' c (Proc.devRef .tc Cert.ReferenceIdeal.main_arg0) :=
  (kept_S1 _ (by decide))

theorem R2_arg0 : R2 m' c (Proc.devRef .tc Cert.ReferenceIdeal.main_arg0) = R0 m' c (Proc.devRef .tc Cert.ReferenceIdeal.main_arg0) :=
  (kept_S2 _ (by decide)).trans R1_arg0

theorem R3_arg0 : R3 m' c (Proc.devRef .tc Cert.ReferenceIdeal.main_arg0) = R0 m' c (Proc.devRef .tc Cert.ReferenceIdeal.main_arg0) :=
  (kept_S3 _ (by decide)).trans R2_arg0

theorem R4_arg0 : R4 m' c (Proc.devRef .tc Cert.ReferenceIdeal.main_arg0) = R0 m' c (Proc.devRef .tc Cert.ReferenceIdeal.main_arg0) :=
  (kept_S4 _ (by decide)).trans R3_arg0

theorem R5_arg0 : R5 m' c (Proc.devRef .tc Cert.ReferenceIdeal.main_arg0) = R0 m' c (Proc.devRef .tc Cert.ReferenceIdeal.main_arg0) :=
  (kept_S5 _ (by decide)).trans R4_arg0

theorem R6_arg0 : R6 m' c (Proc.devRef .tc Cert.ReferenceIdeal.main_arg0) = R0 m' c (Proc.devRef .tc Cert.ReferenceIdeal.main_arg0) :=
  (kept_S6 _ (by decide)).trans R5_arg0

theorem R7_arg0 : R7 m' c (Proc.devRef .tc Cert.ReferenceIdeal.main_arg0) = R0 m' c (Proc.devRef .tc Cert.ReferenceIdeal.main_arg0) :=
  (kept_S7 _ (by decide)).trans R6_arg0

theorem R8_arg0 : R8 m' c (Proc.devRef .tc Cert.ReferenceIdeal.main_arg0) = R0 m' c (Proc.devRef .tc Cert.ReferenceIdeal.main_arg0) :=
  (kept_S8 _ (by decide)).trans R7_arg0

theorem R1_arg3 : R1 m' c (Proc.devRef .tc Cert.ReferenceIdeal.main_arg3) = R0 m' c (Proc.devRef .tc Cert.ReferenceIdeal.main_arg3) :=
  (kept_S1 _ (by decide))

theorem R2_arg3 : R2 m' c (Proc.devRef .tc Cert.ReferenceIdeal.main_arg3) = R0 m' c (Proc.devRef .tc Cert.ReferenceIdeal.main_arg3) :=
  (kept_S2 _ (by decide)).trans R1_arg3

theorem R3_arg3 : R3 m' c (Proc.devRef .tc Cert.ReferenceIdeal.main_arg3) = R0 m' c (Proc.devRef .tc Cert.ReferenceIdeal.main_arg3) :=
  (kept_S3 _ (by decide)).trans R2_arg3

theorem R4_arg3 : R4 m' c (Proc.devRef .tc Cert.ReferenceIdeal.main_arg3) = R0 m' c (Proc.devRef .tc Cert.ReferenceIdeal.main_arg3) :=
  (kept_S4 _ (by decide)).trans R3_arg3

theorem R5_arg3 : R5 m' c (Proc.devRef .tc Cert.ReferenceIdeal.main_arg3) = R0 m' c (Proc.devRef .tc Cert.ReferenceIdeal.main_arg3) :=
  (kept_S5 _ (by decide)).trans R4_arg3

theorem R6_arg3 : R6 m' c (Proc.devRef .tc Cert.ReferenceIdeal.main_arg3) = R0 m' c (Proc.devRef .tc Cert.ReferenceIdeal.main_arg3) :=
  (kept_S6 _ (by decide)).trans R5_arg3

theorem R7_arg3 : R7 m' c (Proc.devRef .tc Cert.ReferenceIdeal.main_arg3) = R0 m' c (Proc.devRef .tc Cert.ReferenceIdeal.main_arg3) :=
  (kept_S7 _ (by decide)).trans R6_arg3

theorem R8_arg3 : R8 m' c (Proc.devRef .tc Cert.ReferenceIdeal.main_arg3) = R0 m' c (Proc.devRef .tc Cert.ReferenceIdeal.main_arg3) :=
  (kept_S8 _ (by decide)).trans R7_arg3

theorem R1_arg4 : R1 m' c (Proc.devRef .tc Cert.ReferenceIdeal.main_arg4) = R0 m' c (Proc.devRef .tc Cert.ReferenceIdeal.main_arg4) :=
  (kept_S1 _ (by decide))

theorem R2_arg4 : R2 m' c (Proc.devRef .tc Cert.ReferenceIdeal.main_arg4) = R0 m' c (Proc.devRef .tc Cert.ReferenceIdeal.main_arg4) :=
  (kept_S2 _ (by decide)).trans R1_arg4

theorem R3_arg4 : R3 m' c (Proc.devRef .tc Cert.ReferenceIdeal.main_arg4) = R0 m' c (Proc.devRef .tc Cert.ReferenceIdeal.main_arg4) :=
  (kept_S3 _ (by decide)).trans R2_arg4

theorem R4_arg4 : R4 m' c (Proc.devRef .tc Cert.ReferenceIdeal.main_arg4) = R0 m' c (Proc.devRef .tc Cert.ReferenceIdeal.main_arg4) :=
  (kept_S4 _ (by decide)).trans R3_arg4

theorem R5_arg4 : R5 m' c (Proc.devRef .tc Cert.ReferenceIdeal.main_arg4) = R0 m' c (Proc.devRef .tc Cert.ReferenceIdeal.main_arg4) :=
  (kept_S5 _ (by decide)).trans R4_arg4

theorem R6_arg4 : R6 m' c (Proc.devRef .tc Cert.ReferenceIdeal.main_arg4) = R0 m' c (Proc.devRef .tc Cert.ReferenceIdeal.main_arg4) :=
  (kept_S6 _ (by decide)).trans R5_arg4

theorem R7_arg4 : R7 m' c (Proc.devRef .tc Cert.ReferenceIdeal.main_arg4) = R0 m' c (Proc.devRef .tc Cert.ReferenceIdeal.main_arg4) :=
  (kept_S7 _ (by decide)).trans R6_arg4

theorem R8_arg4 : R8 m' c (Proc.devRef .tc Cert.ReferenceIdeal.main_arg4) = R0 m' c (Proc.devRef .tc Cert.ReferenceIdeal.main_arg4) :=
  (kept_S8 _ (by decide)).trans R7_arg4

theorem R1_arg13 : R1 m' c (Proc.devRef .tc Cert.ReferenceIdeal.main_arg13) = R0 m' c (Proc.devRef .tc Cert.ReferenceIdeal.main_arg13) :=
  (kept_S1 _ (by decide))

theorem R2_arg13 : R2 m' c (Proc.devRef .tc Cert.ReferenceIdeal.main_arg13) = R0 m' c (Proc.devRef .tc Cert.ReferenceIdeal.main_arg13) :=
  (kept_S2 _ (by decide)).trans R1_arg13

theorem R3_arg13 : R3 m' c (Proc.devRef .tc Cert.ReferenceIdeal.main_arg13) = R0 m' c (Proc.devRef .tc Cert.ReferenceIdeal.main_arg13) :=
  (kept_S3 _ (by decide)).trans R2_arg13

theorem R4_arg13 : R4 m' c (Proc.devRef .tc Cert.ReferenceIdeal.main_arg13) = R0 m' c (Proc.devRef .tc Cert.ReferenceIdeal.main_arg13) :=
  (kept_S4 _ (by decide)).trans R3_arg13

theorem R5_arg13 : R5 m' c (Proc.devRef .tc Cert.ReferenceIdeal.main_arg13) = R0 m' c (Proc.devRef .tc Cert.ReferenceIdeal.main_arg13) :=
  (kept_S5 _ (by decide)).trans R4_arg13

theorem R6_arg13 : R6 m' c (Proc.devRef .tc Cert.ReferenceIdeal.main_arg13) = R0 m' c (Proc.devRef .tc Cert.ReferenceIdeal.main_arg13) :=
  (kept_S6 _ (by decide)).trans R5_arg13

theorem R7_arg13 : R7 m' c (Proc.devRef .tc Cert.ReferenceIdeal.main_arg13) = R0 m' c (Proc.devRef .tc Cert.ReferenceIdeal.main_arg13) :=
  (kept_S7 _ (by decide)).trans R6_arg13

theorem R8_arg13 : R8 m' c (Proc.devRef .tc Cert.ReferenceIdeal.main_arg13) = R0 m' c (Proc.devRef .tc Cert.ReferenceIdeal.main_arg13) :=
  (kept_S8 _ (by decide)).trans R7_arg13

theorem R9_arg13 : R9 m' c (Proc.devRef .tc Cert.ReferenceIdeal.main_arg13) = R0 m' c (Proc.devRef .tc Cert.ReferenceIdeal.main_arg13) :=
  (kept_S9 _ (by decide)).trans R8_arg13

theorem R1_arg14 : R1 m' c (Proc.devRef .tc Cert.ReferenceIdeal.main_arg14) = R0 m' c (Proc.devRef .tc Cert.ReferenceIdeal.main_arg14) :=
  (kept_S1 _ (by decide))

theorem R2_arg14 : R2 m' c (Proc.devRef .tc Cert.ReferenceIdeal.main_arg14) = R0 m' c (Proc.devRef .tc Cert.ReferenceIdeal.main_arg14) :=
  (kept_S2 _ (by decide)).trans R1_arg14

theorem R3_arg14 : R3 m' c (Proc.devRef .tc Cert.ReferenceIdeal.main_arg14) = R0 m' c (Proc.devRef .tc Cert.ReferenceIdeal.main_arg14) :=
  (kept_S3 _ (by decide)).trans R2_arg14

theorem R4_arg14 : R4 m' c (Proc.devRef .tc Cert.ReferenceIdeal.main_arg14) = R0 m' c (Proc.devRef .tc Cert.ReferenceIdeal.main_arg14) :=
  (kept_S4 _ (by decide)).trans R3_arg14

theorem R5_arg14 : R5 m' c (Proc.devRef .tc Cert.ReferenceIdeal.main_arg14) = R0 m' c (Proc.devRef .tc Cert.ReferenceIdeal.main_arg14) :=
  (kept_S5 _ (by decide)).trans R4_arg14

theorem R6_arg14 : R6 m' c (Proc.devRef .tc Cert.ReferenceIdeal.main_arg14) = R0 m' c (Proc.devRef .tc Cert.ReferenceIdeal.main_arg14) :=
  (kept_S6 _ (by decide)).trans R5_arg14

theorem R7_arg14 : R7 m' c (Proc.devRef .tc Cert.ReferenceIdeal.main_arg14) = R0 m' c (Proc.devRef .tc Cert.ReferenceIdeal.main_arg14) :=
  (kept_S7 _ (by decide)).trans R6_arg14

theorem R8_arg14 : R8 m' c (Proc.devRef .tc Cert.ReferenceIdeal.main_arg14) = R0 m' c (Proc.devRef .tc Cert.ReferenceIdeal.main_arg14) :=
  (kept_S8 _ (by decide)).trans R7_arg14

theorem R9_arg14 : R9 m' c (Proc.devRef .tc Cert.ReferenceIdeal.main_arg14) = R0 m' c (Proc.devRef .tc Cert.ReferenceIdeal.main_arg14) :=
  (kept_S9 _ (by decide)).trans R8_arg14

theorem R1_arg15 : R1 m' c (Proc.devRef .tc Cert.ReferenceIdeal.main_arg15) = R0 m' c (Proc.devRef .tc Cert.ReferenceIdeal.main_arg15) :=
  (kept_S1 _ (by decide))

theorem R2_arg15 : R2 m' c (Proc.devRef .tc Cert.ReferenceIdeal.main_arg15) = R0 m' c (Proc.devRef .tc Cert.ReferenceIdeal.main_arg15) :=
  (kept_S2 _ (by decide)).trans R1_arg15

theorem R3_arg15 : R3 m' c (Proc.devRef .tc Cert.ReferenceIdeal.main_arg15) = R0 m' c (Proc.devRef .tc Cert.ReferenceIdeal.main_arg15) :=
  (kept_S3 _ (by decide)).trans R2_arg15

theorem R4_arg15 : R4 m' c (Proc.devRef .tc Cert.ReferenceIdeal.main_arg15) = R0 m' c (Proc.devRef .tc Cert.ReferenceIdeal.main_arg15) :=
  (kept_S4 _ (by decide)).trans R3_arg15

theorem R5_arg15 : R5 m' c (Proc.devRef .tc Cert.ReferenceIdeal.main_arg15) = R0 m' c (Proc.devRef .tc Cert.ReferenceIdeal.main_arg15) :=
  (kept_S5 _ (by decide)).trans R4_arg15

theorem R6_arg15 : R6 m' c (Proc.devRef .tc Cert.ReferenceIdeal.main_arg15) = R0 m' c (Proc.devRef .tc Cert.ReferenceIdeal.main_arg15) :=
  (kept_S6 _ (by decide)).trans R5_arg15

theorem R7_arg15 : R7 m' c (Proc.devRef .tc Cert.ReferenceIdeal.main_arg15) = R0 m' c (Proc.devRef .tc Cert.ReferenceIdeal.main_arg15) :=
  (kept_S7 _ (by decide)).trans R6_arg15

theorem R8_arg15 : R8 m' c (Proc.devRef .tc Cert.ReferenceIdeal.main_arg15) = R0 m' c (Proc.devRef .tc Cert.ReferenceIdeal.main_arg15) :=
  (kept_S8 _ (by decide)).trans R7_arg15

theorem R9_arg15 : R9 m' c (Proc.devRef .tc Cert.ReferenceIdeal.main_arg15) = R0 m' c (Proc.devRef .tc Cert.ReferenceIdeal.main_arg15) :=
  (kept_S9 _ (by decide)).trans R8_arg15

theorem R10_arg15 : R10 m' c (Proc.devRef .tc Cert.ReferenceIdeal.main_arg15) = R0 m' c (Proc.devRef .tc Cert.ReferenceIdeal.main_arg15) :=
  (kept_S10 _ (by decide)).trans R9_arg15

theorem R11_arg15 : R11 m' c (Proc.devRef .tc Cert.ReferenceIdeal.main_arg15) = R0 m' c (Proc.devRef .tc Cert.ReferenceIdeal.main_arg15) :=
  (kept_S11 _ (by decide)).trans R10_arg15

theorem R1_arg16 : R1 m' c (Proc.devRef .tc Cert.ReferenceIdeal.main_arg16) = R0 m' c (Proc.devRef .tc Cert.ReferenceIdeal.main_arg16) :=
  (kept_S1 _ (by decide))

theorem R2_arg16 : R2 m' c (Proc.devRef .tc Cert.ReferenceIdeal.main_arg16) = R0 m' c (Proc.devRef .tc Cert.ReferenceIdeal.main_arg16) :=
  (kept_S2 _ (by decide)).trans R1_arg16

theorem R3_arg16 : R3 m' c (Proc.devRef .tc Cert.ReferenceIdeal.main_arg16) = R0 m' c (Proc.devRef .tc Cert.ReferenceIdeal.main_arg16) :=
  (kept_S3 _ (by decide)).trans R2_arg16

theorem R4_arg16 : R4 m' c (Proc.devRef .tc Cert.ReferenceIdeal.main_arg16) = R0 m' c (Proc.devRef .tc Cert.ReferenceIdeal.main_arg16) :=
  (kept_S4 _ (by decide)).trans R3_arg16

theorem R5_arg16 : R5 m' c (Proc.devRef .tc Cert.ReferenceIdeal.main_arg16) = R0 m' c (Proc.devRef .tc Cert.ReferenceIdeal.main_arg16) :=
  (kept_S5 _ (by decide)).trans R4_arg16

theorem R6_arg16 : R6 m' c (Proc.devRef .tc Cert.ReferenceIdeal.main_arg16) = R0 m' c (Proc.devRef .tc Cert.ReferenceIdeal.main_arg16) :=
  (kept_S6 _ (by decide)).trans R5_arg16

theorem R7_arg16 : R7 m' c (Proc.devRef .tc Cert.ReferenceIdeal.main_arg16) = R0 m' c (Proc.devRef .tc Cert.ReferenceIdeal.main_arg16) :=
  (kept_S7 _ (by decide)).trans R6_arg16

theorem R8_arg16 : R8 m' c (Proc.devRef .tc Cert.ReferenceIdeal.main_arg16) = R0 m' c (Proc.devRef .tc Cert.ReferenceIdeal.main_arg16) :=
  (kept_S8 _ (by decide)).trans R7_arg16

theorem R9_arg16 : R9 m' c (Proc.devRef .tc Cert.ReferenceIdeal.main_arg16) = R0 m' c (Proc.devRef .tc Cert.ReferenceIdeal.main_arg16) :=
  (kept_S9 _ (by decide)).trans R8_arg16

theorem R10_arg16 : R10 m' c (Proc.devRef .tc Cert.ReferenceIdeal.main_arg16) = R0 m' c (Proc.devRef .tc Cert.ReferenceIdeal.main_arg16) :=
  (kept_S10 _ (by decide)).trans R9_arg16

theorem R11_arg16 : R11 m' c (Proc.devRef .tc Cert.ReferenceIdeal.main_arg16) = R0 m' c (Proc.devRef .tc Cert.ReferenceIdeal.main_arg16) :=
  (kept_S11 _ (by decide)).trans R10_arg16

theorem R9_arg3 : R9 m' c (Proc.devRef .tc Cert.ReferenceIdeal.main_arg3) = R0 m' c (Proc.devRef .tc Cert.ReferenceIdeal.main_arg3) :=
  (kept_S9 _ (by decide)).trans R8_arg3

theorem R10_arg3 : R10 m' c (Proc.devRef .tc Cert.ReferenceIdeal.main_arg3) = R0 m' c (Proc.devRef .tc Cert.ReferenceIdeal.main_arg3) :=
  (kept_S10 _ (by decide)).trans R9_arg3

theorem R11_arg3 : R11 m' c (Proc.devRef .tc Cert.ReferenceIdeal.main_arg3) = R0 m' c (Proc.devRef .tc Cert.ReferenceIdeal.main_arg3) :=
  (kept_S11 _ (by decide)).trans R10_arg3

theorem R9_arg4 : R9 m' c (Proc.devRef .tc Cert.ReferenceIdeal.main_arg4) = R0 m' c (Proc.devRef .tc Cert.ReferenceIdeal.main_arg4) :=
  (kept_S9 _ (by decide)).trans R8_arg4

theorem R10_arg4 : R10 m' c (Proc.devRef .tc Cert.ReferenceIdeal.main_arg4) = R0 m' c (Proc.devRef .tc Cert.ReferenceIdeal.main_arg4) :=
  (kept_S10 _ (by decide)).trans R9_arg4

theorem R11_arg4 : R11 m' c (Proc.devRef .tc Cert.ReferenceIdeal.main_arg4) = R0 m' c (Proc.devRef .tc Cert.ReferenceIdeal.main_arg4) :=
  (kept_S11 _ (by decide)).trans R10_arg4

theorem R12_arg3 : R12 m' c (Proc.devRef .tc Cert.ReferenceIdeal.main_arg3) = R0 m' c (Proc.devRef .tc Cert.ReferenceIdeal.main_arg3) :=
  (kept_S12 _ (by decide)).trans R11_arg3

theorem R12_arg4 : R12 m' c (Proc.devRef .tc Cert.ReferenceIdeal.main_arg4) = R0 m' c (Proc.devRef .tc Cert.ReferenceIdeal.main_arg4) :=
  (kept_S12 _ (by decide)).trans R11_arg4

theorem R1_arg17 : R1 m' c (Proc.devRef .tc Cert.ReferenceIdeal.main_arg17) = R0 m' c (Proc.devRef .tc Cert.ReferenceIdeal.main_arg17) :=
  (kept_S1 _ (by decide))

theorem R2_arg17 : R2 m' c (Proc.devRef .tc Cert.ReferenceIdeal.main_arg17) = R0 m' c (Proc.devRef .tc Cert.ReferenceIdeal.main_arg17) :=
  (kept_S2 _ (by decide)).trans R1_arg17

theorem R3_arg17 : R3 m' c (Proc.devRef .tc Cert.ReferenceIdeal.main_arg17) = R0 m' c (Proc.devRef .tc Cert.ReferenceIdeal.main_arg17) :=
  (kept_S3 _ (by decide)).trans R2_arg17

theorem R4_arg17 : R4 m' c (Proc.devRef .tc Cert.ReferenceIdeal.main_arg17) = R0 m' c (Proc.devRef .tc Cert.ReferenceIdeal.main_arg17) :=
  (kept_S4 _ (by decide)).trans R3_arg17

theorem R5_arg17 : R5 m' c (Proc.devRef .tc Cert.ReferenceIdeal.main_arg17) = R0 m' c (Proc.devRef .tc Cert.ReferenceIdeal.main_arg17) :=
  (kept_S5 _ (by decide)).trans R4_arg17

theorem R6_arg17 : R6 m' c (Proc.devRef .tc Cert.ReferenceIdeal.main_arg17) = R0 m' c (Proc.devRef .tc Cert.ReferenceIdeal.main_arg17) :=
  (kept_S6 _ (by decide)).trans R5_arg17

theorem R7_arg17 : R7 m' c (Proc.devRef .tc Cert.ReferenceIdeal.main_arg17) = R0 m' c (Proc.devRef .tc Cert.ReferenceIdeal.main_arg17) :=
  (kept_S7 _ (by decide)).trans R6_arg17

theorem R8_arg17 : R8 m' c (Proc.devRef .tc Cert.ReferenceIdeal.main_arg17) = R0 m' c (Proc.devRef .tc Cert.ReferenceIdeal.main_arg17) :=
  (kept_S8 _ (by decide)).trans R7_arg17

theorem R9_arg17 : R9 m' c (Proc.devRef .tc Cert.ReferenceIdeal.main_arg17) = R0 m' c (Proc.devRef .tc Cert.ReferenceIdeal.main_arg17) :=
  (kept_S9 _ (by decide)).trans R8_arg17

theorem R10_arg17 : R10 m' c (Proc.devRef .tc Cert.ReferenceIdeal.main_arg17) = R0 m' c (Proc.devRef .tc Cert.ReferenceIdeal.main_arg17) :=
  (kept_S10 _ (by decide)).trans R9_arg17

theorem R11_arg17 : R11 m' c (Proc.devRef .tc Cert.ReferenceIdeal.main_arg17) = R0 m' c (Proc.devRef .tc Cert.ReferenceIdeal.main_arg17) :=
  (kept_S11 _ (by decide)).trans R10_arg17

theorem R12_arg17 : R12 m' c (Proc.devRef .tc Cert.ReferenceIdeal.main_arg17) = R0 m' c (Proc.devRef .tc Cert.ReferenceIdeal.main_arg17) :=
  (kept_S12 _ (by decide)).trans R11_arg17

theorem R13_arg17 : R13 m' c (Proc.devRef .tc Cert.ReferenceIdeal.main_arg17) = R0 m' c (Proc.devRef .tc Cert.ReferenceIdeal.main_arg17) :=
  (kept_S13 _ (by decide)).trans R12_arg17

theorem R1_arg18 : R1 m' c (Proc.devRef .tc Cert.ReferenceIdeal.main_arg18) = R0 m' c (Proc.devRef .tc Cert.ReferenceIdeal.main_arg18) :=
  (kept_S1 _ (by decide))

theorem R2_arg18 : R2 m' c (Proc.devRef .tc Cert.ReferenceIdeal.main_arg18) = R0 m' c (Proc.devRef .tc Cert.ReferenceIdeal.main_arg18) :=
  (kept_S2 _ (by decide)).trans R1_arg18

theorem R3_arg18 : R3 m' c (Proc.devRef .tc Cert.ReferenceIdeal.main_arg18) = R0 m' c (Proc.devRef .tc Cert.ReferenceIdeal.main_arg18) :=
  (kept_S3 _ (by decide)).trans R2_arg18

theorem R4_arg18 : R4 m' c (Proc.devRef .tc Cert.ReferenceIdeal.main_arg18) = R0 m' c (Proc.devRef .tc Cert.ReferenceIdeal.main_arg18) :=
  (kept_S4 _ (by decide)).trans R3_arg18

theorem R5_arg18 : R5 m' c (Proc.devRef .tc Cert.ReferenceIdeal.main_arg18) = R0 m' c (Proc.devRef .tc Cert.ReferenceIdeal.main_arg18) :=
  (kept_S5 _ (by decide)).trans R4_arg18

theorem R6_arg18 : R6 m' c (Proc.devRef .tc Cert.ReferenceIdeal.main_arg18) = R0 m' c (Proc.devRef .tc Cert.ReferenceIdeal.main_arg18) :=
  (kept_S6 _ (by decide)).trans R5_arg18

theorem R7_arg18 : R7 m' c (Proc.devRef .tc Cert.ReferenceIdeal.main_arg18) = R0 m' c (Proc.devRef .tc Cert.ReferenceIdeal.main_arg18) :=
  (kept_S7 _ (by decide)).trans R6_arg18

theorem R8_arg18 : R8 m' c (Proc.devRef .tc Cert.ReferenceIdeal.main_arg18) = R0 m' c (Proc.devRef .tc Cert.ReferenceIdeal.main_arg18) :=
  (kept_S8 _ (by decide)).trans R7_arg18

theorem R9_arg18 : R9 m' c (Proc.devRef .tc Cert.ReferenceIdeal.main_arg18) = R0 m' c (Proc.devRef .tc Cert.ReferenceIdeal.main_arg18) :=
  (kept_S9 _ (by decide)).trans R8_arg18

theorem R10_arg18 : R10 m' c (Proc.devRef .tc Cert.ReferenceIdeal.main_arg18) = R0 m' c (Proc.devRef .tc Cert.ReferenceIdeal.main_arg18) :=
  (kept_S10 _ (by decide)).trans R9_arg18

theorem R11_arg18 : R11 m' c (Proc.devRef .tc Cert.ReferenceIdeal.main_arg18) = R0 m' c (Proc.devRef .tc Cert.ReferenceIdeal.main_arg18) :=
  (kept_S11 _ (by decide)).trans R10_arg18

theorem R12_arg18 : R12 m' c (Proc.devRef .tc Cert.ReferenceIdeal.main_arg18) = R0 m' c (Proc.devRef .tc Cert.ReferenceIdeal.main_arg18) :=
  (kept_S12 _ (by decide)).trans R11_arg18

theorem R13_arg18 : R13 m' c (Proc.devRef .tc Cert.ReferenceIdeal.main_arg18) = R0 m' c (Proc.devRef .tc Cert.ReferenceIdeal.main_arg18) :=
  (kept_S13 _ (by decide)).trans R12_arg18

theorem R1_arg19 : R1 m' c (Proc.devRef .tc Cert.ReferenceIdeal.main_arg19) = R0 m' c (Proc.devRef .tc Cert.ReferenceIdeal.main_arg19) :=
  (kept_S1 _ (by decide))

theorem R2_arg19 : R2 m' c (Proc.devRef .tc Cert.ReferenceIdeal.main_arg19) = R0 m' c (Proc.devRef .tc Cert.ReferenceIdeal.main_arg19) :=
  (kept_S2 _ (by decide)).trans R1_arg19

theorem R3_arg19 : R3 m' c (Proc.devRef .tc Cert.ReferenceIdeal.main_arg19) = R0 m' c (Proc.devRef .tc Cert.ReferenceIdeal.main_arg19) :=
  (kept_S3 _ (by decide)).trans R2_arg19

theorem R4_arg19 : R4 m' c (Proc.devRef .tc Cert.ReferenceIdeal.main_arg19) = R0 m' c (Proc.devRef .tc Cert.ReferenceIdeal.main_arg19) :=
  (kept_S4 _ (by decide)).trans R3_arg19

theorem R5_arg19 : R5 m' c (Proc.devRef .tc Cert.ReferenceIdeal.main_arg19) = R0 m' c (Proc.devRef .tc Cert.ReferenceIdeal.main_arg19) :=
  (kept_S5 _ (by decide)).trans R4_arg19

theorem R6_arg19 : R6 m' c (Proc.devRef .tc Cert.ReferenceIdeal.main_arg19) = R0 m' c (Proc.devRef .tc Cert.ReferenceIdeal.main_arg19) :=
  (kept_S6 _ (by decide)).trans R5_arg19

theorem R7_arg19 : R7 m' c (Proc.devRef .tc Cert.ReferenceIdeal.main_arg19) = R0 m' c (Proc.devRef .tc Cert.ReferenceIdeal.main_arg19) :=
  (kept_S7 _ (by decide)).trans R6_arg19

theorem R8_arg19 : R8 m' c (Proc.devRef .tc Cert.ReferenceIdeal.main_arg19) = R0 m' c (Proc.devRef .tc Cert.ReferenceIdeal.main_arg19) :=
  (kept_S8 _ (by decide)).trans R7_arg19

theorem R9_arg19 : R9 m' c (Proc.devRef .tc Cert.ReferenceIdeal.main_arg19) = R0 m' c (Proc.devRef .tc Cert.ReferenceIdeal.main_arg19) :=
  (kept_S9 _ (by decide)).trans R8_arg19

theorem R10_arg19 : R10 m' c (Proc.devRef .tc Cert.ReferenceIdeal.main_arg19) = R0 m' c (Proc.devRef .tc Cert.ReferenceIdeal.main_arg19) :=
  (kept_S10 _ (by decide)).trans R9_arg19

theorem R11_arg19 : R11 m' c (Proc.devRef .tc Cert.ReferenceIdeal.main_arg19) = R0 m' c (Proc.devRef .tc Cert.ReferenceIdeal.main_arg19) :=
  (kept_S11 _ (by decide)).trans R10_arg19

theorem R12_arg19 : R12 m' c (Proc.devRef .tc Cert.ReferenceIdeal.main_arg19) = R0 m' c (Proc.devRef .tc Cert.ReferenceIdeal.main_arg19) :=
  (kept_S12 _ (by decide)).trans R11_arg19

theorem R13_arg19 : R13 m' c (Proc.devRef .tc Cert.ReferenceIdeal.main_arg19) = R0 m' c (Proc.devRef .tc Cert.ReferenceIdeal.main_arg19) :=
  (kept_S13 _ (by decide)).trans R12_arg19

theorem R14_arg19 : R14 m' c (Proc.devRef .tc Cert.ReferenceIdeal.main_arg19) = R0 m' c (Proc.devRef .tc Cert.ReferenceIdeal.main_arg19) :=
  (kept_S14 _ (by decide)).trans R13_arg19

theorem R15_arg19 : R15 m' c (Proc.devRef .tc Cert.ReferenceIdeal.main_arg19) = R0 m' c (Proc.devRef .tc Cert.ReferenceIdeal.main_arg19) :=
  (kept_S15 _ (by decide)).trans R14_arg19

theorem R1_arg20 : R1 m' c (Proc.devRef .tc Cert.ReferenceIdeal.main_arg20) = R0 m' c (Proc.devRef .tc Cert.ReferenceIdeal.main_arg20) :=
  (kept_S1 _ (by decide))

theorem R2_arg20 : R2 m' c (Proc.devRef .tc Cert.ReferenceIdeal.main_arg20) = R0 m' c (Proc.devRef .tc Cert.ReferenceIdeal.main_arg20) :=
  (kept_S2 _ (by decide)).trans R1_arg20

theorem R3_arg20 : R3 m' c (Proc.devRef .tc Cert.ReferenceIdeal.main_arg20) = R0 m' c (Proc.devRef .tc Cert.ReferenceIdeal.main_arg20) :=
  (kept_S3 _ (by decide)).trans R2_arg20

theorem R4_arg20 : R4 m' c (Proc.devRef .tc Cert.ReferenceIdeal.main_arg20) = R0 m' c (Proc.devRef .tc Cert.ReferenceIdeal.main_arg20) :=
  (kept_S4 _ (by decide)).trans R3_arg20

theorem R5_arg20 : R5 m' c (Proc.devRef .tc Cert.ReferenceIdeal.main_arg20) = R0 m' c (Proc.devRef .tc Cert.ReferenceIdeal.main_arg20) :=
  (kept_S5 _ (by decide)).trans R4_arg20

theorem R6_arg20 : R6 m' c (Proc.devRef .tc Cert.ReferenceIdeal.main_arg20) = R0 m' c (Proc.devRef .tc Cert.ReferenceIdeal.main_arg20) :=
  (kept_S6 _ (by decide)).trans R5_arg20

theorem R7_arg20 : R7 m' c (Proc.devRef .tc Cert.ReferenceIdeal.main_arg20) = R0 m' c (Proc.devRef .tc Cert.ReferenceIdeal.main_arg20) :=
  (kept_S7 _ (by decide)).trans R6_arg20

theorem R8_arg20 : R8 m' c (Proc.devRef .tc Cert.ReferenceIdeal.main_arg20) = R0 m' c (Proc.devRef .tc Cert.ReferenceIdeal.main_arg20) :=
  (kept_S8 _ (by decide)).trans R7_arg20

theorem R9_arg20 : R9 m' c (Proc.devRef .tc Cert.ReferenceIdeal.main_arg20) = R0 m' c (Proc.devRef .tc Cert.ReferenceIdeal.main_arg20) :=
  (kept_S9 _ (by decide)).trans R8_arg20

theorem R10_arg20 : R10 m' c (Proc.devRef .tc Cert.ReferenceIdeal.main_arg20) = R0 m' c (Proc.devRef .tc Cert.ReferenceIdeal.main_arg20) :=
  (kept_S10 _ (by decide)).trans R9_arg20

theorem R11_arg20 : R11 m' c (Proc.devRef .tc Cert.ReferenceIdeal.main_arg20) = R0 m' c (Proc.devRef .tc Cert.ReferenceIdeal.main_arg20) :=
  (kept_S11 _ (by decide)).trans R10_arg20

theorem R12_arg20 : R12 m' c (Proc.devRef .tc Cert.ReferenceIdeal.main_arg20) = R0 m' c (Proc.devRef .tc Cert.ReferenceIdeal.main_arg20) :=
  (kept_S12 _ (by decide)).trans R11_arg20

theorem R13_arg20 : R13 m' c (Proc.devRef .tc Cert.ReferenceIdeal.main_arg20) = R0 m' c (Proc.devRef .tc Cert.ReferenceIdeal.main_arg20) :=
  (kept_S13 _ (by decide)).trans R12_arg20

theorem R14_arg20 : R14 m' c (Proc.devRef .tc Cert.ReferenceIdeal.main_arg20) = R0 m' c (Proc.devRef .tc Cert.ReferenceIdeal.main_arg20) :=
  (kept_S14 _ (by decide)).trans R13_arg20

theorem R15_arg20 : R15 m' c (Proc.devRef .tc Cert.ReferenceIdeal.main_arg20) = R0 m' c (Proc.devRef .tc Cert.ReferenceIdeal.main_arg20) :=
  (kept_S15 _ (by decide)).trans R14_arg20

theorem R1_arg21 : R1 m' c (Proc.devRef .tc Cert.ReferenceIdeal.main_arg21) = R0 m' c (Proc.devRef .tc Cert.ReferenceIdeal.main_arg21) :=
  (kept_S1 _ (by decide))

theorem R2_arg21 : R2 m' c (Proc.devRef .tc Cert.ReferenceIdeal.main_arg21) = R0 m' c (Proc.devRef .tc Cert.ReferenceIdeal.main_arg21) :=
  (kept_S2 _ (by decide)).trans R1_arg21

theorem R3_arg21 : R3 m' c (Proc.devRef .tc Cert.ReferenceIdeal.main_arg21) = R0 m' c (Proc.devRef .tc Cert.ReferenceIdeal.main_arg21) :=
  (kept_S3 _ (by decide)).trans R2_arg21

theorem R4_arg21 : R4 m' c (Proc.devRef .tc Cert.ReferenceIdeal.main_arg21) = R0 m' c (Proc.devRef .tc Cert.ReferenceIdeal.main_arg21) :=
  (kept_S4 _ (by decide)).trans R3_arg21

theorem R5_arg21 : R5 m' c (Proc.devRef .tc Cert.ReferenceIdeal.main_arg21) = R0 m' c (Proc.devRef .tc Cert.ReferenceIdeal.main_arg21) :=
  (kept_S5 _ (by decide)).trans R4_arg21

theorem R6_arg21 : R6 m' c (Proc.devRef .tc Cert.ReferenceIdeal.main_arg21) = R0 m' c (Proc.devRef .tc Cert.ReferenceIdeal.main_arg21) :=
  (kept_S6 _ (by decide)).trans R5_arg21

theorem R7_arg21 : R7 m' c (Proc.devRef .tc Cert.ReferenceIdeal.main_arg21) = R0 m' c (Proc.devRef .tc Cert.ReferenceIdeal.main_arg21) :=
  (kept_S7 _ (by decide)).trans R6_arg21

theorem R8_arg21 : R8 m' c (Proc.devRef .tc Cert.ReferenceIdeal.main_arg21) = R0 m' c (Proc.devRef .tc Cert.ReferenceIdeal.main_arg21) :=
  (kept_S8 _ (by decide)).trans R7_arg21

theorem R9_arg21 : R9 m' c (Proc.devRef .tc Cert.ReferenceIdeal.main_arg21) = R0 m' c (Proc.devRef .tc Cert.ReferenceIdeal.main_arg21) :=
  (kept_S9 _ (by decide)).trans R8_arg21

theorem R10_arg21 : R10 m' c (Proc.devRef .tc Cert.ReferenceIdeal.main_arg21) = R0 m' c (Proc.devRef .tc Cert.ReferenceIdeal.main_arg21) :=
  (kept_S10 _ (by decide)).trans R9_arg21

theorem R11_arg21 : R11 m' c (Proc.devRef .tc Cert.ReferenceIdeal.main_arg21) = R0 m' c (Proc.devRef .tc Cert.ReferenceIdeal.main_arg21) :=
  (kept_S11 _ (by decide)).trans R10_arg21

theorem R12_arg21 : R12 m' c (Proc.devRef .tc Cert.ReferenceIdeal.main_arg21) = R0 m' c (Proc.devRef .tc Cert.ReferenceIdeal.main_arg21) :=
  (kept_S12 _ (by decide)).trans R11_arg21

theorem R13_arg21 : R13 m' c (Proc.devRef .tc Cert.ReferenceIdeal.main_arg21) = R0 m' c (Proc.devRef .tc Cert.ReferenceIdeal.main_arg21) :=
  (kept_S13 _ (by decide)).trans R12_arg21

theorem R14_arg21 : R14 m' c (Proc.devRef .tc Cert.ReferenceIdeal.main_arg21) = R0 m' c (Proc.devRef .tc Cert.ReferenceIdeal.main_arg21) :=
  (kept_S14 _ (by decide)).trans R13_arg21

theorem R15_arg21 : R15 m' c (Proc.devRef .tc Cert.ReferenceIdeal.main_arg21) = R0 m' c (Proc.devRef .tc Cert.ReferenceIdeal.main_arg21) :=
  (kept_S15 _ (by decide)).trans R14_arg21

theorem R16_arg21 : R16 m' c (Proc.devRef .tc Cert.ReferenceIdeal.main_arg21) = R0 m' c (Proc.devRef .tc Cert.ReferenceIdeal.main_arg21) :=
  (kept_S16 _ (by decide)).trans R15_arg21

theorem R1_arg22 : R1 m' c (Proc.devRef .tc Cert.ReferenceIdeal.main_arg22) = R0 m' c (Proc.devRef .tc Cert.ReferenceIdeal.main_arg22) :=
  (kept_S1 _ (by decide))

theorem R2_arg22 : R2 m' c (Proc.devRef .tc Cert.ReferenceIdeal.main_arg22) = R0 m' c (Proc.devRef .tc Cert.ReferenceIdeal.main_arg22) :=
  (kept_S2 _ (by decide)).trans R1_arg22

theorem R3_arg22 : R3 m' c (Proc.devRef .tc Cert.ReferenceIdeal.main_arg22) = R0 m' c (Proc.devRef .tc Cert.ReferenceIdeal.main_arg22) :=
  (kept_S3 _ (by decide)).trans R2_arg22

theorem R4_arg22 : R4 m' c (Proc.devRef .tc Cert.ReferenceIdeal.main_arg22) = R0 m' c (Proc.devRef .tc Cert.ReferenceIdeal.main_arg22) :=
  (kept_S4 _ (by decide)).trans R3_arg22

theorem R5_arg22 : R5 m' c (Proc.devRef .tc Cert.ReferenceIdeal.main_arg22) = R0 m' c (Proc.devRef .tc Cert.ReferenceIdeal.main_arg22) :=
  (kept_S5 _ (by decide)).trans R4_arg22

theorem R6_arg22 : R6 m' c (Proc.devRef .tc Cert.ReferenceIdeal.main_arg22) = R0 m' c (Proc.devRef .tc Cert.ReferenceIdeal.main_arg22) :=
  (kept_S6 _ (by decide)).trans R5_arg22

theorem R7_arg22 : R7 m' c (Proc.devRef .tc Cert.ReferenceIdeal.main_arg22) = R0 m' c (Proc.devRef .tc Cert.ReferenceIdeal.main_arg22) :=
  (kept_S7 _ (by decide)).trans R6_arg22

theorem R8_arg22 : R8 m' c (Proc.devRef .tc Cert.ReferenceIdeal.main_arg22) = R0 m' c (Proc.devRef .tc Cert.ReferenceIdeal.main_arg22) :=
  (kept_S8 _ (by decide)).trans R7_arg22

theorem R9_arg22 : R9 m' c (Proc.devRef .tc Cert.ReferenceIdeal.main_arg22) = R0 m' c (Proc.devRef .tc Cert.ReferenceIdeal.main_arg22) :=
  (kept_S9 _ (by decide)).trans R8_arg22

theorem R10_arg22 : R10 m' c (Proc.devRef .tc Cert.ReferenceIdeal.main_arg22) = R0 m' c (Proc.devRef .tc Cert.ReferenceIdeal.main_arg22) :=
  (kept_S10 _ (by decide)).trans R9_arg22

theorem R11_arg22 : R11 m' c (Proc.devRef .tc Cert.ReferenceIdeal.main_arg22) = R0 m' c (Proc.devRef .tc Cert.ReferenceIdeal.main_arg22) :=
  (kept_S11 _ (by decide)).trans R10_arg22

theorem R12_arg22 : R12 m' c (Proc.devRef .tc Cert.ReferenceIdeal.main_arg22) = R0 m' c (Proc.devRef .tc Cert.ReferenceIdeal.main_arg22) :=
  (kept_S12 _ (by decide)).trans R11_arg22

theorem R13_arg22 : R13 m' c (Proc.devRef .tc Cert.ReferenceIdeal.main_arg22) = R0 m' c (Proc.devRef .tc Cert.ReferenceIdeal.main_arg22) :=
  (kept_S13 _ (by decide)).trans R12_arg22

theorem R14_arg22 : R14 m' c (Proc.devRef .tc Cert.ReferenceIdeal.main_arg22) = R0 m' c (Proc.devRef .tc Cert.ReferenceIdeal.main_arg22) :=
  (kept_S14 _ (by decide)).trans R13_arg22

theorem R15_arg22 : R15 m' c (Proc.devRef .tc Cert.ReferenceIdeal.main_arg22) = R0 m' c (Proc.devRef .tc Cert.ReferenceIdeal.main_arg22) :=
  (kept_S15 _ (by decide)).trans R14_arg22

theorem R16_arg22 : R16 m' c (Proc.devRef .tc Cert.ReferenceIdeal.main_arg22) = R0 m' c (Proc.devRef .tc Cert.ReferenceIdeal.main_arg22) :=
  (kept_S16 _ (by decide)).trans R15_arg22

theorem R1_arg23 : R1 m' c (Proc.devRef .tc Cert.ReferenceIdeal.main_arg23) = R0 m' c (Proc.devRef .tc Cert.ReferenceIdeal.main_arg23) :=
  (kept_S1 _ (by decide))

theorem R2_arg23 : R2 m' c (Proc.devRef .tc Cert.ReferenceIdeal.main_arg23) = R0 m' c (Proc.devRef .tc Cert.ReferenceIdeal.main_arg23) :=
  (kept_S2 _ (by decide)).trans R1_arg23

theorem R3_arg23 : R3 m' c (Proc.devRef .tc Cert.ReferenceIdeal.main_arg23) = R0 m' c (Proc.devRef .tc Cert.ReferenceIdeal.main_arg23) :=
  (kept_S3 _ (by decide)).trans R2_arg23

theorem R4_arg23 : R4 m' c (Proc.devRef .tc Cert.ReferenceIdeal.main_arg23) = R0 m' c (Proc.devRef .tc Cert.ReferenceIdeal.main_arg23) :=
  (kept_S4 _ (by decide)).trans R3_arg23

theorem R5_arg23 : R5 m' c (Proc.devRef .tc Cert.ReferenceIdeal.main_arg23) = R0 m' c (Proc.devRef .tc Cert.ReferenceIdeal.main_arg23) :=
  (kept_S5 _ (by decide)).trans R4_arg23

theorem R6_arg23 : R6 m' c (Proc.devRef .tc Cert.ReferenceIdeal.main_arg23) = R0 m' c (Proc.devRef .tc Cert.ReferenceIdeal.main_arg23) :=
  (kept_S6 _ (by decide)).trans R5_arg23

theorem R7_arg23 : R7 m' c (Proc.devRef .tc Cert.ReferenceIdeal.main_arg23) = R0 m' c (Proc.devRef .tc Cert.ReferenceIdeal.main_arg23) :=
  (kept_S7 _ (by decide)).trans R6_arg23

theorem R8_arg23 : R8 m' c (Proc.devRef .tc Cert.ReferenceIdeal.main_arg23) = R0 m' c (Proc.devRef .tc Cert.ReferenceIdeal.main_arg23) :=
  (kept_S8 _ (by decide)).trans R7_arg23

theorem R9_arg23 : R9 m' c (Proc.devRef .tc Cert.ReferenceIdeal.main_arg23) = R0 m' c (Proc.devRef .tc Cert.ReferenceIdeal.main_arg23) :=
  (kept_S9 _ (by decide)).trans R8_arg23

theorem R10_arg23 : R10 m' c (Proc.devRef .tc Cert.ReferenceIdeal.main_arg23) = R0 m' c (Proc.devRef .tc Cert.ReferenceIdeal.main_arg23) :=
  (kept_S10 _ (by decide)).trans R9_arg23

theorem R11_arg23 : R11 m' c (Proc.devRef .tc Cert.ReferenceIdeal.main_arg23) = R0 m' c (Proc.devRef .tc Cert.ReferenceIdeal.main_arg23) :=
  (kept_S11 _ (by decide)).trans R10_arg23

theorem R12_arg23 : R12 m' c (Proc.devRef .tc Cert.ReferenceIdeal.main_arg23) = R0 m' c (Proc.devRef .tc Cert.ReferenceIdeal.main_arg23) :=
  (kept_S12 _ (by decide)).trans R11_arg23

theorem R13_arg23 : R13 m' c (Proc.devRef .tc Cert.ReferenceIdeal.main_arg23) = R0 m' c (Proc.devRef .tc Cert.ReferenceIdeal.main_arg23) :=
  (kept_S13 _ (by decide)).trans R12_arg23

theorem R14_arg23 : R14 m' c (Proc.devRef .tc Cert.ReferenceIdeal.main_arg23) = R0 m' c (Proc.devRef .tc Cert.ReferenceIdeal.main_arg23) :=
  (kept_S14 _ (by decide)).trans R13_arg23

theorem R15_arg23 : R15 m' c (Proc.devRef .tc Cert.ReferenceIdeal.main_arg23) = R0 m' c (Proc.devRef .tc Cert.ReferenceIdeal.main_arg23) :=
  (kept_S15 _ (by decide)).trans R14_arg23

theorem R16_arg23 : R16 m' c (Proc.devRef .tc Cert.ReferenceIdeal.main_arg23) = R0 m' c (Proc.devRef .tc Cert.ReferenceIdeal.main_arg23) :=
  (kept_S16 _ (by decide)).trans R15_arg23

theorem R1_arg24 : R1 m' c (Proc.devRef .tc Cert.ReferenceIdeal.main_arg24) = R0 m' c (Proc.devRef .tc Cert.ReferenceIdeal.main_arg24) :=
  (kept_S1 _ (by decide))

theorem R2_arg24 : R2 m' c (Proc.devRef .tc Cert.ReferenceIdeal.main_arg24) = R0 m' c (Proc.devRef .tc Cert.ReferenceIdeal.main_arg24) :=
  (kept_S2 _ (by decide)).trans R1_arg24

theorem R3_arg24 : R3 m' c (Proc.devRef .tc Cert.ReferenceIdeal.main_arg24) = R0 m' c (Proc.devRef .tc Cert.ReferenceIdeal.main_arg24) :=
  (kept_S3 _ (by decide)).trans R2_arg24

theorem R4_arg24 : R4 m' c (Proc.devRef .tc Cert.ReferenceIdeal.main_arg24) = R0 m' c (Proc.devRef .tc Cert.ReferenceIdeal.main_arg24) :=
  (kept_S4 _ (by decide)).trans R3_arg24

theorem R5_arg24 : R5 m' c (Proc.devRef .tc Cert.ReferenceIdeal.main_arg24) = R0 m' c (Proc.devRef .tc Cert.ReferenceIdeal.main_arg24) :=
  (kept_S5 _ (by decide)).trans R4_arg24

theorem R6_arg24 : R6 m' c (Proc.devRef .tc Cert.ReferenceIdeal.main_arg24) = R0 m' c (Proc.devRef .tc Cert.ReferenceIdeal.main_arg24) :=
  (kept_S6 _ (by decide)).trans R5_arg24

theorem R7_arg24 : R7 m' c (Proc.devRef .tc Cert.ReferenceIdeal.main_arg24) = R0 m' c (Proc.devRef .tc Cert.ReferenceIdeal.main_arg24) :=
  (kept_S7 _ (by decide)).trans R6_arg24

theorem R8_arg24 : R8 m' c (Proc.devRef .tc Cert.ReferenceIdeal.main_arg24) = R0 m' c (Proc.devRef .tc Cert.ReferenceIdeal.main_arg24) :=
  (kept_S8 _ (by decide)).trans R7_arg24

theorem R9_arg24 : R9 m' c (Proc.devRef .tc Cert.ReferenceIdeal.main_arg24) = R0 m' c (Proc.devRef .tc Cert.ReferenceIdeal.main_arg24) :=
  (kept_S9 _ (by decide)).trans R8_arg24

theorem R10_arg24 : R10 m' c (Proc.devRef .tc Cert.ReferenceIdeal.main_arg24) = R0 m' c (Proc.devRef .tc Cert.ReferenceIdeal.main_arg24) :=
  (kept_S10 _ (by decide)).trans R9_arg24

theorem R11_arg24 : R11 m' c (Proc.devRef .tc Cert.ReferenceIdeal.main_arg24) = R0 m' c (Proc.devRef .tc Cert.ReferenceIdeal.main_arg24) :=
  (kept_S11 _ (by decide)).trans R10_arg24

theorem R12_arg24 : R12 m' c (Proc.devRef .tc Cert.ReferenceIdeal.main_arg24) = R0 m' c (Proc.devRef .tc Cert.ReferenceIdeal.main_arg24) :=
  (kept_S12 _ (by decide)).trans R11_arg24

theorem R13_arg24 : R13 m' c (Proc.devRef .tc Cert.ReferenceIdeal.main_arg24) = R0 m' c (Proc.devRef .tc Cert.ReferenceIdeal.main_arg24) :=
  (kept_S13 _ (by decide)).trans R12_arg24

theorem R14_arg24 : R14 m' c (Proc.devRef .tc Cert.ReferenceIdeal.main_arg24) = R0 m' c (Proc.devRef .tc Cert.ReferenceIdeal.main_arg24) :=
  (kept_S14 _ (by decide)).trans R13_arg24

theorem R15_arg24 : R15 m' c (Proc.devRef .tc Cert.ReferenceIdeal.main_arg24) = R0 m' c (Proc.devRef .tc Cert.ReferenceIdeal.main_arg24) :=
  (kept_S15 _ (by decide)).trans R14_arg24

theorem R16_arg24 : R16 m' c (Proc.devRef .tc Cert.ReferenceIdeal.main_arg24) = R0 m' c (Proc.devRef .tc Cert.ReferenceIdeal.main_arg24) :=
  (kept_S16 _ (by decide)).trans R15_arg24

theorem R1_arg25 : R1 m' c (Proc.devRef .tc Cert.ReferenceIdeal.main_arg25) = R0 m' c (Proc.devRef .tc Cert.ReferenceIdeal.main_arg25) :=
  (kept_S1 _ (by decide))

theorem R2_arg25 : R2 m' c (Proc.devRef .tc Cert.ReferenceIdeal.main_arg25) = R0 m' c (Proc.devRef .tc Cert.ReferenceIdeal.main_arg25) :=
  (kept_S2 _ (by decide)).trans R1_arg25

theorem R3_arg25 : R3 m' c (Proc.devRef .tc Cert.ReferenceIdeal.main_arg25) = R0 m' c (Proc.devRef .tc Cert.ReferenceIdeal.main_arg25) :=
  (kept_S3 _ (by decide)).trans R2_arg25

theorem R4_arg25 : R4 m' c (Proc.devRef .tc Cert.ReferenceIdeal.main_arg25) = R0 m' c (Proc.devRef .tc Cert.ReferenceIdeal.main_arg25) :=
  (kept_S4 _ (by decide)).trans R3_arg25

theorem R5_arg25 : R5 m' c (Proc.devRef .tc Cert.ReferenceIdeal.main_arg25) = R0 m' c (Proc.devRef .tc Cert.ReferenceIdeal.main_arg25) :=
  (kept_S5 _ (by decide)).trans R4_arg25

theorem R6_arg25 : R6 m' c (Proc.devRef .tc Cert.ReferenceIdeal.main_arg25) = R0 m' c (Proc.devRef .tc Cert.ReferenceIdeal.main_arg25) :=
  (kept_S6 _ (by decide)).trans R5_arg25

theorem R7_arg25 : R7 m' c (Proc.devRef .tc Cert.ReferenceIdeal.main_arg25) = R0 m' c (Proc.devRef .tc Cert.ReferenceIdeal.main_arg25) :=
  (kept_S7 _ (by decide)).trans R6_arg25

theorem R8_arg25 : R8 m' c (Proc.devRef .tc Cert.ReferenceIdeal.main_arg25) = R0 m' c (Proc.devRef .tc Cert.ReferenceIdeal.main_arg25) :=
  (kept_S8 _ (by decide)).trans R7_arg25

theorem R9_arg25 : R9 m' c (Proc.devRef .tc Cert.ReferenceIdeal.main_arg25) = R0 m' c (Proc.devRef .tc Cert.ReferenceIdeal.main_arg25) :=
  (kept_S9 _ (by decide)).trans R8_arg25

theorem R10_arg25 : R10 m' c (Proc.devRef .tc Cert.ReferenceIdeal.main_arg25) = R0 m' c (Proc.devRef .tc Cert.ReferenceIdeal.main_arg25) :=
  (kept_S10 _ (by decide)).trans R9_arg25

theorem R11_arg25 : R11 m' c (Proc.devRef .tc Cert.ReferenceIdeal.main_arg25) = R0 m' c (Proc.devRef .tc Cert.ReferenceIdeal.main_arg25) :=
  (kept_S11 _ (by decide)).trans R10_arg25

theorem R12_arg25 : R12 m' c (Proc.devRef .tc Cert.ReferenceIdeal.main_arg25) = R0 m' c (Proc.devRef .tc Cert.ReferenceIdeal.main_arg25) :=
  (kept_S12 _ (by decide)).trans R11_arg25

theorem R13_arg25 : R13 m' c (Proc.devRef .tc Cert.ReferenceIdeal.main_arg25) = R0 m' c (Proc.devRef .tc Cert.ReferenceIdeal.main_arg25) :=
  (kept_S13 _ (by decide)).trans R12_arg25

theorem R14_arg25 : R14 m' c (Proc.devRef .tc Cert.ReferenceIdeal.main_arg25) = R0 m' c (Proc.devRef .tc Cert.ReferenceIdeal.main_arg25) :=
  (kept_S14 _ (by decide)).trans R13_arg25

theorem R15_arg25 : R15 m' c (Proc.devRef .tc Cert.ReferenceIdeal.main_arg25) = R0 m' c (Proc.devRef .tc Cert.ReferenceIdeal.main_arg25) :=
  (kept_S15 _ (by decide)).trans R14_arg25

theorem R16_arg25 : R16 m' c (Proc.devRef .tc Cert.ReferenceIdeal.main_arg25) = R0 m' c (Proc.devRef .tc Cert.ReferenceIdeal.main_arg25) :=
  (kept_S16 _ (by decide)).trans R15_arg25

theorem R1_arg26 : R1 m' c (Proc.devRef .tc Cert.ReferenceIdeal.main_arg26) = R0 m' c (Proc.devRef .tc Cert.ReferenceIdeal.main_arg26) :=
  (kept_S1 _ (by decide))

theorem R2_arg26 : R2 m' c (Proc.devRef .tc Cert.ReferenceIdeal.main_arg26) = R0 m' c (Proc.devRef .tc Cert.ReferenceIdeal.main_arg26) :=
  (kept_S2 _ (by decide)).trans R1_arg26

theorem R3_arg26 : R3 m' c (Proc.devRef .tc Cert.ReferenceIdeal.main_arg26) = R0 m' c (Proc.devRef .tc Cert.ReferenceIdeal.main_arg26) :=
  (kept_S3 _ (by decide)).trans R2_arg26

theorem R4_arg26 : R4 m' c (Proc.devRef .tc Cert.ReferenceIdeal.main_arg26) = R0 m' c (Proc.devRef .tc Cert.ReferenceIdeal.main_arg26) :=
  (kept_S4 _ (by decide)).trans R3_arg26

theorem R5_arg26 : R5 m' c (Proc.devRef .tc Cert.ReferenceIdeal.main_arg26) = R0 m' c (Proc.devRef .tc Cert.ReferenceIdeal.main_arg26) :=
  (kept_S5 _ (by decide)).trans R4_arg26

theorem R6_arg26 : R6 m' c (Proc.devRef .tc Cert.ReferenceIdeal.main_arg26) = R0 m' c (Proc.devRef .tc Cert.ReferenceIdeal.main_arg26) :=
  (kept_S6 _ (by decide)).trans R5_arg26

theorem R7_arg26 : R7 m' c (Proc.devRef .tc Cert.ReferenceIdeal.main_arg26) = R0 m' c (Proc.devRef .tc Cert.ReferenceIdeal.main_arg26) :=
  (kept_S7 _ (by decide)).trans R6_arg26

theorem R8_arg26 : R8 m' c (Proc.devRef .tc Cert.ReferenceIdeal.main_arg26) = R0 m' c (Proc.devRef .tc Cert.ReferenceIdeal.main_arg26) :=
  (kept_S8 _ (by decide)).trans R7_arg26

theorem R9_arg26 : R9 m' c (Proc.devRef .tc Cert.ReferenceIdeal.main_arg26) = R0 m' c (Proc.devRef .tc Cert.ReferenceIdeal.main_arg26) :=
  (kept_S9 _ (by decide)).trans R8_arg26

theorem R10_arg26 : R10 m' c (Proc.devRef .tc Cert.ReferenceIdeal.main_arg26) = R0 m' c (Proc.devRef .tc Cert.ReferenceIdeal.main_arg26) :=
  (kept_S10 _ (by decide)).trans R9_arg26

theorem R11_arg26 : R11 m' c (Proc.devRef .tc Cert.ReferenceIdeal.main_arg26) = R0 m' c (Proc.devRef .tc Cert.ReferenceIdeal.main_arg26) :=
  (kept_S11 _ (by decide)).trans R10_arg26

theorem R12_arg26 : R12 m' c (Proc.devRef .tc Cert.ReferenceIdeal.main_arg26) = R0 m' c (Proc.devRef .tc Cert.ReferenceIdeal.main_arg26) :=
  (kept_S12 _ (by decide)).trans R11_arg26

theorem R13_arg26 : R13 m' c (Proc.devRef .tc Cert.ReferenceIdeal.main_arg26) = R0 m' c (Proc.devRef .tc Cert.ReferenceIdeal.main_arg26) :=
  (kept_S13 _ (by decide)).trans R12_arg26

theorem R14_arg26 : R14 m' c (Proc.devRef .tc Cert.ReferenceIdeal.main_arg26) = R0 m' c (Proc.devRef .tc Cert.ReferenceIdeal.main_arg26) :=
  (kept_S14 _ (by decide)).trans R13_arg26

theorem R15_arg26 : R15 m' c (Proc.devRef .tc Cert.ReferenceIdeal.main_arg26) = R0 m' c (Proc.devRef .tc Cert.ReferenceIdeal.main_arg26) :=
  (kept_S15 _ (by decide)).trans R14_arg26

theorem R16_arg26 : R16 m' c (Proc.devRef .tc Cert.ReferenceIdeal.main_arg26) = R0 m' c (Proc.devRef .tc Cert.ReferenceIdeal.main_arg26) :=
  (kept_S16 _ (by decide)).trans R15_arg26

theorem R1_arg27 : R1 m' c (Proc.devRef .tc Cert.ReferenceIdeal.main_arg27) = R0 m' c (Proc.devRef .tc Cert.ReferenceIdeal.main_arg27) :=
  (kept_S1 _ (by decide))

theorem R2_arg27 : R2 m' c (Proc.devRef .tc Cert.ReferenceIdeal.main_arg27) = R0 m' c (Proc.devRef .tc Cert.ReferenceIdeal.main_arg27) :=
  (kept_S2 _ (by decide)).trans R1_arg27

theorem R3_arg27 : R3 m' c (Proc.devRef .tc Cert.ReferenceIdeal.main_arg27) = R0 m' c (Proc.devRef .tc Cert.ReferenceIdeal.main_arg27) :=
  (kept_S3 _ (by decide)).trans R2_arg27

theorem R4_arg27 : R4 m' c (Proc.devRef .tc Cert.ReferenceIdeal.main_arg27) = R0 m' c (Proc.devRef .tc Cert.ReferenceIdeal.main_arg27) :=
  (kept_S4 _ (by decide)).trans R3_arg27

theorem R5_arg27 : R5 m' c (Proc.devRef .tc Cert.ReferenceIdeal.main_arg27) = R0 m' c (Proc.devRef .tc Cert.ReferenceIdeal.main_arg27) :=
  (kept_S5 _ (by decide)).trans R4_arg27

theorem R6_arg27 : R6 m' c (Proc.devRef .tc Cert.ReferenceIdeal.main_arg27) = R0 m' c (Proc.devRef .tc Cert.ReferenceIdeal.main_arg27) :=
  (kept_S6 _ (by decide)).trans R5_arg27

theorem R7_arg27 : R7 m' c (Proc.devRef .tc Cert.ReferenceIdeal.main_arg27) = R0 m' c (Proc.devRef .tc Cert.ReferenceIdeal.main_arg27) :=
  (kept_S7 _ (by decide)).trans R6_arg27

theorem R8_arg27 : R8 m' c (Proc.devRef .tc Cert.ReferenceIdeal.main_arg27) = R0 m' c (Proc.devRef .tc Cert.ReferenceIdeal.main_arg27) :=
  (kept_S8 _ (by decide)).trans R7_arg27

theorem R9_arg27 : R9 m' c (Proc.devRef .tc Cert.ReferenceIdeal.main_arg27) = R0 m' c (Proc.devRef .tc Cert.ReferenceIdeal.main_arg27) :=
  (kept_S9 _ (by decide)).trans R8_arg27

theorem R10_arg27 : R10 m' c (Proc.devRef .tc Cert.ReferenceIdeal.main_arg27) = R0 m' c (Proc.devRef .tc Cert.ReferenceIdeal.main_arg27) :=
  (kept_S10 _ (by decide)).trans R9_arg27

theorem R11_arg27 : R11 m' c (Proc.devRef .tc Cert.ReferenceIdeal.main_arg27) = R0 m' c (Proc.devRef .tc Cert.ReferenceIdeal.main_arg27) :=
  (kept_S11 _ (by decide)).trans R10_arg27

theorem R12_arg27 : R12 m' c (Proc.devRef .tc Cert.ReferenceIdeal.main_arg27) = R0 m' c (Proc.devRef .tc Cert.ReferenceIdeal.main_arg27) :=
  (kept_S12 _ (by decide)).trans R11_arg27

theorem R13_arg27 : R13 m' c (Proc.devRef .tc Cert.ReferenceIdeal.main_arg27) = R0 m' c (Proc.devRef .tc Cert.ReferenceIdeal.main_arg27) :=
  (kept_S13 _ (by decide)).trans R12_arg27

theorem R14_arg27 : R14 m' c (Proc.devRef .tc Cert.ReferenceIdeal.main_arg27) = R0 m' c (Proc.devRef .tc Cert.ReferenceIdeal.main_arg27) :=
  (kept_S14 _ (by decide)).trans R13_arg27

theorem R15_arg27 : R15 m' c (Proc.devRef .tc Cert.ReferenceIdeal.main_arg27) = R0 m' c (Proc.devRef .tc Cert.ReferenceIdeal.main_arg27) :=
  (kept_S15 _ (by decide)).trans R14_arg27

theorem R16_arg27 : R16 m' c (Proc.devRef .tc Cert.ReferenceIdeal.main_arg27) = R0 m' c (Proc.devRef .tc Cert.ReferenceIdeal.main_arg27) :=
  (kept_S16 _ (by decide)).trans R15_arg27

/-! ## Branch one, layer one -/

theorem F1a (h : Ag m ρ m' c) : R1 m' c (Proc.devRef .tc Cert.ReferenceIdeal.main_v8) = W5 (F := Ideal) m ρ c (Proc.devRef .tc Cert.KernelIdeal.main_v8) := ns1A (W0 (F := Ideal) m ρ c) (R0 m' c) h.h1
theorem F1b (h : Ag m ρ m' c) : R1 m' c (Proc.devRef .tc Cert.ReferenceIdeal.main_v10) = W5 (F := Ideal) m ρ c (Proc.devRef .tc Cert.KernelIdeal.main_v10) := nd1A (W0 (F := Ideal) m ρ c) (R0 m' c) h.h2
theorem F1c (h : Ag m ρ m' c) : R1 m' c (Proc.devRef .tc Cert.ReferenceIdeal.main_v23) = W5 (F := Ideal) m ρ c (Proc.devRef .tc Cert.KernelIdeal.main_v25) := agg1A (W0 (F := Ideal) m ρ c) (R0 m' c) h.h0 h.h1 h.h2

theorem F2 (h : Ag m ρ m' c) : R2 m' c (Proc.devRef .tc Cert.ReferenceIdeal.main_v31) = W6 (F := Ideal) m ρ c (Proc.devRef .tc Cert.KernelIdeal.main_v28) := by
  rw [K6_v28, W5_v27, W5_v26, W5_arg5 m ρ c]
  dsimp only [R2]
  rw [RR2, F1c h, F1b h, ((R1_arg5 (m' := m') (c := c)).trans h.h5), ((R1_arg6 (m' := m') (c := c)).trans h.h6)]
  exact gconvHost_eq _ _ _ _ _ _

theorem F3a (h : Ag m ρ m' c) : R3 m' c (Proc.devRef .tc Cert.ReferenceIdeal.main_v34) = W9 (F := Ideal) m ρ c (Proc.devRef .tc Cert.KernelIdeal.main_v31) := mean1A (W6 (F := Ideal) m ρ c) (R2 m' c) (F2 h)
theorem F3b (h : Ag m ρ m' c) : R3 m' c (Proc.devRef .tc Cert.ReferenceIdeal.main_v35) = W9 (F := Ideal) m ρ c (Proc.devRef .tc Cert.KernelIdeal.main_v33) := var1A (W6 (F := Ideal) m ρ c) (R2 m' c) (F2 h)

theorem R3_v31 : R3 m' c (Proc.devRef .tc Cert.ReferenceIdeal.main_v31) = R2 m' c (Proc.devRef .tc Cert.ReferenceIdeal.main_v31) := kept_S3 _ (by decide)

theorem F4 (h : Ag m ρ m' c) : R4 m' c (Proc.devRef .tc Cert.ReferenceIdeal.main_v64) = W10 (F := Ideal) m ρ c (Proc.devRef .tc Cert.KernelIdeal.main_v38) := by
  rw [K10_v38, W9_v28, W9_v32, W9_v34, W9_v35, W9_v36, W9_v37, W6_v8, W6_arg7 m ρ c, W6_arg8 m ρ c]
  dsimp only [R4]
  rw [RR4, R3_v31, F2 h, F3a h, F3b h, ((R3_arg7 (m' := m') (c := c)).trans h.h7), ((R3_arg8 (m' := m') (c := c)).trans h.h8), ns2A (W0 (F := Ideal) m ρ c) (R3 m' c) ((R3_arg1 (m' := m') (c := c)).trans h.h1)]
  exact bnScaleHost_eq _ _ _ _ _ _ _ _

theorem F4n (h : Ag m ρ m' c) : R4 m' c (Proc.devRef .tc Cert.ReferenceIdeal.main_v61) = W5 (F := Ideal) m ρ c (Proc.devRef .tc Cert.KernelIdeal.main_v10) := nd2A (W0 (F := Ideal) m ρ c) (R3 m' c) ((R3_arg2 (m' := m') (c := c)).trans h.h2)

/-! ## Branch one, layer two -/

theorem F5 (h : Ag m ρ m' c) : R5 m' c (Proc.devRef .tc Cert.ReferenceIdeal.main_v74) = W11 (F := Ideal) m ρ c (Proc.devRef .tc Cert.KernelIdeal.main_v49) :=
  agg2A (W10 (F := Ideal) m ρ c) (R4 m' c) (F4 h) (((R4_arg1 (m' := m') (c := c)).trans h.h1).trans (W10_arg1 m ρ c).symm) (((R4_arg2 (m' := m') (c := c)).trans h.h2).trans (W10_arg2 m ρ c).symm)

theorem R5_v61 : R5 m' c (Proc.devRef .tc Cert.ReferenceIdeal.main_v61) = R4 m' c (Proc.devRef .tc Cert.ReferenceIdeal.main_v61) := kept_S5 _ (by decide)

theorem F6 (h : Ag m ρ m' c) : R6 m' c (Proc.devRef .tc Cert.ReferenceIdeal.main_v82) = W12 (F := Ideal) m ρ c (Proc.devRef .tc Cert.KernelIdeal.main_v52) := by
  rw [K12_v52, W11_v51, W11_v50, W10_v10, W9_v10, W6_v10, W11_arg9 m ρ c, W10_arg10 m ρ c]
  dsimp only [R6]
  rw [RR6, F5 h, R5_v61, F4n h, ((R5_arg9 (m' := m') (c := c)).trans h.h9), ((R5_arg10 (m' := m') (c := c)).trans h.h10)]
  exact gconvHost_eq _ _ _ _ _ _

theorem F7a (h : Ag m ρ m' c) : R7 m' c (Proc.devRef .tc Cert.ReferenceIdeal.main_v85) = W19 (F := Ideal) m ρ c (Proc.devRef .tc Cert.KernelIdeal.main_v55) := mean2A (W12 (F := Ideal) m ρ c) (R6 m' c) (F6 h)
theorem F7b (h : Ag m ρ m' c) : R7 m' c (Proc.devRef .tc Cert.ReferenceIdeal.main_v86) = W19 (F := Ideal) m ρ c (Proc.devRef .tc Cert.KernelIdeal.main_v56) := var2A (W12 (F := Ideal) m ρ c) (R6 m' c) (F6 h)

theorem R7_v82 : R7 m' c (Proc.devRef .tc Cert.ReferenceIdeal.main_v82) = R6 m' c (Proc.devRef .tc Cert.ReferenceIdeal.main_v82) := kept_S7 _ (by decide)

theorem F8 (h : Ag m ρ m' c) : R8 m' c (Proc.devRef .tc Cert.ReferenceIdeal.main_v101) = bnHost (W12 (F := Ideal) m ρ c (Proc.devRef .tc Cert.KernelIdeal.main_v52)) (W19 (F := Ideal) m ρ c (Proc.devRef .tc Cert.KernelIdeal.main_v55)) (W19 (F := Ideal) m ρ c (Proc.devRef .tc Cert.KernelIdeal.main_v56)) (W0 (F := Ideal) m ρ c (Proc.devRef .tc Cert.KernelIdeal.main_arg11)) (W0 (F := Ideal) m ρ c (Proc.devRef .tc Cert.KernelIdeal.main_arg12)) := by
  dsimp only [R8]
  rw [RR8, R7_v82, F6 h, F7a h, F7b h, ((R7_arg11 (m' := m') (c := c)).trans h.h11), ((R7_arg12 (m' := m') (c := c)).trans h.h12)]

/-! ## Branch two, layer one -/

theorem F9a (h : Ag m ρ m' c) : R9 m' c (Proc.devRef .tc Cert.ReferenceIdeal.main_v110) = W19 (F := Ideal) m ρ c (Proc.devRef .tc Cert.KernelIdeal.main_v65) := ns1B (W12 (F := Ideal) m ρ c) (R8 m' c) (((R8_arg3 (m' := m') (c := c)).trans h.h3).trans (W12_arg3 m ρ c).symm)
theorem F9b (h : Ag m ρ m' c) : R9 m' c (Proc.devRef .tc Cert.ReferenceIdeal.main_v112) = W19 (F := Ideal) m ρ c (Proc.devRef .tc Cert.KernelIdeal.main_v67) := nd1B (W12 (F := Ideal) m ρ c) (R8 m' c) (((R8_arg4 (m' := m') (c := c)).trans h.h4).trans (W12_arg4 m ρ c).symm)
theorem F9c (h : Ag m ρ m' c) : R9 m' c (Proc.devRef .tc Cert.ReferenceIdeal.main_v125) = W19 (F := Ideal) m ρ c (Proc.devRef .tc Cert.KernelIdeal.main_v82) := agg1B (W12 (F := Ideal) m ρ c) (R8 m' c) (((R8_arg0 (m' := m') (c := c)).trans h.h0).trans (W12_arg0 m ρ c).symm) (((R8_arg3 (m' := m') (c := c)).trans h.h3).trans (W12_arg3 m ρ c).symm) (((R8_arg4 (m' := m') (c := c)).trans h.h4).trans (W12_arg4 m ρ c).symm)

theorem F10 (h : Ag m ρ m' c) : R10 m' c (Proc.devRef .tc Cert.ReferenceIdeal.main_v133) = W20 (F := Ideal) m ρ c (Proc.devRef .tc Cert.KernelIdeal.main_v85) := by
  rw [K20_v85, W19_v84, W19_v83, W19_arg13 m ρ c, W12_arg14 m ρ c]
  dsimp only [R10]
  rw [RR10, F9c h, F9b h, ((R9_arg13 (m' := m') (c := c)).trans h.h13), ((R9_arg14 (m' := m') (c := c)).trans h.h14)]
  exact gconvHost_eq _ _ _ _ _ _

theorem F11a (h : Ag m ρ m' c) : R11 m' c (Proc.devRef .tc Cert.ReferenceIdeal.main_v136) = W23 (F := Ideal) m ρ c (Proc.devRef .tc Cert.KernelIdeal.main_v88) := mean1B (W20 (F := Ideal) m ρ c) (R10 m' c) (F10 h)
theorem F11b (h : Ag m ρ m' c) : R11 m' c (Proc.devRef .tc Cert.ReferenceIdeal.main_v137) = W23 (F := Ideal) m ρ c (Proc.devRef .tc Cert.KernelIdeal.main_v90) := var1B (W20 (F := Ideal) m ρ c) (R10 m' c) (F10 h)

theorem R11_v133 : R11 m' c (Proc.devRef .tc Cert.ReferenceIdeal.main_v133) = R10 m' c (Proc.devRef .tc Cert.ReferenceIdeal.main_v133) := kept_S11 _ (by decide)

theorem F12 (h : Ag m ρ m' c) : R12 m' c (Proc.devRef .tc Cert.ReferenceIdeal.main_v166) = W24 (F := Ideal) m ρ c (Proc.devRef .tc Cert.KernelIdeal.main_v95) := by
  rw [K24_v95, W23_v85, W23_v89, W23_v91, W23_v92, W23_v93, W23_v94, W20_v65, W20_arg15 m ρ c, W20_arg16 m ρ c]
  dsimp only [R12]
  rw [RR12, R11_v133, F10 h, F11a h, F11b h, ((R11_arg15 (m' := m') (c := c)).trans h.h15), ((R11_arg16 (m' := m') (c := c)).trans h.h16), ns2B (W12 (F := Ideal) m ρ c) (R11 m' c) (((R11_arg3 (m' := m') (c := c)).trans h.h3).trans (W12_arg3 m ρ c).symm)]
  exact bnScaleHost_eq _ _ _ _ _ _ _ _

theorem F12n (h : Ag m ρ m' c) : R12 m' c (Proc.devRef .tc Cert.ReferenceIdeal.main_v163) = W19 (F := Ideal) m ρ c (Proc.devRef .tc Cert.KernelIdeal.main_v67) := nd2B (W12 (F := Ideal) m ρ c) (R11 m' c) (((R11_arg4 (m' := m') (c := c)).trans h.h4).trans (W12_arg4 m ρ c).symm)

/-! ## Branch two, layer two -/

theorem F13 (h : Ag m ρ m' c) : R13 m' c (Proc.devRef .tc Cert.ReferenceIdeal.main_v176) = W25 (F := Ideal) m ρ c (Proc.devRef .tc Cert.KernelIdeal.main_v106) :=
  agg2B (W24 (F := Ideal) m ρ c) (R12 m' c) (F12 h) (((R12_arg3 (m' := m') (c := c)).trans h.h3).trans (W24_arg3 m ρ c).symm) (((R12_arg4 (m' := m') (c := c)).trans h.h4).trans (W24_arg4 m ρ c).symm)

theorem R13_v163 : R13 m' c (Proc.devRef .tc Cert.ReferenceIdeal.main_v163) = R12 m' c (Proc.devRef .tc Cert.ReferenceIdeal.main_v163) := kept_S13 _ (by decide)

theorem F14 (h : Ag m ρ m' c) : R14 m' c (Proc.devRef .tc Cert.ReferenceIdeal.main_v184) = W26 (F := Ideal) m ρ c (Proc.devRef .tc Cert.KernelIdeal.main_v109) := by
  rw [K26_v109, W25_v108, W25_v107, W24_v67, W23_v67, W20_v67, W25_arg17 m ρ c, W24_arg18 m ρ c]
  dsimp only [R14]
  rw [RR14, F13 h, R13_v163, F12n h, ((R13_arg17 (m' := m') (c := c)).trans h.h17), ((R13_arg18 (m' := m') (c := c)).trans h.h18)]
  exact gconvHost_eq _ _ _ _ _ _

theorem F15a (h : Ag m ρ m' c) : R15 m' c (Proc.devRef .tc Cert.ReferenceIdeal.main_v187) = W29 (F := Ideal) m ρ c (Proc.devRef .tc Cert.KernelIdeal.main_v112) := mean2B (W26 (F := Ideal) m ρ c) (R14 m' c) (F14 h)
theorem F15b (h : Ag m ρ m' c) : R15 m' c (Proc.devRef .tc Cert.ReferenceIdeal.main_v188) = W29 (F := Ideal) m ρ c (Proc.devRef .tc Cert.KernelIdeal.main_v113) := var2B (W26 (F := Ideal) m ρ c) (R14 m' c) (F14 h)

theorem R15_v184 : R15 m' c (Proc.devRef .tc Cert.ReferenceIdeal.main_v184) = R14 m' c (Proc.devRef .tc Cert.ReferenceIdeal.main_v184) := kept_S15 _ (by decide)

theorem F16 (h : Ag m ρ m' c) : R16 m' c (Proc.devRef .tc Cert.ReferenceIdeal.main_v203) = bnHost (W26 (F := Ideal) m ρ c (Proc.devRef .tc Cert.KernelIdeal.main_v109)) (W29 (F := Ideal) m ρ c (Proc.devRef .tc Cert.KernelIdeal.main_v112)) (W29 (F := Ideal) m ρ c (Proc.devRef .tc Cert.KernelIdeal.main_v113)) (W0 (F := Ideal) m ρ c (Proc.devRef .tc Cert.KernelIdeal.main_arg19)) (W0 (F := Ideal) m ρ c (Proc.devRef .tc Cert.KernelIdeal.main_arg20)) := by
  dsimp only [R16]
  rw [RR16, R15_v184, F14 h, F15a h, F15b h, ((R15_arg19 (m' := m') (c := c)).trans h.h19), ((R15_arg20 (m' := m') (c := c)).trans h.h20)]

theorem R16_v101 : R16 m' c (Proc.devRef .tc Cert.ReferenceIdeal.main_v101) = R8 m' c (Proc.devRef .tc Cert.ReferenceIdeal.main_v101) :=
  (kept_S16 _ (by decide)).trans ((kept_S15 _ (by decide)).trans ((kept_S14 _ (by decide)).trans ((kept_S13 _ (by decide)).trans
    ((kept_S12 _ (by decide)).trans ((kept_S11 _ (by decide)).trans ((kept_S10 _ (by decide)).trans (kept_S9 _ (by decide))))))))

/-! ## The fusion head -/

theorem F17 (h : Ag m ρ m' c) : R17 m' c (Proc.devRef .tc Cert.ReferenceIdeal.main_v236) = W30 (F := Ideal) m ρ c (Proc.devRef .tc Cert.KernelIdeal.main_v130) := by
  rw [K30_v130, W29_v52, W29_v109, W29_v118, W29_v119, W29_v120, W29_v121, W29_v122, W29_v123, W29_v124, W29_v125, W29_v114, W29_v115, W29_v116, W29_v117, W29_v126, W29_v127, W29_v128, W29_v129, W26_v52, W25_v52, W24_v52, W23_v52, W20_v52, W19_v52, W26_v55, W25_v55, W24_v55, W23_v55, W20_v55, W26_v56, W25_v56, W24_v56, W23_v56, W20_v56, W29_arg24 m ρ c, W29_arg26 m ρ c, W26_arg11 m ρ c, W26_arg12 m ρ c, W26_arg19 m ρ c, W26_arg20 m ρ c, W26_arg21 m ρ c, W26_arg22 m ρ c, W26_arg23 m ρ c, W26_arg25 m ρ c, W26_arg27 m ρ c]
  dsimp only [R17]
  rw [RR17, R16_v101, F8 h, F16 h, ((R16_arg21 (m' := m') (c := c)).trans h.h21), ((R16_arg22 (m' := m') (c := c)).trans h.h22), ((R16_arg23 (m' := m') (c := c)).trans h.h23), ((R16_arg24 (m' := m') (c := c)).trans h.h24), ((R16_arg25 (m' := m') (c := c)).trans h.h25), ((R16_arg26 (m' := m') (c := c)).trans h.h26), ((R16_arg27 (m' := m') (c := c)).trans h.h27)]
  exact fuseHost_eq _ _ _ _ _ _ _ _ _ _ _ _ _ _ _ _ _ _ _ _ _ _ _ _

/-- The reference's result array is the kernel's. -/
theorem final (h : Ag m ρ m' c) : R17 m' c (Proc.devRef .tc Cert.ReferenceIdeal.main_v236) = W30 (F := Ideal) m ρ c (Proc.devRef .tc Cert.KernelIdeal.main_v130) := F17 h

end Cert.Bridge

end
-- ==== Proof.lean ====
/-
  The certificate of a two-branch graph network: per branch two graph-convolution layers with batch normalisation, then
  a gated fusion head. The kernel program runs the dense half of every layer, the first layer's normalisation and the
  whole fusion head in seven tiled regions and the rest (degree normalisations, gather and scatter-add, column
  statistics) on the host; the reference runs everything on the host. At the ideal instance — floats as extended reals,
  changes of float format the identity — the two compute the same array: the shared host computations are the same
  operations, a region's output array is its stage's function of the whole input arrays (a tile of rows of a product is
  the product's rows; the rectifier exp v − 1 is the reference's expm1; the logistic is the spelt-out sigmoid; a
  contraction against four blocks laid side by side is the sum of the four contractions), and no law used needs the
  inputs finite. The frames of the two kernel programs are the generated ones; the reference's frame and run are its
  straight line of host operations; the idealization rewrote nothing.
-/
import proofs.«107288_j13769665151544_2_alg».proof.Defs
import proofs.«107288_j13769665151544_2_alg».proof.Proof.Gen.Kernel
import proofs.«107288_j13769665151544_2_alg».proof.Proof.Gen.Kernel.Skeleton
import proofs.«107288_j13769665151544_2_alg».proof.Proof.Gen.Kernel.Launch
import proofs.«107288_j13769665151544_2_alg».proof.Proof.Gen.Kernel.Points
import proofs.«107288_j13769665151544_2_alg».proof.Proof.Gen.Kernel.Frame
import proofs.«107288_j13769665151544_2_alg».proof.Proof.Gen.KernelIdeal
import proofs.«107288_j13769665151544_2_alg».proof.Proof.Gen.KernelIdeal.Skeleton
import proofs.«107288_j13769665151544_2_alg».proof.Proof.Gen.KernelIdeal.Launch
import proofs.«107288_j13769665151544_2_alg».proof.Proof.Gen.KernelIdeal.Points
import proofs.«107288_j13769665151544_2_alg».proof.Proof.Gen.KernelIdeal.Frame
import proofs.«107288_j13769665151544_2_alg».proof.Proof.Gen.ReferenceIdeal
import proofs.«107288_j13769665151544_2_alg».proof.Proof.Gen.Pre_finite_inputs
import proofs.«107288_j13769665151544_2_alg».proof.Proof.KerRun
import proofs.«107288_j13769665151544_2_alg».proof.Proof.RefRun
import proofs.«107288_j13769665151544_2_alg».proof.Proof.RefFrame
import proofs.«107288_j13769665151544_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

set_option maxHeartbeats 4000000 in
/-- From launch memories that agree on the arguments both idealized programs run, their arguments end unchanged, and the
    reference's result array is the kernel's: the kernel's run names its result as the last boundary's contents at the
    last region's output, the reference's as the fold of its line, and the two are equal piece by piece. -/
theorem algebraic : Cert.algebraic_KernelIdeal_ReferenceIdeal
    (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Gen.W30 (F := Ideal) m ρ c (Proc.devRef .tc Cert.KernelIdeal.main_v130), Cert.KernelIdeal.Hand.run_result m ρ, ?_⟩
  refine (θ_run Cert.ReferenceIdeal.defs _ _).mono (fun r hr c => ?_) (Cert.ReferenceIdeal.Hand.run (F := Ideal) m' ρ')
  obtain ⟨a0, a1, a2, a3, a4, a5, a6, a7, a8, a9, a10, a11, a12, a13, a14, a15, a16, a17, a18, a19, a20, a21, a22, a23, a24, a25, a26, a27⟩ := hagree c
  refine ⟨?_,
        (hr c Cert.ReferenceIdeal.main_arg0).trans (Cert.ReferenceIdeal.Hand.kept_main_arg0 _),
        (hr c Cert.ReferenceIdeal.main_arg1).trans (Cert.ReferenceIdeal.Hand.kept_main_arg1 _),
        (hr c Cert.ReferenceIdeal.main_arg2).trans (Cert.ReferenceIdeal.Hand.kept_main_arg2 _),
        (hr c Cert.ReferenceIdeal.main_arg3).trans (Cert.ReferenceIdeal.Hand.kept_main_arg3 _),
        (hr c Cert.ReferenceIdeal.main_arg4).trans (Cert.ReferenceIdeal.Hand.kept_main_arg4 _),
        (hr c Cert.ReferenceIdeal.main_arg5).trans (Cert.ReferenceIdeal.Hand.kept_main_arg5 _),
        (hr c Cert.ReferenceIdeal.main_arg6).trans (Cert.ReferenceIdeal.Hand.kept_main_arg6 _),
        (hr c Cert.ReferenceIdeal.main_arg7).trans (Cert.ReferenceIdeal.Hand.kept_main_arg7 _),
        (hr c Cert.ReferenceIdeal.main_arg8).trans (Cert.ReferenceIdeal.Hand.kept_main_arg8 _),
        (hr c Cert.ReferenceIdeal.main_arg9).trans (Cert.ReferenceIdeal.Hand.kept_main_arg9 _),
        (hr c Cert.ReferenceIdeal.main_arg10).trans (Cert.ReferenceIdeal.Hand.kept_main_arg10 _),
        (hr c Cert.ReferenceIdeal.main_arg11).trans (Cert.ReferenceIdeal.Hand.kept_main_arg11 _),
        (hr c Cert.ReferenceIdeal.main_arg12).trans (Cert.ReferenceIdeal.Hand.kept_main_arg12 _),
        (hr c Cert.ReferenceIdeal.main_arg13).trans (Cert.ReferenceIdeal.Hand.kept_main_arg13 _),
        (hr c Cert.ReferenceIdeal.main_arg14).trans (Cert.ReferenceIdeal.Hand.kept_main_arg14 _),
        (hr c Cert.ReferenceIdeal.main_arg15).trans (Cert.ReferenceIdeal.Hand.kept_main_arg15 _),
        (hr c Cert.ReferenceIdeal.main_arg16).trans (Cert.ReferenceIdeal.Hand.kept_main_arg16 _),
        (hr c Cert.ReferenceIdeal.main_arg17).trans (Cert.ReferenceIdeal.Hand.kept_main_arg17 _),
        (hr c Cert.ReferenceIdeal.main_arg18).trans (Cert.ReferenceIdeal.Hand.kept_main_arg18 _),
        (hr c Cert.ReferenceIdeal.main_arg19).trans (Cert.ReferenceIdeal.Hand.kept_main_arg19 _),
        (hr c Cert.ReferenceIdeal.main_arg20).trans (Cert.ReferenceIdeal.Hand.kept_main_arg20 _),
        (hr c Cert.ReferenceIdeal.main_arg21).trans (Cert.ReferenceIdeal.Hand.kept_main_arg21 _),
        (hr c Cert.ReferenceIdeal.main_arg22).trans (Cert.ReferenceIdeal.Hand.kept_main_arg22 _),
        (hr c Cert.ReferenceIdeal.main_arg23).trans (Cert.ReferenceIdeal.Hand.kept_main_arg23 _),
        (hr c Cert.ReferenceIdeal.main_arg24).trans (Cert.ReferenceIdeal.Hand.kept_main_arg24 _),
        (hr c Cert.ReferenceIdeal.main_arg25).trans (Cert.ReferenceIdeal.Hand.kept_main_arg25 _),
        (hr c Cert.ReferenceIdeal.main_arg26).trans (Cert.ReferenceIdeal.Hand.kept_main_arg26 _),
        (hr c Cert.ReferenceIdeal.main_arg27).trans (Cert.ReferenceIdeal.Hand.kept_main_arg27 _)⟩
  rw [hr c Cert.ReferenceIdeal.main_v236]
  exact (congrFun (Cert.Bridge.R17_eq m' c) _).trans
    (Cert.Bridge.final (m := m) (ρ := ρ) (m' := m') (c := c) ⟨a0, a1, a2, a3, a4, a5, a6, a7, a8, a9, a10, a11, a12, a13, a14, a15, a16, a17, a18, a19, a20, a21, a22, a23, a24, a25, a26, a27⟩)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.ReferenceIdeal.Hand.frame,
  trivial,
  algebraic⟩

end Cert.Proof

end
